-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S100000x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S4096x200 32 := broadcastInDim S4096x200 ![] bcast_S_S4096x200 main_c_0
  let main_v5 : IVec S4096x200 1 := cmpi .sge main_arg0 main_v4
  let main_c_1 : IVec S_ 32 := constantI S_ 32 99999#32
  let main_v6 : IVec S4096x200 32 := broadcastInDim S4096x200 ![] bcast_S_S4096x200 main_c_1
  let main_v7 : IVec S4096x200 1 := cmpi .sle main_arg0 main_v6
  let main_v8 : IVec S4096x200 1 := andi main_v5 main_v7
  let main_c_2 : IVec S_ 1 := constantI S_ 1 1#1
  let main_v9 : IVec S_ 1 := (fun x v => Host.reduce IntOp.andi x v reducesTo_S4096x200_S_d0_1 h_S_) main_v8 main_c_2
  let main_v10 : IVec S_ 1 := andi main_v3 main_v9
  main_v10
-- ==== Kernel.lean ====
abbrev S4096x200 : Shape := ⟨2, ![4096, 200]⟩
abbrev S100000x128 : Shape := ⟨2, ![100000, 128]⟩
abbrev S4096x2x100 : Shape := ⟨3, ![4096, 2, 100]⟩
abbrev S4096x128 : Shape := ⟨2, ![4096, 128]⟩
abbrev S128x2x100 : Shape := ⟨3, ![128, 2, 100]⟩
abbrev S100x128 : Shape := ⟨2, ![100, 128]⟩
abbrev S128x128 : Shape := ⟨2, ![128, 128]⟩
abbrev S_ : Shape := ⟨0, ![]⟩
abbrev S3x2x100 : Shape := ⟨3, ![3, 2, 100]⟩
abbrev S125x2x100 : Shape := ⟨3, ![125, 2, 100]⟩
abbrev S16 : Shape := ⟨1, ![16]⟩
abbrev S1x1x100 : Shape := ⟨3, ![1, 1, 100]⟩
abbrev S100 : Shape := ⟨1, ![100]⟩
abbrev S1x16 : Shape := ⟨2, ![1, 16]⟩

abbrev nBuf : Table → Nat
  | .hbm => 4
  | .local .scVector .vmem => 8
  | _ => 0

abbrev bufTy : (tb : Table) → Fin (nBuf tb) → BufTy
  | .hbm, ⟨0, _⟩ => ⟨S4096x200, .i32⟩
  | .hbm, ⟨1, _⟩ => ⟨S100000x128, .f32⟩
  | .hbm, ⟨2, _⟩ => ⟨S4096x2x100, .i32⟩
  | .hbm, ⟨3, _⟩ => ⟨S4096x128, .f32⟩
  | .local .scVector .vmem, ⟨0, _⟩ => ⟨S128x2x100, .i32⟩
  | .local .scVector .vmem, ⟨1, _⟩ => ⟨S100x128, .f32⟩
  | .local .scVector .vmem, ⟨2, _⟩ => ⟨S100x128, .f32⟩
  | .local .scVector .vmem, ⟨3, _⟩ => ⟨S100x128, .f32⟩
  | .local .scVector .vmem, ⟨4, _⟩ => ⟨S100x128, .f32⟩
  | .local .scVector .vmem, ⟨5, _⟩ => ⟨S100x128, .f32⟩
  | .local .scVector .vmem, ⟨6, _⟩ => ⟨S100x128, .f32⟩
  | .local .scVector .vmem, ⟨7, _⟩ => ⟨S128x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg1_scv : Ref sig .scVector := ⟨.hbm, 1, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_118_r0 : BitVec 32 := 0#32
  let c0_i32_119_r0 : BitVec 32 := 0#32
  ![v2.toNat, 0, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c3_i32 : BitVec 32 := 3#32
  let v3 : BitVec 32 := Scalar.addi v2 c3_i32
  let c0_i32_2 : BitVec 32 := 0#32
  let c0_i32_3 : BitVec 32 := 0#32
  ![v3.toNat, 0, 0]
@[reducible] def k0_t1_loop : Scf.Loop 32 :=
  let c0_i32_55 : BitVec 32 := 0#32
  let c42_i32 : BitVec 32 := 42#32
  let v38 : BitVec 32 := Scalar.addi c0_i32_55 c42_i32
  let c1_i32_56 : BitVec 32 := 1#32
  ⟨c0_i32_55, v38, c1_i32_56⟩
def k0_off3 (k0_t1 : Fin k0_t1_loop.trips) (c0_i32_116 : BitVec 32) : Fin 3 → Nat :=
  let c0_i32_55 : BitVec 32 := 0#32
  let c1_i32_56 : BitVec 32 := 1#32
  let arg20 : BitVec 32 := Scf.iv c0_i32_55 c1_i32_56 k0_t1
  let c3_i32_115 : BitVec 32 := 3#32
  let v123 : BitVec 32 := Scalar.muli arg20 c3_i32_115
  let v124 : BitVec 32 := Scalar.addi v123 c0_i32_116
  let c0_i32_117 : BitVec 32 := 0#32
  let c0_i32_118 : BitVec 32 := 0#32
  ![v124.toNat, 0, 0]
@[reducible] def k0_t2_loop : Scf.Loop 32 :=
  let c0_i32_121 : BitVec 32 := 0#32
  let c25_i32_122 : BitVec 32 := 25#32
  let v128 : BitVec 32 := Scalar.addi c0_i32_121 c25_i32_122
  let c1_i32_123 : BitVec 32 := 1#32
  ⟨c0_i32_121, v128, c1_i32_123⟩
def k0_off4 (k0_t2 : Fin k0_t2_loop.trips) (c0_i32_212 : BitVec 32) : Fin 2 → Nat :=
  let c0_i32_121 : BitVec 32 := 0#32
  let c1_i32_123 : BitVec 32 := 1#32
  let arg21 : BitVec 32 := Scf.iv c0_i32_121 c1_i32_123 k0_t2
  let c4_i32 : BitVec 32 := 4#32
  let v280 : BitVec 32 := Scalar.muli arg21 c4_i32
  let v281 : BitVec 32 := Scalar.addi v280 c0_i32_212
  let v282 : Index := Scalar.indexCast v281
  let c0_213 : Index := 0#32
  ![v282.toNat, 0]
def k0_off5 (k0_t2 : Fin k0_t2_loop.trips) (c0_i32_220 : BitVec 32) : Fin 2 → Nat :=
  let c0_i32_121 : BitVec 32 := 0#32
  let c1_i32_123 : BitVec 32 := 1#32
  let arg21 : BitVec 32 := Scf.iv c0_i32_121 c1_i32_123 k0_t2
  let c4_i32 : BitVec 32 := 4#32
  let v280 : BitVec 32 := Scalar.muli arg21 c4_i32
  let v301 : BitVec 32 := Scalar.addi v280 c0_i32_220
  let v302 : Index := Scalar.indexCast v301
  let c16_221 : Index := 16#32
  ![v302.toNat, 16]
def k0_off6 (k0_t2 : Fin k0_t2_loop.trips) (c0_i32_228 : BitVec 32) : Fin 2 → Nat :=
  let c0_i32_121 : BitVec 32 := 0#32
  let c1_i32_123 : BitVec 32 := 1#32
  let arg21 : BitVec 32 := Scf.iv c0_i32_121 c1_i32_123 k0_t2
  let c4_i32 : BitVec 32 := 4#32
  let v280 : BitVec 32 := Scalar.muli arg21 c4_i32
  let v321 : BitVec 32 := Scalar.addi v280 c0_i32_228
  let v322 : Index := Scalar.indexCast v321
  let c32_229 : Index := 32#32
  ![v322.toNat, 32]
def k0_off7 (k0_t2 : Fin k0_t2_loop.trips) (c0_i32_236 : BitVec 32) : Fin 2 → Nat :=
  let c0_i32_121 : BitVec 32 := 0#32
  let c1_i32_123 : BitVec 32 := 1#32
  let arg21 : BitVec 32 := Scf.iv c0_i32_121 c1_i32_123 k0_t2
  let c4_i32 : BitVec 32 := 4#32
  let v280 : BitVec 32 := Scalar.muli arg21 c4_i32
  let v341 : BitVec 32 := Scalar.addi v280 c0_i32_236
  let v342 : Index := Scalar.indexCast v341
  let c48_237 : Index := 48#32
  ![v342.toNat, 48]
def k0_off8 (k0_t2 : Fin k0_t2_loop.trips) (c0_i32_244 : BitVec 32) : Fin 2 → Nat :=
  let c0_i32_121 : BitVec 32 := 0#32
  let c1_i32_123 : BitVec 32 := 1#32
  let arg21 : BitVec 32 := Scf.iv c0_i32_121 c1_i32_123 k0_t2
  let c4_i32 : BitVec 32 := 4#32
  let v280 : BitVec 32 := Scalar.muli arg21 c4_i32
  let v361 : BitVec 32 := Scalar.addi v280 c0_i32_244
  let v362 : Index := Scalar.indexCast v361
  let c64_245 : Index := 64#32
  ![v362.toNat, 64]
def k0_off9 (k0_t2 : Fin k0_t2_loop.trips) (c0_i32_252 : BitVec 32) : Fin 2 → Nat :=
  let c0_i32_121 : BitVec 32 := 0#32
  let c1_i32_123 : BitVec 32 := 1#32
  let arg21 : BitVec 32 := Scf.iv c0_i32_121 c1_i32_123 k0_t2
  let c4_i32 : BitVec 32 := 4#32
  let v280 : BitVec 32 := Scalar.muli arg21 c4_i32
  let v381 : BitVec 32 := Scalar.addi v280 c0_i32_252
  let v382 : Index := Scalar.indexCast v381
  let c80_253 : Index := 80#32
  ![v382.toNat, 80]
def k0_off10 (k0_t2 : Fin k0_t2_loop.trips) (c0_i32_260 : BitVec 32) : Fin 2 → Nat :=
  let c0_i32_121 : BitVec 32 := 0#32
  let c1_i32_123 : BitVec 32 := 1#32
  let arg21 : BitVec 32 := Scf.iv c0_i32_121 c1_i32_123 k0_t2
  let c4_i32 : BitVec 32 := 4#32
  let v280 : BitVec 32 := Scalar.muli arg21 c4_i32
  let v401 : BitVec 32 := Scalar.addi v280 c0_i32_260
  let v402 : Index := Scalar.indexCast v401
  let c96_261 : Index := 96#32
  ![v402.toNat, 96]
def k0_off11 (k0_t2 : Fin k0_t2_loop.trips) (c0_i32_268 : BitVec 32) : Fin 2 → Nat :=
  let c0_i32_121 : BitVec 32 := 0#32
  let c1_i32_123 : BitVec 32 := 1#32
  let arg21 : BitVec 32 := Scf.iv c0_i32_121 c1_i32_123 k0_t2
  let c4_i32 : BitVec 32 := 4#32
  let v280 : BitVec 32 := Scalar.muli arg21 c4_i32
  let v421 : BitVec 32 := Scalar.addi v280 c0_i32_268
  let v422 : Index := Scalar.indexCast v421
  let c112_269 : Index := 112#32
  ![v422.toNat, 112]
def k0_cond1 (k0_t1 : Fin k0_t1_loop.trips) : BitVec 1 :=
  let c0_i32_55 : BitVec 32 := 0#32
  let c1_i32_56 : BitVec 32 := 1#32
  let arg20 : BitVec 32 := Scf.iv c0_i32_55 c1_i32_56 k0_t1
  let c3_i32_115 : BitVec 32 := 3#32
  let v123 : BitVec 32 := Scalar.muli arg20 c3_i32_115
  let c0_i32_116 : BitVec 32 := 0#32
  let v124 : BitVec 32 := Scalar.addi v123 c0_i32_116
  let c3_i32_125 : BitVec 32 := 3#32
  let v130 : BitVec 32 := Scalar.addi v124 c3_i32_125
  let c128_i32_126 : BitVec 32 := 128#32
  let v131 : BitVec 1 := Scalar.cmpi .slt v130 c128_i32_126
  let v132 : BitVec 32 := Scalar.extui v131
  let c0_i32_127 : BitVec 32 := 0#32
  let v133 : BitVec 1 := Scalar.cmpi .ne v132 c0_i32_127
  v133

def k0_off12 (k0_t1 : Fin k0_t1_loop.trips) : Fin 3 → Nat :=
  let c0_i32_55 : BitVec 32 := 0#32
  let c1_i32_56 : BitVec 32 := 1#32
  let arg20 : BitVec 32 := Scf.iv c0_i32_55 c1_i32_56 k0_t1
  let c3_i32_115 : BitVec 32 := 3#32
  let v123 : BitVec 32 := Scalar.muli arg20 c3_i32_115
  let c0_i32_116 : BitVec 32 := 0#32
  let v124 : BitVec 32 := Scalar.addi v123 c0_i32_116
  let c3_i32_212 : BitVec 32 := 3#32
  let v280 : BitVec 32 := Scalar.addi v124 c3_i32_212
  let c0_i32_213 : BitVec 32 := 0#32
  let c0_i32_214 : BitVec 32 := 0#32
  ![v280.toNat, 0, 0]
def k0_off13 (k0_t1 : Fin k0_t1_loop.trips) (c0_i32_128 : BitVec 32) : Fin 3 → Nat :=
  let c0_i32_55 : BitVec 32 := 0#32
  let c1_i32_56 : BitVec 32 := 1#32
  let arg20 : BitVec 32 := Scf.iv c0_i32_55 c1_i32_56 k0_t1
  let c3_i32_115 : BitVec 32 := 3#32
  let v123 : BitVec 32 := Scalar.muli arg20 c3_i32_115
  let v134 : BitVec 32 := Scalar.addi v123 c0_i32_128
  let c1_i32_129 : BitVec 32 := 1#32
  let c0_i32_130 : BitVec 32 := 0#32
  ![v134.toNat, 1, 0]
@[reducible] def k0_t3_loop : Scf.Loop 32 :=
  let c0_i32_133 : BitVec 32 := 0#32
  let c25_i32_134 : BitVec 32 := 25#32
  let v138 : BitVec 32 := Scalar.addi c0_i32_133 c25_i32_134
  let c1_i32_135 : BitVec 32 := 1#32
  ⟨c0_i32_133, v138, c1_i32_135⟩
def k0_off14 (k0_t3 : Fin k0_t3_loop.trips) (c0_i32_212 : BitVec 32) : Fin 2 → Nat :=
  let c0_i32_133 : BitVec 32 := 0#32
  let c1_i32_135 : BitVec 32 := 1#32
  let arg21 : BitVec 32 := Scf.iv c0_i32_133 c1_i32_135 k0_t3
  let c4_i32 : BitVec 32 := 4#32
  let v280 : BitVec 32 := Scalar.muli arg21 c4_i32
  let v281 : BitVec 32 := Scalar.addi v280 c0_i32_212
  let v282 : Index := Scalar.indexCast v281
  let c0_213 : Index := 0#32
  ![v282.toNat, 0]
def k0_off15 (k0_t3 : Fin k0_t3_loop.trips) (c0_i32_220 : BitVec 32) : Fin 2 → Nat :=
  let c0_i32_133 : BitVec 32 := 0#32
  let c1_i32_135 : BitVec 32 := 1#32
  let arg21 : BitVec 32 := Scf.iv c0_i32_133 c1_i32_135 k0_t3
  let c4_i32 : BitVec 32 := 4#32
  let v280 : BitVec 32 := Scalar.muli arg21 c4_i32
  let v301 : BitVec 32 := Scalar.addi v280 c0_i32_220
  let v302 : Index := Scalar.indexCast v301
  let c16_221 : Index := 16#32
  ![v302.toNat, 16]
def k0_off16 (k0_t3 : Fin k0_t3_loop.trips) (c0_i32_228 : BitVec 32) : Fin 2 → Nat :=
  let c0_i32_133 : BitVec 32 := 0#32
  let c1_i32_135 : BitVec 32 := 1#32
  let arg21 : BitVec 32 := Scf.iv c0_i32_133 c1_i32_135 k0_t3
  let c4_i32 : BitVec 32 := 4#32
  let v280 : BitVec 32 := Scalar.muli arg21 c4_i32
  let v321 : BitVec 32 := Scalar.addi v280 c0_i32_228
  let v322 : Index := Scalar.indexCast v321
  let c32_229 : Index := 32#32
  ![v322.toNat, 32]
def k0_off17 (k0_t3 : Fin k0_t3_loop.trips) (c0_i32_236 : BitVec 32) : Fin 2 → Nat :=
  let c0_i32_133 : BitVec 32 := 0#32
  let c1_i32_135 : BitVec 32 := 1#32
  let arg21 : BitVec 32 := Scf.iv c0_i32_133 c1_i32_135 k0_t3
  let c4_i32 : BitVec 32 := 4#32
  let v280 : BitVec 32 := Scalar.muli arg21 c4_i32
  let v341 : BitVec 32 := Scalar.addi v280 c0_i32_236
  let v342 : Index := Scalar.indexCast v341
  let c48_237 : Index := 48#32
  ![v342.toNat, 48]
def k0_off18 (k0_t3 : Fin k0_t3_loop.trips) (c0_i32_244 : BitVec 32) : Fin 2 → Nat :=
  let c0_i32_133 : BitVec 32 := 0#32
  let c1_i32_135 : BitVec 32 := 1#32
  let arg21 : BitVec 32 := Scf.iv c0_i32_133 c1_i32_135 k0_t3
  let c4_i32 : BitVec 32 := 4#32
  let v280 : BitVec 32 := Scalar.muli arg21 c4_i32
  let v361 : BitVec 32 := Scalar.addi v280 c0_i32_244
  let v362 : Index := Scalar.indexCast v361
  let c64_245 : Index := 64#32
  ![v362.toNat, 64]
def k0_off19 (k0_t3 : Fin k0_t3_loop.trips) (c0_i32_252 : BitVec 32) : Fin 2 → Nat :=
  let c0_i32_133 : BitVec 32 := 0#32
  let c1_i32_135 : BitVec 32 := 1#32
  let arg21 : BitVec 32 := Scf.iv c0_i32_133 c1_i32_135 k0_t3
  let c4_i32 : BitVec 32 := 4#32
  let v280 : BitVec 32 := Scalar.muli arg21 c4_i32
  let v381 : BitVec 32 := Scalar.addi v280 c0_i32_252
  let v382 : Index := Scalar.indexCast v381
  let c80_253 : Index := 80#32
  ![v382.toNat, 80]
def k0_off20 (k0_t3 : Fin k0_t3_loop.trips) (c0_i32_260 : BitVec 32) : Fin 2 → Nat :=
  let c0_i32_133 : BitVec 32 := 0#32
  let c1_i32_135 : BitVec 32 := 1#32
  let arg21 : BitVec 32 := Scf.iv c0_i32_133 c1_i32_135 k0_t3
  let c4_i32 : BitVec 32 := 4#32
  let v280 : BitVec 32 := Scalar.muli arg21 c4_i32
  let v401 : BitVec 32 := Scalar.addi v280 c0_i32_260
  let v402 : Index := Scalar.indexCast v401
  let c96_261 : Index := 96#32
  ![v402.toNat, 96]
def k0_off21 (k0_t3 : Fin k0_t3_loop.trips) (c0_i32_268 : BitVec 32) : Fin 2 → Nat :=
  let c0_i32_133 : BitVec 32 := 0#32
  let c1_i32_135 : BitVec 32 := 1#32
  let arg21 : BitVec 32 := Scf.iv c0_i32_133 c1_i32_135 k0_t3
  let c4_i32 : BitVec 32 := 4#32
  let v280 : BitVec 32 := Scalar.muli arg21 c4_i32
  let v421 : BitVec 32 := Scalar.addi v280 c0_i32_268
  let v422 : Index := Scalar.indexCast v421
  let c112_269 : Index := 112#32
  ![v422.toNat, 112]
def k0_off22 (k0_t1 : Fin k0_t1_loop.trips) (c0_i32_128 : BitVec 32) : Fin 2 → Nat :=
  let c0_i32_55 : BitVec 32 := 0#32
  let c1_i32_56 : BitVec 32 := 1#32
  let arg20 : BitVec 32 := Scf.iv c0_i32_55 c1_i32_56 k0_t1
  let c3_i32_115 : BitVec 32 := 3#32
  let v123 : BitVec 32 := Scalar.muli arg20 c3_i32_115
  let v134 : BitVec 32 := Scalar.addi v123 c0_i32_128
  let v140 : Index := Scalar.indexCast v134
  let c0_137 : Index := 0#32
  ![v140.toNat, 0]
def k0_off23 (k0_t1 : Fin k0_t1_loop.trips) (c0_i32_128 : BitVec 32) : Fin 2 → Nat :=
  let c0_i32_55 : BitVec 32 := 0#32
  let c1_i32_56 : BitVec 32 := 1#32
  let arg20 : BitVec 32 := Scf.iv c0_i32_55 c1_i32_56 k0_t1
  let c3_i32_115 : BitVec 32 := 3#32
  let v123 : BitVec 32 := Scalar.muli arg20 c3_i32_115
  let v134 : BitVec 32 := Scalar.addi v123 c0_i32_128
  let v144 : Index := Scalar.indexCast v134
  let c16_138 : Index := 16#32
  ![v144.toNat, 16]
def k0_off24 (k0_t1 : Fin k0_t1_loop.trips) (c0_i32_128 : BitVec 32) : Fin 2 → Nat :=
  let c0_i32_55 : BitVec 32 := 0#32
  let c1_i32_56 : BitVec 32 := 1#32
  let arg20 : BitVec 32 := Scf.iv c0_i32_55 c1_i32_56 k0_t1
  let c3_i32_115 : BitVec 32 := 3#32
  let v123 : BitVec 32 := Scalar.muli arg20 c3_i32_115
  let v134 : BitVec 32 := Scalar.addi v123 c0_i32_128
  let v148 : Index := Scalar.indexCast v134
  let c32_139 : Index := 32#32
  ![v148.toNat, 32]
def k0_off25 (k0_t1 : Fin k0_t1_loop.trips) (c0_i32_128 : BitVec 32) : Fin 2 → Nat :=
  let c0_i32_55 : BitVec 32 := 0#32
  let c1_i32_56 : BitVec 32 := 1#32
  let arg20 : BitVec 32 := Scf.iv c0_i32_55 c1_i32_56 k0_t1
  let c3_i32_115 : BitVec 32 := 3#32
  let v123 : BitVec 32 := Scalar.muli arg20 c3_i32_115
  let v134 : BitVec 32 := Scalar.addi v123 c0_i32_128
  let v152 : Index := Scalar.indexCast v134
  let c48_140 : Index := 48#32
  ![v152.toNat, 48]
def k0_off26 (k0_t1 : Fin k0_t1_loop.trips) (c0_i32_128 : BitVec 32) : Fin 2 → Nat :=
  let c0_i32_55 : BitVec 32 := 0#32
  let c1_i32_56 : BitVec 32 := 1#32
  let arg20 : BitVec 32 := Scf.iv c0_i32_55 c1_i32_56 k0_t1
  let c3_i32_115 : BitVec 32 := 3#32
  let v123 : BitVec 32 := Scalar.muli arg20 c3_i32_115
  let v134 : BitVec 32 := Scalar.addi v123 c0_i32_128
  let v156 : Index := Scalar.indexCast v134
  let c64_141 : Index := 64#32
  ![v156.toNat, 64]
def k0_off27 (k0_t1 : Fin k0_t1_loop.trips) (c0_i32_128 : BitVec 32) : Fin 2 → Nat :=
  let c0_i32_55 : BitVec 32 := 0#32
  let c1_i32_56 : BitVec 32 := 1#32
  let arg20 : BitVec 32 := Scf.iv c0_i32_55 c1_i32_56 k0_t1
  let c3_i32_115 : BitVec 32 := 3#32
  let v123 : BitVec 32 := Scalar.muli arg20 c3_i32_115
  let v134 : BitVec 32 := Scalar.addi v123 c0_i32_128
  let v160 : Index := Scalar.indexCast v134
  let c80_142 : Index := 80#32
  ![v160.toNat, 80]
def k0_off28 (k0_t1 : Fin k0_t1_loop.trips) (c0_i32_128 : BitVec 32) : Fin 2 → Nat :=
  let c0_i32_55 : BitVec 32 := 0#32
  let c1_i32_56 : BitVec 32 := 1#32
  let arg20 : BitVec 32 := Scf.iv c0_i32_55 c1_i32_56 k0_t1
  let c3_i32_115 : BitVec 32 := 3#32
  let v123 : BitVec 32 := Scalar.muli arg20 c3_i32_115
  let v134 : BitVec 32 := Scalar.addi v123 c0_i32_128
  let v164 : Index := Scalar.indexCast v134
  let c96_143 : Index := 96#32
  ![v164.toNat, 96]
def k0_off29 (k0_t1 : Fin k0_t1_loop.trips) (c0_i32_128 : BitVec 32) : Fin 2 → Nat :=
  let c0_i32_55 : BitVec 32 := 0#32
  let c1_i32_56 : BitVec 32 := 1#32
  let arg20 : BitVec 32 := Scf.iv c0_i32_55 c1_i32_56 k0_t1
  let c3_i32_115 : BitVec 32 := 3#32
  let v123 : BitVec 32 := Scalar.muli arg20 c3_i32_115
  let v134 : BitVec 32 := Scalar.addi v123 c0_i32_128
  let v168 : Index := Scalar.indexCast v134
  let c112_144 : Index := 112#32
  ![v168.toNat, 112]
def k0_cond2 (k0_t1 : Fin k0_t1_loop.trips) : BitVec 1 :=
  let c0_i32_55 : BitVec 32 := 0#32
  let c1_i32_56 : BitVec 32 := 1#32
  let arg20 : BitVec 32 := Scf.iv c0_i32_55 c1_i32_56 k0_t1
  let c3_i32_115 : BitVec 32 := 3#32
  let v123 : BitVec 32 := Scalar.muli arg20 c3_i32_115
  let c0_i32_128 : BitVec 32 := 0#32
  let v134 : BitVec 32 := Scalar.addi v123 c0_i32_128
  let c3_i32_145 : BitVec 32 := 3#32
  let v172 : BitVec 32 := Scalar.addi v134 c3_i32_145
  let c128_i32_146 : BitVec 32 := 128#32
  let v173 : BitVec 1 := Scalar.cmpi .slt v172 c128_i32_146
  let v174 : BitVec 32 := Scalar.extui v173
  let c0_i32_147 : BitVec 32 := 0#32
  let v175 : BitVec 1 := Scalar.cmpi .ne v174 c0_i32_147
  v175

def k0_off30 (k0_t1 : Fin k0_t1_loop.trips) : Fin 3 → Nat :=
  let c0_i32_55 : BitVec 32 := 0#32
  let c1_i32_56 : BitVec 32 := 1#32
  let arg20 : BitVec 32 := Scf.iv c0_i32_55 c1_i32_56 k0_t1
  let c3_i32_115 : BitVec 32 := 3#32
  let v123 : BitVec 32 := Scalar.muli arg20 c3_i32_115
  let c0_i32_128 : BitVec 32 := 0#32
  let v134 : BitVec 32 := Scalar.addi v123 c0_i32_128
  let c3_i32_212 : BitVec 32 := 3#32
  let v280 : BitVec 32 := Scalar.addi v134 c3_i32_212
  let c1_i32_213 : BitVec 32 := 1#32
  let c0_i32_214 : BitVec 32 := 0#32
  ![v280.toNat, 1, 0]
@[reducible] def k0_t4_loop : Scf.Loop 32 :=
  let c0_i32_153 : BitVec 32 := 0#32
  let c25_i32_154 : BitVec 32 := 25#32
  let v180 : BitVec 32 := Scalar.addi c0_i32_153 c25_i32_154
  let c1_i32_155 : BitVec 32 := 1#32
  ⟨c0_i32_153, v180, c1_i32_155⟩
def k0_off31 (k0_t4 : Fin k0_t4_loop.trips) (c0_i32_212 : BitVec 32) : Fin 2 → Nat :=
  let c0_i32_153 : BitVec 32 := 0#32
  let c1_i32_155 : BitVec 32 := 1#32
  let arg21 : BitVec 32 := Scf.iv c0_i32_153 c1_i32_155 k0_t4
  let c4_i32 : BitVec 32 := 4#32
  let v280 : BitVec 32 := Scalar.muli arg21 c4_i32
  let v281 : BitVec 32 := Scalar.addi v280 c0_i32_212
  let v282 : Index := Scalar.indexCast v281
  let c0_213 : Index := 0#32
  ![v282.toNat, 0]
def k0_off32 (k0_t4 : Fin k0_t4_loop.trips) (c0_i32_220 : BitVec 32) : Fin 2 → Nat :=
  let c0_i32_153 : BitVec 32 := 0#32
  let c1_i32_155 : BitVec 32 := 1#32
  let arg21 : BitVec 32 := Scf.iv c0_i32_153 c1_i32_155 k0_t4
  let c4_i32 : BitVec 32 := 4#32
  let v280 : BitVec 32 := Scalar.muli arg21 c4_i32
  let v301 : BitVec 32 := Scalar.addi v280 c0_i32_220
  let v302 : Index := Scalar.indexCast v301
  let c16_221 : Index := 16#32
  ![v302.toNat, 16]
def k0_off33 (k0_t4 : Fin k0_t4_loop.trips) (c0_i32_228 : BitVec 32) : Fin 2 → Nat :=
  let c0_i32_153 : BitVec 32 := 0#32
  let c1_i32_155 : BitVec 32 := 1#32
  let arg21 : BitVec 32 := Scf.iv c0_i32_153 c1_i32_155 k0_t4
  let c4_i32 : BitVec 32 := 4#32
  let v280 : BitVec 32 := Scalar.muli arg21 c4_i32
  let v321 : BitVec 32 := Scalar.addi v280 c0_i32_228
  let v322 : Index := Scalar.indexCast v321
  let c32_229 : Index := 32#32
  ![v322.toNat, 32]
def k0_off34 (k0_t4 : Fin k0_t4_loop.trips) (c0_i32_236 : BitVec 32) : Fin 2 → Nat :=
  let c0_i32_153 : BitVec 32 := 0#32
  let c1_i32_155 : BitVec 32 := 1#32
  let arg21 : BitVec 32 := Scf.iv c0_i32_153 c1_i32_155 k0_t4
  let c4_i32 : BitVec 32 := 4#32
  let v280 : BitVec 32 := Scalar.muli arg21 c4_i32
  let v341 : BitVec 32 := Scalar.addi v280 c0_i32_236
  let v342 : Index := Scalar.indexCast v341
  let c48_237 : Index := 48#32
  ![v342.toNat, 48]
def k0_off35 (k0_t4 : Fin k0_t4_loop.trips) (c0_i32_244 : BitVec 32) : Fin 2 → Nat :=
  let c0_i32_153 : BitVec 32 := 0#32
  let c1_i32_155 : BitVec 32 := 1#32
  let arg21 : BitVec 32 := Scf.iv c0_i32_153 c1_i32_155 k0_t4
  let c4_i32 : BitVec 32 := 4#32
  let v280 : BitVec 32 := Scalar.muli arg21 c4_i32
  let v361 : BitVec 32 := Scalar.addi v280 c0_i32_244
  let v362 : Index := Scalar.indexCast v361
  let c64_245 : Index := 64#32
  ![v362.toNat, 64]
def k0_off36 (k0_t4 : Fin k0_t4_loop.trips) (c0_i32_252 : BitVec 32) : Fin 2 → Nat :=
  let c0_i32_153 : BitVec 32 := 0#32
  let c1_i32_155 : BitVec 32 := 1#32
  let arg21 : BitVec 32 := Scf.iv c0_i32_153 c1_i32_155 k0_t4
  let c4_i32 : BitVec 32 := 4#32
  let v280 : BitVec 32 := Scalar.muli arg21 c4_i32
  let v381 : BitVec 32 := Scalar.addi v280 c0_i32_252
  let v382 : Index := Scalar.indexCast v381
  let c80_253 : Index := 80#32
  ![v382.toNat, 80]
def k0_off37 (k0_t4 : Fin k0_t4_loop.trips) (c0_i32_260 : BitVec 32) : Fin 2 → Nat :=
  let c0_i32_153 : BitVec 32 := 0#32
  let c1_i32_155 : BitVec 32 := 1#32
  let arg21 : BitVec 32 := Scf.iv c0_i32_153 c1_i32_155 k0_t4
  let c4_i32 : BitVec 32 := 4#32
  let v280 : BitVec 32 := Scalar.muli arg21 c4_i32
  let v401 : BitVec 32 := Scalar.addi v280 c0_i32_260
  let v402 : Index := Scalar.indexCast v401
  let c96_261 : Index := 96#32
  ![v402.toNat, 96]
def k0_off38 (k0_t4 : Fin k0_t4_loop.trips) (c0_i32_268 : BitVec 32) : Fin 2 → Nat :=
  let c0_i32_153 : BitVec 32 := 0#32
  let c1_i32_155 : BitVec 32 := 1#32
  let arg21 : BitVec 32 := Scf.iv c0_i32_153 c1_i32_155 k0_t4
  let c4_i32 : BitVec 32 := 4#32
  let v280 : BitVec 32 := Scalar.muli arg21 c4_i32
  let v421 : BitVec 32 := Scalar.addi v280 c0_i32_268
  let v422 : Index := Scalar.indexCast v421
  let c112_269 : Index := 112#32
  ![v422.toNat, 112]
def k0_cond3 (k0_t1 : Fin k0_t1_loop.trips) : BitVec 1 :=
  let c0_i32_55 : BitVec 32 := 0#32
  let c1_i32_56 : BitVec 32 := 1#32
  let arg20 : BitVec 32 := Scf.iv c0_i32_55 c1_i32_56 k0_t1
  let c3_i32_115 : BitVec 32 := 3#32
  let v123 : BitVec 32 := Scalar.muli arg20 c3_i32_115
  let c1_i32_148 : BitVec 32 := 1#32
  let v176 : BitVec 32 := Scalar.addi v123 c1_i32_148
  let c3_i32_157 : BitVec 32 := 3#32
  let v182 : BitVec 32 := Scalar.addi v176 c3_i32_157
  let c128_i32_158 : BitVec 32 := 128#32
  let v183 : BitVec 1 := Scalar.cmpi .slt v182 c128_i32_158
  let v184 : BitVec 32 := Scalar.extui v183
  let c0_i32_159 : BitVec 32 := 0#32
  let v185 : BitVec 1 := Scalar.cmpi .ne v184 c0_i32_159
  v185

def k0_off39 (k0_t1 : Fin k0_t1_loop.trips) : Fin 3 → Nat :=
  let c0_i32_55 : BitVec 32 := 0#32
  let c1_i32_56 : BitVec 32 := 1#32
  let arg20 : BitVec 32 := Scf.iv c0_i32_55 c1_i32_56 k0_t1
  let c3_i32_115 : BitVec 32 := 3#32
  let v123 : BitVec 32 := Scalar.muli arg20 c3_i32_115
  let c1_i32_148 : BitVec 32 := 1#32
  let v176 : BitVec 32 := Scalar.addi v123 c1_i32_148
  let c3_i32_212 : BitVec 32 := 3#32
  let v280 : BitVec 32 := Scalar.addi v176 c3_i32_212
  let c0_i32_213 : BitVec 32 := 0#32
  let c0_i32_214 : BitVec 32 := 0#32
  ![v280.toNat, 0, 0]
@[reducible] def k0_t5_loop : Scf.Loop 32 :=
  let c0_i32_165 : BitVec 32 := 0#32
  let c25_i32_166 : BitVec 32 := 25#32
  let v190 : BitVec 32 := Scalar.addi c0_i32_165 c25_i32_166
  let c1_i32_167 : BitVec 32 := 1#32
  ⟨c0_i32_165, v190, c1_i32_167⟩
def k0_off40 (k0_t5 : Fin k0_t5_loop.trips) (c0_i32_212 : BitVec 32) : Fin 2 → Nat :=
  let c0_i32_165 : BitVec 32 := 0#32
  let c1_i32_167 : BitVec 32 := 1#32
  let arg21 : BitVec 32 := Scf.iv c0_i32_165 c1_i32_167 k0_t5
  let c4_i32 : BitVec 32 := 4#32
  let v280 : BitVec 32 := Scalar.muli arg21 c4_i32
  let v281 : BitVec 32 := Scalar.addi v280 c0_i32_212
  let v282 : Index := Scalar.indexCast v281
  let c0_213 : Index := 0#32
  ![v282.toNat, 0]
def k0_off41 (k0_t5 : Fin k0_t5_loop.trips) (c0_i32_220 : BitVec 32) : Fin 2 → Nat :=
  let c0_i32_165 : BitVec 32 := 0#32
  let c1_i32_167 : BitVec 32 := 1#32
  let arg21 : BitVec 32 := Scf.iv c0_i32_165 c1_i32_167 k0_t5
  let c4_i32 : BitVec 32 := 4#32
  let v280 : BitVec 32 := Scalar.muli arg21 c4_i32
  let v301 : BitVec 32 := Scalar.addi v280 c0_i32_220
  let v302 : Index := Scalar.indexCast v301
  let c16_221 : Index := 16#32
  ![v302.toNat, 16]
def k0_off42 (k0_t5 : Fin k0_t5_loop.trips) (c0_i32_228 : BitVec 32) : Fin 2 → Nat :=
  let c0_i32_165 : BitVec 32 := 0#32
  let c1_i32_167 : BitVec 32 := 1#32
  let arg21 : BitVec 32 := Scf.iv c0_i32_165 c1_i32_167 k0_t5
  let c4_i32 : BitVec 32 := 4#32
  let v280 : BitVec 32 := Scalar.muli arg21 c4_i32
  let v321 : BitVec 32 := Scalar.addi v280 c0_i32_228
  let v322 : Index := Scalar.indexCast v321
  let c32_229 : Index := 32#32
  ![v322.toNat, 32]
def k0_off43 (k0_t5 : Fin k0_t5_loop.trips) (c0_i32_236 : BitVec 32) : Fin 2 → Nat :=
  let c0_i32_165 : BitVec 32 := 0#32
  let c1_i32_167 : BitVec 32 := 1#32
  let arg21 : BitVec 32 := Scf.iv c0_i32_165 c1_i32_167 k0_t5
  let c4_i32 : BitVec 32 := 4#32
  let v280 : BitVec 32 := Scalar.muli arg21 c4_i32
  let v341 : BitVec 32 := Scalar.addi v280 c0_i32_236
  let v342 : Index := Scalar.indexCast v341
  let c48_237 : Index := 48#32
  ![v342.toNat, 48]
def k0_off44 (k0_t5 : Fin k0_t5_loop.trips) (c0_i32_244 : BitVec 32) : Fin 2 → Nat :=
  let c0_i32_165 : BitVec 32 := 0#32
  let c1_i32_167 : BitVec 32 := 1#32
  let arg21 : BitVec 32 := Scf.iv c0_i32_165 c1_i32_167 k0_t5
  let c4_i32 : BitVec 32 := 4#32
  let v280 : BitVec 32 := Scalar.muli arg21 c4_i32
  let v361 : BitVec 32 := Scalar.addi v280 c0_i32_244
  let v362 : Index := Scalar.indexCast v361
  let c64_245 : Index := 64#32
  ![v362.toNat, 64]
def k0_off45 (k0_t5 : Fin k0_t5_loop.trips) (c0_i32_252 : BitVec 32) : Fin 2 → Nat :=
  let c0_i32_165 : BitVec 32 := 0#32
  let c1_i32_167 : BitVec 32 := 1#32
  let arg21 : BitVec 32 := Scf.iv c0_i32_165 c1_i32_167 k0_t5
  let c4_i32 : BitVec 32 := 4#32
  let v280 : BitVec 32 := Scalar.muli arg21 c4_i32
  let v381 : BitVec 32 := Scalar.addi v280 c0_i32_252
  let v382 : Index := Scalar.indexCast v381
  let c80_253 : Index := 80#32
  ![v382.toNat, 80]
def k0_off46 (k0_t5 : Fin k0_t5_loop.trips) (c0_i32_260 : BitVec 32) : Fin 2 → Nat :=
  let c0_i32_165 : BitVec 32 := 0#32
  let c1_i32_167 : BitVec 32 := 1#32
  let arg21 : BitVec 32 := Scf.iv c0_i32_165 c1_i32_167 k0_t5
  let c4_i32 : BitVec 32 := 4#32
  let v280 : BitVec 32 := Scalar.muli arg21 c4_i32
  let v401 : BitVec 32 := Scalar.addi v280 c0_i32_260
  let v402 : Index := Scalar.indexCast v401
  let c96_261 : Index := 96#32
  ![v402.toNat, 96]
def k0_off47 (k0_t5 : Fin k0_t5_loop.trips) (c0_i32_268 : BitVec 32) : Fin 2 → Nat :=
  let c0_i32_165 : BitVec 32 := 0#32
  let c1_i32_167 : BitVec 32 := 1#32
  let arg21 : BitVec 32 := Scf.iv c0_i32_165 c1_i32_167 k0_t5
  let c4_i32 : BitVec 32 := 4#32
  let v280 : BitVec 32 := Scalar.muli arg21 c4_i32
  let v421 : BitVec 32 := Scalar.addi v280 c0_i32_268
  let v422 : Index := Scalar.indexCast v421
  let c112_269 : Index := 112#32
  ![v422.toNat, 112]
def k0_cond4 (k0_t1 : Fin k0_t1_loop.trips) : BitVec 1 :=
  let c0_i32_55 : BitVec 32 := 0#32
  let c1_i32_56 : BitVec 32 := 1#32
  let arg20 : BitVec 32 := Scf.iv c0_i32_55 c1_i32_56 k0_t1
  let c3_i32_115 : BitVec 32 := 3#32
  let v123 : BitVec 32 := Scalar.muli arg20 c3_i32_115
  let c1_i32_160 : BitVec 32 := 1#32
  let v186 : BitVec 32 := Scalar.addi v123 c1_i32_160
  let c3_i32_177 : BitVec 32 := 3#32
  let v224 : BitVec 32 := Scalar.addi v186 c3_i32_177
  let c128_i32_178 : BitVec 32 := 128#32
  let v225 : BitVec 1 := Scalar.cmpi .slt v224 c128_i32_178
  let v226 : BitVec 32 := Scalar.extui v225
  let c0_i32_179 : BitVec 32 := 0#32
  let v227 : BitVec 1 := Scalar.cmpi .ne v226 c0_i32_179
  v227

def k0_off48 (k0_t1 : Fin k0_t1_loop.trips) : Fin 3 → Nat :=
  let c0_i32_55 : BitVec 32 := 0#32
  let c1_i32_56 : BitVec 32 := 1#32
  let arg20 : BitVec 32 := Scf.iv c0_i32_55 c1_i32_56 k0_t1
  let c3_i32_115 : BitVec 32 := 3#32
  let v123 : BitVec 32 := Scalar.muli arg20 c3_i32_115
  let c1_i32_160 : BitVec 32 := 1#32
  let v186 : BitVec 32 := Scalar.addi v123 c1_i32_160
  let c3_i32_212 : BitVec 32 := 3#32
  let v280 : BitVec 32 := Scalar.addi v186 c3_i32_212
  let c1_i32_213 : BitVec 32 := 1#32
  let c0_i32_214 : BitVec 32 := 0#32
  ![v280.toNat, 1, 0]
@[reducible] def k0_t6_loop : Scf.Loop 32 :=
  let c0_i32_185 : BitVec 32 := 0#32
  let c25_i32_186 : BitVec 32 := 25#32
  let v232 : BitVec 32 := Scalar.addi c0_i32_185 c25_i32_186
  let c1_i32_187 : BitVec 32 := 1#32
  ⟨c0_i32_185, v232, c1_i32_187⟩
def k0_off49 (k0_t6 : Fin k0_t6_loop.trips) (c0_i32_212 : BitVec 32) : Fin 2 → Nat :=
  let c0_i32_185 : BitVec 32 := 0#32
  let c1_i32_187 : BitVec 32 := 1#32
  let arg21 : BitVec 32 := Scf.iv c0_i32_185 c1_i32_187 k0_t6
  let c4_i32 : BitVec 32 := 4#32
  let v280 : BitVec 32 := Scalar.muli arg21 c4_i32
  let v281 : BitVec 32 := Scalar.addi v280 c0_i32_212
  let v282 : Index := Scalar.indexCast v281
  let c0_213 : Index := 0#32
  ![v282.toNat, 0]
def k0_off50 (k0_t6 : Fin k0_t6_loop.trips) (c0_i32_220 : BitVec 32) : Fin 2 → Nat :=
  let c0_i32_185 : BitVec 32 := 0#32
  let c1_i32_187 : BitVec 32 := 1#32
  let arg21 : BitVec 32 := Scf.iv c0_i32_185 c1_i32_187 k0_t6
  let c4_i32 : BitVec 32 := 4#32
  let v280 : BitVec 32 := Scalar.muli arg21 c4_i32
  let v301 : BitVec 32 := Scalar.addi v280 c0_i32_220
  let v302 : Index := Scalar.indexCast v301
  let c16_221 : Index := 16#32
  ![v302.toNat, 16]
def k0_off51 (k0_t6 : Fin k0_t6_loop.trips) (c0_i32_228 : BitVec 32) : Fin 2 → Nat :=
  let c0_i32_185 : BitVec 32 := 0#32
  let c1_i32_187 : BitVec 32 := 1#32
  let arg21 : BitVec 32 := Scf.iv c0_i32_185 c1_i32_187 k0_t6
  let c4_i32 : BitVec 32 := 4#32
  let v280 : BitVec 32 := Scalar.muli arg21 c4_i32
  let v321 : BitVec 32 := Scalar.addi v280 c0_i32_228
  let v322 : Index := Scalar.indexCast v321
  let c32_229 : Index := 32#32
  ![v322.toNat, 32]
def k0_off52 (k0_t6 : Fin k0_t6_loop.trips) (c0_i32_236 : BitVec 32) : Fin 2 → Nat :=
  let c0_i32_185 : BitVec 32 := 0#32
  let c1_i32_187 : BitVec 32 := 1#32
  let arg21 : BitVec 32 := Scf.iv c0_i32_185 c1_i32_187 k0_t6
  let c4_i32 : BitVec 32 := 4#32
  let v280 : BitVec 32 := Scalar.muli arg21 c4_i32
  let v341 : BitVec 32 := Scalar.addi v280 c0_i32_236
  let v342 : Index := Scalar.indexCast v341
  let c48_237 : Index := 48#32
  ![v342.toNat, 48]
def k0_off53 (k0_t6 : Fin k0_t6_loop.trips) (c0_i32_244 : BitVec 32) : Fin 2 → Nat :=
  let c0_i32_185 : BitVec 32 := 0#32
  let c1_i32_187 : BitVec 32 := 1#32
  let arg21 : BitVec 32 := Scf.iv c0_i32_185 c1_i32_187 k0_t6
  let c4_i32 : BitVec 32 := 4#32
  let v280 : BitVec 32 := Scalar.muli arg21 c4_i32
  let v361 : BitVec 32 := Scalar.addi v280 c0_i32_244
  let v362 : Index := Scalar.indexCast v361
  let c64_245 : Index := 64#32
  ![v362.toNat, 64]
def k0_off54 (k0_t6 : Fin k0_t6_loop.trips) (c0_i32_252 : BitVec 32) : Fin 2 → Nat :=
  let c0_i32_185 : BitVec 32 := 0#32
  let c1_i32_187 : BitVec 32 := 1#32
  let arg21 : BitVec 32 := Scf.iv c0_i32_185 c1_i32_187 k0_t6
  let c4_i32 : BitVec 32 := 4#32
  let v280 : BitVec 32 := Scalar.muli arg21 c4_i32
  let v381 : BitVec 32 := Scalar.addi v280 c0_i32_252
  let v382 : Index := Scalar.indexCast v381
  let c80_253 : Index := 80#32
  ![v382.toNat, 80]
def k0_off55 (k0_t6 : Fin k0_t6_loop.trips) (c0_i32_260 : BitVec 32) : Fin 2 → Nat :=
  let c0_i32_185 : BitVec 32 := 0#32
  let c1_i32_187 : BitVec 32 := 1#32
  let arg21 : BitVec 32 := Scf.iv c0_i32_185 c1_i32_187 k0_t6
  let c4_i32 : BitVec 32 := 4#32
  let v280 : BitVec 32 := Scalar.muli arg21 c4_i32
  let v401 : BitVec 32 := Scalar.addi v280 c0_i32_260
  let v402 : Index := Scalar.indexCast v401
  let c96_261 : Index := 96#32
  ![v402.toNat, 96]
def k0_off56 (k0_t6 : Fin k0_t6_loop.trips) (c0_i32_268 : BitVec 32) : Fin 2 → Nat :=
  let c0_i32_185 : BitVec 32 := 0#32
  let c1_i32_187 : BitVec 32 := 1#32
  let arg21 : BitVec 32 := Scf.iv c0_i32_185 c1_i32_187 k0_t6
  let c4_i32 : BitVec 32 := 4#32
  let v280 : BitVec 32 := Scalar.muli arg21 c4_i32
  let v421 : BitVec 32 := Scalar.addi v280 c0_i32_268
  let v422 : Index := Scalar.indexCast v421
  let c112_269 : Index := 112#32
  ![v422.toNat, 112]
def k0_cond5 (k0_t1 : Fin k0_t1_loop.trips) : BitVec 1 :=
  let c0_i32_55 : BitVec 32 := 0#32
  let c1_i32_56 : BitVec 32 := 1#32
  let arg20 : BitVec 32 := Scf.iv c0_i32_55 c1_i32_56 k0_t1
  let c3_i32_115 : BitVec 32 := 3#32
  let v123 : BitVec 32 := Scalar.muli arg20 c3_i32_115
  let c2_i32_180 : BitVec 32 := 2#32
  let v228 : BitVec 32 := Scalar.addi v123 c2_i32_180
  let c3_i32_189 : BitVec 32 := 3#32
  let v234 : BitVec 32 := Scalar.addi v228 c3_i32_189
  let c128_i32_190 : BitVec 32 := 128#32
  let v235 : BitVec 1 := Scalar.cmpi .slt v234 c128_i32_190
  let v236 : BitVec 32 := Scalar.extui v235
  let c0_i32_191 : BitVec 32 := 0#32
  let v237 : BitVec 1 := Scalar.cmpi .ne v236 c0_i32_191
  v237

def k0_off57 (k0_t1 : Fin k0_t1_loop.trips) : Fin 3 → Nat :=
  let c0_i32_55 : BitVec 32 := 0#32
  let c1_i32_56 : BitVec 32 := 1#32
  let arg20 : BitVec 32 := Scf.iv c0_i32_55 c1_i32_56 k0_t1
  let c3_i32_115 : BitVec 32 := 3#32
  let v123 : BitVec 32 := Scalar.muli arg20 c3_i32_115
  let c2_i32_180 : BitVec 32 := 2#32
  let v228 : BitVec 32 := Scalar.addi v123 c2_i32_180
  let c3_i32_212 : BitVec 32 := 3#32
  let v280 : BitVec 32 := Scalar.addi v228 c3_i32_212
  let c0_i32_213 : BitVec 32 := 0#32
  let c0_i32_214 : BitVec 32 := 0#32
  ![v280.toNat, 0, 0]
@[reducible] def k0_t7_loop : Scf.Loop 32 :=
  let c0_i32_197 : BitVec 32 := 0#32
  let c25_i32_198 : BitVec 32 := 25#32
  let v242 : BitVec 32 := Scalar.addi c0_i32_197 c25_i32_198
  let c1_i32_199 : BitVec 32 := 1#32
  ⟨c0_i32_197, v242, c1_i32_199⟩
def k0_off58 (k0_t7 : Fin k0_t7_loop.trips) (c0_i32_212 : BitVec 32) : Fin 2 → Nat :=
  let c0_i32_197 : BitVec 32 := 0#32
  let c1_i32_199 : BitVec 32 := 1#32
  let arg21 : BitVec 32 := Scf.iv c0_i32_197 c1_i32_199 k0_t7
  let c4_i32 : BitVec 32 := 4#32
  let v280 : BitVec 32 := Scalar.muli arg21 c4_i32
  let v281 : BitVec 32 := Scalar.addi v280 c0_i32_212
  let v282 : Index := Scalar.indexCast v281
  let c0_213 : Index := 0#32
  ![v282.toNat, 0]
def k0_off59 (k0_t7 : Fin k0_t7_loop.trips) (c0_i32_220 : BitVec 32) : Fin 2 → Nat :=
  let c0_i32_197 : BitVec 32 := 0#32
  let c1_i32_199 : BitVec 32 := 1#32
  let arg21 : BitVec 32 := Scf.iv c0_i32_197 c1_i32_199 k0_t7
  let c4_i32 : BitVec 32 := 4#32
  let v280 : BitVec 32 := Scalar.muli arg21 c4_i32
  let v301 : BitVec 32 := Scalar.addi v280 c0_i32_220
  let v302 : Index := Scalar.indexCast v301
  let c16_221 : Index := 16#32
  ![v302.toNat, 16]
def k0_off60 (k0_t7 : Fin k0_t7_loop.trips) (c0_i32_228 : BitVec 32) : Fin 2 → Nat :=
  let c0_i32_197 : BitVec 32 := 0#32
  let c1_i32_199 : BitVec 32 := 1#32
  let arg21 : BitVec 32 := Scf.iv c0_i32_197 c1_i32_199 k0_t7
  let c4_i32 : BitVec 32 := 4#32
  let v280 : BitVec 32 := Scalar.muli arg21 c4_i32
  let v321 : BitVec 32 := Scalar.addi v280 c0_i32_228
  let v322 : Index := Scalar.indexCast v321
  let c32_229 : Index := 32#32
  ![v322.toNat, 32]
def k0_off61 (k0_t7 : Fin k0_t7_loop.trips) (c0_i32_236 : BitVec 32) : Fin 2 → Nat :=
  let c0_i32_197 : BitVec 32 := 0#32
  let c1_i32_199 : BitVec 32 := 1#32
  let arg21 : BitVec 32 := Scf.iv c0_i32_197 c1_i32_199 k0_t7
  let c4_i32 : BitVec 32 := 4#32
  let v280 : BitVec 32 := Scalar.muli arg21 c4_i32
  let v341 : BitVec 32 := Scalar.addi v280 c0_i32_236
  let v342 : Index := Scalar.indexCast v341
  let c48_237 : Index := 48#32
  ![v342.toNat, 48]
def k0_off62 (k0_t7 : Fin k0_t7_loop.trips) (c0_i32_244 : BitVec 32) : Fin 2 → Nat :=
  let c0_i32_197 : BitVec 32 := 0#32
  let c1_i32_199 : BitVec 32 := 1#32
  let arg21 : BitVec 32 := Scf.iv c0_i32_197 c1_i32_199 k0_t7
  let c4_i32 : BitVec 32 := 4#32
  let v280 : BitVec 32 := Scalar.muli arg21 c4_i32
  let v361 : BitVec 32 := Scalar.addi v280 c0_i32_244
  let v362 : Index := Scalar.indexCast v361
  let c64_245 : Index := 64#32
  ![v362.toNat, 64]
def k0_off63 (k0_t7 : Fin k0_t7_loop.trips) (c0_i32_252 : BitVec 32) : Fin 2 → Nat :=
  let c0_i32_197 : BitVec 32 := 0#32
  let c1_i32_199 : BitVec 32 := 1#32
  let arg21 : BitVec 32 := Scf.iv c0_i32_197 c1_i32_199 k0_t7
  let c4_i32 : BitVec 32 := 4#32
  let v280 : BitVec 32 := Scalar.muli arg21 c4_i32
  let v381 : BitVec 32 := Scalar.addi v280 c0_i32_252
  let v382 : Index := Scalar.indexCast v381
  let c80_253 : Index := 80#32
  ![v382.toNat, 80]
def k0_off64 (k0_t7 : Fin k0_t7_loop.trips) (c0_i32_260 : BitVec 32) : Fin 2 → Nat :=
  let c0_i32_197 : BitVec 32 := 0#32
  let c1_i32_199 : BitVec 32 := 1#32
  let arg21 : BitVec 32 := Scf.iv c0_i32_197 c1_i32_199 k0_t7
  let c4_i32 : BitVec 32 := 4#32
  let v280 : BitVec 32 := Scalar.muli arg21 c4_i32
  let v401 : BitVec 32 := Scalar.addi v280 c0_i32_260
  let v402 : Index := Scalar.indexCast v401
  let c96_261 : Index := 96#32
  ![v402.toNat, 96]
def k0_off65 (k0_t7 : Fin k0_t7_loop.trips) (c0_i32_268 : BitVec 32) : Fin 2 → Nat :=
  let c0_i32_197 : BitVec 32 := 0#32
  let c1_i32_199 : BitVec 32 := 1#32
  let arg21 : BitVec 32 := Scf.iv c0_i32_197 c1_i32_199 k0_t7
  let c4_i32 : BitVec 32 := 4#32
  let v280 : BitVec 32 := Scalar.muli arg21 c4_i32
  let v421 : BitVec 32 := Scalar.addi v280 c0_i32_268
  let v422 : Index := Scalar.indexCast v421
  let c112_269 : Index := 112#32
  ![v422.toNat, 112]
def k0_cond6 (k0_t1 : Fin k0_t1_loop.trips) : BitVec 1 :=
  let c0_i32_55 : BitVec 32 := 0#32
  let c1_i32_56 : BitVec 32 := 1#32
  let arg20 : BitVec 32 := Scf.iv c0_i32_55 c1_i32_56 k0_t1
  let c3_i32_115 : BitVec 32 := 3#32
  let v123 : BitVec 32 := Scalar.muli arg20 c3_i32_115
  let c2_i32_192 : BitVec 32 := 2#32
  let v238 : BitVec 32 := Scalar.addi v123 c2_i32_192
  let c3_i32_209 : BitVec 32 := 3#32
  let v276 : BitVec 32 := Scalar.addi v238 c3_i32_209
  let c128_i32_210 : BitVec 32 := 128#32
  let v277 : BitVec 1 := Scalar.cmpi .slt v276 c128_i32_210
  let v278 : BitVec 32 := Scalar.extui v277
  let c0_i32_211 : BitVec 32 := 0#32
  let v279 : BitVec 1 := Scalar.cmpi .ne v278 c0_i32_211
  v279

def k0_off66 (k0_t1 : Fin k0_t1_loop.trips) : Fin 3 → Nat :=
  let c0_i32_55 : BitVec 32 := 0#32
  let c1_i32_56 : BitVec 32 := 1#32
  let arg20 : BitVec 32 := Scf.iv c0_i32_55 c1_i32_56 k0_t1
  let c3_i32_115 : BitVec 32 := 3#32
  let v123 : BitVec 32 := Scalar.muli arg20 c3_i32_115
  let c2_i32_192 : BitVec 32 := 2#32
  let v238 : BitVec 32 := Scalar.addi v123 c2_i32_192
  let c3_i32_212 : BitVec 32 := 3#32
  let v280 : BitVec 32 := Scalar.addi v238 c3_i32_212
  let c1_i32_213 : BitVec 32 := 1#32
  let c0_i32_214 : BitVec 32 := 0#32
  ![v280.toNat, 1, 0]
@[reducible] def k0_t8_loop : Scf.Loop 32 :=
  let c0_i32_62 : BitVec 32 := 0#32
  let c25_i32 : BitVec 32 := 25#32
  let v42 : BitVec 32 := Scalar.addi c0_i32_62 c25_i32
  let c1_i32_63 : BitVec 32 := 1#32
  ⟨c0_i32_62, v42, c1_i32_63⟩
def k0_off67 (k0_t8 : Fin k0_t8_loop.trips) (c0_i32_115 : BitVec 32) : Fin 2 → Nat :=
  let c0_i32_62 : BitVec 32 := 0#32
  let c1_i32_63 : BitVec 32 := 1#32
  let arg20 : BitVec 32 := Scf.iv c0_i32_62 c1_i32_63 k0_t8
  let c4_i32 : BitVec 32 := 4#32
  let v123 : BitVec 32 := Scalar.muli arg20 c4_i32
  let v124 : BitVec 32 := Scalar.addi v123 c0_i32_115
  let v125 : Index := Scalar.indexCast v124
  let c0_116 : Index := 0#32
  ![v125.toNat, 0]
def k0_off68 (k0_t8 : Fin k0_t8_loop.trips) (c0_i32_123 : BitVec 32) : Fin 2 → Nat :=
  let c0_i32_62 : BitVec 32 := 0#32
  let c1_i32_63 : BitVec 32 := 1#32
  let arg20 : BitVec 32 := Scf.iv c0_i32_62 c1_i32_63 k0_t8
  let c4_i32 : BitVec 32 := 4#32
  let v123 : BitVec 32 := Scalar.muli arg20 c4_i32
  let v144 : BitVec 32 := Scalar.addi v123 c0_i32_123
  let v145 : Index := Scalar.indexCast v144
  let c16_124 : Index := 16#32
  ![v145.toNat, 16]
def k0_off69 (k0_t8 : Fin k0_t8_loop.trips) (c0_i32_131 : BitVec 32) : Fin 2 → Nat :=
  let c0_i32_62 : BitVec 32 := 0#32
  let c1_i32_63 : BitVec 32 := 1#32
  let arg20 : BitVec 32 := Scf.iv c0_i32_62 c1_i32_63 k0_t8
  let c4_i32 : BitVec 32 := 4#32
  let v123 : BitVec 32 := Scalar.muli arg20 c4_i32
  let v164 : BitVec 32 := Scalar.addi v123 c0_i32_131
  let v165 : Index := Scalar.indexCast v164
  let c32_132 : Index := 32#32
  ![v165.toNat, 32]
def k0_off70 (k0_t8 : Fin k0_t8_loop.trips) (c0_i32_139 : BitVec 32) : Fin 2 → Nat :=
  let c0_i32_62 : BitVec 32 := 0#32
  let c1_i32_63 : BitVec 32 := 1#32
  let arg20 : BitVec 32 := Scf.iv c0_i32_62 c1_i32_63 k0_t8
  let c4_i32 : BitVec 32 := 4#32
  let v123 : BitVec 32 := Scalar.muli arg20 c4_i32
  let v184 : BitVec 32 := Scalar.addi v123 c0_i32_139
  let v185 : Index := Scalar.indexCast v184
  let c48_140 : Index := 48#32
  ![v185.toNat, 48]
def k0_off71 (k0_t8 : Fin k0_t8_loop.trips) (c0_i32_147 : BitVec 32) : Fin 2 → Nat :=
  let c0_i32_62 : BitVec 32 := 0#32
  let c1_i32_63 : BitVec 32 := 1#32
  let arg20 : BitVec 32 := Scf.iv c0_i32_62 c1_i32_63 k0_t8
  let c4_i32 : BitVec 32 := 4#32
  let v123 : BitVec 32 := Scalar.muli arg20 c4_i32
  let v204 : BitVec 32 := Scalar.addi v123 c0_i32_147
  let v205 : Index := Scalar.indexCast v204
  let c64_148 : Index := 64#32
  ![v205.toNat, 64]
def k0_off72 (k0_t8 : Fin k0_t8_loop.trips) (c0_i32_155 : BitVec 32) : Fin 2 → Nat :=
  let c0_i32_62 : BitVec 32 := 0#32
  let c1_i32_63 : BitVec 32 := 1#32
  let arg20 : BitVec 32 := Scf.iv c0_i32_62 c1_i32_63 k0_t8
  let c4_i32 : BitVec 32 := 4#32
  let v123 : BitVec 32 := Scalar.muli arg20 c4_i32
  let v224 : BitVec 32 := Scalar.addi v123 c0_i32_155
  let v225 : Index := Scalar.indexCast v224
  let c80_156 : Index := 80#32
  ![v225.toNat, 80]
def k0_off73 (k0_t8 : Fin k0_t8_loop.trips) (c0_i32_163 : BitVec 32) : Fin 2 → Nat :=
  let c0_i32_62 : BitVec 32 := 0#32
  let c1_i32_63 : BitVec 32 := 1#32
  let arg20 : BitVec 32 := Scf.iv c0_i32_62 c1_i32_63 k0_t8
  let c4_i32 : BitVec 32 := 4#32
  let v123 : BitVec 32 := Scalar.muli arg20 c4_i32
  let v244 : BitVec 32 := Scalar.addi v123 c0_i32_163
  let v245 : Index := Scalar.indexCast v244
  let c96_164 : Index := 96#32
  ![v245.toNat, 96]
def k0_off74 (k0_t8 : Fin k0_t8_loop.trips) (c0_i32_171 : BitVec 32) : Fin 2 → Nat :=
  let c0_i32_62 : BitVec 32 := 0#32
  let c1_i32_63 : BitVec 32 := 1#32
  let arg20 : BitVec 32 := Scf.iv c0_i32_62 c1_i32_63 k0_t8
  let c4_i32 : BitVec 32 := 4#32
  let v123 : BitVec 32 := Scalar.muli arg20 c4_i32
  let v264 : BitVec 32 := Scalar.addi v123 c0_i32_171
  let v265 : Index := Scalar.indexCast v264
  let c112_172 : Index := 112#32
  ![v265.toNat, 112]
@[reducible] def k0_t9_loop : Scf.Loop 32 :=
  let c0_i32_70 : BitVec 32 := 0#32
  let c25_i32_71 : BitVec 32 := 25#32
  let v47 : BitVec 32 := Scalar.addi c0_i32_70 c25_i32_71
  let c1_i32_72 : BitVec 32 := 1#32
  ⟨c0_i32_70, v47, c1_i32_72⟩
def k0_off75 (k0_t9 : Fin k0_t9_loop.trips) (c0_i32_115 : BitVec 32) : Fin 2 → Nat :=
  let c0_i32_70 : BitVec 32 := 0#32
  let c1_i32_72 : BitVec 32 := 1#32
  let arg20 : BitVec 32 := Scf.iv c0_i32_70 c1_i32_72 k0_t9
  let c4_i32 : BitVec 32 := 4#32
  let v123 : BitVec 32 := Scalar.muli arg20 c4_i32
  let v124 : BitVec 32 := Scalar.addi v123 c0_i32_115
  let v125 : Index := Scalar.indexCast v124
  let c0_116 : Index := 0#32
  ![v125.toNat, 0]
def k0_off76 (k0_t9 : Fin k0_t9_loop.trips) (c0_i32_123 : BitVec 32) : Fin 2 → Nat :=
  let c0_i32_70 : BitVec 32 := 0#32
  let c1_i32_72 : BitVec 32 := 1#32
  let arg20 : BitVec 32 := Scf.iv c0_i32_70 c1_i32_72 k0_t9
  let c4_i32 : BitVec 32 := 4#32
  let v123 : BitVec 32 := Scalar.muli arg20 c4_i32
  let v144 : BitVec 32 := Scalar.addi v123 c0_i32_123
  let v145 : Index := Scalar.indexCast v144
  let c16_124 : Index := 16#32
  ![v145.toNat, 16]
def k0_off77 (k0_t9 : Fin k0_t9_loop.trips) (c0_i32_131 : BitVec 32) : Fin 2 → Nat :=
  let c0_i32_70 : BitVec 32 := 0#32
  let c1_i32_72 : BitVec 32 := 1#32
  let arg20 : BitVec 32 := Scf.iv c0_i32_70 c1_i32_72 k0_t9
  let c4_i32 : BitVec 32 := 4#32
  let v123 : BitVec 32 := Scalar.muli arg20 c4_i32
  let v164 : BitVec 32 := Scalar.addi v123 c0_i32_131
  let v165 : Index := Scalar.indexCast v164
  let c32_132 : Index := 32#32
  ![v165.toNat, 32]
def k0_off78 (k0_t9 : Fin k0_t9_loop.trips) (c0_i32_139 : BitVec 32) : Fin 2 → Nat :=
  let c0_i32_70 : BitVec 32 := 0#32
  let c1_i32_72 : BitVec 32 := 1#32
  let arg20 : BitVec 32 := Scf.iv c0_i32_70 c1_i32_72 k0_t9
  let c4_i32 : BitVec 32 := 4#32
  let v123 : BitVec 32 := Scalar.muli arg20 c4_i32
  let v184 : BitVec 32 := Scalar.addi v123 c0_i32_139
  let v185 : Index := Scalar.indexCast v184
  let c48_140 : Index := 48#32
  ![v185.toNat, 48]
def k0_off79 (k0_t9 : Fin k0_t9_loop.trips) (c0_i32_147 : BitVec 32) : Fin 2 → Nat :=
  let c0_i32_70 : BitVec 32 := 0#32
  let c1_i32_72 : BitVec 32 := 1#32
  let arg20 : BitVec 32 := Scf.iv c0_i32_70 c1_i32_72 k0_t9
  let c4_i32 : BitVec 32 := 4#32
  let v123 : BitVec 32 := Scalar.muli arg20 c4_i32
  let v204 : BitVec 32 := Scalar.addi v123 c0_i32_147
  let v205 : Index := Scalar.indexCast v204
  let c64_148 : Index := 64#32
  ![v205.toNat, 64]
def k0_off80 (k0_t9 : Fin k0_t9_loop.trips) (c0_i32_155 : BitVec 32) : Fin 2 → Nat :=
  let c0_i32_70 : BitVec 32 := 0#32
  let c1_i32_72 : BitVec 32 := 1#32
  let arg20 : BitVec 32 := Scf.iv c0_i32_70 c1_i32_72 k0_t9
  let c4_i32 : BitVec 32 := 4#32
  let v123 : BitVec 32 := Scalar.muli arg20 c4_i32
  let v224 : BitVec 32 := Scalar.addi v123 c0_i32_155
  let v225 : Index := Scalar.indexCast v224
  let c80_156 : Index := 80#32
  ![v225.toNat, 80]
def k0_off81 (k0_t9 : Fin k0_t9_loop.trips) (c0_i32_163 : BitVec 32) : Fin 2 → Nat :=
  let c0_i32_70 : BitVec 32 := 0#32
  let c1_i32_72 : BitVec 32 := 1#32
  let arg20 : BitVec 32 := Scf.iv c0_i32_70 c1_i32_72 k0_t9
  let c4_i32 : BitVec 32 := 4#32
  let v123 : BitVec 32 := Scalar.muli arg20 c4_i32
  let v244 : BitVec 32 := Scalar.addi v123 c0_i32_163
  let v245 : Index := Scalar.indexCast v244
  let c96_164 : Index := 96#32
  ![v245.toNat, 96]
def k0_off82 (k0_t9 : Fin k0_t9_loop.trips) (c0_i32_171 : BitVec 32) : Fin 2 → Nat :=
  let c0_i32_70 : BitVec 32 := 0#32
  let c1_i32_72 : BitVec 32 := 1#32
  let arg20 : BitVec 32 := Scf.iv c0_i32_70 c1_i32_72 k0_t9
  let c4_i32 : BitVec 32 := 4#32
  let v123 : BitVec 32 := Scalar.muli arg20 c4_i32
  let v264 : BitVec 32 := Scalar.addi v123 c0_i32_171
  let v265 : Index := Scalar.indexCast v264
  let c112_172 : Index := 112#32
  ![v265.toNat, 112]
@[reducible] def k0_t10_loop : Scf.Loop 32 :=
  let c0_i32_86 : BitVec 32 := 0#32
  let c25_i32_87 : BitVec 32 := 25#32
  let v84 : BitVec 32 := Scalar.addi c0_i32_86 c25_i32_87
  let c1_i32_88 : BitVec 32 := 1#32
  ⟨c0_i32_86, v84, c1_i32_88⟩
def k0_off83 (k0_t10 : Fin k0_t10_loop.trips) (c0_i32_115 : BitVec 32) : Fin 2 → Nat :=
  let c0_i32_86 : BitVec 32 := 0#32
  let c1_i32_88 : BitVec 32 := 1#32
  let arg20 : BitVec 32 := Scf.iv c0_i32_86 c1_i32_88 k0_t10
  let c4_i32 : BitVec 32 := 4#32
  let v123 : BitVec 32 := Scalar.muli arg20 c4_i32
  let v124 : BitVec 32 := Scalar.addi v123 c0_i32_115
  let v125 : Index := Scalar.indexCast v124
  let c0_116 : Index := 0#32
  ![v125.toNat, 0]
def k0_off84 (k0_t10 : Fin k0_t10_loop.trips) (c0_i32_123 : BitVec 32) : Fin 2 → Nat :=
  let c0_i32_86 : BitVec 32 := 0#32
  let c1_i32_88 : BitVec 32 := 1#32
  let arg20 : BitVec 32 := Scf.iv c0_i32_86 c1_i32_88 k0_t10
  let c4_i32 : BitVec 32 := 4#32
  let v123 : BitVec 32 := Scalar.muli arg20 c4_i32
  let v144 : BitVec 32 := Scalar.addi v123 c0_i32_123
  let v145 : Index := Scalar.indexCast v144
  let c16_124 : Index := 16#32
  ![v145.toNat, 16]
def k0_off85 (k0_t10 : Fin k0_t10_loop.trips) (c0_i32_131 : BitVec 32) : Fin 2 → Nat :=
  let c0_i32_86 : BitVec 32 := 0#32
  let c1_i32_88 : BitVec 32 := 1#32
  let arg20 : BitVec 32 := Scf.iv c0_i32_86 c1_i32_88 k0_t10
  let c4_i32 : BitVec 32 := 4#32
  let v123 : BitVec 32 := Scalar.muli arg20 c4_i32
  let v164 : BitVec 32 := Scalar.addi v123 c0_i32_131
  let v165 : Index := Scalar.indexCast v164
  let c32_132 : Index := 32#32
  ![v165.toNat, 32]
def k0_off86 (k0_t10 : Fin k0_t10_loop.trips) (c0_i32_139 : BitVec 32) : Fin 2 → Nat :=
  let c0_i32_86 : BitVec 32 := 0#32
  let c1_i32_88 : BitVec 32 := 1#32
  let arg20 : BitVec 32 := Scf.iv c0_i32_86 c1_i32_88 k0_t10
  let c4_i32 : BitVec 32 := 4#32
  let v123 : BitVec 32 := Scalar.muli arg20 c4_i32
  let v184 : BitVec 32 := Scalar.addi v123 c0_i32_139
  let v185 : Index := Scalar.indexCast v184
  let c48_140 : Index := 48#32
  ![v185.toNat, 48]
def k0_off87 (k0_t10 : Fin k0_t10_loop.trips) (c0_i32_147 : BitVec 32) : Fin 2 → Nat :=
  let c0_i32_86 : BitVec 32 := 0#32
  let c1_i32_88 : BitVec 32 := 1#32
  let arg20 : BitVec 32 := Scf.iv c0_i32_86 c1_i32_88 k0_t10
  let c4_i32 : BitVec 32 := 4#32
  let v123 : BitVec 32 := Scalar.muli arg20 c4_i32
  let v204 : BitVec 32 := Scalar.addi v123 c0_i32_147
  let v205 : Index := Scalar.indexCast v204
  let c64_148 : Index := 64#32
  ![v205.toNat, 64]
def k0_off88 (k0_t10 : Fin k0_t10_loop.trips) (c0_i32_155 : BitVec 32) : Fin 2 → Nat :=
  let c0_i32_86 : BitVec 32 := 0#32
  let c1_i32_88 : BitVec 32 := 1#32
  let arg20 : BitVec 32 := Scf.iv c0_i32_86 c1_i32_88 k0_t10
  let c4_i32 : BitVec 32 := 4#32
  let v123 : BitVec 32 := Scalar.muli arg20 c4_i32
  let v224 : BitVec 32 := Scalar.addi v123 c0_i32_155
  let v225 : Index := Scalar.indexCast v224
  let c80_156 : Index := 80#32
  ![v225.toNat, 80]
def k0_off89 (k0_t10 : Fin k0_t10_loop.trips) (c0_i32_163 : BitVec 32) : Fin 2 → Nat :=
  let c0_i32_86 : BitVec 32 := 0#32
  let c1_i32_88 : BitVec 32 := 1#32
  let arg20 : BitVec 32 := Scf.iv c0_i32_86 c1_i32_88 k0_t10
  let c4_i32 : BitVec 32 := 4#32
  let v123 : BitVec 32 := Scalar.muli arg20 c4_i32
  let v244 : BitVec 32 := Scalar.addi v123 c0_i32_163
  let v245 : Index := Scalar.indexCast v244
  let c96_164 : Index := 96#32
  ![v245.toNat, 96]
def k0_off90 (k0_t10 : Fin k0_t10_loop.trips) (c0_i32_171 : BitVec 32) : Fin 2 → Nat :=
  let c0_i32_86 : BitVec 32 := 0#32
  let c1_i32_88 : BitVec 32 := 1#32
  let arg20 : BitVec 32 := Scf.iv c0_i32_86 c1_i32_88 k0_t10
  let c4_i32 : BitVec 32 := 4#32
  let v123 : BitVec 32 := Scalar.muli arg20 c4_i32
  let v264 : BitVec 32 := Scalar.addi v123 c0_i32_171
  let v265 : Index := Scalar.indexCast v264
  let c112_172 : Index := 112#32
  ![v265.toNat, 112]
@[reducible] def k0_t11_loop : Scf.Loop 32 :=
  let c0_i32_95 : BitVec 32 := 0#32
  let c25_i32_96 : BitVec 32 := 25#32
  let v89 : BitVec 32 := Scalar.addi c0_i32_95 c25_i32_96
  let c1_i32_97 : BitVec 32 := 1#32
  ⟨c0_i32_95, v89, c1_i32_97⟩
def k0_off91 (k0_t11 : Fin k0_t11_loop.trips) (c0_i32_115 : BitVec 32) : Fin 2 → Nat :=
  let c0_i32_95 : BitVec 32 := 0#32
  let c1_i32_97 : BitVec 32 := 1#32
  let arg20 : BitVec 32 := Scf.iv c0_i32_95 c1_i32_97 k0_t11
  let c4_i32 : BitVec 32 := 4#32
  let v123 : BitVec 32 := Scalar.muli arg20 c4_i32
  let v124 : BitVec 32 := Scalar.addi v123 c0_i32_115
  let v125 : Index := Scalar.indexCast v124
  let c0_116 : Index := 0#32
  ![v125.toNat, 0]
def k0_off92 (k0_t11 : Fin k0_t11_loop.trips) (c0_i32_123 : BitVec 32) : Fin 2 → Nat :=
  let c0_i32_95 : BitVec 32 := 0#32
  let c1_i32_97 : BitVec 32 := 1#32
  let arg20 : BitVec 32 := Scf.iv c0_i32_95 c1_i32_97 k0_t11
  let c4_i32 : BitVec 32 := 4#32
  let v123 : BitVec 32 := Scalar.muli arg20 c4_i32
  let v144 : BitVec 32 := Scalar.addi v123 c0_i32_123
  let v145 : Index := Scalar.indexCast v144
  let c16_124 : Index := 16#32
  ![v145.toNat, 16]
def k0_off93 (k0_t11 : Fin k0_t11_loop.trips) (c0_i32_131 : BitVec 32) : Fin 2 → Nat :=
  let c0_i32_95 : BitVec 32 := 0#32
  let c1_i32_97 : BitVec 32 := 1#32
  let arg20 : BitVec 32 := Scf.iv c0_i32_95 c1_i32_97 k0_t11
  let c4_i32 : BitVec 32 := 4#32
  let v123 : BitVec 32 := Scalar.muli arg20 c4_i32
  let v164 : BitVec 32 := Scalar.addi v123 c0_i32_131
  let v165 : Index := Scalar.indexCast v164
  let c32_132 : Index := 32#32
  ![v165.toNat, 32]
def k0_off94 (k0_t11 : Fin k0_t11_loop.trips) (c0_i32_139 : BitVec 32) : Fin 2 → Nat :=
  let c0_i32_95 : BitVec 32 := 0#32
  let c1_i32_97 : BitVec 32 := 1#32
  let arg20 : BitVec 32 := Scf.iv c0_i32_95 c1_i32_97 k0_t11
  let c4_i32 : BitVec 32 := 4#32
  let v123 : BitVec 32 := Scalar.muli arg20 c4_i32
  let v184 : BitVec 32 := Scalar.addi v123 c0_i32_139
  let v185 : Index := Scalar.indexCast v184
  let c48_140 : Index := 48#32
  ![v185.toNat, 48]
def k0_off95 (k0_t11 : Fin k0_t11_loop.trips) (c0_i32_147 : BitVec 32) : Fin 2 → Nat :=
  let c0_i32_95 : BitVec 32 := 0#32
  let c1_i32_97 : BitVec 32 := 1#32
  let arg20 : BitVec 32 := Scf.iv c0_i32_95 c1_i32_97 k0_t11
  let c4_i32 : BitVec 32 := 4#32
  let v123 : BitVec 32 := Scalar.muli arg20 c4_i32
  let v204 : BitVec 32 := Scalar.addi v123 c0_i32_147
  let v205 : Index := Scalar.indexCast v204
  let c64_148 : Index := 64#32
  ![v205.toNat, 64]
def k0_off96 (k0_t11 : Fin k0_t11_loop.trips) (c0_i32_155 : BitVec 32) : Fin 2 → Nat :=
  let c0_i32_95 : BitVec 32 := 0#32
  let c1_i32_97 : BitVec 32 := 1#32
  let arg20 : BitVec 32 := Scf.iv c0_i32_95 c1_i32_97 k0_t11
  let c4_i32 : BitVec 32 := 4#32
  let v123 : BitVec 32 := Scalar.muli arg20 c4_i32
  let v224 : BitVec 32 := Scalar.addi v123 c0_i32_155
  let v225 : Index := Scalar.indexCast v224
  let c80_156 : Index := 80#32
  ![v225.toNat, 80]
def k0_off97 (k0_t11 : Fin k0_t11_loop.trips) (c0_i32_163 : BitVec 32) : Fin 2 → Nat :=
  let c0_i32_95 : BitVec 32 := 0#32
  let c1_i32_97 : BitVec 32 := 1#32
  let arg20 : BitVec 32 := Scf.iv c0_i32_95 c1_i32_97 k0_t11
  let c4_i32 : BitVec 32 := 4#32
  let v123 : BitVec 32 := Scalar.muli arg20 c4_i32
  let v244 : BitVec 32 := Scalar.addi v123 c0_i32_163
  let v245 : Index := Scalar.indexCast v244
  let c96_164 : Index := 96#32
  ![v245.toNat, 96]
def k0_off98 (k0_t11 : Fin k0_t11_loop.trips) (c0_i32_171 : BitVec 32) : Fin 2 → Nat :=
  let c0_i32_95 : BitVec 32 := 0#32
  let c1_i32_97 : BitVec 32 := 1#32
  let arg20 : BitVec 32 := Scf.iv c0_i32_95 c1_i32_97 k0_t11
  let c4_i32 : BitVec 32 := 4#32
  let v123 : BitVec 32 := Scalar.muli arg20 c4_i32
  let v264 : BitVec 32 := Scalar.addi v123 c0_i32_171
  let v265 : Index := Scalar.indexCast v264
  let c112_172 : Index := 112#32
  ![v265.toNat, 112]
def k0_off99 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_115_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x200_S4096x2x100 : S4096x200.ShapeCasts S4096x2x100
  inb_S128x2x100_S3x2x100_0_0_0 : ∀ a, (![0, 0, 0] : Fin 3 → Nat) a + S3x2x100.size a ≤ S128x2x100.size a
  inb_S128x2x100_S125x2x100_3_0_0 : ∀ a, (![3, 0, 0] : Fin 3 → Nat) a + S125x2x100.size a ≤ S128x2x100.size a
  inb_S128x2x100_S1x1x100_0_0_0 : ∀ a, (![0, 0, 0] : Fin 3 → Nat) a + S1x1x100.size a ≤ S128x2x100.size a
  squeezes_S1x1x100_S100 : S1x1x100.Squeezes S100
  inb_S100000x128_S100000x128_0_0 : ∀ a, (![0, 0] : Fin 2 → Nat) a + S100000x128.size a ≤ S100000x128.size a
  gathers_S100000x128_S100x128 : S100000x128.Gathers 0 S100x128
  inb_S128x2x100_S1x1x100_0_1_0 : ∀ a, (![0, 1, 0] : Fin 3 → Nat) a + S1x1x100.size a ≤ S128x2x100.size a
  inb_S128x2x100_S1x1x100_1_0_0 : ∀ a, (![1, 0, 0] : Fin 3 → Nat) a + S1x1x100.size a ≤ S128x2x100.size a
  inb_S128x2x100_S1x1x100_1_1_0 : ∀ a, (![1, 1, 0] : Fin 3 → Nat) a + S1x1x100.size a ≤ S128x2x100.size a
  inb_S128x2x100_S1x1x100_2_0_0 : ∀ a, (![2, 0, 0] : Fin 3 → Nat) a + S1x1x100.size a ≤ S128x2x100.size a
  inb_S128x2x100_S1x1x100_2_1_0 : ∀ a, (![2, 1, 0] : Fin 3 → Nat) a + S1x1x100.size a ≤ S128x2x100.size a
  h_S1x16 : 0 < S1x16.numel
  shapeCasts_S1x16_S16 : S1x16.ShapeCasts S16
  shapeCasts_S16_S1x16 : S16.ShapeCasts S1x16
  inb_S128x2x100_S1x1x100_126_0_0 : ∀ a, (![126, 0, 0] : Fin 3 → Nat) a + S1x1x100.size a ≤ S128x2x100.size a
  inb_S128x2x100_S1x1x100_126_1_0 : ∀ a, (![126, 1, 0] : Fin 3 → Nat) a + S1x1x100.size a ≤ S128x2x100.size a
  inb_S128x128_S1x16_126_0 : ∀ a, (![126, 0] : Fin 2 → Nat) a + S1x16.size a ≤ S128x128.size a
  inb_S128x128_S1x16_126_16 : ∀ a, (![126, 16] : Fin 2 → Nat) a + S1x16.size a ≤ S128x128.size a
  inb_S128x128_S1x16_126_32 : ∀ a, (![126, 32] : Fin 2 → Nat) a + S1x16.size a ≤ S128x128.size a
  inb_S128x128_S1x16_126_48 : ∀ a, (![126, 48] : Fin 2 → Nat) a + S1x16.size a ≤ S128x128.size a
  inb_S128x128_S1x16_126_64 : ∀ a, (![126, 64] : Fin 2 → Nat) a + S1x16.size a ≤ S128x128.size a
  inb_S128x128_S1x16_126_80 : ∀ a, (![126, 80] : Fin 2 → Nat) a + S1x16.size a ≤ S128x128.size a
  inb_S128x128_S1x16_126_96 : ∀ a, (![126, 96] : Fin 2 → Nat) a + S1x16.size a ≤ S128x128.size a
  inb_S128x128_S1x16_126_112 : ∀ a, (![126, 112] : Fin 2 → Nat) a + S1x16.size a ≤ S128x128.size a
  inb_S128x2x100_S1x1x100_127_0_0 : ∀ a, (![127, 0, 0] : Fin 3 → Nat) a + S1x1x100.size a ≤ S128x2x100.size a
  inb_S128x2x100_S1x1x100_127_1_0 : ∀ a, (![127, 1, 0] : Fin 3 → Nat) a + S1x1x100.size a ≤ S128x2x100.size a
  inb_S128x128_S1x16_127_0 : ∀ a, (![127, 0] : Fin 2 → Nat) a + S1x16.size a ≤ S128x128.size a
  inb_S128x128_S1x16_127_16 : ∀ a, (![127, 16] : Fin 2 → Nat) a + S1x16.size a ≤ S128x128.size a
  inb_S128x128_S1x16_127_32 : ∀ a, (![127, 32] : Fin 2 → Nat) a + S1x16.size a ≤ S128x128.size a
  inb_S128x128_S1x16_127_48 : ∀ a, (![127, 48] : Fin 2 → Nat) a + S1x16.size a ≤ S128x128.size a
  inb_S128x128_S1x16_127_64 : ∀ a, (![127, 64] : Fin 2 → Nat) a + S1x16.size a ≤ S128x128.size a
  inb_S128x128_S1x16_127_80 : ∀ a, (![127, 80] : Fin 2 → Nat) a + S1x16.size a ≤ S128x128.size a
  inb_S128x128_S1x16_127_96 : ∀ a, (![127, 96] : Fin 2 → Nat) a + S1x16.size a ≤ S128x128.size a
  inb_S128x128_S1x16_127_112 : ∀ a, (![127, 112] : Fin 2 → Nat) a + S1x16.size a ≤ S128x128.size a
  hcc0_scratch8 : 0 + S_.numel ≤ 9
  hcc0_scratch9 : 1 + S_.numel ≤ 9
  hcc0_scratch10 : 2 + S_.numel ≤ 9
  hcc0_scratch11 : 3 + S_.numel ≤ 9
  hcc0_scratch12 : 4 + S_.numel ≤ 9
  hcc0_scratch13 : 5 + S_.numel ≤ 9
  hcc0_scratch14 : 6 + S_.numel ≤ 9
  hcc0_scoped0 : 7 + S_.numel ≤ 9
  hcc0_scoped1 : 8 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S3x2x100.size a ≤ S4096x2x100.size a
  k0_off2_inb : ∀ i : grid0.Coords, ∀ a, (k0_off2 i) a + S125x2x100.size a ≤ S4096x2x100.size a
  k0_t1_ok : k0_t1_loop.OK
  k0_off3_inb : ∀ k0_t1 : Fin k0_t1_loop.trips, ∀ (r : Fin 3), ∀ a, (k0_off3 k0_t1 (BitVec.ofNat 32 r.val)) a + S1x1x100.size a ≤ S128x2x100.size a
  k0_t2_ok : k0_t2_loop.OK
  k0_off4_inb : ∀ k0_t2 : Fin k0_t2_loop.trips, ∀ (r : Fin 4), ∀ a, (k0_off4 k0_t2 (BitVec.ofNat 32 r.val)) a + S1x16.size a ≤ S100x128.size a
  k0_off5_inb : ∀ k0_t2 : Fin k0_t2_loop.trips, ∀ (r : Fin 4), ∀ a, (k0_off5 k0_t2 (BitVec.ofNat 32 r.val)) a + S1x16.size a ≤ S100x128.size a
  k0_off6_inb : ∀ k0_t2 : Fin k0_t2_loop.trips, ∀ (r : Fin 4), ∀ a, (k0_off6 k0_t2 (BitVec.ofNat 32 r.val)) a + S1x16.size a ≤ S100x128.size a
  k0_off7_inb : ∀ k0_t2 : Fin k0_t2_loop.trips, ∀ (r : Fin 4), ∀ a, (k0_off7 k0_t2 (BitVec.ofNat 32 r.val)) a + S1x16.size a ≤ S100x128.size a
  k0_off8_inb : ∀ k0_t2 : Fin k0_t2_loop.trips, ∀ (r : Fin 4), ∀ a, (k0_off8 k0_t2 (BitVec.ofNat 32 r.val)) a + S1x16.size a ≤ S100x128.size a
  k0_off9_inb : ∀ k0_t2 : Fin k0_t2_loop.trips, ∀ (r : Fin 4), ∀ a, (k0_off9 k0_t2 (BitVec.ofNat 32 r.val)) a + S1x16.size a ≤ S100x128.size a
  k0_off10_inb : ∀ k0_t2 : Fin k0_t2_loop.trips, ∀ (r : Fin 4), ∀ a, (k0_off10 k0_t2 (BitVec.ofNat 32 r.val)) a + S1x16.size a ≤ S100x128.size a
  k0_off11_inb : ∀ k0_t2 : Fin k0_t2_loop.trips, ∀ (r : Fin 4), ∀ a, (k0_off11 k0_t2 (BitVec.ofNat 32 r.val)) a + S1x16.size a ≤ S100x128.size a
  k0_off12_inb : ∀ k0_t1 : Fin k0_t1_loop.trips, ∀ (k0_h1 : k0_cond1 k0_t1 = 1#1), ∀ a, (k0_off12 k0_t1) a + S1x1x100.size a ≤ S128x2x100.size a
  k0_off13_inb : ∀ k0_t1 : Fin k0_t1_loop.trips, ∀ (r : Fin 3), ∀ a, (k0_off13 k0_t1 (BitVec.ofNat 32 r.val)) a + S1x1x100.size a ≤ S128x2x100.size a
  k0_t3_ok : k0_t3_loop.OK
  k0_off14_inb : ∀ k0_t3 : Fin k0_t3_loop.trips, ∀ (r : Fin 4), ∀ a, (k0_off14 k0_t3 (BitVec.ofNat 32 r.val)) a + S1x16.size a ≤ S100x128.size a
  k0_off15_inb : ∀ k0_t3 : Fin k0_t3_loop.trips, ∀ (r : Fin 4), ∀ a, (k0_off15 k0_t3 (BitVec.ofNat 32 r.val)) a + S1x16.size a ≤ S100x128.size a
  k0_off16_inb : ∀ k0_t3 : Fin k0_t3_loop.trips, ∀ (r : Fin 4), ∀ a, (k0_off16 k0_t3 (BitVec.ofNat 32 r.val)) a + S1x16.size a ≤ S100x128.size a
  k0_off17_inb : ∀ k0_t3 : Fin k0_t3_loop.trips, ∀ (r : Fin 4), ∀ a, (k0_off17 k0_t3 (BitVec.ofNat 32 r.val)) a + S1x16.size a ≤ S100x128.size a
  k0_off18_inb : ∀ k0_t3 : Fin k0_t3_loop.trips, ∀ (r : Fin 4), ∀ a, (k0_off18 k0_t3 (BitVec.ofNat 32 r.val)) a + S1x16.size a ≤ S100x128.size a
  k0_off19_inb : ∀ k0_t3 : Fin k0_t3_loop.trips, ∀ (r : Fin 4), ∀ a, (k0_off19 k0_t3 (BitVec.ofNat 32 r.val)) a + S1x16.size a ≤ S100x128.size a
  k0_off20_inb : ∀ k0_t3 : Fin k0_t3_loop.trips, ∀ (r : Fin 4), ∀ a, (k0_off20 k0_t3 (BitVec.ofNat 32 r.val)) a + S1x16.size a ≤ S100x128.size a
  k0_off21_inb : ∀ k0_t3 : Fin k0_t3_loop.trips, ∀ (r : Fin 4), ∀ a, (k0_off21 k0_t3 (BitVec.ofNat 32 r.val)) a + S1x16.size a ≤ S100x128.size a
  k0_off22_inb : ∀ k0_t1 : Fin k0_t1_loop.trips, ∀ (r : Fin 3), ∀ a, (k0_off22 k0_t1 (BitVec.ofNat 32 r.val)) a + S1x16.size a ≤ S128x128.size a
  k0_off23_inb : ∀ k0_t1 : Fin k0_t1_loop.trips, ∀ (r : Fin 3), ∀ a, (k0_off23 k0_t1 (BitVec.ofNat 32 r.val)) a + S1x16.size a ≤ S128x128.size a
  k0_off24_inb : ∀ k0_t1 : Fin k0_t1_loop.trips, ∀ (r : Fin 3), ∀ a, (k0_off24 k0_t1 (BitVec.ofNat 32 r.val)) a + S1x16.size a ≤ S128x128.size a
  k0_off25_inb : ∀ k0_t1 : Fin k0_t1_loop.trips, ∀ (r : Fin 3), ∀ a, (k0_off25 k0_t1 (BitVec.ofNat 32 r.val)) a + S1x16.size a ≤ S128x128.size a
  k0_off26_inb : ∀ k0_t1 : Fin k0_t1_loop.trips, ∀ (r : Fin 3), ∀ a, (k0_off26 k0_t1 (BitVec.ofNat 32 r.val)) a + S1x16.size a ≤ S128x128.size a
  k0_off27_inb : ∀ k0_t1 : Fin k0_t1_loop.trips, ∀ (r : Fin 3), ∀ a, (k0_off27 k0_t1 (BitVec.ofNat 32 r.val)) a + S1x16.size a ≤ S128x128.size a
  k0_off28_inb : ∀ k0_t1 : Fin k0_t1_loop.trips, ∀ (r : Fin 3), ∀ a, (k0_off28 k0_t1 (BitVec.ofNat 32 r.val)) a + S1x16.size a ≤ S128x128.size a
  k0_off29_inb : ∀ k0_t1 : Fin k0_t1_loop.trips, ∀ (r : Fin 3), ∀ a, (k0_off29 k0_t1 (BitVec.ofNat 32 r.val)) a + S1x16.size a ≤ S128x128.size a
  k0_off30_inb : ∀ k0_t1 : Fin k0_t1_loop.trips, ∀ (k0_h2 : k0_cond2 k0_t1 = 1#1), ∀ a, (k0_off30 k0_t1) a + S1x1x100.size a ≤ S128x2x100.size a
  k0_t4_ok : k0_t4_loop.OK
  k0_off31_inb : ∀ k0_t4 : Fin k0_t4_loop.trips, ∀ (r : Fin 4), ∀ a, (k0_off31 k0_t4 (BitVec.ofNat 32 r.val)) a + S1x16.size a ≤ S100x128.size a
  k0_off32_inb : ∀ k0_t4 : Fin k0_t4_loop.trips, ∀ (r : Fin 4), ∀ a, (k0_off32 k0_t4 (BitVec.ofNat 32 r.val)) a + S1x16.size a ≤ S100x128.size a
  k0_off33_inb : ∀ k0_t4 : Fin k0_t4_loop.trips, ∀ (r : Fin 4), ∀ a, (k0_off33 k0_t4 (BitVec.ofNat 32 r.val)) a + S1x16.size a ≤ S100x128.size a
  k0_off34_inb : ∀ k0_t4 : Fin k0_t4_loop.trips, ∀ (r : Fin 4), ∀ a, (k0_off34 k0_t4 (BitVec.ofNat 32 r.val)) a + S1x16.size a ≤ S100x128.size a
  k0_off35_inb : ∀ k0_t4 : Fin k0_t4_loop.trips, ∀ (r : Fin 4), ∀ a, (k0_off35 k0_t4 (BitVec.ofNat 32 r.val)) a + S1x16.size a ≤ S100x128.size a
  k0_off36_inb : ∀ k0_t4 : Fin k0_t4_loop.trips, ∀ (r : Fin 4), ∀ a, (k0_off36 k0_t4 (BitVec.ofNat 32 r.val)) a + S1x16.size a ≤ S100x128.size a
  k0_off37_inb : ∀ k0_t4 : Fin k0_t4_loop.trips, ∀ (r : Fin 4), ∀ a, (k0_off37 k0_t4 (BitVec.ofNat 32 r.val)) a + S1x16.size a ≤ S100x128.size a
  k0_off38_inb : ∀ k0_t4 : Fin k0_t4_loop.trips, ∀ (r : Fin 4), ∀ a, (k0_off38 k0_t4 (BitVec.ofNat 32 r.val)) a + S1x16.size a ≤ S100x128.size a
  k0_off39_inb : ∀ k0_t1 : Fin k0_t1_loop.trips, ∀ (k0_h3 : k0_cond3 k0_t1 = 1#1), ∀ a, (k0_off39 k0_t1) a + S1x1x100.size a ≤ S128x2x100.size a
  k0_t5_ok : k0_t5_loop.OK
  k0_off40_inb : ∀ k0_t5 : Fin k0_t5_loop.trips, ∀ (r : Fin 4), ∀ a, (k0_off40 k0_t5 (BitVec.ofNat 32 r.val)) a + S1x16.size a ≤ S100x128.size a
  k0_off41_inb : ∀ k0_t5 : Fin k0_t5_loop.trips, ∀ (r : Fin 4), ∀ a, (k0_off41 k0_t5 (BitVec.ofNat 32 r.val)) a + S1x16.size a ≤ S100x128.size a
  k0_off42_inb : ∀ k0_t5 : Fin k0_t5_loop.trips, ∀ (r : Fin 4), ∀ a, (k0_off42 k0_t5 (BitVec.ofNat 32 r.val)) a + S1x16.size a ≤ S100x128.size a
  k0_off43_inb : ∀ k0_t5 : Fin k0_t5_loop.trips, ∀ (r : Fin 4), ∀ a, (k0_off43 k0_t5 (BitVec.ofNat 32 r.val)) a + S1x16.size a ≤ S100x128.size a
  k0_off44_inb : ∀ k0_t5 : Fin k0_t5_loop.trips, ∀ (r : Fin 4), ∀ a, (k0_off44 k0_t5 (BitVec.ofNat 32 r.val)) a + S1x16.size a ≤ S100x128.size a
  k0_off45_inb : ∀ k0_t5 : Fin k0_t5_loop.trips, ∀ (r : Fin 4), ∀ a, (k0_off45 k0_t5 (BitVec.ofNat 32 r.val)) a + S1x16.size a ≤ S100x128.size a
  k0_off46_inb : ∀ k0_t5 : Fin k0_t5_loop.trips, ∀ (r : Fin 4), ∀ a, (k0_off46 k0_t5 (BitVec.ofNat 32 r.val)) a + S1x16.size a ≤ S100x128.size a
  k0_off47_inb : ∀ k0_t5 : Fin k0_t5_loop.trips, ∀ (r : Fin 4), ∀ a, (k0_off47 k0_t5 (BitVec.ofNat 32 r.val)) a + S1x16.size a ≤ S100x128.size a
  k0_off48_inb : ∀ k0_t1 : Fin k0_t1_loop.trips, ∀ (k0_h4 : k0_cond4 k0_t1 = 1#1), ∀ a, (k0_off48 k0_t1) a + S1x1x100.size a ≤ S128x2x100.size a
  k0_t6_ok : k0_t6_loop.OK
  k0_off49_inb : ∀ k0_t6 : Fin k0_t6_loop.trips, ∀ (r : Fin 4), ∀ a, (k0_off49 k0_t6 (BitVec.ofNat 32 r.val)) a + S1x16.size a ≤ S100x128.size a
  k0_off50_inb : ∀ k0_t6 : Fin k0_t6_loop.trips, ∀ (r : Fin 4), ∀ a, (k0_off50 k0_t6 (BitVec.ofNat 32 r.val)) a + S1x16.size a ≤ S100x128.size a
  k0_off51_inb : ∀ k0_t6 : Fin k0_t6_loop.trips, ∀ (r : Fin 4), ∀ a, (k0_off51 k0_t6 (BitVec.ofNat 32 r.val)) a + S1x16.size a ≤ S100x128.size a
  k0_off52_inb : ∀ k0_t6 : Fin k0_t6_loop.trips, ∀ (r : Fin 4), ∀ a, (k0_off52 k0_t6 (BitVec.ofNat 32 r.val)) a + S1x16.size a ≤ S100x128.size a
  k0_off53_inb : ∀ k0_t6 : Fin k0_t6_loop.trips, ∀ (r : Fin 4), ∀ a, (k0_off53 k0_t6 (BitVec.ofNat 32 r.val)) a + S1x16.size a ≤ S100x128.size a
  k0_off54_inb : ∀ k0_t6 : Fin k0_t6_loop.trips, ∀ (r : Fin 4), ∀ a, (k0_off54 k0_t6 (BitVec.ofNat 32 r.val)) a + S1x16.size a ≤ S100x128.size a
  k0_off55_inb : ∀ k0_t6 : Fin k0_t6_loop.trips, ∀ (r : Fin 4), ∀ a, (k0_off55 k0_t6 (BitVec.ofNat 32 r.val)) a + S1x16.size a ≤ S100x128.size a
  k0_off56_inb : ∀ k0_t6 : Fin k0_t6_loop.trips, ∀ (r : Fin 4), ∀ a, (k0_off56 k0_t6 (BitVec.ofNat 32 r.val)) a + S1x16.size a ≤ S100x128.size a
  k0_off57_inb : ∀ k0_t1 : Fin k0_t1_loop.trips, ∀ (k0_h5 : k0_cond5 k0_t1 = 1#1), ∀ a, (k0_off57 k0_t1) a + S1x1x100.size a ≤ S128x2x100.size a
  k0_t7_ok : k0_t7_loop.OK
  k0_off58_inb : ∀ k0_t7 : Fin k0_t7_loop.trips, ∀ (r : Fin 4), ∀ a, (k0_off58 k0_t7 (BitVec.ofNat 32 r.val)) a + S1x16.size a ≤ S100x128.size a
  k0_off59_inb : ∀ k0_t7 : Fin k0_t7_loop.trips, ∀ (r : Fin 4), ∀ a, (k0_off59 k0_t7 (BitVec.ofNat 32 r.val)) a + S1x16.size a ≤ S100x128.size a
  k0_off60_inb : ∀ k0_t7 : Fin k0_t7_loop.trips, ∀ (r : Fin 4), ∀ a, (k0_off60 k0_t7 (BitVec.ofNat 32 r.val)) a + S1x16.size a ≤ S100x128.size a
  k0_off61_inb : ∀ k0_t7 : Fin k0_t7_loop.trips, ∀ (r : Fin 4), ∀ a, (k0_off61 k0_t7 (BitVec.ofNat 32 r.val)) a + S1x16.size a ≤ S100x128.size a
  k0_off62_inb : ∀ k0_t7 : Fin k0_t7_loop.trips, ∀ (r : Fin 4), ∀ a, (k0_off62 k0_t7 (BitVec.ofNat 32 r.val)) a + S1x16.size a ≤ S100x128.size a
  k0_off63_inb : ∀ k0_t7 : Fin k0_t7_loop.trips, ∀ (r : Fin 4), ∀ a, (k0_off63 k0_t7 (BitVec.ofNat 32 r.val)) a + S1x16.size a ≤ S100x128.size a
  k0_off64_inb : ∀ k0_t7 : Fin k0_t7_loop.trips, ∀ (r : Fin 4), ∀ a, (k0_off64 k0_t7 (BitVec.ofNat 32 r.val)) a + S1x16.size a ≤ S100x128.size a
  k0_off65_inb : ∀ k0_t7 : Fin k0_t7_loop.trips, ∀ (r : Fin 4), ∀ a, (k0_off65 k0_t7 (BitVec.ofNat 32 r.val)) a + S1x16.size a ≤ S100x128.size a
  k0_off66_inb : ∀ k0_t1 : Fin k0_t1_loop.trips, ∀ (k0_h6 : k0_cond6 k0_t1 = 1#1), ∀ a, (k0_off66 k0_t1) a + S1x1x100.size a ≤ S128x2x100.size a
  k0_t8_ok : k0_t8_loop.OK
  k0_off67_inb : ∀ k0_t8 : Fin k0_t8_loop.trips, ∀ (r : Fin 4), ∀ a, (k0_off67 k0_t8 (BitVec.ofNat 32 r.val)) a + S1x16.size a ≤ S100x128.size a
  k0_off68_inb : ∀ k0_t8 : Fin k0_t8_loop.trips, ∀ (r : Fin 4), ∀ a, (k0_off68 k0_t8 (BitVec.ofNat 32 r.val)) a + S1x16.size a ≤ S100x128.size a
  k0_off69_inb : ∀ k0_t8 : Fin k0_t8_loop.trips, ∀ (r : Fin 4), ∀ a, (k0_off69 k0_t8 (BitVec.ofNat 32 r.val)) a + S1x16.size a ≤ S100x128.size a
  k0_off70_inb : ∀ k0_t8 : Fin k0_t8_loop.trips, ∀ (r : Fin 4), ∀ a, (k0_off70 k0_t8 (BitVec.ofNat 32 r.val)) a + S1x16.size a ≤ S100x128.size a
  k0_off71_inb : ∀ k0_t8 : Fin k0_t8_loop.trips, ∀ (r : Fin 4), ∀ a, (k0_off71 k0_t8 (BitVec.ofNat 32 r.val)) a + S1x16.size a ≤ S100x128.size a
  k0_off72_inb : ∀ k0_t8 : Fin k0_t8_loop.trips, ∀ (r : Fin 4), ∀ a, (k0_off72 k0_t8 (BitVec.ofNat 32 r.val)) a + S1x16.size a ≤ S100x128.size a
  k0_off73_inb : ∀ k0_t8 : Fin k0_t8_loop.trips, ∀ (r : Fin 4), ∀ a, (k0_off73 k0_t8 (BitVec.ofNat 32 r.val)) a + S1x16.size a ≤ S100x128.size a
  k0_off74_inb : ∀ k0_t8 : Fin k0_t8_loop.trips, ∀ (r : Fin 4), ∀ a, (k0_off74 k0_t8 (BitVec.ofNat 32 r.val)) a + S1x16.size a ≤ S100x128.size a
  k0_t9_ok : k0_t9_loop.OK
  k0_off75_inb : ∀ k0_t9 : Fin k0_t9_loop.trips, ∀ (r : Fin 4), ∀ a, (k0_off75 k0_t9 (BitVec.ofNat 32 r.val)) a + S1x16.size a ≤ S100x128.size a
  k0_off76_inb : ∀ k0_t9 : Fin k0_t9_loop.trips, ∀ (r : Fin 4), ∀ a, (k0_off76 k0_t9 (BitVec.ofNat 32 r.val)) a + S1x16.size a ≤ S100x128.size a
  k0_off77_inb : ∀ k0_t9 : Fin k0_t9_loop.trips, ∀ (r : Fin 4), ∀ a, (k0_off77 k0_t9 (BitVec.ofNat 32 r.val)) a + S1x16.size a ≤ S100x128.size a
  k0_off78_inb : ∀ k0_t9 : Fin k0_t9_loop.trips, ∀ (r : Fin 4), ∀ a, (k0_off78 k0_t9 (BitVec.ofNat 32 r.val)) a + S1x16.size a ≤ S100x128.size a
  k0_off79_inb : ∀ k0_t9 : Fin k0_t9_loop.trips, ∀ (r : Fin 4), ∀ a, (k0_off79 k0_t9 (BitVec.ofNat 32 r.val)) a + S1x16.size a ≤ S100x128.size a
  k0_off80_inb : ∀ k0_t9 : Fin k0_t9_loop.trips, ∀ (r : Fin 4), ∀ a, (k0_off80 k0_t9 (BitVec.ofNat 32 r.val)) a + S1x16.size a ≤ S100x128.size a
  k0_off81_inb : ∀ k0_t9 : Fin k0_t9_loop.trips, ∀ (r : Fin 4), ∀ a, (k0_off81 k0_t9 (BitVec.ofNat 32 r.val)) a + S1x16.size a ≤ S100x128.size a
  k0_off82_inb : ∀ k0_t9 : Fin k0_t9_loop.trips, ∀ (r : Fin 4), ∀ a, (k0_off82 k0_t9 (BitVec.ofNat 32 r.val)) a + S1x16.size a ≤ S100x128.size a
  k0_t10_ok : k0_t10_loop.OK
  k0_off83_inb : ∀ k0_t10 : Fin k0_t10_loop.trips, ∀ (r : Fin 4), ∀ a, (k0_off83 k0_t10 (BitVec.ofNat 32 r.val)) a + S1x16.size a ≤ S100x128.size a
  k0_off84_inb : ∀ k0_t10 : Fin k0_t10_loop.trips, ∀ (r : Fin 4), ∀ a, (k0_off84 k0_t10 (BitVec.ofNat 32 r.val)) a + S1x16.size a ≤ S100x128.size a
  k0_off85_inb : ∀ k0_t10 : Fin k0_t10_loop.trips, ∀ (r : Fin 4), ∀ a, (k0_off85 k0_t10 (BitVec.ofNat 32 r.val)) a + S1x16.size a ≤ S100x128.size a
  k0_off86_inb : ∀ k0_t10 : Fin k0_t10_loop.trips, ∀ (r : Fin 4), ∀ a, (k0_off86 k0_t10 (BitVec.ofNat 32 r.val)) a + S1x16.size a ≤ S100x128.size a
  k0_off87_inb : ∀ k0_t10 : Fin k0_t10_loop.trips, ∀ (r : Fin 4), ∀ a, (k0_off87 k0_t10 (BitVec.ofNat 32 r.val)) a + S1x16.size a ≤ S100x128.size a
  k0_off88_inb : ∀ k0_t10 : Fin k0_t10_loop.trips, ∀ (r : Fin 4), ∀ a, (k0_off88 k0_t10 (BitVec.ofNat 32 r.val)) a + S1x16.size a ≤ S100x128.size a
  k0_off89_inb : ∀ k0_t10 : Fin k0_t10_loop.trips, ∀ (r : Fin 4), ∀ a, (k0_off89 k0_t10 (BitVec.ofNat 32 r.val)) a + S1x16.size a ≤ S100x128.size a
  k0_off90_inb : ∀ k0_t10 : Fin k0_t10_loop.trips, ∀ (r : Fin 4), ∀ a, (k0_off90 k0_t10 (BitVec.ofNat 32 r.val)) a + S1x16.size a ≤ S100x128.size a
  k0_t11_ok : k0_t11_loop.OK
  k0_off91_inb : ∀ k0_t11 : Fin k0_t11_loop.trips, ∀ (r : Fin 4), ∀ a, (k0_off91 k0_t11 (BitVec.ofNat 32 r.val)) a + S1x16.size a ≤ S100x128.size a
  k0_off92_inb : ∀ k0_t11 : Fin k0_t11_loop.trips, ∀ (r : Fin 4), ∀ a, (k0_off92 k0_t11 (BitVec.ofNat 32 r.val)) a + S1x16.size a ≤ S100x128.size a
  k0_off93_inb : ∀ k0_t11 : Fin k0_t11_loop.trips, ∀ (r : Fin 4), ∀ a, (k0_off93 k0_t11 (BitVec.ofNat 32 r.val)) a + S1x16.size a ≤ S100x128.size a
  k0_off94_inb : ∀ k0_t11 : Fin k0_t11_loop.trips, ∀ (r : Fin 4), ∀ a, (k0_off94 k0_t11 (BitVec.ofNat 32 r.val)) a + S1x16.size a ≤ S100x128.size a
  k0_off95_inb : ∀ k0_t11 : Fin k0_t11_loop.trips, ∀ (r : Fin 4), ∀ a, (k0_off95 k0_t11 (BitVec.ofNat 32 r.val)) a + S1x16.size a ≤ S100x128.size a
  k0_off96_inb : ∀ k0_t11 : Fin k0_t11_loop.trips, ∀ (r : Fin 4), ∀ a, (k0_off96 k0_t11 (BitVec.ofNat 32 r.val)) a + S1x16.size a ≤ S100x128.size a
  k0_off97_inb : ∀ k0_t11 : Fin k0_t11_loop.trips, ∀ (r : Fin 4), ∀ a, (k0_off97 k0_t11 (BitVec.ofNat 32 r.val)) a + S1x16.size a ≤ S100x128.size a
  k0_off98_inb : ∀ k0_t11 : Fin k0_t11_loop.trips, ∀ (r : Fin 4), ∀ a, (k0_off98 k0_t11 (BitVec.ofNat 32 r.val)) a + S1x16.size a ≤ S100x128.size a
  k0_off99_inb : ∀ i : grid0.Coords, ∀ a, (k0_off99 i) a + S128x128.size a ≤ S4096x128.size a

variable [Facts₀]

abbrev cc0_scratch8 : DmaSems sig S_ := SemArray.consecutive 0 S_ hcc0_scratch8
abbrev cc0_scratch9 : DmaSems sig S_ := SemArray.consecutive 1 S_ hcc0_scratch9
abbrev cc0_scratch10 : DmaSems sig S_ := SemArray.consecutive 2 S_ hcc0_scratch10
abbrev cc0_scratch11 : DmaSems sig S_ := SemArray.consecutive 3 S_ hcc0_scratch11
abbrev cc0_scratch12 : DmaSems sig S_ := SemArray.consecutive 4 S_ hcc0_scratch12
abbrev cc0_scratch13 : DmaSems sig S_ := SemArray.consecutive 5 S_ hcc0_scratch13
abbrev cc0_scratch14 : DmaSems sig S_ := SemArray.consecutive 6 S_ hcc0_scratch14
abbrev cc0_scoped0 : DmaSems sig S_ := SemArray.consecutive 7 S_ hcc0_scoped0
abbrev cc0_scoped1 : DmaSems sig S_ := SemArray.consecutive 8 S_ hcc0_scoped1

class Facts : Prop extends Facts₀ where

variable [Facts]
-- ==== ReferenceIdeal.lean ====
abbrev S4096x200 : Shape := ⟨2, ![4096, 200]⟩
abbrev S100000x128 : Shape := ⟨2, ![100000, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩
abbrev S4096x128 : Shape := ⟨2, ![4096, 128]⟩

abbrev nBuf : Space → Nat
  | .hbm => 27
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x128, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x128, .f32⟩
  | .hbm, ⟨21, _⟩ => ⟨S4096x200x128, .i1⟩
  | .hbm, ⟨22, _⟩ => ⟨S_, .f32⟩
  | .hbm, ⟨23, _⟩ => ⟨S4096x200x128, .f32⟩
  | .hbm, ⟨24, _⟩ => ⟨S4096x200x128, .f32⟩
  | .hbm, ⟨25, _⟩ => ⟨S_, .f32⟩
  | .hbm, ⟨26, _⟩ => ⟨S4096x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x128_0_1 : S4096x200.BroadcastsInDim S4096x200x128 (![0, 1] : Fin 2 → Fin S4096x200x128.rank)
  bcast_S_S4096x200x128 : S_.BroadcastsInDim S4096x200x128 (![] : Fin 0 → Fin S4096x200x128.rank)
  reducesTo_S4096x200x128_S4096x128_d1 : S4096x200x128.ReducesTo [1] S4096x128
  gather_S100000x128_S4096x200x1_S4096x200x128_2_0_n_n_0_2_1128_wf : GatherDims.WF S100000x128 S4096x200x1 S4096x200x128 [2] [0] [] [0] [] 2 ![1, 128]

variable [Facts₀]

def gather_S100000x128_S4096x200x1_S4096x200x128_2_0_n_n_0_2_1128 : GatherDims S100000x128 S4096x200x1 S4096x200x128 where
  offsetDims := [2]
  collapsedSliceDims := [0]
  operandBatchingDims := []
  startIndicesBatchingDims := []
  startIndexMap := [0]
  indexVectorDim := 2
  sliceSizes := ![1, 128]
  wf := gather_S100000x128_S4096x200x1_S4096x200x128_2_0_n_n_0_2_1128_wf

class Facts : Prop extends Facts₀ where

variable [Facts]
-- ==== Proof.KICommon.lean ====
/-
  The idealized kernel as the SparseCore launch theorem sees it: its configuration, the ghost state
  (the launch handshakes' rounds beside the local transfers' counters), and the names of the arrays.
-/
import proofs.«206947_g65644280152286_cont_9to1_m_226_28_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206947_g65644280152286_cont_9to1_m_226_28_alg».proof.Proof.Gen.KernelIdeal
import proofs.«206947_g65644280152286_cont_9to1_m_226_28_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev EH : Emb UH (MT nD τ sig (HIx 1) (Elt F) ℕ UU ℕ) := embL

/-- The arrays, as the TensorCore names them: the index matrix, the table, the reshaped indices, the result. -/
abbrev aLoc (d : Dev nD) : Loc nD τ sig := (SparseCore.T d).loc main_arg0
abbrev tLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1

end Cert.Proof.KI

end
-- ==== Proof.Spec.lean ====
/-
  The function both programs compute: a lookup of table rows pooled by a maximum.
  For a batch row b and a column c the result is the largest of the 200 table entries
  table[input[b, l], c], l < 200, over the extended reals (the maximum of the empty family, −∞,
  is the pooling's starting value on both sides and never shows).
-/
import Idealize.ShloMosaic.PureOps.Ideal
import Idealize.ShloMosaic.Lib.ValueIdx

noncomputable section

namespace Cert.Proof.Spec

open Idealize.ShloMosaic Idealize.ShloMosaic.ValueIdx

/-- The row of the table an index word names: its unsigned value when that is a row number (under the
    precondition it always is), row 0 otherwise. -/
def rowOf (w : BitVec 32) : Fin 100000 := if h : w.toNat < 100000 then ⟨w.toNat, h⟩ else ⟨0, by decide⟩

theorem rowOf_val {w : BitVec 32} (h : w.toNat < 100000) : (rowOf w).val = w.toNat := by
  unfold rowOf; rw [dif_pos h]

/-- The pooled lookup at batch row `b` and column `c`. -/
def pooledAt (idx : IVec ⟨2, ![4096, 200]⟩ 32) (tbl : FVec Ideal ⟨2, ![100000, 128]⟩ .f32) (b : Fin 4096) (c : Fin 128) : EReal :=
  Finset.univ.sup fun l : Fin 200 => tbl (ix2 (rowOf (idx (ix2 b l))) c)

/-- The pooled lookup as an array [4096, 128]. -/
def pooled (idx : IVec ⟨2, ![4096, 200]⟩ 32) (tbl : FVec Ideal ⟨2, ![100000, 128]⟩ .f32) : FVec Ideal ⟨2, ![4096, 128]⟩ .f32 :=
  fun i => pooledAt idx tbl (i 0) (i 1)

theorem pooled_apply (idx : IVec ⟨2, ![4096, 200]⟩ 32) (tbl : FVec Ideal ⟨2, ![100000, 128]⟩ .f32) (b : Fin 4096) (c : Fin 128) :
    pooled idx tbl (ix2 b c) = pooledAt idx tbl b c := rfl

end Cert.Proof.Spec

end
-- ==== Proof.KSpec.lean ====
/-
  What one tile's arithmetic leaves in a result entry, for any float instance: for a batch row R and a column q,
  the 200 table entries table[idx3[R, h, j], q] (two halves h of 100 entries j) are folded into a running maximum
  that starts at −∞: each half in 25 steps, step k folding in max(max(x(4k), x(4k+1)), max(x(4k+2), x(4k+3))).
  At the extended reals this is the largest of the 200 entries (Spec.pooledAt), because the maximum there is
  associative, commutative and idempotent with −∞ neutral.
-/
import Idealize.ShloMosaic.PureOps.Ideal
import Idealize.ShloMosaic.Lib.ValueIdx
import proofs.«206947_g65644280152286_cont_9to1_m_226_28_alg».proof.Proof.Spec

noncomputable section

namespace Cert.Proof.KSpec

open Idealize.ShloMosaic Idealize.ShloMosaic.ValueIdx Cert.Proof.Spec

variable {F : FTy → Type} [FloatOps F]

/-- The float the running maximum starts from: the word of −∞. -/
def negInf : F .f32 := FloatOps.ofBits .f32 0xFF800000#32

/-- One step's contribution: four consecutive entries under a balanced maximum. -/
def quad (x : Fin 100 → F .f32) (k : Fin 25) : F .f32 :=
  FloatOps.maximumf (FloatOps.maximumf (x ⟨4 * k.val, by omega⟩) (x ⟨4 * k.val + 1, by omega⟩))
    (FloatOps.maximumf (x ⟨4 * k.val + 2, by omega⟩) (x ⟨4 * k.val + 3, by omega⟩))

/-- The running maximum after the first `n` steps of one half, from `a`. -/
def halfUpTo (x : Fin 100 → F .f32) (a : F .f32) : (n : ℕ) → n ≤ 25 → F .f32
  | 0, _ => a
  | n + 1, h => FloatOps.maximumf (halfUpTo x a n (Nat.le_of_succ_le h)) (quad x ⟨n, h⟩)

/-- One half folded into `a`. -/
def halfFold (x : Fin 100 → F .f32) (a : F .f32) : F .f32 := halfUpTo x a 25 (Nat.le_refl _)

/-- The table entries of batch row `R`, half `h`, at column `q`. -/
def entries (idx : IVec ⟨3, ![4096, 2, 100]⟩ 32) (tbl : FVec F ⟨2, ![100000, 128]⟩ .f32) (R : Fin 4096) (h : Fin 2) (q : Fin 128) : Fin 100 → F .f32 :=
  fun j => tbl (ix2 (rowOf (idx (ix3 R h j))) q)

/-- The result entry at batch row `R` and column `q`. -/
def kresAt (idx : IVec ⟨3, ![4096, 2, 100]⟩ 32) (tbl : FVec F ⟨2, ![100000, 128]⟩ .f32) (R : Fin 4096) (q : Fin 128) : F .f32 :=
  halfFold (entries idx tbl R 1 q) (halfFold (entries idx tbl R 0 q) negInf)

/-- The result array [4096, 128]. -/
def kres (idx : IVec ⟨3, ![4096, 2, 100]⟩ 32) (tbl : FVec F ⟨2, ![100000, 128]⟩ .f32) : FVec F ⟨2, ![4096, 128]⟩ .f32 :=
  fun i => kresAt idx tbl (i 0) (i 1)

end Cert.Proof.KSpec

end
-- ==== Proof.KIPay.lean ====
/-
  What one tile of the idealized kernel is handed and hands back. Tile (c, s) works on the 128 batch rows from
  256·s + 128·c: it is handed those rows of the reshaped indices (as the two row ranges its two index copies read:
  3 rows, then 125), a read share of the table, and its 128 rows of the result array; it hands the same back with
  the result rows holding, entry by entry, the fold KSpec.kres of the index rows and the table.
-/
import proofs.«206947_g65644280152286_cont_9to1_m_226_28_alg».proof.Proof.KICommon
import proofs.«206947_g65644280152286_cont_9to1_m_226_28_alg».proof.Proof.KSpec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The whole arrays and scratch buffers as a tile's kernel names them. -/
abbrev tW : Memref sig .scVector .hbm S100000x128 .f32 := Memref.whole main_arg1_scv
abbrev iW : Memref sig .scVector .hbm S4096x2x100 .i32 := Memref.whole main_v0_scv
abbrev oW : Memref sig .scVector .hbm S4096x128 .f32 := Memref.whole main_v1_scv

/-- A tile's grid coordinates from its SparseCore and subcore numbers. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

/-- The tile's first 3 index rows, its other 125, and its 128 result rows, as the kernel slices them. -/
abbrev iA (L : grid0.Coords) : Memref sig .scVector .hbm S3x2x100 .i32 :=
  (iW).slice (Rect.unit (s := S4096x2x100) (k0_off1 L) S3x2x100.size (k0_off1_inb L)) (fun _ => rfl)
abbrev iB (L : grid0.Coords) : Memref sig .scVector .hbm S125x2x100 .i32 :=
  (iW).slice (Rect.unit (s := S4096x2x100) (k0_off2 L) S125x2x100.size (k0_off2_inb L)) (fun _ => rfl)
abbrev oK (L : grid0.Coords) : Memref sig .scVector .hbm S128x128 .f32 :=
  (oW).slice (Rect.unit (s := S4096x128) (k0_off99 L) S128x128.size (k0_off99_inb L)) (fun _ => rfl)

/-- What a tile is handed: its index rows at contents `I`, the table at share `q` and contents `Tb`, its result rows at `fo`. -/
def tileGo (d : Dev nD) (L : grid0.Coords) (q : PosShare TreeShare) (I : Buf (Elt F) (iLoc d)) (Tb : Buf (Elt F) (tLoc d)) (fo : Buf (Elt F) (oLoc d)) : sProp 𝕄 :=
  iprop((iLoc d ↦[(iA L).view.set]{fullShare} I) ∗ (iLoc d ↦[(iB L).view.set]{fullShare} I) ∗ (tLoc d ↦{q} Tb) ∗ (oLoc d ↦[(oK L).view.set]{fullShare} fo))

variable [FloatOps F]

/-- What it hands back: the same, its result rows now holding the fold of its index rows and the table. -/
def tileTd (d : Dev nD) (L : grid0.Coords) (q : PosShare TreeShare) (I : Buf (Elt F) (iLoc d)) (Tb : Buf (Elt F) (tLoc d)) : sProp 𝕄 :=
  iprop((iLoc d ↦[(iA L).view.set]{fullShare} I) ∗ (iLoc d ↦[(iB L).view.set]{fullShare} I) ∗ (tLoc d ↦{q} Tb)
    ∗ ∃ f : Buf (Elt F) (oLoc d), (oLoc d ↦[(oK L).view.set]{fullShare} f) ∗ ⌜∀ j ∈ (oK L).view.set, f j = KSpec.kres (F := F) I Tb j⌝)

/-- The kernel's body on one tile, at any grid coordinates: from what the tile is handed, its own scratch buffers and
    semaphores (at zero), to what it hands back — given that every index word names a row of the table. -/
def TileBody : Prop :=
  ∀ (d : Dev nD) (L : grid0.Coords) (q : PosShare TreeShare) (I : Buf (Elt F) (iLoc d)) (Tb : Buf (Elt F) (tLoc d)) (fo : Buf (Elt F) (oLoc d)),
    (∀ j, (I j).toNat < 100000) →
    ∀ (O : CellTallies nD τ sig (HIx 1)) (W : Waits sig (HIx 1)), (∀ g, O g none = 0) →
    (iprop(levAts (K (F := F)).L (K (F := F)).lev ∗ emp ∗ tileGo d L q I Tb fo
        ∗ scopedBufs (thr d L) ∗ scopedSems0 (thr d L) ∗ owes (thr d L) O W) : sProp 𝕄)
      ⊢ wp frame (wpE (defs₀ (F := F)) 𝒱₀ (thr d L) none) Set.univ
          (cc0_k L (Memref.whole main_arg1_scv) (Memref.isWhole_whole _) (Memref.whole main_v0_scv) (Memref.isWhole_whole _) (Memref.whole main_v1_scv) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scratch12 cc0_scratch13 cc0_scratch14 cc0_scoped0 cc0_scoped1)
          fun _ => iprop(tileTd d L q I Tb ∗ scopedBufs (thr d L) ∗ scopedSems0 (thr d L)
            ∗ ∃ W', ⌜∀ p ∈ W', p ∈ W ∨ p.2 = none⌝ ∗ owes (thr d L) O W')

end Cert.Proof.KI

end
-- ==== Proof.KIOwn.lean ====
/-
  The storage that belongs to one tile alone, opened by name. A tile's own semaphores, all at zero, are the nine the
  kernel uses (the seven of its scratch operands, the two its scoped regions allocate) and the rest; its own buffers,
  each at some contents, are the eight scratch buffers the kernel uses and the rest.
-/
import proofs.«206947_g65644280152286_cont_9to1_m_226_28_alg».proof.Proof.KIPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Two semaphores of one thread differ when their names do. -/
theorem cell_ne {t : Thread nD τ} {a b : SemLoc sig} (h : a ≠ b) : ((t, a) : GSem nD τ sig) ≠ (t, b) :=
  fun e => h (congrArg Prod.snd e)

/-- Two buffers of one processor differ when their names do. -/
theorem ref_ne {p : Proc τ} {a b : Ref sig p.kind} (h : a ≠ b) : p.devRef a ≠ p.devRef b :=
  fun e => h (Proc.devRef_injective _ e)

variable (d : Dev nD) (L : grid0.Coords)

/-- The tile's own semaphores at zero: the nine the kernel names, and the others. -/
theorem ownSems0_V :
    (ownSems0 (thr d L) : sProp 𝕄)
      = iprop(semVal (thr d L, .dma cc0_scratch8.sem) 0
          ∗ semVal (thr d L, .dma cc0_scratch9.sem) 0
          ∗ semVal (thr d L, .dma cc0_scratch10.sem) 0
          ∗ semVal (thr d L, .dma cc0_scratch11.sem) 0
          ∗ semVal (thr d L, .dma cc0_scratch12.sem) 0
          ∗ semVal (thr d L, .dma cc0_scratch13.sem) 0
          ∗ semVal (thr d L, .dma cc0_scratch14.sem) 0
          ∗ semVal (thr d L, .dma cc0_scoped0.sem) 0
          ∗ semVal (thr d L, .dma cc0_scoped1.sem) 0
          ∗ bigSep ((((((((((ownCells (thr d L)).erase (thr d L, .dma cc0_scratch8.sem)).erase (thr d L, .dma cc0_scratch9.sem)).erase (thr d L, .dma cc0_scratch10.sem)).erase (thr d L, .dma cc0_scratch11.sem)).erase (thr d L, .dma cc0_scratch12.sem)).erase (thr d L, .dma cc0_scratch13.sem)).erase (thr d L, .dma cc0_scratch14.sem)).erase (thr d L, .dma cc0_scoped0.sem)).erase (thr d L, .dma cc0_scoped1.sem)) fun g => semVal g 0) := by
  unfold SparseCore.Cfg.ownSems0
  rw [SparseCore.bigSep_erase' ((mem_ownCells (g := ((thr d L, SemLoc.dma cc0_scratch8.sem) : GSem nD τ sig))).mpr ⟨rfl, by show (SemLoc.dma cc0_scratch8.sem : SemLoc sig).isScoped .scVector = true; decide⟩),
    SparseCore.bigSep_erase' (Finset.mem_erase.mpr ⟨cell_ne (by decide), (mem_ownCells (g := ((thr d L, SemLoc.dma cc0_scratch9.sem) : GSem nD τ sig))).mpr ⟨rfl, by show (SemLoc.dma cc0_scratch9.sem : SemLoc sig).isScoped .scVector = true; decide⟩⟩),
    SparseCore.bigSep_erase' (Finset.mem_erase.mpr ⟨cell_ne (by decide), Finset.mem_erase.mpr ⟨cell_ne (by decide), (mem_ownCells (g := ((thr d L, SemLoc.dma cc0_scratch10.sem) : GSem nD τ sig))).mpr ⟨rfl, by show (SemLoc.dma cc0_scratch10.sem : SemLoc sig).isScoped .scVector = true; decide⟩⟩⟩),
    SparseCore.bigSep_erase' (Finset.mem_erase.mpr ⟨cell_ne (by decide), Finset.mem_erase.mpr ⟨cell_ne (by decide), Finset.mem_erase.mpr ⟨cell_ne (by decide), (mem_ownCells (g := ((thr d L, SemLoc.dma cc0_scratch11.sem) : GSem nD τ sig))).mpr ⟨rfl, by show (SemLoc.dma cc0_scratch11.sem : SemLoc sig).isScoped .scVector = true; decide⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), (mem_ownCells (g := ((thr d L, SemLoc.dma cc0_scratch12.sem) : GSem nD τ sig))).mpr ⟨rfl, by show (SemLoc.dma cc0_scratch12.sem : SemLoc sig).isScoped .scVector = true; decide⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := ((thr d L, SemLoc.dma cc0_scratch13.sem) : GSem nD τ sig))).mpr ⟨rfl, by show (SemLoc.dma cc0_scratch13.sem : SemLoc sig).isScoped .scVector = true; decide⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := ((thr d L, SemLoc.dma cc0_scratch14.sem) : GSem nD τ sig))).mpr ⟨rfl, by show (SemLoc.dma cc0_scratch14.sem : SemLoc sig).isScoped .scVector = true; decide⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := ((thr d L, SemLoc.dma cc0_scoped0.sem) : GSem nD τ sig))).mpr ⟨rfl, by show (SemLoc.dma cc0_scoped0.sem : SemLoc sig).isScoped .scVector = true; decide⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := ((thr d L, SemLoc.dma cc0_scoped1.sem) : GSem nD τ sig))).mpr ⟨rfl, by show (SemLoc.dma cc0_scoped1.sem : SemLoc sig).isScoped .scVector = true; decide⟩⟩⟩⟩⟩⟩⟩⟩⟩)]

/-- The tile's own buffers, each at some contents: the eight scratch buffers the kernel names, and the others. -/
theorem ownBufs_V :
    (ownBufs (thr d L) : sProp 𝕄)
      = iprop((∃ f, (thr d L).loc cc0_scratch0 ↦{fullShare} f)
          ∗ (∃ f, (thr d L).loc cc0_scratch1 ↦{fullShare} f)
          ∗ (∃ f, (thr d L).loc cc0_scratch2 ↦{fullShare} f)
          ∗ (∃ f, (thr d L).loc cc0_scratch3 ↦{fullShare} f)
          ∗ (∃ f, (thr d L).loc cc0_scratch4 ↦{fullShare} f)
          ∗ (∃ f, (thr d L).loc cc0_scratch5 ↦{fullShare} f)
          ∗ (∃ f, (thr d L).loc cc0_scratch6 ↦{fullShare} f)
          ∗ (∃ f, (thr d L).loc cc0_scratch7 ↦{fullShare} f)
          ∗ bigSep (((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨ref_ne (p := Proc.scVector (cV L) (jV L)) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨ref_ne (p := Proc.scVector (cV L) (jV L)) (show (cc0_scratch2 : Ref sig .scVector) ≠ cc0_scratch1 by decide), Finset.mem_erase.mpr ⟨ref_ne (p := Proc.scVector (cV L) (jV L)) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨ref_ne (p := Proc.scVector (cV L) (jV L)) (show (cc0_scratch3 : Ref sig .scVector) ≠ cc0_scratch2 by decide), Finset.mem_erase.mpr ⟨ref_ne (p := Proc.scVector (cV L) (jV L)) (show (cc0_scratch3 : Ref sig .scVector) ≠ cc0_scratch1 by decide), Finset.mem_erase.mpr ⟨ref_ne (p := Proc.scVector (cV L) (jV L)) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨ref_ne (p := Proc.scVector (cV L) (jV L)) (show (cc0_scratch4 : Ref sig .scVector) ≠ cc0_scratch3 by decide), Finset.mem_erase.mpr ⟨ref_ne (p := Proc.scVector (cV L) (jV L)) (show (cc0_scratch4 : Ref sig .scVector) ≠ cc0_scratch2 by decide), Finset.mem_erase.mpr ⟨ref_ne (p := Proc.scVector (cV L) (jV L)) (show (cc0_scratch4 : Ref sig .scVector) ≠ cc0_scratch1 by decide), Finset.mem_erase.mpr ⟨ref_ne (p := Proc.scVector (cV L) (jV L)) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨ref_ne (p := Proc.scVector (cV L) (jV L)) (show (cc0_scratch5 : Ref sig .scVector) ≠ cc0_scratch4 by decide), Finset.mem_erase.mpr ⟨ref_ne (p := Proc.scVector (cV L) (jV L)) (show (cc0_scratch5 : Ref sig .scVector) ≠ cc0_scratch3 by decide), Finset.mem_erase.mpr ⟨ref_ne (p := Proc.scVector (cV L) (jV L)) (show (cc0_scratch5 : Ref sig .scVector) ≠ cc0_scratch2 by decide), Finset.mem_erase.mpr ⟨ref_ne (p := Proc.scVector (cV L) (jV L)) (show (cc0_scratch5 : Ref sig .scVector) ≠ cc0_scratch1 by decide), Finset.mem_erase.mpr ⟨ref_ne (p := Proc.scVector (cV L) (jV L)) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨ref_ne (p := Proc.scVector (cV L) (jV L)) (show (cc0_scratch6 : Ref sig .scVector) ≠ cc0_scratch5 by decide), Finset.mem_erase.mpr ⟨ref_ne (p := Proc.scVector (cV L) (jV L)) (show (cc0_scratch6 : Ref sig .scVector) ≠ cc0_scratch4 by decide), Finset.mem_erase.mpr ⟨ref_ne (p := Proc.scVector (cV L) (jV L)) (show (cc0_scratch6 : Ref sig .scVector) ≠ cc0_scratch3 by decide), Finset.mem_erase.mpr ⟨ref_ne (p := Proc.scVector (cV L) (jV L)) (show (cc0_scratch6 : Ref sig .scVector) ≠ cc0_scratch2 by decide), Finset.mem_erase.mpr ⟨ref_ne (p := Proc.scVector (cV L) (jV L)) (show (cc0_scratch6 : Ref sig .scVector) ≠ cc0_scratch1 by decide), Finset.mem_erase.mpr ⟨ref_ne (p := Proc.scVector (cV L) (jV L)) (show (cc0_scratch6 : Ref sig .scVector) ≠ cc0_scratch0 by decide), SparseCore.Cfg.mem_ownRefs_of_owner (p := Proc.scVector (cV L) (jV L)) (b := ((Proc.scVector (cV L) (jV L)).devRef cc0_scratch6)) rfl⟩⟩⟩⟩⟩⟩),
    SparseCore.bigSep_erase' (Finset.mem_erase.mpr ⟨ref_ne (p := Proc.scVector (cV L) (jV L)) (show (cc0_scratch7 : Ref sig .scVector) ≠ cc0_scratch6 by decide), Finset.mem_erase.mpr ⟨ref_ne (p := Proc.scVector (cV L) (jV L)) (show (cc0_scratch7 : Ref sig .scVector) ≠ cc0_scratch5 by decide), Finset.mem_erase.mpr ⟨ref_ne (p := Proc.scVector (cV L) (jV L)) (show (cc0_scratch7 : Ref sig .scVector) ≠ cc0_scratch4 by decide), Finset.mem_erase.mpr ⟨ref_ne (p := Proc.scVector (cV L) (jV L)) (show (cc0_scratch7 : Ref sig .scVector) ≠ cc0_scratch3 by decide), Finset.mem_erase.mpr ⟨ref_ne (p := Proc.scVector (cV L) (jV L)) (show (cc0_scratch7 : Ref sig .scVector) ≠ cc0_scratch2 by decide), Finset.mem_erase.mpr ⟨ref_ne (p := Proc.scVector (cV L) (jV L)) (show (cc0_scratch7 : Ref sig .scVector) ≠ cc0_scratch1 by decide), Finset.mem_erase.mpr ⟨ref_ne (p := Proc.scVector (cV L) (jV L)) (show (cc0_scratch7 : Ref sig .scVector) ≠ cc0_scratch0 by decide), SparseCore.Cfg.mem_ownRefs_of_owner (p := Proc.scVector (cV L) (jV L)) (b := ((Proc.scVector (cV L) (jV L)).devRef cc0_scratch7)) rfl⟩⟩⟩⟩⟩⟩⟩)]

end Cert.Proof.KI

end
-- ==== Proof.KILaunchP.lean ====
/-
  The launch of the idealized kernel, first part: what the call's handshakes carry, and how @main's arrays split among
  the 32 tiles and join again.

  @main reshapes the index matrix [4096, 200] to [4096, 2, 100] (idx3) and calls the kernel once. Tile (c, i) of the
  call works on the 128 rows from 256·i + 128·c. The call hands SparseCore c its sixteen tiles' operands, each tile
  its own: its index rows (3, then 125), read share number 16·c + i of 32 of the table, its 128 result rows; the
  remainder of the table's share stays with @main across the call. The 64 index row ranges and the 32 result row
  blocks are pairwise disjoint and cover their arrays, so the arrays split into them and join from them; the
  result blocks come back each holding the fold on its rows, which joins to the whole result array holding the fold.
-/
import proofs.«206947_g65644280152286_cont_9to1_m_226_28_alg».proof.Proof.KIPay
import proofs.«206947_g65644280152286_cont_9to1_m_226_28_alg».proof.Proof.KIOwn
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tiles' row blocks: pairwise disjoint, and a cover of the arrays

Tile `(c, i)` works on the 128 rows from `256·i + 128·c`: of the result array all of them, of the index array the
first 3 and the other 125. -/

/-- The grid coordinates of tile `i` of SparseCore `c`. -/
abbrev LT (c : Fin 2) (i : Fin 16) : grid0.Coords := coordsV c i

theorem off99_zero (c : Fin 2) (i : Fin 16) : k0_off99 (LT c i) 0 = 256 * i.val + 128 * c.val := by rw [k0_off99_eq]; rfl
theorem off1_zero (c : Fin 2) (i : Fin 16) : k0_off1 (LT c i) 0 = 256 * i.val + 128 * c.val := by rw [k0_off1_eq]; rfl
theorem off2_zero (c : Fin 2) (i : Fin 16) : k0_off2 (LT c i) 0 = 256 * i.val + 128 * c.val + 3 := by rw [k0_off2_eq]; rfl

theorem tile_ne {t t' : Fin 2 × Fin 16} (h : t ≠ t') : ¬(t.1.val = t'.1.val ∧ t.2.val = t'.2.val) :=
  fun ⟨h1, h2⟩ => h (Prod.ext (Fin.ext h1) (Fin.ext h2))

/-- The tiles' row sets: result rows, the first 3 index rows, the other 125. -/
abbrev oS (t : Fin 2 × Fin 16) : Finset S4096x128.Idx := (oK (LT t.1 t.2)).view.set
abbrev aS (t : Fin 2 × Fin 16) : Finset S4096x2x100.Idx := (iA (LT t.1 t.2)).view.set
abbrev bS (t : Fin 2 × Fin 16) : Finset S4096x2x100.Idx := (iB (LT t.1 t.2)).view.set

theorem oS_eq (t : Fin 2 × Fin 16) :
    oS t = (Rect.unit (s := S4096x128) (k0_off99 (LT t.1 t.2)) S128x128.size (k0_off99_inb _)).set :=
  View.set_slice_whole main_v1_scv _
theorem aS_eq (t : Fin 2 × Fin 16) :
    aS t = (Rect.unit (s := S4096x2x100) (k0_off1 (LT t.1 t.2)) S3x2x100.size (k0_off1_inb _)).set :=
  View.set_slice_whole main_v0_scv _
theorem bS_eq (t : Fin 2 × Fin 16) :
    bS t = (Rect.unit (s := S4096x2x100) (k0_off2 (LT t.1 t.2)) S125x2x100.size (k0_off2_inb _)).set :=
  View.set_slice_whole main_v0_scv _

/-- Result rows of different tiles are disjoint. -/
theorem oK_disjoint : ∀ t ∈ (Finset.univ : Finset (Fin 2 × Fin 16)), ∀ t' ∈ (Finset.univ : Finset (Fin 2 × Fin 16)), t ≠ t' →
    Disjoint (oS t) (oS t') := by
  intro t _ t' _ h
  rw [oS_eq, oS_eq]
  refine Rect.unit_disjoint 0 ?_
  rw [off99_zero, off99_zero]
  have := tile_ne h
  show 256 * t.2.val + 128 * t.1.val + 128 ≤ 256 * t'.2.val + 128 * t'.1.val ∨ 256 * t'.2.val + 128 * t'.1.val + 128 ≤ 256 * t.2.val + 128 * t.1.val
  omega

/-- The tiles' result rows cover the result array. -/
theorem oK_cover : (Finset.univ : Finset (Fin 2 × Fin 16)).biUnion oS = Finset.univ := by
  ext j
  simp only [Finset.mem_biUnion, Finset.mem_univ, true_and, iff_true]
  have h0 : (j 0).val < 4096 := (j 0).isLt
  have h1 : (j 1).val < 128 := (j 1).isLt
  refine ⟨(⟨(j 0).val / 128 % 2, by omega⟩, ⟨(j 0).val / 256, by omega⟩), ?_⟩
  show j ∈ oS _
  rw [oS_eq, Rect.mem_set_unit]
  refine Fin.forall_fin_two.mpr ⟨?_, ?_⟩
  · rw [off99_zero]
    show 256 * ((j 0).val / 256) + 128 * ((j 0).val / 128 % 2) ≤ (j 0).val ∧ (j 0).val < 256 * ((j 0).val / 256) + 128 * ((j 0).val / 128 % 2) + 128
    omega
  · rw [k0_off99_eq]
    show 0 ≤ (j 1).val ∧ (j 1).val < 0 + 128
    omega

/-- The index rows of the tiles, two ranges each. -/
abbrev iSet : (Fin 2 × Fin 16) ⊕ (Fin 2 × Fin 16) → Finset S4096x2x100.Idx :=
  Sum.elim aS bS

theorem iSet_disjoint : ∀ u ∈ (Finset.univ : Finset ((Fin 2 × Fin 16) ⊕ (Fin 2 × Fin 16))), ∀ u' ∈ (Finset.univ : Finset ((Fin 2 × Fin 16) ⊕ (Fin 2 × Fin 16))), u ≠ u' →
    Disjoint (iSet u) (iSet u') := by
  intro u _ u' _ h
  rcases u with t | t <;> rcases u' with t' | t'
  · have := tile_ne (t := t) (t' := t') (fun e => h (e ▸ rfl))
    show Disjoint (aS t) (aS t')
    rw [aS_eq, aS_eq]
    refine Rect.unit_disjoint 0 ?_
    rw [off1_zero, off1_zero]
    show 256 * t.2.val + 128 * t.1.val + 3 ≤ 256 * t'.2.val + 128 * t'.1.val ∨ 256 * t'.2.val + 128 * t'.1.val + 3 ≤ 256 * t.2.val + 128 * t.1.val
    omega
  · show Disjoint (aS t) (bS t')
    rw [aS_eq, bS_eq]
    refine Rect.unit_disjoint 0 ?_
    rw [off1_zero, off2_zero]
    show 256 * t.2.val + 128 * t.1.val + 3 ≤ 256 * t'.2.val + 128 * t'.1.val + 3 ∨ 256 * t'.2.val + 128 * t'.1.val + 3 + 125 ≤ 256 * t.2.val + 128 * t.1.val
    omega
  · show Disjoint (bS t) (aS t')
    rw [bS_eq, aS_eq]
    refine Rect.unit_disjoint 0 ?_
    rw [off2_zero, off1_zero]
    show 256 * t.2.val + 128 * t.1.val + 3 + 125 ≤ 256 * t'.2.val + 128 * t'.1.val ∨ 256 * t'.2.val + 128 * t'.1.val + 3 ≤ 256 * t.2.val + 128 * t.1.val + 3
    omega
  · have := tile_ne (t := t) (t' := t') (fun e => h (e ▸ rfl))
    show Disjoint (bS t) (bS t')
    rw [bS_eq, bS_eq]
    refine Rect.unit_disjoint 0 ?_
    rw [off2_zero, off2_zero]
    show 256 * t.2.val + 128 * t.1.val + 3 + 125 ≤ 256 * t'.2.val + 128 * t'.1.val + 3 ∨ 256 * t'.2.val + 128 * t'.1.val + 3 + 125 ≤ 256 * t.2.val + 128 * t.1.val + 3
    omega

theorem iSet_cover : (Finset.univ : Finset ((Fin 2 × Fin 16) ⊕ (Fin 2 × Fin 16))).biUnion iSet = Finset.univ := by
  ext j
  simp only [Finset.mem_biUnion, Finset.mem_univ, true_and, iff_true]
  have h0 : (j 0).val < 4096 := (j 0).isLt
  have h1 : (j 1).val < 2 := (j 1).isLt
  have h2 : (j 2).val < 100 := (j 2).isLt
  by_cases hr : (j 0).val % 128 < 3
  · refine ⟨.inl (⟨(j 0).val / 128 % 2, by omega⟩, ⟨(j 0).val / 256, by omega⟩), ?_⟩
    show j ∈ aS _
    rw [aS_eq, Rect.mem_set_unit]
    refine Fin.forall_fin_succ.mpr ⟨?_, Fin.forall_fin_two.mpr ⟨?_, ?_⟩⟩
    · rw [off1_zero]
      show 256 * ((j 0).val / 256) + 128 * ((j 0).val / 128 % 2) ≤ (j 0).val ∧ (j 0).val < 256 * ((j 0).val / 256) + 128 * ((j 0).val / 128 % 2) + 3
      omega
    · rw [k0_off1_eq]
      show 0 ≤ (j 1).val ∧ (j 1).val < 0 + 2
      omega
    · rw [k0_off1_eq]
      show 0 ≤ (j 2).val ∧ (j 2).val < 0 + 100
      omega
  · refine ⟨.inr (⟨(j 0).val / 128 % 2, by omega⟩, ⟨(j 0).val / 256, by omega⟩), ?_⟩
    show j ∈ bS _
    rw [bS_eq, Rect.mem_set_unit]
    refine Fin.forall_fin_succ.mpr ⟨?_, Fin.forall_fin_two.mpr ⟨?_, ?_⟩⟩
    · rw [off2_zero]
      show 256 * ((j 0).val / 256) + 128 * ((j 0).val / 128 % 2) + 3 ≤ (j 0).val ∧ (j 0).val < 256 * ((j 0).val / 256) + 128 * ((j 0).val / 128 % 2) + 3 + 125
      omega
    · rw [k0_off2_eq]
      show 0 ≤ (j 1).val ∧ (j 1).val < 0 + 2
      omega
    · rw [k0_off2_eq]
      show 0 ≤ (j 2).val ∧ (j 2).val < 0 + 100
      omega

variable (m : (ℓ : Loc nD τ sig) → Buf (Elt F) ℓ)

/-! ## The reshaped indices -/

/-- What @main's reshape leaves in the index array the kernel reads: the index matrix's words in row-major order at
    the shape [4096, 2, 100]. -/
def idx3 (d : Dev nD) : Buf (Elt F) (iLoc d) :=
  fun i => shapeCast S4096x2x100 (m (aLoc d)) shapeCasts_S4096x200_S4096x2x100 i

/-- Entry (R, h, j) of the reshaped indices is entry (R, 100·h + j) of the index matrix. -/
theorem idx3_apply (d : Dev nD) (R : Fin 4096) (h : Fin 2) (j : Fin 100) :
    idx3 m d (ix3 R h j) = m (aLoc d) (ix2 R (⟨100 * h.val + j.val, by omega⟩ : Fin 200)) := by
  unfold idx3
  refine shapeCast_apply (s := S4096x200) (t := S4096x2x100) (m (aLoc d)) shapeCasts_S4096x200_S4096x2x100 (ix3 R h j) (ix2 R (⟨100 * h.val + j.val, by omega⟩ : Fin 200)) ?_
  rw [Shape.rowMajor_val_two, Shape.rowMajor_val_three]
  show R.val * 200 + (100 * h.val + j.val) = (R.val * 2 + h.val) * 100 + j.val
  omega

/-- Every word of the reshaped indices is a word of the index matrix: a bound on those is a bound on these. -/
theorem idx3_lt (d : Dev nD) (h : ∀ j, (m (aLoc d) j).toNat < 100000) : ∀ j, (idx3 m d j).toNat < 100000 := by
  intro j
  unfold idx3 shapeCast
  exact h _

/-! ## The tiles of the call: coordinates, table shares, payload -/

/-- The table is read by all 32 tiles at once: tile `(c, i)` holds the read share number `16·c + i` of 32. -/
abbrev qT (c : Fin 2) (i : Fin 16) : PosShare TreeShare := Transfers.shareTokN fullShare (i.val + 16 * c.val)

omit m in
instance tileGo_storable (d : Dev nD) (L : grid0.Coords) (q : PosShare TreeShare) (I : Buf (Elt F) (iLoc d)) (Tb : Buf (Elt F) (tLoc d)) (fo : Buf (Elt F) (oLoc d)) :
    BI.Storable (upEmb : UEmb _ 𝕄) (tileGo d L q I Tb fo) := by unfold tileGo; infer_instance

variable [FloatOps F]

omit m in
instance tileTd_storable (d : Dev nD) (L : grid0.Coords) (q : PosShare TreeShare) (I : Buf (Elt F) (iLoc d)) (Tb : Buf (Elt F) (tLoc d)) :
    BI.Storable (upEmb : UEmb _ 𝕄) (tileTd d L q I Tb) := by unfold tileTd; infer_instance

/-- What SparseCore `c` is handed for its sixteen tiles, and hands back. -/
abbrev coreGo (d : Dev nD) (c : Fin 2) : sProp 𝕄 :=
  bigSep Finset.univ fun i : Fin 16 => tileGo d (LT c i) (qT c i) (idx3 m d) (m (tLoc d)) (m (oLoc d))
abbrev coreTd (d : Dev nD) (c : Fin 2) : sProp 𝕄 :=
  bigSep Finset.univ fun i : Fin 16 => tileTd d (LT c i) (qT c i) (idx3 m d) (m (tLoc d))

/-- The one call hands each SparseCore its sixteen tiles' index rows, read shares of the table and result rows, each
    tile its own; they come back with the result rows holding the fold. -/
def P : (K (F := F)).Pay (nD := nD) (Val := Elt F) (Name := ℕ) (U := UU) where
  st := fun q d c => match q with | 0 => coreGo m d (Fin.cast nCore_zero c)
  dn := fun q d c => match q with | 0 => coreTd m d (Fin.cast nCore_zero c)
  go := fun q d c i => match q with
    | 0 => tileGo d (LT (Fin.cast nCore_zero c) (Fin.cast nSub_zero i)) (qT (Fin.cast nCore_zero c) (Fin.cast nSub_zero i)) (idx3 m d) (m (tLoc d)) (m (oLoc d))
  td := fun q d c i => match q with
    | 0 => tileTd d (LT (Fin.cast nCore_zero c) (Fin.cast nSub_zero i)) (qT (Fin.cast nCore_zero c) (Fin.cast nSub_zero i)) (idx3 m d) (m (tLoc d))
  x := fun _ _ => iprop(emp)

instance P_storable : (P (F := F) m).IsStorable where
  st q d c := match q with
    | 0 => (inferInstance : BI.Storable (upEmb : UEmb _ 𝕄) (coreGo m d (Fin.cast nCore_zero c)))
  dn q d c := match q with
    | 0 => (inferInstance : BI.Storable (upEmb : UEmb _ 𝕄) (coreTd m d (Fin.cast nCore_zero c)))
  go q d c i := match q with
    | 0 => (inferInstance : BI.Storable (upEmb : UEmb _ 𝕄)
      (tileGo d (LT (Fin.cast nCore_zero c) (Fin.cast nSub_zero i)) (qT (Fin.cast nCore_zero c) (Fin.cast nSub_zero i)) (idx3 m d) (m (tLoc d)) (m (oLoc d))))
  td q d c i := match q with
    | 0 => (inferInstance : BI.Storable (upEmb : UEmb _ 𝕄)
      (tileTd d (LT (Fin.cast nCore_zero c) (Fin.cast nSub_zero i)) (qT (Fin.cast nCore_zero c) (Fin.cast nSub_zero i)) (idx3 m d) (m (tLoc d))))

/-! ## The obligation: the tile's body at the launch theorem's spelling -/

theorem defs₀_vector (c : Fin τ.nSC) (s : Fin τ.nSub) :
    defs₀ (F := F) (.scVector c s) 0 ()
      = SparseCore.onTile hcore0 hsub0 (fun c s => cc0_k (coordsV c s)
          (Memref.whole main_arg1_scv) (Memref.isWhole_whole _) (Memref.whole main_v0_scv) (Memref.isWhole_whole _) (Memref.whole main_v1_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _)
          cc0_scratch8 cc0_scratch9 cc0_scratch10 cc0_scratch11 cc0_scratch12 cc0_scratch13 cc0_scratch14 cc0_scoped0 cc0_scoped1) ⟨⟩ c s := rfl

omit [FloatOps F] m in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The launch theorem's obligation for a tile, from the body at any grid coordinates and the range of the index words. -/
theorem tileObl (hbody : TileBody (F := F)) (hpre : ∀ d j, (m (aLoc d) j).toNat < 100000) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hbody d (LT (Fin.cast nCore_zero c) (Fin.cast nSub_zero i)) (qT (Fin.cast nCore_zero c) (Fin.cast nSub_zero i)) (idx3 m d) (m (tLoc d)) (m (oLoc d))
    (idx3_lt m d (hpre d)) O W hO).trans (wp_mono frame _ _ fun _ => obl_post)

/-! ## A SparseCore's operands are its tiles' -/

omit [FloatOps F] m in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] m in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show coreGo m d (Fin.cast nCore_zero c) ⊢ |={Set.univ}=> iprop(
      (bigSep Finset.univ fun i : Fin ((K (F := F)).nSub 0) =>
        tileGo d (LT (Fin.cast nCore_zero c) (Fin.cast nSub_zero i)) (qT (Fin.cast nCore_zero c) (Fin.cast nSub_zero i)) (idx3 m d) (m (tLoc d)) (m (oLoc d)))
      ∗ ((bigSep Finset.univ fun i : Fin ((K (F := F)).nSub 0) =>
          tileTd d (LT (Fin.cast nCore_zero c) (Fin.cast nSub_zero i)) (qT (Fin.cast nCore_zero c) (Fin.cast nSub_zero i)) (idx3 m d) (m (tLoc d)))
          -∗ coreTd m d (Fin.cast nCore_zero c)))
  rw [bigSep_tasks (F := F) (fun i => tileGo d (LT (Fin.cast nCore_zero c) i) (qT (Fin.cast nCore_zero c) i) (idx3 m d) (m (tLoc d)) (m (oLoc d))),
    bigSep_tasks (F := F) (fun i => tileTd d (LT (Fin.cast nCore_zero c) i) (qT (Fin.cast nCore_zero c) i) (idx3 m d) (m (tLoc d)))]
  iintro H; imodintro
  isplitl [H]; · iexact H
  iintro H; iexact H

/-! ## The arrays split among the tiles, and joined -/

omit [FloatOps F] m in
/-- The result array is the tiles' result rows. -/
theorem oPts_tiles (d : Dev nD) (f : Buf (Elt F) (oLoc d)) :
    (oLoc d ↦{fullShare} f : sProp 𝕄) = bigSep Finset.univ fun t : Fin 2 × Fin 16 => oLoc d ↦[oS t]{fullShare} f := by
  rw [← pointsTo_biUnion Finset.univ (ℓ := oLoc d) oS oK_disjoint, oK_cover]; try rfl

omit [FloatOps F] m in
/-- The index array is the tiles' index rows, two ranges each. -/
theorem iPts_tiles (d : Dev nD) (f : Buf (Elt F) (iLoc d)) :
    (iLoc d ↦{fullShare} f : sProp 𝕄)
      = iprop((bigSep Finset.univ fun t : Fin 2 × Fin 16 => iLoc d ↦[aS t]{fullShare} f) ∗ bigSep Finset.univ fun t : Fin 2 × Fin 16 => iLoc d ↦[bS t]{fullShare} f) := by
  have e : (bigSep Finset.univ fun u : (Fin 2 × Fin 16) ⊕ (Fin 2 × Fin 16) => (iLoc d ↦[iSet u]{fullShare} f : sProp 𝕄))
      = iprop((bigSep Finset.univ fun t : Fin 2 × Fin 16 => iLoc d ↦[aS t]{fullShare} f) ∗ bigSep Finset.univ fun t : Fin 2 × Fin 16 => iLoc d ↦[bS t]{fullShare} f) :=
    bigSep_univ_sum _
  rw [← e, ← pointsTo_biUnion Finset.univ (ℓ := iLoc d) iSet iSet_disjoint, iSet_cover]; try rfl

omit [FloatOps F] m in
/-- The table is read by all 32 tiles at once: a read share each, and a remainder kept aside. -/
theorem tPts_tiles (d : Dev nD) (f : Buf (Elt F) (tLoc d)) :
    (tLoc d ↦{fullShare} f : sProp 𝕄)
      ⊣⊢ iprop((tLoc d ↦{Transfers.shareDrop fullShare 32} f) ∗ bigSep Finset.univ fun t : Fin 2 × Fin 16 => tLoc d ↦{qT t.1 t.2} f) := by
  have e : (bigSep Finset.univ fun k : Fin 32 => (tLoc d ↦{Transfers.shareTok fullShare 32 k} f : sProp 𝕄))
      = bigSep Finset.univ fun t : Fin 2 × Fin 16 => tLoc d ↦{qT t.1 t.2} f :=
    bigSep_univ_equiv (finProdFinEquiv (m := 2) (n := 16)) (fun k : Fin 32 => (tLoc d ↦{Transfers.shareTok fullShare 32 k} f : sProp 𝕄))
  rw [← e]; exact Transfers.pointsTo_toks fullShare 32

omit [FloatOps F] m in
/-- Pure facts, one per summand, hold of all summands. -/
theorem bigSep_pure_all {J : Type} [DecidableEq J] (s : Finset J) (φ : J → Prop) :
    (bigSep s fun i => (iprop(⌜φ i⌝) : sProp 𝕄)) ⊢ iprop(⌜∀ i ∈ s, φ i⌝) := by
  induction s using Finset.induction_on with
  | empty => rw [bigSep_empty]; iintro -; ipureintro; intro i hi; exact absurd hi (Finset.notMem_empty i)
  | insert i s hi ih =>
    rw [SparseCore.bigSep_insert' hi]
    iintro ⟨%h, HS⟩
    ihave H := ih $$ HS
    icases H with %hS
    ipureintro; intro j hj; rcases Finset.mem_insert.mp hj with rfl | hj; exacts [h, hS j hj]

omit m in
/-- The tiles' result rows, each at its own contents that hold the fold on those rows, are the result array at the fold. -/
theorem oRows_join (d : Dev nD) (I : Buf (Elt F) (iLoc d)) (Tb : Buf (Elt F) (tLoc d)) :
    (bigSep Finset.univ fun t : Fin 2 × Fin 16 =>
        iprop(∃ f : Buf (Elt F) (oLoc d), (oLoc d ↦[oS t]{fullShare} f) ∗ ⌜∀ j ∈ oS t, f j = KSpec.kres (F := F) I Tb j⌝))
      ⊢ (iprop(∃ f : Buf (Elt F) (oLoc d), (oLoc d ↦{fullShare} f) ∗ ⌜f = KSpec.kres (F := F) I Tb⌝) : sProp 𝕄) := by
  have : Nonempty (Buf (Elt F) (oLoc d)) := ⟨KSpec.kres (F := F) I Tb⟩
  refine (bigSep_exists_pi Finset.univ (fun (t : Fin 2 × Fin 16) (f : Buf (Elt F) (oLoc d)) =>
    iprop((oLoc d ↦[oS t]{fullShare} f) ∗ ⌜∀ j ∈ oS t, f j = KSpec.kres (F := F) I Tb j⌝))).trans ?_
  iintro ⟨%fs, H⟩
  ihave H' := (Entails.of_eq (bigSep_sep' Finset.univ (fun t : Fin 2 × Fin 16 => (oLoc d ↦[oS t]{fullShare} fs t : sProp 𝕄))
    (fun t : Fin 2 × Fin 16 => (iprop(⌜∀ j ∈ oS t, fs t j = KSpec.kres (F := F) I Tb j⌝) : sProp 𝕄)))) $$ H
  icases H' with ⟨Ho, Hp⟩
  ihave Hq := (bigSep_pure_all Finset.univ (fun t : Fin 2 × Fin 16 => ∀ j ∈ oS t, fs t j = KSpec.kres (F := F) I Tb j)) $$ Hp
  icases Hq with %hp
  ihave H'' := (pointsTo_biUnion_join (ℓ := oLoc d) (q := fullShare) (Val := Elt F) Finset.univ oS fs (KSpec.kres (F := F) I Tb) oK_disjoint) $$ Ho
  icases H'' with ⟨%g, %hg, Hg⟩
  rw [oK_cover]
  iexists g
  isplitl [Hg]; · iexact Hg
  ipureintro
  funext j
  have hj : j ∈ (Finset.univ : Finset (Fin 2 × Fin 16)).biUnion oS := by rw [oK_cover]; exact Finset.mem_univ j
  obtain ⟨t, _, hjt⟩ := Finset.mem_biUnion.mp hj
  exact (hg t (Finset.mem_univ t) j hjt).trans (hp t (Finset.mem_univ t) j hjt)

omit [FloatOps F] m in
/-- What @main holds before the call is the remainder of the table beside what the 32 tiles are handed. -/
theorem go_split (d : Dev nD) (I : Buf (Elt F) (iLoc d)) (Tb : Buf (Elt F) (tLoc d)) (fo : Buf (Elt F) (oLoc d)) :
    iprop((iLoc d ↦{fullShare} I) ∗ (tLoc d ↦{fullShare} Tb) ∗ (oLoc d ↦{fullShare} fo))
      ⊢ (iprop((tLoc d ↦{Transfers.shareDrop fullShare 32} Tb)
          ∗ bigSep Finset.univ fun t : Fin 2 × Fin 16 => tileGo d (LT t.1 t.2) (qT t.1 t.2) I Tb fo) : sProp 𝕄) := by
  unfold tileGo
  rw [bigSep_sep', bigSep_sep', bigSep_sep', iPts_tiles, oPts_tiles]
  iintro ⟨⟨Ha, Hb⟩, Ht, Ho⟩
  ihave Ht' := (tPts_tiles d Tb).1 $$ Ht
  icases Ht' with ⟨Hdrop, Htoks⟩
  isplitl [Hdrop]; · iexact Hdrop
  isplitl [Ha]; · iexact Ha
  isplitl [Hb]; · iexact Hb
  isplitl [Htoks]; · iexact Htoks
  iexact Ho

omit m in
/-- What the 32 tiles hand back, beside the table's remainder, is the index array and the table whole and the result
    array at the fold. -/
theorem td_join (d : Dev nD) (I : Buf (Elt F) (iLoc d)) (Tb : Buf (Elt F) (tLoc d)) :
    (iprop((tLoc d ↦{Transfers.shareDrop fullShare 32} Tb)
        ∗ bigSep Finset.univ fun t : Fin 2 × Fin 16 => tileTd d (LT t.1 t.2) (qT t.1 t.2) I Tb) : sProp 𝕄)
      ⊢ iprop((iLoc d ↦{fullShare} I) ∗ (tLoc d ↦{fullShare} Tb)
          ∗ ∃ f : Buf (Elt F) (oLoc d), (oLoc d ↦{fullShare} f) ∗ ⌜f = KSpec.kres (F := F) I Tb⌝) := by
  unfold tileTd
  rw [bigSep_sep', bigSep_sep', bigSep_sep', iPts_tiles]
  iintro ⟨Hdrop, Ha, Hb, Htoks, Ho⟩
  isplitl [Ha Hb]
  · isplitl [Ha]; · iexact Ha
    iexact Hb
  isplitl [Hdrop Htoks]
  · iapply (tPts_tiles d Tb).2
    isplitl [Hdrop]; · iexact Hdrop
    iexact Htoks
  iapply (oRows_join d I Tb); iexact Ho

end Cert.Proof.KI

end
-- ==== Proof.KILaunch.lean ====
/-
  The launch of the idealized kernel, second part: @main on the TensorCore and the program's run.

  @main's reshape writes idx3 into the index array the kernel reads (the TensorCore's four arrays held whole across
  it); the call takes the index array, the result array and 32 read shares of the table, split among the 32 tiles,
  and brings them back with the result array holding the fold KSpec.kres of idx3 and the table; the index matrix
  and the table end as they began. The launch theorem for SparseCore programs turns this, the tile's body and the
  split into the run of every thread of the program.
-/
import proofs.«206947_g65644280152286_cont_9to1_m_226_28_alg».proof.Proof.KILaunchP

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch element: the handshakes' rounds; nothing of the kernel's own -/

def u₀ : UU := (initOf (K (F := F)).hsCells (K (F := F)).hsToks, 1)

omit [FloatOps F] m ρ in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev t' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev opR : HloOp τ sig (Elt F) := StableHlo.reshape main_arg0 main_v0 rfl shapeCasts_S4096x200_S4096x2x100

/-- The TensorCore's arrays, all unscoped: the index matrix, the table, the reshaped indices, the result. -/
abbrev S4 : Finset (DevRef τ sig) := {a', t', i', o'}

omit [FloatOps F] m ρ in
theorem held_S4 (d : Dev nD) (W : Valuation τ sig (Elt F)) :
    (held (T d) S4 W : sProp 𝕄)
      = iprop((aLoc d ↦{fullShare} W a') ∗ (tLoc d ↦{fullShare} W t') ∗ (iLoc d ↦{fullShare} W i') ∗ (oLoc d ↦{fullShare} W o')) := by
  unfold held S4
  rw [SparseCore.bigSep_insert' (by decide), SparseCore.bigSep_insert' (by decide), SparseCore.bigSep_insert' (by decide), bigSep_singleton]

omit [FloatOps F] m ρ in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (tLoc d ↦{fullShare} W main_arg1) ∗ (iLoc d ↦{fullShare} W main_v0) ∗ (oLoc d ↦{fullShare} W main_v1)) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

omit [FloatOps F] ρ in
theorem unscoped_held (d : Dev nD) : (unscopedBufs d (fun b => m ((SparseCore.T d).loc b)) : sProp 𝕄) = held (T d) S4 (V0 m d) := by
  rw [unscopedBufs_eq, held_S4]; rfl

omit [FloatOps F] ρ in
theorem V1_a (d : Dev nD) : (opR (F := F)).result (V0 m d) a' = m (aLoc d) :=
  ((opR (F := F)).result_of_not_mem (V0 m d) (show a' ∉ ({i'} : Finset (DevRef τ sig)) by decide)).trans rfl
omit [FloatOps F] ρ in
theorem V1_t (d : Dev nD) : (opR (F := F)).result (V0 m d) t' = m (tLoc d) :=
  ((opR (F := F)).result_of_not_mem (V0 m d) (show t' ∉ ({i'} : Finset (DevRef τ sig)) by decide)).trans rfl
omit [FloatOps F] ρ in
theorem V1_o (d : Dev nD) : (opR (F := F)).result (V0 m d) o' = m (oLoc d) :=
  ((opR (F := F)).result_of_not_mem (V0 m d) (show o' ∉ ({i'} : Finset (DevRef τ sig)) by decide)).trans rfl
omit [FloatOps F] ρ in
/-- The reshape leaves `idx3` in the index array the kernel reads. -/
theorem V1_i (d : Dev nD) : (opR (F := F)).result (V0 m d) i' = idx3 m d :=
  (StableHlo.reshape_result main_arg0 main_v0 rfl shapeCasts_S4096x200_S4096x2x100 _ _ (V0 m d)).trans rfl

omit [FloatOps F] ρ in
theorem held_V1 (d : Dev nD) :
    (held (T d) S4 ((opR (F := F)).result (V0 m d)) : sProp 𝕄)
      = iprop((aLoc d ↦{fullShare} m (aLoc d)) ∗ (tLoc d ↦{fullShare} m (tLoc d)) ∗ (iLoc d ↦{fullShare} idx3 m d) ∗ (oLoc d ↦{fullShare} m (oLoc d))) := by
  rw [held_S4, V1_a, V1_t, V1_i, V1_o]

omit [FloatOps F] m ρ in
theorem hR : (opR (F := F)).bufs ⊆ S4 := show ({a', i'} : Finset (DevRef τ sig)) ⊆ S4 by decide

/-- What the call takes for the two SparseCores, and what it hands back: the 32 tiles'. -/
theorem st0_eq (d : Dev nD) :
    (bigSep Finset.univ fun c : Fin ((K (F := F)).nCore 0) => (P m).st 0 d c)
      = bigSep Finset.univ fun t : Fin 2 × Fin 16 => tileGo d (LT t.1 t.2) (qT t.1 t.2) (idx3 m d) (m (tLoc d)) (m (oLoc d)) :=
  (bigSep_cores (F := F) (fun c => coreGo m d c)).trans
    (bigSep_univ_prod (fun t : Fin 2 × Fin 16 => tileGo d (LT t.1 t.2) (qT t.1 t.2) (idx3 m d) (m (tLoc d)) (m (oLoc d)))).symm
theorem dn0_eq (d : Dev nD) :
    (bigSep Finset.univ fun c : Fin ((K (F := F)).nCore 0) => (P m).dn 0 d c)
      = bigSep Finset.univ fun t : Fin 2 × Fin 16 => tileTd d (LT t.1 t.2) (qT t.1 t.2) (idx3 m d) (m (tLoc d)) :=
  (bigSep_cores (F := F) (fun c => coreTd m d c)).trans
    (bigSep_univ_prod (fun t : Fin 2 × Fin 16 => tileTd d (LT t.1 t.2) (qT t.1 t.2) (idx3 m d) (m (tLoc d)))).symm

/-- What @main leaves the claim: the index matrix and the table at their launch contents, the result array at the fold. -/
abbrev FIN (d : Dev nD) : sProp 𝕄 :=
  iprop((aLoc d ↦{fullShare} m (aLoc d)) ∗ (tLoc d ↦{fullShare} m (tLoc d))
    ∗ ∃ f : Buf (Elt F) (oLoc d), (oLoc d ↦{fullShare} f) ∗ ⌜f = KSpec.kres (F := F) (idx3 m d) (m (tLoc d))⌝)

/-- @main on device `d`'s TensorCore: the reshape (over the four arrays held whole), then the call: the index array,
    the table's read shares and the result array to the 32 tiles, and back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the reshape
  iapply (wp_hlo_within 𝒱 (SparseCore.T d) none Set.univ (op := opR) (S := S4) hR (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha, Ht, Hi, Ho⟩
  -- the call
  ihave Hs := (go_split (F := F) d (idx3 m d) (m (tLoc d)) (m (oLoc d))) $$ [Hi Ht Ho]
  · isplitl [Hi]; · iexact Hi
    isplitl [Ht]; · iexact Ht
    iexact Ho
  icases Hs with ⟨Hdrop, Hgo⟩
  iapply ((K (F := F)).wp_run (D (F := F)) 𝒱 (EH := EH) (P := P m) κ d 0) $$ [Hst Hgo Hb Ha Hdrop]
  isplitr; · iexact Hctx
  isplitl [Hst]; · iexact Hst
  isplitl [Hgo]
  · rw [st0_eq]; iexact Hgo
  iintro ⟨Hst, Hdn⟩
  ihave Hdn' := (Entails.of_eq (dn0_eq m d)) $$ Hdn
  ihave Hj := (td_join (F := F) d (idx3 m d) (m (tLoc d))) $$ [Hdrop Hdn']
  · isplitl [Hdrop]; · iexact Hdrop
    iexact Hdn'
  icases Hj with ⟨-, Ht, Ho⟩
  imodintro
  isplitl [Hst]; · iexact Hst
  isplitl [Ha]; · iexact Ha
  isplitl [Ht]; · iexact Ht
  iexact Ho

def fq (d : Dev nD) (s' : Phys nD τ sig (Elt F)) : Prop :=
  s'.mem.mem (oLoc d) = KSpec.kres (F := F) (idx3 m d) (m (tLoc d)) ∧ s'.mem.mem (aLoc d) = m (aLoc d) ∧ s'.mem.mem (tLoc d) = m (tLoc d)

set_option maxRecDepth 16384 in
theorem hfin (d : Dev nD) (s' : Phys nD τ sig (Elt F)) : iprop(FIN m d ∗ SI s') ⊢ (⌜fq m d s'⌝ : sProp 𝕄) := by
  iintro ⟨⟨Ha, Ht, %f, Ho, %hf⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := f)) $$ [HSI Ho]
  · isplitl [HSI] <;> iassumption
  icases H with %h3
  ipureintro
  exact ⟨(funext fun i => h3 i (Finset.mem_univ i)).trans hf, funext fun i => h1 i (Finset.mem_univ i), funext fun i => h2 i (Finset.mem_univ i)⟩

/-! ## The program's run -/

def QC : PUnit × MemSt nD τ sig (Elt F) → Prop := fun r => ∀ c : Dev nD,
  r.2.mem (oLoc c) = KSpec.kres (F := F) (idx3 m c) (m (tLoc c)) ∧ r.2.mem (aLoc c) = m (aLoc c) ∧ r.2.mem (tLoc c) = m (tLoc c)

/-- Every weakly fair execution of the program's threads from `m` terminates, nothing faulting, with the result array
    holding the fold of the reshaped indices and the table, and the index matrix and the table unchanged — given the
    tile's body and that every index word names a row of the table. -/
theorem run_main [∀ e, Nonempty (Elt F e)] (hpre : ∀ d j, (m (aLoc d) j).toNat < 100000) (hbody : TileBody (F := F)) :
    θ_run (Cert.KernelIdeal.defs (F := F)) (Cert.KernelIdeal.threads (F := F)) ⟨m, fun _ => 0, ρ⟩
      (fun r => ∀ c : Dev nD, r.2.mem (oLoc c) = KSpec.kres (F := F) (idx3 m c) (m (tLoc c)) ∧ r.2.mem (aLoc c) = m (aLoc c) ∧ r.2.mem (tLoc c) = m (tLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m hbody hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

example (c : Dev nD) : aLoc c = ((c.tc : Thread nD τ).loc main_arg0) := rfl
example (c : Dev nD) : oLoc c = ((c.tc : Thread nD τ).loc main_v1) := rfl

end Cert.Proof.KI

end
-- ==== Proof.KBCommon.lean ====
/-
  The kernel as the SparseCore launch theorem sees it: its configuration, the ghost state
  (the launch handshakes' rounds beside the local transfers' counters), and the names of the arrays.
-/
import proofs.«206947_g65644280152286_cont_9to1_m_226_28_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206947_g65644280152286_cont_9to1_m_226_28_alg».proof.Proof.Gen.Kernel
import proofs.«206947_g65644280152286_cont_9to1_m_226_28_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev EH : Emb UH (MT nD τ sig (HIx 1) (Elt F) ℕ UU ℕ) := embL

/-- The arrays, as the TensorCore names them: the index matrix, the table, the reshaped indices, the result. -/
abbrev aLoc (d : Dev nD) : Loc nD τ sig := (SparseCore.T d).loc main_arg0
abbrev tLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1

end Cert.Proof.KB

end
-- ==== Proof.KBPay.lean ====
/-
  What one tile of the kernel is handed and hands back. Tile (c, s) works on the 128 batch rows from
  256·s + 128·c: it is handed those rows of the reshaped indices (as the two row ranges its two index copies read:
  3 rows, then 125), a read share of the table, and its 128 rows of the result array; it hands the same back with
  the result rows holding, entry by entry, the fold KSpec.kres of the index rows and the table.
-/
import proofs.«206947_g65644280152286_cont_9to1_m_226_28_alg».proof.Proof.KBCommon
import proofs.«206947_g65644280152286_cont_9to1_m_226_28_alg».proof.Proof.KSpec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The whole arrays and scratch buffers as a tile's kernel names them. -/
abbrev tW : Memref sig .scVector .hbm S100000x128 .f32 := Memref.whole main_arg1_scv
abbrev iW : Memref sig .scVector .hbm S4096x2x100 .i32 := Memref.whole main_v0_scv
abbrev oW : Memref sig .scVector .hbm S4096x128 .f32 := Memref.whole main_v1_scv

/-- A tile's grid coordinates from its SparseCore and subcore numbers. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

/-- The tile's first 3 index rows, its other 125, and its 128 result rows, as the kernel slices them. -/
abbrev iA (L : grid0.Coords) : Memref sig .scVector .hbm S3x2x100 .i32 :=
  (iW).slice (Rect.unit (s := S4096x2x100) (k0_off1 L) S3x2x100.size (k0_off1_inb L)) (fun _ => rfl)
abbrev iB (L : grid0.Coords) : Memref sig .scVector .hbm S125x2x100 .i32 :=
  (iW).slice (Rect.unit (s := S4096x2x100) (k0_off2 L) S125x2x100.size (k0_off2_inb L)) (fun _ => rfl)
abbrev oK (L : grid0.Coords) : Memref sig .scVector .hbm S128x128 .f32 :=
  (oW).slice (Rect.unit (s := S4096x128) (k0_off99 L) S128x128.size (k0_off99_inb L)) (fun _ => rfl)

/-- What a tile is handed: its index rows at contents `I`, the table at share `q` and contents `Tb`, its result rows at `fo`. -/
def tileGo (d : Dev nD) (L : grid0.Coords) (q : PosShare TreeShare) (I : Buf (Elt F) (iLoc d)) (Tb : Buf (Elt F) (tLoc d)) (fo : Buf (Elt F) (oLoc d)) : sProp 𝕄 :=
  iprop((iLoc d ↦[(iA L).view.set]{fullShare} I) ∗ (iLoc d ↦[(iB L).view.set]{fullShare} I) ∗ (tLoc d ↦{q} Tb) ∗ (oLoc d ↦[(oK L).view.set]{fullShare} fo))

variable [FloatOps F]

/-- What it hands back: the same, its result rows now holding the fold of its index rows and the table. -/
def tileTd (d : Dev nD) (L : grid0.Coords) (q : PosShare TreeShare) (I : Buf (Elt F) (iLoc d)) (Tb : Buf (Elt F) (tLoc d)) : sProp 𝕄 :=
  iprop((iLoc d ↦[(iA L).view.set]{fullShare} I) ∗ (iLoc d ↦[(iB L).view.set]{fullShare} I) ∗ (tLoc d ↦{q} Tb)
    ∗ ∃ f : Buf (Elt F) (oLoc d), (oLoc d ↦[(oK L).view.set]{fullShare} f) ∗ ⌜∀ j ∈ (oK L).view.set, f j = KSpec.kres (F := F) I Tb j⌝)

/-- The kernel's body on one tile, at any grid coordinates: from what the tile is handed, its own scratch buffers and
    semaphores (at zero), to what it hands back — given that every index word names a row of the table. -/
def TileBody : Prop :=
  ∀ (d : Dev nD) (L : grid0.Coords) (q : PosShare TreeShare) (I : Buf (Elt F) (iLoc d)) (Tb : Buf (Elt F) (tLoc d)) (fo : Buf (Elt F) (oLoc d)),
    (∀ j, (I j).toNat < 100000) →
    ∀ (O : CellTallies nD τ sig (HIx 1)) (W : Waits sig (HIx 1)), (∀ g, O g none = 0) →
    (iprop(levAts (K (F := F)).L (K (F := F)).lev ∗ emp ∗ tileGo d L q I Tb fo
        ∗ scopedBufs (thr d L) ∗ scopedSems0 (thr d L) ∗ owes (thr d L) O W) : sProp 𝕄)
      ⊢ wp frame (wpE (defs₀ (F := F)) 𝒱₀ (thr d L) none) Set.univ
          (cc0_k L (Memref.whole main_arg1_scv) (Memref.isWhole_whole _) (Memref.whole main_v0_scv) (Memref.isWhole_whole _) (Memref.whole main_v1_scv) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scratch12 cc0_scratch13 cc0_scratch14 cc0_scoped0 cc0_scoped1)
          fun _ => iprop(tileTd d L q I Tb ∗ scopedBufs (thr d L) ∗ scopedSems0 (thr d L)
            ∗ ∃ W', ⌜∀ p ∈ W', p ∈ W ∨ p.2 = none⌝ ∗ owes (thr d L) O W')

end Cert.Proof.KB

end
-- ==== Proof.KBOwn.lean ====
/-
  The storage that belongs to one tile alone, opened by name. A tile's own semaphores, all at zero, are the nine the
  kernel uses (the seven of its scratch operands, the two its scoped regions allocate) and the rest; its own buffers,
  each at some contents, are the eight scratch buffers the kernel uses and the rest.
-/
import proofs.«206947_g65644280152286_cont_9to1_m_226_28_alg».proof.Proof.KBPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Two semaphores of one thread differ when their names do. -/
theorem cell_ne {t : Thread nD τ} {a b : SemLoc sig} (h : a ≠ b) : ((t, a) : GSem nD τ sig) ≠ (t, b) :=
  fun e => h (congrArg Prod.snd e)

/-- Two buffers of one processor differ when their names do. -/
theorem ref_ne {p : Proc τ} {a b : Ref sig p.kind} (h : a ≠ b) : p.devRef a ≠ p.devRef b :=
  fun e => h (Proc.devRef_injective _ e)

variable (d : Dev nD) (L : grid0.Coords)

/-- The tile's own semaphores at zero: the nine the kernel names, and the others. -/
theorem ownSems0_V :
    (ownSems0 (thr d L) : sProp 𝕄)
      = iprop(semVal (thr d L, .dma cc0_scratch8.sem) 0
          ∗ semVal (thr d L, .dma cc0_scratch9.sem) 0
          ∗ semVal (thr d L, .dma cc0_scratch10.sem) 0
          ∗ semVal (thr d L, .dma cc0_scratch11.sem) 0
          ∗ semVal (thr d L, .dma cc0_scratch12.sem) 0
          ∗ semVal (thr d L, .dma cc0_scratch13.sem) 0
          ∗ semVal (thr d L, .dma cc0_scratch14.sem) 0
          ∗ semVal (thr d L, .dma cc0_scoped0.sem) 0
          ∗ semVal (thr d L, .dma cc0_scoped1.sem) 0
          ∗ bigSep ((((((((((ownCells (thr d L)).erase (thr d L, .dma cc0_scratch8.sem)).erase (thr d L, .dma cc0_scratch9.sem)).erase (thr d L, .dma cc0_scratch10.sem)).erase (thr d L, .dma cc0_scratch11.sem)).erase (thr d L, .dma cc0_scratch12.sem)).erase (thr d L, .dma cc0_scratch13.sem)).erase (thr d L, .dma cc0_scratch14.sem)).erase (thr d L, .dma cc0_scoped0.sem)).erase (thr d L, .dma cc0_scoped1.sem)) fun g => semVal g 0) := by
  unfold SparseCore.Cfg.ownSems0
  rw [SparseCore.bigSep_erase' ((mem_ownCells (g := ((thr d L, SemLoc.dma cc0_scratch8.sem) : GSem nD τ sig))).mpr ⟨rfl, by show (SemLoc.dma cc0_scratch8.sem : SemLoc sig).isScoped .scVector = true; decide⟩),
    SparseCore.bigSep_erase' (Finset.mem_erase.mpr ⟨cell_ne (by decide), (mem_ownCells (g := ((thr d L, SemLoc.dma cc0_scratch9.sem) : GSem nD τ sig))).mpr ⟨rfl, by show (SemLoc.dma cc0_scratch9.sem : SemLoc sig).isScoped .scVector = true; decide⟩⟩),
    SparseCore.bigSep_erase' (Finset.mem_erase.mpr ⟨cell_ne (by decide), Finset.mem_erase.mpr ⟨cell_ne (by decide), (mem_ownCells (g := ((thr d L, SemLoc.dma cc0_scratch10.sem) : GSem nD τ sig))).mpr ⟨rfl, by show (SemLoc.dma cc0_scratch10.sem : SemLoc sig).isScoped .scVector = true; decide⟩⟩⟩),
    SparseCore.bigSep_erase' (Finset.mem_erase.mpr ⟨cell_ne (by decide), Finset.mem_erase.mpr ⟨cell_ne (by decide), Finset.mem_erase.mpr ⟨cell_ne (by decide), (mem_ownCells (g := ((thr d L, SemLoc.dma cc0_scratch11.sem) : GSem nD τ sig))).mpr ⟨rfl, by show (SemLoc.dma cc0_scratch11.sem : SemLoc sig).isScoped .scVector = true; decide⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), (mem_ownCells (g := ((thr d L, SemLoc.dma cc0_scratch12.sem) : GSem nD τ sig))).mpr ⟨rfl, by show (SemLoc.dma cc0_scratch12.sem : SemLoc sig).isScoped .scVector = true; decide⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := ((thr d L, SemLoc.dma cc0_scratch13.sem) : GSem nD τ sig))).mpr ⟨rfl, by show (SemLoc.dma cc0_scratch13.sem : SemLoc sig).isScoped .scVector = true; decide⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := ((thr d L, SemLoc.dma cc0_scratch14.sem) : GSem nD τ sig))).mpr ⟨rfl, by show (SemLoc.dma cc0_scratch14.sem : SemLoc sig).isScoped .scVector = true; decide⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := ((thr d L, SemLoc.dma cc0_scoped0.sem) : GSem nD τ sig))).mpr ⟨rfl, by show (SemLoc.dma cc0_scoped0.sem : SemLoc sig).isScoped .scVector = true; decide⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := ((thr d L, SemLoc.dma cc0_scoped1.sem) : GSem nD τ sig))).mpr ⟨rfl, by show (SemLoc.dma cc0_scoped1.sem : SemLoc sig).isScoped .scVector = true; decide⟩⟩⟩⟩⟩⟩⟩⟩⟩)]

/-- The tile's own buffers, each at some contents: the eight scratch buffers the kernel names, and the others. -/
theorem ownBufs_V :
    (ownBufs (thr d L) : sProp 𝕄)
      = iprop((∃ f, (thr d L).loc cc0_scratch0 ↦{fullShare} f)
          ∗ (∃ f, (thr d L).loc cc0_scratch1 ↦{fullShare} f)
          ∗ (∃ f, (thr d L).loc cc0_scratch2 ↦{fullShare} f)
          ∗ (∃ f, (thr d L).loc cc0_scratch3 ↦{fullShare} f)
          ∗ (∃ f, (thr d L).loc cc0_scratch4 ↦{fullShare} f)
          ∗ (∃ f, (thr d L).loc cc0_scratch5 ↦{fullShare} f)
          ∗ (∃ f, (thr d L).loc cc0_scratch6 ↦{fullShare} f)
          ∗ (∃ f, (thr d L).loc cc0_scratch7 ↦{fullShare} f)
          ∗ bigSep (((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨ref_ne (p := Proc.scVector (cV L) (jV L)) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨ref_ne (p := Proc.scVector (cV L) (jV L)) (show (cc0_scratch2 : Ref sig .scVector) ≠ cc0_scratch1 by decide), Finset.mem_erase.mpr ⟨ref_ne (p := Proc.scVector (cV L) (jV L)) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨ref_ne (p := Proc.scVector (cV L) (jV L)) (show (cc0_scratch3 : Ref sig .scVector) ≠ cc0_scratch2 by decide), Finset.mem_erase.mpr ⟨ref_ne (p := Proc.scVector (cV L) (jV L)) (show (cc0_scratch3 : Ref sig .scVector) ≠ cc0_scratch1 by decide), Finset.mem_erase.mpr ⟨ref_ne (p := Proc.scVector (cV L) (jV L)) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨ref_ne (p := Proc.scVector (cV L) (jV L)) (show (cc0_scratch4 : Ref sig .scVector) ≠ cc0_scratch3 by decide), Finset.mem_erase.mpr ⟨ref_ne (p := Proc.scVector (cV L) (jV L)) (show (cc0_scratch4 : Ref sig .scVector) ≠ cc0_scratch2 by decide), Finset.mem_erase.mpr ⟨ref_ne (p := Proc.scVector (cV L) (jV L)) (show (cc0_scratch4 : Ref sig .scVector) ≠ cc0_scratch1 by decide), Finset.mem_erase.mpr ⟨ref_ne (p := Proc.scVector (cV L) (jV L)) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨ref_ne (p := Proc.scVector (cV L) (jV L)) (show (cc0_scratch5 : Ref sig .scVector) ≠ cc0_scratch4 by decide), Finset.mem_erase.mpr ⟨ref_ne (p := Proc.scVector (cV L) (jV L)) (show (cc0_scratch5 : Ref sig .scVector) ≠ cc0_scratch3 by decide), Finset.mem_erase.mpr ⟨ref_ne (p := Proc.scVector (cV L) (jV L)) (show (cc0_scratch5 : Ref sig .scVector) ≠ cc0_scratch2 by decide), Finset.mem_erase.mpr ⟨ref_ne (p := Proc.scVector (cV L) (jV L)) (show (cc0_scratch5 : Ref sig .scVector) ≠ cc0_scratch1 by decide), Finset.mem_erase.mpr ⟨ref_ne (p := Proc.scVector (cV L) (jV L)) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨ref_ne (p := Proc.scVector (cV L) (jV L)) (show (cc0_scratch6 : Ref sig .scVector) ≠ cc0_scratch5 by decide), Finset.mem_erase.mpr ⟨ref_ne (p := Proc.scVector (cV L) (jV L)) (show (cc0_scratch6 : Ref sig .scVector) ≠ cc0_scratch4 by decide), Finset.mem_erase.mpr ⟨ref_ne (p := Proc.scVector (cV L) (jV L)) (show (cc0_scratch6 : Ref sig .scVector) ≠ cc0_scratch3 by decide), Finset.mem_erase.mpr ⟨ref_ne (p := Proc.scVector (cV L) (jV L)) (show (cc0_scratch6 : Ref sig .scVector) ≠ cc0_scratch2 by decide), Finset.mem_erase.mpr ⟨ref_ne (p := Proc.scVector (cV L) (jV L)) (show (cc0_scratch6 : Ref sig .scVector) ≠ cc0_scratch1 by decide), Finset.mem_erase.mpr ⟨ref_ne (p := Proc.scVector (cV L) (jV L)) (show (cc0_scratch6 : Ref sig .scVector) ≠ cc0_scratch0 by decide), SparseCore.Cfg.mem_ownRefs_of_owner (p := Proc.scVector (cV L) (jV L)) (b := ((Proc.scVector (cV L) (jV L)).devRef cc0_scratch6)) rfl⟩⟩⟩⟩⟩⟩),
    SparseCore.bigSep_erase' (Finset.mem_erase.mpr ⟨ref_ne (p := Proc.scVector (cV L) (jV L)) (show (cc0_scratch7 : Ref sig .scVector) ≠ cc0_scratch6 by decide), Finset.mem_erase.mpr ⟨ref_ne (p := Proc.scVector (cV L) (jV L)) (show (cc0_scratch7 : Ref sig .scVector) ≠ cc0_scratch5 by decide), Finset.mem_erase.mpr ⟨ref_ne (p := Proc.scVector (cV L) (jV L)) (show (cc0_scratch7 : Ref sig .scVector) ≠ cc0_scratch4 by decide), Finset.mem_erase.mpr ⟨ref_ne (p := Proc.scVector (cV L) (jV L)) (show (cc0_scratch7 : Ref sig .scVector) ≠ cc0_scratch3 by decide), Finset.mem_erase.mpr ⟨ref_ne (p := Proc.scVector (cV L) (jV L)) (show (cc0_scratch7 : Ref sig .scVector) ≠ cc0_scratch2 by decide), Finset.mem_erase.mpr ⟨ref_ne (p := Proc.scVector (cV L) (jV L)) (show (cc0_scratch7 : Ref sig .scVector) ≠ cc0_scratch1 by decide), Finset.mem_erase.mpr ⟨ref_ne (p := Proc.scVector (cV L) (jV L)) (show (cc0_scratch7 : Ref sig .scVector) ≠ cc0_scratch0 by decide), SparseCore.Cfg.mem_ownRefs_of_owner (p := Proc.scVector (cV L) (jV L)) (b := ((Proc.scVector (cV L) (jV L)).devRef cc0_scratch7)) rfl⟩⟩⟩⟩⟩⟩⟩)]

end Cert.Proof.KB

end
-- ==== Proof.KBLaunchP.lean ====
/-
  The launch of the kernel, first part: what the call's handshakes carry, and how @main's arrays split among
  the 32 tiles and join again.

  @main reshapes the index matrix [4096, 200] to [4096, 2, 100] (idx3) and calls the kernel once. Tile (c, i) of the
  call works on the 128 rows from 256·i + 128·c. The call hands SparseCore c its sixteen tiles' operands, each tile
  its own: its index rows (3, then 125), read share number 16·c + i of 32 of the table, its 128 result rows; the
  remainder of the table's share stays with @main across the call. The 64 index row ranges and the 32 result row
  blocks are pairwise disjoint and cover their arrays, so the arrays split into them and join from them; the
  result blocks come back each holding the fold on its rows, which joins to the whole result array holding the fold.
-/
import proofs.«206947_g65644280152286_cont_9to1_m_226_28_alg».proof.Proof.KBPay
import proofs.«206947_g65644280152286_cont_9to1_m_226_28_alg».proof.Proof.KBOwn
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tiles' row blocks: pairwise disjoint, and a cover of the arrays

Tile `(c, i)` works on the 128 rows from `256·i + 128·c`: of the result array all of them, of the index array the
first 3 and the other 125. -/

/-- The grid coordinates of tile `i` of SparseCore `c`. -/
abbrev LT (c : Fin 2) (i : Fin 16) : grid0.Coords := coordsV c i

theorem off99_zero (c : Fin 2) (i : Fin 16) : k0_off99 (LT c i) 0 = 256 * i.val + 128 * c.val := by rw [k0_off99_eq]; rfl
theorem off1_zero (c : Fin 2) (i : Fin 16) : k0_off1 (LT c i) 0 = 256 * i.val + 128 * c.val := by rw [k0_off1_eq]; rfl
theorem off2_zero (c : Fin 2) (i : Fin 16) : k0_off2 (LT c i) 0 = 256 * i.val + 128 * c.val + 3 := by rw [k0_off2_eq]; rfl

theorem tile_ne {t t' : Fin 2 × Fin 16} (h : t ≠ t') : ¬(t.1.val = t'.1.val ∧ t.2.val = t'.2.val) :=
  fun ⟨h1, h2⟩ => h (Prod.ext (Fin.ext h1) (Fin.ext h2))

/-- The tiles' row sets: result rows, the first 3 index rows, the other 125. -/
abbrev oS (t : Fin 2 × Fin 16) : Finset S4096x128.Idx := (oK (LT t.1 t.2)).view.set
abbrev aS (t : Fin 2 × Fin 16) : Finset S4096x2x100.Idx := (iA (LT t.1 t.2)).view.set
abbrev bS (t : Fin 2 × Fin 16) : Finset S4096x2x100.Idx := (iB (LT t.1 t.2)).view.set

theorem oS_eq (t : Fin 2 × Fin 16) :
    oS t = (Rect.unit (s := S4096x128) (k0_off99 (LT t.1 t.2)) S128x128.size (k0_off99_inb _)).set :=
  View.set_slice_whole main_v1_scv _
theorem aS_eq (t : Fin 2 × Fin 16) :
    aS t = (Rect.unit (s := S4096x2x100) (k0_off1 (LT t.1 t.2)) S3x2x100.size (k0_off1_inb _)).set :=
  View.set_slice_whole main_v0_scv _
theorem bS_eq (t : Fin 2 × Fin 16) :
    bS t = (Rect.unit (s := S4096x2x100) (k0_off2 (LT t.1 t.2)) S125x2x100.size (k0_off2_inb _)).set :=
  View.set_slice_whole main_v0_scv _

/-- Result rows of different tiles are disjoint. -/
theorem oK_disjoint : ∀ t ∈ (Finset.univ : Finset (Fin 2 × Fin 16)), ∀ t' ∈ (Finset.univ : Finset (Fin 2 × Fin 16)), t ≠ t' →
    Disjoint (oS t) (oS t') := by
  intro t _ t' _ h
  rw [oS_eq, oS_eq]
  refine Rect.unit_disjoint 0 ?_
  rw [off99_zero, off99_zero]
  have := tile_ne h
  show 256 * t.2.val + 128 * t.1.val + 128 ≤ 256 * t'.2.val + 128 * t'.1.val ∨ 256 * t'.2.val + 128 * t'.1.val + 128 ≤ 256 * t.2.val + 128 * t.1.val
  omega

/-- The tiles' result rows cover the result array. -/
theorem oK_cover : (Finset.univ : Finset (Fin 2 × Fin 16)).biUnion oS = Finset.univ := by
  ext j
  simp only [Finset.mem_biUnion, Finset.mem_univ, true_and, iff_true]
  have h0 : (j 0).val < 4096 := (j 0).isLt
  have h1 : (j 1).val < 128 := (j 1).isLt
  refine ⟨(⟨(j 0).val / 128 % 2, by omega⟩, ⟨(j 0).val / 256, by omega⟩), ?_⟩
  show j ∈ oS _
  rw [oS_eq, Rect.mem_set_unit]
  refine Fin.forall_fin_two.mpr ⟨?_, ?_⟩
  · rw [off99_zero]
    show 256 * ((j 0).val / 256) + 128 * ((j 0).val / 128 % 2) ≤ (j 0).val ∧ (j 0).val < 256 * ((j 0).val / 256) + 128 * ((j 0).val / 128 % 2) + 128
    omega
  · rw [k0_off99_eq]
    show 0 ≤ (j 1).val ∧ (j 1).val < 0 + 128
    omega

/-- The index rows of the tiles, two ranges each. -/
abbrev iSet : (Fin 2 × Fin 16) ⊕ (Fin 2 × Fin 16) → Finset S4096x2x100.Idx :=
  Sum.elim aS bS

theorem iSet_disjoint : ∀ u ∈ (Finset.univ : Finset ((Fin 2 × Fin 16) ⊕ (Fin 2 × Fin 16))), ∀ u' ∈ (Finset.univ : Finset ((Fin 2 × Fin 16) ⊕ (Fin 2 × Fin 16))), u ≠ u' →
    Disjoint (iSet u) (iSet u') := by
  intro u _ u' _ h
  rcases u with t | t <;> rcases u' with t' | t'
  · have := tile_ne (t := t) (t' := t') (fun e => h (e ▸ rfl))
    show Disjoint (aS t) (aS t')
    rw [aS_eq, aS_eq]
    refine Rect.unit_disjoint 0 ?_
    rw [off1_zero, off1_zero]
    show 256 * t.2.val + 128 * t.1.val + 3 ≤ 256 * t'.2.val + 128 * t'.1.val ∨ 256 * t'.2.val + 128 * t'.1.val + 3 ≤ 256 * t.2.val + 128 * t.1.val
    omega
  · show Disjoint (aS t) (bS t')
    rw [aS_eq, bS_eq]
    refine Rect.unit_disjoint 0 ?_
    rw [off1_zero, off2_zero]
    show 256 * t.2.val + 128 * t.1.val + 3 ≤ 256 * t'.2.val + 128 * t'.1.val + 3 ∨ 256 * t'.2.val + 128 * t'.1.val + 3 + 125 ≤ 256 * t.2.val + 128 * t.1.val
    omega
  · show Disjoint (bS t) (aS t')
    rw [bS_eq, aS_eq]
    refine Rect.unit_disjoint 0 ?_
    rw [off2_zero, off1_zero]
    show 256 * t.2.val + 128 * t.1.val + 3 + 125 ≤ 256 * t'.2.val + 128 * t'.1.val ∨ 256 * t'.2.val + 128 * t'.1.val + 3 ≤ 256 * t.2.val + 128 * t.1.val + 3
    omega
  · have := tile_ne (t := t) (t' := t') (fun e => h (e ▸ rfl))
    show Disjoint (bS t) (bS t')
    rw [bS_eq, bS_eq]
    refine Rect.unit_disjoint 0 ?_
    rw [off2_zero, off2_zero]
    show 256 * t.2.val + 128 * t.1.val + 3 + 125 ≤ 256 * t'.2.val + 128 * t'.1.val + 3 ∨ 256 * t'.2.val + 128 * t'.1.val + 3 + 125 ≤ 256 * t.2.val + 128 * t.1.val + 3
    omega

theorem iSet_cover : (Finset.univ : Finset ((Fin 2 × Fin 16) ⊕ (Fin 2 × Fin 16))).biUnion iSet = Finset.univ := by
  ext j
  simp only [Finset.mem_biUnion, Finset.mem_univ, true_and, iff_true]
  have h0 : (j 0).val < 4096 := (j 0).isLt
  have h1 : (j 1).val < 2 := (j 1).isLt
  have h2 : (j 2).val < 100 := (j 2).isLt
  by_cases hr : (j 0).val % 128 < 3
  · refine ⟨.inl (⟨(j 0).val / 128 % 2, by omega⟩, ⟨(j 0).val / 256, by omega⟩), ?_⟩
    show j ∈ aS _
    rw [aS_eq, Rect.mem_set_unit]
    refine Fin.forall_fin_succ.mpr ⟨?_, Fin.forall_fin_two.mpr ⟨?_, ?_⟩⟩
    · rw [off1_zero]
      show 256 * ((j 0).val / 256) + 128 * ((j 0).val / 128 % 2) ≤ (j 0).val ∧ (j 0).val < 256 * ((j 0).val / 256) + 128 * ((j 0).val / 128 % 2) + 3
      omega
    · rw [k0_off1_eq]
      show 0 ≤ (j 1).val ∧ (j 1).val < 0 + 2
      omega
    · rw [k0_off1_eq]
      show 0 ≤ (j 2).val ∧ (j 2).val < 0 + 100
      omega
  · refine ⟨.inr (⟨(j 0).val / 128 % 2, by omega⟩, ⟨(j 0).val / 256, by omega⟩), ?_⟩
    show j ∈ bS _
    rw [bS_eq, Rect.mem_set_unit]
    refine Fin.forall_fin_succ.mpr ⟨?_, Fin.forall_fin_two.mpr ⟨?_, ?_⟩⟩
    · rw [off2_zero]
      show 256 * ((j 0).val / 256) + 128 * ((j 0).val / 128 % 2) + 3 ≤ (j 0).val ∧ (j 0).val < 256 * ((j 0).val / 256) + 128 * ((j 0).val / 128 % 2) + 3 + 125
      omega
    · rw [k0_off2_eq]
      show 0 ≤ (j 1).val ∧ (j 1).val < 0 + 2
      omega
    · rw [k0_off2_eq]
      show 0 ≤ (j 2).val ∧ (j 2).val < 0 + 100
      omega

variable (m : (ℓ : Loc nD τ sig) → Buf (Elt F) ℓ)

/-! ## The reshaped indices -/

/-- What @main's reshape leaves in the index array the kernel reads: the index matrix's words in row-major order at
    the shape [4096, 2, 100]. -/
def idx3 (d : Dev nD) : Buf (Elt F) (iLoc d) :=
  fun i => shapeCast S4096x2x100 (m (aLoc d)) shapeCasts_S4096x200_S4096x2x100 i

/-- Entry (R, h, j) of the reshaped indices is entry (R, 100·h + j) of the index matrix. -/
theorem idx3_apply (d : Dev nD) (R : Fin 4096) (h : Fin 2) (j : Fin 100) :
    idx3 m d (ix3 R h j) = m (aLoc d) (ix2 R (⟨100 * h.val + j.val, by omega⟩ : Fin 200)) := by
  unfold idx3
  refine shapeCast_apply (s := S4096x200) (t := S4096x2x100) (m (aLoc d)) shapeCasts_S4096x200_S4096x2x100 (ix3 R h j) (ix2 R (⟨100 * h.val + j.val, by omega⟩ : Fin 200)) ?_
  rw [Shape.rowMajor_val_two, Shape.rowMajor_val_three]
  show R.val * 200 + (100 * h.val + j.val) = (R.val * 2 + h.val) * 100 + j.val
  omega

/-- Every word of the reshaped indices is a word of the index matrix: a bound on those is a bound on these. -/
theorem idx3_lt (d : Dev nD) (h : ∀ j, (m (aLoc d) j).toNat < 100000) : ∀ j, (idx3 m d j).toNat < 100000 := by
  intro j
  unfold idx3 shapeCast
  exact h _

/-! ## The tiles of the call: coordinates, table shares, payload -/

/-- The table is read by all 32 tiles at once: tile `(c, i)` holds the read share number `16·c + i` of 32. -/
abbrev qT (c : Fin 2) (i : Fin 16) : PosShare TreeShare := Transfers.shareTokN fullShare (i.val + 16 * c.val)

omit m in
instance tileGo_storable (d : Dev nD) (L : grid0.Coords) (q : PosShare TreeShare) (I : Buf (Elt F) (iLoc d)) (Tb : Buf (Elt F) (tLoc d)) (fo : Buf (Elt F) (oLoc d)) :
    BI.Storable (upEmb : UEmb _ 𝕄) (tileGo d L q I Tb fo) := by unfold tileGo; infer_instance

variable [FloatOps F]

omit m in
instance tileTd_storable (d : Dev nD) (L : grid0.Coords) (q : PosShare TreeShare) (I : Buf (Elt F) (iLoc d)) (Tb : Buf (Elt F) (tLoc d)) :
    BI.Storable (upEmb : UEmb _ 𝕄) (tileTd d L q I Tb) := by unfold tileTd; infer_instance

/-- What SparseCore `c` is handed for its sixteen tiles, and hands back. -/
abbrev coreGo (d : Dev nD) (c : Fin 2) : sProp 𝕄 :=
  bigSep Finset.univ fun i : Fin 16 => tileGo d (LT c i) (qT c i) (idx3 m d) (m (tLoc d)) (m (oLoc d))
abbrev coreTd (d : Dev nD) (c : Fin 2) : sProp 𝕄 :=
  bigSep Finset.univ fun i : Fin 16 => tileTd d (LT c i) (qT c i) (idx3 m d) (m (tLoc d))

/-- The one call hands each SparseCore its sixteen tiles' index rows, read shares of the table and result rows, each
    tile its own; they come back with the result rows holding the fold. -/
def P : (K (F := F)).Pay (nD := nD) (Val := Elt F) (Name := ℕ) (U := UU) where
  st := fun q d c => match q with | 0 => coreGo m d (Fin.cast nCore_zero c)
  dn := fun q d c => match q with | 0 => coreTd m d (Fin.cast nCore_zero c)
  go := fun q d c i => match q with
    | 0 => tileGo d (LT (Fin.cast nCore_zero c) (Fin.cast nSub_zero i)) (qT (Fin.cast nCore_zero c) (Fin.cast nSub_zero i)) (idx3 m d) (m (tLoc d)) (m (oLoc d))
  td := fun q d c i => match q with
    | 0 => tileTd d (LT (Fin.cast nCore_zero c) (Fin.cast nSub_zero i)) (qT (Fin.cast nCore_zero c) (Fin.cast nSub_zero i)) (idx3 m d) (m (tLoc d))
  x := fun _ _ => iprop(emp)

instance P_storable : (P (F := F) m).IsStorable where
  st q d c := match q with
    | 0 => (inferInstance : BI.Storable (upEmb : UEmb _ 𝕄) (coreGo m d (Fin.cast nCore_zero c)))
  dn q d c := match q with
    | 0 => (inferInstance : BI.Storable (upEmb : UEmb _ 𝕄) (coreTd m d (Fin.cast nCore_zero c)))
  go q d c i := match q with
    | 0 => (inferInstance : BI.Storable (upEmb : UEmb _ 𝕄)
      (tileGo d (LT (Fin.cast nCore_zero c) (Fin.cast nSub_zero i)) (qT (Fin.cast nCore_zero c) (Fin.cast nSub_zero i)) (idx3 m d) (m (tLoc d)) (m (oLoc d))))
  td q d c i := match q with
    | 0 => (inferInstance : BI.Storable (upEmb : UEmb _ 𝕄)
      (tileTd d (LT (Fin.cast nCore_zero c) (Fin.cast nSub_zero i)) (qT (Fin.cast nCore_zero c) (Fin.cast nSub_zero i)) (idx3 m d) (m (tLoc d))))

/-! ## The obligation: the tile's body at the launch theorem's spelling -/

theorem defs₀_vector (c : Fin τ.nSC) (s : Fin τ.nSub) :
    defs₀ (F := F) (.scVector c s) 0 ()
      = SparseCore.onTile hcore0 hsub0 (fun c s => cc0_k (coordsV c s)
          (Memref.whole main_arg1_scv) (Memref.isWhole_whole _) (Memref.whole main_v0_scv) (Memref.isWhole_whole _) (Memref.whole main_v1_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _)
          cc0_scratch8 cc0_scratch9 cc0_scratch10 cc0_scratch11 cc0_scratch12 cc0_scratch13 cc0_scratch14 cc0_scoped0 cc0_scoped1) ⟨⟩ c s := rfl

omit [FloatOps F] m in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The launch theorem's obligation for a tile, from the body at any grid coordinates and the range of the index words. -/
theorem tileObl (hbody : TileBody (F := F)) (hpre : ∀ d j, (m (aLoc d) j).toNat < 100000) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hbody d (LT (Fin.cast nCore_zero c) (Fin.cast nSub_zero i)) (qT (Fin.cast nCore_zero c) (Fin.cast nSub_zero i)) (idx3 m d) (m (tLoc d)) (m (oLoc d))
    (idx3_lt m d (hpre d)) O W hO).trans (wp_mono frame _ _ fun _ => obl_post)

/-! ## A SparseCore's operands are its tiles' -/

omit [FloatOps F] m in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] m in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show coreGo m d (Fin.cast nCore_zero c) ⊢ |={Set.univ}=> iprop(
      (bigSep Finset.univ fun i : Fin ((K (F := F)).nSub 0) =>
        tileGo d (LT (Fin.cast nCore_zero c) (Fin.cast nSub_zero i)) (qT (Fin.cast nCore_zero c) (Fin.cast nSub_zero i)) (idx3 m d) (m (tLoc d)) (m (oLoc d)))
      ∗ ((bigSep Finset.univ fun i : Fin ((K (F := F)).nSub 0) =>
          tileTd d (LT (Fin.cast nCore_zero c) (Fin.cast nSub_zero i)) (qT (Fin.cast nCore_zero c) (Fin.cast nSub_zero i)) (idx3 m d) (m (tLoc d)))
          -∗ coreTd m d (Fin.cast nCore_zero c)))
  rw [bigSep_tasks (F := F) (fun i => tileGo d (LT (Fin.cast nCore_zero c) i) (qT (Fin.cast nCore_zero c) i) (idx3 m d) (m (tLoc d)) (m (oLoc d))),
    bigSep_tasks (F := F) (fun i => tileTd d (LT (Fin.cast nCore_zero c) i) (qT (Fin.cast nCore_zero c) i) (idx3 m d) (m (tLoc d)))]
  iintro H; imodintro
  isplitl [H]; · iexact H
  iintro H; iexact H

/-! ## The arrays split among the tiles, and joined -/

omit [FloatOps F] m in
/-- The result array is the tiles' result rows. -/
theorem oPts_tiles (d : Dev nD) (f : Buf (Elt F) (oLoc d)) :
    (oLoc d ↦{fullShare} f : sProp 𝕄) = bigSep Finset.univ fun t : Fin 2 × Fin 16 => oLoc d ↦[oS t]{fullShare} f := by
  rw [← pointsTo_biUnion Finset.univ (ℓ := oLoc d) oS oK_disjoint, oK_cover]; try rfl

omit [FloatOps F] m in
/-- The index array is the tiles' index rows, two ranges each. -/
theorem iPts_tiles (d : Dev nD) (f : Buf (Elt F) (iLoc d)) :
    (iLoc d ↦{fullShare} f : sProp 𝕄)
      = iprop((bigSep Finset.univ fun t : Fin 2 × Fin 16 => iLoc d ↦[aS t]{fullShare} f) ∗ bigSep Finset.univ fun t : Fin 2 × Fin 16 => iLoc d ↦[bS t]{fullShare} f) := by
  have e : (bigSep Finset.univ fun u : (Fin 2 × Fin 16) ⊕ (Fin 2 × Fin 16) => (iLoc d ↦[iSet u]{fullShare} f : sProp 𝕄))
      = iprop((bigSep Finset.univ fun t : Fin 2 × Fin 16 => iLoc d ↦[aS t]{fullShare} f) ∗ bigSep Finset.univ fun t : Fin 2 × Fin 16 => iLoc d ↦[bS t]{fullShare} f) :=
    bigSep_univ_sum _
  rw [← e, ← pointsTo_biUnion Finset.univ (ℓ := iLoc d) iSet iSet_disjoint, iSet_cover]; try rfl

omit [FloatOps F] m in
/-- The table is read by all 32 tiles at once: a read share each, and a remainder kept aside. -/
theorem tPts_tiles (d : Dev nD) (f : Buf (Elt F) (tLoc d)) :
    (tLoc d ↦{fullShare} f : sProp 𝕄)
      ⊣⊢ iprop((tLoc d ↦{Transfers.shareDrop fullShare 32} f) ∗ bigSep Finset.univ fun t : Fin 2 × Fin 16 => tLoc d ↦{qT t.1 t.2} f) := by
  have e : (bigSep Finset.univ fun k : Fin 32 => (tLoc d ↦{Transfers.shareTok fullShare 32 k} f : sProp 𝕄))
      = bigSep Finset.univ fun t : Fin 2 × Fin 16 => tLoc d ↦{qT t.1 t.2} f :=
    bigSep_univ_equiv (finProdFinEquiv (m := 2) (n := 16)) (fun k : Fin 32 => (tLoc d ↦{Transfers.shareTok fullShare 32 k} f : sProp 𝕄))
  rw [← e]; exact Transfers.pointsTo_toks fullShare 32

omit [FloatOps F] m in
/-- Pure facts, one per summand, hold of all summands. -/
theorem bigSep_pure_all {J : Type} [DecidableEq J] (s : Finset J) (φ : J → Prop) :
    (bigSep s fun i => (iprop(⌜φ i⌝) : sProp 𝕄)) ⊢ iprop(⌜∀ i ∈ s, φ i⌝) := by
  induction s using Finset.induction_on with
  | empty => rw [bigSep_empty]; iintro -; ipureintro; intro i hi; exact absurd hi (Finset.notMem_empty i)
  | insert i s hi ih =>
    rw [SparseCore.bigSep_insert' hi]
    iintro ⟨%h, HS⟩
    ihave H := ih $$ HS
    icases H with %hS
    ipureintro; intro j hj; rcases Finset.mem_insert.mp hj with rfl | hj; exacts [h, hS j hj]

omit m in
/-- The tiles' result rows, each at its own contents that hold the fold on those rows, are the result array at the fold. -/
theorem oRows_join (d : Dev nD) (I : Buf (Elt F) (iLoc d)) (Tb : Buf (Elt F) (tLoc d)) :
    (bigSep Finset.univ fun t : Fin 2 × Fin 16 =>
        iprop(∃ f : Buf (Elt F) (oLoc d), (oLoc d ↦[oS t]{fullShare} f) ∗ ⌜∀ j ∈ oS t, f j = KSpec.kres (F := F) I Tb j⌝))
      ⊢ (iprop(∃ f : Buf (Elt F) (oLoc d), (oLoc d ↦{fullShare} f) ∗ ⌜f = KSpec.kres (F := F) I Tb⌝) : sProp 𝕄) := by
  have : Nonempty (Buf (Elt F) (oLoc d)) := ⟨KSpec.kres (F := F) I Tb⟩
  refine (bigSep_exists_pi Finset.univ (fun (t : Fin 2 × Fin 16) (f : Buf (Elt F) (oLoc d)) =>
    iprop((oLoc d ↦[oS t]{fullShare} f) ∗ ⌜∀ j ∈ oS t, f j = KSpec.kres (F := F) I Tb j⌝))).trans ?_
  iintro ⟨%fs, H⟩
  ihave H' := (Entails.of_eq (bigSep_sep' Finset.univ (fun t : Fin 2 × Fin 16 => (oLoc d ↦[oS t]{fullShare} fs t : sProp 𝕄))
    (fun t : Fin 2 × Fin 16 => (iprop(⌜∀ j ∈ oS t, fs t j = KSpec.kres (F := F) I Tb j⌝) : sProp 𝕄)))) $$ H
  icases H' with ⟨Ho, Hp⟩
  ihave Hq := (bigSep_pure_all Finset.univ (fun t : Fin 2 × Fin 16 => ∀ j ∈ oS t, fs t j = KSpec.kres (F := F) I Tb j)) $$ Hp
  icases Hq with %hp
  ihave H'' := (pointsTo_biUnion_join (ℓ := oLoc d) (q := fullShare) (Val := Elt F) Finset.univ oS fs (KSpec.kres (F := F) I Tb) oK_disjoint) $$ Ho
  icases H'' with ⟨%g, %hg, Hg⟩
  rw [oK_cover]
  iexists g
  isplitl [Hg]; · iexact Hg
  ipureintro
  funext j
  have hj : j ∈ (Finset.univ : Finset (Fin 2 × Fin 16)).biUnion oS := by rw [oK_cover]; exact Finset.mem_univ j
  obtain ⟨t, _, hjt⟩ := Finset.mem_biUnion.mp hj
  exact (hg t (Finset.mem_univ t) j hjt).trans (hp t (Finset.mem_univ t) j hjt)

omit [FloatOps F] m in
/-- What @main holds before the call is the remainder of the table beside what the 32 tiles are handed. -/
theorem go_split (d : Dev nD) (I : Buf (Elt F) (iLoc d)) (Tb : Buf (Elt F) (tLoc d)) (fo : Buf (Elt F) (oLoc d)) :
    iprop((iLoc d ↦{fullShare} I) ∗ (tLoc d ↦{fullShare} Tb) ∗ (oLoc d ↦{fullShare} fo))
      ⊢ (iprop((tLoc d ↦{Transfers.shareDrop fullShare 32} Tb)
          ∗ bigSep Finset.univ fun t : Fin 2 × Fin 16 => tileGo d (LT t.1 t.2) (qT t.1 t.2) I Tb fo) : sProp 𝕄) := by
  unfold tileGo
  rw [bigSep_sep', bigSep_sep', bigSep_sep', iPts_tiles, oPts_tiles]
  iintro ⟨⟨Ha, Hb⟩, Ht, Ho⟩
  ihave Ht' := (tPts_tiles d Tb).1 $$ Ht
  icases Ht' with ⟨Hdrop, Htoks⟩
  isplitl [Hdrop]; · iexact Hdrop
  isplitl [Ha]; · iexact Ha
  isplitl [Hb]; · iexact Hb
  isplitl [Htoks]; · iexact Htoks
  iexact Ho

omit m in
/-- What the 32 tiles hand back, beside the table's remainder, is the index array and the table whole and the result
    array at the fold. -/
theorem td_join (d : Dev nD) (I : Buf (Elt F) (iLoc d)) (Tb : Buf (Elt F) (tLoc d)) :
    (iprop((tLoc d ↦{Transfers.shareDrop fullShare 32} Tb)
        ∗ bigSep Finset.univ fun t : Fin 2 × Fin 16 => tileTd d (LT t.1 t.2) (qT t.1 t.2) I Tb) : sProp 𝕄)
      ⊢ iprop((iLoc d ↦{fullShare} I) ∗ (tLoc d ↦{fullShare} Tb)
          ∗ ∃ f : Buf (Elt F) (oLoc d), (oLoc d ↦{fullShare} f) ∗ ⌜f = KSpec.kres (F := F) I Tb⌝) := by
  unfold tileTd
  rw [bigSep_sep', bigSep_sep', bigSep_sep', iPts_tiles]
  iintro ⟨Hdrop, Ha, Hb, Htoks, Ho⟩
  isplitl [Ha Hb]
  · isplitl [Ha]; · iexact Ha
    iexact Hb
  isplitl [Hdrop Htoks]
  · iapply (tPts_tiles d Tb).2
    isplitl [Hdrop]; · iexact Hdrop
    iexact Htoks
  iapply (oRows_join d I Tb); iexact Ho

end Cert.Proof.KB

end
-- ==== Proof.KBLaunch.lean ====
/-
  The launch of the kernel, second part: @main on the TensorCore and the program's run.

  @main's reshape writes idx3 into the index array the kernel reads (the TensorCore's four arrays held whole across
  it); the call takes the index array, the result array and 32 read shares of the table, split among the 32 tiles,
  and brings them back with the result array holding the fold KSpec.kres of idx3 and the table; the index matrix
  and the table end as they began. The launch theorem for SparseCore programs turns this, the tile's body and the
  split into the run of every thread of the program.
-/
import proofs.«206947_g65644280152286_cont_9to1_m_226_28_alg».proof.Proof.KBLaunchP

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch element: the handshakes' rounds; nothing of the kernel's own -/

def u₀ : UU := (initOf (K (F := F)).hsCells (K (F := F)).hsToks, 1)

omit [FloatOps F] m ρ in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev t' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev opR : HloOp τ sig (Elt F) := StableHlo.reshape main_arg0 main_v0 rfl shapeCasts_S4096x200_S4096x2x100

/-- The TensorCore's arrays, all unscoped: the index matrix, the table, the reshaped indices, the result. -/
abbrev S4 : Finset (DevRef τ sig) := {a', t', i', o'}

omit [FloatOps F] m ρ in
theorem held_S4 (d : Dev nD) (W : Valuation τ sig (Elt F)) :
    (held (T d) S4 W : sProp 𝕄)
      = iprop((aLoc d ↦{fullShare} W a') ∗ (tLoc d ↦{fullShare} W t') ∗ (iLoc d ↦{fullShare} W i') ∗ (oLoc d ↦{fullShare} W o')) := by
  unfold held S4
  rw [SparseCore.bigSep_insert' (by decide), SparseCore.bigSep_insert' (by decide), SparseCore.bigSep_insert' (by decide), bigSep_singleton]

omit [FloatOps F] m ρ in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (tLoc d ↦{fullShare} W main_arg1) ∗ (iLoc d ↦{fullShare} W main_v0) ∗ (oLoc d ↦{fullShare} W main_v1)) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

omit [FloatOps F] ρ in
theorem unscoped_held (d : Dev nD) : (unscopedBufs d (fun b => m ((SparseCore.T d).loc b)) : sProp 𝕄) = held (T d) S4 (V0 m d) := by
  rw [unscopedBufs_eq, held_S4]; rfl

omit [FloatOps F] ρ in
theorem V1_a (d : Dev nD) : (opR (F := F)).result (V0 m d) a' = m (aLoc d) :=
  ((opR (F := F)).result_of_not_mem (V0 m d) (show a' ∉ ({i'} : Finset (DevRef τ sig)) by decide)).trans rfl
omit [FloatOps F] ρ in
theorem V1_t (d : Dev nD) : (opR (F := F)).result (V0 m d) t' = m (tLoc d) :=
  ((opR (F := F)).result_of_not_mem (V0 m d) (show t' ∉ ({i'} : Finset (DevRef τ sig)) by decide)).trans rfl
omit [FloatOps F] ρ in
theorem V1_o (d : Dev nD) : (opR (F := F)).result (V0 m d) o' = m (oLoc d) :=
  ((opR (F := F)).result_of_not_mem (V0 m d) (show o' ∉ ({i'} : Finset (DevRef τ sig)) by decide)).trans rfl
omit [FloatOps F] ρ in
/-- The reshape leaves `idx3` in the index array the kernel reads. -/
theorem V1_i (d : Dev nD) : (opR (F := F)).result (V0 m d) i' = idx3 m d :=
  (StableHlo.reshape_result main_arg0 main_v0 rfl shapeCasts_S4096x200_S4096x2x100 _ _ (V0 m d)).trans rfl

omit [FloatOps F] ρ in
theorem held_V1 (d : Dev nD) :
    (held (T d) S4 ((opR (F := F)).result (V0 m d)) : sProp 𝕄)
      = iprop((aLoc d ↦{fullShare} m (aLoc d)) ∗ (tLoc d ↦{fullShare} m (tLoc d)) ∗ (iLoc d ↦{fullShare} idx3 m d) ∗ (oLoc d ↦{fullShare} m (oLoc d))) := by
  rw [held_S4, V1_a, V1_t, V1_i, V1_o]

omit [FloatOps F] m ρ in
theorem hR : (opR (F := F)).bufs ⊆ S4 := show ({a', i'} : Finset (DevRef τ sig)) ⊆ S4 by decide

/-- What the call takes for the two SparseCores, and what it hands back: the 32 tiles'. -/
theorem st0_eq (d : Dev nD) :
    (bigSep Finset.univ fun c : Fin ((K (F := F)).nCore 0) => (P m).st 0 d c)
      = bigSep Finset.univ fun t : Fin 2 × Fin 16 => tileGo d (LT t.1 t.2) (qT t.1 t.2) (idx3 m d) (m (tLoc d)) (m (oLoc d)) :=
  (bigSep_cores (F := F) (fun c => coreGo m d c)).trans
    (bigSep_univ_prod (fun t : Fin 2 × Fin 16 => tileGo d (LT t.1 t.2) (qT t.1 t.2) (idx3 m d) (m (tLoc d)) (m (oLoc d)))).symm
theorem dn0_eq (d : Dev nD) :
    (bigSep Finset.univ fun c : Fin ((K (F := F)).nCore 0) => (P m).dn 0 d c)
      = bigSep Finset.univ fun t : Fin 2 × Fin 16 => tileTd d (LT t.1 t.2) (qT t.1 t.2) (idx3 m d) (m (tLoc d)) :=
  (bigSep_cores (F := F) (fun c => coreTd m d c)).trans
    (bigSep_univ_prod (fun t : Fin 2 × Fin 16 => tileTd d (LT t.1 t.2) (qT t.1 t.2) (idx3 m d) (m (tLoc d)))).symm

/-- What @main leaves the claim: the index matrix and the table at their launch contents, the result array at the fold. -/
abbrev FIN (d : Dev nD) : sProp 𝕄 :=
  iprop((aLoc d ↦{fullShare} m (aLoc d)) ∗ (tLoc d ↦{fullShare} m (tLoc d))
    ∗ ∃ f : Buf (Elt F) (oLoc d), (oLoc d ↦{fullShare} f) ∗ ⌜f = KSpec.kres (F := F) (idx3 m d) (m (tLoc d))⌝)

/-- @main on device `d`'s TensorCore: the reshape (over the four arrays held whole), then the call: the index array,
    the table's read shares and the result array to the 32 tiles, and back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the reshape
  iapply (wp_hlo_within 𝒱 (SparseCore.T d) none Set.univ (op := opR) (S := S4) hR (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha, Ht, Hi, Ho⟩
  -- the call
  ihave Hs := (go_split (F := F) d (idx3 m d) (m (tLoc d)) (m (oLoc d))) $$ [Hi Ht Ho]
  · isplitl [Hi]; · iexact Hi
    isplitl [Ht]; · iexact Ht
    iexact Ho
  icases Hs with ⟨Hdrop, Hgo⟩
  iapply ((K (F := F)).wp_run (D (F := F)) 𝒱 (EH := EH) (P := P m) κ d 0) $$ [Hst Hgo Hb Ha Hdrop]
  isplitr; · iexact Hctx
  isplitl [Hst]; · iexact Hst
  isplitl [Hgo]
  · rw [st0_eq]; iexact Hgo
  iintro ⟨Hst, Hdn⟩
  ihave Hdn' := (Entails.of_eq (dn0_eq m d)) $$ Hdn
  ihave Hj := (td_join (F := F) d (idx3 m d) (m (tLoc d))) $$ [Hdrop Hdn']
  · isplitl [Hdrop]; · iexact Hdrop
    iexact Hdn'
  icases Hj with ⟨-, Ht, Ho⟩
  imodintro
  isplitl [Hst]; · iexact Hst
  isplitl [Ha]; · iexact Ha
  isplitl [Ht]; · iexact Ht
  iexact Ho

def fq (d : Dev nD) (s' : Phys nD τ sig (Elt F)) : Prop :=
  s'.mem.mem (oLoc d) = KSpec.kres (F := F) (idx3 m d) (m (tLoc d)) ∧ s'.mem.mem (aLoc d) = m (aLoc d) ∧ s'.mem.mem (tLoc d) = m (tLoc d)

set_option maxRecDepth 16384 in
theorem hfin (d : Dev nD) (s' : Phys nD τ sig (Elt F)) : iprop(FIN m d ∗ SI s') ⊢ (⌜fq m d s'⌝ : sProp 𝕄) := by
  iintro ⟨⟨Ha, Ht, %f, Ho, %hf⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := f)) $$ [HSI Ho]
  · isplitl [HSI] <;> iassumption
  icases H with %h3
  ipureintro
  exact ⟨(funext fun i => h3 i (Finset.mem_univ i)).trans hf, funext fun i => h1 i (Finset.mem_univ i), funext fun i => h2 i (Finset.mem_univ i)⟩

/-! ## The program's run -/

def QC : PUnit × MemSt nD τ sig (Elt F) → Prop := fun r => ∀ c : Dev nD,
  r.2.mem (oLoc c) = KSpec.kres (F := F) (idx3 m c) (m (tLoc c)) ∧ r.2.mem (aLoc c) = m (aLoc c) ∧ r.2.mem (tLoc c) = m (tLoc c)

/-- Every weakly fair execution of the program's threads from `m` terminates, nothing faulting, with the result array
    holding the fold of the reshaped indices and the table, and the index matrix and the table unchanged — given the
    tile's body and that every index word names a row of the table. -/
theorem run_main [∀ e, Nonempty (Elt F e)] (hpre : ∀ d j, (m (aLoc d) j).toNat < 100000) (hbody : TileBody (F := F)) :
    θ_run (Cert.Kernel.defs (F := F)) (Cert.Kernel.threads (F := F)) ⟨m, fun _ => 0, ρ⟩
      (fun r => ∀ c : Dev nD, r.2.mem (oLoc c) = KSpec.kres (F := F) (idx3 m c) (m (tLoc c)) ∧ r.2.mem (aLoc c) = m (aLoc c) ∧ r.2.mem (tLoc c) = m (tLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m hbody hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

example (c : Dev nD) : aLoc c = ((c.tc : Thread nD τ).loc main_arg0) := rfl
example (c : Dev nD) : oLoc c = ((c.tc : Thread nD τ).loc main_v1) := rfl

end Cert.Proof.KB

end
-- ==== Proof.PreIdx.lean ====
/-
  The integer half of the precondition, read back.

  The precondition ends in the conjunction of two "all" reductions; the second one states, entry by entry,
  0 ≤ input[b, l] and input[b, l] ≤ 99999 as SIGNED 32-bit words. A word that is not negative as a signed word
  is its unsigned value, so every entry's unsigned value is below 100000: it names a row of the table.
  For any float instance (the float half of the precondition is not used).
-/
import proofs.«206947_g65644280152286_cont_9to1_m_226_28_alg».proof.Pre_input_domain
import Idealize.ShloMosaic.Lib.ValueIdx
import Idealize.ShloMosaic.Lib.ReduceAll

namespace Cert.Proof.PreIdx

open Idealize.ShloMosaic Idealize.ShloMosaic.ValueIdx

/-- A rank-0 array has one index. -/
instance subsingleton_scalar_idx : Subsingleton Cert.Pre_input_domain.S_.Idx :=
  ⟨fun a b => funext fun d => d.elim0⟩

/-- A word between 0 and 99999 as a signed word has unsigned value below 100000. -/
theorem toNat_lt_of_signed_range (w : BitVec 32) (hge : IntOp.cmpi .sge w 0#32 = 1#1)
    (hle : IntOp.cmpi .sle w 99999#32 = 1#1) : w.toNat < 100000 := by
  rw [IntOp.cmpi_sge] at hge
  rw [IntOp.cmpi_sle] at hle
  have z0 : (0#32 : BitVec 32).toInt = 0 := by decide
  have z1 : (99999#32 : BitVec 32).toInt = 99999 := by decide
  rw [z0] at hge
  rw [z1] at hle
  rw [BitVec.toInt_eq_toNat_cond] at hge hle
  have hw := w.isLt
  split at hge <;> omega

/-- Under the precondition every entry of the index array is a row number of the table. -/
theorem idx_lt_of_pre {F : FTy → Type} [FloatOps F] [Cert.Pre_input_domain.Facts]
    (a0 : IVec Cert.Pre_input_domain.S4096x200 32) (a1 : FVec F Cert.Pre_input_domain.S100000x128 .f32)
    (h : Cert.Pre_input_domain.fn (F := F) a0 a1 = fun _ => 1#1) : ∀ j, (a0 j).toNat < 100000 := by
  intro j
  have h0 := congrFun h ix0
  dsimp only [Cert.Pre_input_domain.fn] at h0
  have h9 := (IntOp.andi_eq_one.1 h0).2
  have hj := Host.reduce_andi_all _ _ _ _ _ h9 j
  obtain ⟨hge, hle⟩ := IntOp.andi_eq_one.1 hj
  exact toNat_lt_of_signed_range (a0 j) hge hle

end Cert.Proof.PreIdx
-- ==== Proof.RefRun.lean ====
/-
  The reference program's run, read back.

  The reference is a straight line of 25 array operations once its two calls are unfolded at their call sites:
  the lookup "take" (23 operations, the select of its inner "where" among them) and then the constant −∞ and the
  maximum-reduction over axis 1. From any memory with zero counters every weakly fair execution terminates,
  the result buffer holds the operations' composed term `refTerm` of the two arguments' contents, and the
  arguments are unchanged.

  The composed term, in the program's own order:
    wrapped  = where (input < 0) (input + 100000) input                         [4096, 200]
    starts   = wrapped with a trailing axis of one                              [4096, 200, 1]
    inBounds = all over the trailing axis of (starts ≥ 0 and starts ≤ 99999)    [4096, 200]
    taken    = where inBounds (whole rows of the table gathered at starts) NaN  [4096, 200, 128]
    refTerm  = the maximum over axis 1 of taken, from −∞                        [4096, 128]
-/
import proofs.«206947_g65644280152286_cont_9to1_m_226_28_alg».proof.Proof.Gen.ReferenceIdeal
import Idealize.ShloMosaic.Lib.StableHlo.Run
import Idealize.ShloMosaic.PureOps.Ideal

noncomputable section

namespace Cert.Proof.RefRun

open Cert.ReferenceIdeal Cert.ReferenceIdeal.Gen Idealize.ShloMosaic Idealize.ShloMosaic.TcCoe Idealize.SL.Sem
  Idealize.ShloMosaic.StableHlo

/-! ## The composed term -/

/-- The index array with negative entries wrapped once by the table's height. -/
def wrapped (idx : IVec S4096x200 32) : IVec S4096x200 32 :=
  select (cmpi .slt idx (broadcastInDim S4096x200 ![] bcast_S_S4096x200 (constantI S_ 32 0#32)))
    (addi idx (broadcastInDim S4096x200 ![] bcast_S_S4096x200 (constantI S_ 32 100000#32))) idx

/-- The gather's start indices: one row number per entry, as a vector of one. -/
def starts (idx : IVec S4096x200 32) : IVec S4096x200x1 32 :=
  broadcastInDim S4096x200x1 ![0, 1] bcast_S4096x200_S4096x200x1_0_1 (wrapped idx)

/-- Which entries name a row of the table: 0 ≤ start ≤ 99999 as signed words, over the start vector's one entry. -/
def inBounds (idx : IVec S4096x200 32) : IVec S4096x200 1 :=
  Host.reduce IntOp.andi
    (andi (cmpi .sge (starts idx) (broadcastInDim S4096x200x1 ![] bcast_S_S4096x200x1 (constantI S_ 32 0#32)))
      (cmpi .sle (starts idx)
        (broadcastInDim S4096x200x1 ![0, 1, 2] bcast_S1x1x1_S4096x200x1_0_1_2
          (broadcastInDim S1x1x1 ![2] bcast_S1_S1x1x1_2 (constantI S1 32 99999#32)))))
    (constantI S_ 1 1#1) reducesTo_S4096x200x1_S4096x200_d2 h_S_

/-- The looked-up rows: the table's row at each in-bounds start, NaN elsewhere. -/
def taken (idx : IVec S4096x200 32) (tbl : FVec Ideal S100000x128 .f32) : FVec Ideal S4096x200x128 .f32 :=
  select (broadcastInDim S4096x200x128 ![0, 1] bcast_S4096x200_S4096x200x128_0_1 (inBounds idx))
    (Host.gather gather_S100000x128_S4096x200x1_S4096x200x128_2_0_n_n_0_2_1128 tbl (starts idx))
    (broadcastInDim S4096x200x128 ![] bcast_S_S4096x200x128 (constant (F := Ideal) S_ .f32 0x7FC00000#32))

/-- What the reference computes from its arguments' contents: the maximum over axis 1 of the looked-up rows. -/
def refTerm (idx : IVec S4096x200 32) (tbl : FVec Ideal S100000x128 .f32) : FVec Ideal S4096x128 .f32 :=
  Host.reduce (FloatOps.maximumf (F := Ideal) (φ := .f32)) (taken idx tbl) (constant (F := Ideal) S_ .f32 0xFF800000#32)
    reducesTo_S4096x200x128_S4096x128_d1 h_S_

/-! ## The program as a list of operations -/

/-- @main's 25 operations in order, the calls unfolded: "take" is 23 into its record's buffers (the seventh the
    select of "where", into that call's own record), then the constant −∞ and the reduction. -/
abbrev ops : List (HloOp τ sig (Elt Ideal)) :=
  [ TRef.nullary main_call0.c (constantI S_ 32 0#32),
    TRef.unary main_call0.c main_call0.v0 (broadcastInDim S4096x200 ![] bcast_S_S4096x200),
    TRef.binary (.of main_arg0 : TRef sig ⟨S4096x200, .i32⟩) main_call0.v0 main_call0.v1 (cmpi .slt),
    TRef.nullary main_call0.c_0 (constantI S_ 32 100000#32),
    TRef.unary main_call0.c_0 main_call0.v2 (broadcastInDim S4096x200 ![] bcast_S_S4096x200),
    TRef.binary (.of main_arg0 : TRef sig ⟨S4096x200, .i32⟩) main_call0.v2 main_call0.v3 addi,
    TRef.ternary main_call0.v1 main_call0.v3 (.of main_arg0 : TRef sig ⟨S4096x200, .i32⟩) main_call0.call0.v0 select,
    TRef.unary main_call0.call0.v0 main_call0.v5 (broadcastInDim S4096x200x1 ![0, 1] bcast_S4096x200_S4096x200x1_0_1),
    TRef.nullary main_call0.c_1 (constantI S1 32 99999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1 : TRef sig ⟨S100000x128, .f32⟩) main_call0.v5 main_call0.v13 (fun x i => Host.gather gather_S100000x128_S4096x200x1_S4096x200x128_2_0_n_n_0_2_1128 x i),
    TRef.unary main_call0.v12 main_call0.v14 (broadcastInDim S4096x200x128 ![0, 1] bcast_S4096x200_S4096x200x128_0_1),
    TRef.nullary main_call0.cst (constant (F := Ideal) S_ .f32 0x7FC00000#32),
    TRef.unary main_call0.cst main_call0.v15 (broadcastInDim S4096x200x128 ![] bcast_S_S4096x200x128),
    TRef.ternary main_call0.v14 main_call0.v13 main_call0.v15 main_call0.v16 select,
    nullary main_cst (constant (F := Ideal) S_ .f32 0xFF800000#32),
    binary main_v0 main_cst main_v1 ((fun x v => Host.reduce (FloatOps.maximumf (F := Ideal) (φ := .f32)) x v reducesTo_S4096x200x128_S4096x128_d1 h_S_) : (⟨S4096x200x128, .f32⟩ : BufTy).Contents (Elt Ideal) → (⟨S_, .f32⟩ : BufTy).Contents (Elt Ideal) → (⟨S4096x128, .f32⟩ : BufTy).Contents (Elt Ideal)) ]

set_option maxRecDepth 1024 in
/-- @main is that straight line: the two functions' definitions unfolded at their calls, sequencing reassociated. -/
theorem main_eq (c : Dev nD) : main (F := Ideal) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt Ideal))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    binary_bufs_sub ..⟩

/-! ## Typed references' transports

A typed reference moves contents between the value's type and its buffer's type along the equation of the two;
at the program's literal references that equation is between equal types and the transport is the identity. -/

/-- Contents written through a typed reference and read back through it are the contents. -/
theorem ofBuf_toBuf {T : BufTy} (x : TRef sig T) (v : T.Contents (Elt Ideal)) : x.ofBuf (x.toBuf v) = v := by
  obtain ⟨r, h, _, _⟩ := x
  subst h
  rfl

/-- The looked-up rows' buffer holds what is written through its typed reference. -/
theorem toBuf_v0 (p1 p2 p3) (v : (⟨S4096x200x128, .f32⟩ : BufTy).Contents (Elt Ideal)) :
    (TRef.of main_v0 p1 p2 p3 : TRef sig ⟨S4096x200x128, .f32⟩).toBuf v = v := rfl

/-- The index argument read through its typed reference is the argument's contents. -/
theorem ofBuf_arg0 (p1 p2 p3) (v : main_arg0.ty.Contents (Elt Ideal)) :
    (TRef.of main_arg0 p1 p2 p3 : TRef sig ⟨S4096x200, .i32⟩).ofBuf v = v := rfl

/-- The table argument read through its typed reference is the argument's contents. -/
theorem ofBuf_arg1 (p1 p2 p3) (v : main_arg1.ty.Contents (Elt Ideal)) :
    (TRef.of main_arg1 p1 p2 p3 : TRef sig ⟨S100000x128, .f32⟩).ofBuf v = v := rfl

/-! ## The run -/

attribute [local irreducible] Host.reduce Host.gather in
set_option maxRecDepth 8192 in
/-- The fold of the 25 operations, read at the result buffer, is the composed term of the two arguments' contents:
    each operation's result read where it is written, every other buffer kept; the typed references' transports
    are then removed by the equations above, each over a variable, so that no step compares two whole arrays by
    unfolding (the reduction and the gather are folds and searches over every element). What is left is the
    composed term itself. -/
theorem out_eq (V : Valuation τ sig (Elt Ideal)) :
    after ops V (main_v1 : DevRef τ sig) = refTerm (V (main_arg0 : DevRef τ sig)) (V (main_arg1 : DevRef τ sig)) := by
  after_results
  simp only [ofBuf_toBuf]
  rw [toBuf_v0]
  simp only [ofBuf_arg0, ofBuf_arg1]
  unfold refTerm taken inBounds starts wrapped
  rfl

theorem arg0_eq (V : Valuation τ sig (Elt Ideal)) :
    after ops V (main_arg0 : DevRef τ sig) = V (main_arg0 : DevRef τ sig) := by
  after_results

theorem arg1_eq (V : Valuation τ sig (Elt Ideal)) :
    after ops V (main_arg1 : DevRef τ sig) = V (main_arg1 : DevRef τ sig) := by
  after_results

/-- From any memory with zero counters every weakly fair execution of the reference terminates, its result buffer at
    the composed term of the arguments' contents, the arguments unchanged. -/
theorem run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v1)
          = refTerm (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) :=
  (θ_run defs _ _).mono (fun _ h c => ⟨(h c main_v1).trans (out_eq _), (h c main_arg0).trans (arg0_eq _),
      (h c main_arg1).trans (arg1_eq _)⟩)
    (run_seq scopedRefs_eq scopedSems_eq defs main (fun _ => ops) main_eq (fun _ => ops_sub) m' g')

end Cert.Proof.RefRun

end
-- ==== Proof.LibLookup.lean ====
/-
  A table lookup through a three-axis array of start indices, read at an index; and the words around it.

  * StableHLO's gather with collapsed_slice_dims [0], start_index_map [0], offset_dims [2], index_vector_dim 2 and a
    slice of one whole row: the operand is a table [N, C], the start indices an array [R, K, 1] — one row number per
    entry (r, k), as a vector of one —, and result element (r, k, c) is the table at the row number (r, k, 0), read as a
    signed integer and clamped into [0, N − 1], and column c (`gather_takeRows_apply`);
  * an `and`-reduction whose operand is 1 everywhere, from the initial value 1, is 1 (`reduce_andi_one`);
  * a word whose unsigned value is below 2³¹ is not negative as a signed word, is its unsigned value as a signed
    integer, and compares with another such word as the unsigned values do.
  For all extents.
-/
import Idealize.ShloMosaic.Lib.ValueIdx
import Idealize.ShloMosaic.Lib.ReduceAll

noncomputable section

namespace Cert.Lookup

open Idealize.ShloMosaic Idealize.ShloMosaic.ValueIdx

/-! ## Words -/

/-- A word below 2³¹ read as a signed integer is its unsigned value. -/
theorem toInt_of_lt (w : BitVec 32) (h : w.toNat < 2 ^ 31) : w.toInt = (w.toNat : Int) := by
  rw [BitVec.toInt_eq_toNat_cond]
  split <;> omega

/-- A word below 2³¹ is not below zero as a signed word. -/
theorem slt_zero_of_lt (w : BitVec 32) (h : w.toNat < 2 ^ 31) : IntOp.cmpi .slt w 0#32 = 0#1 := by
  refine eq_zero_of_ne_one fun e => ?_
  rw [IntOp.cmpi_slt, toInt_of_lt w h] at e
  have z0 : (0#32 : BitVec 32).toInt = 0 := by decide
  omega

/-- A word below 2³¹ is at least zero as a signed word. -/
theorem sge_zero_of_lt (w : BitVec 32) (h : w.toNat < 2 ^ 31) : IntOp.cmpi .sge w 0#32 = 1#1 := by
  rw [IntOp.cmpi_sge, toInt_of_lt w h]
  have z0 : (0#32 : BitVec 32).toInt = 0 := by decide
  omega

/-- A word with unsigned value at most that of a bound below 2³¹ is at most the bound as a signed word. -/
theorem sle_of_le (w b : BitVec 32) (hb : b.toNat < 2 ^ 31) (h : w.toNat ≤ b.toNat) : IntOp.cmpi .sle w b = 1#1 := by
  rw [IntOp.cmpi_sle, toInt_of_lt w (by omega), toInt_of_lt b hb]
  omega

/-! ## An `and`-reduction of ones -/

/-- A left fold by `and` from 1 over ones is 1. -/
theorem foldl_andi_one {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A `stablehlo.reduce` by `and` of an operand that is 1 everywhere, from an initial value 1, is 1. -/
theorem reduce_andi_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x hx _

/-! ## The gather of whole rows through start indices [R, K, 1] -/

section TakeRows
variable {α : Type} {N R K C w : Nat}

/-- Those dimension numbers; their conditions `wf` are decided on literal extents. -/
abbrev takeRows (N R K C : Nat)
    (wf : GatherDims.WF ⟨2, ![N, C]⟩ ⟨3, ![R, K, 1]⟩ ⟨3, ![R, K, C]⟩ [2] [0] [] [0] [] 2 ![1, C]) :
    GatherDims ⟨2, ![N, C]⟩ ⟨3, ![R, K, 1]⟩ ⟨3, ![R, K, C]⟩ where
  offsetDims := [2]
  collapsedSliceDims := [0]
  operandBatchingDims := []
  startIndicesBatchingDims := []
  startIndexMap := [0]
  indexVectorDim := 2
  sliceSizes := ![1, C]
  wf := wf

/-- THE LOOKUP READ AT `(r, k, c)`: the table at the row number `idx[r, k, 0]`, read signed and clamped into
    `[0, N − 1]` (the slice is one row, so the largest start that fits is `N − 1`), and column `c` (the slice is the
    whole row: its start on the column axis is `0` and the offset coordinate is `c`). -/
theorem gather_takeRows_apply (hN : 0 < N)
    (wf : GatherDims.WF ⟨2, ![N, C]⟩ ⟨3, ![R, K, 1]⟩ ⟨3, ![R, K, C]⟩ [2] [0] [] [0] [] 2 ![1, C])
    (x : (⟨2, ![N, C]⟩ : Shape).Idx → α) (idx : IVec ⟨3, ![R, K, 1]⟩ w) (r : Fin R) (k : Fin K) (c : Fin C) :
    Host.gather (takeRows N R K C wf) x idx (ix3 r k c)
      = x (ix2 ⟨min (idx (ix3 r k ⟨0, Nat.one_pos⟩)).toInt.toNat (N - 1), by omega⟩ c) := by
  unfold Host.gather
  congr 1
  funext a
  refine Fin.ext ?_
  match a with
  | ⟨0, _⟩ =>
    show (takeRows N R K C wf).start (ix3 r k c) idx 0 + (takeRows N R K C wf).batchCoord (ix3 r k c) 0
      + (takeRows N R K C wf).offCoord (ix3 r k c) 0 = min (idx (ix3 r k ⟨0, Nat.one_pos⟩)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRows N R K C wf).startIndexMap from List.mem_singleton.mpr rfl)]
    have hsi : (takeRows N R K C wf).siIdx (ix3 r k c) ⟨List.idxOf (0 : Fin 2) (takeRows N R K C wf).startIndexMap,
        List.idxOf_lt_length_iff.2 (List.mem_singleton.mpr rfl)⟩ = ix3 r k ⟨0, Nat.one_pos⟩ := by
      funext b; refine Fin.ext ?_
      match b with
      | ⟨0, _⟩ => rfl
      | ⟨1, _⟩ => rfl
      | ⟨2, _⟩ => rfl
    rw [hsi]
    rfl
  | ⟨1, _⟩ =>
    show (takeRows N R K C wf).start (ix3 r k c) idx 1 + (takeRows N R K C wf).batchCoord (ix3 r k c) 1
      + (takeRows N R K C wf).offCoord (ix3 r k c) 1 = c.val
    have hs : (takeRows N R K C wf).start (ix3 r k c) idx 1 = 0 := rfl
    have hb : (takeRows N R K C wf).batchCoord (ix3 r k c) 1 = 0 := rfl
    have ho : (takeRows N R K C wf).offCoord (ix3 r k c) 1 = c.val := rfl
    rw [hs, hb, ho]; omega

end TakeRows

end Cert.Lookup

end
-- ==== Proof.RefValue.lean ====
/-
  The reference's composed term, read index by index: under the index range it is the pooled lookup.

  Take an entry w = input[b, l] with unsigned value below 100000.
    * w is not negative as a signed word, so the wrap by +100000 is not taken: wrapped[b, l] = w;
    * the start vector [b, l, ·] has the one entry w, and 0 ≤ w ≤ 99999 as signed words: the bounds mask is 1;
    * the gather reads the table at the row w's signed value clamped into [0, 99999], which is w's unsigned value,
      and the select, its mask 1, keeps that row: taken[b, l, c] = table[w, c];
    * the maximum-reduction over axis 1 from −∞, at (b, c), is the fold of max over l < 200 of taken[b, l, c] from
      the least extended real (max is commutative and associative there, the order immaterial): the supremum
      over l of table[input[b, l], c].
  No finiteness of the table is used.
-/
import proofs.«206947_g65644280152286_cont_9to1_m_226_28_alg».proof.Proof.RefRun
import proofs.«206947_g65644280152286_cont_9to1_m_226_28_alg».proof.Proof.Spec
import proofs.«206947_g65644280152286_cont_9to1_m_226_28_alg».proof.Proof.LibLookup
import Idealize.ShloMosaic.Lib.Pipeline.Value
import Idealize.ShloMosaic.PureOps.Ideal.Laws

noncomputable section

namespace Cert.Proof.RefValue

open Cert.ReferenceIdeal Cert.ReferenceIdeal.Gen Idealize.ShloMosaic Idealize.ShloMosaic.ValueIdx Idealize.SL.Sem
  Cert.Proof.RefRun Cert.Proof.Spec

/-! ## Broadcasts along a new trailing axis -/

/-- An array [R, K] broadcast along a new trailing axis reads, at (r, k, c), the array at (r, k). -/
theorem bcast01_apply {α : Type} {R K C : Nat}
    (h : (⟨2, ![R, K]⟩ : Shape).BroadcastsInDim (⟨3, ![R, K, C]⟩ : Shape) ![0, 1])
    (x : (⟨2, ![R, K]⟩ : Shape).Idx → α) (r : Fin R) (k : Fin K) (c : Fin C) :
    broadcastInDim (⟨3, ![R, K, C]⟩ : Shape) ![0, 1] h x (ix3 r k c) = x (ix2 r k) := by
  refine broadcastInDim_apply _ h x _ _ fun a => ?_
  match a with
  | ⟨0, _⟩ =>
    show r.val = if R = 1 then 0 else r.val
    split
    · have := r.isLt; omega
    · rfl
  | ⟨1, _⟩ =>
    show k.val = if K = 1 then 0 else k.val
    split
    · have := k.isLt; omega
    · rfl

/-! ## The lookup at an index -/

section AtIndex
variable (idx : IVec S4096x200 32) (tbl : FVec Ideal S100000x128 .f32)

/-- An entry that names a row is not wrapped. -/
theorem wrapped_apply (b : Fin 4096) (l : Fin 200) (h : (idx (ix2 b l)).toNat < 100000) :
    wrapped idx (ix2 b l) = idx (ix2 b l) := by
  show Scalar.select (IntOp.cmpi .slt (idx (ix2 b l)) 0#32) _ (idx (ix2 b l)) = idx (ix2 b l)
  rw [Cert.Lookup.slt_zero_of_lt _ (by omega)]
  rfl

/-- The start vector's entry is the (wrapped) index. -/
theorem starts_apply (b : Fin 4096) (l : Fin 200) (z : Fin 1) : starts idx (ix3 b l z) = wrapped idx (ix2 b l) :=
  bcast01_apply _ _ b l z

/-- An entry that names a row is in bounds. -/
theorem inBounds_apply (h : ∀ j, (idx j).toNat < 100000) (b : Fin 4096) (l : Fin 200) : inBounds idx (ix2 b l) = 1#1 := by
  refine Cert.Lookup.reduce_andi_one _ _ _ _ (fun i => ?_) rfl _
  obtain ⟨b', l', z, rfl⟩ : ∃ (b' : Fin 4096) (l' : Fin 200) (z : Fin 1), i = ix3 b' l' z := ⟨i 0, i 1, i 2, eq_ix3 i⟩
  show IntOp.andi (IntOp.cmpi .sge (starts idx (ix3 b' l' z)) 0#32)
      (IntOp.cmpi .sle (starts idx (ix3 b' l' z)) 99999#32) = 1#1
  have hw := h (ix2 b' l')
  have h9 : (99999#32 : BitVec 32).toNat = 99999 := by decide
  rw [starts_apply, wrapped_apply idx _ _ hw, Cert.Lookup.sge_zero_of_lt _ (by omega),
    Cert.Lookup.sle_of_le _ 99999#32 (by omega) (by omega)]
  rfl

/-- The gather's dimension numbers are those of a lookup of whole rows. -/
theorem gatherDims_eq :
    gather_S100000x128_S4096x200x1_S4096x200x128_2_0_n_n_0_2_1128
      = Cert.Lookup.takeRows 100000 4096 200 128 gather_S100000x128_S4096x200x1_S4096x200x128_2_0_n_n_0_2_1128_wf := rfl

/-- The gather through the start vectors reads, at (b, l, c), the table's row input[b, l] at column c. -/
theorem gather_apply (b : Fin 4096) (l : Fin 200) (c : Fin 128) (h : (idx (ix2 b l)).toNat < 100000) :
    Host.gather gather_S100000x128_S4096x200x1_S4096x200x128_2_0_n_n_0_2_1128 tbl (starts idx) (ix3 b l c)
      = tbl (ix2 (rowOf (idx (ix2 b l))) c) := by
  rw [gatherDims_eq, Cert.Lookup.gather_takeRows_apply (by decide)]
  refine congrArg tbl (congrArg (fun r => ix2 r c) (Fin.ext ?_))
  show min (starts idx (ix3 b l ⟨0, Nat.one_pos⟩)).toInt.toNat (100000 - 1) = (rowOf (idx (ix2 b l))).val
  rw [starts_apply, wrapped_apply idx b l h, rowOf_val h, Cert.Lookup.toInt_of_lt _ (by omega), Int.toNat_natCast]
  omega

set_option maxRecDepth 4096 in
/-- The looked-up rows at (b, l, c): the table's row input[b, l] at column c. -/
theorem taken_apply (h : ∀ j, (idx j).toNat < 100000) (b : Fin 4096) (l : Fin 200) (c : Fin 128) :
    taken idx tbl (ix3 b l c) = tbl (ix2 (rowOf (idx (ix2 b l))) c) := by
  unfold taken
  rw [select_apply, bcast01_apply, inBounds_apply idx h, gather_apply idx tbl b l c (h _)]
  rfl

end AtIndex

/-! ## The maximum over axis 1 -/

/-- Axis 1 of [4096, 200, 128] dropped leaves [4096, 128]. -/
theorem reduces_d1 : S4096x200x128.Reduces [1] S4096x128 := by decide

/-- The index (b, c) with coordinate l put back on axis 1 is (b, l, c). -/
theorem lift_d1 (b : Fin 4096) (c : Fin 128) (l : Fin 200) : reduces_d1.lift (ix2 b c) l = ix3 b l c := by
  funext a
  refine Fin.ext ?_
  match a with
  | ⟨0, _⟩ => rfl
  | ⟨1, _⟩ => rfl
  | ⟨2, _⟩ => rfl

/-- The pattern of −∞ is the least extended real. -/
theorem negInf_eq_bot : Ideal.ofBits .f32 0xFF800000#32 = (⊥ : EReal) := by
  simp [Ideal.ofBits, Ideal.ieee]

/-- The maximum-reduction over axis 1 from −∞ of ANY array [4096, 200, 128], at (b, c): the supremum over l of its
    entries (b, l, c). The fold runs over the 200 coordinates of the dropped axis in any order (max commutes and
    associates), from the least extended real, which is how the supremum of a finite family is defined. -/
theorem reduce_max_d1 (x : FVec Ideal S4096x200x128 .f32) (b : Fin 4096) (c : Fin 128) :
    Host.reduce (FloatOps.maximumf (F := Ideal) (φ := .f32)) x (constant (F := Ideal) S_ .f32 0xFF800000#32)
        reducesTo_S4096x200x128_S4096x128_d1 h_S_ (ix2 b c)
      = Finset.univ.sup fun l : Fin 200 => x (ix3 b l c) := by
  rw [Host.reduce_eq_fold_single (FloatOps.maximumf (F := Ideal) (φ := .f32)) x _ _ reduces_d1]
  have hf : (x ∘ reduces_d1.lift (ix2 b c)) = fun l : Fin 200 => x (ix3 b l c) :=
    funext fun l => congrArg x (lift_d1 b c l)
  rw [hf]
  show Finset.fold max (Ideal.ofBits .f32 0xFF800000#32) (fun l : Fin 200 => x (ix3 b l c)) Finset.univ = _
  rw [negInf_eq_bot]
  rfl

/-- THE REFERENCE AT (b, c): the supremum over l of the looked-up rows' entries (b, l, c). -/
theorem refTerm_apply (idx : IVec S4096x200 32) (tbl : FVec Ideal S100000x128 .f32) (b : Fin 4096) (c : Fin 128) :
    refTerm idx tbl (ix2 b c) = Finset.univ.sup fun l : Fin 200 => taken idx tbl (ix3 b l c) :=
  reduce_max_d1 (taken idx tbl) b c

/-! ## The reference is the pooled lookup -/

/-- Under the index range the reference's composed term is the pooled lookup. -/
theorem refTerm_eq (idx : IVec ⟨2, ![4096, 200]⟩ 32) (tbl : FVec Ideal ⟨2, ![100000, 128]⟩ .f32)
    (h : ∀ j, (idx j).toNat < 100000) : refTerm idx tbl = Cert.Proof.Spec.pooled idx tbl := by
  funext i
  obtain ⟨b, c, rfl⟩ : ∃ (b : Fin 4096) (c : Fin 128), i = ix2 b c := ⟨i 0, i 1, eq_ix2 i⟩
  rw [refTerm_apply, pooled_apply]
  unfold pooledAt
  exact congrArg (Finset.univ.sup) (funext fun l => taken_apply idx tbl h b l c)

/-! ## The run, with the pooled lookup as its result -/

/-- From any memory whose index argument names rows of the table, with zero counters: every weakly fair execution of
    the reference terminates, its result buffer at the pooled lookup of the arguments' contents, the arguments
    unchanged. -/
theorem run_pooled (m' : (ℓ : Loc Cert.ReferenceIdeal.nD Cert.ReferenceIdeal.τ Cert.ReferenceIdeal.sig) → Buf (Elt Ideal) ℓ)
    (g' : Dev Cert.ReferenceIdeal.nD → PrngReg)
    (h : ∀ (c : Dev Cert.ReferenceIdeal.nD) (j : S4096x200.Idx),
      ((m' ((c.tc : Thread Cert.ReferenceIdeal.nD Cert.ReferenceIdeal.τ).loc Cert.ReferenceIdeal.main_arg0) : IVec S4096x200 32) j).toNat < 100000) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v1)
          = Cert.Proof.Spec.pooled (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) :=
  (θ_run _ _ _).mono (fun _ hr c => ⟨(hr c).1.trans (refTerm_eq _ _ (h c)), (hr c).2⟩) (Cert.Proof.RefRun.run m' g')

end Cert.Proof.RefValue

end
-- ==== Proof.KValue.lean ====
/-
  The tile arithmetic's result entry is the pooled lookup, at the extended reals.
  There the maximum of two floats is the lattice maximum and the word of −∞ is the bottom element ⊥. So for every
  bound y: the running maximum after n steps of one half, started from a, is ≤ y exactly when a ≤ y and the first 4n
  entries are ≤ y (induction on n: step n folds in the entries 4n … 4n+3, and a maximum is ≤ y iff both arguments are);
  after the 25 steps that is "a ≤ y and all 100 entries ≤ y". Folding the second half over the first, from ⊥, gives
  "all 200 entries ≤ y", which is also when the supremum over the 200 positions l = 100·h + j is ≤ y.
  Two extended reals with the same upper bounds are equal.
-/
import Idealize.ShloMosaic.PureOps.Ideal
import Idealize.ShloMosaic.Lib.ValueIdx
import proofs.«206947_g65644280152286_cont_9to1_m_226_28_alg».proof.Proof.Spec
import proofs.«206947_g65644280152286_cont_9to1_m_226_28_alg».proof.Proof.KSpec

noncomputable section

namespace Cert.Proof.KValue

open Idealize.ShloMosaic Idealize.ShloMosaic.ValueIdx Cert.Proof.Spec Cert.Proof.KSpec

/-- The starting value of the running maximum is the bottom element of the extended reals. -/
theorem negInf_eq : (negInf : Ideal .f32) = (⊥ : EReal) := by
  show Ideal.ofBits .f32 0xFF800000#32 = ⊥
  simp [Ideal.ofBits, Ideal.ieee]

/-- One step's contribution is below a bound exactly when its four entries are. -/
theorem quad_le_iff (x : Fin 100 → Ideal .f32) (y : EReal) (k : Fin 25) :
    quad (F := Ideal) x k ≤ y ↔
      x ⟨4 * k.val, by omega⟩ ≤ y ∧ x ⟨4 * k.val + 1, by omega⟩ ≤ y ∧ x ⟨4 * k.val + 2, by omega⟩ ≤ y
        ∧ x ⟨4 * k.val + 3, by omega⟩ ≤ y := by
  show max (max _ _) (max _ _) ≤ y ↔ _
  rw [max_le_iff, max_le_iff, max_le_iff, and_assoc]

/-- The running maximum after `n` steps is below a bound exactly when the start and the first `4 n` entries are. -/
theorem halfUpTo_le_iff (x : Fin 100 → Ideal .f32) (a y : EReal) :
    ∀ (n : ℕ) (h : n ≤ 25), halfUpTo (F := Ideal) x a n h ≤ y ↔ a ≤ y ∧ ∀ j : Fin 100, j.val < 4 * n → x j ≤ y
  | 0, _ => by
    show a ≤ y ↔ _
    constructor
    · intro h; exact ⟨h, fun j hj => absurd hj (by omega)⟩
    · exact fun h => h.1
  | n + 1, h => by
    show max (halfUpTo (F := Ideal) x a n (Nat.le_of_succ_le h)) (quad (F := Ideal) x ⟨n, h⟩) ≤ y ↔ _
    rw [max_le_iff, halfUpTo_le_iff x a y n (Nat.le_of_succ_le h), quad_le_iff]
    constructor
    · rintro ⟨⟨ha, hlt⟩, h0, h1, h2, h3⟩
      refine ⟨ha, fun j hj => ?_⟩
      by_cases hj' : j.val < 4 * n
      · exact hlt j hj'
      · have hc : j.val = 4 * n ∨ j.val = 4 * n + 1 ∨ j.val = 4 * n + 2 ∨ j.val = 4 * n + 3 := by omega
        rcases hc with e | e | e | e
        · have hj0 : j = ⟨4 * n, by omega⟩ := Fin.ext e
          rw [hj0]; exact h0
        · have hj1 : j = ⟨4 * n + 1, by omega⟩ := Fin.ext e
          rw [hj1]; exact h1
        · have hj2 : j = ⟨4 * n + 2, by omega⟩ := Fin.ext e
          rw [hj2]; exact h2
        · have hj3 : j = ⟨4 * n + 3, by omega⟩ := Fin.ext e
          rw [hj3]; exact h3
    · rintro ⟨ha, hall⟩
      exact ⟨⟨ha, fun j hj => hall j (by omega)⟩, hall _ (by show 4 * n < 4 * (n + 1); omega),
        hall _ (by show 4 * n + 1 < 4 * (n + 1); omega), hall _ (by show 4 * n + 2 < 4 * (n + 1); omega),
        hall _ (by show 4 * n + 3 < 4 * (n + 1); omega)⟩

/-- One half folded into `a` is below a bound exactly when `a` and all 100 entries are. -/
theorem halfFold_le_iff (x : Fin 100 → Ideal .f32) (a y : EReal) :
    halfFold (F := Ideal) x a ≤ y ↔ a ≤ y ∧ ∀ j : Fin 100, x j ≤ y := by
  unfold halfFold
  rw [halfUpTo_le_iff]
  constructor
  · rintro ⟨ha, h⟩; exact ⟨ha, fun j => h j (by have := j.isLt; omega)⟩
  · rintro ⟨ha, h⟩; exact ⟨ha, fun j _ => h j⟩

/-- The result entry of the tile arithmetic is the pooled lookup: the largest of the 200 table entries. -/
theorem kresAt_eq_pooledAt (idx3 : IVec ⟨3, ![4096, 2, 100]⟩ 32) (idx : IVec ⟨2, ![4096, 200]⟩ 32)
    (tbl : FVec Ideal ⟨2, ![100000, 128]⟩ .f32)
    (hre : ∀ (R : Fin 4096) (h : Fin 2) (j : Fin 100),
      idx3 (ix3 R h j) = idx (ix2 R ⟨100 * h.val + j.val, by omega⟩))
    (R : Fin 4096) (q : Fin 128) :
    KSpec.kresAt (F := Ideal) idx3 tbl R q = Spec.pooledAt idx tbl R q := by
  have hent : ∀ (h : Fin 2) (j : Fin 100), entries (F := Ideal) idx3 tbl R h q j
      = tbl (ix2 (rowOf (idx (ix2 R ⟨100 * h.val + j.val, by omega⟩))) q) := by
    intro h j; unfold entries; rw [hre]
  apply eq_of_forall_ge_iff
  intro y
  unfold kresAt pooledAt
  rw [halfFold_le_iff, halfFold_le_iff, Finset.sup_le_iff, negInf_eq]
  constructor
  · rintro ⟨⟨_, h0⟩, h1⟩ l _
    by_cases hl : l.val < 100
    · have h := h0 ⟨l.val, hl⟩
      rw [hent] at h
      have hl' : l = ⟨100 * (0 : Fin 2).val + l.val, by have := l.isLt; simp⟩ := Fin.ext (by simp)
      rw [hl']; exact h
    · have h := h1 ⟨l.val - 100, by have := l.isLt; omega⟩
      rw [hent] at h
      have hl' : l = ⟨100 * (1 : Fin 2).val + (l.val - 100), by have := l.isLt; simp; omega⟩ :=
        Fin.ext (by simp; omega)
      rw [hl']; exact h
  · intro hall
    refine ⟨⟨bot_le, fun j => ?_⟩, fun j => ?_⟩
    · rw [hent]; exact hall _ (Finset.mem_univ _)
    · rw [hent]; exact hall _ (Finset.mem_univ _)

/-- The array form: the tile arithmetic's result array is the pooled lookup array. -/
theorem kres_eq_pooled (idx3 : IVec ⟨3, ![4096, 2, 100]⟩ 32) (idx : IVec ⟨2, ![4096, 200]⟩ 32)
    (tbl : FVec Ideal ⟨2, ![100000, 128]⟩ .f32)
    (hre : ∀ (R : Fin 4096) (h : Fin 2) (j : Fin 100),
      idx3 (ix3 R h j) = idx (ix2 R ⟨100 * h.val + j.val, by omega⟩)) :
    KSpec.kres (F := Ideal) idx3 tbl = Spec.pooled idx tbl := by
  funext i
  exact kresAt_eq_pooledAt idx3 idx tbl hre (i 0) (i 1)

end Cert.Proof.KValue

end
-- ==== Proof.Assemble.lean ====
/-
  The claim, assembled from the two tile bodies.

  Each kernel program's run (for any float instance) ends with its result array at the fold KSpec.kres of the
  reshaped indices and the table and with its arguments unchanged, given the tile's body and that every index
  word names a row of the table; the precondition gives that range. The frames are these runs with the value
  dropped. At the extended reals the fold is the pooled lookup Spec.pooled of the index matrix and the table,
  which is also what the reference's run leaves; so from memories that agree on the arguments both programs
  end with the same result, the pooled lookup of the kernel's arguments.
-/
import proofs.«206947_g65644280152286_cont_9to1_m_226_28_alg».proof.Defs
import proofs.«206947_g65644280152286_cont_9to1_m_226_28_alg».proof.Proof.KILaunch
import proofs.«206947_g65644280152286_cont_9to1_m_226_28_alg».proof.Proof.KBLaunch
import proofs.«206947_g65644280152286_cont_9to1_m_226_28_alg».proof.Proof.PreIdx
import proofs.«206947_g65644280152286_cont_9to1_m_226_28_alg».proof.Proof.RefRun
import proofs.«206947_g65644280152286_cont_9to1_m_226_28_alg».proof.Proof.RefValue
import proofs.«206947_g65644280152286_cont_9to1_m_226_28_alg».proof.Proof.KValue
import proofs.«206947_g65644280152286_cont_9to1_m_226_28_alg».proof.Proof.Spec
import proofs.«206947_g65644280152286_cont_9to1_m_226_28_alg».proof.Proof.Gen.Kernel
import proofs.«206947_g65644280152286_cont_9to1_m_226_28_alg».proof.Proof.Gen.KernelIdeal
import proofs.«206947_g65644280152286_cont_9to1_m_226_28_alg».proof.Proof.Gen.ReferenceIdeal
import proofs.«206947_g65644280152286_cont_9to1_m_226_28_alg».proof.Proof.Gen.Pre_input_domain

noncomputable section

namespace Cert.Proof.Asm

open Idealize.ShloMosaic Idealize.SL.Sem Idealize.ShloMosaic.ValueIdx

/-- The word-level kernel runs and leaves its arguments unchanged. -/
theorem frame_p (hKB : Cert.Proof.KB.TileBody (F := Bits)) :
    Cert.frame_Kernel (hKernel := Cert.Kernel.Gen.facts) (hPre_input_domain := Cert.Pre_input_domain.Gen.facts) := fun m g hpre =>
  (θ_run Cert.Kernel.defs _ _).mono (fun _ h c => ⟨(h c).2.1, (h c).2.2⟩)
    (Cert.Proof.KB.run_main (F := Bits) m g (fun d j => Cert.Proof.PreIdx.idx_lt_of_pre _ _ (hpre d) j) hKB)

/-- The idealized kernel runs and leaves its arguments unchanged. -/
theorem frame_pi (hKI : Cert.Proof.KI.TileBody (F := Ideal)) :
    Cert.frame_KernelIdeal (hKernelIdeal := Cert.KernelIdeal.Gen.facts) (hPre_input_domain := Cert.Pre_input_domain.Gen.facts) := fun m g hpre =>
  (θ_run Cert.KernelIdeal.defs _ _).mono (fun _ h c => ⟨(h c).2.1, (h c).2.2⟩)
    (Cert.Proof.KI.run_main (F := Ideal) m g (fun d j => Cert.Proof.PreIdx.idx_lt_of_pre _ _ (hpre d) j) hKI)

/-- The reference runs and leaves its arguments unchanged. -/
theorem frame_ri :
    Cert.frame_ReferenceIdeal (hReferenceIdeal := Cert.ReferenceIdeal.Gen.facts) (hPre_input_domain := Cert.Pre_input_domain.Gen.facts) := fun m' g' _ =>
  (θ_run Cert.ReferenceIdeal.defs _ _).mono (fun _ h c => (h c).2) (Cert.Proof.RefRun.run m' g')

/-- At the extended reals the idealized kernel and the reference end with the same result: the pooled lookup. -/
theorem algebraic (hKI : Cert.Proof.KI.TileBody (F := Ideal)) :
    Cert.algebraic_KernelIdeal_ReferenceIdeal (hKernelIdeal := Cert.KernelIdeal.Gen.facts) (hReferenceIdeal := Cert.ReferenceIdeal.Gen.facts)
      (hPre_input_domain := Cert.Pre_input_domain.Gen.facts) := by
  intro m g m' g' hpre hagree
  refine ⟨fun c => Cert.Proof.Spec.pooled
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.Proof.KI.run_main (F := Ideal) m g (fun d j => Cert.Proof.PreIdx.idx_lt_of_pre _ _ (hpre d) j) hKI)
    exact Cert.Proof.KValue.kres_eq_pooled _ _ _ (Cert.Proof.KI.idx3_apply m c)
  · have hidx : ∀ (c : Dev Cert.ReferenceIdeal.nD) (j : Cert.ReferenceIdeal.S4096x200.Idx),
        ((m' ((c.tc : Thread Cert.ReferenceIdeal.nD Cert.ReferenceIdeal.τ).loc Cert.ReferenceIdeal.main_arg0) : IVec Cert.ReferenceIdeal.S4096x200 32) j).toNat < 100000 := by
      intro c j
      rw [(hagree c).1]
      exact Cert.Proof.PreIdx.idx_lt_of_pre _ _ (hpre c) j
    refine (θ_run Cert.ReferenceIdeal.defs _ _).mono (fun _ h c => ⟨(h c).1.trans ?_, (h c).2⟩) (Cert.Proof.RefValue.run_pooled m' g' hidx)
    rw [(hagree c).1, (hagree c).2]

/-- The certificate's claim, from the tile's body at the words and at the extended reals. -/
theorem claim_of (hKB : Cert.Proof.KB.TileBody (F := Bits)) (hKI : Cert.Proof.KI.TileBody (F := Ideal)) : Cert.Claim :=
  ⟨Cert.Kernel.Gen.facts, Cert.KernelIdeal.Gen.facts, Cert.ReferenceIdeal.Gen.facts, Cert.Pre_input_domain.Gen.facts,
    frame_p hKB, frame_pi hKI, frame_ri, trivial, algebraic hKI⟩

end Cert.Proof.Asm

end
-- ==== Proof.KILists.lean ====
import proofs.«206947_g65644280152286_cont_9to1_m_226_28_alg».proof.Proof.KIPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S4096x2x100 EltTy.i32)
local notation "oV" => (Memref.whole Cert.KernelIdeal.main_v1_scv : Memref Cert.KernelIdeal.sig Kind.scVector Space.hbm Cert.KernelIdeal.S4096x128 EltTy.f32)
local notation "xV" => (Memref.whole Cert.KernelIdeal.cc0_scratch0 : Memref Cert.KernelIdeal.sig Kind.scVector Space.vmem Cert.KernelIdeal.S128x2x100 EltTy.i32)
local notation "b0V" => (Memref.whole Cert.KernelIdeal.cc0_scratch1 : Memref Cert.KernelIdeal.sig Kind.scVector Space.vmem Cert.KernelIdeal.S100x128 EltTy.f32)
local notation "b1V" => (Memref.whole Cert.KernelIdeal.cc0_scratch2 : Memref Cert.KernelIdeal.sig Kind.scVector Space.vmem Cert.KernelIdeal.S100x128 EltTy.f32)
local notation "b2V" => (Memref.whole Cert.KernelIdeal.cc0_scratch3 : Memref Cert.KernelIdeal.sig Kind.scVector Space.vmem Cert.KernelIdeal.S100x128 EltTy.f32)
local notation "b3V" => (Memref.whole Cert.KernelIdeal.cc0_scratch4 : Memref Cert.KernelIdeal.sig Kind.scVector Space.vmem Cert.KernelIdeal.S100x128 EltTy.f32)
local notation "b4V" => (Memref.whole Cert.KernelIdeal.cc0_scratch5 : Memref Cert.KernelIdeal.sig Kind.scVector Space.vmem Cert.KernelIdeal.S100x128 EltTy.f32)
local notation "b5V" => (Memref.whole Cert.KernelIdeal.cc0_scratch6 : Memref Cert.KernelIdeal.sig Kind.scVector Space.vmem Cert.KernelIdeal.S100x128 EltTy.f32)
local notation "yV" => (Memref.whole Cert.KernelIdeal.cc0_scratch7 : Memref Cert.KernelIdeal.sig Kind.scVector Space.vmem Cert.KernelIdeal.S128x128 EltTy.f32)

/-! The index scratch of a tile and its pieces: the two row ranges the index copies fill (rows 0–2, rows 3–127), the
    100-word lists the gathers read (row r, half h), the table as the gathers name it; which elements each holds. -/

abbrev xA : Memref sig .scVector .vmem S3x2x100 .i32 := (xV).slice (Rect.unit (s := S128x2x100) ![0, 0, 0] S3x2x100.size inb_S128x2x100_S3x2x100_0_0_0) (fun _ => rfl)
abbrev xB : Memref sig .scVector .vmem S125x2x100 .i32 := (xV).slice (Rect.unit (s := S128x2x100) ![3, 0, 0] S125x2x100.size inb_S128x2x100_S125x2x100_3_0_0) (fun _ => rfl)
abbrev cell (d : Dev nD) (L : grid0.Coords) (s : DmaSems sig S_) : GSem nD τ sig := (V d (cV L) (jV L), .dma s.sem)
/-- The table as the gathers name it: the whole array, sliced whole. -/
abbrev tAll : Memref sig .scVector .hbm S100000x128 .f32 := (tV).slice (Rect.unit (s := S100000x128) ![0, 0] S100000x128.size inb_S100000x128_S100000x128_0_0) (fun _ => rfl)
/-- An index list: 100 words of the index scratch from `off`. -/
abbrev lst (off : Fin 3 → Nat) (inb : ∀ a, off a + S1x1x100.size a ≤ S128x2x100.size a) : Memref sig .scVector .vmem S100 .i32 :=
  ((xV).slice (Rect.unit (s := S128x2x100) off S1x1x100.size inb) (fun _ => rfl)).squeeze S100 squeezes_S1x1x100_S100

theorem set_lst (off : Fin 3 → Nat) (inb : ∀ a, off a + S1x1x100.size a ≤ S128x2x100.size a) :
    (lst off inb).view.set = (Rect.unit (s := S128x2x100) off S1x1x100.size inb).set := by
  show (((xV).view.slice (Rect.unit (s := S128x2x100) off S1x1x100.size inb)).reshape S100 squeezes_S1x1x100_S100.numel_eq).set = _
  rw [View.set_reshape]; exact View.set_slice_whole _ _
theorem set_xA : (xA).view.set = (Rect.unit (s := S128x2x100) ![0, 0, 0] S3x2x100.size inb_S128x2x100_S3x2x100_0_0_0).set := View.set_slice_whole _ _
theorem set_xB : (xB).view.set = (Rect.unit (s := S128x2x100) ![3, 0, 0] S125x2x100.size inb_S128x2x100_S125x2x100_3_0_0).set := View.set_slice_whole _ _
theorem set_tAll : (tAll).view.set = Finset.univ := by
  rw [show (tAll).view.set = (Rect.unit (s := S100000x128) ![0, 0] S100000x128.size inb_S100000x128_S100000x128_0_0).set from View.set_slice_whole _ _]
  ext i; simp only [Finset.mem_univ, iff_true]
  exact Rect.mem_set_unit.mpr fun a => by
    have := (i a).isLt
    match a with
    | ⟨0, _⟩ => exact ⟨Nat.zero_le _, by simpa using this⟩
    | ⟨1, _⟩ => exact ⟨Nat.zero_le _, by simpa using this⟩

theorem unit_subset {s : Shape} {off size off' size' : Fin s.rank → Nat} {inb inb'}
    (h : ∀ a, off' a ≤ off a ∧ off a + size a ≤ off' a + size' a) :
    (Rect.unit (s := s) off size inb).set ⊆ (Rect.unit (s := s) off' size' inb').set := fun i hi =>
  Rect.mem_set_unit.mpr fun a => by have h1 := Rect.mem_set_unit.mp hi a; have h2 := h a; omega

/-- Membership by the row coordinate. -/
theorem mem_xA {i : S128x2x100.Idx} : i ∈ (xA).view.set ↔ (i 0).val < 3 := by
  rw [set_xA, Rect.mem_set_unit]
  constructor
  · intro h; have := h 0; simpa using this.2
  · intro h a
    have := (i a).isLt
    match a with
    | ⟨0, _⟩ => exact ⟨Nat.zero_le _, by simpa using h⟩
    | ⟨1, _⟩ => exact ⟨Nat.zero_le _, by simpa using this⟩
    | ⟨2, _⟩ => exact ⟨Nat.zero_le _, by simpa using this⟩
theorem mem_xB {i : S128x2x100.Idx} : i ∈ (xB).view.set ↔ 3 ≤ (i 0).val := by
  rw [set_xB, Rect.mem_set_unit]
  constructor
  · intro h; have := h 0; simpa using this.1
  · intro h a
    have := (i a).isLt
    match a with
    | ⟨0, _⟩ => exact ⟨by simpa using h, by simpa using this⟩
    | ⟨1, _⟩ => exact ⟨Nat.zero_le _, by simpa using this⟩
    | ⟨2, _⟩ => exact ⟨Nat.zero_le _, by simpa using this⟩
theorem mem_lst {off : Fin 3 → Nat} {inb : ∀ a, off a + S1x1x100.size a ≤ S128x2x100.size a} (h2 : off 2 = 0) {i : S128x2x100.Idx} :
    i ∈ (lst off inb).view.set ↔ (i 0).val = off 0 ∧ (i 1).val = off 1 := by
  rw [set_lst, Rect.mem_set_unit]
  constructor
  · intro h; have h0 := h 0; have h1 := h 1
    simp only [S1x1x100, Shape.size] at h0 h1
    constructor
    · have : off 0 ≤ (i 0).val ∧ (i 0).val < off 0 + 1 := by simpa using h0
      omega
    · have : off 1 ≤ (i 1).val ∧ (i 1).val < off 1 + 1 := by simpa using h1
      omega
  · intro ⟨e0, e1⟩ a
    have := (i a).isLt
    match a with
    | ⟨0, _⟩ => exact ⟨by show off 0 ≤ (i 0).val; omega, by show (i 0).val < off 0 + 1; omega⟩
    | ⟨1, _⟩ => exact ⟨by show off 1 ≤ (i 1).val; omega, by show (i 1).val < off 1 + 1; omega⟩
    | ⟨2, _⟩ => exact ⟨by show off 2 ≤ (i 2).val; omega, by
        show (i 2).val < off 2 + 100
        have : (i 2).val < 100 := by simpa using this
        omega⟩

/-- The global batch row of a tile's local row. -/
def rowG (L : grid0.Coords) (r : Fin 128) : Fin 4096 :=
  ⟨256 * (L 1).val + 128 * (L 0).val + r.val, by
    have h0 : (L 0).val < 2 := (L 0).isLt
    have h1 : (L 1).val < 16 := (L 1).isLt
    have := r.isLt
    omega⟩

/-- What the index scratch holds once both index copies have landed: the tile's 128 rows of the reshaped indices. -/
def Xc (d : Dev nD) (L : grid0.Coords) (I : Buf (Elt F) (iLoc d)) : Buf (Elt F) ((thr d L).loc cc0_scratch0) :=
  fun j => I (ValueIdx.ix3 (rowG L (j 0)) (j 1) (j 2))

end Cert.Proof.KI

end
-- ==== Proof.KIMainStmt.lean ====
import proofs.«206947_g65644280152286_cont_9to1_m_226_28_alg».proof.Proof.KILists
import proofs.«206947_g65644280152286_cont_9to1_m_226_28_alg».proof.Proof.KSpec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S4096x2x100 EltTy.i32)
local notation "oV" => (Memref.whole Cert.KernelIdeal.main_v1_scv : Memref Cert.KernelIdeal.sig Kind.scVector Space.hbm Cert.KernelIdeal.S4096x128 EltTy.f32)
local notation "xV" => (Memref.whole Cert.KernelIdeal.cc0_scratch0 : Memref Cert.KernelIdeal.sig Kind.scVector Space.vmem Cert.KernelIdeal.S128x2x100 EltTy.i32)
local notation "b0V" => (Memref.whole Cert.KernelIdeal.cc0_scratch1 : Memref Cert.KernelIdeal.sig Kind.scVector Space.vmem Cert.KernelIdeal.S100x128 EltTy.f32)
local notation "b1V" => (Memref.whole Cert.KernelIdeal.cc0_scratch2 : Memref Cert.KernelIdeal.sig Kind.scVector Space.vmem Cert.KernelIdeal.S100x128 EltTy.f32)
local notation "b2V" => (Memref.whole Cert.KernelIdeal.cc0_scratch3 : Memref Cert.KernelIdeal.sig Kind.scVector Space.vmem Cert.KernelIdeal.S100x128 EltTy.f32)
local notation "b3V" => (Memref.whole Cert.KernelIdeal.cc0_scratch4 : Memref Cert.KernelIdeal.sig Kind.scVector Space.vmem Cert.KernelIdeal.S100x128 EltTy.f32)
local notation "b4V" => (Memref.whole Cert.KernelIdeal.cc0_scratch5 : Memref Cert.KernelIdeal.sig Kind.scVector Space.vmem Cert.KernelIdeal.S100x128 EltTy.f32)
local notation "b5V" => (Memref.whole Cert.KernelIdeal.cc0_scratch6 : Memref Cert.KernelIdeal.sig Kind.scVector Space.vmem Cert.KernelIdeal.S100x128 EltTy.f32)
local notation "yV" => (Memref.whole Cert.KernelIdeal.cc0_scratch7 : Memref Cert.KernelIdeal.sig Kind.scVector Space.vmem Cert.KernelIdeal.S128x128 EltTy.f32)

variable [FloatOps F]

/-! The tile's body with everything it uses spelt out: the index rows, the table's share, the result rows, its eight scratch
    buffers at any contents and its nine DMA semaphores at zero — all handed back at the end, the result rows holding the fold. -/

def TileMain : Prop :=
  ∀ (d : Dev nD) (L : grid0.Coords) (q : PosShare TreeShare) (O : CellTallies nD τ sig (HIx 1)) (W : Waits sig (HIx 1))
    (I : Buf (Elt F) (iLoc d)) (Tb : Buf (Elt F) (tLoc d)) (fo : Buf (Elt F) (oLoc d))
    (fx : Buf (Elt F) ((thr d L).loc cc0_scratch0)) (f0 : Buf (Elt F) ((thr d L).loc cc0_scratch1)) (f1 : Buf (Elt F) ((thr d L).loc cc0_scratch2))
    (f2 : Buf (Elt F) ((thr d L).loc cc0_scratch3)) (f3 : Buf (Elt F) ((thr d L).loc cc0_scratch4)) (f4 : Buf (Elt F) ((thr d L).loc cc0_scratch5))
    (f5 : Buf (Elt F) ((thr d L).loc cc0_scratch6)) (fy : Buf (Elt F) ((thr d L).loc cc0_scratch7)), (∀ j, (I j).toNat < 100000) →
    (iprop(Transfers.MayWaits (thr d L) (default : HIx 1) O
        ∗ ((iA L).view.loc (thr d L) ↦[(iA L).view.set]{fullShare} I)
        ∗ ((iB L).view.loc (thr d L) ↦[(iB L).view.set]{fullShare} I)
        ∗ ((tV).view.loc (thr d L) ↦{q} Tb)
        ∗ ((oK L).view.loc (thr d L) ↦[(oK L).view.set]{fullShare} fo)
        ∗ ((xV).view.loc (thr d L) ↦{fullShare} fx)
        ∗ ((b0V).view.loc (thr d L) ↦{fullShare} f0) ∗ ((b1V).view.loc (thr d L) ↦{fullShare} f1) ∗ ((b2V).view.loc (thr d L) ↦{fullShare} f2)
        ∗ ((b3V).view.loc (thr d L) ↦{fullShare} f3) ∗ ((b4V).view.loc (thr d L) ↦{fullShare} f4) ∗ ((b5V).view.loc (thr d L) ↦{fullShare} f5)
        ∗ ((yV).view.loc (thr d L) ↦{fullShare} fy)
        ∗ semVal (cell d L cc0_scratch8) 0 ∗ semVal (cell d L cc0_scratch9) 0 ∗ semVal (cell d L cc0_scratch10) 0 ∗ semVal (cell d L cc0_scratch11) 0
        ∗ semVal (cell d L cc0_scratch12) 0 ∗ semVal (cell d L cc0_scratch13) 0 ∗ semVal (cell d L cc0_scratch14) 0
        ∗ semVal (cell d L cc0_scoped0) 0 ∗ semVal (cell d L cc0_scoped1) 0
        ∗ owes (thr d L) O W) : sProp 𝕄)
      ⊢ wp frame (wpE (defs₀ (F := F)) 𝒱₀ (thr d L) none) Set.univ
          (cc0_k L tV (Memref.isWhole_whole _) iV (Memref.isWhole_whole _) oV (Memref.isWhole_whole _)
            xV (Memref.isWhole_whole _) b0V (Memref.isWhole_whole _) b1V (Memref.isWhole_whole _) b2V (Memref.isWhole_whole _)
            b3V (Memref.isWhole_whole _) b4V (Memref.isWhole_whole _) b5V (Memref.isWhole_whole _) yV (Memref.isWhole_whole _)
            cc0_scratch8 cc0_scratch9 cc0_scratch10 cc0_scratch11 cc0_scratch12 cc0_scratch13 cc0_scratch14 cc0_scoped0 cc0_scoped1)
          fun _ => iprop(((iA L).view.loc (thr d L) ↦[(iA L).view.set]{fullShare} I)
            ∗ ((iB L).view.loc (thr d L) ↦[(iB L).view.set]{fullShare} I)
            ∗ ((tV).view.loc (thr d L) ↦{q} Tb)
            ∗ (∃ f : Buf (Elt F) (oLoc d), ((oK L).view.loc (thr d L) ↦[(oK L).view.set]{fullShare} f) ∗ ⌜∀ j ∈ (oK L).view.set, f j = KSpec.kres (F := F) I Tb j⌝)
            ∗ (∃ f, (xV).view.loc (thr d L) ↦{fullShare} f)
            ∗ (∃ f, (b0V).view.loc (thr d L) ↦{fullShare} f) ∗ (∃ f, (b1V).view.loc (thr d L) ↦{fullShare} f) ∗ (∃ f, (b2V).view.loc (thr d L) ↦{fullShare} f)
            ∗ (∃ f, (b3V).view.loc (thr d L) ↦{fullShare} f) ∗ (∃ f, (b4V).view.loc (thr d L) ↦{fullShare} f) ∗ (∃ f, (b5V).view.loc (thr d L) ↦{fullShare} f)
            ∗ (∃ f, (yV).view.loc (thr d L) ↦{fullShare} f)
            ∗ semVal (cell d L cc0_scratch8) 0 ∗ semVal (cell d L cc0_scratch9) 0 ∗ semVal (cell d L cc0_scratch10) 0 ∗ semVal (cell d L cc0_scratch11) 0
            ∗ semVal (cell d L cc0_scratch12) 0 ∗ semVal (cell d L cc0_scratch13) 0 ∗ semVal (cell d L cc0_scratch14) 0
            ∗ semVal (cell d L cc0_scoped0) 0 ∗ semVal (cell d L cc0_scoped1) 0
            ∗ ∃ W', ⌜∀ p ∈ W', p ∈ W ∨ p.2 = none⌝ ∗ owes (thr d L) O W')

end Cert.Proof.KI

end
-- ==== Proof.KIWrap.lean ====
/-
  The tile's body at the launch's spelling, from the body with every resource spelt out.

  A tile is handed its operands beside its own scoped storage: all of its own buffers, each at some contents, and all
  of its own semaphores at zero. The body uses eight of the buffers and nine of the semaphores; the others go around
  it untouched, and at the end the storage is whole again: the used buffers at whatever the body left, the used
  semaphores back at zero.
-/
import proofs.«206947_g65644280152286_cont_9to1_m_226_28_alg».proof.Proof.KIMainStmt
import proofs.«206947_g65644280152286_cont_9to1_m_226_28_alg».proof.Proof.KIOwn
import proofs.«206947_g65644280152286_cont_9to1_m_226_28_alg».proof.Proof.KIPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

set_option maxRecDepth 16384 in
set_option maxHeartbeats 1000000 in
theorem tileBody_of_main (h : TileMain (F := F)) : TileBody (F := F) := by
  intro d L q I Tb fo hI O W hO
  unfold tileGo tileTd
  rw [(K (F := F)).scopedBufs_V facts d (cV L) (jV L), SparseCore.Cfg.scopedSems0_V (Val := Elt F) d (cV L) (jV L), ownSems0_V, ownBufs_V]
  iintro ⟨#Hlv, -, ⟨Ha, Hb, Ht, Ho⟩, ⟨⟨%fx, Hx⟩, ⟨%f0, H0⟩, ⟨%f1, H1⟩, ⟨%f2, H2⟩, ⟨%f3, H3⟩, ⟨%f4, H4⟩, ⟨%f5, H5⟩, ⟨%fy, Hy⟩, Hbufs⟩, ⟨S8, S9, S10, S11, S12, S13, S14, Sc0, Sc1, Hsems⟩, HO⟩
  ihave Hmw := (show levAts (K (F := F)).L (K (F := F)).lev ⊢ Transfers.MayWaits (thr d L) (default : HIx 1) O from
    (K (F := F)).mayWaits_none (thr := thr d L) hO) $$ Hlv
  iapply (wp_wand frame (wpE (defs₀ (F := F)) 𝒱₀ (thr d L) none) Set.univ) $$ [Hmw Ha Hb Ht Ho Hx H0 H1 H2 H3 H4 H5 Hy S8 S9 S10 S11 S12 S13 S14 Sc0 Sc1 HO]
  · iapply (h d L q O W I Tb fo fx f0 f1 f2 f3 f4 f5 fy hI)
    isplitl [Hmw]; · iexact Hmw
    isplitl [Ha]; · iexact Ha
    isplitl [Hb]; · iexact Hb
    isplitl [Ht]; · iexact Ht
    isplitl [Ho]; · iexact Ho
    isplitl [Hx]; · iexact Hx
    isplitl [H0]; · iexact H0
    isplitl [H1]; · iexact H1
    isplitl [H2]; · iexact H2
    isplitl [H3]; · iexact H3
    isplitl [H4]; · iexact H4
    isplitl [H5]; · iexact H5
    isplitl [Hy]; · iexact Hy
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [Sc0]; · iexact Sc0
    isplitl [Sc1]; · iexact Sc1
    iexact HO
  iintro %_ ⟨Ha, Hb, Ht, Ho, Hx, H0, H1, H2, H3, H4, H5, Hy, S8, S9, S10, S11, S12, S13, S14, Sc0, Sc1, HO⟩
  isplitl [Ha Hb Ht Ho]
  · isplitl [Ha]; · iexact Ha
    isplitl [Hb]; · iexact Hb
    isplitl [Ht]; · iexact Ht
    iexact Ho
  isplitl [Hx H0 H1 H2 H3 H4 H5 Hy Hbufs]
  · isplitl [Hx]; · iexact Hx
    isplitl [H0]; · iexact H0
    isplitl [H1]; · iexact H1
    isplitl [H2]; · iexact H2
    isplitl [H3]; · iexact H3
    isplitl [H4]; · iexact H4
    isplitl [H5]; · iexact H5
    isplitl [Hy]; · iexact Hy
    iexact Hbufs
  isplitl [S8 S9 S10 S11 S12 S13 S14 Sc0 Sc1 Hsems]
  · isplitl [S8]; · iexact S8
    isplitl [S9]; · iexact S9
    isplitl [S10]; · iexact S10
    isplitl [S11]; · iexact S11
    isplitl [S12]; · iexact S12
    isplitl [S13]; · iexact S13
    isplitl [S14]; · iexact S14
    isplitl [Sc0]; · iexact Sc0
    isplitl [Sc1]; · iexact Sc1
    iexact Hsems
  iexact HO

end Cert.Proof.KI

end
-- ==== Proof.KBLists.lean ====
import proofs.«206947_g65644280152286_cont_9to1_m_226_28_alg».proof.Proof.KBPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S4096x2x100 EltTy.i32)
local notation "oV" => (Memref.whole Cert.Kernel.main_v1_scv : Memref Cert.Kernel.sig Kind.scVector Space.hbm Cert.Kernel.S4096x128 EltTy.f32)
local notation "xV" => (Memref.whole Cert.Kernel.cc0_scratch0 : Memref Cert.Kernel.sig Kind.scVector Space.vmem Cert.Kernel.S128x2x100 EltTy.i32)
local notation "b0V" => (Memref.whole Cert.Kernel.cc0_scratch1 : Memref Cert.Kernel.sig Kind.scVector Space.vmem Cert.Kernel.S100x128 EltTy.f32)
local notation "b1V" => (Memref.whole Cert.Kernel.cc0_scratch2 : Memref Cert.Kernel.sig Kind.scVector Space.vmem Cert.Kernel.S100x128 EltTy.f32)
local notation "b2V" => (Memref.whole Cert.Kernel.cc0_scratch3 : Memref Cert.Kernel.sig Kind.scVector Space.vmem Cert.Kernel.S100x128 EltTy.f32)
local notation "b3V" => (Memref.whole Cert.Kernel.cc0_scratch4 : Memref Cert.Kernel.sig Kind.scVector Space.vmem Cert.Kernel.S100x128 EltTy.f32)
local notation "b4V" => (Memref.whole Cert.Kernel.cc0_scratch5 : Memref Cert.Kernel.sig Kind.scVector Space.vmem Cert.Kernel.S100x128 EltTy.f32)
local notation "b5V" => (Memref.whole Cert.Kernel.cc0_scratch6 : Memref Cert.Kernel.sig Kind.scVector Space.vmem Cert.Kernel.S100x128 EltTy.f32)
local notation "yV" => (Memref.whole Cert.Kernel.cc0_scratch7 : Memref Cert.Kernel.sig Kind.scVector Space.vmem Cert.Kernel.S128x128 EltTy.f32)

/-! The index scratch of a tile and its pieces: the two row ranges the index copies fill (rows 0–2, rows 3–127), the
    100-word lists the gathers read (row r, half h), the table as the gathers name it; which elements each holds. -/

abbrev xA : Memref sig .scVector .vmem S3x2x100 .i32 := (xV).slice (Rect.unit (s := S128x2x100) ![0, 0, 0] S3x2x100.size inb_S128x2x100_S3x2x100_0_0_0) (fun _ => rfl)
abbrev xB : Memref sig .scVector .vmem S125x2x100 .i32 := (xV).slice (Rect.unit (s := S128x2x100) ![3, 0, 0] S125x2x100.size inb_S128x2x100_S125x2x100_3_0_0) (fun _ => rfl)
abbrev cell (d : Dev nD) (L : grid0.Coords) (s : DmaSems sig S_) : GSem nD τ sig := (V d (cV L) (jV L), .dma s.sem)
/-- The table as the gathers name it: the whole array, sliced whole. -/
abbrev tAll : Memref sig .scVector .hbm S100000x128 .f32 := (tV).slice (Rect.unit (s := S100000x128) ![0, 0] S100000x128.size inb_S100000x128_S100000x128_0_0) (fun _ => rfl)
/-- An index list: 100 words of the index scratch from `off`. -/
abbrev lst (off : Fin 3 → Nat) (inb : ∀ a, off a + S1x1x100.size a ≤ S128x2x100.size a) : Memref sig .scVector .vmem S100 .i32 :=
  ((xV).slice (Rect.unit (s := S128x2x100) off S1x1x100.size inb) (fun _ => rfl)).squeeze S100 squeezes_S1x1x100_S100

theorem set_lst (off : Fin 3 → Nat) (inb : ∀ a, off a + S1x1x100.size a ≤ S128x2x100.size a) :
    (lst off inb).view.set = (Rect.unit (s := S128x2x100) off S1x1x100.size inb).set := by
  show (((xV).view.slice (Rect.unit (s := S128x2x100) off S1x1x100.size inb)).reshape S100 squeezes_S1x1x100_S100.numel_eq).set = _
  rw [View.set_reshape]; exact View.set_slice_whole _ _
theorem set_xA : (xA).view.set = (Rect.unit (s := S128x2x100) ![0, 0, 0] S3x2x100.size inb_S128x2x100_S3x2x100_0_0_0).set := View.set_slice_whole _ _
theorem set_xB : (xB).view.set = (Rect.unit (s := S128x2x100) ![3, 0, 0] S125x2x100.size inb_S128x2x100_S125x2x100_3_0_0).set := View.set_slice_whole _ _
theorem set_tAll : (tAll).view.set = Finset.univ := by
  rw [show (tAll).view.set = (Rect.unit (s := S100000x128) ![0, 0] S100000x128.size inb_S100000x128_S100000x128_0_0).set from View.set_slice_whole _ _]
  ext i; simp only [Finset.mem_univ, iff_true]
  exact Rect.mem_set_unit.mpr fun a => by
    have := (i a).isLt
    match a with
    | ⟨0, _⟩ => exact ⟨Nat.zero_le _, by simpa using this⟩
    | ⟨1, _⟩ => exact ⟨Nat.zero_le _, by simpa using this⟩

theorem unit_subset {s : Shape} {off size off' size' : Fin s.rank → Nat} {inb inb'}
    (h : ∀ a, off' a ≤ off a ∧ off a + size a ≤ off' a + size' a) :
    (Rect.unit (s := s) off size inb).set ⊆ (Rect.unit (s := s) off' size' inb').set := fun i hi =>
  Rect.mem_set_unit.mpr fun a => by have h1 := Rect.mem_set_unit.mp hi a; have h2 := h a; omega

/-- Membership by the row coordinate. -/
theorem mem_xA {i : S128x2x100.Idx} : i ∈ (xA).view.set ↔ (i 0).val < 3 := by
  rw [set_xA, Rect.mem_set_unit]
  constructor
  · intro h; have := h 0; simpa using this.2
  · intro h a
    have := (i a).isLt
    match a with
    | ⟨0, _⟩ => exact ⟨Nat.zero_le _, by simpa using h⟩
    | ⟨1, _⟩ => exact ⟨Nat.zero_le _, by simpa using this⟩
    | ⟨2, _⟩ => exact ⟨Nat.zero_le _, by simpa using this⟩
theorem mem_xB {i : S128x2x100.Idx} : i ∈ (xB).view.set ↔ 3 ≤ (i 0).val := by
  rw [set_xB, Rect.mem_set_unit]
  constructor
  · intro h; have := h 0; simpa using this.1
  · intro h a
    have := (i a).isLt
    match a with
    | ⟨0, _⟩ => exact ⟨by simpa using h, by simpa using this⟩
    | ⟨1, _⟩ => exact ⟨Nat.zero_le _, by simpa using this⟩
    | ⟨2, _⟩ => exact ⟨Nat.zero_le _, by simpa using this⟩
theorem mem_lst {off : Fin 3 → Nat} {inb : ∀ a, off a + S1x1x100.size a ≤ S128x2x100.size a} (h2 : off 2 = 0) {i : S128x2x100.Idx} :
    i ∈ (lst off inb).view.set ↔ (i 0).val = off 0 ∧ (i 1).val = off 1 := by
  rw [set_lst, Rect.mem_set_unit]
  constructor
  · intro h; have h0 := h 0; have h1 := h 1
    simp only [S1x1x100, Shape.size] at h0 h1
    constructor
    · have : off 0 ≤ (i 0).val ∧ (i 0).val < off 0 + 1 := by simpa using h0
      omega
    · have : off 1 ≤ (i 1).val ∧ (i 1).val < off 1 + 1 := by simpa using h1
      omega
  · intro ⟨e0, e1⟩ a
    have := (i a).isLt
    match a with
    | ⟨0, _⟩ => exact ⟨by show off 0 ≤ (i 0).val; omega, by show (i 0).val < off 0 + 1; omega⟩
    | ⟨1, _⟩ => exact ⟨by show off 1 ≤ (i 1).val; omega, by show (i 1).val < off 1 + 1; omega⟩
    | ⟨2, _⟩ => exact ⟨by show off 2 ≤ (i 2).val; omega, by
        show (i 2).val < off 2 + 100
        have : (i 2).val < 100 := by simpa using this
        omega⟩

/-- The global batch row of a tile's local row. -/
def rowG (L : grid0.Coords) (r : Fin 128) : Fin 4096 :=
  ⟨256 * (L 1).val + 128 * (L 0).val + r.val, by
    have h0 : (L 0).val < 2 := (L 0).isLt
    have h1 : (L 1).val < 16 := (L 1).isLt
    have := r.isLt
    omega⟩

/-- What the index scratch holds once both index copies have landed: the tile's 128 rows of the reshaped indices. -/
def Xc (d : Dev nD) (L : grid0.Coords) (I : Buf (Elt F) (iLoc d)) : Buf (Elt F) ((thr d L).loc cc0_scratch0) :=
  fun j => I (ValueIdx.ix3 (rowG L (j 0)) (j 1) (j 2))

end Cert.Proof.KB

end
-- ==== Proof.KBMainStmt.lean ====
import proofs.«206947_g65644280152286_cont_9to1_m_226_28_alg».proof.Proof.KBLists
import proofs.«206947_g65644280152286_cont_9to1_m_226_28_alg».proof.Proof.KSpec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S4096x2x100 EltTy.i32)
local notation "oV" => (Memref.whole Cert.Kernel.main_v1_scv : Memref Cert.Kernel.sig Kind.scVector Space.hbm Cert.Kernel.S4096x128 EltTy.f32)
local notation "xV" => (Memref.whole Cert.Kernel.cc0_scratch0 : Memref Cert.Kernel.sig Kind.scVector Space.vmem Cert.Kernel.S128x2x100 EltTy.i32)
local notation "b0V" => (Memref.whole Cert.Kernel.cc0_scratch1 : Memref Cert.Kernel.sig Kind.scVector Space.vmem Cert.Kernel.S100x128 EltTy.f32)
local notation "b1V" => (Memref.whole Cert.Kernel.cc0_scratch2 : Memref Cert.Kernel.sig Kind.scVector Space.vmem Cert.Kernel.S100x128 EltTy.f32)
local notation "b2V" => (Memref.whole Cert.Kernel.cc0_scratch3 : Memref Cert.Kernel.sig Kind.scVector Space.vmem Cert.Kernel.S100x128 EltTy.f32)
local notation "b3V" => (Memref.whole Cert.Kernel.cc0_scratch4 : Memref Cert.Kernel.sig Kind.scVector Space.vmem Cert.Kernel.S100x128 EltTy.f32)
local notation "b4V" => (Memref.whole Cert.Kernel.cc0_scratch5 : Memref Cert.Kernel.sig Kind.scVector Space.vmem Cert.Kernel.S100x128 EltTy.f32)
local notation "b5V" => (Memref.whole Cert.Kernel.cc0_scratch6 : Memref Cert.Kernel.sig Kind.scVector Space.vmem Cert.Kernel.S100x128 EltTy.f32)
local notation "yV" => (Memref.whole Cert.Kernel.cc0_scratch7 : Memref Cert.Kernel.sig Kind.scVector Space.vmem Cert.Kernel.S128x128 EltTy.f32)

variable [FloatOps F]

/-! The tile's body with everything it uses spelt out: the index rows, the table's share, the result rows, its eight scratch
    buffers at any contents and its nine DMA semaphores at zero — all handed back at the end, the result rows holding the fold. -/

def TileMain : Prop :=
  ∀ (d : Dev nD) (L : grid0.Coords) (q : PosShare TreeShare) (O : CellTallies nD τ sig (HIx 1)) (W : Waits sig (HIx 1))
    (I : Buf (Elt F) (iLoc d)) (Tb : Buf (Elt F) (tLoc d)) (fo : Buf (Elt F) (oLoc d))
    (fx : Buf (Elt F) ((thr d L).loc cc0_scratch0)) (f0 : Buf (Elt F) ((thr d L).loc cc0_scratch1)) (f1 : Buf (Elt F) ((thr d L).loc cc0_scratch2))
    (f2 : Buf (Elt F) ((thr d L).loc cc0_scratch3)) (f3 : Buf (Elt F) ((thr d L).loc cc0_scratch4)) (f4 : Buf (Elt F) ((thr d L).loc cc0_scratch5))
    (f5 : Buf (Elt F) ((thr d L).loc cc0_scratch6)) (fy : Buf (Elt F) ((thr d L).loc cc0_scratch7)), (∀ j, (I j).toNat < 100000) →
    (iprop(Transfers.MayWaits (thr d L) (default : HIx 1) O
        ∗ ((iA L).view.loc (thr d L) ↦[(iA L).view.set]{fullShare} I)
        ∗ ((iB L).view.loc (thr d L) ↦[(iB L).view.set]{fullShare} I)
        ∗ ((tV).view.loc (thr d L) ↦{q} Tb)
        ∗ ((oK L).view.loc (thr d L) ↦[(oK L).view.set]{fullShare} fo)
        ∗ ((xV).view.loc (thr d L) ↦{fullShare} fx)
        ∗ ((b0V).view.loc (thr d L) ↦{fullShare} f0) ∗ ((b1V).view.loc (thr d L) ↦{fullShare} f1) ∗ ((b2V).view.loc (thr d L) ↦{fullShare} f2)
        ∗ ((b3V).view.loc (thr d L) ↦{fullShare} f3) ∗ ((b4V).view.loc (thr d L) ↦{fullShare} f4) ∗ ((b5V).view.loc (thr d L) ↦{fullShare} f5)
        ∗ ((yV).view.loc (thr d L) ↦{fullShare} fy)
        ∗ semVal (cell d L cc0_scratch8) 0 ∗ semVal (cell d L cc0_scratch9) 0 ∗ semVal (cell d L cc0_scratch10) 0 ∗ semVal (cell d L cc0_scratch11) 0
        ∗ semVal (cell d L cc0_scratch12) 0 ∗ semVal (cell d L cc0_scratch13) 0 ∗ semVal (cell d L cc0_scratch14) 0
        ∗ semVal (cell d L cc0_scoped0) 0 ∗ semVal (cell d L cc0_scoped1) 0
        ∗ owes (thr d L) O W) : sProp 𝕄)
      ⊢ wp frame (wpE (defs₀ (F := F)) 𝒱₀ (thr d L) none) Set.univ
          (cc0_k L tV (Memref.isWhole_whole _) iV (Memref.isWhole_whole _) oV (Memref.isWhole_whole _)
            xV (Memref.isWhole_whole _) b0V (Memref.isWhole_whole _) b1V (Memref.isWhole_whole _) b2V (Memref.isWhole_whole _)
            b3V (Memref.isWhole_whole _) b4V (Memref.isWhole_whole _) b5V (Memref.isWhole_whole _) yV (Memref.isWhole_whole _)
            cc0_scratch8 cc0_scratch9 cc0_scratch10 cc0_scratch11 cc0_scratch12 cc0_scratch13 cc0_scratch14 cc0_scoped0 cc0_scoped1)
          fun _ => iprop(((iA L).view.loc (thr d L) ↦[(iA L).view.set]{fullShare} I)
            ∗ ((iB L).view.loc (thr d L) ↦[(iB L).view.set]{fullShare} I)
            ∗ ((tV).view.loc (thr d L) ↦{q} Tb)
            ∗ (∃ f : Buf (Elt F) (oLoc d), ((oK L).view.loc (thr d L) ↦[(oK L).view.set]{fullShare} f) ∗ ⌜∀ j ∈ (oK L).view.set, f j = KSpec.kres (F := F) I Tb j⌝)
            ∗ (∃ f, (xV).view.loc (thr d L) ↦{fullShare} f)
            ∗ (∃ f, (b0V).view.loc (thr d L) ↦{fullShare} f) ∗ (∃ f, (b1V).view.loc (thr d L) ↦{fullShare} f) ∗ (∃ f, (b2V).view.loc (thr d L) ↦{fullShare} f)
            ∗ (∃ f, (b3V).view.loc (thr d L) ↦{fullShare} f) ∗ (∃ f, (b4V).view.loc (thr d L) ↦{fullShare} f) ∗ (∃ f, (b5V).view.loc (thr d L) ↦{fullShare} f)
            ∗ (∃ f, (yV).view.loc (thr d L) ↦{fullShare} f)
            ∗ semVal (cell d L cc0_scratch8) 0 ∗ semVal (cell d L cc0_scratch9) 0 ∗ semVal (cell d L cc0_scratch10) 0 ∗ semVal (cell d L cc0_scratch11) 0
            ∗ semVal (cell d L cc0_scratch12) 0 ∗ semVal (cell d L cc0_scratch13) 0 ∗ semVal (cell d L cc0_scratch14) 0
            ∗ semVal (cell d L cc0_scoped0) 0 ∗ semVal (cell d L cc0_scoped1) 0
            ∗ ∃ W', ⌜∀ p ∈ W', p ∈ W ∨ p.2 = none⌝ ∗ owes (thr d L) O W')

end Cert.Proof.KB

end
-- ==== Proof.KBWrap.lean ====
/-
  The tile's body at the launch's spelling, from the body with every resource spelt out.

  A tile is handed its operands beside its own scoped storage: all of its own buffers, each at some contents, and all
  of its own semaphores at zero. The body uses eight of the buffers and nine of the semaphores; the others go around
  it untouched, and at the end the storage is whole again: the used buffers at whatever the body left, the used
  semaphores back at zero.
-/
import proofs.«206947_g65644280152286_cont_9to1_m_226_28_alg».proof.Proof.KBMainStmt
import proofs.«206947_g65644280152286_cont_9to1_m_226_28_alg».proof.Proof.KBOwn
import proofs.«206947_g65644280152286_cont_9to1_m_226_28_alg».proof.Proof.KBPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

set_option maxRecDepth 16384 in
set_option maxHeartbeats 1000000 in
theorem tileBody_of_main (h : TileMain (F := F)) : TileBody (F := F) := by
  intro d L q I Tb fo hI O W hO
  unfold tileGo tileTd
  rw [(K (F := F)).scopedBufs_V facts d (cV L) (jV L), SparseCore.Cfg.scopedSems0_V (Val := Elt F) d (cV L) (jV L), ownSems0_V, ownBufs_V]
  iintro ⟨#Hlv, -, ⟨Ha, Hb, Ht, Ho⟩, ⟨⟨%fx, Hx⟩, ⟨%f0, H0⟩, ⟨%f1, H1⟩, ⟨%f2, H2⟩, ⟨%f3, H3⟩, ⟨%f4, H4⟩, ⟨%f5, H5⟩, ⟨%fy, Hy⟩, Hbufs⟩, ⟨S8, S9, S10, S11, S12, S13, S14, Sc0, Sc1, Hsems⟩, HO⟩
  ihave Hmw := (show levAts (K (F := F)).L (K (F := F)).lev ⊢ Transfers.MayWaits (thr d L) (default : HIx 1) O from
    (K (F := F)).mayWaits_none (thr := thr d L) hO) $$ Hlv
  iapply (wp_wand frame (wpE (defs₀ (F := F)) 𝒱₀ (thr d L) none) Set.univ) $$ [Hmw Ha Hb Ht Ho Hx H0 H1 H2 H3 H4 H5 Hy S8 S9 S10 S11 S12 S13 S14 Sc0 Sc1 HO]
  · iapply (h d L q O W I Tb fo fx f0 f1 f2 f3 f4 f5 fy hI)
    isplitl [Hmw]; · iexact Hmw
    isplitl [Ha]; · iexact Ha
    isplitl [Hb]; · iexact Hb
    isplitl [Ht]; · iexact Ht
    isplitl [Ho]; · iexact Ho
    isplitl [Hx]; · iexact Hx
    isplitl [H0]; · iexact H0
    isplitl [H1]; · iexact H1
    isplitl [H2]; · iexact H2
    isplitl [H3]; · iexact H3
    isplitl [H4]; · iexact H4
    isplitl [H5]; · iexact H5
    isplitl [Hy]; · iexact Hy
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [Sc0]; · iexact Sc0
    isplitl [Sc1]; · iexact Sc1
    iexact HO
  iintro %_ ⟨Ha, Hb, Ht, Ho, Hx, H0, H1, H2, H3, H4, H5, Hy, S8, S9, S10, S11, S12, S13, S14, Sc0, Sc1, HO⟩
  isplitl [Ha Hb Ht Ho]
  · isplitl [Ha]; · iexact Ha
    isplitl [Hb]; · iexact Hb
    isplitl [Ht]; · iexact Ht
    iexact Ho
  isplitl [Hx H0 H1 H2 H3 H4 H5 Hy Hbufs]
  · isplitl [Hx]; · iexact Hx
    isplitl [H0]; · iexact H0
    isplitl [H1]; · iexact H1
    isplitl [H2]; · iexact H2
    isplitl [H3]; · iexact H3
    isplitl [H4]; · iexact H4
    isplitl [H5]; · iexact H5
    isplitl [Hy]; · iexact Hy
    iexact Hbufs
  isplitl [S8 S9 S10 S11 S12 S13 S14 Sc0 Sc1 Hsems]
  · isplitl [S8]; · iexact S8
    isplitl [S9]; · iexact S9
    isplitl [S10]; · iexact S10
    isplitl [S11]; · iexact S11
    isplitl [S12]; · iexact S12
    isplitl [S13]; · iexact S13
    isplitl [S14]; · iexact S14
    isplitl [Sc0]; · iexact Sc0
    isplitl [Sc1]; · iexact Sc1
    iexact Hsems
  iexact HO

end Cert.Proof.KB

end
-- ==== Proof.KIAcc.lean ====
import proofs.«206947_g65644280152286_cont_9to1_m_226_28_alg».proof.Proof.KILists
import proofs.«206947_g65644280152286_cont_9to1_m_226_28_alg».proof.Proof.KSpec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S4096x2x100 EltTy.i32)
local notation "oV" => (Memref.whole Cert.KernelIdeal.main_v1_scv : Memref Cert.KernelIdeal.sig Kind.scVector Space.hbm Cert.KernelIdeal.S4096x128 EltTy.f32)
local notation "xV" => (Memref.whole Cert.KernelIdeal.cc0_scratch0 : Memref Cert.KernelIdeal.sig Kind.scVector Space.vmem Cert.KernelIdeal.S128x2x100 EltTy.i32)
local notation "b0V" => (Memref.whole Cert.KernelIdeal.cc0_scratch1 : Memref Cert.KernelIdeal.sig Kind.scVector Space.vmem Cert.KernelIdeal.S100x128 EltTy.f32)
local notation "b1V" => (Memref.whole Cert.KernelIdeal.cc0_scratch2 : Memref Cert.KernelIdeal.sig Kind.scVector Space.vmem Cert.KernelIdeal.S100x128 EltTy.f32)
local notation "b2V" => (Memref.whole Cert.KernelIdeal.cc0_scratch3 : Memref Cert.KernelIdeal.sig Kind.scVector Space.vmem Cert.KernelIdeal.S100x128 EltTy.f32)
local notation "b3V" => (Memref.whole Cert.KernelIdeal.cc0_scratch4 : Memref Cert.KernelIdeal.sig Kind.scVector Space.vmem Cert.KernelIdeal.S100x128 EltTy.f32)
local notation "b4V" => (Memref.whole Cert.KernelIdeal.cc0_scratch5 : Memref Cert.KernelIdeal.sig Kind.scVector Space.vmem Cert.KernelIdeal.S100x128 EltTy.f32)
local notation "b5V" => (Memref.whole Cert.KernelIdeal.cc0_scratch6 : Memref Cert.KernelIdeal.sig Kind.scVector Space.vmem Cert.KernelIdeal.S100x128 EltTy.f32)
local notation "yV" => (Memref.whole Cert.KernelIdeal.cc0_scratch7 : Memref Cert.KernelIdeal.sig Kind.scVector Space.vmem Cert.KernelIdeal.S128x128 EltTy.f32)

variable [FloatOps F]

/-! The eight running maxima a tile carries through one gathered buffer: column chunk c (16 lanes) of the buffer's 100
    rows folded into the chunk's accumulator, lane by lane, in the 25 steps of KSpec.halfFold. -/

/-- The eight accumulators (one 16-lane vector per column chunk). -/
abbrev T8 (F : FTy → Type) : Type :=
  FVec F S16 .f32 × FVec F S16 .f32 × FVec F S16 .f32 × FVec F S16 .f32 × FVec F S16 .f32 × FVec F S16 .f32 × FVec F S16 .f32 × FVec F S16 .f32

/-- Lane `t` of chunk `c` is column 16·c + t. -/
def colOf (c : Fin 8) (t : Fin 16) : Fin 128 := ⟨16 * c.val + t.val, by have := c.isLt; have := t.isLt; omega⟩

/-- Chunk `c`'s accumulator after the first `n` steps through the buffer `g`. -/
def colUpTo (g : S100x128.Idx → F .f32) (c : Fin 8) (a : FVec F S16 .f32) (n : ℕ) (hn : n ≤ 25) : FVec F S16 .f32 :=
  fun i => KSpec.halfUpTo (fun j : Fin 100 => g (ValueIdx.ix2 j (colOf c (i 0)))) (a i) n hn

/-- Chunk `c`'s accumulator after the whole buffer. -/
def colFold (g : S100x128.Idx → F .f32) (c : Fin 8) (a : FVec F S16 .f32) : FVec F S16 .f32 := colUpTo g c a 25 (Nat.le_refl _)

/-- All eight after the first `n` steps, and after the whole buffer. -/
def accsUpTo (g : S100x128.Idx → F .f32) (a : T8 F) (n : ℕ) (hn : n ≤ 25) : T8 F :=
  (colUpTo g 0 a.1 n hn, colUpTo g 1 a.2.1 n hn, colUpTo g 2 a.2.2.1 n hn, colUpTo g 3 a.2.2.2.1 n hn, colUpTo g 4 a.2.2.2.2.1 n hn,
    colUpTo g 5 a.2.2.2.2.2.1 n hn, colUpTo g 6 a.2.2.2.2.2.2.1 n hn, colUpTo g 7 a.2.2.2.2.2.2.2 n hn)
def accsOut (g : S100x128.Idx → F .f32) (a : T8 F) : T8 F := accsUpTo g a 25 (Nat.le_refl _)

end Cert.Proof.KI

end
-- ==== Proof.KILand.lean ====
/-
  Index-level facts about one tile's index scratch and its gathers.
  A 100-word list of the scratch at offset (r, h, 0) reads, at position x, the scratch word (r, h, x): the list is the
  unit-stride box [1, 1, 100] from the offset, re-indexed by the shape [100], and position x of [100] is (0, 0, x) of
  [1, 1, 100] in row-major order. Once the scratch holds the tile's rows of the reshaped indices every such word is an
  index word, hence below 100000. A gather through such a list delivers, at (j, c), the table entry at the row the
  list's j-th word names and column c: the table is named whole (its box is the identity on indices), position j of
  the list in row-major order is j, and a word below 100000 names the row of its own value.
  The two index copies: the first writes the tile's index rows 0–2 (batch rows base + r, base = 256·s + 128·c) to scratch
  rows 0–2, the second the rows 3–127 (batch rows base + 3 + r) to scratch rows 3 + r; in both the landed element at a
  scratch index j is the reshaped index at (base + j₀, j₁, j₂).
-/
import proofs.«206947_g65644280152286_cont_9to1_m_226_28_alg».proof.Proof.KILists

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "tV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S4096x2x100 EltTy.i32)
local notation "xV" => (Memref.whole Cert.KernelIdeal.cc0_scratch0 : Memref Cert.KernelIdeal.sig Kind.scVector Space.vmem Cert.KernelIdeal.S128x2x100 EltTy.i32)

variable (d : Dev nD) (L : grid0.Coords)

/-- A position `x` of a 100-word list matched with the shape [1, 1, 100] is (0, 0, x). -/
theorem reshape_100 (hh : S100.numel = S1x1x100.numel) (x : S100.Idx) :
    Shape.reshapeEquiv hh x = ValueIdx.ix3 (n0 := 1) (n1 := 1) (n2 := 100) ⟨0, Nat.one_pos⟩ ⟨0, Nat.one_pos⟩ (x 0) :=
  Shape.reshapeEquiv_eq_of_rowMajor hh (by
    rw [Shape.rowMajor_val_three, Shape.rowMajor_val_one]
    show ((0 * 1 + 0) * 100 + (x 0).val) = (x 0).val
    omega)

/-- Where position `x` of the list at offset (r, h, 0) sits in the scratch: at (r, h, x). -/
theorem lst_emb {off : Fin 3 → Nat} {inb : ∀ a, off a + S1x1x100.size a ≤ S128x2x100.size a} (r : Fin 128) (h : Fin 2)
    (h0 : off 0 = r.val) (h1 : off 1 = h.val) (h2 : off 2 = 0) (x : S100.Idx) :
    (lst off inb).view.emb x = ValueIdx.ix3 (n2 := 100) r h (x 0) := by
  show (Rect.unit (s := S128x2x100) off S1x1x100.size inb).emb (Shape.reshapeEquiv squeezes_S1x1x100_S100.numel_eq x) = _
  rw [reshape_100]
  funext a; apply Fin.ext
  rw [Rect.emb_apply]
  match a with
  | ⟨0, _⟩ => show off 0 + 1 * 0 = r.val; omega
  | ⟨1, _⟩ => show off 1 + 1 * 0 = h.val; omega
  | ⟨2, _⟩ => show off 2 + 1 * (x 0).val = (x 0).val; omega

/-- The list at offset (r, h, 0) reads the scratch word (r, h, x) at position `x`. -/
theorem lst_read {off : Fin 3 → Nat} {inb : ∀ a, off a + S1x1x100.size a ≤ S128x2x100.size a} (r : Fin 128) (h : Fin 2)
    (h0 : off 0 = r.val) (h1 : off 1 = h.val) (h2 : off 2 = 0)
    (X : Buf (Elt F) ((thr d L).loc cc0_scratch0)) (x : S100.Idx) :
    (lst off inb).view.read (Elt F) X x = X (ValueIdx.ix3 r h (x 0)) := by
  rw [View.read_apply, lst_emb r h h0 h1 h2 x]
  rfl

/-- Over the landed scratch every word of a list is below the table's row count. -/
theorem lst_inb {off : Fin 3 → Nat} {inb : ∀ a, off a + S1x1x100.size a ≤ S128x2x100.size a} (r : Fin 128) (h : Fin 2)
    (h0 : off 0 = r.val) (h1 : off 1 = h.val) (h2 : off 2 = 0)
    (I : Buf (Elt F) (iLoc d)) (hI : ∀ j, (I j).toNat < 100000) :
    ∀ x, ((lst off inb).view.read (Elt F) (Xc d L I) x).toNat < S100000x128.size gathers_S100000x128_S100x128.axis := by
  intro x
  rw [lst_read d L r h h0 h1 h2]
  exact hI _

/-- The gathered entry (j, c) is the table at the row the list's j-th word names, column c. -/
theorem gather_clean {off : Fin 3 → Nat} {inb : ∀ a, off a + S1x1x100.size a ≤ S128x2x100.size a} (r : Fin 128) (h : Fin 2)
    (h0 : off 0 = r.val) (h1 : off 1 = h.val) (h2 : off 2 = 0)
    (X : Buf (Elt F) ((thr d L).loc cc0_scratch0)) (Tb : Buf (Elt F) (tLoc d))
    (hn : S100.numel = S100x128.size gathers_S100000x128_S100x128.axis')
    (hin : ∀ x, ((lst off inb).view.read (Elt F) X x).toNat < S100000x128.size gathers_S100000x128_S100x128.axis)
    (y : S100x128.Idx) :
    SparseCore.gatherPayload gathers_S100000x128_S100x128 ((tAll).view.read (Elt F) Tb)
      (SparseCore.rows ((lst off inb).view.read (Elt F) X) hn hin) y
      = Tb (ValueIdx.ix2 (Spec.rowOf (X (ValueIdx.ix3 r h (y 0)))) (y 1)) := by
  have hx0 : ∀ k : Fin S100.numel, ((S100.rowMajor.symm k) 0).val = k.val := by
    intro k
    have e := Shape.rowMajor_val_one (d := ![100]) (S100.rowMajor.symm k)
    rw [Equiv.apply_symm_apply] at e
    exact e.symm
  have hxy : (S100.rowMajor.symm ((y gathers_S100000x128_S100x128.axis').cast hn.symm)) 0 = y 0 :=
    Fin.ext (by rw [hx0]; rfl)
  have hw : (X (ValueIdx.ix3 r h (y 0))).toNat < 100000 := by
    have e := hin (S100.rowMajor.symm ((y gathers_S100000x128_S100x128.axis').cast hn.symm))
    rw [lst_read d L r h h0 h1 h2 X, hxy] at e
    exact e
  have hrow : (SparseCore.rows ((lst off inb).view.read (Elt F) X) hn hin (y gathers_S100000x128_S100x128.axis')).val
      = (Spec.rowOf (X (ValueIdx.ix3 r h (y 0)))).val := by
    rw [Spec.rowOf_val hw]
    show ((lst off inb).view.read (Elt F) X (S100.rowMajor.symm ((y gathers_S100000x128_S100x128.axis').cast hn.symm))).toNat = _
    rw [lst_read d L r h h0 h1 h2 X, hxy]
  have he : (tAll).view.emb (gathers_S100000x128_S100x128.idx (SparseCore.rows ((lst off inb).view.read (Elt F) X) hn hin) y)
      = ValueIdx.ix2 (n0 := 100000) (n1 := 128) (Spec.rowOf (X (ValueIdx.ix3 r h (y 0)))) (y 1) := by
    funext b; apply Fin.ext
    show ((Rect.unit (s := S100000x128) ![0, 0] S100000x128.size inb_S100000x128_S100000x128_0_0).emb _ b).val = _
    rw [Rect.emb_apply]
    match b with
    | ⟨0, _⟩ =>
      show 0 + 1 * (gathers_S100000x128_S100x128.idx _ y gathers_S100000x128_S100x128.axis).val = _
      rw [Shape.Gathers.idx_axis, hrow, Nat.zero_add, Nat.one_mul]
    | ⟨1, _⟩ =>
      show 0 + 1 * (gathers_S100000x128_S100x128.idx _ y ⟨1, by decide⟩).val = (y 1).val
      rw [Shape.Gathers.idx_of_ne _ _ _ _ (by decide)]
      show 0 + 1 * (y 1).val = (y 1).val
      omega
  unfold SparseCore.gatherPayload
  rw [View.read_apply, he]
  rfl

/-- What the first index copy lands: on scratch rows 0–2, the tile's rows of the reshaped indices. -/
theorem landA (fx : Buf (Elt F) ((thr d L).loc cc0_scratch0)) (I : Buf (Elt F) (iLoc d)) :
    ∀ j ∈ (xA).view.set, (xA).view.writes (Elt F) fx [⟨Rect.whole S3x2x100, ReadAs.same.apply ((iA L).view.read (Elt F) I)⟩] j = Xc d L I j := by
  intro j hj
  obtain ⟨x, -, rfl⟩ := Finset.mem_map.mp hj
  have e : (xA).view.emb x = ((xA).view.slice (Rect.whole S3x2x100)).emb x := by
    show _ = (xA).view.emb ((Rect.whole S3x2x100).emb x)
    rw [Rect.emb_whole_apply]
  have hi : (iA L).view.emb x
      = ValueIdx.ix3 (n0 := 4096) (n1 := 2) (n2 := 100) (rowG L ⟨(x 0).val, by have := (x 0).isLt; simp at this; omega⟩) (x 1) (x 2) := by
    funext a; apply Fin.ext
    show ((Rect.unit (s := S4096x2x100) (k0_off1 L) S3x2x100.size (k0_off1_inb L)).emb x a).val = _
    rw [Rect.emb_apply]
    show k0_off1 L a + 1 * (x a).val = _
    rw [k0_off1_eq]
    match a with
    | ⟨0, _⟩ => show 256 * (L 1).val + 128 * (L 0).val + 1 * (x 0).val = 256 * (L 1).val + 128 * (L 0).val + (x 0).val; omega
    | ⟨1, _⟩ => show 0 + 1 * (x 1).val = (x 1).val; omega
    | ⟨2, _⟩ => show 0 + 1 * (x 2).val = (x 2).val; omega
  rw [View.writes_singleton]
  conv_lhs => rw [e]
  rw [View.write_emb_of_mem _ _ (Finset.mem_univ _)]
  show _root_.cast _ ((iA L).view.read (Elt F) I x) = _
  rw [View.read_apply, hi]
  have hX : Xc d L I ((xA).view.emb x)
      = I (ValueIdx.ix3 (n0 := 4096) (n1 := 2) (n2 := 100) (rowG L ⟨(x 0).val, by have := (x 0).isLt; simp at this; omega⟩) (x 1) (x 2)) := by
    unfold Xc
    congr 1
    funext a; apply Fin.ext
    match a with
    | ⟨0, _⟩ => show 256 * (L 1).val + 128 * (L 0).val + (0 + 1 * (x 0).val) = 256 * (L 1).val + 128 * (L 0).val + (x 0).val; omega
    | ⟨1, _⟩ => show 0 + 1 * (x 1).val = (x 1).val; omega
    | ⟨2, _⟩ => show 0 + 1 * (x 2).val = (x 2).val; omega
  rw [hX]
  rfl

/-- What the second index copy lands: on scratch rows 3–127, the tile's rows of the reshaped indices. -/
theorem landB (fx : Buf (Elt F) ((thr d L).loc cc0_scratch0)) (I : Buf (Elt F) (iLoc d)) :
    ∀ j ∈ (xB).view.set, (xB).view.writes (Elt F) fx [⟨Rect.whole S125x2x100, ReadAs.same.apply ((iB L).view.read (Elt F) I)⟩] j = Xc d L I j := by
  intro j hj
  obtain ⟨x, -, rfl⟩ := Finset.mem_map.mp hj
  have e : (xB).view.emb x = ((xB).view.slice (Rect.whole S125x2x100)).emb x := by
    show _ = (xB).view.emb ((Rect.whole S125x2x100).emb x)
    rw [Rect.emb_whole_apply]
  have hi : (iB L).view.emb x
      = ValueIdx.ix3 (n0 := 4096) (n1 := 2) (n2 := 100) (rowG L ⟨3 + (x 0).val, by have := (x 0).isLt; simp at this; omega⟩) (x 1) (x 2) := by
    funext a; apply Fin.ext
    show ((Rect.unit (s := S4096x2x100) (k0_off2 L) S125x2x100.size (k0_off2_inb L)).emb x a).val = _
    rw [Rect.emb_apply]
    show k0_off2 L a + 1 * (x a).val = _
    rw [k0_off2_eq]
    match a with
    | ⟨0, _⟩ => show 256 * (L 1).val + 128 * (L 0).val + 3 + 1 * (x 0).val = 256 * (L 1).val + 128 * (L 0).val + (3 + (x 0).val); omega
    | ⟨1, _⟩ => show 0 + 1 * (x 1).val = (x 1).val; omega
    | ⟨2, _⟩ => show 0 + 1 * (x 2).val = (x 2).val; omega
  rw [View.writes_singleton]
  conv_lhs => rw [e]
  rw [View.write_emb_of_mem _ _ (Finset.mem_univ _)]
  show _root_.cast _ ((iB L).view.read (Elt F) I x) = _
  rw [View.read_apply, hi]
  have hX : Xc d L I ((xB).view.emb x)
      = I (ValueIdx.ix3 (n0 := 4096) (n1 := 2) (n2 := 100) (rowG L ⟨3 + (x 0).val, by have := (x 0).isLt; simp at this; omega⟩) (x 1) (x 2)) := by
    unfold Xc
    congr 1
    funext a; apply Fin.ext
    match a with
    | ⟨0, _⟩ => show 256 * (L 1).val + 128 * (L 0).val + (3 + 1 * (x 0).val) = 256 * (L 1).val + 128 * (L 0).val + (3 + (x 0).val); omega
    | ⟨1, _⟩ => show 0 + 1 * (x 1).val = (x 1).val; omega
    | ⟨2, _⟩ => show 0 + 1 * (x 2).val = (x 2).val; omega
  rw [hX]
  rfl

end Cert.Proof.KI

end
-- ==== Proof.KICell.lean ====
import proofs.«206947_g65644280152286_cont_9to1_m_226_28_alg».proof.Proof.KIAcc
import proofs.«206947_g65644280152286_cont_9to1_m_226_28_alg».proof.Proof.KILand

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S4096x2x100 EltTy.i32)
local notation "oV" => (Memref.whole Cert.KernelIdeal.main_v1_scv : Memref Cert.KernelIdeal.sig Kind.scVector Space.hbm Cert.KernelIdeal.S4096x128 EltTy.f32)
local notation "xV" => (Memref.whole Cert.KernelIdeal.cc0_scratch0 : Memref Cert.KernelIdeal.sig Kind.scVector Space.vmem Cert.KernelIdeal.S128x2x100 EltTy.i32)
local notation "b0V" => (Memref.whole Cert.KernelIdeal.cc0_scratch1 : Memref Cert.KernelIdeal.sig Kind.scVector Space.vmem Cert.KernelIdeal.S100x128 EltTy.f32)
local notation "b1V" => (Memref.whole Cert.KernelIdeal.cc0_scratch2 : Memref Cert.KernelIdeal.sig Kind.scVector Space.vmem Cert.KernelIdeal.S100x128 EltTy.f32)
local notation "b2V" => (Memref.whole Cert.KernelIdeal.cc0_scratch3 : Memref Cert.KernelIdeal.sig Kind.scVector Space.vmem Cert.KernelIdeal.S100x128 EltTy.f32)
local notation "b3V" => (Memref.whole Cert.KernelIdeal.cc0_scratch4 : Memref Cert.KernelIdeal.sig Kind.scVector Space.vmem Cert.KernelIdeal.S100x128 EltTy.f32)
local notation "b4V" => (Memref.whole Cert.KernelIdeal.cc0_scratch5 : Memref Cert.KernelIdeal.sig Kind.scVector Space.vmem Cert.KernelIdeal.S100x128 EltTy.f32)
local notation "b5V" => (Memref.whole Cert.KernelIdeal.cc0_scratch6 : Memref Cert.KernelIdeal.sig Kind.scVector Space.vmem Cert.KernelIdeal.S100x128 EltTy.f32)
local notation "yV" => (Memref.whole Cert.KernelIdeal.cc0_scratch7 : Memref Cert.KernelIdeal.sig Kind.scVector Space.vmem Cert.KernelIdeal.S128x128 EltTy.f32)

variable [FloatOps F]

/-! Read shares: a points-to split into six tokens and what is left. -/
section Shares
variable {ℓ : Loc nD τ sig} {S : Finset (Idx ℓ)} {f : Buf (Elt F) ℓ}

omit [FloatOps F] in
theorem drop_succ (q : PosShare TreeShare) (k : ℕ) :
    (ℓ ↦[S]{Transfers.shareDrop q k} f : sProp 𝕄) ⊣⊢ iprop((ℓ ↦[S]{Transfers.shareDrop q (k + 1)} f) ∗ ℓ ↦[S]{Transfers.shareTokN q k} f) :=
  pointsTo_share (PosShare.mem_left_op_right (Transfers.shareDrop q k))

omit [FloatOps F] in
theorem drop0 (q : PosShare TreeShare) :
    (ℓ ↦[S]{q} f : sProp 𝕄) ⊣⊢ iprop((ℓ ↦[S]{Transfers.shareDrop q 1} f) ∗ ℓ ↦[S]{Transfers.shareTokN q 0} f) := drop_succ q 0

omit [FloatOps F] in
theorem toks6 (q : PosShare TreeShare) :
    (ℓ ↦[S]{q} f : sProp 𝕄) ⊣⊢ iprop((ℓ ↦[S]{Transfers.shareDrop q 6} f) ∗ (ℓ ↦[S]{Transfers.shareTokN q 0} f) ∗ (ℓ ↦[S]{Transfers.shareTokN q 1} f)
      ∗ (ℓ ↦[S]{Transfers.shareTokN q 2} f) ∗ (ℓ ↦[S]{Transfers.shareTokN q 3} f) ∗ (ℓ ↦[S]{Transfers.shareTokN q 4} f) ∗ (ℓ ↦[S]{Transfers.shareTokN q 5} f)) := by
  constructor
  · iintro H
    ihave H := (drop0 (F := F) q).1 $$ H
    icases H with ⟨H, T0⟩
    ihave H := (drop_succ (F := F) q 1).1 $$ H
    icases H with ⟨H, T1⟩
    ihave H := (drop_succ (F := F) q 2).1 $$ H
    icases H with ⟨H, T2⟩
    ihave H := (drop_succ (F := F) q 3).1 $$ H
    icases H with ⟨H, T3⟩
    ihave H := (drop_succ (F := F) q 4).1 $$ H
    icases H with ⟨H, T4⟩
    ihave H := (drop_succ (F := F) q 5).1 $$ H
    icases H with ⟨H, T5⟩
    isplitl [H]; · iexact H
    isplitl [T0]; · iexact T0
    isplitl [T1]; · iexact T1
    isplitl [T2]; · iexact T2
    isplitl [T3]; · iexact T3
    isplitl [T4]; · iexact T4
    iexact T5
  · iintro ⟨H, T0, T1, T2, T3, T4, T5⟩
    ihave H := (drop_succ (F := F) q 5).2 $$ [H T5]
    · isplitl [H] <;> iassumption
    ihave H := (drop_succ (F := F) q 4).2 $$ [H T4]
    · isplitl [H] <;> iassumption
    ihave H := (drop_succ (F := F) q 3).2 $$ [H T3]
    · isplitl [H] <;> iassumption
    ihave H := (drop_succ (F := F) q 2).2 $$ [H T2]
    · isplitl [H] <;> iassumption
    ihave H := (drop_succ (F := F) q 1).2 $$ [H T1]
    · isplitl [H] <;> iassumption
    ihave H := (drop0 (F := F) q).2 $$ [H T0]
    · isplitl [H] <;> iassumption
    iexact H
end Shares

/-! One gather in flight on a cell: what it will deliver. -/
section Cell
variable (d : Dev nD) (L : grid0.Coords)

/-- The gathered buffer for the tile's local row `r`, half `h`: entry (j, c) is the table at the row the j-th index word names, column c. -/
def Gc (Tb : Buf (Elt F) (tLoc d)) (X : Buf (Elt F) ((thr d L).loc cc0_scratch0)) (r : Fin 128) (h : Fin 2) : S100x128.Idx → F .f32 :=
  fun y => Tb (ValueIdx.ix2 (Spec.rowOf (X (ValueIdx.ix3 r h (y 0)))) (y 1))

/-- The 100 words of the index scratch at row `r`, half `h`. -/
def lstSet (r : Fin 128) (h : Fin 2) : Finset S128x2x100.Idx := Finset.univ.filter fun i => (i 0).val = r.val ∧ (i 1).val = h.val

omit [FloatOps F] in
theorem set_lst_eq {off : Fin 3 → Nat} {inb : ∀ a, off a + S1x1x100.size a ≤ S128x2x100.size a} (r : Fin 128) (h : Fin 2)
    (h0 : off 0 = r.val) (h1 : off 1 = h.val) (h2 : off 2 = 0) : (lst off inb).view.set = lstSet r h := by
  ext i; rw [mem_lst h2, h0, h1]; simp [lstSet]

/-- A gather pending on cell `sem` into `dst`: at its wait it delivers the buffer holding `g`, the table's read share and the list's. -/
def Pend (dst : Memref sig .scVector .vmem S100x128 .f32) (sem : DmaSem sig) (qT qX : PosShare TreeShare)
    (Tb : Buf (Elt F) (tLoc d)) (X : Buf (Elt F) ((thr d L).loc cc0_scratch0)) (g : Buf (Elt F) (dst.view.loc (thr d L))) (r : Fin 128) (h : Fin 2) : sProp 𝕄 :=
  Transfers.Flight countersEmb (thr d L) (.dma sem) (default : HIx 1) dst.view.dmaCredit
    iprop((dst.view.loc (thr d L) ↦{fullShare} g) ∗ ((tV).view.loc (thr d L) ↦{qT} Tb) ∗ ((xV).view.loc (thr d L) ↦[lstSet r h]{qX} X))

theorem pend_intro_b0 {off : Fin 3 → Nat} {inb : ∀ a, off a + S1x1x100.size a ≤ S128x2x100.size a} (r : Fin 128) (h : Fin 2)
    (h0 : off 0 = r.val) (h1 : off 1 = h.val) (h2 : off 2 = 0) (qT qX : PosShare TreeShare)
    (Tb : Buf (Elt F) (tLoc d)) (X : Buf (Elt F) ((thr d L).loc cc0_scratch0)) (fd : Buf (Elt F) ((b0V).view.loc (thr d L)))
    (hn : S100.numel = S100x128.size gathers_S100000x128_S100x128.axis')
    (hin : ∀ x, ((lst off inb).view.read (Elt F) X x).toNat < S100000x128.size gathers_S100000x128_S100x128.axis) :
    (Transfers.Flight countersEmb (thr d L) (.dma cc0_scratch8.sem) (default : HIx 1) (b0V).view.dmaCredit
      iprop(((b0V).view.loc (thr d L) ↦[(b0V).view.set]{fullShare}
              View.write (Elt F) (b0V).view fd (SparseCore.gatherPayload gathers_S100000x128_S100x128 ((tAll).view.read (Elt F) Tb)
                (SparseCore.rows ((lst off inb).view.read (Elt F) X) hn hin)) Finset.univ)
          ∗ ((tAll).view.loc (thr d L) ↦[(tAll).view.set]{qT} Tb) ∗ ((lst off inb).view.loc (thr d L) ↦[(lst off inb).view.set]{qX} X)) : sProp 𝕄)
      ⊢ Pend d L (b0V) cc0_scratch8.sem qT qX Tb X (Gc d L Tb X r h) r h := by
  unfold Pend
  refine Transfers.Flight_mono countersEmb (thr d L) ?_
  iintro ⟨Hd, Ht, Hl⟩
  isplitl [Hd]
  · rw [View.set_whole, show View.write (Elt F) (b0V).view fd (SparseCore.gatherPayload gathers_S100000x128_S100x128 ((tAll).view.read (Elt F) Tb)
        (SparseCore.rows ((lst off inb).view.read (Elt F) X) hn hin)) Finset.univ = Gc d L Tb X r h from
      (View.write_whole_univ (Val := Elt F) cc0_scratch1 fd _).trans (funext fun y => gather_clean d L r h h0 h1 h2 X Tb hn hin y)]
    iexact Hd
  isplitl [Ht]
  · rw [set_tAll]; iexact Ht
  · rw [set_lst_eq r h h0 h1 h2]; iexact Hl

theorem pend_intro_b1 {off : Fin 3 → Nat} {inb : ∀ a, off a + S1x1x100.size a ≤ S128x2x100.size a} (r : Fin 128) (h : Fin 2)
    (h0 : off 0 = r.val) (h1 : off 1 = h.val) (h2 : off 2 = 0) (qT qX : PosShare TreeShare)
    (Tb : Buf (Elt F) (tLoc d)) (X : Buf (Elt F) ((thr d L).loc cc0_scratch0)) (fd : Buf (Elt F) ((b1V).view.loc (thr d L)))
    (hn : S100.numel = S100x128.size gathers_S100000x128_S100x128.axis')
    (hin : ∀ x, ((lst off inb).view.read (Elt F) X x).toNat < S100000x128.size gathers_S100000x128_S100x128.axis) :
    (Transfers.Flight countersEmb (thr d L) (.dma cc0_scratch9.sem) (default : HIx 1) (b1V).view.dmaCredit
      iprop(((b1V).view.loc (thr d L) ↦[(b1V).view.set]{fullShare}
              View.write (Elt F) (b1V).view fd (SparseCore.gatherPayload gathers_S100000x128_S100x128 ((tAll).view.read (Elt F) Tb)
                (SparseCore.rows ((lst off inb).view.read (Elt F) X) hn hin)) Finset.univ)
          ∗ ((tAll).view.loc (thr d L) ↦[(tAll).view.set]{qT} Tb) ∗ ((lst off inb).view.loc (thr d L) ↦[(lst off inb).view.set]{qX} X)) : sProp 𝕄)
      ⊢ Pend d L (b1V) cc0_scratch9.sem qT qX Tb X (Gc d L Tb X r h) r h := by
  unfold Pend
  refine Transfers.Flight_mono countersEmb (thr d L) ?_
  iintro ⟨Hd, Ht, Hl⟩
  isplitl [Hd]
  · rw [View.set_whole, show View.write (Elt F) (b1V).view fd (SparseCore.gatherPayload gathers_S100000x128_S100x128 ((tAll).view.read (Elt F) Tb)
        (SparseCore.rows ((lst off inb).view.read (Elt F) X) hn hin)) Finset.univ = Gc d L Tb X r h from
      (View.write_whole_univ (Val := Elt F) cc0_scratch2 fd _).trans (funext fun y => gather_clean d L r h h0 h1 h2 X Tb hn hin y)]
    iexact Hd
  isplitl [Ht]
  · rw [set_tAll]; iexact Ht
  · rw [set_lst_eq r h h0 h1 h2]; iexact Hl

theorem pend_intro_b2 {off : Fin 3 → Nat} {inb : ∀ a, off a + S1x1x100.size a ≤ S128x2x100.size a} (r : Fin 128) (h : Fin 2)
    (h0 : off 0 = r.val) (h1 : off 1 = h.val) (h2 : off 2 = 0) (qT qX : PosShare TreeShare)
    (Tb : Buf (Elt F) (tLoc d)) (X : Buf (Elt F) ((thr d L).loc cc0_scratch0)) (fd : Buf (Elt F) ((b2V).view.loc (thr d L)))
    (hn : S100.numel = S100x128.size gathers_S100000x128_S100x128.axis')
    (hin : ∀ x, ((lst off inb).view.read (Elt F) X x).toNat < S100000x128.size gathers_S100000x128_S100x128.axis) :
    (Transfers.Flight countersEmb (thr d L) (.dma cc0_scratch10.sem) (default : HIx 1) (b2V).view.dmaCredit
      iprop(((b2V).view.loc (thr d L) ↦[(b2V).view.set]{fullShare}
              View.write (Elt F) (b2V).view fd (SparseCore.gatherPayload gathers_S100000x128_S100x128 ((tAll).view.read (Elt F) Tb)
                (SparseCore.rows ((lst off inb).view.read (Elt F) X) hn hin)) Finset.univ)
          ∗ ((tAll).view.loc (thr d L) ↦[(tAll).view.set]{qT} Tb) ∗ ((lst off inb).view.loc (thr d L) ↦[(lst off inb).view.set]{qX} X)) : sProp 𝕄)
      ⊢ Pend d L (b2V) cc0_scratch10.sem qT qX Tb X (Gc d L Tb X r h) r h := by
  unfold Pend
  refine Transfers.Flight_mono countersEmb (thr d L) ?_
  iintro ⟨Hd, Ht, Hl⟩
  isplitl [Hd]
  · rw [View.set_whole, show View.write (Elt F) (b2V).view fd (SparseCore.gatherPayload gathers_S100000x128_S100x128 ((tAll).view.read (Elt F) Tb)
        (SparseCore.rows ((lst off inb).view.read (Elt F) X) hn hin)) Finset.univ = Gc d L Tb X r h from
      (View.write_whole_univ (Val := Elt F) cc0_scratch3 fd _).trans (funext fun y => gather_clean d L r h h0 h1 h2 X Tb hn hin y)]
    iexact Hd
  isplitl [Ht]
  · rw [set_tAll]; iexact Ht
  · rw [set_lst_eq r h h0 h1 h2]; iexact Hl

theorem pend_intro_b3 {off : Fin 3 → Nat} {inb : ∀ a, off a + S1x1x100.size a ≤ S128x2x100.size a} (r : Fin 128) (h : Fin 2)
    (h0 : off 0 = r.val) (h1 : off 1 = h.val) (h2 : off 2 = 0) (qT qX : PosShare TreeShare)
    (Tb : Buf (Elt F) (tLoc d)) (X : Buf (Elt F) ((thr d L).loc cc0_scratch0)) (fd : Buf (Elt F) ((b3V).view.loc (thr d L)))
    (hn : S100.numel = S100x128.size gathers_S100000x128_S100x128.axis')
    (hin : ∀ x, ((lst off inb).view.read (Elt F) X x).toNat < S100000x128.size gathers_S100000x128_S100x128.axis) :
    (Transfers.Flight countersEmb (thr d L) (.dma cc0_scratch11.sem) (default : HIx 1) (b3V).view.dmaCredit
      iprop(((b3V).view.loc (thr d L) ↦[(b3V).view.set]{fullShare}
              View.write (Elt F) (b3V).view fd (SparseCore.gatherPayload gathers_S100000x128_S100x128 ((tAll).view.read (Elt F) Tb)
                (SparseCore.rows ((lst off inb).view.read (Elt F) X) hn hin)) Finset.univ)
          ∗ ((tAll).view.loc (thr d L) ↦[(tAll).view.set]{qT} Tb) ∗ ((lst off inb).view.loc (thr d L) ↦[(lst off inb).view.set]{qX} X)) : sProp 𝕄)
      ⊢ Pend d L (b3V) cc0_scratch11.sem qT qX Tb X (Gc d L Tb X r h) r h := by
  unfold Pend
  refine Transfers.Flight_mono countersEmb (thr d L) ?_
  iintro ⟨Hd, Ht, Hl⟩
  isplitl [Hd]
  · rw [View.set_whole, show View.write (Elt F) (b3V).view fd (SparseCore.gatherPayload gathers_S100000x128_S100x128 ((tAll).view.read (Elt F) Tb)
        (SparseCore.rows ((lst off inb).view.read (Elt F) X) hn hin)) Finset.univ = Gc d L Tb X r h from
      (View.write_whole_univ (Val := Elt F) cc0_scratch4 fd _).trans (funext fun y => gather_clean d L r h h0 h1 h2 X Tb hn hin y)]
    iexact Hd
  isplitl [Ht]
  · rw [set_tAll]; iexact Ht
  · rw [set_lst_eq r h h0 h1 h2]; iexact Hl

theorem pend_intro_b4 {off : Fin 3 → Nat} {inb : ∀ a, off a + S1x1x100.size a ≤ S128x2x100.size a} (r : Fin 128) (h : Fin 2)
    (h0 : off 0 = r.val) (h1 : off 1 = h.val) (h2 : off 2 = 0) (qT qX : PosShare TreeShare)
    (Tb : Buf (Elt F) (tLoc d)) (X : Buf (Elt F) ((thr d L).loc cc0_scratch0)) (fd : Buf (Elt F) ((b4V).view.loc (thr d L)))
    (hn : S100.numel = S100x128.size gathers_S100000x128_S100x128.axis')
    (hin : ∀ x, ((lst off inb).view.read (Elt F) X x).toNat < S100000x128.size gathers_S100000x128_S100x128.axis) :
    (Transfers.Flight countersEmb (thr d L) (.dma cc0_scratch12.sem) (default : HIx 1) (b4V).view.dmaCredit
      iprop(((b4V).view.loc (thr d L) ↦[(b4V).view.set]{fullShare}
              View.write (Elt F) (b4V).view fd (SparseCore.gatherPayload gathers_S100000x128_S100x128 ((tAll).view.read (Elt F) Tb)
                (SparseCore.rows ((lst off inb).view.read (Elt F) X) hn hin)) Finset.univ)
          ∗ ((tAll).view.loc (thr d L) ↦[(tAll).view.set]{qT} Tb) ∗ ((lst off inb).view.loc (thr d L) ↦[(lst off inb).view.set]{qX} X)) : sProp 𝕄)
      ⊢ Pend d L (b4V) cc0_scratch12.sem qT qX Tb X (Gc d L Tb X r h) r h := by
  unfold Pend
  refine Transfers.Flight_mono countersEmb (thr d L) ?_
  iintro ⟨Hd, Ht, Hl⟩
  isplitl [Hd]
  · rw [View.set_whole, show View.write (Elt F) (b4V).view fd (SparseCore.gatherPayload gathers_S100000x128_S100x128 ((tAll).view.read (Elt F) Tb)
        (SparseCore.rows ((lst off inb).view.read (Elt F) X) hn hin)) Finset.univ = Gc d L Tb X r h from
      (View.write_whole_univ (Val := Elt F) cc0_scratch5 fd _).trans (funext fun y => gather_clean d L r h h0 h1 h2 X Tb hn hin y)]
    iexact Hd
  isplitl [Ht]
  · rw [set_tAll]; iexact Ht
  · rw [set_lst_eq r h h0 h1 h2]; iexact Hl

theorem pend_intro_b5 {off : Fin 3 → Nat} {inb : ∀ a, off a + S1x1x100.size a ≤ S128x2x100.size a} (r : Fin 128) (h : Fin 2)
    (h0 : off 0 = r.val) (h1 : off 1 = h.val) (h2 : off 2 = 0) (qT qX : PosShare TreeShare)
    (Tb : Buf (Elt F) (tLoc d)) (X : Buf (Elt F) ((thr d L).loc cc0_scratch0)) (fd : Buf (Elt F) ((b5V).view.loc (thr d L)))
    (hn : S100.numel = S100x128.size gathers_S100000x128_S100x128.axis')
    (hin : ∀ x, ((lst off inb).view.read (Elt F) X x).toNat < S100000x128.size gathers_S100000x128_S100x128.axis) :
    (Transfers.Flight countersEmb (thr d L) (.dma cc0_scratch13.sem) (default : HIx 1) (b5V).view.dmaCredit
      iprop(((b5V).view.loc (thr d L) ↦[(b5V).view.set]{fullShare}
              View.write (Elt F) (b5V).view fd (SparseCore.gatherPayload gathers_S100000x128_S100x128 ((tAll).view.read (Elt F) Tb)
                (SparseCore.rows ((lst off inb).view.read (Elt F) X) hn hin)) Finset.univ)
          ∗ ((tAll).view.loc (thr d L) ↦[(tAll).view.set]{qT} Tb) ∗ ((lst off inb).view.loc (thr d L) ↦[(lst off inb).view.set]{qX} X)) : sProp 𝕄)
      ⊢ Pend d L (b5V) cc0_scratch13.sem qT qX Tb X (Gc d L Tb X r h) r h := by
  unfold Pend
  refine Transfers.Flight_mono countersEmb (thr d L) ?_
  iintro ⟨Hd, Ht, Hl⟩
  isplitl [Hd]
  · rw [View.set_whole, show View.write (Elt F) (b5V).view fd (SparseCore.gatherPayload gathers_S100000x128_S100x128 ((tAll).view.read (Elt F) Tb)
        (SparseCore.rows ((lst off inb).view.read (Elt F) X) hn hin)) Finset.univ = Gc d L Tb X r h from
      (View.write_whole_univ (Val := Elt F) cc0_scratch6 fd _).trans (funext fun y => gather_clean d L r h h0 h1 h2 X Tb hn hin y)]
    iexact Hd
  isplitl [Ht]
  · rw [set_tAll]; iexact Ht
  · rw [set_lst_eq r h h0 h1 h2]; iexact Hl

end Cell

/-! The index scratch's two row ranges make the whole scratch; a list cut out of the first three rows. -/
section Joins
variable (d : Dev nD) (L : grid0.Coords)

omit [FloatOps F] in
theorem lst_sub_xA {off : Fin 3 → Nat} {inb : ∀ a, off a + S1x1x100.size a ≤ S128x2x100.size a} (h2 : off 2 = 0) (h0 : off 0 < 3) :
    (lst off inb).view.set ⊆ (xA).view.set := fun j hj => by
  rw [mem_xA]; have := (mem_lst h2).mp hj; omega

omit [FloatOps F] in
theorem mem_lstSet {r : Fin 128} {h : Fin 2} {i : S128x2x100.Idx} : i ∈ lstSet r h ↔ (i 0).val = r.val ∧ (i 1).val = h.val := by
  simp [lstSet]

omit [FloatOps F] in
/-- What is left of rows 0–2 without a list there, and rows 3–127, are the scratch without the list. -/
theorem rest_join {off : Fin 3 → Nat} {inb : ∀ a, off a + S1x1x100.size a ≤ S128x2x100.size a} (r : Fin 128) (h : Fin 2)
    (h0 : off 0 = r.val) (h1 : off 1 = h.val) (h2 : off 2 = 0) (hr : r.val < 3) (qx : PosShare TreeShare) (X : Buf (Elt F) ((thr d L).loc cc0_scratch0)) :
    (iprop(((xA).view.loc (thr d L) ↦[(xA).view.set \ (lst off inb).view.set]{qx} X) ∗ ((xB).view.loc (thr d L) ↦[(xB).view.set]{qx} X)) : sProp 𝕄)
      ⊢ ((xV).view.loc (thr d L) ↦[Finset.univ \ lstSet r h]{qx} X) := by
  have hsub : (xB).view.set ⊆ Finset.univ \ lstSet r h := fun j hj => by
    refine Finset.mem_sdiff.mpr ⟨Finset.mem_univ _, fun hm => ?_⟩
    have h3 := (mem_xB (i := j)).mp hj
    have h4 := (mem_lstSet (i := j)).mp hm
    omega
  have hset : (Finset.univ \ lstSet r h) \ (xB).view.set = (xA).view.set \ (lst off inb).view.set := by
    refine Finset.ext fun j => ⟨fun hj => ?_, fun hj => ?_⟩
    · obtain ⟨hj1, hj2⟩ := Finset.mem_sdiff.mp hj
      obtain ⟨_, hj3⟩ := Finset.mem_sdiff.mp hj1
      refine Finset.mem_sdiff.mpr ⟨(mem_xA (i := j)).mpr (Nat.lt_of_not_le fun h3 => hj2 ((mem_xB (i := j)).mpr h3)), fun hm => hj3 ?_⟩
      have h4 := (mem_lst (i := j) h2).mp hm
      exact (mem_lstSet (i := j)).mpr ⟨by omega, by omega⟩
    · obtain ⟨hj1, hj2⟩ := Finset.mem_sdiff.mp hj
      have h3 := (mem_xA (i := j)).mp hj1
      refine Finset.mem_sdiff.mpr ⟨Finset.mem_sdiff.mpr ⟨Finset.mem_univ _, fun hm => hj2 ?_⟩, fun hm => ?_⟩
      · have h4 := (mem_lstSet (i := j)).mp hm
        exact (mem_lst (i := j) h2).mpr ⟨by omega, by omega⟩
      · have h4 := (mem_xB (i := j)).mp hm
        omega
  iintro ⟨Ha, Hb⟩
  iapply (pointsTo_split_subset (q := qx) (f := X) (S := Finset.univ \ lstSet r h) hsub).2
  isplitl [Hb]; · iexact Hb
  rw [hset]; iexact Ha

omit [FloatOps F] in
/-- Rows 0–2 and rows 3–127 are the whole scratch. -/
theorem AB_join (qx : PosShare TreeShare) (X : Buf (Elt F) ((thr d L).loc cc0_scratch0)) :
    (iprop(((xA).view.loc (thr d L) ↦[(xA).view.set]{qx} X) ∗ ((xB).view.loc (thr d L) ↦[(xB).view.set]{qx} X)) : sProp 𝕄)
      ⊢ ((xV).view.loc (thr d L) ↦{qx} X) := by
  have hsub : (xB).view.set ⊆ (Finset.univ : Finset S128x2x100.Idx) := Finset.subset_univ _
  have hset : (Finset.univ : Finset S128x2x100.Idx) \ (xB).view.set = (xA).view.set := by
    refine Finset.ext fun j => ⟨fun hj => ?_, fun hj => ?_⟩
    · obtain ⟨_, hj2⟩ := Finset.mem_sdiff.mp hj
      exact (mem_xA (i := j)).mpr (Nat.lt_of_not_le fun h3 => hj2 ((mem_xB (i := j)).mpr h3))
    · have h3 := (mem_xA (i := j)).mp hj
      refine Finset.mem_sdiff.mpr ⟨Finset.mem_univ _, fun hm => ?_⟩
      have h4 := (mem_xB (i := j)).mp hm
      omega
  iintro ⟨Ha, Hb⟩
  iapply (pointsTo_split_subset (q := qx) (f := X) (S := Finset.univ) hsub).2
  isplitl [Hb]; · iexact Hb
  rw [hset]; iexact Ha
end Joins

end Cert.Proof.KI

end
-- ==== Proof.KIRes.lean ====
import proofs.«206947_g65644280152286_cont_9to1_m_226_28_alg».proof.Proof.KIAcc

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S4096x2x100 EltTy.i32)
local notation "oV" => (Memref.whole Cert.KernelIdeal.main_v1_scv : Memref Cert.KernelIdeal.sig Kind.scVector Space.hbm Cert.KernelIdeal.S4096x128 EltTy.f32)
local notation "xV" => (Memref.whole Cert.KernelIdeal.cc0_scratch0 : Memref Cert.KernelIdeal.sig Kind.scVector Space.vmem Cert.KernelIdeal.S128x2x100 EltTy.i32)
local notation "b0V" => (Memref.whole Cert.KernelIdeal.cc0_scratch1 : Memref Cert.KernelIdeal.sig Kind.scVector Space.vmem Cert.KernelIdeal.S100x128 EltTy.f32)
local notation "b1V" => (Memref.whole Cert.KernelIdeal.cc0_scratch2 : Memref Cert.KernelIdeal.sig Kind.scVector Space.vmem Cert.KernelIdeal.S100x128 EltTy.f32)
local notation "b2V" => (Memref.whole Cert.KernelIdeal.cc0_scratch3 : Memref Cert.KernelIdeal.sig Kind.scVector Space.vmem Cert.KernelIdeal.S100x128 EltTy.f32)
local notation "b3V" => (Memref.whole Cert.KernelIdeal.cc0_scratch4 : Memref Cert.KernelIdeal.sig Kind.scVector Space.vmem Cert.KernelIdeal.S100x128 EltTy.f32)
local notation "b4V" => (Memref.whole Cert.KernelIdeal.cc0_scratch5 : Memref Cert.KernelIdeal.sig Kind.scVector Space.vmem Cert.KernelIdeal.S100x128 EltTy.f32)
local notation "b5V" => (Memref.whole Cert.KernelIdeal.cc0_scratch6 : Memref Cert.KernelIdeal.sig Kind.scVector Space.vmem Cert.KernelIdeal.S100x128 EltTy.f32)
local notation "yV" => (Memref.whole Cert.KernelIdeal.cc0_scratch7 : Memref Cert.KernelIdeal.sig Kind.scVector Space.vmem Cert.KernelIdeal.S128x128 EltTy.f32)

variable [FloatOps F]

/-! What a tile's result scratch must hold: entry (r, q) is the fold KSpec.kresAt of the tile's global row for r and column q. -/
section Res
variable (d : Dev nD) (L : grid0.Coords)

/-- Chunk `c` (16 lanes) of local row `r`'s result. -/
def chunkRes (I : Buf (Elt F) (iLoc d)) (Tb : Buf (Elt F) (tLoc d)) (r : Fin 128) (c : Fin 8) : FVec F S16 .f32 :=
  fun i => KSpec.kresAt (F := F) I Tb (rowG L r) (colOf c (i 0))

/-- The eight chunks of local row `r`'s result. -/
def rowRes (I : Buf (Elt F) (iLoc d)) (Tb : Buf (Elt F) (tLoc d)) (r : Fin 128) : T8 F :=
  (chunkRes d L I Tb r 0, chunkRes d L I Tb r 1, chunkRes d L I Tb r 2, chunkRes d L I Tb r 3, chunkRes d L I Tb r 4, chunkRes d L I Tb r 5,
    chunkRes d L I Tb r 6, chunkRes d L I Tb r 7)

/-- The result scratch [128, 128] once every row is written. -/
def Yres (I : Buf (Elt F) (iLoc d)) (Tb : Buf (Elt F) (tLoc d)) : S128x128.Idx → F .f32 :=
  fun j => KSpec.kresAt (F := F) I Tb (rowG L (j 0)) (j 1)
end Res

end Cert.Proof.KI

end
-- ==== Proof.KIStep.lean ====
/-
  One step of a pooling loop on one column chunk, as mathematics.
  The fold of KSpec (25 steps per buffer, step k folding in the balanced maximum of rows 4k … 4k+3) is extended to a
  total function of the step count (beyond 25 steps nothing more is folded), so that a loop invariant can name the
  accumulators after k steps for any natural k; within 25 steps it is KSpec's. A [1, 16] load at offset (R, C) of a
  [100, 128] buffer reads, at lane t, the buffer's entry (R, C + t); recast to 16 lanes, lane t is that entry; the vector
  maximum is lane by lane. So the loop body's update of chunk c — the accumulator under the maximum with the balanced
  maximum of the four loads at rows 4k … 4k+3, columns 16c … 16c+15 — takes the chunk's accumulator after k steps to
  the one after k + 1 steps.
-/
import proofs.«206947_g65644280152286_cont_9to1_m_226_28_alg».proof.Proof.KIAcc

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S4096x2x100 EltTy.i32)
local notation "oV" => (Memref.whole Cert.KernelIdeal.main_v1_scv : Memref Cert.KernelIdeal.sig Kind.scVector Space.hbm Cert.KernelIdeal.S4096x128 EltTy.f32)
local notation "xV" => (Memref.whole Cert.KernelIdeal.cc0_scratch0 : Memref Cert.KernelIdeal.sig Kind.scVector Space.vmem Cert.KernelIdeal.S128x2x100 EltTy.i32)
local notation "b0V" => (Memref.whole Cert.KernelIdeal.cc0_scratch1 : Memref Cert.KernelIdeal.sig Kind.scVector Space.vmem Cert.KernelIdeal.S100x128 EltTy.f32)
local notation "b1V" => (Memref.whole Cert.KernelIdeal.cc0_scratch2 : Memref Cert.KernelIdeal.sig Kind.scVector Space.vmem Cert.KernelIdeal.S100x128 EltTy.f32)
local notation "b2V" => (Memref.whole Cert.KernelIdeal.cc0_scratch3 : Memref Cert.KernelIdeal.sig Kind.scVector Space.vmem Cert.KernelIdeal.S100x128 EltTy.f32)
local notation "b3V" => (Memref.whole Cert.KernelIdeal.cc0_scratch4 : Memref Cert.KernelIdeal.sig Kind.scVector Space.vmem Cert.KernelIdeal.S100x128 EltTy.f32)
local notation "b4V" => (Memref.whole Cert.KernelIdeal.cc0_scratch5 : Memref Cert.KernelIdeal.sig Kind.scVector Space.vmem Cert.KernelIdeal.S100x128 EltTy.f32)
local notation "b5V" => (Memref.whole Cert.KernelIdeal.cc0_scratch6 : Memref Cert.KernelIdeal.sig Kind.scVector Space.vmem Cert.KernelIdeal.S100x128 EltTy.f32)
local notation "yV" => (Memref.whole Cert.KernelIdeal.cc0_scratch7 : Memref Cert.KernelIdeal.sig Kind.scVector Space.vmem Cert.KernelIdeal.S128x128 EltTy.f32)

variable [FloatOps F]

/-- The running maximum after `n` steps as a total function of `n`: beyond the 25 steps nothing more is folded in. -/
def halfN (x : Fin 100 → F .f32) (a : F .f32) : ℕ → F .f32
  | 0 => a
  | n + 1 => if h : n < 25 then FloatOps.maximumf (halfN x a n) (KSpec.quad x ⟨n, h⟩) else halfN x a n

/-- Chunk `c`'s accumulator after `n` steps, for any natural `n`. -/
def colN (g : S100x128.Idx → F .f32) (c : Fin 8) (a : FVec F S16 .f32) (n : ℕ) : FVec F S16 .f32 :=
  fun i => halfN (fun j : Fin 100 => g (ValueIdx.ix2 j (colOf c (i 0)))) (a i) n

/-- All eight accumulators after `n` steps, for any natural `n`. -/
def accsN (g : S100x128.Idx → F .f32) (a : T8 F) (n : ℕ) : T8 F :=
  (colN g 0 a.1 n, colN g 1 a.2.1 n, colN g 2 a.2.2.1 n, colN g 3 a.2.2.2.1 n, colN g 4 a.2.2.2.2.1 n,
    colN g 5 a.2.2.2.2.2.1 n, colN g 6 a.2.2.2.2.2.2.1 n, colN g 7 a.2.2.2.2.2.2.2 n)

/-- A pooling loop's invariant: before step `k` the carried accumulators are those after `k` steps, and the buffer is held (`P`). -/
def invI (P : sProp 𝕄) (g : S100x128.Idx → F .f32) (a : T8 F) (k : Nat) (acc : T8 F) : sProp 𝕄 :=
  iprop(⌜acc = accsN g a k⌝ ∗ P)

/-- Within the 25 steps the total fold is the fold of KSpec. -/
theorem halfN_eq (x : Fin 100 → F .f32) (a : F .f32) : ∀ (n : ℕ) (h : n ≤ 25), halfN x a n = KSpec.halfUpTo x a n h
  | 0, _ => rfl
  | n + 1, h => by
    show (if h' : n < 25 then FloatOps.maximumf (halfN x a n) (KSpec.quad x ⟨n, h'⟩) else halfN x a n) = _
    rw [dif_pos (show n < 25 from h), halfN_eq x a n (Nat.le_of_succ_le h)]
    rfl

theorem colN_eq (g : S100x128.Idx → F .f32) (c : Fin 8) (a : FVec F S16 .f32) (n : ℕ) (hn : n ≤ 25) :
    colN g c a n = colUpTo g c a n hn := by
  funext i; exact halfN_eq _ _ n hn

theorem accsN_eq (g : S100x128.Idx → F .f32) (a : T8 F) (n : ℕ) (hn : n ≤ 25) : accsN g a n = accsUpTo g a n hn := by
  unfold accsN accsUpTo
  simp only [colN_eq _ _ _ n hn]

theorem accsN_zero (g : S100x128.Idx → F .f32) (a : T8 F) : accsN g a 0 = a := rfl

/-- A [1, 16] vector recast to [16] reads, at lane t, its entry (0, t). -/
theorem cast16_apply (r : Vec F S1x16 .f32) (t : Fin 16) :
    shapeCast S16 r shapeCasts_S1x16_S16 (ValueIdx.ix1 t) = r (ValueIdx.ix2 (n0 := 1) (n1 := 16) ⟨0, Nat.one_pos⟩ t) := by
  unfold shapeCast
  exact congrArg r (Shape.reshapeEquiv_eq_of_rowMajor _ (by
    rw [Shape.rowMajor_val_two, Shape.rowMajor_val_one]
    show 0 * 16 + t.val = t.val
    omega))

/-- One step on one column chunk: the balanced maximum of the four rows 4k … 4k+3 at the chunk's 16 columns, folded
    into the chunk's accumulator after k steps, is the accumulator after k + 1 steps. -/
theorem colN_step (G : S100x128.Idx → F .f32) (c : Fin 8) (a : FVec F S16 .f32) (k : ℕ) (hk : k < 25)
    (r0 r1 r2 r3 : Vec F S1x16 .f32)
    (h0 : ∀ t : Fin 16, r0 (ValueIdx.ix2 (n0 := 1) (n1 := 16) ⟨0, Nat.one_pos⟩ t) = G (ValueIdx.ix2 (n0 := 100) (n1 := 128) ⟨4 * k, by omega⟩ (colOf c t)))
    (h1 : ∀ t : Fin 16, r1 (ValueIdx.ix2 (n0 := 1) (n1 := 16) ⟨0, Nat.one_pos⟩ t) = G (ValueIdx.ix2 (n0 := 100) (n1 := 128) ⟨4 * k + 1, by omega⟩ (colOf c t)))
    (h2 : ∀ t : Fin 16, r2 (ValueIdx.ix2 (n0 := 1) (n1 := 16) ⟨0, Nat.one_pos⟩ t) = G (ValueIdx.ix2 (n0 := 100) (n1 := 128) ⟨4 * k + 2, by omega⟩ (colOf c t)))
    (h3 : ∀ t : Fin 16, r3 (ValueIdx.ix2 (n0 := 1) (n1 := 16) ⟨0, Nat.one_pos⟩ t) = G (ValueIdx.ix2 (n0 := 100) (n1 := 128) ⟨4 * k + 3, by omega⟩ (colOf c t))) :
    maximumf (colN G c a k)
      (maximumf (maximumf (shapeCast S16 r0 shapeCasts_S1x16_S16) (shapeCast S16 r1 shapeCasts_S1x16_S16))
        (maximumf (shapeCast S16 r2 shapeCasts_S1x16_S16) (shapeCast S16 r3 shapeCasts_S1x16_S16)))
      = colN G c a (k + 1) := by
  funext i
  obtain ⟨t, rfl⟩ : ∃ t : Fin 16, i = ValueIdx.ix1 t := ⟨i 0, ValueIdx.eq_ix1 i⟩
  show FloatOps.maximumf (colN G c a k (ValueIdx.ix1 t))
      (FloatOps.maximumf (FloatOps.maximumf (shapeCast S16 r0 shapeCasts_S1x16_S16 (ValueIdx.ix1 t)) (shapeCast S16 r1 shapeCasts_S1x16_S16 (ValueIdx.ix1 t)))
        (FloatOps.maximumf (shapeCast S16 r2 shapeCasts_S1x16_S16 (ValueIdx.ix1 t)) (shapeCast S16 r3 shapeCasts_S1x16_S16 (ValueIdx.ix1 t))))
    = (if h' : k < 25 then FloatOps.maximumf (colN G c a k (ValueIdx.ix1 t)) (KSpec.quad (fun j : Fin 100 => G (ValueIdx.ix2 j (colOf c t))) ⟨k, h'⟩)
        else colN G c a k (ValueIdx.ix1 t))
  rw [dif_pos hk, cast16_apply, cast16_apply, cast16_apply, cast16_apply, h0, h1, h2, h3]
  rfl

/-- A [1, 16] load at offset (R, C) of a [100, 128] buffer reads, at lane t, the buffer's entry (R, C + t). -/
theorem load_lane {κ : Kind} {sp : Space} (v : View sig κ sp S100x128 .f32) (g : v.ty.Contents (Elt F)) (G : S100x128.Idx → F .f32)
    (hG : ∀ x, v.read (Elt F) g x = G x) (off : Fin 2 → Nat) (inb : ∀ a, off a + S1x16.size a ≤ S100x128.size a)
    (R C : ℕ) (hoff : off = ![R, C]) (hR : R < 100) (t : Fin 16) (hC : C + t.val < 128) :
    v.readAt (Elt F) (Rect.unit (s := S100x128) off S1x16.size inb).toLoadRect g (ValueIdx.ix2 (n0 := 1) (n1 := 16) ⟨0, Nat.one_pos⟩ t)
      = G (ValueIdx.ix2 (n0 := 100) (n1 := 128) ⟨R, hR⟩ ⟨C + t.val, hC⟩) := by
  rw [View.readAt_apply, hG]
  congr 1
  funext b; apply Fin.ext
  subst hoff
  match b with
  | ⟨0, _⟩ => show R + 1 * 0 = R; omega
  | ⟨1, _⟩ => show C + 1 * t.val = C + t.val; omega

/-- One step on one column chunk, as the loop body spells it: the four [1, 16] loads at rows 4k … 4k+3 and column
    offset C = 16·c, recast to 16 lanes, under a balanced maximum, folded into the accumulator. -/
theorem pay_step {κ : Kind} {sp : Space} (v : View sig κ sp S100x128 .f32) (g : v.ty.Contents (Elt F)) (G : S100x128.Idx → F .f32)
    (hG : ∀ x, v.read (Elt F) g x = G x) (c : Fin 8) (C : ℕ) (hC : C = 16 * c.val) (a acc : FVec F S16 .f32) (k : ℕ) (hk : k < 25)
    (hacc : acc = colN G c a k) (o0 o1 o2 o3 : Fin 2 → Nat)
    (i0 : ∀ b, o0 b + S1x16.size b ≤ S100x128.size b) (i1 : ∀ b, o1 b + S1x16.size b ≤ S100x128.size b)
    (i2 : ∀ b, o2 b + S1x16.size b ≤ S100x128.size b) (i3 : ∀ b, o3 b + S1x16.size b ≤ S100x128.size b)
    (e0 : o0 = ![4 * k + 0, C]) (e1 : o1 = ![4 * k + 1, C]) (e2 : o2 = ![4 * k + 2, C]) (e3 : o3 = ![4 * k + 3, C]) :
    maximumf acc
      (maximumf
        (maximumf (shapeCast S16 (v.readAt (Elt F) (Rect.unit (s := S100x128) o0 S1x16.size i0).toLoadRect g) shapeCasts_S1x16_S16)
          (shapeCast S16 (v.readAt (Elt F) (Rect.unit (s := S100x128) o1 S1x16.size i1).toLoadRect g) shapeCasts_S1x16_S16))
        (maximumf (shapeCast S16 (v.readAt (Elt F) (Rect.unit (s := S100x128) o2 S1x16.size i2).toLoadRect g) shapeCasts_S1x16_S16)
          (shapeCast S16 (v.readAt (Elt F) (Rect.unit (s := S100x128) o3 S1x16.size i3).toLoadRect g) shapeCasts_S1x16_S16)))
      = colN G c a (k + 1) := by
  subst hacc; subst hC
  have hc := c.isLt
  refine colN_step G c a k hk _ _ _ _ (fun t => ?_) (fun t => ?_) (fun t => ?_) (fun t => ?_)
  · exact load_lane v g G hG o0 i0 (4 * k + 0) (16 * c.val) e0 (by omega) t (by have := t.isLt; omega)
  · exact load_lane v g G hG o1 i1 (4 * k + 1) (16 * c.val) e1 (by omega) t (by have := t.isLt; omega)
  · exact load_lane v g G hG o2 i2 (4 * k + 2) (16 * c.val) e2 (by omega) t (by have := t.isLt; omega)
  · exact load_lane v g G hG o3 i3 (4 * k + 3) (16 * c.val) e3 (by omega) t (by have := t.isLt; omega)

end Cert.Proof.KI

end
-- ==== Proof.KIInner.lean ====
import proofs.«206947_g65644280152286_cont_9to1_m_226_28_alg».proof.Proof.KIAcc
import proofs.«206947_g65644280152286_cont_9to1_m_226_28_alg».proof.Proof.KIStep

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S4096x2x100 EltTy.i32)
local notation "oV" => (Memref.whole Cert.KernelIdeal.main_v1_scv : Memref Cert.KernelIdeal.sig Kind.scVector Space.hbm Cert.KernelIdeal.S4096x128 EltTy.f32)
local notation "xV" => (Memref.whole Cert.KernelIdeal.cc0_scratch0 : Memref Cert.KernelIdeal.sig Kind.scVector Space.vmem Cert.KernelIdeal.S128x2x100 EltTy.i32)
local notation "b0V" => (Memref.whole Cert.KernelIdeal.cc0_scratch1 : Memref Cert.KernelIdeal.sig Kind.scVector Space.vmem Cert.KernelIdeal.S100x128 EltTy.f32)
local notation "b1V" => (Memref.whole Cert.KernelIdeal.cc0_scratch2 : Memref Cert.KernelIdeal.sig Kind.scVector Space.vmem Cert.KernelIdeal.S100x128 EltTy.f32)
local notation "b2V" => (Memref.whole Cert.KernelIdeal.cc0_scratch3 : Memref Cert.KernelIdeal.sig Kind.scVector Space.vmem Cert.KernelIdeal.S100x128 EltTy.f32)
local notation "b3V" => (Memref.whole Cert.KernelIdeal.cc0_scratch4 : Memref Cert.KernelIdeal.sig Kind.scVector Space.vmem Cert.KernelIdeal.S100x128 EltTy.f32)
local notation "b4V" => (Memref.whole Cert.KernelIdeal.cc0_scratch5 : Memref Cert.KernelIdeal.sig Kind.scVector Space.vmem Cert.KernelIdeal.S100x128 EltTy.f32)
local notation "b5V" => (Memref.whole Cert.KernelIdeal.cc0_scratch6 : Memref Cert.KernelIdeal.sig Kind.scVector Space.vmem Cert.KernelIdeal.S100x128 EltTy.f32)
local notation "yV" => (Memref.whole Cert.KernelIdeal.cc0_scratch7 : Memref Cert.KernelIdeal.sig Kind.scVector Space.vmem Cert.KernelIdeal.S128x128 EltTy.f32)

variable [FloatOps F]

/-! The ten pooling loops of a tile's body, each 25 steps through one gathered buffer: what they return. -/

section Tile
variable (d : Dev nD) (L : grid0.Coords)

set_option maxHeartbeats 4000000 in
/-- The first pooling loop (25 steps through buffer 0): from accumulators `a` it returns `accsOut g a` and leaves the buffer as it was. -/
theorem inner_t2 (g : Buf (Elt F) ((thr d L).loc cc0_scratch1)) (a : T8 F) (v8 v9 v10 v11 v12 v13 v14 v15 : FVec F S16 .f32) (c0 c1 : BitVec 32) (k1 : Fin k0_t1_loop.trips)
    (Φ : T8 F → sProp 𝕄) :
    ((b0V).view.loc (thr d L) ↦{fullShare} g : sProp 𝕄)
      ⊢ iprop((((b0V).view.loc (thr d L) ↦{fullShare} g) -∗ Φ (accsOut g a))
          -∗ wp frame (wpE (defs₀ (F := F)) 𝒱₀ (thr d L) none) Set.univ
              (Scf.Loop.for k0_t2_loop k0_t2_ok a (k0_t2_body L tV (Memref.isWhole_whole _) iV (Memref.isWhole_whole _) oV (Memref.isWhole_whole _)
            xV (Memref.isWhole_whole _) b0V (Memref.isWhole_whole _) b1V (Memref.isWhole_whole _) b2V (Memref.isWhole_whole _)
            b3V (Memref.isWhole_whole _) b4V (Memref.isWhole_whole _) b5V (Memref.isWhole_whole _) yV (Memref.isWhole_whole _)
            cc0_scratch8 cc0_scratch9 cc0_scratch10 cc0_scratch11 cc0_scratch12 cc0_scratch13 cc0_scratch14 cc0_scoped0 cc0_scoped1 v8 v9 v10 v11 v12 v13 v14 v15 c0 c1 k1)) Φ) := by
  iintro Hb Hk
  sl_for (invI (F := F) iprop((b0V).view.loc (thr d L) ↦{fullShare} g) g a) $$ [Hb Hk]
  case region =>
    intro k acc
    unfold invI
    iintro ⟨%hacc, Hb⟩
    sl_exec
    sl_step
    isplitr [Hb]
    · ipureintro
      subst hacc
      have hk : k.val < 25 := lt_of_lt_of_le k.isLt k0_t2_abs.2.1
      have hG : ∀ x, (b0V).view.read (Elt F) g x = g x := fun _ => rfl
      unfold accsN
      refine Prod.ext ?_ (Prod.ext ?_ (Prod.ext ?_ (Prod.ext ?_ (Prod.ext ?_ (Prod.ext ?_ (Prod.ext ?_ ?_))))))
      · exact pay_step (b0V).view g g hG 0 0 rfl _ _ k.val hk rfl _ _ _ _ _ _ _ _
          (k0_off4_eq k ⟨0, by decide⟩) (k0_off4_eq k ⟨1, by decide⟩) (k0_off4_eq k ⟨2, by decide⟩) (k0_off4_eq k ⟨3, by decide⟩)
      · exact pay_step (b0V).view g g hG 1 16 rfl _ _ k.val hk rfl _ _ _ _ _ _ _ _
          (k0_off5_eq k ⟨0, by decide⟩) (k0_off5_eq k ⟨1, by decide⟩) (k0_off5_eq k ⟨2, by decide⟩) (k0_off5_eq k ⟨3, by decide⟩)
      · exact pay_step (b0V).view g g hG 2 32 rfl _ _ k.val hk rfl _ _ _ _ _ _ _ _
          (k0_off6_eq k ⟨0, by decide⟩) (k0_off6_eq k ⟨1, by decide⟩) (k0_off6_eq k ⟨2, by decide⟩) (k0_off6_eq k ⟨3, by decide⟩)
      · exact pay_step (b0V).view g g hG 3 48 rfl _ _ k.val hk rfl _ _ _ _ _ _ _ _
          (k0_off7_eq k ⟨0, by decide⟩) (k0_off7_eq k ⟨1, by decide⟩) (k0_off7_eq k ⟨2, by decide⟩) (k0_off7_eq k ⟨3, by decide⟩)
      · exact pay_step (b0V).view g g hG 4 64 rfl _ _ k.val hk rfl _ _ _ _ _ _ _ _
          (k0_off8_eq k ⟨0, by decide⟩) (k0_off8_eq k ⟨1, by decide⟩) (k0_off8_eq k ⟨2, by decide⟩) (k0_off8_eq k ⟨3, by decide⟩)
      · exact pay_step (b0V).view g g hG 5 80 rfl _ _ k.val hk rfl _ _ _ _ _ _ _ _
          (k0_off9_eq k ⟨0, by decide⟩) (k0_off9_eq k ⟨1, by decide⟩) (k0_off9_eq k ⟨2, by decide⟩) (k0_off9_eq k ⟨3, by decide⟩)
      · exact pay_step (b0V).view g g hG 6 96 rfl _ _ k.val hk rfl _ _ _ _ _ _ _ _
          (k0_off10_eq k ⟨0, by decide⟩) (k0_off10_eq k ⟨1, by decide⟩) (k0_off10_eq k ⟨2, by decide⟩) (k0_off10_eq k ⟨3, by decide⟩)
      · exact pay_step (b0V).view g g hG 7 112 rfl _ _ k.val hk rfl _ _ _ _ _ _ _ _
          (k0_off11_eq k ⟨0, by decide⟩) (k0_off11_eq k ⟨1, by decide⟩) (k0_off11_eq k ⟨2, by decide⟩) (k0_off11_eq k ⟨3, by decide⟩)
    · iexact Hb
  unfold invI
  isplitl [Hb]
  · isplitr [Hb]
    · ipureintro; rfl
    · iexact Hb
  · iintro %acc' ⟨%hacc', Hb⟩
    subst hacc'
    have e : accsN g a (Scf.trips k0_t2_loop.lb k0_t2_loop.ub k0_t2_loop.st) = accsOut g a := by
      rw [show Scf.trips k0_t2_loop.lb k0_t2_loop.ub k0_t2_loop.st = 25 by decide +kernel]
      exact accsN_eq g a 25 (Nat.le_refl _)
    rw [e]
    iapply Hk
    iexact Hb

set_option maxHeartbeats 4000000 in
/-- The next pooling loop (25 steps through buffer 1): from accumulators `a` it returns `accsOut g a` and leaves the buffer as it was. -/
theorem inner_t3 (g : Buf (Elt F) ((thr d L).loc cc0_scratch2)) (a : T8 F) (v8 v9 v10 v11 v12 v13 v14 v15 : FVec F S16 .f32) (c0 c1 : BitVec 32) (k1 : Fin k0_t1_loop.trips)
    (Φ : T8 F → sProp 𝕄) :
    ((b1V).view.loc (thr d L) ↦{fullShare} g : sProp 𝕄)
      ⊢ iprop((((b1V).view.loc (thr d L) ↦{fullShare} g) -∗ Φ (accsOut g a))
          -∗ wp frame (wpE (defs₀ (F := F)) 𝒱₀ (thr d L) none) Set.univ
              (Scf.Loop.for k0_t3_loop k0_t3_ok a (k0_t3_body L tV (Memref.isWhole_whole _) iV (Memref.isWhole_whole _) oV (Memref.isWhole_whole _)
            xV (Memref.isWhole_whole _) b0V (Memref.isWhole_whole _) b1V (Memref.isWhole_whole _) b2V (Memref.isWhole_whole _)
            b3V (Memref.isWhole_whole _) b4V (Memref.isWhole_whole _) b5V (Memref.isWhole_whole _) yV (Memref.isWhole_whole _)
            cc0_scratch8 cc0_scratch9 cc0_scratch10 cc0_scratch11 cc0_scratch12 cc0_scratch13 cc0_scratch14 cc0_scoped0 cc0_scoped1 v8 v9 v10 v11 v12 v13 v14 v15 c0 c1 k1)) Φ) := by
  iintro Hb Hk
  sl_for (invI (F := F) iprop((b1V).view.loc (thr d L) ↦{fullShare} g) g a) $$ [Hb Hk]
  case region =>
    intro k acc
    unfold invI
    iintro ⟨%hacc, Hb⟩
    sl_exec
    sl_step
    isplitr [Hb]
    · ipureintro
      subst hacc
      have hk : k.val < 25 := lt_of_lt_of_le k.isLt k0_t3_abs.2.1
      have hG : ∀ x, (b1V).view.read (Elt F) g x = g x := fun _ => rfl
      unfold accsN
      refine Prod.ext ?_ (Prod.ext ?_ (Prod.ext ?_ (Prod.ext ?_ (Prod.ext ?_ (Prod.ext ?_ (Prod.ext ?_ ?_))))))
      · exact pay_step (b1V).view g g hG 0 0 rfl _ _ k.val hk rfl _ _ _ _ _ _ _ _
          (k0_off14_eq k ⟨0, by decide⟩) (k0_off14_eq k ⟨1, by decide⟩) (k0_off14_eq k ⟨2, by decide⟩) (k0_off14_eq k ⟨3, by decide⟩)
      · exact pay_step (b1V).view g g hG 1 16 rfl _ _ k.val hk rfl _ _ _ _ _ _ _ _
          (k0_off15_eq k ⟨0, by decide⟩) (k0_off15_eq k ⟨1, by decide⟩) (k0_off15_eq k ⟨2, by decide⟩) (k0_off15_eq k ⟨3, by decide⟩)
      · exact pay_step (b1V).view g g hG 2 32 rfl _ _ k.val hk rfl _ _ _ _ _ _ _ _
          (k0_off16_eq k ⟨0, by decide⟩) (k0_off16_eq k ⟨1, by decide⟩) (k0_off16_eq k ⟨2, by decide⟩) (k0_off16_eq k ⟨3, by decide⟩)
      · exact pay_step (b1V).view g g hG 3 48 rfl _ _ k.val hk rfl _ _ _ _ _ _ _ _
          (k0_off17_eq k ⟨0, by decide⟩) (k0_off17_eq k ⟨1, by decide⟩) (k0_off17_eq k ⟨2, by decide⟩) (k0_off17_eq k ⟨3, by decide⟩)
      · exact pay_step (b1V).view g g hG 4 64 rfl _ _ k.val hk rfl _ _ _ _ _ _ _ _
          (k0_off18_eq k ⟨0, by decide⟩) (k0_off18_eq k ⟨1, by decide⟩) (k0_off18_eq k ⟨2, by decide⟩) (k0_off18_eq k ⟨3, by decide⟩)
      · exact pay_step (b1V).view g g hG 5 80 rfl _ _ k.val hk rfl _ _ _ _ _ _ _ _
          (k0_off19_eq k ⟨0, by decide⟩) (k0_off19_eq k ⟨1, by decide⟩) (k0_off19_eq k ⟨2, by decide⟩) (k0_off19_eq k ⟨3, by decide⟩)
      · exact pay_step (b1V).view g g hG 6 96 rfl _ _ k.val hk rfl _ _ _ _ _ _ _ _
          (k0_off20_eq k ⟨0, by decide⟩) (k0_off20_eq k ⟨1, by decide⟩) (k0_off20_eq k ⟨2, by decide⟩) (k0_off20_eq k ⟨3, by decide⟩)
      · exact pay_step (b1V).view g g hG 7 112 rfl _ _ k.val hk rfl _ _ _ _ _ _ _ _
          (k0_off21_eq k ⟨0, by decide⟩) (k0_off21_eq k ⟨1, by decide⟩) (k0_off21_eq k ⟨2, by decide⟩) (k0_off21_eq k ⟨3, by decide⟩)
    · iexact Hb
  unfold invI
  isplitl [Hb]
  · isplitr [Hb]
    · ipureintro; rfl
    · iexact Hb
  · iintro %acc' ⟨%hacc', Hb⟩
    subst hacc'
    have e : accsN g a (Scf.trips k0_t3_loop.lb k0_t3_loop.ub k0_t3_loop.st) = accsOut g a := by
      rw [show Scf.trips k0_t3_loop.lb k0_t3_loop.ub k0_t3_loop.st = 25 by decide +kernel]
      exact accsN_eq g a 25 (Nat.le_refl _)
    rw [e]
    iapply Hk
    iexact Hb

set_option maxHeartbeats 4000000 in
/-- The next pooling loop (25 steps through buffer 2): from accumulators `a` it returns `accsOut g a` and leaves the buffer as it was. -/
theorem inner_t4 (g : Buf (Elt F) ((thr d L).loc cc0_scratch3)) (a : T8 F) (v8 v9 v10 v11 v12 v13 v14 v15 : FVec F S16 .f32) (k1 : Fin k0_t1_loop.trips) (v123 v134 : BitVec 32) (w3 w4 w5 w6 w7 : FVec F S16 .f32) (v151 : FVec F S1x16 .f32)
    (Φ : T8 F → sProp 𝕄) :
    ((b2V).view.loc (thr d L) ↦{fullShare} g : sProp 𝕄)
      ⊢ iprop((((b2V).view.loc (thr d L) ↦{fullShare} g) -∗ Φ (accsOut g a))
          -∗ wp frame (wpE (defs₀ (F := F)) 𝒱₀ (thr d L) none) Set.univ
              (Scf.Loop.for k0_t4_loop k0_t4_ok a (k0_t4_body L tV (Memref.isWhole_whole _) iV (Memref.isWhole_whole _) oV (Memref.isWhole_whole _)
            xV (Memref.isWhole_whole _) b0V (Memref.isWhole_whole _) b1V (Memref.isWhole_whole _) b2V (Memref.isWhole_whole _)
            b3V (Memref.isWhole_whole _) b4V (Memref.isWhole_whole _) b5V (Memref.isWhole_whole _) yV (Memref.isWhole_whole _)
            cc0_scratch8 cc0_scratch9 cc0_scratch10 cc0_scratch11 cc0_scratch12 cc0_scratch13 cc0_scratch14 cc0_scoped0 cc0_scoped1 v8 v9 v10 v11 v12 v13 v14 v15 k1 v123 v134 w3 w4 w5 w6 w7 v151)) Φ) := by
  iintro Hb Hk
  sl_for (invI (F := F) iprop((b2V).view.loc (thr d L) ↦{fullShare} g) g a) $$ [Hb Hk]
  case region =>
    intro k acc
    unfold invI
    iintro ⟨%hacc, Hb⟩
    sl_exec
    sl_step
    isplitr [Hb]
    · ipureintro
      subst hacc
      have hk : k.val < 25 := lt_of_lt_of_le k.isLt k0_t4_abs.2.1
      have hG : ∀ x, (b2V).view.read (Elt F) g x = g x := fun _ => rfl
      unfold accsN
      refine Prod.ext ?_ (Prod.ext ?_ (Prod.ext ?_ (Prod.ext ?_ (Prod.ext ?_ (Prod.ext ?_ (Prod.ext ?_ ?_))))))
      · exact pay_step (b2V).view g g hG 0 0 rfl _ _ k.val hk rfl _ _ _ _ _ _ _ _
          (k0_off31_eq k ⟨0, by decide⟩) (k0_off31_eq k ⟨1, by decide⟩) (k0_off31_eq k ⟨2, by decide⟩) (k0_off31_eq k ⟨3, by decide⟩)
      · exact pay_step (b2V).view g g hG 1 16 rfl _ _ k.val hk rfl _ _ _ _ _ _ _ _
          (k0_off32_eq k ⟨0, by decide⟩) (k0_off32_eq k ⟨1, by decide⟩) (k0_off32_eq k ⟨2, by decide⟩) (k0_off32_eq k ⟨3, by decide⟩)
      · exact pay_step (b2V).view g g hG 2 32 rfl _ _ k.val hk rfl _ _ _ _ _ _ _ _
          (k0_off33_eq k ⟨0, by decide⟩) (k0_off33_eq k ⟨1, by decide⟩) (k0_off33_eq k ⟨2, by decide⟩) (k0_off33_eq k ⟨3, by decide⟩)
      · exact pay_step (b2V).view g g hG 3 48 rfl _ _ k.val hk rfl _ _ _ _ _ _ _ _
          (k0_off34_eq k ⟨0, by decide⟩) (k0_off34_eq k ⟨1, by decide⟩) (k0_off34_eq k ⟨2, by decide⟩) (k0_off34_eq k ⟨3, by decide⟩)
      · exact pay_step (b2V).view g g hG 4 64 rfl _ _ k.val hk rfl _ _ _ _ _ _ _ _
          (k0_off35_eq k ⟨0, by decide⟩) (k0_off35_eq k ⟨1, by decide⟩) (k0_off35_eq k ⟨2, by decide⟩) (k0_off35_eq k ⟨3, by decide⟩)
      · exact pay_step (b2V).view g g hG 5 80 rfl _ _ k.val hk rfl _ _ _ _ _ _ _ _
          (k0_off36_eq k ⟨0, by decide⟩) (k0_off36_eq k ⟨1, by decide⟩) (k0_off36_eq k ⟨2, by decide⟩) (k0_off36_eq k ⟨3, by decide⟩)
      · exact pay_step (b2V).view g g hG 6 96 rfl _ _ k.val hk rfl _ _ _ _ _ _ _ _
          (k0_off37_eq k ⟨0, by decide⟩) (k0_off37_eq k ⟨1, by decide⟩) (k0_off37_eq k ⟨2, by decide⟩) (k0_off37_eq k ⟨3, by decide⟩)
      · exact pay_step (b2V).view g g hG 7 112 rfl _ _ k.val hk rfl _ _ _ _ _ _ _ _
          (k0_off38_eq k ⟨0, by decide⟩) (k0_off38_eq k ⟨1, by decide⟩) (k0_off38_eq k ⟨2, by decide⟩) (k0_off38_eq k ⟨3, by decide⟩)
    · iexact Hb
  unfold invI
  isplitl [Hb]
  · isplitr [Hb]
    · ipureintro; rfl
    · iexact Hb
  · iintro %acc' ⟨%hacc', Hb⟩
    subst hacc'
    have e : accsN g a (Scf.trips k0_t4_loop.lb k0_t4_loop.ub k0_t4_loop.st) = accsOut g a := by
      rw [show Scf.trips k0_t4_loop.lb k0_t4_loop.ub k0_t4_loop.st = 25 by decide +kernel]
      exact accsN_eq g a 25 (Nat.le_refl _)
    rw [e]
    iapply Hk
    iexact Hb

set_option maxHeartbeats 4000000 in
/-- The next pooling loop (25 steps through buffer 3): from accumulators `a` it returns `accsOut g a` and leaves the buffer as it was. -/
theorem inner_t5 (g : Buf (Elt F) ((thr d L).loc cc0_scratch4)) (a : T8 F) (k1 : Fin k0_t1_loop.trips) (v123 v176 : BitVec 32) (u0 u1 u2 u3 u4 u5 u6 u7 : FVec F S16 .f32) (v184 : BitVec 32)
    (Φ : T8 F → sProp 𝕄) :
    ((b3V).view.loc (thr d L) ↦{fullShare} g : sProp 𝕄)
      ⊢ iprop((((b3V).view.loc (thr d L) ↦{fullShare} g) -∗ Φ (accsOut g a))
          -∗ wp frame (wpE (defs₀ (F := F)) 𝒱₀ (thr d L) none) Set.univ
              (Scf.Loop.for k0_t5_loop k0_t5_ok a (k0_t5_body L tV (Memref.isWhole_whole _) iV (Memref.isWhole_whole _) oV (Memref.isWhole_whole _)
            xV (Memref.isWhole_whole _) b0V (Memref.isWhole_whole _) b1V (Memref.isWhole_whole _) b2V (Memref.isWhole_whole _)
            b3V (Memref.isWhole_whole _) b4V (Memref.isWhole_whole _) b5V (Memref.isWhole_whole _) yV (Memref.isWhole_whole _)
            cc0_scratch8 cc0_scratch9 cc0_scratch10 cc0_scratch11 cc0_scratch12 cc0_scratch13 cc0_scratch14 cc0_scoped0 cc0_scoped1 k1 v123 v176 u0 u1 u2 u3 u4 u5 u6 u7 v184)) Φ) := by
  iintro Hb Hk
  sl_for (invI (F := F) iprop((b3V).view.loc (thr d L) ↦{fullShare} g) g a) $$ [Hb Hk]
  case region =>
    intro k acc
    unfold invI
    iintro ⟨%hacc, Hb⟩
    sl_exec
    sl_step
    isplitr [Hb]
    · ipureintro
      subst hacc
      have hk : k.val < 25 := lt_of_lt_of_le k.isLt k0_t5_abs.2.1
      have hG : ∀ x, (b3V).view.read (Elt F) g x = g x := fun _ => rfl
      unfold accsN
      refine Prod.ext ?_ (Prod.ext ?_ (Prod.ext ?_ (Prod.ext ?_ (Prod.ext ?_ (Prod.ext ?_ (Prod.ext ?_ ?_))))))
      · exact pay_step (b3V).view g g hG 0 0 rfl _ _ k.val hk rfl _ _ _ _ _ _ _ _
          (k0_off40_eq k ⟨0, by decide⟩) (k0_off40_eq k ⟨1, by decide⟩) (k0_off40_eq k ⟨2, by decide⟩) (k0_off40_eq k ⟨3, by decide⟩)
      · exact pay_step (b3V).view g g hG 1 16 rfl _ _ k.val hk rfl _ _ _ _ _ _ _ _
          (k0_off41_eq k ⟨0, by decide⟩) (k0_off41_eq k ⟨1, by decide⟩) (k0_off41_eq k ⟨2, by decide⟩) (k0_off41_eq k ⟨3, by decide⟩)
      · exact pay_step (b3V).view g g hG 2 32 rfl _ _ k.val hk rfl _ _ _ _ _ _ _ _
          (k0_off42_eq k ⟨0, by decide⟩) (k0_off42_eq k ⟨1, by decide⟩) (k0_off42_eq k ⟨2, by decide⟩) (k0_off42_eq k ⟨3, by decide⟩)
      · exact pay_step (b3V).view g g hG 3 48 rfl _ _ k.val hk rfl _ _ _ _ _ _ _ _
          (k0_off43_eq k ⟨0, by decide⟩) (k0_off43_eq k ⟨1, by decide⟩) (k0_off43_eq k ⟨2, by decide⟩) (k0_off43_eq k ⟨3, by decide⟩)
      · exact pay_step (b3V).view g g hG 4 64 rfl _ _ k.val hk rfl _ _ _ _ _ _ _ _
          (k0_off44_eq k ⟨0, by decide⟩) (k0_off44_eq k ⟨1, by decide⟩) (k0_off44_eq k ⟨2, by decide⟩) (k0_off44_eq k ⟨3, by decide⟩)
      · exact pay_step (b3V).view g g hG 5 80 rfl _ _ k.val hk rfl _ _ _ _ _ _ _ _
          (k0_off45_eq k ⟨0, by decide⟩) (k0_off45_eq k ⟨1, by decide⟩) (k0_off45_eq k ⟨2, by decide⟩) (k0_off45_eq k ⟨3, by decide⟩)
      · exact pay_step (b3V).view g g hG 6 96 rfl _ _ k.val hk rfl _ _ _ _ _ _ _ _
          (k0_off46_eq k ⟨0, by decide⟩) (k0_off46_eq k ⟨1, by decide⟩) (k0_off46_eq k ⟨2, by decide⟩) (k0_off46_eq k ⟨3, by decide⟩)
      · exact pay_step (b3V).view g g hG 7 112 rfl _ _ k.val hk rfl _ _ _ _ _ _ _ _
          (k0_off47_eq k ⟨0, by decide⟩) (k0_off47_eq k ⟨1, by decide⟩) (k0_off47_eq k ⟨2, by decide⟩) (k0_off47_eq k ⟨3, by decide⟩)
    · iexact Hb
  unfold invI
  isplitl [Hb]
  · isplitr [Hb]
    · ipureintro; rfl
    · iexact Hb
  · iintro %acc' ⟨%hacc', Hb⟩
    subst hacc'
    have e : accsN g a (Scf.trips k0_t5_loop.lb k0_t5_loop.ub k0_t5_loop.st) = accsOut g a := by
      rw [show Scf.trips k0_t5_loop.lb k0_t5_loop.ub k0_t5_loop.st = 25 by decide +kernel]
      exact accsN_eq g a 25 (Nat.le_refl _)
    rw [e]
    iapply Hk
    iexact Hb

set_option maxHeartbeats 4000000 in
/-- The next pooling loop (25 steps through buffer 4): from accumulators `a` it returns `accsOut g a` and leaves the buffer as it was. -/
theorem inner_t6 (g : Buf (Elt F) ((thr d L).loc cc0_scratch5)) (a : T8 F) (v8 v9 v10 v11 v12 v13 v14 v15 : FVec F S16 .f32) (k1 : Fin k0_t1_loop.trips) (v123 v186 : BitVec 32) (v191_7 : FVec F S16 .f32) (v219 : FVec F S1x16 .f32)
    (Φ : T8 F → sProp 𝕄) :
    ((b4V).view.loc (thr d L) ↦{fullShare} g : sProp 𝕄)
      ⊢ iprop((((b4V).view.loc (thr d L) ↦{fullShare} g) -∗ Φ (accsOut g a))
          -∗ wp frame (wpE (defs₀ (F := F)) 𝒱₀ (thr d L) none) Set.univ
              (Scf.Loop.for k0_t6_loop k0_t6_ok a (k0_t6_body L tV (Memref.isWhole_whole _) iV (Memref.isWhole_whole _) oV (Memref.isWhole_whole _)
            xV (Memref.isWhole_whole _) b0V (Memref.isWhole_whole _) b1V (Memref.isWhole_whole _) b2V (Memref.isWhole_whole _)
            b3V (Memref.isWhole_whole _) b4V (Memref.isWhole_whole _) b5V (Memref.isWhole_whole _) yV (Memref.isWhole_whole _)
            cc0_scratch8 cc0_scratch9 cc0_scratch10 cc0_scratch11 cc0_scratch12 cc0_scratch13 cc0_scratch14 cc0_scoped0 cc0_scoped1 v8 v9 v10 v11 v12 v13 v14 v15 k1 v123 v186 v191_7 v219)) Φ) := by
  iintro Hb Hk
  sl_for (invI (F := F) iprop((b4V).view.loc (thr d L) ↦{fullShare} g) g a) $$ [Hb Hk]
  case region =>
    intro k acc
    unfold invI
    iintro ⟨%hacc, Hb⟩
    sl_exec
    sl_step
    isplitr [Hb]
    · ipureintro
      subst hacc
      have hk : k.val < 25 := lt_of_lt_of_le k.isLt k0_t6_abs.2.1
      have hG : ∀ x, (b4V).view.read (Elt F) g x = g x := fun _ => rfl
      unfold accsN
      refine Prod.ext ?_ (Prod.ext ?_ (Prod.ext ?_ (Prod.ext ?_ (Prod.ext ?_ (Prod.ext ?_ (Prod.ext ?_ ?_))))))
      · exact pay_step (b4V).view g g hG 0 0 rfl _ _ k.val hk rfl _ _ _ _ _ _ _ _
          (k0_off49_eq k ⟨0, by decide⟩) (k0_off49_eq k ⟨1, by decide⟩) (k0_off49_eq k ⟨2, by decide⟩) (k0_off49_eq k ⟨3, by decide⟩)
      · exact pay_step (b4V).view g g hG 1 16 rfl _ _ k.val hk rfl _ _ _ _ _ _ _ _
          (k0_off50_eq k ⟨0, by decide⟩) (k0_off50_eq k ⟨1, by decide⟩) (k0_off50_eq k ⟨2, by decide⟩) (k0_off50_eq k ⟨3, by decide⟩)
      · exact pay_step (b4V).view g g hG 2 32 rfl _ _ k.val hk rfl _ _ _ _ _ _ _ _
          (k0_off51_eq k ⟨0, by decide⟩) (k0_off51_eq k ⟨1, by decide⟩) (k0_off51_eq k ⟨2, by decide⟩) (k0_off51_eq k ⟨3, by decide⟩)
      · exact pay_step (b4V).view g g hG 3 48 rfl _ _ k.val hk rfl _ _ _ _ _ _ _ _
          (k0_off52_eq k ⟨0, by decide⟩) (k0_off52_eq k ⟨1, by decide⟩) (k0_off52_eq k ⟨2, by decide⟩) (k0_off52_eq k ⟨3, by decide⟩)
      · exact pay_step (b4V).view g g hG 4 64 rfl _ _ k.val hk rfl _ _ _ _ _ _ _ _
          (k0_off53_eq k ⟨0, by decide⟩) (k0_off53_eq k ⟨1, by decide⟩) (k0_off53_eq k ⟨2, by decide⟩) (k0_off53_eq k ⟨3, by decide⟩)
      · exact pay_step (b4V).view g g hG 5 80 rfl _ _ k.val hk rfl _ _ _ _ _ _ _ _
          (k0_off54_eq k ⟨0, by decide⟩) (k0_off54_eq k ⟨1, by decide⟩) (k0_off54_eq k ⟨2, by decide⟩) (k0_off54_eq k ⟨3, by decide⟩)
      · exact pay_step (b4V).view g g hG 6 96 rfl _ _ k.val hk rfl _ _ _ _ _ _ _ _
          (k0_off55_eq k ⟨0, by decide⟩) (k0_off55_eq k ⟨1, by decide⟩) (k0_off55_eq k ⟨2, by decide⟩) (k0_off55_eq k ⟨3, by decide⟩)
      · exact pay_step (b4V).view g g hG 7 112 rfl _ _ k.val hk rfl _ _ _ _ _ _ _ _
          (k0_off56_eq k ⟨0, by decide⟩) (k0_off56_eq k ⟨1, by decide⟩) (k0_off56_eq k ⟨2, by decide⟩) (k0_off56_eq k ⟨3, by decide⟩)
    · iexact Hb
  unfold invI
  isplitl [Hb]
  · isplitr [Hb]
    · ipureintro; rfl
    · iexact Hb
  · iintro %acc' ⟨%hacc', Hb⟩
    subst hacc'
    have e : accsN g a (Scf.trips k0_t6_loop.lb k0_t6_loop.ub k0_t6_loop.st) = accsOut g a := by
      rw [show Scf.trips k0_t6_loop.lb k0_t6_loop.ub k0_t6_loop.st = 25 by decide +kernel]
      exact accsN_eq g a 25 (Nat.le_refl _)
    rw [e]
    iapply Hk
    iexact Hb

set_option maxHeartbeats 4000000 in
/-- The next pooling loop (25 steps through buffer 5): from accumulators `a` it returns `accsOut g a` and leaves the buffer as it was. -/
theorem inner_t7 (g : Buf (Elt F) ((thr d L).loc cc0_scratch6)) (a : T8 F) (v8 v9 v10 v11 v12 v13 v14 v15 : FVec F S16 .f32) (k1 : Fin k0_t1_loop.trips) (v123 v186 : BitVec 32) (v191_7 : FVec F S16 .f32) (v219 : FVec F S1x16 .f32)
    (Φ : T8 F → sProp 𝕄) :
    ((b5V).view.loc (thr d L) ↦{fullShare} g : sProp 𝕄)
      ⊢ iprop((((b5V).view.loc (thr d L) ↦{fullShare} g) -∗ Φ (accsOut g a))
          -∗ wp frame (wpE (defs₀ (F := F)) 𝒱₀ (thr d L) none) Set.univ
              (Scf.Loop.for k0_t7_loop k0_t7_ok a (k0_t7_body L tV (Memref.isWhole_whole _) iV (Memref.isWhole_whole _) oV (Memref.isWhole_whole _)
            xV (Memref.isWhole_whole _) b0V (Memref.isWhole_whole _) b1V (Memref.isWhole_whole _) b2V (Memref.isWhole_whole _)
            b3V (Memref.isWhole_whole _) b4V (Memref.isWhole_whole _) b5V (Memref.isWhole_whole _) yV (Memref.isWhole_whole _)
            cc0_scratch8 cc0_scratch9 cc0_scratch10 cc0_scratch11 cc0_scratch12 cc0_scratch13 cc0_scratch14 cc0_scoped0 cc0_scoped1 v8 v9 v10 v11 v12 v13 v14 v15 k1 v123 v186 v191_7 v219)) Φ) := by
  iintro Hb Hk
  sl_for (invI (F := F) iprop((b5V).view.loc (thr d L) ↦{fullShare} g) g a) $$ [Hb Hk]
  case region =>
    intro k acc
    unfold invI
    iintro ⟨%hacc, Hb⟩
    sl_exec
    sl_step
    isplitr [Hb]
    · ipureintro
      subst hacc
      have hk : k.val < 25 := lt_of_lt_of_le k.isLt k0_t7_abs.2.1
      have hG : ∀ x, (b5V).view.read (Elt F) g x = g x := fun _ => rfl
      unfold accsN
      refine Prod.ext ?_ (Prod.ext ?_ (Prod.ext ?_ (Prod.ext ?_ (Prod.ext ?_ (Prod.ext ?_ (Prod.ext ?_ ?_))))))
      · exact pay_step (b5V).view g g hG 0 0 rfl _ _ k.val hk rfl _ _ _ _ _ _ _ _
          (k0_off58_eq k ⟨0, by decide⟩) (k0_off58_eq k ⟨1, by decide⟩) (k0_off58_eq k ⟨2, by decide⟩) (k0_off58_eq k ⟨3, by decide⟩)
      · exact pay_step (b5V).view g g hG 1 16 rfl _ _ k.val hk rfl _ _ _ _ _ _ _ _
          (k0_off59_eq k ⟨0, by decide⟩) (k0_off59_eq k ⟨1, by decide⟩) (k0_off59_eq k ⟨2, by decide⟩) (k0_off59_eq k ⟨3, by decide⟩)
      · exact pay_step (b5V).view g g hG 2 32 rfl _ _ k.val hk rfl _ _ _ _ _ _ _ _
          (k0_off60_eq k ⟨0, by decide⟩) (k0_off60_eq k ⟨1, by decide⟩) (k0_off60_eq k ⟨2, by decide⟩) (k0_off60_eq k ⟨3, by decide⟩)
      · exact pay_step (b5V).view g g hG 3 48 rfl _ _ k.val hk rfl _ _ _ _ _ _ _ _
          (k0_off61_eq k ⟨0, by decide⟩) (k0_off61_eq k ⟨1, by decide⟩) (k0_off61_eq k ⟨2, by decide⟩) (k0_off61_eq k ⟨3, by decide⟩)
      · exact pay_step (b5V).view g g hG 4 64 rfl _ _ k.val hk rfl _ _ _ _ _ _ _ _
          (k0_off62_eq k ⟨0, by decide⟩) (k0_off62_eq k ⟨1, by decide⟩) (k0_off62_eq k ⟨2, by decide⟩) (k0_off62_eq k ⟨3, by decide⟩)
      · exact pay_step (b5V).view g g hG 5 80 rfl _ _ k.val hk rfl _ _ _ _ _ _ _ _
          (k0_off63_eq k ⟨0, by decide⟩) (k0_off63_eq k ⟨1, by decide⟩) (k0_off63_eq k ⟨2, by decide⟩) (k0_off63_eq k ⟨3, by decide⟩)
      · exact pay_step (b5V).view g g hG 6 96 rfl _ _ k.val hk rfl _ _ _ _ _ _ _ _
          (k0_off64_eq k ⟨0, by decide⟩) (k0_off64_eq k ⟨1, by decide⟩) (k0_off64_eq k ⟨2, by decide⟩) (k0_off64_eq k ⟨3, by decide⟩)
      · exact pay_step (b5V).view g g hG 7 112 rfl _ _ k.val hk rfl _ _ _ _ _ _ _ _
          (k0_off65_eq k ⟨0, by decide⟩) (k0_off65_eq k ⟨1, by decide⟩) (k0_off65_eq k ⟨2, by decide⟩) (k0_off65_eq k ⟨3, by decide⟩)
    · iexact Hb
  unfold invI
  isplitl [Hb]
  · isplitr [Hb]
    · ipureintro; rfl
    · iexact Hb
  · iintro %acc' ⟨%hacc', Hb⟩
    subst hacc'
    have e : accsN g a (Scf.trips k0_t7_loop.lb k0_t7_loop.ub k0_t7_loop.st) = accsOut g a := by
      rw [show Scf.trips k0_t7_loop.lb k0_t7_loop.ub k0_t7_loop.st = 25 by decide +kernel]
      exact accsN_eq g a 25 (Nat.le_refl _)
    rw [e]
    iapply Hk
    iexact Hb

set_option maxHeartbeats 4000000 in
/-- The next pooling loop (25 steps through buffer 0): from accumulators `a` it returns `accsOut g a` and leaves the buffer as it was. -/
theorem inner_t8 (g : Buf (Elt F) ((thr d L).loc cc0_scratch1)) (a : T8 F) (v8 v9 v10 v11 v12 v13 v14 v15 : FVec F S16 .f32)
    (Φ : T8 F → sProp 𝕄) :
    ((b0V).view.loc (thr d L) ↦{fullShare} g : sProp 𝕄)
      ⊢ iprop((((b0V).view.loc (thr d L) ↦{fullShare} g) -∗ Φ (accsOut g a))
          -∗ wp frame (wpE (defs₀ (F := F)) 𝒱₀ (thr d L) none) Set.univ
              (Scf.Loop.for k0_t8_loop k0_t8_ok a (k0_t8_body L tV (Memref.isWhole_whole _) iV (Memref.isWhole_whole _) oV (Memref.isWhole_whole _)
            xV (Memref.isWhole_whole _) b0V (Memref.isWhole_whole _) b1V (Memref.isWhole_whole _) b2V (Memref.isWhole_whole _)
            b3V (Memref.isWhole_whole _) b4V (Memref.isWhole_whole _) b5V (Memref.isWhole_whole _) yV (Memref.isWhole_whole _)
            cc0_scratch8 cc0_scratch9 cc0_scratch10 cc0_scratch11 cc0_scratch12 cc0_scratch13 cc0_scratch14 cc0_scoped0 cc0_scoped1 v8 v9 v10 v11 v12 v13 v14 v15)) Φ) := by
  iintro Hb Hk
  sl_for (invI (F := F) iprop((b0V).view.loc (thr d L) ↦{fullShare} g) g a) $$ [Hb Hk]
  case region =>
    intro k acc
    unfold invI
    iintro ⟨%hacc, Hb⟩
    sl_exec
    sl_step
    isplitr [Hb]
    · ipureintro
      subst hacc
      have hk : k.val < 25 := lt_of_lt_of_le k.isLt k0_t8_abs.2.1
      have hG : ∀ x, (b0V).view.read (Elt F) g x = g x := fun _ => rfl
      unfold accsN
      refine Prod.ext ?_ (Prod.ext ?_ (Prod.ext ?_ (Prod.ext ?_ (Prod.ext ?_ (Prod.ext ?_ (Prod.ext ?_ ?_))))))
      · exact pay_step (b0V).view g g hG 0 0 rfl _ _ k.val hk rfl _ _ _ _ _ _ _ _
          (k0_off67_eq k ⟨0, by decide⟩) (k0_off67_eq k ⟨1, by decide⟩) (k0_off67_eq k ⟨2, by decide⟩) (k0_off67_eq k ⟨3, by decide⟩)
      · exact pay_step (b0V).view g g hG 1 16 rfl _ _ k.val hk rfl _ _ _ _ _ _ _ _
          (k0_off68_eq k ⟨0, by decide⟩) (k0_off68_eq k ⟨1, by decide⟩) (k0_off68_eq k ⟨2, by decide⟩) (k0_off68_eq k ⟨3, by decide⟩)
      · exact pay_step (b0V).view g g hG 2 32 rfl _ _ k.val hk rfl _ _ _ _ _ _ _ _
          (k0_off69_eq k ⟨0, by decide⟩) (k0_off69_eq k ⟨1, by decide⟩) (k0_off69_eq k ⟨2, by decide⟩) (k0_off69_eq k ⟨3, by decide⟩)
      · exact pay_step (b0V).view g g hG 3 48 rfl _ _ k.val hk rfl _ _ _ _ _ _ _ _
          (k0_off70_eq k ⟨0, by decide⟩) (k0_off70_eq k ⟨1, by decide⟩) (k0_off70_eq k ⟨2, by decide⟩) (k0_off70_eq k ⟨3, by decide⟩)
      · exact pay_step (b0V).view g g hG 4 64 rfl _ _ k.val hk rfl _ _ _ _ _ _ _ _
          (k0_off71_eq k ⟨0, by decide⟩) (k0_off71_eq k ⟨1, by decide⟩) (k0_off71_eq k ⟨2, by decide⟩) (k0_off71_eq k ⟨3, by decide⟩)
      · exact pay_step (b0V).view g g hG 5 80 rfl _ _ k.val hk rfl _ _ _ _ _ _ _ _
          (k0_off72_eq k ⟨0, by decide⟩) (k0_off72_eq k ⟨1, by decide⟩) (k0_off72_eq k ⟨2, by decide⟩) (k0_off72_eq k ⟨3, by decide⟩)
      · exact pay_step (b0V).view g g hG 6 96 rfl _ _ k.val hk rfl _ _ _ _ _ _ _ _
          (k0_off73_eq k ⟨0, by decide⟩) (k0_off73_eq k ⟨1, by decide⟩) (k0_off73_eq k ⟨2, by decide⟩) (k0_off73_eq k ⟨3, by decide⟩)
      · exact pay_step (b0V).view g g hG 7 112 rfl _ _ k.val hk rfl _ _ _ _ _ _ _ _
          (k0_off74_eq k ⟨0, by decide⟩) (k0_off74_eq k ⟨1, by decide⟩) (k0_off74_eq k ⟨2, by decide⟩) (k0_off74_eq k ⟨3, by decide⟩)
    · iexact Hb
  unfold invI
  isplitl [Hb]
  · isplitr [Hb]
    · ipureintro; rfl
    · iexact Hb
  · iintro %acc' ⟨%hacc', Hb⟩
    subst hacc'
    have e : accsN g a (Scf.trips k0_t8_loop.lb k0_t8_loop.ub k0_t8_loop.st) = accsOut g a := by
      rw [show Scf.trips k0_t8_loop.lb k0_t8_loop.ub k0_t8_loop.st = 25 by decide +kernel]
      exact accsN_eq g a 25 (Nat.le_refl _)
    rw [e]
    iapply Hk
    iexact Hb

set_option maxHeartbeats 4000000 in
/-- The next pooling loop (25 steps through buffer 1): from accumulators `a` it returns `accsOut g a` and leaves the buffer as it was. -/
theorem inner_t9 (g : Buf (Elt F) ((thr d L).loc cc0_scratch2)) (a : T8 F) (v8 v9 v10 v11 v12 v13 v14 v15 : FVec F S16 .f32)
    (Φ : T8 F → sProp 𝕄) :
    ((b1V).view.loc (thr d L) ↦{fullShare} g : sProp 𝕄)
      ⊢ iprop((((b1V).view.loc (thr d L) ↦{fullShare} g) -∗ Φ (accsOut g a))
          -∗ wp frame (wpE (defs₀ (F := F)) 𝒱₀ (thr d L) none) Set.univ
              (Scf.Loop.for k0_t9_loop k0_t9_ok a (k0_t9_body L tV (Memref.isWhole_whole _) iV (Memref.isWhole_whole _) oV (Memref.isWhole_whole _)
            xV (Memref.isWhole_whole _) b0V (Memref.isWhole_whole _) b1V (Memref.isWhole_whole _) b2V (Memref.isWhole_whole _)
            b3V (Memref.isWhole_whole _) b4V (Memref.isWhole_whole _) b5V (Memref.isWhole_whole _) yV (Memref.isWhole_whole _)
            cc0_scratch8 cc0_scratch9 cc0_scratch10 cc0_scratch11 cc0_scratch12 cc0_scratch13 cc0_scratch14 cc0_scoped0 cc0_scoped1 v8 v9 v10 v11 v12 v13 v14 v15)) Φ) := by
  iintro Hb Hk
  sl_for (invI (F := F) iprop((b1V).view.loc (thr d L) ↦{fullShare} g) g a) $$ [Hb Hk]
  case region =>
    intro k acc
    unfold invI
    iintro ⟨%hacc, Hb⟩
    sl_exec
    sl_step
    isplitr [Hb]
    · ipureintro
      subst hacc
      have hk : k.val < 25 := lt_of_lt_of_le k.isLt k0_t9_abs.2.1
      have hG : ∀ x, (b1V).view.read (Elt F) g x = g x := fun _ => rfl
      unfold accsN
      refine Prod.ext ?_ (Prod.ext ?_ (Prod.ext ?_ (Prod.ext ?_ (Prod.ext ?_ (Prod.ext ?_ (Prod.ext ?_ ?_))))))
      · exact pay_step (b1V).view g g hG 0 0 rfl _ _ k.val hk rfl _ _ _ _ _ _ _ _
          (k0_off75_eq k ⟨0, by decide⟩) (k0_off75_eq k ⟨1, by decide⟩) (k0_off75_eq k ⟨2, by decide⟩) (k0_off75_eq k ⟨3, by decide⟩)
      · exact pay_step (b1V).view g g hG 1 16 rfl _ _ k.val hk rfl _ _ _ _ _ _ _ _
          (k0_off76_eq k ⟨0, by decide⟩) (k0_off76_eq k ⟨1, by decide⟩) (k0_off76_eq k ⟨2, by decide⟩) (k0_off76_eq k ⟨3, by decide⟩)
      · exact pay_step (b1V).view g g hG 2 32 rfl _ _ k.val hk rfl _ _ _ _ _ _ _ _
          (k0_off77_eq k ⟨0, by decide⟩) (k0_off77_eq k ⟨1, by decide⟩) (k0_off77_eq k ⟨2, by decide⟩) (k0_off77_eq k ⟨3, by decide⟩)
      · exact pay_step (b1V).view g g hG 3 48 rfl _ _ k.val hk rfl _ _ _ _ _ _ _ _
          (k0_off78_eq k ⟨0, by decide⟩) (k0_off78_eq k ⟨1, by decide⟩) (k0_off78_eq k ⟨2, by decide⟩) (k0_off78_eq k ⟨3, by decide⟩)
      · exact pay_step (b1V).view g g hG 4 64 rfl _ _ k.val hk rfl _ _ _ _ _ _ _ _
          (k0_off79_eq k ⟨0, by decide⟩) (k0_off79_eq k ⟨1, by decide⟩) (k0_off79_eq k ⟨2, by decide⟩) (k0_off79_eq k ⟨3, by decide⟩)
      · exact pay_step (b1V).view g g hG 5 80 rfl _ _ k.val hk rfl _ _ _ _ _ _ _ _
          (k0_off80_eq k ⟨0, by decide⟩) (k0_off80_eq k ⟨1, by decide⟩) (k0_off80_eq k ⟨2, by decide⟩) (k0_off80_eq k ⟨3, by decide⟩)
      · exact pay_step (b1V).view g g hG 6 96 rfl _ _ k.val hk rfl _ _ _ _ _ _ _ _
          (k0_off81_eq k ⟨0, by decide⟩) (k0_off81_eq k ⟨1, by decide⟩) (k0_off81_eq k ⟨2, by decide⟩) (k0_off81_eq k ⟨3, by decide⟩)
      · exact pay_step (b1V).view g g hG 7 112 rfl _ _ k.val hk rfl _ _ _ _ _ _ _ _
          (k0_off82_eq k ⟨0, by decide⟩) (k0_off82_eq k ⟨1, by decide⟩) (k0_off82_eq k ⟨2, by decide⟩) (k0_off82_eq k ⟨3, by decide⟩)
    · iexact Hb
  unfold invI
  isplitl [Hb]
  · isplitr [Hb]
    · ipureintro; rfl
    · iexact Hb
  · iintro %acc' ⟨%hacc', Hb⟩
    subst hacc'
    have e : accsN g a (Scf.trips k0_t9_loop.lb k0_t9_loop.ub k0_t9_loop.st) = accsOut g a := by
      rw [show Scf.trips k0_t9_loop.lb k0_t9_loop.ub k0_t9_loop.st = 25 by decide +kernel]
      exact accsN_eq g a 25 (Nat.le_refl _)
    rw [e]
    iapply Hk
    iexact Hb

set_option maxHeartbeats 4000000 in
/-- The next pooling loop (25 steps through buffer 2): from accumulators `a` it returns `accsOut g a` and leaves the buffer as it was. -/
theorem inner_t10 (g : Buf (Elt F) ((thr d L).loc cc0_scratch3)) (a : T8 F) (v8 v9 v10 v11 v12 v13 v14 v15 : FVec F S16 .f32)
    (Φ : T8 F → sProp 𝕄) :
    ((b2V).view.loc (thr d L) ↦{fullShare} g : sProp 𝕄)
      ⊢ iprop((((b2V).view.loc (thr d L) ↦{fullShare} g) -∗ Φ (accsOut g a))
          -∗ wp frame (wpE (defs₀ (F := F)) 𝒱₀ (thr d L) none) Set.univ
              (Scf.Loop.for k0_t10_loop k0_t10_ok a (k0_t10_body L tV (Memref.isWhole_whole _) iV (Memref.isWhole_whole _) oV (Memref.isWhole_whole _)
            xV (Memref.isWhole_whole _) b0V (Memref.isWhole_whole _) b1V (Memref.isWhole_whole _) b2V (Memref.isWhole_whole _)
            b3V (Memref.isWhole_whole _) b4V (Memref.isWhole_whole _) b5V (Memref.isWhole_whole _) yV (Memref.isWhole_whole _)
            cc0_scratch8 cc0_scratch9 cc0_scratch10 cc0_scratch11 cc0_scratch12 cc0_scratch13 cc0_scratch14 cc0_scoped0 cc0_scoped1 v8 v9 v10 v11 v12 v13 v14 v15)) Φ) := by
  iintro Hb Hk
  sl_for (invI (F := F) iprop((b2V).view.loc (thr d L) ↦{fullShare} g) g a) $$ [Hb Hk]
  case region =>
    intro k acc
    unfold invI
    iintro ⟨%hacc, Hb⟩
    sl_exec
    sl_step
    isplitr [Hb]
    · ipureintro
      subst hacc
      have hk : k.val < 25 := lt_of_lt_of_le k.isLt k0_t10_abs.2.1
      have hG : ∀ x, (b2V).view.read (Elt F) g x = g x := fun _ => rfl
      unfold accsN
      refine Prod.ext ?_ (Prod.ext ?_ (Prod.ext ?_ (Prod.ext ?_ (Prod.ext ?_ (Prod.ext ?_ (Prod.ext ?_ ?_))))))
      · exact pay_step (b2V).view g g hG 0 0 rfl _ _ k.val hk rfl _ _ _ _ _ _ _ _
          (k0_off83_eq k ⟨0, by decide⟩) (k0_off83_eq k ⟨1, by decide⟩) (k0_off83_eq k ⟨2, by decide⟩) (k0_off83_eq k ⟨3, by decide⟩)
      · exact pay_step (b2V).view g g hG 1 16 rfl _ _ k.val hk rfl _ _ _ _ _ _ _ _
          (k0_off84_eq k ⟨0, by decide⟩) (k0_off84_eq k ⟨1, by decide⟩) (k0_off84_eq k ⟨2, by decide⟩) (k0_off84_eq k ⟨3, by decide⟩)
      · exact pay_step (b2V).view g g hG 2 32 rfl _ _ k.val hk rfl _ _ _ _ _ _ _ _
          (k0_off85_eq k ⟨0, by decide⟩) (k0_off85_eq k ⟨1, by decide⟩) (k0_off85_eq k ⟨2, by decide⟩) (k0_off85_eq k ⟨3, by decide⟩)
      · exact pay_step (b2V).view g g hG 3 48 rfl _ _ k.val hk rfl _ _ _ _ _ _ _ _
          (k0_off86_eq k ⟨0, by decide⟩) (k0_off86_eq k ⟨1, by decide⟩) (k0_off86_eq k ⟨2, by decide⟩) (k0_off86_eq k ⟨3, by decide⟩)
      · exact pay_step (b2V).view g g hG 4 64 rfl _ _ k.val hk rfl _ _ _ _ _ _ _ _
          (k0_off87_eq k ⟨0, by decide⟩) (k0_off87_eq k ⟨1, by decide⟩) (k0_off87_eq k ⟨2, by decide⟩) (k0_off87_eq k ⟨3, by decide⟩)
      · exact pay_step (b2V).view g g hG 5 80 rfl _ _ k.val hk rfl _ _ _ _ _ _ _ _
          (k0_off88_eq k ⟨0, by decide⟩) (k0_off88_eq k ⟨1, by decide⟩) (k0_off88_eq k ⟨2, by decide⟩) (k0_off88_eq k ⟨3, by decide⟩)
      · exact pay_step (b2V).view g g hG 6 96 rfl _ _ k.val hk rfl _ _ _ _ _ _ _ _
          (k0_off89_eq k ⟨0, by decide⟩) (k0_off89_eq k ⟨1, by decide⟩) (k0_off89_eq k ⟨2, by decide⟩) (k0_off89_eq k ⟨3, by decide⟩)
      · exact pay_step (b2V).view g g hG 7 112 rfl _ _ k.val hk rfl _ _ _ _ _ _ _ _
          (k0_off90_eq k ⟨0, by decide⟩) (k0_off90_eq k ⟨1, by decide⟩) (k0_off90_eq k ⟨2, by decide⟩) (k0_off90_eq k ⟨3, by decide⟩)
    · iexact Hb
  unfold invI
  isplitl [Hb]
  · isplitr [Hb]
    · ipureintro; rfl
    · iexact Hb
  · iintro %acc' ⟨%hacc', Hb⟩
    subst hacc'
    have e : accsN g a (Scf.trips k0_t10_loop.lb k0_t10_loop.ub k0_t10_loop.st) = accsOut g a := by
      rw [show Scf.trips k0_t10_loop.lb k0_t10_loop.ub k0_t10_loop.st = 25 by decide +kernel]
      exact accsN_eq g a 25 (Nat.le_refl _)
    rw [e]
    iapply Hk
    iexact Hb

set_option maxHeartbeats 4000000 in
/-- The next pooling loop (25 steps through buffer 3): from accumulators `a` it returns `accsOut g a` and leaves the buffer as it was. -/
theorem inner_t11 (g : Buf (Elt F) ((thr d L).loc cc0_scratch4)) (a : T8 F) (v8 v9 v10 v11 v12 v13 v14 v15 : FVec F S16 .f32)
    (Φ : T8 F → sProp 𝕄) :
    ((b3V).view.loc (thr d L) ↦{fullShare} g : sProp 𝕄)
      ⊢ iprop((((b3V).view.loc (thr d L) ↦{fullShare} g) -∗ Φ (accsOut g a))
          -∗ wp frame (wpE (defs₀ (F := F)) 𝒱₀ (thr d L) none) Set.univ
              (Scf.Loop.for k0_t11_loop k0_t11_ok a (k0_t11_body L tV (Memref.isWhole_whole _) iV (Memref.isWhole_whole _) oV (Memref.isWhole_whole _)
            xV (Memref.isWhole_whole _) b0V (Memref.isWhole_whole _) b1V (Memref.isWhole_whole _) b2V (Memref.isWhole_whole _)
            b3V (Memref.isWhole_whole _) b4V (Memref.isWhole_whole _) b5V (Memref.isWhole_whole _) yV (Memref.isWhole_whole _)
            cc0_scratch8 cc0_scratch9 cc0_scratch10 cc0_scratch11 cc0_scratch12 cc0_scratch13 cc0_scratch14 cc0_scoped0 cc0_scoped1 v8 v9 v10 v11 v12 v13 v14 v15)) Φ) := by
  iintro Hb Hk
  sl_for (invI (F := F) iprop((b3V).view.loc (thr d L) ↦{fullShare} g) g a) $$ [Hb Hk]
  case region =>
    intro k acc
    unfold invI
    iintro ⟨%hacc, Hb⟩
    sl_exec
    sl_step
    isplitr [Hb]
    · ipureintro
      subst hacc
      have hk : k.val < 25 := lt_of_lt_of_le k.isLt k0_t11_abs.2.1
      have hG : ∀ x, (b3V).view.read (Elt F) g x = g x := fun _ => rfl
      unfold accsN
      refine Prod.ext ?_ (Prod.ext ?_ (Prod.ext ?_ (Prod.ext ?_ (Prod.ext ?_ (Prod.ext ?_ (Prod.ext ?_ ?_))))))
      · exact pay_step (b3V).view g g hG 0 0 rfl _ _ k.val hk rfl _ _ _ _ _ _ _ _
          (k0_off91_eq k ⟨0, by decide⟩) (k0_off91_eq k ⟨1, by decide⟩) (k0_off91_eq k ⟨2, by decide⟩) (k0_off91_eq k ⟨3, by decide⟩)
      · exact pay_step (b3V).view g g hG 1 16 rfl _ _ k.val hk rfl _ _ _ _ _ _ _ _
          (k0_off92_eq k ⟨0, by decide⟩) (k0_off92_eq k ⟨1, by decide⟩) (k0_off92_eq k ⟨2, by decide⟩) (k0_off92_eq k ⟨3, by decide⟩)
      · exact pay_step (b3V).view g g hG 2 32 rfl _ _ k.val hk rfl _ _ _ _ _ _ _ _
          (k0_off93_eq k ⟨0, by decide⟩) (k0_off93_eq k ⟨1, by decide⟩) (k0_off93_eq k ⟨2, by decide⟩) (k0_off93_eq k ⟨3, by decide⟩)
      · exact pay_step (b3V).view g g hG 3 48 rfl _ _ k.val hk rfl _ _ _ _ _ _ _ _
          (k0_off94_eq k ⟨0, by decide⟩) (k0_off94_eq k ⟨1, by decide⟩) (k0_off94_eq k ⟨2, by decide⟩) (k0_off94_eq k ⟨3, by decide⟩)
      · exact pay_step (b3V).view g g hG 4 64 rfl _ _ k.val hk rfl _ _ _ _ _ _ _ _
          (k0_off95_eq k ⟨0, by decide⟩) (k0_off95_eq k ⟨1, by decide⟩) (k0_off95_eq k ⟨2, by decide⟩) (k0_off95_eq k ⟨3, by decide⟩)
      · exact pay_step (b3V).view g g hG 5 80 rfl _ _ k.val hk rfl _ _ _ _ _ _ _ _
          (k0_off96_eq k ⟨0, by decide⟩) (k0_off96_eq k ⟨1, by decide⟩) (k0_off96_eq k ⟨2, by decide⟩) (k0_off96_eq k ⟨3, by decide⟩)
      · exact pay_step (b3V).view g g hG 6 96 rfl _ _ k.val hk rfl _ _ _ _ _ _ _ _
          (k0_off97_eq k ⟨0, by decide⟩) (k0_off97_eq k ⟨1, by decide⟩) (k0_off97_eq k ⟨2, by decide⟩) (k0_off97_eq k ⟨3, by decide⟩)
      · exact pay_step (b3V).view g g hG 7 112 rfl _ _ k.val hk rfl _ _ _ _ _ _ _ _
          (k0_off98_eq k ⟨0, by decide⟩) (k0_off98_eq k ⟨1, by decide⟩) (k0_off98_eq k ⟨2, by decide⟩) (k0_off98_eq k ⟨3, by decide⟩)
    · iexact Hb
  unfold invI
  isplitl [Hb]
  · isplitr [Hb]
    · ipureintro; rfl
    · iexact Hb
  · iintro %acc' ⟨%hacc', Hb⟩
    subst hacc'
    have e : accsN g a (Scf.trips k0_t11_loop.lb k0_t11_loop.ub k0_t11_loop.st) = accsOut g a := by
      rw [show Scf.trips k0_t11_loop.lb k0_t11_loop.ub k0_t11_loop.st = 25 by decide +kernel]
      exact accsN_eq g a 25 (Nat.le_refl _)
    rw [e]
    iapply Hk
    iexact Hb

end Tile

end Cert.Proof.KI

end
-- ==== Proof.KIInv.lean ====
import proofs.«206947_g65644280152286_cont_9to1_m_226_28_alg».proof.Proof.KICell
import proofs.«206947_g65644280152286_cont_9to1_m_226_28_alg».proof.Proof.KILand
import proofs.«206947_g65644280152286_cont_9to1_m_226_28_alg».proof.Proof.KIRes
import proofs.«206947_g65644280152286_cont_9to1_m_226_28_alg».proof.Proof.KIInner

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S4096x2x100 EltTy.i32)
local notation "oV" => (Memref.whole Cert.KernelIdeal.main_v1_scv : Memref Cert.KernelIdeal.sig Kind.scVector Space.hbm Cert.KernelIdeal.S4096x128 EltTy.f32)
local notation "xV" => (Memref.whole Cert.KernelIdeal.cc0_scratch0 : Memref Cert.KernelIdeal.sig Kind.scVector Space.vmem Cert.KernelIdeal.S128x2x100 EltTy.i32)
local notation "b0V" => (Memref.whole Cert.KernelIdeal.cc0_scratch1 : Memref Cert.KernelIdeal.sig Kind.scVector Space.vmem Cert.KernelIdeal.S100x128 EltTy.f32)
local notation "b1V" => (Memref.whole Cert.KernelIdeal.cc0_scratch2 : Memref Cert.KernelIdeal.sig Kind.scVector Space.vmem Cert.KernelIdeal.S100x128 EltTy.f32)
local notation "b2V" => (Memref.whole Cert.KernelIdeal.cc0_scratch3 : Memref Cert.KernelIdeal.sig Kind.scVector Space.vmem Cert.KernelIdeal.S100x128 EltTy.f32)
local notation "b3V" => (Memref.whole Cert.KernelIdeal.cc0_scratch4 : Memref Cert.KernelIdeal.sig Kind.scVector Space.vmem Cert.KernelIdeal.S100x128 EltTy.f32)
local notation "b4V" => (Memref.whole Cert.KernelIdeal.cc0_scratch5 : Memref Cert.KernelIdeal.sig Kind.scVector Space.vmem Cert.KernelIdeal.S100x128 EltTy.f32)
local notation "b5V" => (Memref.whole Cert.KernelIdeal.cc0_scratch6 : Memref Cert.KernelIdeal.sig Kind.scVector Space.vmem Cert.KernelIdeal.S100x128 EltTy.f32)
local notation "yV" => (Memref.whole Cert.KernelIdeal.cc0_scratch7 : Memref Cert.KernelIdeal.sig Kind.scVector Space.vmem Cert.KernelIdeal.S128x128 EltTy.f32)

variable [FloatOps F]

/-! The main loop's invariant. Trip k handles the tile's local rows 3k, 3k+1, 3k+2: buffer 2j+h holds (or awaits) the rows gathered
    for local row 3k+j, half h. At the head of trip k every buffer's gather for its row of that trip is pending, as long as the row
    exists (< 128); the result scratch holds the finished rows below 3k. -/
section Inv
variable (d : Dev nD) (L : grid0.Coords)

/-- Which trips take the guarded re-issues: the first four always, the last two except in the last trip. -/
theorem cond14 : ∀ k : Fin k0_t1_loop.trips, k0_cond1 k = 1#1 ∧ k0_cond2 k = 1#1 ∧ k0_cond3 k = 1#1 ∧ k0_cond4 k = 1#1 := by decide +kernel
theorem cond56 : ∀ k : Fin k0_t1_loop.trips, (k0_cond5 k = 1#1 ↔ k.val < 41) ∧ (k0_cond6 k = 1#1 ↔ k.val < 41) := by decide +kernel
theorem trips_main : k0_t1_loop.trips = 42 := by decide +kernel

/-- Read shares: buffer `n`'s token of the table (from the tile's share `q`) and of the index scratch. -/
abbrev tokT (q : PosShare TreeShare) (n : ℕ) : PosShare TreeShare := Transfers.shareTokN q n
abbrev tokX (n : ℕ) : PosShare TreeShare := Transfers.shareTokN fullShare n

/-- One buffer's state at a loop head: its gather for local row `row`, half `h` pending (with the rest of its share of the index
    scratch), or — when there is no such row — the buffer, its two read tokens and its semaphore at rest. -/
def CellSt (dst : Memref sig .scVector .vmem S100x128 .f32) (sem : DmaSem sig) (qT qX : PosShare TreeShare)
    (Tb : Buf (Elt F) (tLoc d)) (X : Buf (Elt F) ((thr d L).loc cc0_scratch0))
    (G : Fin 128 → Fin 2 → Buf (Elt F) (dst.view.loc (thr d L))) (row : ℕ) (h : Fin 2) : sProp 𝕄 :=
  if hr : row < 128 then
    iprop(Pend d L dst sem qT qX Tb X (G ⟨row, hr⟩ h) ⟨row, hr⟩ h ∗ ((xV).view.loc (thr d L) ↦[Finset.univ \ lstSet ⟨row, hr⟩ h]{qX} X))
  else
    iprop((∃ f, dst.view.loc (thr d L) ↦{fullShare} f) ∗ ((tV).view.loc (thr d L) ↦{qT} Tb) ∗ ((xV).view.loc (thr d L) ↦{qX} X)
      ∗ semVal (thr d L, SemLoc.dma sem) 0)

omit [FloatOps F] in
theorem CellSt_pos {dst : Memref sig .scVector .vmem S100x128 .f32} {sem : DmaSem sig} {qT qX : PosShare TreeShare}
    {Tb : Buf (Elt F) (tLoc d)} {X : Buf (Elt F) ((thr d L).loc cc0_scratch0)} {G : Fin 128 → Fin 2 → Buf (Elt F) (dst.view.loc (thr d L))}
    {row : ℕ} {h : Fin 2} (hr : row < 128) :
    CellSt d L dst sem qT qX Tb X G row h
      = iprop(Pend d L dst sem qT qX Tb X (G ⟨row, hr⟩ h) ⟨row, hr⟩ h ∗ ((xV).view.loc (thr d L) ↦[Finset.univ \ lstSet ⟨row, hr⟩ h]{qX} X)) := by
  unfold CellSt; rw [dif_pos hr]
omit [FloatOps F] in
theorem CellSt_neg {dst : Memref sig .scVector .vmem S100x128 .f32} {sem : DmaSem sig} {qT qX : PosShare TreeShare}
    {Tb : Buf (Elt F) (tLoc d)} {X : Buf (Elt F) ((thr d L).loc cc0_scratch0)} {G : Fin 128 → Fin 2 → Buf (Elt F) (dst.view.loc (thr d L))}
    {row : ℕ} {h : Fin 2} (hr : ¬ row < 128) :
    CellSt d L dst sem qT qX Tb X G row h
      = iprop((∃ f, dst.view.loc (thr d L) ↦{fullShare} f) ∗ ((tV).view.loc (thr d L) ↦{qT} Tb) ∗ ((xV).view.loc (thr d L) ↦{qX} X)
          ∗ semVal (thr d L, SemLoc.dma sem) 0) := by
  unfold CellSt; rw [dif_neg hr]

/-- The gathered rows as a buffer's contents (the same function for each of the six buffers). -/
abbrev GG (Tb : Buf (Elt F) (tLoc d)) (I : Buf (Elt F) (iLoc d)) : Fin 128 → Fin 2 → S100x128.Idx → F .f32 :=
  fun r h => Gc d L Tb (Xc d L I) r h

/-- The main loop's invariant at trip `k`. -/
def invMain (q : PosShare TreeShare) (I : Buf (Elt F) (iLoc d)) (Tb : Buf (Elt F) (tLoc d)) (O : CellTallies nD τ sig (HIx 1)) (W : Waits sig (HIx 1))
    (k : ℕ) (_ : PUnit) : sProp 𝕄 :=
  iprop(Transfers.MayWaits (thr d L) (default : HIx 1) O
    ∗ CellSt d L (b0V) cc0_scratch8.sem (tokT q 0) (tokX 0) Tb (Xc d L I) (GG d L Tb I) (3 * k) 0
    ∗ CellSt d L (b1V) cc0_scratch9.sem (tokT q 1) (tokX 1) Tb (Xc d L I) (GG d L Tb I) (3 * k) 1
    ∗ CellSt d L (b2V) cc0_scratch10.sem (tokT q 2) (tokX 2) Tb (Xc d L I) (GG d L Tb I) (3 * k + 1) 0
    ∗ CellSt d L (b3V) cc0_scratch11.sem (tokT q 3) (tokX 3) Tb (Xc d L I) (GG d L Tb I) (3 * k + 1) 1
    ∗ CellSt d L (b4V) cc0_scratch12.sem (tokT q 4) (tokX 4) Tb (Xc d L I) (GG d L Tb I) (3 * k + 2) 0
    ∗ CellSt d L (b5V) cc0_scratch13.sem (tokT q 5) (tokX 5) Tb (Xc d L I) (GG d L Tb I) (3 * k + 2) 1
    ∗ (∃ Y : Buf (Elt F) ((thr d L).loc cc0_scratch7), ((yV).view.loc (thr d L) ↦{fullShare} Y)
        ∗ ⌜∀ r : Fin 128, r.val < 3 * k → ∀ c : Fin 128, Y (ValueIdx.ix2 r c) = Yres d L I Tb (ValueIdx.ix2 r c)⌝)
    ∗ ∃ W', ⌜∀ p ∈ W', p ∈ W ∨ p.2 = none⌝ ∗ owes (thr d L) O W')

end Inv

end Cert.Proof.KI

end
-- ==== Proof.KIOut.lean ====
/-
  Value lemmas for a tile's result scratch.

  * One local row's arithmetic. The eight accumulators start at −∞ in every lane and are folded through the row's two
    gathered buffers (half 0, then half 1). Lane t of chunk c is column 16·c + t; the gathered buffer of half h holds,
    at (j, q), the table at the row the tile's j-th index word of that half names, column q, and the tile's index word
    (r, h, j) is the reshaped index at (base + r, h, j). So lane by lane the outcome is the fold KSpec.kresAt of the
    tile's global row and that column: the row's result (rowRes_eq).
  * A 16-lane accumulator stored as one row by 16 lanes puts lane t at (0, t) (store_lane).
  * Eight such stores into one row R of the [128, 128] scratch, chunk c at columns [16·c, 16·c + 16): the chunks are
    disjoint on the column axis, so (R, 16·c + t) reads chunk c's payload at (0, t), and a row other than R reads what
    was there before (row_stores_hit, row_stores_miss).
  * The tile's final copy of the whole scratch onto its 128 rows of the result: row base + r of the result is row r of
    the scratch (landO).
-/
import proofs.«206947_g65644280152286_cont_9to1_m_226_28_alg».proof.Proof.KICell
import proofs.«206947_g65644280152286_cont_9to1_m_226_28_alg».proof.Proof.KIRes
import Idealize.ShloMosaic.Lib.WritesUnit
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S4096x2x100 EltTy.i32)
local notation "oV" => (Memref.whole Cert.KernelIdeal.main_v1_scv : Memref Cert.KernelIdeal.sig Kind.scVector Space.hbm Cert.KernelIdeal.S4096x128 EltTy.f32)
local notation "xV" => (Memref.whole Cert.KernelIdeal.cc0_scratch0 : Memref Cert.KernelIdeal.sig Kind.scVector Space.vmem Cert.KernelIdeal.S128x2x100 EltTy.i32)
local notation "b0V" => (Memref.whole Cert.KernelIdeal.cc0_scratch1 : Memref Cert.KernelIdeal.sig Kind.scVector Space.vmem Cert.KernelIdeal.S100x128 EltTy.f32)
local notation "b1V" => (Memref.whole Cert.KernelIdeal.cc0_scratch2 : Memref Cert.KernelIdeal.sig Kind.scVector Space.vmem Cert.KernelIdeal.S100x128 EltTy.f32)
local notation "b2V" => (Memref.whole Cert.KernelIdeal.cc0_scratch3 : Memref Cert.KernelIdeal.sig Kind.scVector Space.vmem Cert.KernelIdeal.S100x128 EltTy.f32)
local notation "b3V" => (Memref.whole Cert.KernelIdeal.cc0_scratch4 : Memref Cert.KernelIdeal.sig Kind.scVector Space.vmem Cert.KernelIdeal.S100x128 EltTy.f32)
local notation "b4V" => (Memref.whole Cert.KernelIdeal.cc0_scratch5 : Memref Cert.KernelIdeal.sig Kind.scVector Space.vmem Cert.KernelIdeal.S100x128 EltTy.f32)
local notation "b5V" => (Memref.whole Cert.KernelIdeal.cc0_scratch6 : Memref Cert.KernelIdeal.sig Kind.scVector Space.vmem Cert.KernelIdeal.S100x128 EltTy.f32)
local notation "yV" => (Memref.whole Cert.KernelIdeal.cc0_scratch7 : Memref Cert.KernelIdeal.sig Kind.scVector Space.vmem Cert.KernelIdeal.S128x128 EltTy.f32)

variable [FloatOps F]

/-! ## A stored accumulator, lane by lane -/

/-- A 16-lane vector recast as one row by 16 lanes holds lane t at (0, t). -/
theorem store_lane (v : FVec F S16 .f32) (t : Fin 16) :
    shapeCast S1x16 v shapeCasts_S16_S1x16 (ValueIdx.ix2 (0 : Fin 1) t) = v (ValueIdx.ix1 t) := by
  refine shapeCast_apply v shapeCasts_S16_S1x16 _ _ ?_
  rw [Shape.rowMajor_val_one, Shape.rowMajor_val_two]
  show t.val = 0 * 16 + t.val
  omega

/-! ## One local row's arithmetic -/
section Row
variable (d : Dev nD) (L : grid0.Coords)

/-- Down column q of the gathered buffer of local row r, half h, over the landed index scratch: the table's entries of
    the tile's global row, that half, at column q. -/
theorem Gc_col (I : Buf (Elt F) (iLoc d)) (Tb : Buf (Elt F) (tLoc d)) (r : Fin 128) (h : Fin 2) (q : Fin 128) :
    (fun j : Fin 100 => Gc d L Tb (Xc d L I) r h (ValueIdx.ix2 j q)) = KSpec.entries (F := F) I Tb (rowG L r) h q := rfl

/-- Chunk c of a local row: an accumulator that is −∞ in every lane, folded through the row's two gathered buffers,
    holds lane by lane the fold of the tile's global row at the lane's column. -/
theorem chunk_eq (I : Buf (Elt F) (iLoc d)) (Tb : Buf (Elt F) (tLoc d)) (r : Fin 128) (c : Fin 8) (a : FVec F S16 .f32)
    (ha : ∀ i, a i = KSpec.negInf) :
    colUpTo (Gc d L Tb (Xc d L I) r 1) c (colUpTo (Gc d L Tb (Xc d L I) r 0) c a 25 (Nat.le_refl _)) 25 (Nat.le_refl _)
      = chunkRes d L I Tb r c := by
  funext i
  show KSpec.halfUpTo (fun j : Fin 100 => Gc d L Tb (Xc d L I) r 1 (ValueIdx.ix2 j (colOf c (i 0))))
      (KSpec.halfUpTo (fun j : Fin 100 => Gc d L Tb (Xc d L I) r 0 (ValueIdx.ix2 j (colOf c (i 0)))) (a i) 25 (Nat.le_refl _))
      25 (Nat.le_refl _) = KSpec.kresAt (F := F) I Tb (rowG L r) (colOf c (i 0))
  rw [ha i, Gc_col, Gc_col]
  rfl

/-- THE ROW: the eight initial accumulators folded through the row's two gathered buffers are the row's result. -/
theorem rowRes_eq (I : Buf (Elt F) (iLoc d)) (Tb : Buf (Elt F) (tLoc d)) (r : Fin 128) :
    accsOut (Gc d L Tb (Xc d L I) r 1) (accsOut (Gc d L Tb (Xc d L I) r 0)
        (k0_pay103, k0_pay104, k0_pay105, k0_pay106, k0_pay107, k0_pay108, k0_pay109, k0_pay110))
      = rowRes d L I Tb r :=
  Prod.ext (chunk_eq d L I Tb r 0 _ fun _ => rfl) (Prod.ext (chunk_eq d L I Tb r 1 _ fun _ => rfl)
    (Prod.ext (chunk_eq d L I Tb r 2 _ fun _ => rfl) (Prod.ext (chunk_eq d L I Tb r 3 _ fun _ => rfl)
      (Prod.ext (chunk_eq d L I Tb r 4 _ fun _ => rfl) (Prod.ext (chunk_eq d L I Tb r 5 _ fun _ => rfl)
        (Prod.ext (chunk_eq d L I Tb r 6 _ fun _ => rfl) (chunk_eq d L I Tb r 7 _ fun _ => rfl)))))))

end Row

/-! ## Eight one-row stores into one row of the result scratch -/
section RowStores
variable (Yp : (yV).view.ty.Contents (Elt F)) (R : Fin 128) (o : Fin 8 → Fin 2 → ℕ)
  (inb : ∀ (c : Fin 8) (a : Fin 2), o c a + S1x16.size a ≤ S128x128.size a)
  (W : Fin 8 → (⟨S128x128.rank, S1x16.size⟩ : Shape).Idx → Elt F .f32)

/-- The eight stores of one row, as a list of writes has them: the last store first. -/
abbrev rowStores : List (View.Piece (Elt F) S128x128 .f32) :=
  [⟨Rect.unit (o 7) S1x16.size (inb 7), W 7⟩, ⟨Rect.unit (o 6) S1x16.size (inb 6), W 6⟩,
   ⟨Rect.unit (o 5) S1x16.size (inb 5), W 5⟩, ⟨Rect.unit (o 4) S1x16.size (inb 4), W 4⟩,
   ⟨Rect.unit (o 3) S1x16.size (inb 3), W 3⟩, ⟨Rect.unit (o 2) S1x16.size (inb 2), W 2⟩,
   ⟨Rect.unit (o 1) S1x16.size (inb 1), W 1⟩, ⟨Rect.unit (o 0) S1x16.size (inb 0), W 0⟩]

omit [FloatOps F] in
/-- They are eight equal-sized tile stores, in order. -/
theorem rowStores_eq : rowStores o inb W = View.tilePieces (s := S128x128) S1x16.size o inb W 8 (Nat.le_refl 8) := rfl

omit [FloatOps F] in
/-- An index that misses every one of the first j tile stores on one axis reads what was there before. -/
theorem read_tilePieces_miss {NT : ℕ} (tsz : Fin S128x128.rank → ℕ) (off : Fin NT → Fin S128x128.rank → ℕ)
    (inbT : ∀ i a, off i a + tsz a ≤ S128x128.size a) (P : Fin NT → (⟨S128x128.rank, tsz⟩ : Shape).Idx → Elt F .f32)
    (y : S128x128.Idx) (ax : Fin S128x128.rank)
    (hmiss : ∀ i : Fin NT, (y ax).val < off i ax ∨ off i ax + tsz ax ≤ (y ax).val) :
    ∀ (j : ℕ) (hj : j ≤ NT),
      (yV).view.read (Elt F) ((yV).view.writes (Elt F) Yp (View.tilePieces (s := S128x128) tsz off inbT P j hj)) y = (yV).view.read (Elt F) Yp y
  | 0, _ => rfl
  | j + 1, hj => by
    rw [View.tilePieces_succ,
      View.read_writes_cons_unit_of_not_mem (yV).view Yp (inbT ⟨j, hj⟩) (P ⟨j, hj⟩) _ y rfl ax (hmiss ⟨j, hj⟩)]
    exact read_tilePieces_miss tsz off inbT P y ax hmiss j (Nat.le_of_succ_le hj)

omit [FloatOps F] in
/-- (a) Chunk c's store at row R, columns [16·c, 16·c + 16): entry (R, 16·c + t) reads chunk c's payload at (0, t). -/
theorem row_stores_hit (hoff : ∀ c, o c = ![R.val, 16 * c.val]) (c : Fin 8) (t : Fin 16) :
    (yV).view.writes (Elt F) Yp (rowStores o inb W) (ValueIdx.ix2 R (colOf c t)) = W c (ValueIdx.ix2 (0 : Fin 1) t) := by
  rw [rowStores_eq]
  refine View.read_tilePieces (yV).view Yp S1x16.size o inb W 8 (Nat.le_refl 8) (ValueIdx.ix2 R (colOf c t)) c c.isLt
    (ValueIdx.ix2 (0 : Fin 1) t) (fun a => ?_) (1 : Fin 2) (fun c' hc' => ?_)
  · rw [hoff c]
    match a with
    | ⟨0, _⟩ => show R.val = R.val + 0; omega
    | ⟨1, _⟩ => show 16 * c.val + t.val = 16 * c.val + t.val; rfl
  · rw [hoff c']
    show 16 * c.val + t.val < 16 * c'.val ∨ 16 * c'.val + 16 ≤ 16 * c.val + t.val
    have hne : c'.val ≠ c.val := fun h => hc' (Fin.ext h)
    have := t.isLt
    omega

omit [FloatOps F] in
/-- (b) A row other than R is untouched by the eight stores. -/
theorem row_stores_miss (hoff : ∀ c, o c = ![R.val, 16 * c.val]) (r : Fin 128) (hr : r ≠ R) (q : Fin 128) :
    (yV).view.writes (Elt F) Yp (rowStores o inb W) (ValueIdx.ix2 r q) = Yp (ValueIdx.ix2 r q) := by
  rw [rowStores_eq]
  refine read_tilePieces_miss Yp S1x16.size o inb W (ValueIdx.ix2 r q) (0 : Fin 2) (fun i => ?_) 8 (Nat.le_refl 8)
  rw [hoff i]
  show r.val < R.val ∨ R.val + 1 ≤ r.val
  have hne : r.val ≠ R.val := fun h => hr (Fin.ext h)
  omega

end RowStores

/-! ## The tile's final copy onto its rows of the result -/
section Land
variable (d : Dev nD) (L : grid0.Coords)

/-- What the copy of the whole result scratch lands: on the tile's 128 rows of the result array, entry by entry the
    fold of the index rows and the table. Row base + r of the result (base = 256·s + 128·c) is row r of the scratch. -/
theorem landO (I : Buf (Elt F) (iLoc d)) (Tb : Buf (Elt F) (tLoc d)) (fo : Buf (Elt F) (oLoc d))
    (Y : Buf (Elt F) ((thr d L).loc cc0_scratch7)) (hY : ∀ j, Y j = Yres d L I Tb j) :
    ∀ j ∈ (oK L).view.set,
      (oK L).view.writes (Elt F) fo [⟨Rect.whole S128x128, ReadAs.same.apply ((yV).view.read (Elt F) Y)⟩] j
        = KSpec.kres (F := F) I Tb j := by
  intro j hj
  obtain ⟨x, -, rfl⟩ := Finset.mem_map.mp hj
  have e : (oK L).view.emb x = ((oK L).view.slice (Rect.whole S128x128)).emb x := by
    show _ = (oK L).view.emb ((Rect.whole S128x128).emb x)
    rw [Rect.emb_whole_apply]
  have ho : (oK L).view.emb x = ValueIdx.ix2 (n0 := 4096) (n1 := 128) (rowG L (x 0)) (x 1) := by
    funext a; apply Fin.ext
    show ((Rect.unit (s := S4096x128) (k0_off99 L) S128x128.size (k0_off99_inb L)).emb x a).val = _
    rw [Rect.emb_apply]
    show k0_off99 L a + 1 * (x a).val = _
    rw [k0_off99_eq]
    match a with
    | ⟨0, _⟩ => show 256 * (L 1).val + 128 * (L 0).val + 1 * (x 0).val = 256 * (L 1).val + 128 * (L 0).val + (x 0).val; omega
    | ⟨1, _⟩ => show 0 + 1 * (x 1).val = (x 1).val; omega
  have hr : (yV).view.read (Elt F) Y x = Yres d L I Tb x := hY x
  rw [View.writes_singleton]
  conv_lhs => rw [e]
  rw [View.write_emb_of_mem _ _ (Finset.mem_univ _)]
  show _root_.cast _ ((yV).view.read (Elt F) Y x) = _
  rw [hr, ho]
  rfl

end Land

end Cert.Proof.KI

end
-- ==== Proof.KIYStep.lean ====
/-
  One trip of the main loop, on the result scratch.

  A trip of the loop handles three consecutive local rows 3k, 3k + 1, 3k + 2 and stores each row's eight result
  chunks: 24 stores, each one row by 16 lanes, row 3k's first. Read newest first they are three groups of eight, and
  a group touches one row only. So after the trip
    * row 3k + 2 holds what its group stored: at column 16·c + t, lane t of the row's chunk c, which is the fold
      KSpec.kresAt of the row's global batch row at that column;
    * row 3k + 1 is missed by the newest group and holds what its own group stored, likewise; row 3k is missed by
      the two newest groups;
    * a row below 3k is missed by all three groups and holds what it held before the trip.
  Hence if the rows below 3k held the tile's result before the trip, the rows below 3(k + 1) hold it after.
-/
import proofs.«206947_g65644280152286_cont_9to1_m_226_28_alg».proof.Proof.KIOut
import proofs.«206947_g65644280152286_cont_9to1_m_226_28_alg».proof.Proof.KIRes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S4096x2x100 EltTy.i32)
local notation "oV" => (Memref.whole Cert.KernelIdeal.main_v1_scv : Memref Cert.KernelIdeal.sig Kind.scVector Space.hbm Cert.KernelIdeal.S4096x128 EltTy.f32)
local notation "xV" => (Memref.whole Cert.KernelIdeal.cc0_scratch0 : Memref Cert.KernelIdeal.sig Kind.scVector Space.vmem Cert.KernelIdeal.S128x2x100 EltTy.i32)
local notation "b0V" => (Memref.whole Cert.KernelIdeal.cc0_scratch1 : Memref Cert.KernelIdeal.sig Kind.scVector Space.vmem Cert.KernelIdeal.S100x128 EltTy.f32)
local notation "b1V" => (Memref.whole Cert.KernelIdeal.cc0_scratch2 : Memref Cert.KernelIdeal.sig Kind.scVector Space.vmem Cert.KernelIdeal.S100x128 EltTy.f32)
local notation "b2V" => (Memref.whole Cert.KernelIdeal.cc0_scratch3 : Memref Cert.KernelIdeal.sig Kind.scVector Space.vmem Cert.KernelIdeal.S100x128 EltTy.f32)
local notation "b3V" => (Memref.whole Cert.KernelIdeal.cc0_scratch4 : Memref Cert.KernelIdeal.sig Kind.scVector Space.vmem Cert.KernelIdeal.S100x128 EltTy.f32)
local notation "b4V" => (Memref.whole Cert.KernelIdeal.cc0_scratch5 : Memref Cert.KernelIdeal.sig Kind.scVector Space.vmem Cert.KernelIdeal.S100x128 EltTy.f32)
local notation "b5V" => (Memref.whole Cert.KernelIdeal.cc0_scratch6 : Memref Cert.KernelIdeal.sig Kind.scVector Space.vmem Cert.KernelIdeal.S100x128 EltTy.f32)
local notation "yV" => (Memref.whole Cert.KernelIdeal.cc0_scratch7 : Memref Cert.KernelIdeal.sig Kind.scVector Space.vmem Cert.KernelIdeal.S128x128 EltTy.f32)

variable [FloatOps F]

section Step
variable (d : Dev nD) (L : grid0.Coords)

omit [FloatOps F] in
/-- Every column is a lane of a chunk: column q is lane q mod 16 of chunk q div 16. -/
theorem col_eq (q : Fin 128) : ∃ (c : Fin 8) (t : Fin 16), q = colOf c t :=
  ⟨⟨q.val / 16, by have := q.isLt; omega⟩, ⟨q.val % 16, Nat.mod_lt _ (by decide)⟩,
    Fin.ext (by show q.val = 16 * (q.val / 16) + q.val % 16; omega)⟩

/-- A row's eight stores of its result chunks leave the row's result in that row of the scratch. -/
theorem row_written (I : Buf (Elt F) (iLoc d)) (Tb : Buf (Elt F) (tLoc d)) (Yp : (yV).view.ty.Contents (Elt F))
    (R : Fin 128) (o : Fin 8 → Fin 2 → ℕ) (inb : ∀ (c : Fin 8) (a : Fin 2), o c a + S1x16.size a ≤ S128x128.size a)
    (hoff : ∀ c, o c = ![R.val, 16 * c.val]) (q : Fin 128) :
    (yV).view.writes (Elt F) Yp
        (rowStores o inb (fun c => shapeCast S1x16 (chunkRes d L I Tb R c) shapeCasts_S16_S1x16)) (ValueIdx.ix2 R q)
      = Yres d L I Tb (ValueIdx.ix2 R q) := by
  obtain ⟨c, t, rfl⟩ := col_eq q
  rw [row_stores_hit Yp R o inb _ hoff c t]
  show shapeCast S1x16 (chunkRes d L I Tb R c) shapeCasts_S16_S1x16 (ValueIdx.ix2 (0 : Fin 1) t) = _
  rw [store_lane]
  rfl

/-- THE TRIP: with the rows below 3k at the tile's result, the trip's 24 stores leave the rows below 3(k + 1) at it. -/
theorem Y_step (I : Buf (Elt F) (iLoc d)) (Tb : Buf (Elt F) (tLoc d)) (Y : (yV).view.ty.Contents (Elt F)) (k : ℕ) (hk : k < 42)
    (hY : ∀ r : Fin 128, r.val < 3 * k → ∀ c : Fin 128, Y (ValueIdx.ix2 r c) = Yres d L I Tb (ValueIdx.ix2 r c))
    (o0 o1 o2 : Fin 8 → Fin 2 → ℕ)
    (inb0 : ∀ (c : Fin 8) (a : Fin 2), o0 c a + S1x16.size a ≤ S128x128.size a)
    (inb1 : ∀ (c : Fin 8) (a : Fin 2), o1 c a + S1x16.size a ≤ S128x128.size a)
    (inb2 : ∀ (c : Fin 8) (a : Fin 2), o2 c a + S1x16.size a ≤ S128x128.size a)
    (h0 : ∀ c, o0 c = ![3 * k, 16 * c.val]) (h1 : ∀ c, o1 c = ![3 * k + 1, 16 * c.val])
    (h2 : ∀ c, o2 c = ![3 * k + 2, 16 * c.val]) :
    ∀ r : Fin 128, r.val < 3 * (k + 1) → ∀ c : Fin 128,
      (yV).view.writes (Elt F) Y
        (rowStores o2 inb2 (fun c => shapeCast S1x16 (chunkRes d L I Tb ⟨3 * k + 2, by omega⟩ c) shapeCasts_S16_S1x16)
          ++ rowStores o1 inb1 (fun c => shapeCast S1x16 (chunkRes d L I Tb ⟨3 * k + 1, by omega⟩ c) shapeCasts_S16_S1x16)
          ++ rowStores o0 inb0 (fun c => shapeCast S1x16 (chunkRes d L I Tb ⟨3 * k, by omega⟩ c) shapeCasts_S16_S1x16))
        (ValueIdx.ix2 r c)
        = Yres d L I Tb (ValueIdx.ix2 r c) := by
  have b2 : 3 * k + 2 < 128 := by omega
  have b1 : 3 * k + 1 < 128 := by omega
  have b0 : 3 * k < 128 := by omega
  intro r hr q
  rw [View.writes_append, View.writes_append]
  by_cases e2 : r = (⟨3 * k + 2, b2⟩ : Fin 128)
  · subst e2
    exact row_written d L I Tb _ _ o2 inb2 h2 q
  · rw [row_stores_miss _ (⟨3 * k + 2, b2⟩ : Fin 128) o2 inb2 _ h2 r e2 q]
    by_cases e1 : r = (⟨3 * k + 1, b1⟩ : Fin 128)
    · subst e1
      exact row_written d L I Tb _ _ o1 inb1 h1 q
    · rw [row_stores_miss _ (⟨3 * k + 1, b1⟩ : Fin 128) o1 inb1 _ h1 r e1 q]
      by_cases e0 : r = (⟨3 * k, b0⟩ : Fin 128)
      · subst e0
        exact row_written d L I Tb _ _ o0 inb0 h0 q
      · rw [row_stores_miss _ (⟨3 * k, b0⟩ : Fin 128) o0 inb0 _ h0 r e0 q]
        refine hY r ?_ q
        have n2 : r.val ≠ 3 * k + 2 := fun h => e2 (Fin.ext h)
        have n1 : r.val ≠ 3 * k + 1 := fun h => e1 (Fin.ext h)
        have n0 : r.val ≠ 3 * k := fun h => e0 (Fin.ext h)
        omega

end Step

end Cert.Proof.KI

end
-- ==== Proof.KIGather.lean ====
import proofs.«206947_g65644280152286_cont_9to1_m_226_28_alg».proof.Proof.KICell
import proofs.«206947_g65644280152286_cont_9to1_m_226_28_alg».proof.Proof.KILand

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S4096x2x100 EltTy.i32)
local notation "oV" => (Memref.whole Cert.KernelIdeal.main_v1_scv : Memref Cert.KernelIdeal.sig Kind.scVector Space.hbm Cert.KernelIdeal.S4096x128 EltTy.f32)
local notation "xV" => (Memref.whole Cert.KernelIdeal.cc0_scratch0 : Memref Cert.KernelIdeal.sig Kind.scVector Space.vmem Cert.KernelIdeal.S128x2x100 EltTy.i32)
local notation "b0V" => (Memref.whole Cert.KernelIdeal.cc0_scratch1 : Memref Cert.KernelIdeal.sig Kind.scVector Space.vmem Cert.KernelIdeal.S100x128 EltTy.f32)
local notation "b1V" => (Memref.whole Cert.KernelIdeal.cc0_scratch2 : Memref Cert.KernelIdeal.sig Kind.scVector Space.vmem Cert.KernelIdeal.S100x128 EltTy.f32)
local notation "b2V" => (Memref.whole Cert.KernelIdeal.cc0_scratch3 : Memref Cert.KernelIdeal.sig Kind.scVector Space.vmem Cert.KernelIdeal.S100x128 EltTy.f32)
local notation "b3V" => (Memref.whole Cert.KernelIdeal.cc0_scratch4 : Memref Cert.KernelIdeal.sig Kind.scVector Space.vmem Cert.KernelIdeal.S100x128 EltTy.f32)
local notation "b4V" => (Memref.whole Cert.KernelIdeal.cc0_scratch5 : Memref Cert.KernelIdeal.sig Kind.scVector Space.vmem Cert.KernelIdeal.S100x128 EltTy.f32)
local notation "b5V" => (Memref.whole Cert.KernelIdeal.cc0_scratch6 : Memref Cert.KernelIdeal.sig Kind.scVector Space.vmem Cert.KernelIdeal.S100x128 EltTy.f32)
local notation "yV" => (Memref.whole Cert.KernelIdeal.cc0_scratch7 : Memref Cert.KernelIdeal.sig Kind.scVector Space.vmem Cert.KernelIdeal.S128x128 EltTy.f32)

variable [FloatOps F]

/-! The six buffers' gathers: issuing one and waiting for it, in terms of what the tile holds. -/
section Gathers
variable (d : Dev nD) (L : grid0.Coords)

set_option maxHeartbeats 4000000 in
/-- Issue a gather into buffer 0 from the list at (r, h): it takes the table's read token, the buffer and the list's words out of a
    held share of the index scratch; the pending gather and the rest of that share remain. -/
theorem issue_b0 {α : Type} {off : Fin 3 → Nat} {inb : ∀ a, off a + S1x1x100.size a ≤ S128x2x100.size a} (r : Fin 128) (h : Fin 2)
    (h0 : off 0 = r.val) (h1 : off 1 = h.val) (h2 : off 2 = 0) {So : Finset S128x2x100.Idx} (hSo : (lst off inb).view.set ⊆ So)
    (qT qX : PosShare TreeShare) (Tb : Buf (Elt F) (tLoc d)) (I : Buf (Elt F) (iLoc d)) (hI : ∀ j, (I j).toNat < 100000)
    (fd : Buf (Elt F) ((b0V).view.loc (thr d L)))
    {hn : S100.numel = S100x128.size gathers_S100000x128_S100x128.axis'} {hp : (thr d L).2.kind = .scVector} {hsrc : (tAll).view.WordExact}
    {he : EltTy.f32.bits = 32} {hsp : Space.hbm = .hbm ∨ Space.hbm = .shared} {hr : S100000x128.StreamRows 0}
    {k : PUnit → Prog (TpuEff nD τ sig (Elt F) Λ₀ (thr d L).2) α} {Q : α → sProp 𝕄} :
    (iprop(((tV).view.loc (thr d L) ↦{qT} Tb) ∗ ((b0V).view.loc (thr d L) ↦{fullShare} fd) ∗ ((xV).view.loc (thr d L) ↦[So]{qX} Xc d L I)
        ∗ semVal (thr d L, SemLoc.dma cc0_scratch8.sem) 0) : sProp 𝕄)
      ⊢ iprop((Pend d L (b0V) cc0_scratch8.sem qT qX Tb (Xc d L I) (Gc d L Tb (Xc d L I) r h) r h
            ∗ ((xV).view.loc (thr d L) ↦[So \ lstSet r h]{qX} Xc d L I)
          -∗ wp frame (wpE (defs₀ (F := F)) 𝒱₀ (thr d L) none) Set.univ (k ⟨⟩) Q)
        -∗ wp frame (wpE (defs₀ (F := F)) 𝒱₀ (thr d L) none) Set.univ
            (SparseCore.enqueueIndirectGather hp (tAll) (b0V) gathers_S100000x128_S100x128 (lst off inb) hn cc0_scratch8.sem hsrc he hsp hr >>= k) Q) := by
  have hN : ∀ hh : S100000x128.Gathers 0 S100x128, ∑ j, ((b0V).slice (S100x128.rowRect hh.axis' j) (S100x128.stride_rowRect hh.axis' j)).view.dmaCredit
      = (b0V).view.dmaCredit := by decide
  iintro ⟨Ht, Hb, Hx, Hs⟩ Hk
  ihave Hx' := (pointsTo_split_subset (q := qX) (f := Xc d L I) (S := So) hSo).1 $$ Hx
  icases Hx' with ⟨Hl, Hx⟩
  ihave Hts := (Entails.of_eq (show ((tV).view.loc (thr d L) ↦{qT} Tb : sProp 𝕄)
      = ((tAll).view.loc (thr d L) ↦[(tAll).view.set]{qT} Tb) by rw [set_tAll])) $$ Ht
  ihave Hb' := (Entails.of_eq (show ((b0V).view.loc (thr d L) ↦{fullShare} fd : sProp 𝕄)
      = (b0V).view.loc (thr d L) ↦[(b0V).view.set]{fullShare} fd by rw [View.set_whole])) $$ Hb
  have R := SparseCore.wp_indirectGatherLocal (F := F) (defs := defs₀ (F := F)) countersEmb 𝒱₀ (thr d L) none
      (src := tAll) (dst := b0V) (hg := gathers_S100000x128_S100x128) (offs := lst off inb) (hn := hn) (sem := cc0_scratch8.sem)
      (hp := hp) (hsrc := hsrc) (he := he) (hsp := hsp) (hr := hr) (k := k) (Q := Q) (q := qT) (qo := qX) (fs := Tb) (fd := fd) (fo := Xc d L I)
      (default : HIx 1) (b0V).view.dmaCredit (hN _) (by decide) (lst_inb d L r h h0 h1 h2 I hI)
  iapply R $$ [Hts Hb' Hl Hs]
  · isplitl [Hts]; · iexact Hts
    isplitl [Hb']; · iexact Hb'
    isplitl [Hl]; · iexact Hl
    iexact Hs
  iintro Hfl
  iapply Hk
  isplitl [Hfl]
  · iapply (pend_intro_b0 d L r h h0 h1 h2 qT qX Tb (Xc d L I) fd hn (lst_inb d L r h h0 h1 h2 I hI)); iexact Hfl
  · rw [← set_lst_eq (off := off) (inb := inb) r h h0 h1 h2]; iexact Hx

/-- Wait for the gather pending on buffer 0: the buffer comes back holding the gathered rows, with the table's token and the list's
    words, which rejoin the rest of that share of the index scratch. -/
theorem wait_b0 {α : Type} (r : Fin 128) (h : Fin 2) {So : Finset S128x2x100.Idx} (hSo : lstSet r h ⊆ So)
    (qT qX : PosShare TreeShare) (Tb : Buf (Elt F) (tLoc d)) (X : Buf (Elt F) ((thr d L).loc cc0_scratch0)) (g : Buf (Elt F) ((b0V).view.loc (thr d L)))
    (O : CellTallies nD τ sig (HIx 1)) (W : Waits sig (HIx 1))
    {src : Memref sig (thr d L).2.kind .hbm S100000x128 .f32} {hsrc : src.view.WordExact} {hdst : (b0V).view.WordExact}
    {k : PUnit → Prog (TpuEff nD τ sig (Elt F) Λ₀ (thr d L).2) α} {Q : α → sProp 𝕄} :
    (iprop(Pend d L (b0V) cc0_scratch8.sem qT qX Tb X g r h ∗ ((xV).view.loc (thr d L) ↦[So \ lstSet r h]{qX} X)
        ∗ owes (thr d L) O W ∗ Transfers.MayWaits (thr d L) (default : HIx 1) O) : sProp 𝕄)
      ⊢ iprop((((tV).view.loc (thr d L) ↦{qT} Tb) ∗ ((b0V).view.loc (thr d L) ↦{fullShare} g) ∗ ((xV).view.loc (thr d L) ↦[So]{qX} X)
            ∗ semVal (thr d L, SemLoc.dma cc0_scratch8.sem) 0 ∗ owes (thr d L) O (insert (SemLoc.dma cc0_scratch8.sem, (default : HIx 1)) W)
          -∗ wp frame (wpE (defs₀ (F := F)) 𝒱₀ (thr d L) none) Set.univ (k ⟨⟩) Q)
        -∗ wp frame (wpE (defs₀ (F := F)) 𝒱₀ (thr d L) none) Set.univ
            (SparseCore.waitIndirectGather cc0_scratch8.sem src (b0V) hsrc hdst >>= k) Q) := by
  unfold Pend
  rw [SparseCore.waitIndirectGather_bind]
  iintro ⟨Hfl, Hrest, HO, Hmw⟩ Hk
  iapply (Transfers.wp_waitLocalO countersEmb 𝒱₀ (thr d L) none (default : HIx 1) (rfl : (b0V).view.dmaCredit = _)) $$ [Hfl HO Hmw]
  · isplitl [Hfl]; · iexact Hfl
    isplitl [HO]; · iexact HO
    iapply (Transfers.MayWaits.elim (SemLoc.dma cc0_scratch8.sem)) $$ Hmw
  iintro ⟨⟨Hb, Ht, Hl⟩, Hs, HO⟩
  iapply Hk
  isplitl [Ht]; · iexact Ht
  isplitl [Hb]; · iexact Hb
  isplitl [Hl Hrest]
  · iapply (pointsTo_split_subset (q := qX) (f := X) (S := So) hSo).2
    isplitl [Hl] <;> iassumption
  isplitl [Hs]; · iexact Hs
  iexact HO

set_option maxHeartbeats 4000000 in
/-- Issue a gather into buffer 1 from the list at (r, h): it takes the table's read token, the buffer and the list's words out of a
    held share of the index scratch; the pending gather and the rest of that share remain. -/
theorem issue_b1 {α : Type} {off : Fin 3 → Nat} {inb : ∀ a, off a + S1x1x100.size a ≤ S128x2x100.size a} (r : Fin 128) (h : Fin 2)
    (h0 : off 0 = r.val) (h1 : off 1 = h.val) (h2 : off 2 = 0) {So : Finset S128x2x100.Idx} (hSo : (lst off inb).view.set ⊆ So)
    (qT qX : PosShare TreeShare) (Tb : Buf (Elt F) (tLoc d)) (I : Buf (Elt F) (iLoc d)) (hI : ∀ j, (I j).toNat < 100000)
    (fd : Buf (Elt F) ((b1V).view.loc (thr d L)))
    {hn : S100.numel = S100x128.size gathers_S100000x128_S100x128.axis'} {hp : (thr d L).2.kind = .scVector} {hsrc : (tAll).view.WordExact}
    {he : EltTy.f32.bits = 32} {hsp : Space.hbm = .hbm ∨ Space.hbm = .shared} {hr : S100000x128.StreamRows 0}
    {k : PUnit → Prog (TpuEff nD τ sig (Elt F) Λ₀ (thr d L).2) α} {Q : α → sProp 𝕄} :
    (iprop(((tV).view.loc (thr d L) ↦{qT} Tb) ∗ ((b1V).view.loc (thr d L) ↦{fullShare} fd) ∗ ((xV).view.loc (thr d L) ↦[So]{qX} Xc d L I)
        ∗ semVal (thr d L, SemLoc.dma cc0_scratch9.sem) 0) : sProp 𝕄)
      ⊢ iprop((Pend d L (b1V) cc0_scratch9.sem qT qX Tb (Xc d L I) (Gc d L Tb (Xc d L I) r h) r h
            ∗ ((xV).view.loc (thr d L) ↦[So \ lstSet r h]{qX} Xc d L I)
          -∗ wp frame (wpE (defs₀ (F := F)) 𝒱₀ (thr d L) none) Set.univ (k ⟨⟩) Q)
        -∗ wp frame (wpE (defs₀ (F := F)) 𝒱₀ (thr d L) none) Set.univ
            (SparseCore.enqueueIndirectGather hp (tAll) (b1V) gathers_S100000x128_S100x128 (lst off inb) hn cc0_scratch9.sem hsrc he hsp hr >>= k) Q) := by
  have hN : ∀ hh : S100000x128.Gathers 0 S100x128, ∑ j, ((b1V).slice (S100x128.rowRect hh.axis' j) (S100x128.stride_rowRect hh.axis' j)).view.dmaCredit
      = (b1V).view.dmaCredit := by decide
  iintro ⟨Ht, Hb, Hx, Hs⟩ Hk
  ihave Hx' := (pointsTo_split_subset (q := qX) (f := Xc d L I) (S := So) hSo).1 $$ Hx
  icases Hx' with ⟨Hl, Hx⟩
  ihave Hts := (Entails.of_eq (show ((tV).view.loc (thr d L) ↦{qT} Tb : sProp 𝕄)
      = ((tAll).view.loc (thr d L) ↦[(tAll).view.set]{qT} Tb) by rw [set_tAll])) $$ Ht
  ihave Hb' := (Entails.of_eq (show ((b1V).view.loc (thr d L) ↦{fullShare} fd : sProp 𝕄)
      = (b1V).view.loc (thr d L) ↦[(b1V).view.set]{fullShare} fd by rw [View.set_whole])) $$ Hb
  have R := SparseCore.wp_indirectGatherLocal (F := F) (defs := defs₀ (F := F)) countersEmb 𝒱₀ (thr d L) none
      (src := tAll) (dst := b1V) (hg := gathers_S100000x128_S100x128) (offs := lst off inb) (hn := hn) (sem := cc0_scratch9.sem)
      (hp := hp) (hsrc := hsrc) (he := he) (hsp := hsp) (hr := hr) (k := k) (Q := Q) (q := qT) (qo := qX) (fs := Tb) (fd := fd) (fo := Xc d L I)
      (default : HIx 1) (b1V).view.dmaCredit (hN _) (by decide) (lst_inb d L r h h0 h1 h2 I hI)
  iapply R $$ [Hts Hb' Hl Hs]
  · isplitl [Hts]; · iexact Hts
    isplitl [Hb']; · iexact Hb'
    isplitl [Hl]; · iexact Hl
    iexact Hs
  iintro Hfl
  iapply Hk
  isplitl [Hfl]
  · iapply (pend_intro_b1 d L r h h0 h1 h2 qT qX Tb (Xc d L I) fd hn (lst_inb d L r h h0 h1 h2 I hI)); iexact Hfl
  · rw [← set_lst_eq (off := off) (inb := inb) r h h0 h1 h2]; iexact Hx

/-- Wait for the gather pending on buffer 1: the buffer comes back holding the gathered rows, with the table's token and the list's
    words, which rejoin the rest of that share of the index scratch. -/
theorem wait_b1 {α : Type} (r : Fin 128) (h : Fin 2) {So : Finset S128x2x100.Idx} (hSo : lstSet r h ⊆ So)
    (qT qX : PosShare TreeShare) (Tb : Buf (Elt F) (tLoc d)) (X : Buf (Elt F) ((thr d L).loc cc0_scratch0)) (g : Buf (Elt F) ((b1V).view.loc (thr d L)))
    (O : CellTallies nD τ sig (HIx 1)) (W : Waits sig (HIx 1))
    {src : Memref sig (thr d L).2.kind .hbm S100000x128 .f32} {hsrc : src.view.WordExact} {hdst : (b1V).view.WordExact}
    {k : PUnit → Prog (TpuEff nD τ sig (Elt F) Λ₀ (thr d L).2) α} {Q : α → sProp 𝕄} :
    (iprop(Pend d L (b1V) cc0_scratch9.sem qT qX Tb X g r h ∗ ((xV).view.loc (thr d L) ↦[So \ lstSet r h]{qX} X)
        ∗ owes (thr d L) O W ∗ Transfers.MayWaits (thr d L) (default : HIx 1) O) : sProp 𝕄)
      ⊢ iprop((((tV).view.loc (thr d L) ↦{qT} Tb) ∗ ((b1V).view.loc (thr d L) ↦{fullShare} g) ∗ ((xV).view.loc (thr d L) ↦[So]{qX} X)
            ∗ semVal (thr d L, SemLoc.dma cc0_scratch9.sem) 0 ∗ owes (thr d L) O (insert (SemLoc.dma cc0_scratch9.sem, (default : HIx 1)) W)
          -∗ wp frame (wpE (defs₀ (F := F)) 𝒱₀ (thr d L) none) Set.univ (k ⟨⟩) Q)
        -∗ wp frame (wpE (defs₀ (F := F)) 𝒱₀ (thr d L) none) Set.univ
            (SparseCore.waitIndirectGather cc0_scratch9.sem src (b1V) hsrc hdst >>= k) Q) := by
  unfold Pend
  rw [SparseCore.waitIndirectGather_bind]
  iintro ⟨Hfl, Hrest, HO, Hmw⟩ Hk
  iapply (Transfers.wp_waitLocalO countersEmb 𝒱₀ (thr d L) none (default : HIx 1) (rfl : (b1V).view.dmaCredit = _)) $$ [Hfl HO Hmw]
  · isplitl [Hfl]; · iexact Hfl
    isplitl [HO]; · iexact HO
    iapply (Transfers.MayWaits.elim (SemLoc.dma cc0_scratch9.sem)) $$ Hmw
  iintro ⟨⟨Hb, Ht, Hl⟩, Hs, HO⟩
  iapply Hk
  isplitl [Ht]; · iexact Ht
  isplitl [Hb]; · iexact Hb
  isplitl [Hl Hrest]
  · iapply (pointsTo_split_subset (q := qX) (f := X) (S := So) hSo).2
    isplitl [Hl] <;> iassumption
  isplitl [Hs]; · iexact Hs
  iexact HO

set_option maxHeartbeats 4000000 in
/-- Issue a gather into buffer 2 from the list at (r, h): it takes the table's read token, the buffer and the list's words out of a
    held share of the index scratch; the pending gather and the rest of that share remain. -/
theorem issue_b2 {α : Type} {off : Fin 3 → Nat} {inb : ∀ a, off a + S1x1x100.size a ≤ S128x2x100.size a} (r : Fin 128) (h : Fin 2)
    (h0 : off 0 = r.val) (h1 : off 1 = h.val) (h2 : off 2 = 0) {So : Finset S128x2x100.Idx} (hSo : (lst off inb).view.set ⊆ So)
    (qT qX : PosShare TreeShare) (Tb : Buf (Elt F) (tLoc d)) (I : Buf (Elt F) (iLoc d)) (hI : ∀ j, (I j).toNat < 100000)
    (fd : Buf (Elt F) ((b2V).view.loc (thr d L)))
    {hn : S100.numel = S100x128.size gathers_S100000x128_S100x128.axis'} {hp : (thr d L).2.kind = .scVector} {hsrc : (tAll).view.WordExact}
    {he : EltTy.f32.bits = 32} {hsp : Space.hbm = .hbm ∨ Space.hbm = .shared} {hr : S100000x128.StreamRows 0}
    {k : PUnit → Prog (TpuEff nD τ sig (Elt F) Λ₀ (thr d L).2) α} {Q : α → sProp 𝕄} :
    (iprop(((tV).view.loc (thr d L) ↦{qT} Tb) ∗ ((b2V).view.loc (thr d L) ↦{fullShare} fd) ∗ ((xV).view.loc (thr d L) ↦[So]{qX} Xc d L I)
        ∗ semVal (thr d L, SemLoc.dma cc0_scratch10.sem) 0) : sProp 𝕄)
      ⊢ iprop((Pend d L (b2V) cc0_scratch10.sem qT qX Tb (Xc d L I) (Gc d L Tb (Xc d L I) r h) r h
            ∗ ((xV).view.loc (thr d L) ↦[So \ lstSet r h]{qX} Xc d L I)
          -∗ wp frame (wpE (defs₀ (F := F)) 𝒱₀ (thr d L) none) Set.univ (k ⟨⟩) Q)
        -∗ wp frame (wpE (defs₀ (F := F)) 𝒱₀ (thr d L) none) Set.univ
            (SparseCore.enqueueIndirectGather hp (tAll) (b2V) gathers_S100000x128_S100x128 (lst off inb) hn cc0_scratch10.sem hsrc he hsp hr >>= k) Q) := by
  have hN : ∀ hh : S100000x128.Gathers 0 S100x128, ∑ j, ((b2V).slice (S100x128.rowRect hh.axis' j) (S100x128.stride_rowRect hh.axis' j)).view.dmaCredit
      = (b2V).view.dmaCredit := by decide
  iintro ⟨Ht, Hb, Hx, Hs⟩ Hk
  ihave Hx' := (pointsTo_split_subset (q := qX) (f := Xc d L I) (S := So) hSo).1 $$ Hx
  icases Hx' with ⟨Hl, Hx⟩
  ihave Hts := (Entails.of_eq (show ((tV).view.loc (thr d L) ↦{qT} Tb : sProp 𝕄)
      = ((tAll).view.loc (thr d L) ↦[(tAll).view.set]{qT} Tb) by rw [set_tAll])) $$ Ht
  ihave Hb' := (Entails.of_eq (show ((b2V).view.loc (thr d L) ↦{fullShare} fd : sProp 𝕄)
      = (b2V).view.loc (thr d L) ↦[(b2V).view.set]{fullShare} fd by rw [View.set_whole])) $$ Hb
  have R := SparseCore.wp_indirectGatherLocal (F := F) (defs := defs₀ (F := F)) countersEmb 𝒱₀ (thr d L) none
      (src := tAll) (dst := b2V) (hg := gathers_S100000x128_S100x128) (offs := lst off inb) (hn := hn) (sem := cc0_scratch10.sem)
      (hp := hp) (hsrc := hsrc) (he := he) (hsp := hsp) (hr := hr) (k := k) (Q := Q) (q := qT) (qo := qX) (fs := Tb) (fd := fd) (fo := Xc d L I)
      (default : HIx 1) (b2V).view.dmaCredit (hN _) (by decide) (lst_inb d L r h h0 h1 h2 I hI)
  iapply R $$ [Hts Hb' Hl Hs]
  · isplitl [Hts]; · iexact Hts
    isplitl [Hb']; · iexact Hb'
    isplitl [Hl]; · iexact Hl
    iexact Hs
  iintro Hfl
  iapply Hk
  isplitl [Hfl]
  · iapply (pend_intro_b2 d L r h h0 h1 h2 qT qX Tb (Xc d L I) fd hn (lst_inb d L r h h0 h1 h2 I hI)); iexact Hfl
  · rw [← set_lst_eq (off := off) (inb := inb) r h h0 h1 h2]; iexact Hx

/-- Wait for the gather pending on buffer 2: the buffer comes back holding the gathered rows, with the table's token and the list's
    words, which rejoin the rest of that share of the index scratch. -/
theorem wait_b2 {α : Type} (r : Fin 128) (h : Fin 2) {So : Finset S128x2x100.Idx} (hSo : lstSet r h ⊆ So)
    (qT qX : PosShare TreeShare) (Tb : Buf (Elt F) (tLoc d)) (X : Buf (Elt F) ((thr d L).loc cc0_scratch0)) (g : Buf (Elt F) ((b2V).view.loc (thr d L)))
    (O : CellTallies nD τ sig (HIx 1)) (W : Waits sig (HIx 1))
    {src : Memref sig (thr d L).2.kind .hbm S100000x128 .f32} {hsrc : src.view.WordExact} {hdst : (b2V).view.WordExact}
    {k : PUnit → Prog (TpuEff nD τ sig (Elt F) Λ₀ (thr d L).2) α} {Q : α → sProp 𝕄} :
    (iprop(Pend d L (b2V) cc0_scratch10.sem qT qX Tb X g r h ∗ ((xV).view.loc (thr d L) ↦[So \ lstSet r h]{qX} X)
        ∗ owes (thr d L) O W ∗ Transfers.MayWaits (thr d L) (default : HIx 1) O) : sProp 𝕄)
      ⊢ iprop((((tV).view.loc (thr d L) ↦{qT} Tb) ∗ ((b2V).view.loc (thr d L) ↦{fullShare} g) ∗ ((xV).view.loc (thr d L) ↦[So]{qX} X)
            ∗ semVal (thr d L, SemLoc.dma cc0_scratch10.sem) 0 ∗ owes (thr d L) O (insert (SemLoc.dma cc0_scratch10.sem, (default : HIx 1)) W)
          -∗ wp frame (wpE (defs₀ (F := F)) 𝒱₀ (thr d L) none) Set.univ (k ⟨⟩) Q)
        -∗ wp frame (wpE (defs₀ (F := F)) 𝒱₀ (thr d L) none) Set.univ
            (SparseCore.waitIndirectGather cc0_scratch10.sem src (b2V) hsrc hdst >>= k) Q) := by
  unfold Pend
  rw [SparseCore.waitIndirectGather_bind]
  iintro ⟨Hfl, Hrest, HO, Hmw⟩ Hk
  iapply (Transfers.wp_waitLocalO countersEmb 𝒱₀ (thr d L) none (default : HIx 1) (rfl : (b2V).view.dmaCredit = _)) $$ [Hfl HO Hmw]
  · isplitl [Hfl]; · iexact Hfl
    isplitl [HO]; · iexact HO
    iapply (Transfers.MayWaits.elim (SemLoc.dma cc0_scratch10.sem)) $$ Hmw
  iintro ⟨⟨Hb, Ht, Hl⟩, Hs, HO⟩
  iapply Hk
  isplitl [Ht]; · iexact Ht
  isplitl [Hb]; · iexact Hb
  isplitl [Hl Hrest]
  · iapply (pointsTo_split_subset (q := qX) (f := X) (S := So) hSo).2
    isplitl [Hl] <;> iassumption
  isplitl [Hs]; · iexact Hs
  iexact HO

set_option maxHeartbeats 4000000 in
/-- Issue a gather into buffer 3 from the list at (r, h): it takes the table's read token, the buffer and the list's words out of a
    held share of the index scratch; the pending gather and the rest of that share remain. -/
theorem issue_b3 {α : Type} {off : Fin 3 → Nat} {inb : ∀ a, off a + S1x1x100.size a ≤ S128x2x100.size a} (r : Fin 128) (h : Fin 2)
    (h0 : off 0 = r.val) (h1 : off 1 = h.val) (h2 : off 2 = 0) {So : Finset S128x2x100.Idx} (hSo : (lst off inb).view.set ⊆ So)
    (qT qX : PosShare TreeShare) (Tb : Buf (Elt F) (tLoc d)) (I : Buf (Elt F) (iLoc d)) (hI : ∀ j, (I j).toNat < 100000)
    (fd : Buf (Elt F) ((b3V).view.loc (thr d L)))
    {hn : S100.numel = S100x128.size gathers_S100000x128_S100x128.axis'} {hp : (thr d L).2.kind = .scVector} {hsrc : (tAll).view.WordExact}
    {he : EltTy.f32.bits = 32} {hsp : Space.hbm = .hbm ∨ Space.hbm = .shared} {hr : S100000x128.StreamRows 0}
    {k : PUnit → Prog (TpuEff nD τ sig (Elt F) Λ₀ (thr d L).2) α} {Q : α → sProp 𝕄} :
    (iprop(((tV).view.loc (thr d L) ↦{qT} Tb) ∗ ((b3V).view.loc (thr d L) ↦{fullShare} fd) ∗ ((xV).view.loc (thr d L) ↦[So]{qX} Xc d L I)
        ∗ semVal (thr d L, SemLoc.dma cc0_scratch11.sem) 0) : sProp 𝕄)
      ⊢ iprop((Pend d L (b3V) cc0_scratch11.sem qT qX Tb (Xc d L I) (Gc d L Tb (Xc d L I) r h) r h
            ∗ ((xV).view.loc (thr d L) ↦[So \ lstSet r h]{qX} Xc d L I)
          -∗ wp frame (wpE (defs₀ (F := F)) 𝒱₀ (thr d L) none) Set.univ (k ⟨⟩) Q)
        -∗ wp frame (wpE (defs₀ (F := F)) 𝒱₀ (thr d L) none) Set.univ
            (SparseCore.enqueueIndirectGather hp (tAll) (b3V) gathers_S100000x128_S100x128 (lst off inb) hn cc0_scratch11.sem hsrc he hsp hr >>= k) Q) := by
  have hN : ∀ hh : S100000x128.Gathers 0 S100x128, ∑ j, ((b3V).slice (S100x128.rowRect hh.axis' j) (S100x128.stride_rowRect hh.axis' j)).view.dmaCredit
      = (b3V).view.dmaCredit := by decide
  iintro ⟨Ht, Hb, Hx, Hs⟩ Hk
  ihave Hx' := (pointsTo_split_subset (q := qX) (f := Xc d L I) (S := So) hSo).1 $$ Hx
  icases Hx' with ⟨Hl, Hx⟩
  ihave Hts := (Entails.of_eq (show ((tV).view.loc (thr d L) ↦{qT} Tb : sProp 𝕄)
      = ((tAll).view.loc (thr d L) ↦[(tAll).view.set]{qT} Tb) by rw [set_tAll])) $$ Ht
  ihave Hb' := (Entails.of_eq (show ((b3V).view.loc (thr d L) ↦{fullShare} fd : sProp 𝕄)
      = (b3V).view.loc (thr d L) ↦[(b3V).view.set]{fullShare} fd by rw [View.set_whole])) $$ Hb
  have R := SparseCore.wp_indirectGatherLocal (F := F) (defs := defs₀ (F := F)) countersEmb 𝒱₀ (thr d L) none
      (src := tAll) (dst := b3V) (hg := gathers_S100000x128_S100x128) (offs := lst off inb) (hn := hn) (sem := cc0_scratch11.sem)
      (hp := hp) (hsrc := hsrc) (he := he) (hsp := hsp) (hr := hr) (k := k) (Q := Q) (q := qT) (qo := qX) (fs := Tb) (fd := fd) (fo := Xc d L I)
      (default : HIx 1) (b3V).view.dmaCredit (hN _) (by decide) (lst_inb d L r h h0 h1 h2 I hI)
  iapply R $$ [Hts Hb' Hl Hs]
  · isplitl [Hts]; · iexact Hts
    isplitl [Hb']; · iexact Hb'
    isplitl [Hl]; · iexact Hl
    iexact Hs
  iintro Hfl
  iapply Hk
  isplitl [Hfl]
  · iapply (pend_intro_b3 d L r h h0 h1 h2 qT qX Tb (Xc d L I) fd hn (lst_inb d L r h h0 h1 h2 I hI)); iexact Hfl
  · rw [← set_lst_eq (off := off) (inb := inb) r h h0 h1 h2]; iexact Hx

/-- Wait for the gather pending on buffer 3: the buffer comes back holding the gathered rows, with the table's token and the list's
    words, which rejoin the rest of that share of the index scratch. -/
theorem wait_b3 {α : Type} (r : Fin 128) (h : Fin 2) {So : Finset S128x2x100.Idx} (hSo : lstSet r h ⊆ So)
    (qT qX : PosShare TreeShare) (Tb : Buf (Elt F) (tLoc d)) (X : Buf (Elt F) ((thr d L).loc cc0_scratch0)) (g : Buf (Elt F) ((b3V).view.loc (thr d L)))
    (O : CellTallies nD τ sig (HIx 1)) (W : Waits sig (HIx 1))
    {src : Memref sig (thr d L).2.kind .hbm S100000x128 .f32} {hsrc : src.view.WordExact} {hdst : (b3V).view.WordExact}
    {k : PUnit → Prog (TpuEff nD τ sig (Elt F) Λ₀ (thr d L).2) α} {Q : α → sProp 𝕄} :
    (iprop(Pend d L (b3V) cc0_scratch11.sem qT qX Tb X g r h ∗ ((xV).view.loc (thr d L) ↦[So \ lstSet r h]{qX} X)
        ∗ owes (thr d L) O W ∗ Transfers.MayWaits (thr d L) (default : HIx 1) O) : sProp 𝕄)
      ⊢ iprop((((tV).view.loc (thr d L) ↦{qT} Tb) ∗ ((b3V).view.loc (thr d L) ↦{fullShare} g) ∗ ((xV).view.loc (thr d L) ↦[So]{qX} X)
            ∗ semVal (thr d L, SemLoc.dma cc0_scratch11.sem) 0 ∗ owes (thr d L) O (insert (SemLoc.dma cc0_scratch11.sem, (default : HIx 1)) W)
          -∗ wp frame (wpE (defs₀ (F := F)) 𝒱₀ (thr d L) none) Set.univ (k ⟨⟩) Q)
        -∗ wp frame (wpE (defs₀ (F := F)) 𝒱₀ (thr d L) none) Set.univ
            (SparseCore.waitIndirectGather cc0_scratch11.sem src (b3V) hsrc hdst >>= k) Q) := by
  unfold Pend
  rw [SparseCore.waitIndirectGather_bind]
  iintro ⟨Hfl, Hrest, HO, Hmw⟩ Hk
  iapply (Transfers.wp_waitLocalO countersEmb 𝒱₀ (thr d L) none (default : HIx 1) (rfl : (b3V).view.dmaCredit = _)) $$ [Hfl HO Hmw]
  · isplitl [Hfl]; · iexact Hfl
    isplitl [HO]; · iexact HO
    iapply (Transfers.MayWaits.elim (SemLoc.dma cc0_scratch11.sem)) $$ Hmw
  iintro ⟨⟨Hb, Ht, Hl⟩, Hs, HO⟩
  iapply Hk
  isplitl [Ht]; · iexact Ht
  isplitl [Hb]; · iexact Hb
  isplitl [Hl Hrest]
  · iapply (pointsTo_split_subset (q := qX) (f := X) (S := So) hSo).2
    isplitl [Hl] <;> iassumption
  isplitl [Hs]; · iexact Hs
  iexact HO

set_option maxHeartbeats 4000000 in
/-- Issue a gather into buffer 4 from the list at (r, h): it takes the table's read token, the buffer and the list's words out of a
    held share of the index scratch; the pending gather and the rest of that share remain. -/
theorem issue_b4 {α : Type} {off : Fin 3 → Nat} {inb : ∀ a, off a + S1x1x100.size a ≤ S128x2x100.size a} (r : Fin 128) (h : Fin 2)
    (h0 : off 0 = r.val) (h1 : off 1 = h.val) (h2 : off 2 = 0) {So : Finset S128x2x100.Idx} (hSo : (lst off inb).view.set ⊆ So)
    (qT qX : PosShare TreeShare) (Tb : Buf (Elt F) (tLoc d)) (I : Buf (Elt F) (iLoc d)) (hI : ∀ j, (I j).toNat < 100000)
    (fd : Buf (Elt F) ((b4V).view.loc (thr d L)))
    {hn : S100.numel = S100x128.size gathers_S100000x128_S100x128.axis'} {hp : (thr d L).2.kind = .scVector} {hsrc : (tAll).view.WordExact}
    {he : EltTy.f32.bits = 32} {hsp : Space.hbm = .hbm ∨ Space.hbm = .shared} {hr : S100000x128.StreamRows 0}
    {k : PUnit → Prog (TpuEff nD τ sig (Elt F) Λ₀ (thr d L).2) α} {Q : α → sProp 𝕄} :
    (iprop(((tV).view.loc (thr d L) ↦{qT} Tb) ∗ ((b4V).view.loc (thr d L) ↦{fullShare} fd) ∗ ((xV).view.loc (thr d L) ↦[So]{qX} Xc d L I)
        ∗ semVal (thr d L, SemLoc.dma cc0_scratch12.sem) 0) : sProp 𝕄)
      ⊢ iprop((Pend d L (b4V) cc0_scratch12.sem qT qX Tb (Xc d L I) (Gc d L Tb (Xc d L I) r h) r h
            ∗ ((xV).view.loc (thr d L) ↦[So \ lstSet r h]{qX} Xc d L I)
          -∗ wp frame (wpE (defs₀ (F := F)) 𝒱₀ (thr d L) none) Set.univ (k ⟨⟩) Q)
        -∗ wp frame (wpE (defs₀ (F := F)) 𝒱₀ (thr d L) none) Set.univ
            (SparseCore.enqueueIndirectGather hp (tAll) (b4V) gathers_S100000x128_S100x128 (lst off inb) hn cc0_scratch12.sem hsrc he hsp hr >>= k) Q) := by
  have hN : ∀ hh : S100000x128.Gathers 0 S100x128, ∑ j, ((b4V).slice (S100x128.rowRect hh.axis' j) (S100x128.stride_rowRect hh.axis' j)).view.dmaCredit
      = (b4V).view.dmaCredit := by decide
  iintro ⟨Ht, Hb, Hx, Hs⟩ Hk
  ihave Hx' := (pointsTo_split_subset (q := qX) (f := Xc d L I) (S := So) hSo).1 $$ Hx
  icases Hx' with ⟨Hl, Hx⟩
  ihave Hts := (Entails.of_eq (show ((tV).view.loc (thr d L) ↦{qT} Tb : sProp 𝕄)
      = ((tAll).view.loc (thr d L) ↦[(tAll).view.set]{qT} Tb) by rw [set_tAll])) $$ Ht
  ihave Hb' := (Entails.of_eq (show ((b4V).view.loc (thr d L) ↦{fullShare} fd : sProp 𝕄)
      = (b4V).view.loc (thr d L) ↦[(b4V).view.set]{fullShare} fd by rw [View.set_whole])) $$ Hb
  have R := SparseCore.wp_indirectGatherLocal (F := F) (defs := defs₀ (F := F)) countersEmb 𝒱₀ (thr d L) none
      (src := tAll) (dst := b4V) (hg := gathers_S100000x128_S100x128) (offs := lst off inb) (hn := hn) (sem := cc0_scratch12.sem)
      (hp := hp) (hsrc := hsrc) (he := he) (hsp := hsp) (hr := hr) (k := k) (Q := Q) (q := qT) (qo := qX) (fs := Tb) (fd := fd) (fo := Xc d L I)
      (default : HIx 1) (b4V).view.dmaCredit (hN _) (by decide) (lst_inb d L r h h0 h1 h2 I hI)
  iapply R $$ [Hts Hb' Hl Hs]
  · isplitl [Hts]; · iexact Hts
    isplitl [Hb']; · iexact Hb'
    isplitl [Hl]; · iexact Hl
    iexact Hs
  iintro Hfl
  iapply Hk
  isplitl [Hfl]
  · iapply (pend_intro_b4 d L r h h0 h1 h2 qT qX Tb (Xc d L I) fd hn (lst_inb d L r h h0 h1 h2 I hI)); iexact Hfl
  · rw [← set_lst_eq (off := off) (inb := inb) r h h0 h1 h2]; iexact Hx

/-- Wait for the gather pending on buffer 4: the buffer comes back holding the gathered rows, with the table's token and the list's
    words, which rejoin the rest of that share of the index scratch. -/
theorem wait_b4 {α : Type} (r : Fin 128) (h : Fin 2) {So : Finset S128x2x100.Idx} (hSo : lstSet r h ⊆ So)
    (qT qX : PosShare TreeShare) (Tb : Buf (Elt F) (tLoc d)) (X : Buf (Elt F) ((thr d L).loc cc0_scratch0)) (g : Buf (Elt F) ((b4V).view.loc (thr d L)))
    (O : CellTallies nD τ sig (HIx 1)) (W : Waits sig (HIx 1))
    {src : Memref sig (thr d L).2.kind .hbm S100000x128 .f32} {hsrc : src.view.WordExact} {hdst : (b4V).view.WordExact}
    {k : PUnit → Prog (TpuEff nD τ sig (Elt F) Λ₀ (thr d L).2) α} {Q : α → sProp 𝕄} :
    (iprop(Pend d L (b4V) cc0_scratch12.sem qT qX Tb X g r h ∗ ((xV).view.loc (thr d L) ↦[So \ lstSet r h]{qX} X)
        ∗ owes (thr d L) O W ∗ Transfers.MayWaits (thr d L) (default : HIx 1) O) : sProp 𝕄)
      ⊢ iprop((((tV).view.loc (thr d L) ↦{qT} Tb) ∗ ((b4V).view.loc (thr d L) ↦{fullShare} g) ∗ ((xV).view.loc (thr d L) ↦[So]{qX} X)
            ∗ semVal (thr d L, SemLoc.dma cc0_scratch12.sem) 0 ∗ owes (thr d L) O (insert (SemLoc.dma cc0_scratch12.sem, (default : HIx 1)) W)
          -∗ wp frame (wpE (defs₀ (F := F)) 𝒱₀ (thr d L) none) Set.univ (k ⟨⟩) Q)
        -∗ wp frame (wpE (defs₀ (F := F)) 𝒱₀ (thr d L) none) Set.univ
            (SparseCore.waitIndirectGather cc0_scratch12.sem src (b4V) hsrc hdst >>= k) Q) := by
  unfold Pend
  rw [SparseCore.waitIndirectGather_bind]
  iintro ⟨Hfl, Hrest, HO, Hmw⟩ Hk
  iapply (Transfers.wp_waitLocalO countersEmb 𝒱₀ (thr d L) none (default : HIx 1) (rfl : (b4V).view.dmaCredit = _)) $$ [Hfl HO Hmw]
  · isplitl [Hfl]; · iexact Hfl
    isplitl [HO]; · iexact HO
    iapply (Transfers.MayWaits.elim (SemLoc.dma cc0_scratch12.sem)) $$ Hmw
  iintro ⟨⟨Hb, Ht, Hl⟩, Hs, HO⟩
  iapply Hk
  isplitl [Ht]; · iexact Ht
  isplitl [Hb]; · iexact Hb
  isplitl [Hl Hrest]
  · iapply (pointsTo_split_subset (q := qX) (f := X) (S := So) hSo).2
    isplitl [Hl] <;> iassumption
  isplitl [Hs]; · iexact Hs
  iexact HO

set_option maxHeartbeats 4000000 in
/-- Issue a gather into buffer 5 from the list at (r, h): it takes the table's read token, the buffer and the list's words out of a
    held share of the index scratch; the pending gather and the rest of that share remain. -/
theorem issue_b5 {α : Type} {off : Fin 3 → Nat} {inb : ∀ a, off a + S1x1x100.size a ≤ S128x2x100.size a} (r : Fin 128) (h : Fin 2)
    (h0 : off 0 = r.val) (h1 : off 1 = h.val) (h2 : off 2 = 0) {So : Finset S128x2x100.Idx} (hSo : (lst off inb).view.set ⊆ So)
    (qT qX : PosShare TreeShare) (Tb : Buf (Elt F) (tLoc d)) (I : Buf (Elt F) (iLoc d)) (hI : ∀ j, (I j).toNat < 100000)
    (fd : Buf (Elt F) ((b5V).view.loc (thr d L)))
    {hn : S100.numel = S100x128.size gathers_S100000x128_S100x128.axis'} {hp : (thr d L).2.kind = .scVector} {hsrc : (tAll).view.WordExact}
    {he : EltTy.f32.bits = 32} {hsp : Space.hbm = .hbm ∨ Space.hbm = .shared} {hr : S100000x128.StreamRows 0}
    {k : PUnit → Prog (TpuEff nD τ sig (Elt F) Λ₀ (thr d L).2) α} {Q : α → sProp 𝕄} :
    (iprop(((tV).view.loc (thr d L) ↦{qT} Tb) ∗ ((b5V).view.loc (thr d L) ↦{fullShare} fd) ∗ ((xV).view.loc (thr d L) ↦[So]{qX} Xc d L I)
        ∗ semVal (thr d L, SemLoc.dma cc0_scratch13.sem) 0) : sProp 𝕄)
      ⊢ iprop((Pend d L (b5V) cc0_scratch13.sem qT qX Tb (Xc d L I) (Gc d L Tb (Xc d L I) r h) r h
            ∗ ((xV).view.loc (thr d L) ↦[So \ lstSet r h]{qX} Xc d L I)
          -∗ wp frame (wpE (defs₀ (F := F)) 𝒱₀ (thr d L) none) Set.univ (k ⟨⟩) Q)
        -∗ wp frame (wpE (defs₀ (F := F)) 𝒱₀ (thr d L) none) Set.univ
            (SparseCore.enqueueIndirectGather hp (tAll) (b5V) gathers_S100000x128_S100x128 (lst off inb) hn cc0_scratch13.sem hsrc he hsp hr >>= k) Q) := by
  have hN : ∀ hh : S100000x128.Gathers 0 S100x128, ∑ j, ((b5V).slice (S100x128.rowRect hh.axis' j) (S100x128.stride_rowRect hh.axis' j)).view.dmaCredit
      = (b5V).view.dmaCredit := by decide
  iintro ⟨Ht, Hb, Hx, Hs⟩ Hk
  ihave Hx' := (pointsTo_split_subset (q := qX) (f := Xc d L I) (S := So) hSo).1 $$ Hx
  icases Hx' with ⟨Hl, Hx⟩
  ihave Hts := (Entails.of_eq (show ((tV).view.loc (thr d L) ↦{qT} Tb : sProp 𝕄)
      = ((tAll).view.loc (thr d L) ↦[(tAll).view.set]{qT} Tb) by rw [set_tAll])) $$ Ht
  ihave Hb' := (Entails.of_eq (show ((b5V).view.loc (thr d L) ↦{fullShare} fd : sProp 𝕄)
      = (b5V).view.loc (thr d L) ↦[(b5V).view.set]{fullShare} fd by rw [View.set_whole])) $$ Hb
  have R := SparseCore.wp_indirectGatherLocal (F := F) (defs := defs₀ (F := F)) countersEmb 𝒱₀ (thr d L) none
      (src := tAll) (dst := b5V) (hg := gathers_S100000x128_S100x128) (offs := lst off inb) (hn := hn) (sem := cc0_scratch13.sem)
      (hp := hp) (hsrc := hsrc) (he := he) (hsp := hsp) (hr := hr) (k := k) (Q := Q) (q := qT) (qo := qX) (fs := Tb) (fd := fd) (fo := Xc d L I)
      (default : HIx 1) (b5V).view.dmaCredit (hN _) (by decide) (lst_inb d L r h h0 h1 h2 I hI)
  iapply R $$ [Hts Hb' Hl Hs]
  · isplitl [Hts]; · iexact Hts
    isplitl [Hb']; · iexact Hb'
    isplitl [Hl]; · iexact Hl
    iexact Hs
  iintro Hfl
  iapply Hk
  isplitl [Hfl]
  · iapply (pend_intro_b5 d L r h h0 h1 h2 qT qX Tb (Xc d L I) fd hn (lst_inb d L r h h0 h1 h2 I hI)); iexact Hfl
  · rw [← set_lst_eq (off := off) (inb := inb) r h h0 h1 h2]; iexact Hx

/-- Wait for the gather pending on buffer 5: the buffer comes back holding the gathered rows, with the table's token and the list's
    words, which rejoin the rest of that share of the index scratch. -/
theorem wait_b5 {α : Type} (r : Fin 128) (h : Fin 2) {So : Finset S128x2x100.Idx} (hSo : lstSet r h ⊆ So)
    (qT qX : PosShare TreeShare) (Tb : Buf (Elt F) (tLoc d)) (X : Buf (Elt F) ((thr d L).loc cc0_scratch0)) (g : Buf (Elt F) ((b5V).view.loc (thr d L)))
    (O : CellTallies nD τ sig (HIx 1)) (W : Waits sig (HIx 1))
    {src : Memref sig (thr d L).2.kind .hbm S100000x128 .f32} {hsrc : src.view.WordExact} {hdst : (b5V).view.WordExact}
    {k : PUnit → Prog (TpuEff nD τ sig (Elt F) Λ₀ (thr d L).2) α} {Q : α → sProp 𝕄} :
    (iprop(Pend d L (b5V) cc0_scratch13.sem qT qX Tb X g r h ∗ ((xV).view.loc (thr d L) ↦[So \ lstSet r h]{qX} X)
        ∗ owes (thr d L) O W ∗ Transfers.MayWaits (thr d L) (default : HIx 1) O) : sProp 𝕄)
      ⊢ iprop((((tV).view.loc (thr d L) ↦{qT} Tb) ∗ ((b5V).view.loc (thr d L) ↦{fullShare} g) ∗ ((xV).view.loc (thr d L) ↦[So]{qX} X)
            ∗ semVal (thr d L, SemLoc.dma cc0_scratch13.sem) 0 ∗ owes (thr d L) O (insert (SemLoc.dma cc0_scratch13.sem, (default : HIx 1)) W)
          -∗ wp frame (wpE (defs₀ (F := F)) 𝒱₀ (thr d L) none) Set.univ (k ⟨⟩) Q)
        -∗ wp frame (wpE (defs₀ (F := F)) 𝒱₀ (thr d L) none) Set.univ
            (SparseCore.waitIndirectGather cc0_scratch13.sem src (b5V) hsrc hdst >>= k) Q) := by
  unfold Pend
  rw [SparseCore.waitIndirectGather_bind]
  iintro ⟨Hfl, Hrest, HO, Hmw⟩ Hk
  iapply (Transfers.wp_waitLocalO countersEmb 𝒱₀ (thr d L) none (default : HIx 1) (rfl : (b5V).view.dmaCredit = _)) $$ [Hfl HO Hmw]
  · isplitl [Hfl]; · iexact Hfl
    isplitl [HO]; · iexact HO
    iapply (Transfers.MayWaits.elim (SemLoc.dma cc0_scratch13.sem)) $$ Hmw
  iintro ⟨⟨Hb, Ht, Hl⟩, Hs, HO⟩
  iapply Hk
  isplitl [Ht]; · iexact Ht
  isplitl [Hb]; · iexact Hb
  isplitl [Hl Hrest]
  · iapply (pointsTo_split_subset (q := qX) (f := X) (S := So) hSo).2
    isplitl [Hl] <;> iassumption
  isplitl [Hs]; · iexact Hs
  iexact HO

end Gathers

end Cert.Proof.KI

end
-- ==== Proof.KIRegion.lean ====
/-
  One trip of a tile's main loop. Trip k handles the tile's local rows 3k, 3k+1, 3k+2. For buffer b = 0 … 5 (row 3k + b/2,
  half b mod 2) it waits for the buffer's pending gather, which delivers the gathered rows for that row and half, and
  folds the buffer into the running maxima: half 0 from the initial accumulators (every lane −∞), half 1 from half 0's
  result, so that after half 1 the eight accumulators are the row's result (the fold of the row's 200 table entries per
  column); these are stored as the eight 16-lane chunks of row 3k + b/2 of the result scratch. After a buffer is pooled
  its gather for the row three further on (3(k+1) + b/2, same half) is issued when that row exists: always for
  buffers 0 … 3, and for buffers 4, 5 exactly when k < 41 (row 3k + 5 < 128). So the invariant at k + 1 holds again:
  every buffer's gather for its row of trip k + 1 is pending — or, for buffers 4 and 5 after the last trip (k = 41, row
  128 does not exist), the buffer, its two read tokens and its semaphore at rest are held —, the result scratch agrees
  with the tile's result on all rows below 3(k+1) (the 24 stores write rows 3k … 3k+2 and nothing else), and the
  recorded waits are the earlier ones and six of this trip, none on a named handshake.
-/
import proofs.«206947_g65644280152286_cont_9to1_m_226_28_alg».proof.Proof.KIInv
import proofs.«206947_g65644280152286_cont_9to1_m_226_28_alg».proof.Proof.KIInner
import proofs.«206947_g65644280152286_cont_9to1_m_226_28_alg».proof.Proof.KIRes
import proofs.«206947_g65644280152286_cont_9to1_m_226_28_alg».proof.Proof.KIOut
import proofs.«206947_g65644280152286_cont_9to1_m_226_28_alg».proof.Proof.KIYStep
import proofs.«206947_g65644280152286_cont_9to1_m_226_28_alg».proof.Proof.KIGather

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S4096x2x100 EltTy.i32)
local notation "oV" => (Memref.whole Cert.KernelIdeal.main_v1_scv : Memref Cert.KernelIdeal.sig Kind.scVector Space.hbm Cert.KernelIdeal.S4096x128 EltTy.f32)
local notation "xV" => (Memref.whole Cert.KernelIdeal.cc0_scratch0 : Memref Cert.KernelIdeal.sig Kind.scVector Space.vmem Cert.KernelIdeal.S128x2x100 EltTy.i32)
local notation "b0V" => (Memref.whole Cert.KernelIdeal.cc0_scratch1 : Memref Cert.KernelIdeal.sig Kind.scVector Space.vmem Cert.KernelIdeal.S100x128 EltTy.f32)
local notation "b1V" => (Memref.whole Cert.KernelIdeal.cc0_scratch2 : Memref Cert.KernelIdeal.sig Kind.scVector Space.vmem Cert.KernelIdeal.S100x128 EltTy.f32)
local notation "b2V" => (Memref.whole Cert.KernelIdeal.cc0_scratch3 : Memref Cert.KernelIdeal.sig Kind.scVector Space.vmem Cert.KernelIdeal.S100x128 EltTy.f32)
local notation "b3V" => (Memref.whole Cert.KernelIdeal.cc0_scratch4 : Memref Cert.KernelIdeal.sig Kind.scVector Space.vmem Cert.KernelIdeal.S100x128 EltTy.f32)
local notation "b4V" => (Memref.whole Cert.KernelIdeal.cc0_scratch5 : Memref Cert.KernelIdeal.sig Kind.scVector Space.vmem Cert.KernelIdeal.S100x128 EltTy.f32)
local notation "b5V" => (Memref.whole Cert.KernelIdeal.cc0_scratch6 : Memref Cert.KernelIdeal.sig Kind.scVector Space.vmem Cert.KernelIdeal.S100x128 EltTy.f32)
local notation "yV" => (Memref.whole Cert.KernelIdeal.cc0_scratch7 : Memref Cert.KernelIdeal.sig Kind.scVector Space.vmem Cert.KernelIdeal.S128x128 EltTy.f32)

variable [FloatOps F]

section Region
variable (d : Dev nD) (L : grid0.Coords)

omit [FloatOps F] in
/-- A 16-lane chunk at (R, 16·c) lies inside the [128, 128] result scratch. -/
theorem inb_of (o : Fin 8 → Fin 2 → ℕ) (R : ℕ) (hR : R < 128) (ho : ∀ c, o c = ![R, 16 * c.val]) :
    ∀ (c : Fin 8) (a : Fin 2), o c a + S1x16.size a ≤ S128x128.size a := by
  intro c a; rw [ho c]; have := c.isLt
  match a with
  | ⟨0, _⟩ => show R + 1 ≤ 128; omega
  | ⟨1, _⟩ => show 16 * c.val + 16 ≤ 128; omega

set_option maxHeartbeats 4000000 in
/-- The trip when rows 3k + 5 still exist (k < 41): all six buffers are re-issued. -/
theorem region_step_lt (q : PosShare TreeShare) (I : Buf (Elt F) (iLoc d)) (Tb : Buf (Elt F) (tLoc d)) (hI : ∀ j, (I j).toNat < 100000) (O : CellTallies nD τ sig (HIx 1)) (W : Waits sig (HIx 1))
    (k : Fin k0_t1_loop.trips) (hk : k.val < 41) :
    invMain d L q I Tb O W k.val ⟨⟩ ⊢ wp frame (wpE (defs₀ (F := F)) 𝒱₀ (thr d L) none) Set.univ
      (k0_t1_body L tV (Memref.isWhole_whole _) iV (Memref.isWhole_whole _) oV (Memref.isWhole_whole _) xV (Memref.isWhole_whole _) b0V (Memref.isWhole_whole _) b1V (Memref.isWhole_whole _) b2V (Memref.isWhole_whole _) b3V (Memref.isWhole_whole _) b4V (Memref.isWhole_whole _) b5V (Memref.isWhole_whole _) yV (Memref.isWhole_whole _)
        cc0_scratch8 cc0_scratch9 cc0_scratch10 cc0_scratch11 cc0_scratch12 cc0_scratch13 cc0_scratch14 cc0_scoped0 cc0_scoped1
        k0_pay103 k0_pay104 k0_pay105 k0_pay106 k0_pay107 k0_pay108 k0_pay109 k0_pay110 k ⟨⟩)
      (fun x => invMain d L q I Tb O W (k.val + 1) x) := by
  have hk42 : k.val < 42 := lt_of_lt_of_le k.isLt (le_of_eq trips_main)
  unfold invMain
  rw [CellSt_pos d L (show 3 * k.val < 128 by omega), CellSt_pos d L (show 3 * k.val < 128 by omega),
    CellSt_pos d L (show 3 * k.val + 1 < 128 by omega), CellSt_pos d L (show 3 * k.val + 1 < 128 by omega),
    CellSt_pos d L (show 3 * k.val + 2 < 128 by omega), CellSt_pos d L (show 3 * k.val + 2 < 128 by omega)]
  iintro ⟨#Hmw, ⟨Hp0, Hr0⟩, ⟨Hp1, Hr1⟩, ⟨Hp2, Hr2⟩, ⟨Hp3, Hr3⟩, ⟨Hp4, Hr4⟩, ⟨Hp5, Hr5⟩, ⟨%Y, HY, %hY⟩, ⟨%W0, %hW0, HO⟩⟩
  have k0_h1 := (cond14 k).1
  have k0_h2 := (cond14 k).2.1
  have k0_h3 := (cond14 k).2.2.1
  have k0_h4 := (cond14 k).2.2.2
  have k0_h5 : k0_cond5 k = 1#1 := (cond56 k).1.2 hk
  have k0_h6 : k0_cond6 k = 1#1 := (cond56 k).2.2 hk
  sl_exec
  -- wait for buffer 0
  rw [← wp_bind]
  iapply (wait_b0 d L ⟨3 * k.val, by omega⟩ 0 (So := Finset.univ) (Finset.subset_univ _) (tokT q 0) (tokX 0) Tb (Xc d L I) (GG d L Tb I ⟨3 * k.val, by omega⟩ 0) O _) $$ [Hp0 Hr0 HO Hmw]
  · isplitl [Hp0]; · iexact Hp0
    isplitl [Hr0]; · iexact Hr0
    isplitl [HO]; · iexact HO
    iexact Hmw
  iintro ⟨Ht0, Hb0, Hx0, Hs0, HO⟩
  sl_exec
  -- pool buffer 0
  rw [wp_bind]
  iapply (inner_t2 d L (GG d L Tb I ⟨3 * k.val, by omega⟩ 0) (k0_pay103, k0_pay104, k0_pay105, k0_pay106, k0_pay107, k0_pay108, k0_pay109, k0_pay110) _ _ _ _ _ _ _ _ _ _ _ _) $$ [Hb0]
  · iexact Hb0
  iintro Hb0
  sl_exec
  -- re-issue buffer 0
  iapply (issue_b0 d L (off := k0_off12 k) (inb := k0_off12_inb k k0_h1) ⟨3 * (k.val + 1), by omega⟩ 0
    (by rw [k0_off12_eq]; show 3 * k.val + 3 = 3 * (k.val + 1); omega) (by rw [k0_off12_eq]; rfl) (by rw [k0_off12_eq]; rfl)
    (So := Finset.univ) (Finset.subset_univ _) (tokT q 0) (tokX 0) Tb I hI _) $$ [Ht0 Hb0 Hx0 Hs0]
  · isplitl [Ht0]; · iexact Ht0
    isplitl [Hb0]; · iexact Hb0
    isplitl [Hx0]; · iexact Hx0
    iexact Hs0
  iintro ⟨Hp0, Hr0⟩
  sl_exec
  -- wait for buffer 1
  iapply (wait_b1 d L ⟨3 * k.val, by omega⟩ 1 (So := Finset.univ) (Finset.subset_univ _) (tokT q 1) (tokX 1) Tb (Xc d L I) (GG d L Tb I ⟨3 * k.val, by omega⟩ 1) O _) $$ [Hp1 Hr1 HO Hmw]
  · isplitl [Hp1]; · iexact Hp1
    isplitl [Hr1]; · iexact Hr1
    isplitl [HO]; · iexact HO
    iexact Hmw
  iintro ⟨Ht1, Hb1, Hx1, Hs1, HO⟩
  sl_exec
  -- pool buffer 1
  rw [wp_bind]
  iapply (inner_t3 d L (GG d L Tb I ⟨3 * k.val, by omega⟩ 1) (accsOut (GG d L Tb I ⟨3 * k.val, by omega⟩ 0) (k0_pay103, k0_pay104, k0_pay105, k0_pay106, k0_pay107, k0_pay108, k0_pay109, k0_pay110)) _ _ _ _ _ _ _ _ _ _ _ _) $$ [Hb1]
  · iexact Hb1
  iintro Hb1
  rw [rowRes_eq d L I Tb ⟨3 * k.val, by omega⟩]
  sl_exec
  -- re-issue buffer 1
  iapply (issue_b1 d L (off := k0_off30 k) (inb := k0_off30_inb k k0_h2) ⟨3 * (k.val + 1), by omega⟩ 1
    (by rw [k0_off30_eq]; show 3 * k.val + 3 = 3 * (k.val + 1); omega) (by rw [k0_off30_eq]; rfl) (by rw [k0_off30_eq]; rfl)
    (So := Finset.univ) (Finset.subset_univ _) (tokT q 1) (tokX 1) Tb I hI _) $$ [Ht1 Hb1 Hx1 Hs1]
  · isplitl [Ht1]; · iexact Ht1
    isplitl [Hb1]; · iexact Hb1
    isplitl [Hx1]; · iexact Hx1
    iexact Hs1
  iintro ⟨Hp1, Hr1⟩
  sl_exec
  -- wait for buffer 2
  iapply (wait_b2 d L ⟨3 * k.val + 1, by omega⟩ 0 (So := Finset.univ) (Finset.subset_univ _) (tokT q 2) (tokX 2) Tb (Xc d L I) (GG d L Tb I ⟨3 * k.val + 1, by omega⟩ 0) O _) $$ [Hp2 Hr2 HO Hmw]
  · isplitl [Hp2]; · iexact Hp2
    isplitl [Hr2]; · iexact Hr2
    isplitl [HO]; · iexact HO
    iexact Hmw
  iintro ⟨Ht2, Hb2, Hx2, Hs2, HO⟩
  sl_exec
  -- pool buffer 2
  rw [wp_bind]
  iapply (inner_t4 d L (GG d L Tb I ⟨3 * k.val + 1, by omega⟩ 0) (k0_pay103, k0_pay104, k0_pay105, k0_pay106, k0_pay107, k0_pay108, k0_pay109, k0_pay110) _ _ _ _ _ _ _ _ _ _ _ _ _ _ _ _ _ _) $$ [Hb2]
  · iexact Hb2
  iintro Hb2
  sl_exec
  -- re-issue buffer 2
  iapply (issue_b2 d L (off := k0_off39 k) (inb := k0_off39_inb k k0_h3) ⟨3 * (k.val + 1) + 1, by omega⟩ 0
    (by rw [k0_off39_eq]; show 3 * k.val + 4 = 3 * (k.val + 1) + 1; omega) (by rw [k0_off39_eq]; rfl) (by rw [k0_off39_eq]; rfl)
    (So := Finset.univ) (Finset.subset_univ _) (tokT q 2) (tokX 2) Tb I hI _) $$ [Ht2 Hb2 Hx2 Hs2]
  · isplitl [Ht2]; · iexact Ht2
    isplitl [Hb2]; · iexact Hb2
    isplitl [Hx2]; · iexact Hx2
    iexact Hs2
  iintro ⟨Hp2, Hr2⟩
  sl_exec
  -- wait for buffer 3
  iapply (wait_b3 d L ⟨3 * k.val + 1, by omega⟩ 1 (So := Finset.univ) (Finset.subset_univ _) (tokT q 3) (tokX 3) Tb (Xc d L I) (GG d L Tb I ⟨3 * k.val + 1, by omega⟩ 1) O _) $$ [Hp3 Hr3 HO Hmw]
  · isplitl [Hp3]; · iexact Hp3
    isplitl [Hr3]; · iexact Hr3
    isplitl [HO]; · iexact HO
    iexact Hmw
  iintro ⟨Ht3, Hb3, Hx3, Hs3, HO⟩
  sl_exec
  -- pool buffer 3
  rw [wp_bind]
  iapply (inner_t5 d L (GG d L Tb I ⟨3 * k.val + 1, by omega⟩ 1) (accsOut (GG d L Tb I ⟨3 * k.val + 1, by omega⟩ 0) (k0_pay103, k0_pay104, k0_pay105, k0_pay106, k0_pay107, k0_pay108, k0_pay109, k0_pay110)) _ _ _ _ _ _ _ _ _ _ _ _ _) $$ [Hb3]
  · iexact Hb3
  iintro Hb3
  rw [rowRes_eq d L I Tb ⟨3 * k.val + 1, by omega⟩]
  sl_exec
  -- re-issue buffer 3
  iapply (issue_b3 d L (off := k0_off48 k) (inb := k0_off48_inb k k0_h4) ⟨3 * (k.val + 1) + 1, by omega⟩ 1
    (by rw [k0_off48_eq]; show 3 * k.val + 4 = 3 * (k.val + 1) + 1; omega) (by rw [k0_off48_eq]; rfl) (by rw [k0_off48_eq]; rfl)
    (So := Finset.univ) (Finset.subset_univ _) (tokT q 3) (tokX 3) Tb I hI _) $$ [Ht3 Hb3 Hx3 Hs3]
  · isplitl [Ht3]; · iexact Ht3
    isplitl [Hb3]; · iexact Hb3
    isplitl [Hx3]; · iexact Hx3
    iexact Hs3
  iintro ⟨Hp3, Hr3⟩
  sl_exec
  -- wait for buffer 4
  iapply (wait_b4 d L ⟨3 * k.val + 2, by omega⟩ 0 (So := Finset.univ) (Finset.subset_univ _) (tokT q 4) (tokX 4) Tb (Xc d L I) (GG d L Tb I ⟨3 * k.val + 2, by omega⟩ 0) O _) $$ [Hp4 Hr4 HO Hmw]
  · isplitl [Hp4]; · iexact Hp4
    isplitl [Hr4]; · iexact Hr4
    isplitl [HO]; · iexact HO
    iexact Hmw
  iintro ⟨Ht4, Hb4, Hx4, Hs4, HO⟩
  sl_exec
  -- pool buffer 4
  rw [wp_bind]
  iapply (inner_t6 d L (GG d L Tb I ⟨3 * k.val + 2, by omega⟩ 0) (k0_pay103, k0_pay104, k0_pay105, k0_pay106, k0_pay107, k0_pay108, k0_pay109, k0_pay110) _ _ _ _ _ _ _ _ _ _ _ _ _ _) $$ [Hb4]
  · iexact Hb4
  iintro Hb4
  sl_exec
  -- re-issue buffer 4
  iapply (issue_b4 d L (off := k0_off57 k) (inb := k0_off57_inb k k0_h5) ⟨3 * (k.val + 1) + 2, by omega⟩ 0
    (by rw [k0_off57_eq]; show 3 * k.val + 5 = 3 * (k.val + 1) + 2; omega) (by rw [k0_off57_eq]; rfl) (by rw [k0_off57_eq]; rfl)
    (So := Finset.univ) (Finset.subset_univ _) (tokT q 4) (tokX 4) Tb I hI _) $$ [Ht4 Hb4 Hx4 Hs4]
  · isplitl [Ht4]; · iexact Ht4
    isplitl [Hb4]; · iexact Hb4
    isplitl [Hx4]; · iexact Hx4
    iexact Hs4
  iintro ⟨Hp4, Hr4⟩
  sl_exec
  -- wait for buffer 5
  iapply (wait_b5 d L ⟨3 * k.val + 2, by omega⟩ 1 (So := Finset.univ) (Finset.subset_univ _) (tokT q 5) (tokX 5) Tb (Xc d L I) (GG d L Tb I ⟨3 * k.val + 2, by omega⟩ 1) O _) $$ [Hp5 Hr5 HO Hmw]
  · isplitl [Hp5]; · iexact Hp5
    isplitl [Hr5]; · iexact Hr5
    isplitl [HO]; · iexact HO
    iexact Hmw
  iintro ⟨Ht5, Hb5, Hx5, Hs5, HO⟩
  sl_exec
  -- pool buffer 5
  rw [wp_bind]
  iapply (inner_t7 d L (GG d L Tb I ⟨3 * k.val + 2, by omega⟩ 1) (accsOut (GG d L Tb I ⟨3 * k.val + 2, by omega⟩ 0) (k0_pay103, k0_pay104, k0_pay105, k0_pay106, k0_pay107, k0_pay108, k0_pay109, k0_pay110)) _ _ _ _ _ _ _ _ _ _ _ _ _ _) $$ [Hb5]
  · iexact Hb5
  iintro Hb5
  rw [rowRes_eq d L I Tb ⟨3 * k.val + 2, by omega⟩]
  sl_exec
  -- re-issue buffer 5
  iapply (issue_b5 d L (off := k0_off66 k) (inb := k0_off66_inb k k0_h6) ⟨3 * (k.val + 1) + 2, by omega⟩ 1
    (by rw [k0_off66_eq]; show 3 * k.val + 5 = 3 * (k.val + 1) + 2; omega) (by rw [k0_off66_eq]; rfl) (by rw [k0_off66_eq]; rfl)
    (So := Finset.univ) (Finset.subset_univ _) (tokT q 5) (tokX 5) Tb I hI _) $$ [Ht5 Hb5 Hx5 Hs5]
  · isplitl [Ht5]; · iexact Ht5
    isplitl [Hb5]; · iexact Hb5
    isplitl [Hx5]; · iexact Hx5
    iexact Hs5
  iintro ⟨Hp5, Hr5⟩
  sl_exec
  -- the trip has returned: the invariant at k + 1
  sl_step
  rw [CellSt_pos d L (show 3 * (k.val + 1) < 128 by omega),
    CellSt_pos d L (show 3 * (k.val + 1) < 128 by omega),
    CellSt_pos d L (show 3 * (k.val + 1) + 1 < 128 by omega),
    CellSt_pos d L (show 3 * (k.val + 1) + 1 < 128 by omega),
    CellSt_pos d L (show 3 * (k.val + 1) + 2 < 128 by omega),
    CellSt_pos d L (show 3 * (k.val + 1) + 2 < 128 by omega)]
  isplitr [HY HO Hp0 Hr0 Hp1 Hr1 Hp2 Hr2 Hp3 Hr3 Hp4 Hr4 Hp5 Hr5]
  · iexact Hmw
  isplitl [Hp0 Hr0]
  · isplitl [Hp0]; · iexact Hp0
    iexact Hr0
  isplitl [Hp1 Hr1]
  · isplitl [Hp1]; · iexact Hp1
    iexact Hr1
  isplitl [Hp2 Hr2]
  · isplitl [Hp2]; · iexact Hp2
    iexact Hr2
  isplitl [Hp3 Hr3]
  · isplitl [Hp3]; · iexact Hp3
    iexact Hr3
  isplitl [Hp4 Hr4]
  · isplitl [Hp4]; · iexact Hp4
    iexact Hr4
  isplitl [Hp5 Hr5]
  · isplitl [Hp5]; · iexact Hp5
    iexact Hr5
  isplitl [HY]
  · iexists _
    isplitl [HY]; · iexact HY
    ipureintro
    have hoff0 : ∀ c : Fin 8, (![k0_off22 k 0#32, k0_off23 k 0#32, k0_off24 k 0#32, k0_off25 k 0#32, k0_off26 k 0#32, k0_off27 k 0#32, k0_off28 k 0#32, k0_off29 k 0#32] : Fin 8 → Fin 2 → ℕ) c = ![3 * k.val , 16 * c.val] := by
      intro c
      match c with
      | ⟨0, _⟩ => exact k0_off22_eq k ⟨0, by decide⟩
      | ⟨1, _⟩ => exact k0_off23_eq k ⟨0, by decide⟩
      | ⟨2, _⟩ => exact k0_off24_eq k ⟨0, by decide⟩
      | ⟨3, _⟩ => exact k0_off25_eq k ⟨0, by decide⟩
      | ⟨4, _⟩ => exact k0_off26_eq k ⟨0, by decide⟩
      | ⟨5, _⟩ => exact k0_off27_eq k ⟨0, by decide⟩
      | ⟨6, _⟩ => exact k0_off28_eq k ⟨0, by decide⟩
      | ⟨7, _⟩ => exact k0_off29_eq k ⟨0, by decide⟩
    have hoff1 : ∀ c : Fin 8, (![k0_off22 k 1#32, k0_off23 k 1#32, k0_off24 k 1#32, k0_off25 k 1#32, k0_off26 k 1#32, k0_off27 k 1#32, k0_off28 k 1#32, k0_off29 k 1#32] : Fin 8 → Fin 2 → ℕ) c = ![3 * k.val + 1, 16 * c.val] := by
      intro c
      match c with
      | ⟨0, _⟩ => exact k0_off22_eq k ⟨1, by decide⟩
      | ⟨1, _⟩ => exact k0_off23_eq k ⟨1, by decide⟩
      | ⟨2, _⟩ => exact k0_off24_eq k ⟨1, by decide⟩
      | ⟨3, _⟩ => exact k0_off25_eq k ⟨1, by decide⟩
      | ⟨4, _⟩ => exact k0_off26_eq k ⟨1, by decide⟩
      | ⟨5, _⟩ => exact k0_off27_eq k ⟨1, by decide⟩
      | ⟨6, _⟩ => exact k0_off28_eq k ⟨1, by decide⟩
      | ⟨7, _⟩ => exact k0_off29_eq k ⟨1, by decide⟩
    have hoff2 : ∀ c : Fin 8, (![k0_off22 k 2#32, k0_off23 k 2#32, k0_off24 k 2#32, k0_off25 k 2#32, k0_off26 k 2#32, k0_off27 k 2#32, k0_off28 k 2#32, k0_off29 k 2#32] : Fin 8 → Fin 2 → ℕ) c = ![3 * k.val + 2, 16 * c.val] := by
      intro c
      match c with
      | ⟨0, _⟩ => exact k0_off22_eq k ⟨2, by decide⟩
      | ⟨1, _⟩ => exact k0_off23_eq k ⟨2, by decide⟩
      | ⟨2, _⟩ => exact k0_off24_eq k ⟨2, by decide⟩
      | ⟨3, _⟩ => exact k0_off25_eq k ⟨2, by decide⟩
      | ⟨4, _⟩ => exact k0_off26_eq k ⟨2, by decide⟩
      | ⟨5, _⟩ => exact k0_off27_eq k ⟨2, by decide⟩
      | ⟨6, _⟩ => exact k0_off28_eq k ⟨2, by decide⟩
      | ⟨7, _⟩ => exact k0_off29_eq k ⟨2, by decide⟩
    exact Y_step d L I Tb Y k.val hk42 hY _ _ _
      (inb_of _ (3 * k.val) (by omega) hoff0) (inb_of _ (3 * k.val + 1) (by omega) hoff1) (inb_of _ (3 * k.val + 2) (by omega) hoff2) hoff0 hoff1 hoff2
  · iexists _
    isplitr [HO]
    rotate_left
    · iexact HO
    · ipureintro
      intro p hp
      simp only [Finset.mem_insert] at hp
      rcases hp with rfl | rfl | rfl | rfl | rfl | rfl | hp
      · exact Or.inr rfl
      · exact Or.inr rfl
      · exact Or.inr rfl
      · exact Or.inr rfl
      · exact Or.inr rfl
      · exact Or.inr rfl
      · exact hW0 p hp

set_option maxHeartbeats 4000000 in
/-- The last trip (k = 41): buffers 4 and 5 are not re-issued and come to rest. -/
theorem region_step_last (q : PosShare TreeShare) (I : Buf (Elt F) (iLoc d)) (Tb : Buf (Elt F) (tLoc d)) (hI : ∀ j, (I j).toNat < 100000) (O : CellTallies nD τ sig (HIx 1)) (W : Waits sig (HIx 1))
    (k : Fin k0_t1_loop.trips) (hk : ¬ k.val < 41) :
    invMain d L q I Tb O W k.val ⟨⟩ ⊢ wp frame (wpE (defs₀ (F := F)) 𝒱₀ (thr d L) none) Set.univ
      (k0_t1_body L tV (Memref.isWhole_whole _) iV (Memref.isWhole_whole _) oV (Memref.isWhole_whole _) xV (Memref.isWhole_whole _) b0V (Memref.isWhole_whole _) b1V (Memref.isWhole_whole _) b2V (Memref.isWhole_whole _) b3V (Memref.isWhole_whole _) b4V (Memref.isWhole_whole _) b5V (Memref.isWhole_whole _) yV (Memref.isWhole_whole _)
        cc0_scratch8 cc0_scratch9 cc0_scratch10 cc0_scratch11 cc0_scratch12 cc0_scratch13 cc0_scratch14 cc0_scoped0 cc0_scoped1
        k0_pay103 k0_pay104 k0_pay105 k0_pay106 k0_pay107 k0_pay108 k0_pay109 k0_pay110 k ⟨⟩)
      (fun x => invMain d L q I Tb O W (k.val + 1) x) := by
  have hk42 : k.val < 42 := lt_of_lt_of_le k.isLt (le_of_eq trips_main)
  unfold invMain
  rw [CellSt_pos d L (show 3 * k.val < 128 by omega), CellSt_pos d L (show 3 * k.val < 128 by omega),
    CellSt_pos d L (show 3 * k.val + 1 < 128 by omega), CellSt_pos d L (show 3 * k.val + 1 < 128 by omega),
    CellSt_pos d L (show 3 * k.val + 2 < 128 by omega), CellSt_pos d L (show 3 * k.val + 2 < 128 by omega)]
  iintro ⟨#Hmw, ⟨Hp0, Hr0⟩, ⟨Hp1, Hr1⟩, ⟨Hp2, Hr2⟩, ⟨Hp3, Hr3⟩, ⟨Hp4, Hr4⟩, ⟨Hp5, Hr5⟩, ⟨%Y, HY, %hY⟩, ⟨%W0, %hW0, HO⟩⟩
  have k0_h1 := (cond14 k).1
  have k0_h2 := (cond14 k).2.1
  have k0_h3 := (cond14 k).2.2.1
  have k0_h4 := (cond14 k).2.2.2
  have k0_h5 : ¬ k0_cond5 k = 1#1 := fun h => hk ((cond56 k).1.1 h)
  have k0_h6 : ¬ k0_cond6 k = 1#1 := fun h => hk ((cond56 k).2.1 h)
  sl_exec
  -- wait for buffer 0
  rw [← wp_bind]
  iapply (wait_b0 d L ⟨3 * k.val, by omega⟩ 0 (So := Finset.univ) (Finset.subset_univ _) (tokT q 0) (tokX 0) Tb (Xc d L I) (GG d L Tb I ⟨3 * k.val, by omega⟩ 0) O _) $$ [Hp0 Hr0 HO Hmw]
  · isplitl [Hp0]; · iexact Hp0
    isplitl [Hr0]; · iexact Hr0
    isplitl [HO]; · iexact HO
    iexact Hmw
  iintro ⟨Ht0, Hb0, Hx0, Hs0, HO⟩
  sl_exec
  -- pool buffer 0
  rw [wp_bind]
  iapply (inner_t2 d L (GG d L Tb I ⟨3 * k.val, by omega⟩ 0) (k0_pay103, k0_pay104, k0_pay105, k0_pay106, k0_pay107, k0_pay108, k0_pay109, k0_pay110) _ _ _ _ _ _ _ _ _ _ _ _) $$ [Hb0]
  · iexact Hb0
  iintro Hb0
  sl_exec
  -- re-issue buffer 0
  iapply (issue_b0 d L (off := k0_off12 k) (inb := k0_off12_inb k k0_h1) ⟨3 * (k.val + 1), by omega⟩ 0
    (by rw [k0_off12_eq]; show 3 * k.val + 3 = 3 * (k.val + 1); omega) (by rw [k0_off12_eq]; rfl) (by rw [k0_off12_eq]; rfl)
    (So := Finset.univ) (Finset.subset_univ _) (tokT q 0) (tokX 0) Tb I hI _) $$ [Ht0 Hb0 Hx0 Hs0]
  · isplitl [Ht0]; · iexact Ht0
    isplitl [Hb0]; · iexact Hb0
    isplitl [Hx0]; · iexact Hx0
    iexact Hs0
  iintro ⟨Hp0, Hr0⟩
  sl_exec
  -- wait for buffer 1
  iapply (wait_b1 d L ⟨3 * k.val, by omega⟩ 1 (So := Finset.univ) (Finset.subset_univ _) (tokT q 1) (tokX 1) Tb (Xc d L I) (GG d L Tb I ⟨3 * k.val, by omega⟩ 1) O _) $$ [Hp1 Hr1 HO Hmw]
  · isplitl [Hp1]; · iexact Hp1
    isplitl [Hr1]; · iexact Hr1
    isplitl [HO]; · iexact HO
    iexact Hmw
  iintro ⟨Ht1, Hb1, Hx1, Hs1, HO⟩
  sl_exec
  -- pool buffer 1
  rw [wp_bind]
  iapply (inner_t3 d L (GG d L Tb I ⟨3 * k.val, by omega⟩ 1) (accsOut (GG d L Tb I ⟨3 * k.val, by omega⟩ 0) (k0_pay103, k0_pay104, k0_pay105, k0_pay106, k0_pay107, k0_pay108, k0_pay109, k0_pay110)) _ _ _ _ _ _ _ _ _ _ _ _) $$ [Hb1]
  · iexact Hb1
  iintro Hb1
  rw [rowRes_eq d L I Tb ⟨3 * k.val, by omega⟩]
  sl_exec
  -- re-issue buffer 1
  iapply (issue_b1 d L (off := k0_off30 k) (inb := k0_off30_inb k k0_h2) ⟨3 * (k.val + 1), by omega⟩ 1
    (by rw [k0_off30_eq]; show 3 * k.val + 3 = 3 * (k.val + 1); omega) (by rw [k0_off30_eq]; rfl) (by rw [k0_off30_eq]; rfl)
    (So := Finset.univ) (Finset.subset_univ _) (tokT q 1) (tokX 1) Tb I hI _) $$ [Ht1 Hb1 Hx1 Hs1]
  · isplitl [Ht1]; · iexact Ht1
    isplitl [Hb1]; · iexact Hb1
    isplitl [Hx1]; · iexact Hx1
    iexact Hs1
  iintro ⟨Hp1, Hr1⟩
  sl_exec
  -- wait for buffer 2
  iapply (wait_b2 d L ⟨3 * k.val + 1, by omega⟩ 0 (So := Finset.univ) (Finset.subset_univ _) (tokT q 2) (tokX 2) Tb (Xc d L I) (GG d L Tb I ⟨3 * k.val + 1, by omega⟩ 0) O _) $$ [Hp2 Hr2 HO Hmw]
  · isplitl [Hp2]; · iexact Hp2
    isplitl [Hr2]; · iexact Hr2
    isplitl [HO]; · iexact HO
    iexact Hmw
  iintro ⟨Ht2, Hb2, Hx2, Hs2, HO⟩
  sl_exec
  -- pool buffer 2
  rw [wp_bind]
  iapply (inner_t4 d L (GG d L Tb I ⟨3 * k.val + 1, by omega⟩ 0) (k0_pay103, k0_pay104, k0_pay105, k0_pay106, k0_pay107, k0_pay108, k0_pay109, k0_pay110) _ _ _ _ _ _ _ _ _ _ _ _ _ _ _ _ _ _) $$ [Hb2]
  · iexact Hb2
  iintro Hb2
  sl_exec
  -- re-issue buffer 2
  iapply (issue_b2 d L (off := k0_off39 k) (inb := k0_off39_inb k k0_h3) ⟨3 * (k.val + 1) + 1, by omega⟩ 0
    (by rw [k0_off39_eq]; show 3 * k.val + 4 = 3 * (k.val + 1) + 1; omega) (by rw [k0_off39_eq]; rfl) (by rw [k0_off39_eq]; rfl)
    (So := Finset.univ) (Finset.subset_univ _) (tokT q 2) (tokX 2) Tb I hI _) $$ [Ht2 Hb2 Hx2 Hs2]
  · isplitl [Ht2]; · iexact Ht2
    isplitl [Hb2]; · iexact Hb2
    isplitl [Hx2]; · iexact Hx2
    iexact Hs2
  iintro ⟨Hp2, Hr2⟩
  sl_exec
  -- wait for buffer 3
  iapply (wait_b3 d L ⟨3 * k.val + 1, by omega⟩ 1 (So := Finset.univ) (Finset.subset_univ _) (tokT q 3) (tokX 3) Tb (Xc d L I) (GG d L Tb I ⟨3 * k.val + 1, by omega⟩ 1) O _) $$ [Hp3 Hr3 HO Hmw]
  · isplitl [Hp3]; · iexact Hp3
    isplitl [Hr3]; · iexact Hr3
    isplitl [HO]; · iexact HO
    iexact Hmw
  iintro ⟨Ht3, Hb3, Hx3, Hs3, HO⟩
  sl_exec
  -- pool buffer 3
  rw [wp_bind]
  iapply (inner_t5 d L (GG d L Tb I ⟨3 * k.val + 1, by omega⟩ 1) (accsOut (GG d L Tb I ⟨3 * k.val + 1, by omega⟩ 0) (k0_pay103, k0_pay104, k0_pay105, k0_pay106, k0_pay107, k0_pay108, k0_pay109, k0_pay110)) _ _ _ _ _ _ _ _ _ _ _ _ _) $$ [Hb3]
  · iexact Hb3
  iintro Hb3
  rw [rowRes_eq d L I Tb ⟨3 * k.val + 1, by omega⟩]
  sl_exec
  -- re-issue buffer 3
  iapply (issue_b3 d L (off := k0_off48 k) (inb := k0_off48_inb k k0_h4) ⟨3 * (k.val + 1) + 1, by omega⟩ 1
    (by rw [k0_off48_eq]; show 3 * k.val + 4 = 3 * (k.val + 1) + 1; omega) (by rw [k0_off48_eq]; rfl) (by rw [k0_off48_eq]; rfl)
    (So := Finset.univ) (Finset.subset_univ _) (tokT q 3) (tokX 3) Tb I hI _) $$ [Ht3 Hb3 Hx3 Hs3]
  · isplitl [Ht3]; · iexact Ht3
    isplitl [Hb3]; · iexact Hb3
    isplitl [Hx3]; · iexact Hx3
    iexact Hs3
  iintro ⟨Hp3, Hr3⟩
  sl_exec
  -- wait for buffer 4
  iapply (wait_b4 d L ⟨3 * k.val + 2, by omega⟩ 0 (So := Finset.univ) (Finset.subset_univ _) (tokT q 4) (tokX 4) Tb (Xc d L I) (GG d L Tb I ⟨3 * k.val + 2, by omega⟩ 0) O _) $$ [Hp4 Hr4 HO Hmw]
  · isplitl [Hp4]; · iexact Hp4
    isplitl [Hr4]; · iexact Hr4
    isplitl [HO]; · iexact HO
    iexact Hmw
  iintro ⟨Ht4, Hb4, Hx4, Hs4, HO⟩
  sl_exec
  -- pool buffer 4
  rw [wp_bind]
  iapply (inner_t6 d L (GG d L Tb I ⟨3 * k.val + 2, by omega⟩ 0) (k0_pay103, k0_pay104, k0_pay105, k0_pay106, k0_pay107, k0_pay108, k0_pay109, k0_pay110) _ _ _ _ _ _ _ _ _ _ _ _ _ _) $$ [Hb4]
  · iexact Hb4
  iintro Hb4
  sl_exec
  -- wait for buffer 5
  iapply (wait_b5 d L ⟨3 * k.val + 2, by omega⟩ 1 (So := Finset.univ) (Finset.subset_univ _) (tokT q 5) (tokX 5) Tb (Xc d L I) (GG d L Tb I ⟨3 * k.val + 2, by omega⟩ 1) O _) $$ [Hp5 Hr5 HO Hmw]
  · isplitl [Hp5]; · iexact Hp5
    isplitl [Hr5]; · iexact Hr5
    isplitl [HO]; · iexact HO
    iexact Hmw
  iintro ⟨Ht5, Hb5, Hx5, Hs5, HO⟩
  sl_exec
  -- pool buffer 5
  rw [wp_bind]
  iapply (inner_t7 d L (GG d L Tb I ⟨3 * k.val + 2, by omega⟩ 1) (accsOut (GG d L Tb I ⟨3 * k.val + 2, by omega⟩ 0) (k0_pay103, k0_pay104, k0_pay105, k0_pay106, k0_pay107, k0_pay108, k0_pay109, k0_pay110)) _ _ _ _ _ _ _ _ _ _ _ _ _ _) $$ [Hb5]
  · iexact Hb5
  iintro Hb5
  rw [rowRes_eq d L I Tb ⟨3 * k.val + 2, by omega⟩]
  sl_exec
  -- the trip has returned: the invariant at k + 1
  sl_step
  rw [CellSt_pos d L (show 3 * (k.val + 1) < 128 by omega),
    CellSt_pos d L (show 3 * (k.val + 1) < 128 by omega),
    CellSt_pos d L (show 3 * (k.val + 1) + 1 < 128 by omega),
    CellSt_pos d L (show 3 * (k.val + 1) + 1 < 128 by omega),
    CellSt_neg d L (show ¬ 3 * (k.val + 1) + 2 < 128 by omega),
    CellSt_neg d L (show ¬ 3 * (k.val + 1) + 2 < 128 by omega)]
  isplitr [HY HO Hp0 Hr0 Hp1 Hr1 Hp2 Hr2 Hp3 Hr3 Ht4 Hb4 Hx4 Hs4 Ht5 Hb5 Hx5 Hs5]
  · iexact Hmw
  isplitl [Hp0 Hr0]
  · isplitl [Hp0]; · iexact Hp0
    iexact Hr0
  isplitl [Hp1 Hr1]
  · isplitl [Hp1]; · iexact Hp1
    iexact Hr1
  isplitl [Hp2 Hr2]
  · isplitl [Hp2]; · iexact Hp2
    iexact Hr2
  isplitl [Hp3 Hr3]
  · isplitl [Hp3]; · iexact Hp3
    iexact Hr3
  isplitl [Ht4 Hb4 Hx4 Hs4]
  · isplitl [Hb4]; · (iexists _; iexact Hb4)
    isplitl [Ht4]; · iexact Ht4
    isplitl [Hx4]; · iexact Hx4
    iexact Hs4
  isplitl [Ht5 Hb5 Hx5 Hs5]
  · isplitl [Hb5]; · (iexists _; iexact Hb5)
    isplitl [Ht5]; · iexact Ht5
    isplitl [Hx5]; · iexact Hx5
    iexact Hs5
  isplitl [HY]
  · iexists _
    isplitl [HY]; · iexact HY
    ipureintro
    have hoff0 : ∀ c : Fin 8, (![k0_off22 k 0#32, k0_off23 k 0#32, k0_off24 k 0#32, k0_off25 k 0#32, k0_off26 k 0#32, k0_off27 k 0#32, k0_off28 k 0#32, k0_off29 k 0#32] : Fin 8 → Fin 2 → ℕ) c = ![3 * k.val , 16 * c.val] := by
      intro c
      match c with
      | ⟨0, _⟩ => exact k0_off22_eq k ⟨0, by decide⟩
      | ⟨1, _⟩ => exact k0_off23_eq k ⟨0, by decide⟩
      | ⟨2, _⟩ => exact k0_off24_eq k ⟨0, by decide⟩
      | ⟨3, _⟩ => exact k0_off25_eq k ⟨0, by decide⟩
      | ⟨4, _⟩ => exact k0_off26_eq k ⟨0, by decide⟩
      | ⟨5, _⟩ => exact k0_off27_eq k ⟨0, by decide⟩
      | ⟨6, _⟩ => exact k0_off28_eq k ⟨0, by decide⟩
      | ⟨7, _⟩ => exact k0_off29_eq k ⟨0, by decide⟩
    have hoff1 : ∀ c : Fin 8, (![k0_off22 k 1#32, k0_off23 k 1#32, k0_off24 k 1#32, k0_off25 k 1#32, k0_off26 k 1#32, k0_off27 k 1#32, k0_off28 k 1#32, k0_off29 k 1#32] : Fin 8 → Fin 2 → ℕ) c = ![3 * k.val + 1, 16 * c.val] := by
      intro c
      match c with
      | ⟨0, _⟩ => exact k0_off22_eq k ⟨1, by decide⟩
      | ⟨1, _⟩ => exact k0_off23_eq k ⟨1, by decide⟩
      | ⟨2, _⟩ => exact k0_off24_eq k ⟨1, by decide⟩
      | ⟨3, _⟩ => exact k0_off25_eq k ⟨1, by decide⟩
      | ⟨4, _⟩ => exact k0_off26_eq k ⟨1, by decide⟩
      | ⟨5, _⟩ => exact k0_off27_eq k ⟨1, by decide⟩
      | ⟨6, _⟩ => exact k0_off28_eq k ⟨1, by decide⟩
      | ⟨7, _⟩ => exact k0_off29_eq k ⟨1, by decide⟩
    have hoff2 : ∀ c : Fin 8, (![k0_off22 k 2#32, k0_off23 k 2#32, k0_off24 k 2#32, k0_off25 k 2#32, k0_off26 k 2#32, k0_off27 k 2#32, k0_off28 k 2#32, k0_off29 k 2#32] : Fin 8 → Fin 2 → ℕ) c = ![3 * k.val + 2, 16 * c.val] := by
      intro c
      match c with
      | ⟨0, _⟩ => exact k0_off22_eq k ⟨2, by decide⟩
      | ⟨1, _⟩ => exact k0_off23_eq k ⟨2, by decide⟩
      | ⟨2, _⟩ => exact k0_off24_eq k ⟨2, by decide⟩
      | ⟨3, _⟩ => exact k0_off25_eq k ⟨2, by decide⟩
      | ⟨4, _⟩ => exact k0_off26_eq k ⟨2, by decide⟩
      | ⟨5, _⟩ => exact k0_off27_eq k ⟨2, by decide⟩
      | ⟨6, _⟩ => exact k0_off28_eq k ⟨2, by decide⟩
      | ⟨7, _⟩ => exact k0_off29_eq k ⟨2, by decide⟩
    exact Y_step d L I Tb Y k.val hk42 hY _ _ _
      (inb_of _ (3 * k.val) (by omega) hoff0) (inb_of _ (3 * k.val + 1) (by omega) hoff1) (inb_of _ (3 * k.val + 2) (by omega) hoff2) hoff0 hoff1 hoff2
  · iexists _
    isplitr [HO]
    rotate_left
    · iexact HO
    · ipureintro
      intro p hp
      simp only [Finset.mem_insert] at hp
      rcases hp with rfl | rfl | rfl | rfl | rfl | rfl | hp
      · exact Or.inr rfl
      · exact Or.inr rfl
      · exact Or.inr rfl
      · exact Or.inr rfl
      · exact Or.inr rfl
      · exact Or.inr rfl
      · exact hW0 p hp

set_option maxHeartbeats 4000000 in
/-- One trip of the main loop: from the invariant at `k` to the invariant at `k + 1`. -/
theorem region_step (q : PosShare TreeShare) (I : Buf (Elt F) (iLoc d)) (Tb : Buf (Elt F) (tLoc d)) (hI : ∀ j, (I j).toNat < 100000) (O : CellTallies nD τ sig (HIx 1)) (W : Waits sig (HIx 1))
    (k : Fin k0_t1_loop.trips) :
    invMain d L q I Tb O W k.val ⟨⟩ ⊢ wp frame (wpE (defs₀ (F := F)) 𝒱₀ (thr d L) none) Set.univ
      (k0_t1_body L tV (Memref.isWhole_whole _) iV (Memref.isWhole_whole _) oV (Memref.isWhole_whole _) xV (Memref.isWhole_whole _) b0V (Memref.isWhole_whole _) b1V (Memref.isWhole_whole _) b2V (Memref.isWhole_whole _) b3V (Memref.isWhole_whole _) b4V (Memref.isWhole_whole _) b5V (Memref.isWhole_whole _) yV (Memref.isWhole_whole _)
        cc0_scratch8 cc0_scratch9 cc0_scratch10 cc0_scratch11 cc0_scratch12 cc0_scratch13 cc0_scratch14 cc0_scoped0 cc0_scoped1
        k0_pay103 k0_pay104 k0_pay105 k0_pay106 k0_pay107 k0_pay108 k0_pay109 k0_pay110 k ⟨⟩)
      (fun x => invMain d L q I Tb O W (k.val + 1) x) := by
  by_cases hk : k.val < 41
  · exact region_step_lt d L q I Tb hI O W k hk
  · exact region_step_last d L q I Tb hI O W k hk

end Region

end Cert.Proof.KI

end
-- ==== Proof.KIYTail.lean ====
/-
  The tile's last two rows, on the result scratch.

  After the main loop the rows below 126 of the scratch hold the tile's result; rows 126 and 127 are then written, each
  by its eight one-row stores of its result chunks, row 126's first. Read newest first these are two groups of eight,
  each touching one row. So afterwards row 127 holds what its group stored, row 126 is missed by the newer group and
  holds what its own group stored, and a row below 126 is missed by both and holds what it held: every entry of the
  scratch is the tile's result.
  The same with the offsets written out as the literal words (126, 16·c) and (127, 16·c); and the bounds such offsets
  satisfy, for any row.
-/
import proofs.«206947_g65644280152286_cont_9to1_m_226_28_alg».proof.Proof.KIYStep

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S4096x2x100 EltTy.i32)
local notation "oV" => (Memref.whole Cert.KernelIdeal.main_v1_scv : Memref Cert.KernelIdeal.sig Kind.scVector Space.hbm Cert.KernelIdeal.S4096x128 EltTy.f32)
local notation "xV" => (Memref.whole Cert.KernelIdeal.cc0_scratch0 : Memref Cert.KernelIdeal.sig Kind.scVector Space.vmem Cert.KernelIdeal.S128x2x100 EltTy.i32)
local notation "b0V" => (Memref.whole Cert.KernelIdeal.cc0_scratch1 : Memref Cert.KernelIdeal.sig Kind.scVector Space.vmem Cert.KernelIdeal.S100x128 EltTy.f32)
local notation "b1V" => (Memref.whole Cert.KernelIdeal.cc0_scratch2 : Memref Cert.KernelIdeal.sig Kind.scVector Space.vmem Cert.KernelIdeal.S100x128 EltTy.f32)
local notation "b2V" => (Memref.whole Cert.KernelIdeal.cc0_scratch3 : Memref Cert.KernelIdeal.sig Kind.scVector Space.vmem Cert.KernelIdeal.S100x128 EltTy.f32)
local notation "b3V" => (Memref.whole Cert.KernelIdeal.cc0_scratch4 : Memref Cert.KernelIdeal.sig Kind.scVector Space.vmem Cert.KernelIdeal.S100x128 EltTy.f32)
local notation "b4V" => (Memref.whole Cert.KernelIdeal.cc0_scratch5 : Memref Cert.KernelIdeal.sig Kind.scVector Space.vmem Cert.KernelIdeal.S100x128 EltTy.f32)
local notation "b5V" => (Memref.whole Cert.KernelIdeal.cc0_scratch6 : Memref Cert.KernelIdeal.sig Kind.scVector Space.vmem Cert.KernelIdeal.S100x128 EltTy.f32)
local notation "yV" => (Memref.whole Cert.KernelIdeal.cc0_scratch7 : Memref Cert.KernelIdeal.sig Kind.scVector Space.vmem Cert.KernelIdeal.S128x128 EltTy.f32)

variable [FloatOps F]

section Tail
variable (d : Dev nD) (L : grid0.Coords)

/-- THE TAIL: with the rows below 126 at the tile's result, the sixteen stores of rows 126 and 127 leave the whole
    scratch at it. -/
theorem Y_tail (I : Buf (Elt F) (iLoc d)) (Tb : Buf (Elt F) (tLoc d)) (Y : (yV).view.ty.Contents (Elt F))
    (hY : ∀ r : Fin 128, r.val < 126 → ∀ c : Fin 128, Y (ValueIdx.ix2 r c) = Yres d L I Tb (ValueIdx.ix2 r c))
    (o0 o1 : Fin 8 → Fin 2 → ℕ)
    (inb0 : ∀ (c : Fin 8) (a : Fin 2), o0 c a + S1x16.size a ≤ S128x128.size a)
    (inb1 : ∀ (c : Fin 8) (a : Fin 2), o1 c a + S1x16.size a ≤ S128x128.size a)
    (h0 : ∀ c, o0 c = ![126, 16 * c.val]) (h1 : ∀ c, o1 c = ![127, 16 * c.val]) :
    ∀ j : S128x128.Idx,
      (yV).view.writes (Elt F) Y
        (rowStores o1 inb1 (fun c => shapeCast S1x16 (chunkRes d L I Tb ⟨127, by decide⟩ c) shapeCasts_S16_S1x16)
          ++ rowStores o0 inb0 (fun c => shapeCast S1x16 (chunkRes d L I Tb ⟨126, by decide⟩ c) shapeCasts_S16_S1x16)) j
        = Yres d L I Tb j := by
  intro j
  obtain ⟨r, q, rfl⟩ : ∃ (r : Fin 128) (q : Fin 128), j = ValueIdx.ix2 r q := ⟨j 0, j 1, ValueIdx.eq_ix2 j⟩
  rw [View.writes_append]
  by_cases e1 : r = (⟨127, by decide⟩ : Fin 128)
  · subst e1
    exact row_written d L I Tb _ _ o1 inb1 h1 q
  · rw [row_stores_miss _ (⟨127, by decide⟩ : Fin 128) o1 inb1 _ h1 r e1 q]
    by_cases e0 : r = (⟨126, by decide⟩ : Fin 128)
    · subst e0
      exact row_written d L I Tb _ _ o0 inb0 h0 q
    · rw [row_stores_miss _ (⟨126, by decide⟩ : Fin 128) o0 inb0 _ h0 r e0 q]
      refine hY r ?_ q
      have n1 : r.val ≠ 127 := fun h => e1 (Fin.ext h)
      have n0 : r.val ≠ 126 := fun h => e0 (Fin.ext h)
      have := r.isLt
      omega

/-- The same with the offsets as the literal words (126, 16·c) and (127, 16·c), their bounds any proofs. -/
theorem Y_tail_lit (I : Buf (Elt F) (iLoc d)) (Tb : Buf (Elt F) (tLoc d)) (Y : (yV).view.ty.Contents (Elt F))
    (hY : ∀ r : Fin 128, r.val < 126 → ∀ c : Fin 128, Y (ValueIdx.ix2 r c) = Yres d L I Tb (ValueIdx.ix2 r c))
    (inb0 : ∀ (c : Fin 8) (a : Fin 2), (![126, 16 * c.val] : Fin 2 → ℕ) a + S1x16.size a ≤ S128x128.size a)
    (inb1 : ∀ (c : Fin 8) (a : Fin 2), (![127, 16 * c.val] : Fin 2 → ℕ) a + S1x16.size a ≤ S128x128.size a) :
    ∀ j : S128x128.Idx,
      (yV).view.writes (Elt F) Y
        (rowStores (fun c : Fin 8 => (![127, 16 * c.val] : Fin 2 → ℕ)) inb1
            (fun c => shapeCast S1x16 (chunkRes d L I Tb ⟨127, by decide⟩ c) shapeCasts_S16_S1x16)
          ++ rowStores (fun c : Fin 8 => (![126, 16 * c.val] : Fin 2 → ℕ)) inb0
            (fun c => shapeCast S1x16 (chunkRes d L I Tb ⟨126, by decide⟩ c) shapeCasts_S16_S1x16)) j
        = Yres d L I Tb j :=
  Y_tail d L I Tb Y hY _ _ inb0 inb1 (fun _ => rfl) (fun _ => rfl)

end Tail

omit [FloatOps F] in
/-- One row by 16 lanes at row R, columns from 16·c, fits in the [128, 128] scratch: for any row and chunk. -/
theorem inb_row (R : Fin 128) (c : Fin 8) (a : Fin 2) :
    (![R.val, 16 * c.val] : Fin 2 → ℕ) a + S1x16.size a ≤ S128x128.size a := by
  have hR := R.isLt
  have hc := c.isLt
  match a with
  | ⟨0, _⟩ => show R.val + 1 ≤ 128; omega
  | ⟨1, _⟩ => show 16 * c.val + 16 ≤ 128; omega

end Cert.Proof.KI

end
-- ==== Proof.KIBody.lean ====
/-
  A tile's whole body. The index scratch is taken as its two row ranges, rows 0–2 and rows 3–127; the first index copy lands
  the tile's first three index rows on rows 0–2. The table's share and that of rows 0–2 are each cut into six read tokens
  (one per gather buffer) and a rest, and the six gathers for local rows 0, 0, 1, 1, 2, 2 (halves 0, 1) are issued, each
  taking its list's 100 words out of its token of rows 0–2. The second copy lands rows 3–127; cut into six tokens and a rest
  likewise, each token joins what is left of the matching token of rows 0–2, so that every buffer holds its share of the whole
  scratch without its pending list, and the two rests make a share of the whole scratch. That is the main loop's invariant at
  trip 0 (no row of the result scratch finished yet). Each of the 42 trips keeps the invariant. At trip 42 the gathers for
  rows 126 and 127 are pending on buffers 0–3 and buffers 4, 5 are at rest: the two rows are pooled and stored as in a trip
  (no re-issue), after which the result scratch agrees with the tile's result on all 128 rows; the final copy writes it
  onto the tile's rows of the result array, entry by entry the fold of the index rows and the table. Rejoining the six
  tokens and the rest gives back the table's share and the whole index scratch; the buffers, the result scratch and the
  nine semaphore cells (at zero) are handed back, and every wait recorded on the way is on an unnamed handshake.
-/
import proofs.«206947_g65644280152286_cont_9to1_m_226_28_alg».proof.Proof.KIRegion
import proofs.«206947_g65644280152286_cont_9to1_m_226_28_alg».proof.Proof.KIMainStmt
import proofs.«206947_g65644280152286_cont_9to1_m_226_28_alg».proof.Proof.KIGather
import proofs.«206947_g65644280152286_cont_9to1_m_226_28_alg».proof.Proof.KIOut
import proofs.«206947_g65644280152286_cont_9to1_m_226_28_alg».proof.Proof.KIYTail

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S4096x2x100 EltTy.i32)
local notation "oV" => (Memref.whole Cert.KernelIdeal.main_v1_scv : Memref Cert.KernelIdeal.sig Kind.scVector Space.hbm Cert.KernelIdeal.S4096x128 EltTy.f32)
local notation "xV" => (Memref.whole Cert.KernelIdeal.cc0_scratch0 : Memref Cert.KernelIdeal.sig Kind.scVector Space.vmem Cert.KernelIdeal.S128x2x100 EltTy.i32)
local notation "b0V" => (Memref.whole Cert.KernelIdeal.cc0_scratch1 : Memref Cert.KernelIdeal.sig Kind.scVector Space.vmem Cert.KernelIdeal.S100x128 EltTy.f32)
local notation "b1V" => (Memref.whole Cert.KernelIdeal.cc0_scratch2 : Memref Cert.KernelIdeal.sig Kind.scVector Space.vmem Cert.KernelIdeal.S100x128 EltTy.f32)
local notation "b2V" => (Memref.whole Cert.KernelIdeal.cc0_scratch3 : Memref Cert.KernelIdeal.sig Kind.scVector Space.vmem Cert.KernelIdeal.S100x128 EltTy.f32)
local notation "b3V" => (Memref.whole Cert.KernelIdeal.cc0_scratch4 : Memref Cert.KernelIdeal.sig Kind.scVector Space.vmem Cert.KernelIdeal.S100x128 EltTy.f32)
local notation "b4V" => (Memref.whole Cert.KernelIdeal.cc0_scratch5 : Memref Cert.KernelIdeal.sig Kind.scVector Space.vmem Cert.KernelIdeal.S100x128 EltTy.f32)
local notation "b5V" => (Memref.whole Cert.KernelIdeal.cc0_scratch6 : Memref Cert.KernelIdeal.sig Kind.scVector Space.vmem Cert.KernelIdeal.S100x128 EltTy.f32)
local notation "yV" => (Memref.whole Cert.KernelIdeal.cc0_scratch7 : Memref Cert.KernelIdeal.sig Kind.scVector Space.vmem Cert.KernelIdeal.S128x128 EltTy.f32)

variable [FloatOps F]

section Joins2
variable (d : Dev nD) (L : grid0.Coords)
omit [FloatOps F] in
/-- What is left of rows 0–2 after a list of row r < 3 is taken out, with rows 3–127, is the scratch without that list. -/
theorem rest_join' {off : Fin 3 → Nat} {inb : ∀ a, off a + S1x1x100.size a ≤ S128x2x100.size a} (r : Fin 128) (h : Fin 2)
    (h0 : off 0 = r.val) (h1 : off 1 = h.val) (h2 : off 2 = 0) (hr : r.val < 3) (qx : PosShare TreeShare) (X : Buf (Elt F) ((thr d L).loc cc0_scratch0)) :
    (iprop(((xV).view.loc (thr d L) ↦[(xA).view.set \ lstSet r h]{qx} X) ∗ ((xB).view.loc (thr d L) ↦[(xB).view.set]{qx} X)) : sProp 𝕄)
      ⊢ ((xV).view.loc (thr d L) ↦[Finset.univ \ lstSet r h]{qx} X) := by
  have e := set_lst_eq (off := off) (inb := inb) r h h0 h1 h2
  have hj := rest_join d L (off := off) (inb := inb) r h h0 h1 h2 hr qx X
  rw [e] at hj
  exact hj
end Joins2
section Tile

omit [FloatOps F] in
/-- Outside rows 3–127 are rows 0–2. -/
theorem compl_xB : (Finset.univ : Finset S128x2x100.Idx) \ (xB).view.set = (xA).view.set := by
  refine Finset.ext fun j => ⟨fun hj => ?_, fun hj => ?_⟩
  · obtain ⟨_, hj2⟩ := Finset.mem_sdiff.mp hj
    exact (mem_xA (i := j)).mpr (Nat.lt_of_not_le fun h3 => hj2 ((mem_xB (i := j)).mpr h3))
  · have h3 := (mem_xA (i := j)).mp hj
    refine Finset.mem_sdiff.mpr ⟨Finset.mem_univ _, fun hm => ?_⟩
    have h4 := (mem_xB (i := j)).mp hm
    omega

set_option maxHeartbeats 8000000 in
/-- The tile's body hands back what it was handed, the result rows holding the fold. -/
theorem tile_main : TileMain (F := F) := by
  intro d L q O W I Tb fo fx f0 f1 f2 f3 f4 f5 fy hI
  rw [cc0_k_eq_skeleton]
  iintro ⟨#Hmw, HiA, HiB, Ht, Ho, Hx, Hb0, Hb1, Hb2, Hb3, Hb4, Hb5, Hy, Hs0, Hs1, Hs2, Hs3, Hs4, Hs5, Hs6, Hr0, Hr1, HO⟩
  -- the index scratch as its two row ranges
  ihave Hx := (pointsTo_split_subset (q := fullShare) (f := fx) (S := Finset.univ) (Finset.subset_univ (xB).view.set)).1 $$ Hx
  icases Hx with ⟨HxB, HxA⟩
  rw [compl_xB]
  ihave HxA := (Entails.of_eq (show ((xV).view.loc (thr d L) ↦[(xA).view.set]{fullShare} fx : sProp 𝕄) = ((xA).view.loc (thr d L) ↦[(xA).view.set]{fullShare} fx) from rfl)) $$ HxA
  ihave HxB := (Entails.of_eq (show ((xV).view.loc (thr d L) ↦[(xB).view.set]{fullShare} fx : sProp 𝕄) = ((xB).view.loc (thr d L) ↦[(xB).view.set]{fullShare} fx) from rfl)) $$ HxB
  sl_exec
  -- rows 0–2 of the indices have landed: read tokens of the table and of those rows, one per buffer
  ihave HxA := (Entails.of_eq (pointsTo_congr (q := fullShare) (landA d L fx I))) $$ HxA
  ihave Ht := (toks6 (F := F) q).1 $$ Ht
  icases Ht with ⟨Htd, Ht0, Ht1, Ht2, Ht3, Ht4, Ht5⟩
  ihave HxA := (toks6 (F := F) fullShare).1 $$ HxA
  icases HxA with ⟨Hxd, Hx0, Hx1, Hx2, Hx3, Hx4, Hx5⟩

  -- gather 0: row 0, half 0
  iapply (issue_b0 d L (off := ![0, 0, 0]) (inb := inb_S128x2x100_S1x1x100_0_0_0) (0 : Fin 128) (0 : Fin 2) rfl rfl rfl (So := (xA).view.set)
      (lst_sub_xA (off := ![0, 0, 0]) (inb := inb_S128x2x100_S1x1x100_0_0_0) rfl (by decide)) (tokT q 0) (tokX 0) Tb I hI f0) $$ [Ht0 Hb0 Hx0 Hs0]
  · isplitl [Ht0]; · iexact Ht0
    isplitl [Hb0]; · iexact Hb0
    isplitl [Hx0]; · iexact Hx0
    iexact Hs0
  iintro ⟨Hp0, Hx0⟩
  sl_exec

  -- gather 1: row 0, half 1
  iapply (issue_b1 d L (off := ![0, 1, 0]) (inb := inb_S128x2x100_S1x1x100_0_1_0) (0 : Fin 128) (1 : Fin 2) rfl rfl rfl (So := (xA).view.set)
      (lst_sub_xA (off := ![0, 1, 0]) (inb := inb_S128x2x100_S1x1x100_0_1_0) rfl (by decide)) (tokT q 1) (tokX 1) Tb I hI f1) $$ [Ht1 Hb1 Hx1 Hs1]
  · isplitl [Ht1]; · iexact Ht1
    isplitl [Hb1]; · iexact Hb1
    isplitl [Hx1]; · iexact Hx1
    iexact Hs1
  iintro ⟨Hp1, Hx1⟩
  sl_exec

  -- gather 2: row 1, half 0
  iapply (issue_b2 d L (off := ![1, 0, 0]) (inb := inb_S128x2x100_S1x1x100_1_0_0) (1 : Fin 128) (0 : Fin 2) rfl rfl rfl (So := (xA).view.set)
      (lst_sub_xA (off := ![1, 0, 0]) (inb := inb_S128x2x100_S1x1x100_1_0_0) rfl (by decide)) (tokT q 2) (tokX 2) Tb I hI f2) $$ [Ht2 Hb2 Hx2 Hs2]
  · isplitl [Ht2]; · iexact Ht2
    isplitl [Hb2]; · iexact Hb2
    isplitl [Hx2]; · iexact Hx2
    iexact Hs2
  iintro ⟨Hp2, Hx2⟩
  sl_exec

  -- gather 3: row 1, half 1
  iapply (issue_b3 d L (off := ![1, 1, 0]) (inb := inb_S128x2x100_S1x1x100_1_1_0) (1 : Fin 128) (1 : Fin 2) rfl rfl rfl (So := (xA).view.set)
      (lst_sub_xA (off := ![1, 1, 0]) (inb := inb_S128x2x100_S1x1x100_1_1_0) rfl (by decide)) (tokT q 3) (tokX 3) Tb I hI f3) $$ [Ht3 Hb3 Hx3 Hs3]
  · isplitl [Ht3]; · iexact Ht3
    isplitl [Hb3]; · iexact Hb3
    isplitl [Hx3]; · iexact Hx3
    iexact Hs3
  iintro ⟨Hp3, Hx3⟩
  sl_exec

  -- gather 4: row 2, half 0
  iapply (issue_b4 d L (off := ![2, 0, 0]) (inb := inb_S128x2x100_S1x1x100_2_0_0) (2 : Fin 128) (0 : Fin 2) rfl rfl rfl (So := (xA).view.set)
      (lst_sub_xA (off := ![2, 0, 0]) (inb := inb_S128x2x100_S1x1x100_2_0_0) rfl (by decide)) (tokT q 4) (tokX 4) Tb I hI f4) $$ [Ht4 Hb4 Hx4 Hs4]
  · isplitl [Ht4]; · iexact Ht4
    isplitl [Hb4]; · iexact Hb4
    isplitl [Hx4]; · iexact Hx4
    iexact Hs4
  iintro ⟨Hp4, Hx4⟩
  sl_exec

  -- gather 5: row 2, half 1
  iapply (issue_b5 d L (off := ![2, 1, 0]) (inb := inb_S128x2x100_S1x1x100_2_1_0) (2 : Fin 128) (1 : Fin 2) rfl rfl rfl (So := (xA).view.set)
      (lst_sub_xA (off := ![2, 1, 0]) (inb := inb_S128x2x100_S1x1x100_2_1_0) rfl (by decide)) (tokT q 5) (tokX 5) Tb I hI f5) $$ [Ht5 Hb5 Hx5 Hs5]
  · isplitl [Ht5]; · iexact Ht5
    isplitl [Hb5]; · iexact Hb5
    isplitl [Hx5]; · iexact Hx5
    iexact Hs5
  iintro ⟨Hp5, Hx5⟩
  sl_exec
  -- rows 3–127 have landed: their tokens join what is left of rows 0–2
  ihave HxB := (Entails.of_eq (pointsTo_congr (q := fullShare) (landB d L _ I))) $$ HxB
  ihave HxB := (toks6 (F := F) fullShare).1 $$ HxB
  icases HxB with ⟨Hzd, Hz0, Hz1, Hz2, Hz3, Hz4, Hz5⟩

  ihave Hx0 := (rest_join' d L (off := ![0, 0, 0]) (inb := inb_S128x2x100_S1x1x100_0_0_0) (0 : Fin 128) (0 : Fin 2) rfl rfl rfl (by decide) (tokX 0) (Xc d L I)) $$ [Hx0 Hz0]
  · isplitl [Hx0] <;> iassumption

  ihave Hx1 := (rest_join' d L (off := ![0, 1, 0]) (inb := inb_S128x2x100_S1x1x100_0_1_0) (0 : Fin 128) (1 : Fin 2) rfl rfl rfl (by decide) (tokX 1) (Xc d L I)) $$ [Hx1 Hz1]
  · isplitl [Hx1] <;> iassumption

  ihave Hx2 := (rest_join' d L (off := ![1, 0, 0]) (inb := inb_S128x2x100_S1x1x100_1_0_0) (1 : Fin 128) (0 : Fin 2) rfl rfl rfl (by decide) (tokX 2) (Xc d L I)) $$ [Hx2 Hz2]
  · isplitl [Hx2] <;> iassumption

  ihave Hx3 := (rest_join' d L (off := ![1, 1, 0]) (inb := inb_S128x2x100_S1x1x100_1_1_0) (1 : Fin 128) (1 : Fin 2) rfl rfl rfl (by decide) (tokX 3) (Xc d L I)) $$ [Hx3 Hz3]
  · isplitl [Hx3] <;> iassumption

  ihave Hx4 := (rest_join' d L (off := ![2, 0, 0]) (inb := inb_S128x2x100_S1x1x100_2_0_0) (2 : Fin 128) (0 : Fin 2) rfl rfl rfl (by decide) (tokX 4) (Xc d L I)) $$ [Hx4 Hz4]
  · isplitl [Hx4] <;> iassumption

  ihave Hx5 := (rest_join' d L (off := ![2, 1, 0]) (inb := inb_S128x2x100_S1x1x100_2_1_0) (2 : Fin 128) (1 : Fin 2) rfl rfl rfl (by decide) (tokX 5) (Xc d L I)) $$ [Hx5 Hz5]
  · isplitl [Hx5] <;> iassumption
  ihave Hxd := (AB_join d L (Transfers.shareDrop fullShare 6) (Xc d L I)) $$ [Hxd Hzd]
  · isplitl [Hxd] <;> iassumption

  -- the main loop
  sl_for (invMain d L q I Tb O (insert (SemLoc.dma cc0_scratch14.sem, (default : HIx 1)) (insert (SemLoc.dma cc0_scoped0.sem, (default : HIx 1)) W))) $$ [Hp0 Hx0 Hp1 Hx1 Hp2 Hx2 Hp3 Hx3 Hp4 Hx4 Hp5 Hx5 Hy HO]
  case region =>
    intro k acc
    exact region_step d L q I Tb hI O _ k
  · unfold invMain
    rw [CellSt_pos d L (show 3 * 0 < 128 by decide), CellSt_pos d L (show 3 * 0 < 128 by decide),
      CellSt_pos d L (show 3 * 0 + 1 < 128 by decide), CellSt_pos d L (show 3 * 0 + 1 < 128 by decide),
      CellSt_pos d L (show 3 * 0 + 2 < 128 by decide), CellSt_pos d L (show 3 * 0 + 2 < 128 by decide)]
    isplitr [Hp0 Hx0 Hp1 Hx1 Hp2 Hx2 Hp3 Hx3 Hp4 Hx4 Hp5 Hx5 Hy HO]
    · iexact Hmw
    isplitl [Hp0 Hx0]
    · isplitl [Hp0]; · iexact Hp0
      iexact Hx0
    isplitl [Hp1 Hx1]
    · isplitl [Hp1]; · iexact Hp1
      iexact Hx1
    isplitl [Hp2 Hx2]
    · isplitl [Hp2]; · iexact Hp2
      iexact Hx2
    isplitl [Hp3 Hx3]
    · isplitl [Hp3]; · iexact Hp3
      iexact Hx3
    isplitl [Hp4 Hx4]
    · isplitl [Hp4]; · iexact Hp4
      iexact Hx4
    isplitl [Hp5 Hx5]
    · isplitl [Hp5]; · iexact Hp5
      iexact Hx5
    isplitl [Hy]
    · iexists fy
      isplitl [Hy]; · iexact Hy
      ipureintro
      intro r hr
      exact absurd hr (by omega)
    · iexists _
      isplitr [HO]
      rotate_left
      · iexact HO
      · ipureintro
        intro p hp
        exact Or.inl hp
  iintro %acc HI
  rw [show Scf.trips k0_t1_loop.lb k0_t1_loop.ub k0_t1_loop.st = 42 from trips_main]
  unfold invMain
  rw [show (3 * 42 : ℕ) = 126 from rfl, show (126 + 1 : ℕ) = 127 from rfl, show (126 + 2 : ℕ) = 128 from rfl]
  rw [CellSt_pos d L (show 126 < 128 by decide), CellSt_pos d L (show 126 < 128 by decide),
    CellSt_pos d L (show 127 < 128 by decide), CellSt_pos d L (show 127 < 128 by decide),
    CellSt_neg d L (show ¬ 128 < 128 by decide), CellSt_neg d L (show ¬ 128 < 128 by decide)]
  icases HI with ⟨-, ⟨Hp0, Hr0⟩, ⟨Hp1, Hr1⟩, ⟨Hp2, Hr2⟩, ⟨Hp3, Hr3⟩, ⟨⟨%g4, Hb4⟩, Ht4, Hx4, Hs4⟩, ⟨⟨%g5, Hb5⟩, Ht5, Hx5, Hs5⟩, ⟨%Y, HY, %hY⟩, ⟨%W1, %hW1, HO⟩⟩
  sl_exec
  -- wait for buffer 0 (row 126, half 0)
  rw [← wp_bind]
  iapply (wait_b0 d L ⟨126, by decide⟩ 0 (So := Finset.univ) (Finset.subset_univ _) (tokT q 0) (tokX 0) Tb (Xc d L I) (GG d L Tb I ⟨126, by decide⟩ 0) O _) $$ [Hp0 Hr0 HO Hmw]
  · isplitl [Hp0]; · iexact Hp0
    isplitl [Hr0]; · iexact Hr0
    isplitl [HO]; · iexact HO
    iexact Hmw
  iintro ⟨Ht0, Hb0, Hx0, Hs0, HO⟩
  sl_exec
  -- pool buffer 0
  rw [wp_bind]
  iapply (inner_t8 d L (GG d L Tb I ⟨126, by decide⟩ 0) (k0_pay103, k0_pay104, k0_pay105, k0_pay106, k0_pay107, k0_pay108, k0_pay109, k0_pay110) _ _ _ _ _ _ _ _ _) $$ [Hb0]
  · iexact Hb0
  iintro Hb0
  sl_exec
  -- wait for buffer 1 (row 126, half 1)
  iapply (wait_b1 d L ⟨126, by decide⟩ 1 (So := Finset.univ) (Finset.subset_univ _) (tokT q 1) (tokX 1) Tb (Xc d L I) (GG d L Tb I ⟨126, by decide⟩ 1) O _) $$ [Hp1 Hr1 HO Hmw]
  · isplitl [Hp1]; · iexact Hp1
    isplitl [Hr1]; · iexact Hr1
    isplitl [HO]; · iexact HO
    iexact Hmw
  iintro ⟨Ht1, Hb1, Hx1, Hs1, HO⟩
  sl_exec
  -- pool buffer 1
  rw [wp_bind]
  iapply (inner_t9 d L (GG d L Tb I ⟨126, by decide⟩ 1) (accsOut (GG d L Tb I ⟨126, by decide⟩ 0) (k0_pay103, k0_pay104, k0_pay105, k0_pay106, k0_pay107, k0_pay108, k0_pay109, k0_pay110)) _ _ _ _ _ _ _ _ _) $$ [Hb1]
  · iexact Hb1
  iintro Hb1
  rw [rowRes_eq d L I Tb ⟨126, by decide⟩]
  sl_exec
  -- wait for buffer 2 (row 127, half 0)
  iapply (wait_b2 d L ⟨127, by decide⟩ 0 (So := Finset.univ) (Finset.subset_univ _) (tokT q 2) (tokX 2) Tb (Xc d L I) (GG d L Tb I ⟨127, by decide⟩ 0) O _) $$ [Hp2 Hr2 HO Hmw]
  · isplitl [Hp2]; · iexact Hp2
    isplitl [Hr2]; · iexact Hr2
    isplitl [HO]; · iexact HO
    iexact Hmw
  iintro ⟨Ht2, Hb2, Hx2, Hs2, HO⟩
  sl_exec
  -- pool buffer 2
  rw [wp_bind]
  iapply (inner_t10 d L (GG d L Tb I ⟨127, by decide⟩ 0) (k0_pay103, k0_pay104, k0_pay105, k0_pay106, k0_pay107, k0_pay108, k0_pay109, k0_pay110) _ _ _ _ _ _ _ _ _) $$ [Hb2]
  · iexact Hb2
  iintro Hb2
  sl_exec
  -- wait for buffer 3 (row 127, half 1)
  iapply (wait_b3 d L ⟨127, by decide⟩ 1 (So := Finset.univ) (Finset.subset_univ _) (tokT q 3) (tokX 3) Tb (Xc d L I) (GG d L Tb I ⟨127, by decide⟩ 1) O _) $$ [Hp3 Hr3 HO Hmw]
  · isplitl [Hp3]; · iexact Hp3
    isplitl [Hr3]; · iexact Hr3
    isplitl [HO]; · iexact HO
    iexact Hmw
  iintro ⟨Ht3, Hb3, Hx3, Hs3, HO⟩
  sl_exec
  -- pool buffer 3
  rw [wp_bind]
  iapply (inner_t11 d L (GG d L Tb I ⟨127, by decide⟩ 1) (accsOut (GG d L Tb I ⟨127, by decide⟩ 0) (k0_pay103, k0_pay104, k0_pay105, k0_pay106, k0_pay107, k0_pay108, k0_pay109, k0_pay110)) _ _ _ _ _ _ _ _ _) $$ [Hb3]
  · iexact Hb3
  iintro Hb3
  rw [rowRes_eq d L I Tb ⟨127, by decide⟩]
  sl_exec
  -- the program has returned: hand everything back
  sl_step
  ihave Ht := (toks6 (F := F) q).2 $$ [Htd Ht0 Ht1 Ht2 Ht3 Ht4 Ht5]
  · isplitl [Htd]; · iexact Htd
    isplitl [Ht0]; · iexact Ht0
    isplitl [Ht1]; · iexact Ht1
    isplitl [Ht2]; · iexact Ht2
    isplitl [Ht3]; · iexact Ht3
    isplitl [Ht4]; · iexact Ht4
    iexact Ht5
  ihave Hx := (toks6 (F := F) fullShare).2 $$ [Hxd Hx0 Hx1 Hx2 Hx3 Hx4 Hx5]
  · isplitl [Hxd]; · iexact Hxd
    isplitl [Hx0]; · iexact Hx0
    isplitl [Hx1]; · iexact Hx1
    isplitl [Hx2]; · iexact Hx2
    isplitl [Hx3]; · iexact Hx3
    isplitl [Hx4]; · iexact Hx4
    iexact Hx5
  isplitl [HiA]; · iexact HiA
  isplitl [HiB]; · iexact HiB
  isplitl [Ht]; · iexact Ht
  isplitl [Ho]
  · iexists _
    isplitl [Ho]; · iexact Ho
    ipureintro
    exact landO d L I Tb fo _ (Y_tail_lit d L I Tb Y hY (inb_row ⟨126, by decide⟩) (inb_row ⟨127, by decide⟩))
  isplitl [Hx]; · (iexists _; iexact Hx)
  isplitl [Hb0]; · (iexists _; iexact Hb0)
  isplitl [Hb1]; · (iexists _; iexact Hb1)
  isplitl [Hb2]; · (iexists _; iexact Hb2)
  isplitl [Hb3]; · (iexists _; iexact Hb3)
  isplitl [Hb4]; · (iexists _; iexact Hb4)
  isplitl [Hb5]; · (iexists _; iexact Hb5)
  isplitl [HY]; · (iexists _; iexact HY)
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hr0]; · iexact Hr0
  isplitl [Hr1]; · iexact Hr1
  iexists _
  isplitr [HO]
  rotate_left
  · iexact HO
  · ipureintro
    intro p hp
    simp only [Finset.mem_insert] at hp
    rcases hp with rfl | rfl | rfl | rfl | rfl | hp
    · exact Or.inr rfl
    · exact Or.inr rfl
    · exact Or.inr rfl
    · exact Or.inr rfl
    · exact Or.inr rfl
    · rcases hW1 p hp with h | h
      · simp only [Finset.mem_insert] at h
        rcases h with rfl | rfl | h
        · exact Or.inr rfl
        · exact Or.inr rfl
        · exact Or.inl h
      · exact Or.inr h

end Tile

end Cert.Proof.KI

end
-- ==== Proof.KBAcc.lean ====
import proofs.«206947_g65644280152286_cont_9to1_m_226_28_alg».proof.Proof.KBLists
import proofs.«206947_g65644280152286_cont_9to1_m_226_28_alg».proof.Proof.KSpec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S4096x2x100 EltTy.i32)
local notation "oV" => (Memref.whole Cert.Kernel.main_v1_scv : Memref Cert.Kernel.sig Kind.scVector Space.hbm Cert.Kernel.S4096x128 EltTy.f32)
local notation "xV" => (Memref.whole Cert.Kernel.cc0_scratch0 : Memref Cert.Kernel.sig Kind.scVector Space.vmem Cert.Kernel.S128x2x100 EltTy.i32)
local notation "b0V" => (Memref.whole Cert.Kernel.cc0_scratch1 : Memref Cert.Kernel.sig Kind.scVector Space.vmem Cert.Kernel.S100x128 EltTy.f32)
local notation "b1V" => (Memref.whole Cert.Kernel.cc0_scratch2 : Memref Cert.Kernel.sig Kind.scVector Space.vmem Cert.Kernel.S100x128 EltTy.f32)
local notation "b2V" => (Memref.whole Cert.Kernel.cc0_scratch3 : Memref Cert.Kernel.sig Kind.scVector Space.vmem Cert.Kernel.S100x128 EltTy.f32)
local notation "b3V" => (Memref.whole Cert.Kernel.cc0_scratch4 : Memref Cert.Kernel.sig Kind.scVector Space.vmem Cert.Kernel.S100x128 EltTy.f32)
local notation "b4V" => (Memref.whole Cert.Kernel.cc0_scratch5 : Memref Cert.Kernel.sig Kind.scVector Space.vmem Cert.Kernel.S100x128 EltTy.f32)
local notation "b5V" => (Memref.whole Cert.Kernel.cc0_scratch6 : Memref Cert.Kernel.sig Kind.scVector Space.vmem Cert.Kernel.S100x128 EltTy.f32)
local notation "yV" => (Memref.whole Cert.Kernel.cc0_scratch7 : Memref Cert.Kernel.sig Kind.scVector Space.vmem Cert.Kernel.S128x128 EltTy.f32)

variable [FloatOps F]

/-! The eight running maxima a tile carries through one gathered buffer: column chunk c (16 lanes) of the buffer's 100
    rows folded into the chunk's accumulator, lane by lane, in the 25 steps of KSpec.halfFold. -/

/-- The eight accumulators (one 16-lane vector per column chunk). -/
abbrev T8 (F : FTy → Type) : Type :=
  FVec F S16 .f32 × FVec F S16 .f32 × FVec F S16 .f32 × FVec F S16 .f32 × FVec F S16 .f32 × FVec F S16 .f32 × FVec F S16 .f32 × FVec F S16 .f32

/-- Lane `t` of chunk `c` is column 16·c + t. -/
def colOf (c : Fin 8) (t : Fin 16) : Fin 128 := ⟨16 * c.val + t.val, by have := c.isLt; have := t.isLt; omega⟩

/-- Chunk `c`'s accumulator after the first `n` steps through the buffer `g`. -/
def colUpTo (g : S100x128.Idx → F .f32) (c : Fin 8) (a : FVec F S16 .f32) (n : ℕ) (hn : n ≤ 25) : FVec F S16 .f32 :=
  fun i => KSpec.halfUpTo (fun j : Fin 100 => g (ValueIdx.ix2 j (colOf c (i 0)))) (a i) n hn

/-- Chunk `c`'s accumulator after the whole buffer. -/
def colFold (g : S100x128.Idx → F .f32) (c : Fin 8) (a : FVec F S16 .f32) : FVec F S16 .f32 := colUpTo g c a 25 (Nat.le_refl _)

/-- All eight after the first `n` steps, and after the whole buffer. -/
def accsUpTo (g : S100x128.Idx → F .f32) (a : T8 F) (n : ℕ) (hn : n ≤ 25) : T8 F :=
  (colUpTo g 0 a.1 n hn, colUpTo g 1 a.2.1 n hn, colUpTo g 2 a.2.2.1 n hn, colUpTo g 3 a.2.2.2.1 n hn, colUpTo g 4 a.2.2.2.2.1 n hn,
    colUpTo g 5 a.2.2.2.2.2.1 n hn, colUpTo g 6 a.2.2.2.2.2.2.1 n hn, colUpTo g 7 a.2.2.2.2.2.2.2 n hn)
def accsOut (g : S100x128.Idx → F .f32) (a : T8 F) : T8 F := accsUpTo g a 25 (Nat.le_refl _)

end Cert.Proof.KB

end
-- ==== Proof.KBLand.lean ====
/-
  Index-level facts about one tile's index scratch and its gathers.
  A 100-word list of the scratch at offset (r, h, 0) reads, at position x, the scratch word (r, h, x): the list is the
  unit-stride box [1, 1, 100] from the offset, re-indexed by the shape [100], and position x of [100] is (0, 0, x) of
  [1, 1, 100] in row-major order. Once the scratch holds the tile's rows of the reshaped indices every such word is an
  index word, hence below 100000. A gather through such a list delivers, at (j, c), the table entry at the row the
  list's j-th word names and column c: the table is named whole (its box is the identity on indices), position j of
  the list in row-major order is j, and a word below 100000 names the row of its own value.
  The two index copies: the first writes the tile's index rows 0–2 (batch rows base + r, base = 256·s + 128·c) to scratch
  rows 0–2, the second the rows 3–127 (batch rows base + 3 + r) to scratch rows 3 + r; in both the landed element at a
  scratch index j is the reshaped index at (base + j₀, j₁, j₂).
-/
import proofs.«206947_g65644280152286_cont_9to1_m_226_28_alg».proof.Proof.KBLists

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "tV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S4096x2x100 EltTy.i32)
local notation "xV" => (Memref.whole Cert.Kernel.cc0_scratch0 : Memref Cert.Kernel.sig Kind.scVector Space.vmem Cert.Kernel.S128x2x100 EltTy.i32)

variable (d : Dev nD) (L : grid0.Coords)

/-- A position `x` of a 100-word list matched with the shape [1, 1, 100] is (0, 0, x). -/
theorem reshape_100 (hh : S100.numel = S1x1x100.numel) (x : S100.Idx) :
    Shape.reshapeEquiv hh x = ValueIdx.ix3 (n0 := 1) (n1 := 1) (n2 := 100) ⟨0, Nat.one_pos⟩ ⟨0, Nat.one_pos⟩ (x 0) :=
  Shape.reshapeEquiv_eq_of_rowMajor hh (by
    rw [Shape.rowMajor_val_three, Shape.rowMajor_val_one]
    show ((0 * 1 + 0) * 100 + (x 0).val) = (x 0).val
    omega)

/-- Where position `x` of the list at offset (r, h, 0) sits in the scratch: at (r, h, x). -/
theorem lst_emb {off : Fin 3 → Nat} {inb : ∀ a, off a + S1x1x100.size a ≤ S128x2x100.size a} (r : Fin 128) (h : Fin 2)
    (h0 : off 0 = r.val) (h1 : off 1 = h.val) (h2 : off 2 = 0) (x : S100.Idx) :
    (lst off inb).view.emb x = ValueIdx.ix3 (n2 := 100) r h (x 0) := by
  show (Rect.unit (s := S128x2x100) off S1x1x100.size inb).emb (Shape.reshapeEquiv squeezes_S1x1x100_S100.numel_eq x) = _
  rw [reshape_100]
  funext a; apply Fin.ext
  rw [Rect.emb_apply]
  match a with
  | ⟨0, _⟩ => show off 0 + 1 * 0 = r.val; omega
  | ⟨1, _⟩ => show off 1 + 1 * 0 = h.val; omega
  | ⟨2, _⟩ => show off 2 + 1 * (x 0).val = (x 0).val; omega

/-- The list at offset (r, h, 0) reads the scratch word (r, h, x) at position `x`. -/
theorem lst_read {off : Fin 3 → Nat} {inb : ∀ a, off a + S1x1x100.size a ≤ S128x2x100.size a} (r : Fin 128) (h : Fin 2)
    (h0 : off 0 = r.val) (h1 : off 1 = h.val) (h2 : off 2 = 0)
    (X : Buf (Elt F) ((thr d L).loc cc0_scratch0)) (x : S100.Idx) :
    (lst off inb).view.read (Elt F) X x = X (ValueIdx.ix3 r h (x 0)) := by
  rw [View.read_apply, lst_emb r h h0 h1 h2 x]
  rfl

/-- Over the landed scratch every word of a list is below the table's row count. -/
theorem lst_inb {off : Fin 3 → Nat} {inb : ∀ a, off a + S1x1x100.size a ≤ S128x2x100.size a} (r : Fin 128) (h : Fin 2)
    (h0 : off 0 = r.val) (h1 : off 1 = h.val) (h2 : off 2 = 0)
    (I : Buf (Elt F) (iLoc d)) (hI : ∀ j, (I j).toNat < 100000) :
    ∀ x, ((lst off inb).view.read (Elt F) (Xc d L I) x).toNat < S100000x128.size gathers_S100000x128_S100x128.axis := by
  intro x
  rw [lst_read d L r h h0 h1 h2]
  exact hI _

/-- The gathered entry (j, c) is the table at the row the list's j-th word names, column c. -/
theorem gather_clean {off : Fin 3 → Nat} {inb : ∀ a, off a + S1x1x100.size a ≤ S128x2x100.size a} (r : Fin 128) (h : Fin 2)
    (h0 : off 0 = r.val) (h1 : off 1 = h.val) (h2 : off 2 = 0)
    (X : Buf (Elt F) ((thr d L).loc cc0_scratch0)) (Tb : Buf (Elt F) (tLoc d))
    (hn : S100.numel = S100x128.size gathers_S100000x128_S100x128.axis')
    (hin : ∀ x, ((lst off inb).view.read (Elt F) X x).toNat < S100000x128.size gathers_S100000x128_S100x128.axis)
    (y : S100x128.Idx) :
    SparseCore.gatherPayload gathers_S100000x128_S100x128 ((tAll).view.read (Elt F) Tb)
      (SparseCore.rows ((lst off inb).view.read (Elt F) X) hn hin) y
      = Tb (ValueIdx.ix2 (Spec.rowOf (X (ValueIdx.ix3 r h (y 0)))) (y 1)) := by
  have hx0 : ∀ k : Fin S100.numel, ((S100.rowMajor.symm k) 0).val = k.val := by
    intro k
    have e := Shape.rowMajor_val_one (d := ![100]) (S100.rowMajor.symm k)
    rw [Equiv.apply_symm_apply] at e
    exact e.symm
  have hxy : (S100.rowMajor.symm ((y gathers_S100000x128_S100x128.axis').cast hn.symm)) 0 = y 0 :=
    Fin.ext (by rw [hx0]; rfl)
  have hw : (X (ValueIdx.ix3 r h (y 0))).toNat < 100000 := by
    have e := hin (S100.rowMajor.symm ((y gathers_S100000x128_S100x128.axis').cast hn.symm))
    rw [lst_read d L r h h0 h1 h2 X, hxy] at e
    exact e
  have hrow : (SparseCore.rows ((lst off inb).view.read (Elt F) X) hn hin (y gathers_S100000x128_S100x128.axis')).val
      = (Spec.rowOf (X (ValueIdx.ix3 r h (y 0)))).val := by
    rw [Spec.rowOf_val hw]
    show ((lst off inb).view.read (Elt F) X (S100.rowMajor.symm ((y gathers_S100000x128_S100x128.axis').cast hn.symm))).toNat = _
    rw [lst_read d L r h h0 h1 h2 X, hxy]
  have he : (tAll).view.emb (gathers_S100000x128_S100x128.idx (SparseCore.rows ((lst off inb).view.read (Elt F) X) hn hin) y)
      = ValueIdx.ix2 (n0 := 100000) (n1 := 128) (Spec.rowOf (X (ValueIdx.ix3 r h (y 0)))) (y 1) := by
    funext b; apply Fin.ext
    show ((Rect.unit (s := S100000x128) ![0, 0] S100000x128.size inb_S100000x128_S100000x128_0_0).emb _ b).val = _
    rw [Rect.emb_apply]
    match b with
    | ⟨0, _⟩ =>
      show 0 + 1 * (gathers_S100000x128_S100x128.idx _ y gathers_S100000x128_S100x128.axis).val = _
      rw [Shape.Gathers.idx_axis, hrow, Nat.zero_add, Nat.one_mul]
    | ⟨1, _⟩ =>
      show 0 + 1 * (gathers_S100000x128_S100x128.idx _ y ⟨1, by decide⟩).val = (y 1).val
      rw [Shape.Gathers.idx_of_ne _ _ _ _ (by decide)]
      show 0 + 1 * (y 1).val = (y 1).val
      omega
  unfold SparseCore.gatherPayload
  rw [View.read_apply, he]
  rfl

/-- What the first index copy lands: on scratch rows 0–2, the tile's rows of the reshaped indices. -/
theorem landA (fx : Buf (Elt F) ((thr d L).loc cc0_scratch0)) (I : Buf (Elt F) (iLoc d)) :
    ∀ j ∈ (xA).view.set, (xA).view.writes (Elt F) fx [⟨Rect.whole S3x2x100, ReadAs.same.apply ((iA L).view.read (Elt F) I)⟩] j = Xc d L I j := by
  intro j hj
  obtain ⟨x, -, rfl⟩ := Finset.mem_map.mp hj
  have e : (xA).view.emb x = ((xA).view.slice (Rect.whole S3x2x100)).emb x := by
    show _ = (xA).view.emb ((Rect.whole S3x2x100).emb x)
    rw [Rect.emb_whole_apply]
  have hi : (iA L).view.emb x
      = ValueIdx.ix3 (n0 := 4096) (n1 := 2) (n2 := 100) (rowG L ⟨(x 0).val, by have := (x 0).isLt; simp at this; omega⟩) (x 1) (x 2) := by
    funext a; apply Fin.ext
    show ((Rect.unit (s := S4096x2x100) (k0_off1 L) S3x2x100.size (k0_off1_inb L)).emb x a).val = _
    rw [Rect.emb_apply]
    show k0_off1 L a + 1 * (x a).val = _
    rw [k0_off1_eq]
    match a with
    | ⟨0, _⟩ => show 256 * (L 1).val + 128 * (L 0).val + 1 * (x 0).val = 256 * (L 1).val + 128 * (L 0).val + (x 0).val; omega
    | ⟨1, _⟩ => show 0 + 1 * (x 1).val = (x 1).val; omega
    | ⟨2, _⟩ => show 0 + 1 * (x 2).val = (x 2).val; omega
  rw [View.writes_singleton]
  conv_lhs => rw [e]
  rw [View.write_emb_of_mem _ _ (Finset.mem_univ _)]
  show _root_.cast _ ((iA L).view.read (Elt F) I x) = _
  rw [View.read_apply, hi]
  have hX : Xc d L I ((xA).view.emb x)
      = I (ValueIdx.ix3 (n0 := 4096) (n1 := 2) (n2 := 100) (rowG L ⟨(x 0).val, by have := (x 0).isLt; simp at this; omega⟩) (x 1) (x 2)) := by
    unfold Xc
    congr 1
    funext a; apply Fin.ext
    match a with
    | ⟨0, _⟩ => show 256 * (L 1).val + 128 * (L 0).val + (0 + 1 * (x 0).val) = 256 * (L 1).val + 128 * (L 0).val + (x 0).val; omega
    | ⟨1, _⟩ => show 0 + 1 * (x 1).val = (x 1).val; omega
    | ⟨2, _⟩ => show 0 + 1 * (x 2).val = (x 2).val; omega
  rw [hX]
  rfl

/-- What the second index copy lands: on scratch rows 3–127, the tile's rows of the reshaped indices. -/
theorem landB (fx : Buf (Elt F) ((thr d L).loc cc0_scratch0)) (I : Buf (Elt F) (iLoc d)) :
    ∀ j ∈ (xB).view.set, (xB).view.writes (Elt F) fx [⟨Rect.whole S125x2x100, ReadAs.same.apply ((iB L).view.read (Elt F) I)⟩] j = Xc d L I j := by
  intro j hj
  obtain ⟨x, -, rfl⟩ := Finset.mem_map.mp hj
  have e : (xB).view.emb x = ((xB).view.slice (Rect.whole S125x2x100)).emb x := by
    show _ = (xB).view.emb ((Rect.whole S125x2x100).emb x)
    rw [Rect.emb_whole_apply]
  have hi : (iB L).view.emb x
      = ValueIdx.ix3 (n0 := 4096) (n1 := 2) (n2 := 100) (rowG L ⟨3 + (x 0).val, by have := (x 0).isLt; simp at this; omega⟩) (x 1) (x 2) := by
    funext a; apply Fin.ext
    show ((Rect.unit (s := S4096x2x100) (k0_off2 L) S125x2x100.size (k0_off2_inb L)).emb x a).val = _
    rw [Rect.emb_apply]
    show k0_off2 L a + 1 * (x a).val = _
    rw [k0_off2_eq]
    match a with
    | ⟨0, _⟩ => show 256 * (L 1).val + 128 * (L 0).val + 3 + 1 * (x 0).val = 256 * (L 1).val + 128 * (L 0).val + (3 + (x 0).val); omega
    | ⟨1, _⟩ => show 0 + 1 * (x 1).val = (x 1).val; omega
    | ⟨2, _⟩ => show 0 + 1 * (x 2).val = (x 2).val; omega
  rw [View.writes_singleton]
  conv_lhs => rw [e]
  rw [View.write_emb_of_mem _ _ (Finset.mem_univ _)]
  show _root_.cast _ ((iB L).view.read (Elt F) I x) = _
  rw [View.read_apply, hi]
  have hX : Xc d L I ((xB).view.emb x)
      = I (ValueIdx.ix3 (n0 := 4096) (n1 := 2) (n2 := 100) (rowG L ⟨3 + (x 0).val, by have := (x 0).isLt; simp at this; omega⟩) (x 1) (x 2)) := by
    unfold Xc
    congr 1
    funext a; apply Fin.ext
    match a with
    | ⟨0, _⟩ => show 256 * (L 1).val + 128 * (L 0).val + (3 + 1 * (x 0).val) = 256 * (L 1).val + 128 * (L 0).val + (3 + (x 0).val); omega
    | ⟨1, _⟩ => show 0 + 1 * (x 1).val = (x 1).val; omega
    | ⟨2, _⟩ => show 0 + 1 * (x 2).val = (x 2).val; omega
  rw [hX]
  rfl

end Cert.Proof.KB

end
-- ==== Proof.KBCell.lean ====
import proofs.«206947_g65644280152286_cont_9to1_m_226_28_alg».proof.Proof.KBAcc
import proofs.«206947_g65644280152286_cont_9to1_m_226_28_alg».proof.Proof.KBLand

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S4096x2x100 EltTy.i32)
local notation "oV" => (Memref.whole Cert.Kernel.main_v1_scv : Memref Cert.Kernel.sig Kind.scVector Space.hbm Cert.Kernel.S4096x128 EltTy.f32)
local notation "xV" => (Memref.whole Cert.Kernel.cc0_scratch0 : Memref Cert.Kernel.sig Kind.scVector Space.vmem Cert.Kernel.S128x2x100 EltTy.i32)
local notation "b0V" => (Memref.whole Cert.Kernel.cc0_scratch1 : Memref Cert.Kernel.sig Kind.scVector Space.vmem Cert.Kernel.S100x128 EltTy.f32)
local notation "b1V" => (Memref.whole Cert.Kernel.cc0_scratch2 : Memref Cert.Kernel.sig Kind.scVector Space.vmem Cert.Kernel.S100x128 EltTy.f32)
local notation "b2V" => (Memref.whole Cert.Kernel.cc0_scratch3 : Memref Cert.Kernel.sig Kind.scVector Space.vmem Cert.Kernel.S100x128 EltTy.f32)
local notation "b3V" => (Memref.whole Cert.Kernel.cc0_scratch4 : Memref Cert.Kernel.sig Kind.scVector Space.vmem Cert.Kernel.S100x128 EltTy.f32)
local notation "b4V" => (Memref.whole Cert.Kernel.cc0_scratch5 : Memref Cert.Kernel.sig Kind.scVector Space.vmem Cert.Kernel.S100x128 EltTy.f32)
local notation "b5V" => (Memref.whole Cert.Kernel.cc0_scratch6 : Memref Cert.Kernel.sig Kind.scVector Space.vmem Cert.Kernel.S100x128 EltTy.f32)
local notation "yV" => (Memref.whole Cert.Kernel.cc0_scratch7 : Memref Cert.Kernel.sig Kind.scVector Space.vmem Cert.Kernel.S128x128 EltTy.f32)

variable [FloatOps F]

/-! Read shares: a points-to split into six tokens and what is left. -/
section Shares
variable {ℓ : Loc nD τ sig} {S : Finset (Idx ℓ)} {f : Buf (Elt F) ℓ}

omit [FloatOps F] in
theorem drop_succ (q : PosShare TreeShare) (k : ℕ) :
    (ℓ ↦[S]{Transfers.shareDrop q k} f : sProp 𝕄) ⊣⊢ iprop((ℓ ↦[S]{Transfers.shareDrop q (k + 1)} f) ∗ ℓ ↦[S]{Transfers.shareTokN q k} f) :=
  pointsTo_share (PosShare.mem_left_op_right (Transfers.shareDrop q k))

omit [FloatOps F] in
theorem drop0 (q : PosShare TreeShare) :
    (ℓ ↦[S]{q} f : sProp 𝕄) ⊣⊢ iprop((ℓ ↦[S]{Transfers.shareDrop q 1} f) ∗ ℓ ↦[S]{Transfers.shareTokN q 0} f) := drop_succ q 0

omit [FloatOps F] in
theorem toks6 (q : PosShare TreeShare) :
    (ℓ ↦[S]{q} f : sProp 𝕄) ⊣⊢ iprop((ℓ ↦[S]{Transfers.shareDrop q 6} f) ∗ (ℓ ↦[S]{Transfers.shareTokN q 0} f) ∗ (ℓ ↦[S]{Transfers.shareTokN q 1} f)
      ∗ (ℓ ↦[S]{Transfers.shareTokN q 2} f) ∗ (ℓ ↦[S]{Transfers.shareTokN q 3} f) ∗ (ℓ ↦[S]{Transfers.shareTokN q 4} f) ∗ (ℓ ↦[S]{Transfers.shareTokN q 5} f)) := by
  constructor
  · iintro H
    ihave H := (drop0 (F := F) q).1 $$ H
    icases H with ⟨H, T0⟩
    ihave H := (drop_succ (F := F) q 1).1 $$ H
    icases H with ⟨H, T1⟩
    ihave H := (drop_succ (F := F) q 2).1 $$ H
    icases H with ⟨H, T2⟩
    ihave H := (drop_succ (F := F) q 3).1 $$ H
    icases H with ⟨H, T3⟩
    ihave H := (drop_succ (F := F) q 4).1 $$ H
    icases H with ⟨H, T4⟩
    ihave H := (drop_succ (F := F) q 5).1 $$ H
    icases H with ⟨H, T5⟩
    isplitl [H]; · iexact H
    isplitl [T0]; · iexact T0
    isplitl [T1]; · iexact T1
    isplitl [T2]; · iexact T2
    isplitl [T3]; · iexact T3
    isplitl [T4]; · iexact T4
    iexact T5
  · iintro ⟨H, T0, T1, T2, T3, T4, T5⟩
    ihave H := (drop_succ (F := F) q 5).2 $$ [H T5]
    · isplitl [H] <;> iassumption
    ihave H := (drop_succ (F := F) q 4).2 $$ [H T4]
    · isplitl [H] <;> iassumption
    ihave H := (drop_succ (F := F) q 3).2 $$ [H T3]
    · isplitl [H] <;> iassumption
    ihave H := (drop_succ (F := F) q 2).2 $$ [H T2]
    · isplitl [H] <;> iassumption
    ihave H := (drop_succ (F := F) q 1).2 $$ [H T1]
    · isplitl [H] <;> iassumption
    ihave H := (drop0 (F := F) q).2 $$ [H T0]
    · isplitl [H] <;> iassumption
    iexact H
end Shares

/-! One gather in flight on a cell: what it will deliver. -/
section Cell
variable (d : Dev nD) (L : grid0.Coords)

/-- The gathered buffer for the tile's local row `r`, half `h`: entry (j, c) is the table at the row the j-th index word names, column c. -/
def Gc (Tb : Buf (Elt F) (tLoc d)) (X : Buf (Elt F) ((thr d L).loc cc0_scratch0)) (r : Fin 128) (h : Fin 2) : S100x128.Idx → F .f32 :=
  fun y => Tb (ValueIdx.ix2 (Spec.rowOf (X (ValueIdx.ix3 r h (y 0)))) (y 1))

/-- The 100 words of the index scratch at row `r`, half `h`. -/
def lstSet (r : Fin 128) (h : Fin 2) : Finset S128x2x100.Idx := Finset.univ.filter fun i => (i 0).val = r.val ∧ (i 1).val = h.val

omit [FloatOps F] in
theorem set_lst_eq {off : Fin 3 → Nat} {inb : ∀ a, off a + S1x1x100.size a ≤ S128x2x100.size a} (r : Fin 128) (h : Fin 2)
    (h0 : off 0 = r.val) (h1 : off 1 = h.val) (h2 : off 2 = 0) : (lst off inb).view.set = lstSet r h := by
  ext i; rw [mem_lst h2, h0, h1]; simp [lstSet]

/-- A gather pending on cell `sem` into `dst`: at its wait it delivers the buffer holding `g`, the table's read share and the list's. -/
def Pend (dst : Memref sig .scVector .vmem S100x128 .f32) (sem : DmaSem sig) (qT qX : PosShare TreeShare)
    (Tb : Buf (Elt F) (tLoc d)) (X : Buf (Elt F) ((thr d L).loc cc0_scratch0)) (g : Buf (Elt F) (dst.view.loc (thr d L))) (r : Fin 128) (h : Fin 2) : sProp 𝕄 :=
  Transfers.Flight countersEmb (thr d L) (.dma sem) (default : HIx 1) dst.view.dmaCredit
    iprop((dst.view.loc (thr d L) ↦{fullShare} g) ∗ ((tV).view.loc (thr d L) ↦{qT} Tb) ∗ ((xV).view.loc (thr d L) ↦[lstSet r h]{qX} X))

theorem pend_intro_b0 {off : Fin 3 → Nat} {inb : ∀ a, off a + S1x1x100.size a ≤ S128x2x100.size a} (r : Fin 128) (h : Fin 2)
    (h0 : off 0 = r.val) (h1 : off 1 = h.val) (h2 : off 2 = 0) (qT qX : PosShare TreeShare)
    (Tb : Buf (Elt F) (tLoc d)) (X : Buf (Elt F) ((thr d L).loc cc0_scratch0)) (fd : Buf (Elt F) ((b0V).view.loc (thr d L)))
    (hn : S100.numel = S100x128.size gathers_S100000x128_S100x128.axis')
    (hin : ∀ x, ((lst off inb).view.read (Elt F) X x).toNat < S100000x128.size gathers_S100000x128_S100x128.axis) :
    (Transfers.Flight countersEmb (thr d L) (.dma cc0_scratch8.sem) (default : HIx 1) (b0V).view.dmaCredit
      iprop(((b0V).view.loc (thr d L) ↦[(b0V).view.set]{fullShare}
              View.write (Elt F) (b0V).view fd (SparseCore.gatherPayload gathers_S100000x128_S100x128 ((tAll).view.read (Elt F) Tb)
                (SparseCore.rows ((lst off inb).view.read (Elt F) X) hn hin)) Finset.univ)
          ∗ ((tAll).view.loc (thr d L) ↦[(tAll).view.set]{qT} Tb) ∗ ((lst off inb).view.loc (thr d L) ↦[(lst off inb).view.set]{qX} X)) : sProp 𝕄)
      ⊢ Pend d L (b0V) cc0_scratch8.sem qT qX Tb X (Gc d L Tb X r h) r h := by
  unfold Pend
  refine Transfers.Flight_mono countersEmb (thr d L) ?_
  iintro ⟨Hd, Ht, Hl⟩
  isplitl [Hd]
  · rw [View.set_whole, show View.write (Elt F) (b0V).view fd (SparseCore.gatherPayload gathers_S100000x128_S100x128 ((tAll).view.read (Elt F) Tb)
        (SparseCore.rows ((lst off inb).view.read (Elt F) X) hn hin)) Finset.univ = Gc d L Tb X r h from
      (View.write_whole_univ (Val := Elt F) cc0_scratch1 fd _).trans (funext fun y => gather_clean d L r h h0 h1 h2 X Tb hn hin y)]
    iexact Hd
  isplitl [Ht]
  · rw [set_tAll]; iexact Ht
  · rw [set_lst_eq r h h0 h1 h2]; iexact Hl

theorem pend_intro_b1 {off : Fin 3 → Nat} {inb : ∀ a, off a + S1x1x100.size a ≤ S128x2x100.size a} (r : Fin 128) (h : Fin 2)
    (h0 : off 0 = r.val) (h1 : off 1 = h.val) (h2 : off 2 = 0) (qT qX : PosShare TreeShare)
    (Tb : Buf (Elt F) (tLoc d)) (X : Buf (Elt F) ((thr d L).loc cc0_scratch0)) (fd : Buf (Elt F) ((b1V).view.loc (thr d L)))
    (hn : S100.numel = S100x128.size gathers_S100000x128_S100x128.axis')
    (hin : ∀ x, ((lst off inb).view.read (Elt F) X x).toNat < S100000x128.size gathers_S100000x128_S100x128.axis) :
    (Transfers.Flight countersEmb (thr d L) (.dma cc0_scratch9.sem) (default : HIx 1) (b1V).view.dmaCredit
      iprop(((b1V).view.loc (thr d L) ↦[(b1V).view.set]{fullShare}
              View.write (Elt F) (b1V).view fd (SparseCore.gatherPayload gathers_S100000x128_S100x128 ((tAll).view.read (Elt F) Tb)
                (SparseCore.rows ((lst off inb).view.read (Elt F) X) hn hin)) Finset.univ)
          ∗ ((tAll).view.loc (thr d L) ↦[(tAll).view.set]{qT} Tb) ∗ ((lst off inb).view.loc (thr d L) ↦[(lst off inb).view.set]{qX} X)) : sProp 𝕄)
      ⊢ Pend d L (b1V) cc0_scratch9.sem qT qX Tb X (Gc d L Tb X r h) r h := by
  unfold Pend
  refine Transfers.Flight_mono countersEmb (thr d L) ?_
  iintro ⟨Hd, Ht, Hl⟩
  isplitl [Hd]
  · rw [View.set_whole, show View.write (Elt F) (b1V).view fd (SparseCore.gatherPayload gathers_S100000x128_S100x128 ((tAll).view.read (Elt F) Tb)
        (SparseCore.rows ((lst off inb).view.read (Elt F) X) hn hin)) Finset.univ = Gc d L Tb X r h from
      (View.write_whole_univ (Val := Elt F) cc0_scratch2 fd _).trans (funext fun y => gather_clean d L r h h0 h1 h2 X Tb hn hin y)]
    iexact Hd
  isplitl [Ht]
  · rw [set_tAll]; iexact Ht
  · rw [set_lst_eq r h h0 h1 h2]; iexact Hl

theorem pend_intro_b2 {off : Fin 3 → Nat} {inb : ∀ a, off a + S1x1x100.size a ≤ S128x2x100.size a} (r : Fin 128) (h : Fin 2)
    (h0 : off 0 = r.val) (h1 : off 1 = h.val) (h2 : off 2 = 0) (qT qX : PosShare TreeShare)
    (Tb : Buf (Elt F) (tLoc d)) (X : Buf (Elt F) ((thr d L).loc cc0_scratch0)) (fd : Buf (Elt F) ((b2V).view.loc (thr d L)))
    (hn : S100.numel = S100x128.size gathers_S100000x128_S100x128.axis')
    (hin : ∀ x, ((lst off inb).view.read (Elt F) X x).toNat < S100000x128.size gathers_S100000x128_S100x128.axis) :
    (Transfers.Flight countersEmb (thr d L) (.dma cc0_scratch10.sem) (default : HIx 1) (b2V).view.dmaCredit
      iprop(((b2V).view.loc (thr d L) ↦[(b2V).view.set]{fullShare}
              View.write (Elt F) (b2V).view fd (SparseCore.gatherPayload gathers_S100000x128_S100x128 ((tAll).view.read (Elt F) Tb)
                (SparseCore.rows ((lst off inb).view.read (Elt F) X) hn hin)) Finset.univ)
          ∗ ((tAll).view.loc (thr d L) ↦[(tAll).view.set]{qT} Tb) ∗ ((lst off inb).view.loc (thr d L) ↦[(lst off inb).view.set]{qX} X)) : sProp 𝕄)
      ⊢ Pend d L (b2V) cc0_scratch10.sem qT qX Tb X (Gc d L Tb X r h) r h := by
  unfold Pend
  refine Transfers.Flight_mono countersEmb (thr d L) ?_
  iintro ⟨Hd, Ht, Hl⟩
  isplitl [Hd]
  · rw [View.set_whole, show View.write (Elt F) (b2V).view fd (SparseCore.gatherPayload gathers_S100000x128_S100x128 ((tAll).view.read (Elt F) Tb)
        (SparseCore.rows ((lst off inb).view.read (Elt F) X) hn hin)) Finset.univ = Gc d L Tb X r h from
      (View.write_whole_univ (Val := Elt F) cc0_scratch3 fd _).trans (funext fun y => gather_clean d L r h h0 h1 h2 X Tb hn hin y)]
    iexact Hd
  isplitl [Ht]
  · rw [set_tAll]; iexact Ht
  · rw [set_lst_eq r h h0 h1 h2]; iexact Hl

theorem pend_intro_b3 {off : Fin 3 → Nat} {inb : ∀ a, off a + S1x1x100.size a ≤ S128x2x100.size a} (r : Fin 128) (h : Fin 2)
    (h0 : off 0 = r.val) (h1 : off 1 = h.val) (h2 : off 2 = 0) (qT qX : PosShare TreeShare)
    (Tb : Buf (Elt F) (tLoc d)) (X : Buf (Elt F) ((thr d L).loc cc0_scratch0)) (fd : Buf (Elt F) ((b3V).view.loc (thr d L)))
    (hn : S100.numel = S100x128.size gathers_S100000x128_S100x128.axis')
    (hin : ∀ x, ((lst off inb).view.read (Elt F) X x).toNat < S100000x128.size gathers_S100000x128_S100x128.axis) :
    (Transfers.Flight countersEmb (thr d L) (.dma cc0_scratch11.sem) (default : HIx 1) (b3V).view.dmaCredit
      iprop(((b3V).view.loc (thr d L) ↦[(b3V).view.set]{fullShare}
              View.write (Elt F) (b3V).view fd (SparseCore.gatherPayload gathers_S100000x128_S100x128 ((tAll).view.read (Elt F) Tb)
                (SparseCore.rows ((lst off inb).view.read (Elt F) X) hn hin)) Finset.univ)
          ∗ ((tAll).view.loc (thr d L) ↦[(tAll).view.set]{qT} Tb) ∗ ((lst off inb).view.loc (thr d L) ↦[(lst off inb).view.set]{qX} X)) : sProp 𝕄)
      ⊢ Pend d L (b3V) cc0_scratch11.sem qT qX Tb X (Gc d L Tb X r h) r h := by
  unfold Pend
  refine Transfers.Flight_mono countersEmb (thr d L) ?_
  iintro ⟨Hd, Ht, Hl⟩
  isplitl [Hd]
  · rw [View.set_whole, show View.write (Elt F) (b3V).view fd (SparseCore.gatherPayload gathers_S100000x128_S100x128 ((tAll).view.read (Elt F) Tb)
        (SparseCore.rows ((lst off inb).view.read (Elt F) X) hn hin)) Finset.univ = Gc d L Tb X r h from
      (View.write_whole_univ (Val := Elt F) cc0_scratch4 fd _).trans (funext fun y => gather_clean d L r h h0 h1 h2 X Tb hn hin y)]
    iexact Hd
  isplitl [Ht]
  · rw [set_tAll]; iexact Ht
  · rw [set_lst_eq r h h0 h1 h2]; iexact Hl

theorem pend_intro_b4 {off : Fin 3 → Nat} {inb : ∀ a, off a + S1x1x100.size a ≤ S128x2x100.size a} (r : Fin 128) (h : Fin 2)
    (h0 : off 0 = r.val) (h1 : off 1 = h.val) (h2 : off 2 = 0) (qT qX : PosShare TreeShare)
    (Tb : Buf (Elt F) (tLoc d)) (X : Buf (Elt F) ((thr d L).loc cc0_scratch0)) (fd : Buf (Elt F) ((b4V).view.loc (thr d L)))
    (hn : S100.numel = S100x128.size gathers_S100000x128_S100x128.axis')
    (hin : ∀ x, ((lst off inb).view.read (Elt F) X x).toNat < S100000x128.size gathers_S100000x128_S100x128.axis) :
    (Transfers.Flight countersEmb (thr d L) (.dma cc0_scratch12.sem) (default : HIx 1) (b4V).view.dmaCredit
      iprop(((b4V).view.loc (thr d L) ↦[(b4V).view.set]{fullShare}
              View.write (Elt F) (b4V).view fd (SparseCore.gatherPayload gathers_S100000x128_S100x128 ((tAll).view.read (Elt F) Tb)
                (SparseCore.rows ((lst off inb).view.read (Elt F) X) hn hin)) Finset.univ)
          ∗ ((tAll).view.loc (thr d L) ↦[(tAll).view.set]{qT} Tb) ∗ ((lst off inb).view.loc (thr d L) ↦[(lst off inb).view.set]{qX} X)) : sProp 𝕄)
      ⊢ Pend d L (b4V) cc0_scratch12.sem qT qX Tb X (Gc d L Tb X r h) r h := by
  unfold Pend
  refine Transfers.Flight_mono countersEmb (thr d L) ?_
  iintro ⟨Hd, Ht, Hl⟩
  isplitl [Hd]
  · rw [View.set_whole, show View.write (Elt F) (b4V).view fd (SparseCore.gatherPayload gathers_S100000x128_S100x128 ((tAll).view.read (Elt F) Tb)
        (SparseCore.rows ((lst off inb).view.read (Elt F) X) hn hin)) Finset.univ = Gc d L Tb X r h from
      (View.write_whole_univ (Val := Elt F) cc0_scratch5 fd _).trans (funext fun y => gather_clean d L r h h0 h1 h2 X Tb hn hin y)]
    iexact Hd
  isplitl [Ht]
  · rw [set_tAll]; iexact Ht
  · rw [set_lst_eq r h h0 h1 h2]; iexact Hl

theorem pend_intro_b5 {off : Fin 3 → Nat} {inb : ∀ a, off a + S1x1x100.size a ≤ S128x2x100.size a} (r : Fin 128) (h : Fin 2)
    (h0 : off 0 = r.val) (h1 : off 1 = h.val) (h2 : off 2 = 0) (qT qX : PosShare TreeShare)
    (Tb : Buf (Elt F) (tLoc d)) (X : Buf (Elt F) ((thr d L).loc cc0_scratch0)) (fd : Buf (Elt F) ((b5V).view.loc (thr d L)))
    (hn : S100.numel = S100x128.size gathers_S100000x128_S100x128.axis')
    (hin : ∀ x, ((lst off inb).view.read (Elt F) X x).toNat < S100000x128.size gathers_S100000x128_S100x128.axis) :
    (Transfers.Flight countersEmb (thr d L) (.dma cc0_scratch13.sem) (default : HIx 1) (b5V).view.dmaCredit
      iprop(((b5V).view.loc (thr d L) ↦[(b5V).view.set]{fullShare}
              View.write (Elt F) (b5V).view fd (SparseCore.gatherPayload gathers_S100000x128_S100x128 ((tAll).view.read (Elt F) Tb)
                (SparseCore.rows ((lst off inb).view.read (Elt F) X) hn hin)) Finset.univ)
          ∗ ((tAll).view.loc (thr d L) ↦[(tAll).view.set]{qT} Tb) ∗ ((lst off inb).view.loc (thr d L) ↦[(lst off inb).view.set]{qX} X)) : sProp 𝕄)
      ⊢ Pend d L (b5V) cc0_scratch13.sem qT qX Tb X (Gc d L Tb X r h) r h := by
  unfold Pend
  refine Transfers.Flight_mono countersEmb (thr d L) ?_
  iintro ⟨Hd, Ht, Hl⟩
  isplitl [Hd]
  · rw [View.set_whole, show View.write (Elt F) (b5V).view fd (SparseCore.gatherPayload gathers_S100000x128_S100x128 ((tAll).view.read (Elt F) Tb)
        (SparseCore.rows ((lst off inb).view.read (Elt F) X) hn hin)) Finset.univ = Gc d L Tb X r h from
      (View.write_whole_univ (Val := Elt F) cc0_scratch6 fd _).trans (funext fun y => gather_clean d L r h h0 h1 h2 X Tb hn hin y)]
    iexact Hd
  isplitl [Ht]
  · rw [set_tAll]; iexact Ht
  · rw [set_lst_eq r h h0 h1 h2]; iexact Hl

end Cell

/-! The index scratch's two row ranges make the whole scratch; a list cut out of the first three rows. -/
section Joins
variable (d : Dev nD) (L : grid0.Coords)

omit [FloatOps F] in
theorem lst_sub_xA {off : Fin 3 → Nat} {inb : ∀ a, off a + S1x1x100.size a ≤ S128x2x100.size a} (h2 : off 2 = 0) (h0 : off 0 < 3) :
    (lst off inb).view.set ⊆ (xA).view.set := fun j hj => by
  rw [mem_xA]; have := (mem_lst h2).mp hj; omega

omit [FloatOps F] in
theorem mem_lstSet {r : Fin 128} {h : Fin 2} {i : S128x2x100.Idx} : i ∈ lstSet r h ↔ (i 0).val = r.val ∧ (i 1).val = h.val := by
  simp [lstSet]

omit [FloatOps F] in
/-- What is left of rows 0–2 without a list there, and rows 3–127, are the scratch without the list. -/
theorem rest_join {off : Fin 3 → Nat} {inb : ∀ a, off a + S1x1x100.size a ≤ S128x2x100.size a} (r : Fin 128) (h : Fin 2)
    (h0 : off 0 = r.val) (h1 : off 1 = h.val) (h2 : off 2 = 0) (hr : r.val < 3) (qx : PosShare TreeShare) (X : Buf (Elt F) ((thr d L).loc cc0_scratch0)) :
    (iprop(((xA).view.loc (thr d L) ↦[(xA).view.set \ (lst off inb).view.set]{qx} X) ∗ ((xB).view.loc (thr d L) ↦[(xB).view.set]{qx} X)) : sProp 𝕄)
      ⊢ ((xV).view.loc (thr d L) ↦[Finset.univ \ lstSet r h]{qx} X) := by
  have hsub : (xB).view.set ⊆ Finset.univ \ lstSet r h := fun j hj => by
    refine Finset.mem_sdiff.mpr ⟨Finset.mem_univ _, fun hm => ?_⟩
    have h3 := (mem_xB (i := j)).mp hj
    have h4 := (mem_lstSet (i := j)).mp hm
    omega
  have hset : (Finset.univ \ lstSet r h) \ (xB).view.set = (xA).view.set \ (lst off inb).view.set := by
    refine Finset.ext fun j => ⟨fun hj => ?_, fun hj => ?_⟩
    · obtain ⟨hj1, hj2⟩ := Finset.mem_sdiff.mp hj
      obtain ⟨_, hj3⟩ := Finset.mem_sdiff.mp hj1
      refine Finset.mem_sdiff.mpr ⟨(mem_xA (i := j)).mpr (Nat.lt_of_not_le fun h3 => hj2 ((mem_xB (i := j)).mpr h3)), fun hm => hj3 ?_⟩
      have h4 := (mem_lst (i := j) h2).mp hm
      exact (mem_lstSet (i := j)).mpr ⟨by omega, by omega⟩
    · obtain ⟨hj1, hj2⟩ := Finset.mem_sdiff.mp hj
      have h3 := (mem_xA (i := j)).mp hj1
      refine Finset.mem_sdiff.mpr ⟨Finset.mem_sdiff.mpr ⟨Finset.mem_univ _, fun hm => hj2 ?_⟩, fun hm => ?_⟩
      · have h4 := (mem_lstSet (i := j)).mp hm
        exact (mem_lst (i := j) h2).mpr ⟨by omega, by omega⟩
      · have h4 := (mem_xB (i := j)).mp hm
        omega
  iintro ⟨Ha, Hb⟩
  iapply (pointsTo_split_subset (q := qx) (f := X) (S := Finset.univ \ lstSet r h) hsub).2
  isplitl [Hb]; · iexact Hb
  rw [hset]; iexact Ha

omit [FloatOps F] in
/-- Rows 0–2 and rows 3–127 are the whole scratch. -/
theorem AB_join (qx : PosShare TreeShare) (X : Buf (Elt F) ((thr d L).loc cc0_scratch0)) :
    (iprop(((xA).view.loc (thr d L) ↦[(xA).view.set]{qx} X) ∗ ((xB).view.loc (thr d L) ↦[(xB).view.set]{qx} X)) : sProp 𝕄)
      ⊢ ((xV).view.loc (thr d L) ↦{qx} X) := by
  have hsub : (xB).view.set ⊆ (Finset.univ : Finset S128x2x100.Idx) := Finset.subset_univ _
  have hset : (Finset.univ : Finset S128x2x100.Idx) \ (xB).view.set = (xA).view.set := by
    refine Finset.ext fun j => ⟨fun hj => ?_, fun hj => ?_⟩
    · obtain ⟨_, hj2⟩ := Finset.mem_sdiff.mp hj
      exact (mem_xA (i := j)).mpr (Nat.lt_of_not_le fun h3 => hj2 ((mem_xB (i := j)).mpr h3))
    · have h3 := (mem_xA (i := j)).mp hj
      refine Finset.mem_sdiff.mpr ⟨Finset.mem_univ _, fun hm => ?_⟩
      have h4 := (mem_xB (i := j)).mp hm
      omega
  iintro ⟨Ha, Hb⟩
  iapply (pointsTo_split_subset (q := qx) (f := X) (S := Finset.univ) hsub).2
  isplitl [Hb]; · iexact Hb
  rw [hset]; iexact Ha
end Joins

end Cert.Proof.KB

end
-- ==== Proof.KBRes.lean ====
import proofs.«206947_g65644280152286_cont_9to1_m_226_28_alg».proof.Proof.KBAcc

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S4096x2x100 EltTy.i32)
local notation "oV" => (Memref.whole Cert.Kernel.main_v1_scv : Memref Cert.Kernel.sig Kind.scVector Space.hbm Cert.Kernel.S4096x128 EltTy.f32)
local notation "xV" => (Memref.whole Cert.Kernel.cc0_scratch0 : Memref Cert.Kernel.sig Kind.scVector Space.vmem Cert.Kernel.S128x2x100 EltTy.i32)
local notation "b0V" => (Memref.whole Cert.Kernel.cc0_scratch1 : Memref Cert.Kernel.sig Kind.scVector Space.vmem Cert.Kernel.S100x128 EltTy.f32)
local notation "b1V" => (Memref.whole Cert.Kernel.cc0_scratch2 : Memref Cert.Kernel.sig Kind.scVector Space.vmem Cert.Kernel.S100x128 EltTy.f32)
local notation "b2V" => (Memref.whole Cert.Kernel.cc0_scratch3 : Memref Cert.Kernel.sig Kind.scVector Space.vmem Cert.Kernel.S100x128 EltTy.f32)
local notation "b3V" => (Memref.whole Cert.Kernel.cc0_scratch4 : Memref Cert.Kernel.sig Kind.scVector Space.vmem Cert.Kernel.S100x128 EltTy.f32)
local notation "b4V" => (Memref.whole Cert.Kernel.cc0_scratch5 : Memref Cert.Kernel.sig Kind.scVector Space.vmem Cert.Kernel.S100x128 EltTy.f32)
local notation "b5V" => (Memref.whole Cert.Kernel.cc0_scratch6 : Memref Cert.Kernel.sig Kind.scVector Space.vmem Cert.Kernel.S100x128 EltTy.f32)
local notation "yV" => (Memref.whole Cert.Kernel.cc0_scratch7 : Memref Cert.Kernel.sig Kind.scVector Space.vmem Cert.Kernel.S128x128 EltTy.f32)

variable [FloatOps F]

/-! What a tile's result scratch must hold: entry (r, q) is the fold KSpec.kresAt of the tile's global row for r and column q. -/
section Res
variable (d : Dev nD) (L : grid0.Coords)

/-- Chunk `c` (16 lanes) of local row `r`'s result. -/
def chunkRes (I : Buf (Elt F) (iLoc d)) (Tb : Buf (Elt F) (tLoc d)) (r : Fin 128) (c : Fin 8) : FVec F S16 .f32 :=
  fun i => KSpec.kresAt (F := F) I Tb (rowG L r) (colOf c (i 0))

/-- The eight chunks of local row `r`'s result. -/
def rowRes (I : Buf (Elt F) (iLoc d)) (Tb : Buf (Elt F) (tLoc d)) (r : Fin 128) : T8 F :=
  (chunkRes d L I Tb r 0, chunkRes d L I Tb r 1, chunkRes d L I Tb r 2, chunkRes d L I Tb r 3, chunkRes d L I Tb r 4, chunkRes d L I Tb r 5,
    chunkRes d L I Tb r 6, chunkRes d L I Tb r 7)

/-- The result scratch [128, 128] once every row is written. -/
def Yres (I : Buf (Elt F) (iLoc d)) (Tb : Buf (Elt F) (tLoc d)) : S128x128.Idx → F .f32 :=
  fun j => KSpec.kresAt (F := F) I Tb (rowG L (j 0)) (j 1)
end Res

end Cert.Proof.KB

end
-- ==== Proof.KBStep.lean ====
/-
  One step of a pooling loop on one column chunk, as mathematics.
  The fold of KSpec (25 steps per buffer, step k folding in the balanced maximum of rows 4k … 4k+3) is extended to a
  total function of the step count (beyond 25 steps nothing more is folded), so that a loop invariant can name the
  accumulators after k steps for any natural k; within 25 steps it is KSpec's. A [1, 16] load at offset (R, C) of a
  [100, 128] buffer reads, at lane t, the buffer's entry (R, C + t); recast to 16 lanes, lane t is that entry; the vector
  maximum is lane by lane. So the loop body's update of chunk c — the accumulator under the maximum with the balanced
  maximum of the four loads at rows 4k … 4k+3, columns 16c … 16c+15 — takes the chunk's accumulator after k steps to
  the one after k + 1 steps.
-/
import proofs.«206947_g65644280152286_cont_9to1_m_226_28_alg».proof.Proof.KBAcc

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S4096x2x100 EltTy.i32)
local notation "oV" => (Memref.whole Cert.Kernel.main_v1_scv : Memref Cert.Kernel.sig Kind.scVector Space.hbm Cert.Kernel.S4096x128 EltTy.f32)
local notation "xV" => (Memref.whole Cert.Kernel.cc0_scratch0 : Memref Cert.Kernel.sig Kind.scVector Space.vmem Cert.Kernel.S128x2x100 EltTy.i32)
local notation "b0V" => (Memref.whole Cert.Kernel.cc0_scratch1 : Memref Cert.Kernel.sig Kind.scVector Space.vmem Cert.Kernel.S100x128 EltTy.f32)
local notation "b1V" => (Memref.whole Cert.Kernel.cc0_scratch2 : Memref Cert.Kernel.sig Kind.scVector Space.vmem Cert.Kernel.S100x128 EltTy.f32)
local notation "b2V" => (Memref.whole Cert.Kernel.cc0_scratch3 : Memref Cert.Kernel.sig Kind.scVector Space.vmem Cert.Kernel.S100x128 EltTy.f32)
local notation "b3V" => (Memref.whole Cert.Kernel.cc0_scratch4 : Memref Cert.Kernel.sig Kind.scVector Space.vmem Cert.Kernel.S100x128 EltTy.f32)
local notation "b4V" => (Memref.whole Cert.Kernel.cc0_scratch5 : Memref Cert.Kernel.sig Kind.scVector Space.vmem Cert.Kernel.S100x128 EltTy.f32)
local notation "b5V" => (Memref.whole Cert.Kernel.cc0_scratch6 : Memref Cert.Kernel.sig Kind.scVector Space.vmem Cert.Kernel.S100x128 EltTy.f32)
local notation "yV" => (Memref.whole Cert.Kernel.cc0_scratch7 : Memref Cert.Kernel.sig Kind.scVector Space.vmem Cert.Kernel.S128x128 EltTy.f32)

variable [FloatOps F]

/-- The running maximum after `n` steps as a total function of `n`: beyond the 25 steps nothing more is folded in. -/
def halfN (x : Fin 100 → F .f32) (a : F .f32) : ℕ → F .f32
  | 0 => a
  | n + 1 => if h : n < 25 then FloatOps.maximumf (halfN x a n) (KSpec.quad x ⟨n, h⟩) else halfN x a n

/-- Chunk `c`'s accumulator after `n` steps, for any natural `n`. -/
def colN (g : S100x128.Idx → F .f32) (c : Fin 8) (a : FVec F S16 .f32) (n : ℕ) : FVec F S16 .f32 :=
  fun i => halfN (fun j : Fin 100 => g (ValueIdx.ix2 j (colOf c (i 0)))) (a i) n

/-- All eight accumulators after `n` steps, for any natural `n`. -/
def accsN (g : S100x128.Idx → F .f32) (a : T8 F) (n : ℕ) : T8 F :=
  (colN g 0 a.1 n, colN g 1 a.2.1 n, colN g 2 a.2.2.1 n, colN g 3 a.2.2.2.1 n, colN g 4 a.2.2.2.2.1 n,
    colN g 5 a.2.2.2.2.2.1 n, colN g 6 a.2.2.2.2.2.2.1 n, colN g 7 a.2.2.2.2.2.2.2 n)

/-- A pooling loop's invariant: before step `k` the carried accumulators are those after `k` steps, and the buffer is held (`P`). -/
def invI (P : sProp 𝕄) (g : S100x128.Idx → F .f32) (a : T8 F) (k : Nat) (acc : T8 F) : sProp 𝕄 :=
  iprop(⌜acc = accsN g a k⌝ ∗ P)

/-- Within the 25 steps the total fold is the fold of KSpec. -/
theorem halfN_eq (x : Fin 100 → F .f32) (a : F .f32) : ∀ (n : ℕ) (h : n ≤ 25), halfN x a n = KSpec.halfUpTo x a n h
  | 0, _ => rfl
  | n + 1, h => by
    show (if h' : n < 25 then FloatOps.maximumf (halfN x a n) (KSpec.quad x ⟨n, h'⟩) else halfN x a n) = _
    rw [dif_pos (show n < 25 from h), halfN_eq x a n (Nat.le_of_succ_le h)]
    rfl

theorem colN_eq (g : S100x128.Idx → F .f32) (c : Fin 8) (a : FVec F S16 .f32) (n : ℕ) (hn : n ≤ 25) :
    colN g c a n = colUpTo g c a n hn := by
  funext i; exact halfN_eq _ _ n hn

theorem accsN_eq (g : S100x128.Idx → F .f32) (a : T8 F) (n : ℕ) (hn : n ≤ 25) : accsN g a n = accsUpTo g a n hn := by
  unfold accsN accsUpTo
  simp only [colN_eq _ _ _ n hn]

theorem accsN_zero (g : S100x128.Idx → F .f32) (a : T8 F) : accsN g a 0 = a := rfl

/-- A [1, 16] vector recast to [16] reads, at lane t, its entry (0, t). -/
theorem cast16_apply (r : Vec F S1x16 .f32) (t : Fin 16) :
    shapeCast S16 r shapeCasts_S1x16_S16 (ValueIdx.ix1 t) = r (ValueIdx.ix2 (n0 := 1) (n1 := 16) ⟨0, Nat.one_pos⟩ t) := by
  unfold shapeCast
  exact congrArg r (Shape.reshapeEquiv_eq_of_rowMajor _ (by
    rw [Shape.rowMajor_val_two, Shape.rowMajor_val_one]
    show 0 * 16 + t.val = t.val
    omega))

/-- One step on one column chunk: the balanced maximum of the four rows 4k … 4k+3 at the chunk's 16 columns, folded
    into the chunk's accumulator after k steps, is the accumulator after k + 1 steps. -/
theorem colN_step (G : S100x128.Idx → F .f32) (c : Fin 8) (a : FVec F S16 .f32) (k : ℕ) (hk : k < 25)
    (r0 r1 r2 r3 : Vec F S1x16 .f32)
    (h0 : ∀ t : Fin 16, r0 (ValueIdx.ix2 (n0 := 1) (n1 := 16) ⟨0, Nat.one_pos⟩ t) = G (ValueIdx.ix2 (n0 := 100) (n1 := 128) ⟨4 * k, by omega⟩ (colOf c t)))
    (h1 : ∀ t : Fin 16, r1 (ValueIdx.ix2 (n0 := 1) (n1 := 16) ⟨0, Nat.one_pos⟩ t) = G (ValueIdx.ix2 (n0 := 100) (n1 := 128) ⟨4 * k + 1, by omega⟩ (colOf c t)))
    (h2 : ∀ t : Fin 16, r2 (ValueIdx.ix2 (n0 := 1) (n1 := 16) ⟨0, Nat.one_pos⟩ t) = G (ValueIdx.ix2 (n0 := 100) (n1 := 128) ⟨4 * k + 2, by omega⟩ (colOf c t)))
    (h3 : ∀ t : Fin 16, r3 (ValueIdx.ix2 (n0 := 1) (n1 := 16) ⟨0, Nat.one_pos⟩ t) = G (ValueIdx.ix2 (n0 := 100) (n1 := 128) ⟨4 * k + 3, by omega⟩ (colOf c t))) :
    maximumf (colN G c a k)
      (maximumf (maximumf (shapeCast S16 r0 shapeCasts_S1x16_S16) (shapeCast S16 r1 shapeCasts_S1x16_S16))
        (maximumf (shapeCast S16 r2 shapeCasts_S1x16_S16) (shapeCast S16 r3 shapeCasts_S1x16_S16)))
      = colN G c a (k + 1) := by
  funext i
  obtain ⟨t, rfl⟩ : ∃ t : Fin 16, i = ValueIdx.ix1 t := ⟨i 0, ValueIdx.eq_ix1 i⟩
  show FloatOps.maximumf (colN G c a k (ValueIdx.ix1 t))
      (FloatOps.maximumf (FloatOps.maximumf (shapeCast S16 r0 shapeCasts_S1x16_S16 (ValueIdx.ix1 t)) (shapeCast S16 r1 shapeCasts_S1x16_S16 (ValueIdx.ix1 t)))
        (FloatOps.maximumf (shapeCast S16 r2 shapeCasts_S1x16_S16 (ValueIdx.ix1 t)) (shapeCast S16 r3 shapeCasts_S1x16_S16 (ValueIdx.ix1 t))))
    = (if h' : k < 25 then FloatOps.maximumf (colN G c a k (ValueIdx.ix1 t)) (KSpec.quad (fun j : Fin 100 => G (ValueIdx.ix2 j (colOf c t))) ⟨k, h'⟩)
        else colN G c a k (ValueIdx.ix1 t))
  rw [dif_pos hk, cast16_apply, cast16_apply, cast16_apply, cast16_apply, h0, h1, h2, h3]
  rfl

/-- A [1, 16] load at offset (R, C) of a [100, 128] buffer reads, at lane t, the buffer's entry (R, C + t). -/
theorem load_lane {κ : Kind} {sp : Space} (v : View sig κ sp S100x128 .f32) (g : v.ty.Contents (Elt F)) (G : S100x128.Idx → F .f32)
    (hG : ∀ x, v.read (Elt F) g x = G x) (off : Fin 2 → Nat) (inb : ∀ a, off a + S1x16.size a ≤ S100x128.size a)
    (R C : ℕ) (hoff : off = ![R, C]) (hR : R < 100) (t : Fin 16) (hC : C + t.val < 128) :
    v.readAt (Elt F) (Rect.unit (s := S100x128) off S1x16.size inb).toLoadRect g (ValueIdx.ix2 (n0 := 1) (n1 := 16) ⟨0, Nat.one_pos⟩ t)
      = G (ValueIdx.ix2 (n0 := 100) (n1 := 128) ⟨R, hR⟩ ⟨C + t.val, hC⟩) := by
  rw [View.readAt_apply, hG]
  congr 1
  funext b; apply Fin.ext
  subst hoff
  match b with
  | ⟨0, _⟩ => show R + 1 * 0 = R; omega
  | ⟨1, _⟩ => show C + 1 * t.val = C + t.val; omega

/-- One step on one column chunk, as the loop body spells it: the four [1, 16] loads at rows 4k … 4k+3 and column
    offset C = 16·c, recast to 16 lanes, under a balanced maximum, folded into the accumulator. -/
theorem pay_step {κ : Kind} {sp : Space} (v : View sig κ sp S100x128 .f32) (g : v.ty.Contents (Elt F)) (G : S100x128.Idx → F .f32)
    (hG : ∀ x, v.read (Elt F) g x = G x) (c : Fin 8) (C : ℕ) (hC : C = 16 * c.val) (a acc : FVec F S16 .f32) (k : ℕ) (hk : k < 25)
    (hacc : acc = colN G c a k) (o0 o1 o2 o3 : Fin 2 → Nat)
    (i0 : ∀ b, o0 b + S1x16.size b ≤ S100x128.size b) (i1 : ∀ b, o1 b + S1x16.size b ≤ S100x128.size b)
    (i2 : ∀ b, o2 b + S1x16.size b ≤ S100x128.size b) (i3 : ∀ b, o3 b + S1x16.size b ≤ S100x128.size b)
    (e0 : o0 = ![4 * k + 0, C]) (e1 : o1 = ![4 * k + 1, C]) (e2 : o2 = ![4 * k + 2, C]) (e3 : o3 = ![4 * k + 3, C]) :
    maximumf acc
      (maximumf
        (maximumf (shapeCast S16 (v.readAt (Elt F) (Rect.unit (s := S100x128) o0 S1x16.size i0).toLoadRect g) shapeCasts_S1x16_S16)
          (shapeCast S16 (v.readAt (Elt F) (Rect.unit (s := S100x128) o1 S1x16.size i1).toLoadRect g) shapeCasts_S1x16_S16))
        (maximumf (shapeCast S16 (v.readAt (Elt F) (Rect.unit (s := S100x128) o2 S1x16.size i2).toLoadRect g) shapeCasts_S1x16_S16)
          (shapeCast S16 (v.readAt (Elt F) (Rect.unit (s := S100x128) o3 S1x16.size i3).toLoadRect g) shapeCasts_S1x16_S16)))
      = colN G c a (k + 1) := by
  subst hacc; subst hC
  have hc := c.isLt
  refine colN_step G c a k hk _ _ _ _ (fun t => ?_) (fun t => ?_) (fun t => ?_) (fun t => ?_)
  · exact load_lane v g G hG o0 i0 (4 * k + 0) (16 * c.val) e0 (by omega) t (by have := t.isLt; omega)
  · exact load_lane v g G hG o1 i1 (4 * k + 1) (16 * c.val) e1 (by omega) t (by have := t.isLt; omega)
  · exact load_lane v g G hG o2 i2 (4 * k + 2) (16 * c.val) e2 (by omega) t (by have := t.isLt; omega)
  · exact load_lane v g G hG o3 i3 (4 * k + 3) (16 * c.val) e3 (by omega) t (by have := t.isLt; omega)

end Cert.Proof.KB

end
-- ==== Proof.KBInner.lean ====
import proofs.«206947_g65644280152286_cont_9to1_m_226_28_alg».proof.Proof.KBAcc
import proofs.«206947_g65644280152286_cont_9to1_m_226_28_alg».proof.Proof.KBStep

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S4096x2x100 EltTy.i32)
local notation "oV" => (Memref.whole Cert.Kernel.main_v1_scv : Memref Cert.Kernel.sig Kind.scVector Space.hbm Cert.Kernel.S4096x128 EltTy.f32)
local notation "xV" => (Memref.whole Cert.Kernel.cc0_scratch0 : Memref Cert.Kernel.sig Kind.scVector Space.vmem Cert.Kernel.S128x2x100 EltTy.i32)
local notation "b0V" => (Memref.whole Cert.Kernel.cc0_scratch1 : Memref Cert.Kernel.sig Kind.scVector Space.vmem Cert.Kernel.S100x128 EltTy.f32)
local notation "b1V" => (Memref.whole Cert.Kernel.cc0_scratch2 : Memref Cert.Kernel.sig Kind.scVector Space.vmem Cert.Kernel.S100x128 EltTy.f32)
local notation "b2V" => (Memref.whole Cert.Kernel.cc0_scratch3 : Memref Cert.Kernel.sig Kind.scVector Space.vmem Cert.Kernel.S100x128 EltTy.f32)
local notation "b3V" => (Memref.whole Cert.Kernel.cc0_scratch4 : Memref Cert.Kernel.sig Kind.scVector Space.vmem Cert.Kernel.S100x128 EltTy.f32)
local notation "b4V" => (Memref.whole Cert.Kernel.cc0_scratch5 : Memref Cert.Kernel.sig Kind.scVector Space.vmem Cert.Kernel.S100x128 EltTy.f32)
local notation "b5V" => (Memref.whole Cert.Kernel.cc0_scratch6 : Memref Cert.Kernel.sig Kind.scVector Space.vmem Cert.Kernel.S100x128 EltTy.f32)
local notation "yV" => (Memref.whole Cert.Kernel.cc0_scratch7 : Memref Cert.Kernel.sig Kind.scVector Space.vmem Cert.Kernel.S128x128 EltTy.f32)

variable [FloatOps F]

/-! The ten pooling loops of a tile's body, each 25 steps through one gathered buffer: what they return. -/

section Tile
variable (d : Dev nD) (L : grid0.Coords)

set_option maxHeartbeats 4000000 in
/-- The first pooling loop (25 steps through buffer 0): from accumulators `a` it returns `accsOut g a` and leaves the buffer as it was. -/
theorem inner_t2 (g : Buf (Elt F) ((thr d L).loc cc0_scratch1)) (a : T8 F) (v8 v9 v10 v11 v12 v13 v14 v15 : FVec F S16 .f32) (c0 c1 : BitVec 32) (k1 : Fin k0_t1_loop.trips)
    (Φ : T8 F → sProp 𝕄) :
    ((b0V).view.loc (thr d L) ↦{fullShare} g : sProp 𝕄)
      ⊢ iprop((((b0V).view.loc (thr d L) ↦{fullShare} g) -∗ Φ (accsOut g a))
          -∗ wp frame (wpE (defs₀ (F := F)) 𝒱₀ (thr d L) none) Set.univ
              (Scf.Loop.for k0_t2_loop k0_t2_ok a (k0_t2_body L tV (Memref.isWhole_whole _) iV (Memref.isWhole_whole _) oV (Memref.isWhole_whole _)
            xV (Memref.isWhole_whole _) b0V (Memref.isWhole_whole _) b1V (Memref.isWhole_whole _) b2V (Memref.isWhole_whole _)
            b3V (Memref.isWhole_whole _) b4V (Memref.isWhole_whole _) b5V (Memref.isWhole_whole _) yV (Memref.isWhole_whole _)
            cc0_scratch8 cc0_scratch9 cc0_scratch10 cc0_scratch11 cc0_scratch12 cc0_scratch13 cc0_scratch14 cc0_scoped0 cc0_scoped1 v8 v9 v10 v11 v12 v13 v14 v15 c0 c1 k1)) Φ) := by
  iintro Hb Hk
  sl_for (invI (F := F) iprop((b0V).view.loc (thr d L) ↦{fullShare} g) g a) $$ [Hb Hk]
  case region =>
    intro k acc
    unfold invI
    iintro ⟨%hacc, Hb⟩
    sl_exec
    sl_step
    isplitr [Hb]
    · ipureintro
      subst hacc
      have hk : k.val < 25 := lt_of_lt_of_le k.isLt k0_t2_abs.2.1
      have hG : ∀ x, (b0V).view.read (Elt F) g x = g x := fun _ => rfl
      unfold accsN
      refine Prod.ext ?_ (Prod.ext ?_ (Prod.ext ?_ (Prod.ext ?_ (Prod.ext ?_ (Prod.ext ?_ (Prod.ext ?_ ?_))))))
      · exact pay_step (b0V).view g g hG 0 0 rfl _ _ k.val hk rfl _ _ _ _ _ _ _ _
          (k0_off4_eq k ⟨0, by decide⟩) (k0_off4_eq k ⟨1, by decide⟩) (k0_off4_eq k ⟨2, by decide⟩) (k0_off4_eq k ⟨3, by decide⟩)
      · exact pay_step (b0V).view g g hG 1 16 rfl _ _ k.val hk rfl _ _ _ _ _ _ _ _
          (k0_off5_eq k ⟨0, by decide⟩) (k0_off5_eq k ⟨1, by decide⟩) (k0_off5_eq k ⟨2, by decide⟩) (k0_off5_eq k ⟨3, by decide⟩)
      · exact pay_step (b0V).view g g hG 2 32 rfl _ _ k.val hk rfl _ _ _ _ _ _ _ _
          (k0_off6_eq k ⟨0, by decide⟩) (k0_off6_eq k ⟨1, by decide⟩) (k0_off6_eq k ⟨2, by decide⟩) (k0_off6_eq k ⟨3, by decide⟩)
      · exact pay_step (b0V).view g g hG 3 48 rfl _ _ k.val hk rfl _ _ _ _ _ _ _ _
          (k0_off7_eq k ⟨0, by decide⟩) (k0_off7_eq k ⟨1, by decide⟩) (k0_off7_eq k ⟨2, by decide⟩) (k0_off7_eq k ⟨3, by decide⟩)
      · exact pay_step (b0V).view g g hG 4 64 rfl _ _ k.val hk rfl _ _ _ _ _ _ _ _
          (k0_off8_eq k ⟨0, by decide⟩) (k0_off8_eq k ⟨1, by decide⟩) (k0_off8_eq k ⟨2, by decide⟩) (k0_off8_eq k ⟨3, by decide⟩)
      · exact pay_step (b0V).view g g hG 5 80 rfl _ _ k.val hk rfl _ _ _ _ _ _ _ _
          (k0_off9_eq k ⟨0, by decide⟩) (k0_off9_eq k ⟨1, by decide⟩) (k0_off9_eq k ⟨2, by decide⟩) (k0_off9_eq k ⟨3, by decide⟩)
      · exact pay_step (b0V).view g g hG 6 96 rfl _ _ k.val hk rfl _ _ _ _ _ _ _ _
          (k0_off10_eq k ⟨0, by decide⟩) (k0_off10_eq k ⟨1, by decide⟩) (k0_off10_eq k ⟨2, by decide⟩) (k0_off10_eq k ⟨3, by decide⟩)
      · exact pay_step (b0V).view g g hG 7 112 rfl _ _ k.val hk rfl _ _ _ _ _ _ _ _
          (k0_off11_eq k ⟨0, by decide⟩) (k0_off11_eq k ⟨1, by decide⟩) (k0_off11_eq k ⟨2, by decide⟩) (k0_off11_eq k ⟨3, by decide⟩)
    · iexact Hb
  unfold invI
  isplitl [Hb]
  · isplitr [Hb]
    · ipureintro; rfl
    · iexact Hb
  · iintro %acc' ⟨%hacc', Hb⟩
    subst hacc'
    have e : accsN g a (Scf.trips k0_t2_loop.lb k0_t2_loop.ub k0_t2_loop.st) = accsOut g a := by
      rw [show Scf.trips k0_t2_loop.lb k0_t2_loop.ub k0_t2_loop.st = 25 by decide +kernel]
      exact accsN_eq g a 25 (Nat.le_refl _)
    rw [e]
    iapply Hk
    iexact Hb

set_option maxHeartbeats 4000000 in
/-- The next pooling loop (25 steps through buffer 1): from accumulators `a` it returns `accsOut g a` and leaves the buffer as it was. -/
theorem inner_t3 (g : Buf (Elt F) ((thr d L).loc cc0_scratch2)) (a : T8 F) (v8 v9 v10 v11 v12 v13 v14 v15 : FVec F S16 .f32) (c0 c1 : BitVec 32) (k1 : Fin k0_t1_loop.trips)
    (Φ : T8 F → sProp 𝕄) :
    ((b1V).view.loc (thr d L) ↦{fullShare} g : sProp 𝕄)
      ⊢ iprop((((b1V).view.loc (thr d L) ↦{fullShare} g) -∗ Φ (accsOut g a))
          -∗ wp frame (wpE (defs₀ (F := F)) 𝒱₀ (thr d L) none) Set.univ
              (Scf.Loop.for k0_t3_loop k0_t3_ok a (k0_t3_body L tV (Memref.isWhole_whole _) iV (Memref.isWhole_whole _) oV (Memref.isWhole_whole _)
            xV (Memref.isWhole_whole _) b0V (Memref.isWhole_whole _) b1V (Memref.isWhole_whole _) b2V (Memref.isWhole_whole _)
            b3V (Memref.isWhole_whole _) b4V (Memref.isWhole_whole _) b5V (Memref.isWhole_whole _) yV (Memref.isWhole_whole _)
            cc0_scratch8 cc0_scratch9 cc0_scratch10 cc0_scratch11 cc0_scratch12 cc0_scratch13 cc0_scratch14 cc0_scoped0 cc0_scoped1 v8 v9 v10 v11 v12 v13 v14 v15 c0 c1 k1)) Φ) := by
  iintro Hb Hk
  sl_for (invI (F := F) iprop((b1V).view.loc (thr d L) ↦{fullShare} g) g a) $$ [Hb Hk]
  case region =>
    intro k acc
    unfold invI
    iintro ⟨%hacc, Hb⟩
    sl_exec
    sl_step
    isplitr [Hb]
    · ipureintro
      subst hacc
      have hk : k.val < 25 := lt_of_lt_of_le k.isLt k0_t3_abs.2.1
      have hG : ∀ x, (b1V).view.read (Elt F) g x = g x := fun _ => rfl
      unfold accsN
      refine Prod.ext ?_ (Prod.ext ?_ (Prod.ext ?_ (Prod.ext ?_ (Prod.ext ?_ (Prod.ext ?_ (Prod.ext ?_ ?_))))))
      · exact pay_step (b1V).view g g hG 0 0 rfl _ _ k.val hk rfl _ _ _ _ _ _ _ _
          (k0_off14_eq k ⟨0, by decide⟩) (k0_off14_eq k ⟨1, by decide⟩) (k0_off14_eq k ⟨2, by decide⟩) (k0_off14_eq k ⟨3, by decide⟩)
      · exact pay_step (b1V).view g g hG 1 16 rfl _ _ k.val hk rfl _ _ _ _ _ _ _ _
          (k0_off15_eq k ⟨0, by decide⟩) (k0_off15_eq k ⟨1, by decide⟩) (k0_off15_eq k ⟨2, by decide⟩) (k0_off15_eq k ⟨3, by decide⟩)
      · exact pay_step (b1V).view g g hG 2 32 rfl _ _ k.val hk rfl _ _ _ _ _ _ _ _
          (k0_off16_eq k ⟨0, by decide⟩) (k0_off16_eq k ⟨1, by decide⟩) (k0_off16_eq k ⟨2, by decide⟩) (k0_off16_eq k ⟨3, by decide⟩)
      · exact pay_step (b1V).view g g hG 3 48 rfl _ _ k.val hk rfl _ _ _ _ _ _ _ _
          (k0_off17_eq k ⟨0, by decide⟩) (k0_off17_eq k ⟨1, by decide⟩) (k0_off17_eq k ⟨2, by decide⟩) (k0_off17_eq k ⟨3, by decide⟩)
      · exact pay_step (b1V).view g g hG 4 64 rfl _ _ k.val hk rfl _ _ _ _ _ _ _ _
          (k0_off18_eq k ⟨0, by decide⟩) (k0_off18_eq k ⟨1, by decide⟩) (k0_off18_eq k ⟨2, by decide⟩) (k0_off18_eq k ⟨3, by decide⟩)
      · exact pay_step (b1V).view g g hG 5 80 rfl _ _ k.val hk rfl _ _ _ _ _ _ _ _
          (k0_off19_eq k ⟨0, by decide⟩) (k0_off19_eq k ⟨1, by decide⟩) (k0_off19_eq k ⟨2, by decide⟩) (k0_off19_eq k ⟨3, by decide⟩)
      · exact pay_step (b1V).view g g hG 6 96 rfl _ _ k.val hk rfl _ _ _ _ _ _ _ _
          (k0_off20_eq k ⟨0, by decide⟩) (k0_off20_eq k ⟨1, by decide⟩) (k0_off20_eq k ⟨2, by decide⟩) (k0_off20_eq k ⟨3, by decide⟩)
      · exact pay_step (b1V).view g g hG 7 112 rfl _ _ k.val hk rfl _ _ _ _ _ _ _ _
          (k0_off21_eq k ⟨0, by decide⟩) (k0_off21_eq k ⟨1, by decide⟩) (k0_off21_eq k ⟨2, by decide⟩) (k0_off21_eq k ⟨3, by decide⟩)
    · iexact Hb
  unfold invI
  isplitl [Hb]
  · isplitr [Hb]
    · ipureintro; rfl
    · iexact Hb
  · iintro %acc' ⟨%hacc', Hb⟩
    subst hacc'
    have e : accsN g a (Scf.trips k0_t3_loop.lb k0_t3_loop.ub k0_t3_loop.st) = accsOut g a := by
      rw [show Scf.trips k0_t3_loop.lb k0_t3_loop.ub k0_t3_loop.st = 25 by decide +kernel]
      exact accsN_eq g a 25 (Nat.le_refl _)
    rw [e]
    iapply Hk
    iexact Hb

set_option maxHeartbeats 4000000 in
/-- The next pooling loop (25 steps through buffer 2): from accumulators `a` it returns `accsOut g a` and leaves the buffer as it was. -/
theorem inner_t4 (g : Buf (Elt F) ((thr d L).loc cc0_scratch3)) (a : T8 F) (v8 v9 v10 v11 v12 v13 v14 v15 : FVec F S16 .f32) (k1 : Fin k0_t1_loop.trips) (v123 v134 : BitVec 32) (w3 w4 w5 w6 w7 : FVec F S16 .f32) (v151 : FVec F S1x16 .f32)
    (Φ : T8 F → sProp 𝕄) :
    ((b2V).view.loc (thr d L) ↦{fullShare} g : sProp 𝕄)
      ⊢ iprop((((b2V).view.loc (thr d L) ↦{fullShare} g) -∗ Φ (accsOut g a))
          -∗ wp frame (wpE (defs₀ (F := F)) 𝒱₀ (thr d L) none) Set.univ
              (Scf.Loop.for k0_t4_loop k0_t4_ok a (k0_t4_body L tV (Memref.isWhole_whole _) iV (Memref.isWhole_whole _) oV (Memref.isWhole_whole _)
            xV (Memref.isWhole_whole _) b0V (Memref.isWhole_whole _) b1V (Memref.isWhole_whole _) b2V (Memref.isWhole_whole _)
            b3V (Memref.isWhole_whole _) b4V (Memref.isWhole_whole _) b5V (Memref.isWhole_whole _) yV (Memref.isWhole_whole _)
            cc0_scratch8 cc0_scratch9 cc0_scratch10 cc0_scratch11 cc0_scratch12 cc0_scratch13 cc0_scratch14 cc0_scoped0 cc0_scoped1 v8 v9 v10 v11 v12 v13 v14 v15 k1 v123 v134 w3 w4 w5 w6 w7 v151)) Φ) := by
  iintro Hb Hk
  sl_for (invI (F := F) iprop((b2V).view.loc (thr d L) ↦{fullShare} g) g a) $$ [Hb Hk]
  case region =>
    intro k acc
    unfold invI
    iintro ⟨%hacc, Hb⟩
    sl_exec
    sl_step
    isplitr [Hb]
    · ipureintro
      subst hacc
      have hk : k.val < 25 := lt_of_lt_of_le k.isLt k0_t4_abs.2.1
      have hG : ∀ x, (b2V).view.read (Elt F) g x = g x := fun _ => rfl
      unfold accsN
      refine Prod.ext ?_ (Prod.ext ?_ (Prod.ext ?_ (Prod.ext ?_ (Prod.ext ?_ (Prod.ext ?_ (Prod.ext ?_ ?_))))))
      · exact pay_step (b2V).view g g hG 0 0 rfl _ _ k.val hk rfl _ _ _ _ _ _ _ _
          (k0_off31_eq k ⟨0, by decide⟩) (k0_off31_eq k ⟨1, by decide⟩) (k0_off31_eq k ⟨2, by decide⟩) (k0_off31_eq k ⟨3, by decide⟩)
      · exact pay_step (b2V).view g g hG 1 16 rfl _ _ k.val hk rfl _ _ _ _ _ _ _ _
          (k0_off32_eq k ⟨0, by decide⟩) (k0_off32_eq k ⟨1, by decide⟩) (k0_off32_eq k ⟨2, by decide⟩) (k0_off32_eq k ⟨3, by decide⟩)
      · exact pay_step (b2V).view g g hG 2 32 rfl _ _ k.val hk rfl _ _ _ _ _ _ _ _
          (k0_off33_eq k ⟨0, by decide⟩) (k0_off33_eq k ⟨1, by decide⟩) (k0_off33_eq k ⟨2, by decide⟩) (k0_off33_eq k ⟨3, by decide⟩)
      · exact pay_step (b2V).view g g hG 3 48 rfl _ _ k.val hk rfl _ _ _ _ _ _ _ _
          (k0_off34_eq k ⟨0, by decide⟩) (k0_off34_eq k ⟨1, by decide⟩) (k0_off34_eq k ⟨2, by decide⟩) (k0_off34_eq k ⟨3, by decide⟩)
      · exact pay_step (b2V).view g g hG 4 64 rfl _ _ k.val hk rfl _ _ _ _ _ _ _ _
          (k0_off35_eq k ⟨0, by decide⟩) (k0_off35_eq k ⟨1, by decide⟩) (k0_off35_eq k ⟨2, by decide⟩) (k0_off35_eq k ⟨3, by decide⟩)
      · exact pay_step (b2V).view g g hG 5 80 rfl _ _ k.val hk rfl _ _ _ _ _ _ _ _
          (k0_off36_eq k ⟨0, by decide⟩) (k0_off36_eq k ⟨1, by decide⟩) (k0_off36_eq k ⟨2, by decide⟩) (k0_off36_eq k ⟨3, by decide⟩)
      · exact pay_step (b2V).view g g hG 6 96 rfl _ _ k.val hk rfl _ _ _ _ _ _ _ _
          (k0_off37_eq k ⟨0, by decide⟩) (k0_off37_eq k ⟨1, by decide⟩) (k0_off37_eq k ⟨2, by decide⟩) (k0_off37_eq k ⟨3, by decide⟩)
      · exact pay_step (b2V).view g g hG 7 112 rfl _ _ k.val hk rfl _ _ _ _ _ _ _ _
          (k0_off38_eq k ⟨0, by decide⟩) (k0_off38_eq k ⟨1, by decide⟩) (k0_off38_eq k ⟨2, by decide⟩) (k0_off38_eq k ⟨3, by decide⟩)
    · iexact Hb
  unfold invI
  isplitl [Hb]
  · isplitr [Hb]
    · ipureintro; rfl
    · iexact Hb
  · iintro %acc' ⟨%hacc', Hb⟩
    subst hacc'
    have e : accsN g a (Scf.trips k0_t4_loop.lb k0_t4_loop.ub k0_t4_loop.st) = accsOut g a := by
      rw [show Scf.trips k0_t4_loop.lb k0_t4_loop.ub k0_t4_loop.st = 25 by decide +kernel]
      exact accsN_eq g a 25 (Nat.le_refl _)
    rw [e]
    iapply Hk
    iexact Hb

set_option maxHeartbeats 4000000 in
/-- The next pooling loop (25 steps through buffer 3): from accumulators `a` it returns `accsOut g a` and leaves the buffer as it was. -/
theorem inner_t5 (g : Buf (Elt F) ((thr d L).loc cc0_scratch4)) (a : T8 F) (k1 : Fin k0_t1_loop.trips) (v123 v176 : BitVec 32) (u0 u1 u2 u3 u4 u5 u6 u7 : FVec F S16 .f32) (v184 : BitVec 32)
    (Φ : T8 F → sProp 𝕄) :
    ((b3V).view.loc (thr d L) ↦{fullShare} g : sProp 𝕄)
      ⊢ iprop((((b3V).view.loc (thr d L) ↦{fullShare} g) -∗ Φ (accsOut g a))
          -∗ wp frame (wpE (defs₀ (F := F)) 𝒱₀ (thr d L) none) Set.univ
              (Scf.Loop.for k0_t5_loop k0_t5_ok a (k0_t5_body L tV (Memref.isWhole_whole _) iV (Memref.isWhole_whole _) oV (Memref.isWhole_whole _)
            xV (Memref.isWhole_whole _) b0V (Memref.isWhole_whole _) b1V (Memref.isWhole_whole _) b2V (Memref.isWhole_whole _)
            b3V (Memref.isWhole_whole _) b4V (Memref.isWhole_whole _) b5V (Memref.isWhole_whole _) yV (Memref.isWhole_whole _)
            cc0_scratch8 cc0_scratch9 cc0_scratch10 cc0_scratch11 cc0_scratch12 cc0_scratch13 cc0_scratch14 cc0_scoped0 cc0_scoped1 k1 v123 v176 u0 u1 u2 u3 u4 u5 u6 u7 v184)) Φ) := by
  iintro Hb Hk
  sl_for (invI (F := F) iprop((b3V).view.loc (thr d L) ↦{fullShare} g) g a) $$ [Hb Hk]
  case region =>
    intro k acc
    unfold invI
    iintro ⟨%hacc, Hb⟩
    sl_exec
    sl_step
    isplitr [Hb]
    · ipureintro
      subst hacc
      have hk : k.val < 25 := lt_of_lt_of_le k.isLt k0_t5_abs.2.1
      have hG : ∀ x, (b3V).view.read (Elt F) g x = g x := fun _ => rfl
      unfold accsN
      refine Prod.ext ?_ (Prod.ext ?_ (Prod.ext ?_ (Prod.ext ?_ (Prod.ext ?_ (Prod.ext ?_ (Prod.ext ?_ ?_))))))
      · exact pay_step (b3V).view g g hG 0 0 rfl _ _ k.val hk rfl _ _ _ _ _ _ _ _
          (k0_off40_eq k ⟨0, by decide⟩) (k0_off40_eq k ⟨1, by decide⟩) (k0_off40_eq k ⟨2, by decide⟩) (k0_off40_eq k ⟨3, by decide⟩)
      · exact pay_step (b3V).view g g hG 1 16 rfl _ _ k.val hk rfl _ _ _ _ _ _ _ _
          (k0_off41_eq k ⟨0, by decide⟩) (k0_off41_eq k ⟨1, by decide⟩) (k0_off41_eq k ⟨2, by decide⟩) (k0_off41_eq k ⟨3, by decide⟩)
      · exact pay_step (b3V).view g g hG 2 32 rfl _ _ k.val hk rfl _ _ _ _ _ _ _ _
          (k0_off42_eq k ⟨0, by decide⟩) (k0_off42_eq k ⟨1, by decide⟩) (k0_off42_eq k ⟨2, by decide⟩) (k0_off42_eq k ⟨3, by decide⟩)
      · exact pay_step (b3V).view g g hG 3 48 rfl _ _ k.val hk rfl _ _ _ _ _ _ _ _
          (k0_off43_eq k ⟨0, by decide⟩) (k0_off43_eq k ⟨1, by decide⟩) (k0_off43_eq k ⟨2, by decide⟩) (k0_off43_eq k ⟨3, by decide⟩)
      · exact pay_step (b3V).view g g hG 4 64 rfl _ _ k.val hk rfl _ _ _ _ _ _ _ _
          (k0_off44_eq k ⟨0, by decide⟩) (k0_off44_eq k ⟨1, by decide⟩) (k0_off44_eq k ⟨2, by decide⟩) (k0_off44_eq k ⟨3, by decide⟩)
      · exact pay_step (b3V).view g g hG 5 80 rfl _ _ k.val hk rfl _ _ _ _ _ _ _ _
          (k0_off45_eq k ⟨0, by decide⟩) (k0_off45_eq k ⟨1, by decide⟩) (k0_off45_eq k ⟨2, by decide⟩) (k0_off45_eq k ⟨3, by decide⟩)
      · exact pay_step (b3V).view g g hG 6 96 rfl _ _ k.val hk rfl _ _ _ _ _ _ _ _
          (k0_off46_eq k ⟨0, by decide⟩) (k0_off46_eq k ⟨1, by decide⟩) (k0_off46_eq k ⟨2, by decide⟩) (k0_off46_eq k ⟨3, by decide⟩)
      · exact pay_step (b3V).view g g hG 7 112 rfl _ _ k.val hk rfl _ _ _ _ _ _ _ _
          (k0_off47_eq k ⟨0, by decide⟩) (k0_off47_eq k ⟨1, by decide⟩) (k0_off47_eq k ⟨2, by decide⟩) (k0_off47_eq k ⟨3, by decide⟩)
    · iexact Hb
  unfold invI
  isplitl [Hb]
  · isplitr [Hb]
    · ipureintro; rfl
    · iexact Hb
  · iintro %acc' ⟨%hacc', Hb⟩
    subst hacc'
    have e : accsN g a (Scf.trips k0_t5_loop.lb k0_t5_loop.ub k0_t5_loop.st) = accsOut g a := by
      rw [show Scf.trips k0_t5_loop.lb k0_t5_loop.ub k0_t5_loop.st = 25 by decide +kernel]
      exact accsN_eq g a 25 (Nat.le_refl _)
    rw [e]
    iapply Hk
    iexact Hb

set_option maxHeartbeats 4000000 in
/-- The next pooling loop (25 steps through buffer 4): from accumulators `a` it returns `accsOut g a` and leaves the buffer as it was. -/
theorem inner_t6 (g : Buf (Elt F) ((thr d L).loc cc0_scratch5)) (a : T8 F) (v8 v9 v10 v11 v12 v13 v14 v15 : FVec F S16 .f32) (k1 : Fin k0_t1_loop.trips) (v123 v186 : BitVec 32) (v191_7 : FVec F S16 .f32) (v219 : FVec F S1x16 .f32)
    (Φ : T8 F → sProp 𝕄) :
    ((b4V).view.loc (thr d L) ↦{fullShare} g : sProp 𝕄)
      ⊢ iprop((((b4V).view.loc (thr d L) ↦{fullShare} g) -∗ Φ (accsOut g a))
          -∗ wp frame (wpE (defs₀ (F := F)) 𝒱₀ (thr d L) none) Set.univ
              (Scf.Loop.for k0_t6_loop k0_t6_ok a (k0_t6_body L tV (Memref.isWhole_whole _) iV (Memref.isWhole_whole _) oV (Memref.isWhole_whole _)
            xV (Memref.isWhole_whole _) b0V (Memref.isWhole_whole _) b1V (Memref.isWhole_whole _) b2V (Memref.isWhole_whole _)
            b3V (Memref.isWhole_whole _) b4V (Memref.isWhole_whole _) b5V (Memref.isWhole_whole _) yV (Memref.isWhole_whole _)
            cc0_scratch8 cc0_scratch9 cc0_scratch10 cc0_scratch11 cc0_scratch12 cc0_scratch13 cc0_scratch14 cc0_scoped0 cc0_scoped1 v8 v9 v10 v11 v12 v13 v14 v15 k1 v123 v186 v191_7 v219)) Φ) := by
  iintro Hb Hk
  sl_for (invI (F := F) iprop((b4V).view.loc (thr d L) ↦{fullShare} g) g a) $$ [Hb Hk]
  case region =>
    intro k acc
    unfold invI
    iintro ⟨%hacc, Hb⟩
    sl_exec
    sl_step
    isplitr [Hb]
    · ipureintro
      subst hacc
      have hk : k.val < 25 := lt_of_lt_of_le k.isLt k0_t6_abs.2.1
      have hG : ∀ x, (b4V).view.read (Elt F) g x = g x := fun _ => rfl
      unfold accsN
      refine Prod.ext ?_ (Prod.ext ?_ (Prod.ext ?_ (Prod.ext ?_ (Prod.ext ?_ (Prod.ext ?_ (Prod.ext ?_ ?_))))))
      · exact pay_step (b4V).view g g hG 0 0 rfl _ _ k.val hk rfl _ _ _ _ _ _ _ _
          (k0_off49_eq k ⟨0, by decide⟩) (k0_off49_eq k ⟨1, by decide⟩) (k0_off49_eq k ⟨2, by decide⟩) (k0_off49_eq k ⟨3, by decide⟩)
      · exact pay_step (b4V).view g g hG 1 16 rfl _ _ k.val hk rfl _ _ _ _ _ _ _ _
          (k0_off50_eq k ⟨0, by decide⟩) (k0_off50_eq k ⟨1, by decide⟩) (k0_off50_eq k ⟨2, by decide⟩) (k0_off50_eq k ⟨3, by decide⟩)
      · exact pay_step (b4V).view g g hG 2 32 rfl _ _ k.val hk rfl _ _ _ _ _ _ _ _
          (k0_off51_eq k ⟨0, by decide⟩) (k0_off51_eq k ⟨1, by decide⟩) (k0_off51_eq k ⟨2, by decide⟩) (k0_off51_eq k ⟨3, by decide⟩)
      · exact pay_step (b4V).view g g hG 3 48 rfl _ _ k.val hk rfl _ _ _ _ _ _ _ _
          (k0_off52_eq k ⟨0, by decide⟩) (k0_off52_eq k ⟨1, by decide⟩) (k0_off52_eq k ⟨2, by decide⟩) (k0_off52_eq k ⟨3, by decide⟩)
      · exact pay_step (b4V).view g g hG 4 64 rfl _ _ k.val hk rfl _ _ _ _ _ _ _ _
          (k0_off53_eq k ⟨0, by decide⟩) (k0_off53_eq k ⟨1, by decide⟩) (k0_off53_eq k ⟨2, by decide⟩) (k0_off53_eq k ⟨3, by decide⟩)
      · exact pay_step (b4V).view g g hG 5 80 rfl _ _ k.val hk rfl _ _ _ _ _ _ _ _
          (k0_off54_eq k ⟨0, by decide⟩) (k0_off54_eq k ⟨1, by decide⟩) (k0_off54_eq k ⟨2, by decide⟩) (k0_off54_eq k ⟨3, by decide⟩)
      · exact pay_step (b4V).view g g hG 6 96 rfl _ _ k.val hk rfl _ _ _ _ _ _ _ _
          (k0_off55_eq k ⟨0, by decide⟩) (k0_off55_eq k ⟨1, by decide⟩) (k0_off55_eq k ⟨2, by decide⟩) (k0_off55_eq k ⟨3, by decide⟩)
      · exact pay_step (b4V).view g g hG 7 112 rfl _ _ k.val hk rfl _ _ _ _ _ _ _ _
          (k0_off56_eq k ⟨0, by decide⟩) (k0_off56_eq k ⟨1, by decide⟩) (k0_off56_eq k ⟨2, by decide⟩) (k0_off56_eq k ⟨3, by decide⟩)
    · iexact Hb
  unfold invI
  isplitl [Hb]
  · isplitr [Hb]
    · ipureintro; rfl
    · iexact Hb
  · iintro %acc' ⟨%hacc', Hb⟩
    subst hacc'
    have e : accsN g a (Scf.trips k0_t6_loop.lb k0_t6_loop.ub k0_t6_loop.st) = accsOut g a := by
      rw [show Scf.trips k0_t6_loop.lb k0_t6_loop.ub k0_t6_loop.st = 25 by decide +kernel]
      exact accsN_eq g a 25 (Nat.le_refl _)
    rw [e]
    iapply Hk
    iexact Hb

set_option maxHeartbeats 4000000 in
/-- The next pooling loop (25 steps through buffer 5): from accumulators `a` it returns `accsOut g a` and leaves the buffer as it was. -/
theorem inner_t7 (g : Buf (Elt F) ((thr d L).loc cc0_scratch6)) (a : T8 F) (v8 v9 v10 v11 v12 v13 v14 v15 : FVec F S16 .f32) (k1 : Fin k0_t1_loop.trips) (v123 v186 : BitVec 32) (v191_7 : FVec F S16 .f32) (v219 : FVec F S1x16 .f32)
    (Φ : T8 F → sProp 𝕄) :
    ((b5V).view.loc (thr d L) ↦{fullShare} g : sProp 𝕄)
      ⊢ iprop((((b5V).view.loc (thr d L) ↦{fullShare} g) -∗ Φ (accsOut g a))
          -∗ wp frame (wpE (defs₀ (F := F)) 𝒱₀ (thr d L) none) Set.univ
              (Scf.Loop.for k0_t7_loop k0_t7_ok a (k0_t7_body L tV (Memref.isWhole_whole _) iV (Memref.isWhole_whole _) oV (Memref.isWhole_whole _)
            xV (Memref.isWhole_whole _) b0V (Memref.isWhole_whole _) b1V (Memref.isWhole_whole _) b2V (Memref.isWhole_whole _)
            b3V (Memref.isWhole_whole _) b4V (Memref.isWhole_whole _) b5V (Memref.isWhole_whole _) yV (Memref.isWhole_whole _)
            cc0_scratch8 cc0_scratch9 cc0_scratch10 cc0_scratch11 cc0_scratch12 cc0_scratch13 cc0_scratch14 cc0_scoped0 cc0_scoped1 v8 v9 v10 v11 v12 v13 v14 v15 k1 v123 v186 v191_7 v219)) Φ) := by
  iintro Hb Hk
  sl_for (invI (F := F) iprop((b5V).view.loc (thr d L) ↦{fullShare} g) g a) $$ [Hb Hk]
  case region =>
    intro k acc
    unfold invI
    iintro ⟨%hacc, Hb⟩
    sl_exec
    sl_step
    isplitr [Hb]
    · ipureintro
      subst hacc
      have hk : k.val < 25 := lt_of_lt_of_le k.isLt k0_t7_abs.2.1
      have hG : ∀ x, (b5V).view.read (Elt F) g x = g x := fun _ => rfl
      unfold accsN
      refine Prod.ext ?_ (Prod.ext ?_ (Prod.ext ?_ (Prod.ext ?_ (Prod.ext ?_ (Prod.ext ?_ (Prod.ext ?_ ?_))))))
      · exact pay_step (b5V).view g g hG 0 0 rfl _ _ k.val hk rfl _ _ _ _ _ _ _ _
          (k0_off58_eq k ⟨0, by decide⟩) (k0_off58_eq k ⟨1, by decide⟩) (k0_off58_eq k ⟨2, by decide⟩) (k0_off58_eq k ⟨3, by decide⟩)
      · exact pay_step (b5V).view g g hG 1 16 rfl _ _ k.val hk rfl _ _ _ _ _ _ _ _
          (k0_off59_eq k ⟨0, by decide⟩) (k0_off59_eq k ⟨1, by decide⟩) (k0_off59_eq k ⟨2, by decide⟩) (k0_off59_eq k ⟨3, by decide⟩)
      · exact pay_step (b5V).view g g hG 2 32 rfl _ _ k.val hk rfl _ _ _ _ _ _ _ _
          (k0_off60_eq k ⟨0, by decide⟩) (k0_off60_eq k ⟨1, by decide⟩) (k0_off60_eq k ⟨2, by decide⟩) (k0_off60_eq k ⟨3, by decide⟩)
      · exact pay_step (b5V).view g g hG 3 48 rfl _ _ k.val hk rfl _ _ _ _ _ _ _ _
          (k0_off61_eq k ⟨0, by decide⟩) (k0_off61_eq k ⟨1, by decide⟩) (k0_off61_eq k ⟨2, by decide⟩) (k0_off61_eq k ⟨3, by decide⟩)
      · exact pay_step (b5V).view g g hG 4 64 rfl _ _ k.val hk rfl _ _ _ _ _ _ _ _
          (k0_off62_eq k ⟨0, by decide⟩) (k0_off62_eq k ⟨1, by decide⟩) (k0_off62_eq k ⟨2, by decide⟩) (k0_off62_eq k ⟨3, by decide⟩)
      · exact pay_step (b5V).view g g hG 5 80 rfl _ _ k.val hk rfl _ _ _ _ _ _ _ _
          (k0_off63_eq k ⟨0, by decide⟩) (k0_off63_eq k ⟨1, by decide⟩) (k0_off63_eq k ⟨2, by decide⟩) (k0_off63_eq k ⟨3, by decide⟩)
      · exact pay_step (b5V).view g g hG 6 96 rfl _ _ k.val hk rfl _ _ _ _ _ _ _ _
          (k0_off64_eq k ⟨0, by decide⟩) (k0_off64_eq k ⟨1, by decide⟩) (k0_off64_eq k ⟨2, by decide⟩) (k0_off64_eq k ⟨3, by decide⟩)
      · exact pay_step (b5V).view g g hG 7 112 rfl _ _ k.val hk rfl _ _ _ _ _ _ _ _
          (k0_off65_eq k ⟨0, by decide⟩) (k0_off65_eq k ⟨1, by decide⟩) (k0_off65_eq k ⟨2, by decide⟩) (k0_off65_eq k ⟨3, by decide⟩)
    · iexact Hb
  unfold invI
  isplitl [Hb]
  · isplitr [Hb]
    · ipureintro; rfl
    · iexact Hb
  · iintro %acc' ⟨%hacc', Hb⟩
    subst hacc'
    have e : accsN g a (Scf.trips k0_t7_loop.lb k0_t7_loop.ub k0_t7_loop.st) = accsOut g a := by
      rw [show Scf.trips k0_t7_loop.lb k0_t7_loop.ub k0_t7_loop.st = 25 by decide +kernel]
      exact accsN_eq g a 25 (Nat.le_refl _)
    rw [e]
    iapply Hk
    iexact Hb

set_option maxHeartbeats 4000000 in
/-- The next pooling loop (25 steps through buffer 0): from accumulators `a` it returns `accsOut g a` and leaves the buffer as it was. -/
theorem inner_t8 (g : Buf (Elt F) ((thr d L).loc cc0_scratch1)) (a : T8 F) (v8 v9 v10 v11 v12 v13 v14 v15 : FVec F S16 .f32)
    (Φ : T8 F → sProp 𝕄) :
    ((b0V).view.loc (thr d L) ↦{fullShare} g : sProp 𝕄)
      ⊢ iprop((((b0V).view.loc (thr d L) ↦{fullShare} g) -∗ Φ (accsOut g a))
          -∗ wp frame (wpE (defs₀ (F := F)) 𝒱₀ (thr d L) none) Set.univ
              (Scf.Loop.for k0_t8_loop k0_t8_ok a (k0_t8_body L tV (Memref.isWhole_whole _) iV (Memref.isWhole_whole _) oV (Memref.isWhole_whole _)
            xV (Memref.isWhole_whole _) b0V (Memref.isWhole_whole _) b1V (Memref.isWhole_whole _) b2V (Memref.isWhole_whole _)
            b3V (Memref.isWhole_whole _) b4V (Memref.isWhole_whole _) b5V (Memref.isWhole_whole _) yV (Memref.isWhole_whole _)
            cc0_scratch8 cc0_scratch9 cc0_scratch10 cc0_scratch11 cc0_scratch12 cc0_scratch13 cc0_scratch14 cc0_scoped0 cc0_scoped1 v8 v9 v10 v11 v12 v13 v14 v15)) Φ) := by
  iintro Hb Hk
  sl_for (invI (F := F) iprop((b0V).view.loc (thr d L) ↦{fullShare} g) g a) $$ [Hb Hk]
  case region =>
    intro k acc
    unfold invI
    iintro ⟨%hacc, Hb⟩
    sl_exec
    sl_step
    isplitr [Hb]
    · ipureintro
      subst hacc
      have hk : k.val < 25 := lt_of_lt_of_le k.isLt k0_t8_abs.2.1
      have hG : ∀ x, (b0V).view.read (Elt F) g x = g x := fun _ => rfl
      unfold accsN
      refine Prod.ext ?_ (Prod.ext ?_ (Prod.ext ?_ (Prod.ext ?_ (Prod.ext ?_ (Prod.ext ?_ (Prod.ext ?_ ?_))))))
      · exact pay_step (b0V).view g g hG 0 0 rfl _ _ k.val hk rfl _ _ _ _ _ _ _ _
          (k0_off67_eq k ⟨0, by decide⟩) (k0_off67_eq k ⟨1, by decide⟩) (k0_off67_eq k ⟨2, by decide⟩) (k0_off67_eq k ⟨3, by decide⟩)
      · exact pay_step (b0V).view g g hG 1 16 rfl _ _ k.val hk rfl _ _ _ _ _ _ _ _
          (k0_off68_eq k ⟨0, by decide⟩) (k0_off68_eq k ⟨1, by decide⟩) (k0_off68_eq k ⟨2, by decide⟩) (k0_off68_eq k ⟨3, by decide⟩)
      · exact pay_step (b0V).view g g hG 2 32 rfl _ _ k.val hk rfl _ _ _ _ _ _ _ _
          (k0_off69_eq k ⟨0, by decide⟩) (k0_off69_eq k ⟨1, by decide⟩) (k0_off69_eq k ⟨2, by decide⟩) (k0_off69_eq k ⟨3, by decide⟩)
      · exact pay_step (b0V).view g g hG 3 48 rfl _ _ k.val hk rfl _ _ _ _ _ _ _ _
          (k0_off70_eq k ⟨0, by decide⟩) (k0_off70_eq k ⟨1, by decide⟩) (k0_off70_eq k ⟨2, by decide⟩) (k0_off70_eq k ⟨3, by decide⟩)
      · exact pay_step (b0V).view g g hG 4 64 rfl _ _ k.val hk rfl _ _ _ _ _ _ _ _
          (k0_off71_eq k ⟨0, by decide⟩) (k0_off71_eq k ⟨1, by decide⟩) (k0_off71_eq k ⟨2, by decide⟩) (k0_off71_eq k ⟨3, by decide⟩)
      · exact pay_step (b0V).view g g hG 5 80 rfl _ _ k.val hk rfl _ _ _ _ _ _ _ _
          (k0_off72_eq k ⟨0, by decide⟩) (k0_off72_eq k ⟨1, by decide⟩) (k0_off72_eq k ⟨2, by decide⟩) (k0_off72_eq k ⟨3, by decide⟩)
      · exact pay_step (b0V).view g g hG 6 96 rfl _ _ k.val hk rfl _ _ _ _ _ _ _ _
          (k0_off73_eq k ⟨0, by decide⟩) (k0_off73_eq k ⟨1, by decide⟩) (k0_off73_eq k ⟨2, by decide⟩) (k0_off73_eq k ⟨3, by decide⟩)
      · exact pay_step (b0V).view g g hG 7 112 rfl _ _ k.val hk rfl _ _ _ _ _ _ _ _
          (k0_off74_eq k ⟨0, by decide⟩) (k0_off74_eq k ⟨1, by decide⟩) (k0_off74_eq k ⟨2, by decide⟩) (k0_off74_eq k ⟨3, by decide⟩)
    · iexact Hb
  unfold invI
  isplitl [Hb]
  · isplitr [Hb]
    · ipureintro; rfl
    · iexact Hb
  · iintro %acc' ⟨%hacc', Hb⟩
    subst hacc'
    have e : accsN g a (Scf.trips k0_t8_loop.lb k0_t8_loop.ub k0_t8_loop.st) = accsOut g a := by
      rw [show Scf.trips k0_t8_loop.lb k0_t8_loop.ub k0_t8_loop.st = 25 by decide +kernel]
      exact accsN_eq g a 25 (Nat.le_refl _)
    rw [e]
    iapply Hk
    iexact Hb

set_option maxHeartbeats 4000000 in
/-- The next pooling loop (25 steps through buffer 1): from accumulators `a` it returns `accsOut g a` and leaves the buffer as it was. -/
theorem inner_t9 (g : Buf (Elt F) ((thr d L).loc cc0_scratch2)) (a : T8 F) (v8 v9 v10 v11 v12 v13 v14 v15 : FVec F S16 .f32)
    (Φ : T8 F → sProp 𝕄) :
    ((b1V).view.loc (thr d L) ↦{fullShare} g : sProp 𝕄)
      ⊢ iprop((((b1V).view.loc (thr d L) ↦{fullShare} g) -∗ Φ (accsOut g a))
          -∗ wp frame (wpE (defs₀ (F := F)) 𝒱₀ (thr d L) none) Set.univ
              (Scf.Loop.for k0_t9_loop k0_t9_ok a (k0_t9_body L tV (Memref.isWhole_whole _) iV (Memref.isWhole_whole _) oV (Memref.isWhole_whole _)
            xV (Memref.isWhole_whole _) b0V (Memref.isWhole_whole _) b1V (Memref.isWhole_whole _) b2V (Memref.isWhole_whole _)
            b3V (Memref.isWhole_whole _) b4V (Memref.isWhole_whole _) b5V (Memref.isWhole_whole _) yV (Memref.isWhole_whole _)
            cc0_scratch8 cc0_scratch9 cc0_scratch10 cc0_scratch11 cc0_scratch12 cc0_scratch13 cc0_scratch14 cc0_scoped0 cc0_scoped1 v8 v9 v10 v11 v12 v13 v14 v15)) Φ) := by
  iintro Hb Hk
  sl_for (invI (F := F) iprop((b1V).view.loc (thr d L) ↦{fullShare} g) g a) $$ [Hb Hk]
  case region =>
    intro k acc
    unfold invI
    iintro ⟨%hacc, Hb⟩
    sl_exec
    sl_step
    isplitr [Hb]
    · ipureintro
      subst hacc
      have hk : k.val < 25 := lt_of_lt_of_le k.isLt k0_t9_abs.2.1
      have hG : ∀ x, (b1V).view.read (Elt F) g x = g x := fun _ => rfl
      unfold accsN
      refine Prod.ext ?_ (Prod.ext ?_ (Prod.ext ?_ (Prod.ext ?_ (Prod.ext ?_ (Prod.ext ?_ (Prod.ext ?_ ?_))))))
      · exact pay_step (b1V).view g g hG 0 0 rfl _ _ k.val hk rfl _ _ _ _ _ _ _ _
          (k0_off75_eq k ⟨0, by decide⟩) (k0_off75_eq k ⟨1, by decide⟩) (k0_off75_eq k ⟨2, by decide⟩) (k0_off75_eq k ⟨3, by decide⟩)
      · exact pay_step (b1V).view g g hG 1 16 rfl _ _ k.val hk rfl _ _ _ _ _ _ _ _
          (k0_off76_eq k ⟨0, by decide⟩) (k0_off76_eq k ⟨1, by decide⟩) (k0_off76_eq k ⟨2, by decide⟩) (k0_off76_eq k ⟨3, by decide⟩)
      · exact pay_step (b1V).view g g hG 2 32 rfl _ _ k.val hk rfl _ _ _ _ _ _ _ _
          (k0_off77_eq k ⟨0, by decide⟩) (k0_off77_eq k ⟨1, by decide⟩) (k0_off77_eq k ⟨2, by decide⟩) (k0_off77_eq k ⟨3, by decide⟩)
      · exact pay_step (b1V).view g g hG 3 48 rfl _ _ k.val hk rfl _ _ _ _ _ _ _ _
          (k0_off78_eq k ⟨0, by decide⟩) (k0_off78_eq k ⟨1, by decide⟩) (k0_off78_eq k ⟨2, by decide⟩) (k0_off78_eq k ⟨3, by decide⟩)
      · exact pay_step (b1V).view g g hG 4 64 rfl _ _ k.val hk rfl _ _ _ _ _ _ _ _
          (k0_off79_eq k ⟨0, by decide⟩) (k0_off79_eq k ⟨1, by decide⟩) (k0_off79_eq k ⟨2, by decide⟩) (k0_off79_eq k ⟨3, by decide⟩)
      · exact pay_step (b1V).view g g hG 5 80 rfl _ _ k.val hk rfl _ _ _ _ _ _ _ _
          (k0_off80_eq k ⟨0, by decide⟩) (k0_off80_eq k ⟨1, by decide⟩) (k0_off80_eq k ⟨2, by decide⟩) (k0_off80_eq k ⟨3, by decide⟩)
      · exact pay_step (b1V).view g g hG 6 96 rfl _ _ k.val hk rfl _ _ _ _ _ _ _ _
          (k0_off81_eq k ⟨0, by decide⟩) (k0_off81_eq k ⟨1, by decide⟩) (k0_off81_eq k ⟨2, by decide⟩) (k0_off81_eq k ⟨3, by decide⟩)
      · exact pay_step (b1V).view g g hG 7 112 rfl _ _ k.val hk rfl _ _ _ _ _ _ _ _
          (k0_off82_eq k ⟨0, by decide⟩) (k0_off82_eq k ⟨1, by decide⟩) (k0_off82_eq k ⟨2, by decide⟩) (k0_off82_eq k ⟨3, by decide⟩)
    · iexact Hb
  unfold invI
  isplitl [Hb]
  · isplitr [Hb]
    · ipureintro; rfl
    · iexact Hb
  · iintro %acc' ⟨%hacc', Hb⟩
    subst hacc'
    have e : accsN g a (Scf.trips k0_t9_loop.lb k0_t9_loop.ub k0_t9_loop.st) = accsOut g a := by
      rw [show Scf.trips k0_t9_loop.lb k0_t9_loop.ub k0_t9_loop.st = 25 by decide +kernel]
      exact accsN_eq g a 25 (Nat.le_refl _)
    rw [e]
    iapply Hk
    iexact Hb

set_option maxHeartbeats 4000000 in
/-- The next pooling loop (25 steps through buffer 2): from accumulators `a` it returns `accsOut g a` and leaves the buffer as it was. -/
theorem inner_t10 (g : Buf (Elt F) ((thr d L).loc cc0_scratch3)) (a : T8 F) (v8 v9 v10 v11 v12 v13 v14 v15 : FVec F S16 .f32)
    (Φ : T8 F → sProp 𝕄) :
    ((b2V).view.loc (thr d L) ↦{fullShare} g : sProp 𝕄)
      ⊢ iprop((((b2V).view.loc (thr d L) ↦{fullShare} g) -∗ Φ (accsOut g a))
          -∗ wp frame (wpE (defs₀ (F := F)) 𝒱₀ (thr d L) none) Set.univ
              (Scf.Loop.for k0_t10_loop k0_t10_ok a (k0_t10_body L tV (Memref.isWhole_whole _) iV (Memref.isWhole_whole _) oV (Memref.isWhole_whole _)
            xV (Memref.isWhole_whole _) b0V (Memref.isWhole_whole _) b1V (Memref.isWhole_whole _) b2V (Memref.isWhole_whole _)
            b3V (Memref.isWhole_whole _) b4V (Memref.isWhole_whole _) b5V (Memref.isWhole_whole _) yV (Memref.isWhole_whole _)
            cc0_scratch8 cc0_scratch9 cc0_scratch10 cc0_scratch11 cc0_scratch12 cc0_scratch13 cc0_scratch14 cc0_scoped0 cc0_scoped1 v8 v9 v10 v11 v12 v13 v14 v15)) Φ) := by
  iintro Hb Hk
  sl_for (invI (F := F) iprop((b2V).view.loc (thr d L) ↦{fullShare} g) g a) $$ [Hb Hk]
  case region =>
    intro k acc
    unfold invI
    iintro ⟨%hacc, Hb⟩
    sl_exec
    sl_step
    isplitr [Hb]
    · ipureintro
      subst hacc
      have hk : k.val < 25 := lt_of_lt_of_le k.isLt k0_t10_abs.2.1
      have hG : ∀ x, (b2V).view.read (Elt F) g x = g x := fun _ => rfl
      unfold accsN
      refine Prod.ext ?_ (Prod.ext ?_ (Prod.ext ?_ (Prod.ext ?_ (Prod.ext ?_ (Prod.ext ?_ (Prod.ext ?_ ?_))))))
      · exact pay_step (b2V).view g g hG 0 0 rfl _ _ k.val hk rfl _ _ _ _ _ _ _ _
          (k0_off83_eq k ⟨0, by decide⟩) (k0_off83_eq k ⟨1, by decide⟩) (k0_off83_eq k ⟨2, by decide⟩) (k0_off83_eq k ⟨3, by decide⟩)
      · exact pay_step (b2V).view g g hG 1 16 rfl _ _ k.val hk rfl _ _ _ _ _ _ _ _
          (k0_off84_eq k ⟨0, by decide⟩) (k0_off84_eq k ⟨1, by decide⟩) (k0_off84_eq k ⟨2, by decide⟩) (k0_off84_eq k ⟨3, by decide⟩)
      · exact pay_step (b2V).view g g hG 2 32 rfl _ _ k.val hk rfl _ _ _ _ _ _ _ _
          (k0_off85_eq k ⟨0, by decide⟩) (k0_off85_eq k ⟨1, by decide⟩) (k0_off85_eq k ⟨2, by decide⟩) (k0_off85_eq k ⟨3, by decide⟩)
      · exact pay_step (b2V).view g g hG 3 48 rfl _ _ k.val hk rfl _ _ _ _ _ _ _ _
          (k0_off86_eq k ⟨0, by decide⟩) (k0_off86_eq k ⟨1, by decide⟩) (k0_off86_eq k ⟨2, by decide⟩) (k0_off86_eq k ⟨3, by decide⟩)
      · exact pay_step (b2V).view g g hG 4 64 rfl _ _ k.val hk rfl _ _ _ _ _ _ _ _
          (k0_off87_eq k ⟨0, by decide⟩) (k0_off87_eq k ⟨1, by decide⟩) (k0_off87_eq k ⟨2, by decide⟩) (k0_off87_eq k ⟨3, by decide⟩)
      · exact pay_step (b2V).view g g hG 5 80 rfl _ _ k.val hk rfl _ _ _ _ _ _ _ _
          (k0_off88_eq k ⟨0, by decide⟩) (k0_off88_eq k ⟨1, by decide⟩) (k0_off88_eq k ⟨2, by decide⟩) (k0_off88_eq k ⟨3, by decide⟩)
      · exact pay_step (b2V).view g g hG 6 96 rfl _ _ k.val hk rfl _ _ _ _ _ _ _ _
          (k0_off89_eq k ⟨0, by decide⟩) (k0_off89_eq k ⟨1, by decide⟩) (k0_off89_eq k ⟨2, by decide⟩) (k0_off89_eq k ⟨3, by decide⟩)
      · exact pay_step (b2V).view g g hG 7 112 rfl _ _ k.val hk rfl _ _ _ _ _ _ _ _
          (k0_off90_eq k ⟨0, by decide⟩) (k0_off90_eq k ⟨1, by decide⟩) (k0_off90_eq k ⟨2, by decide⟩) (k0_off90_eq k ⟨3, by decide⟩)
    · iexact Hb
  unfold invI
  isplitl [Hb]
  · isplitr [Hb]
    · ipureintro; rfl
    · iexact Hb
  · iintro %acc' ⟨%hacc', Hb⟩
    subst hacc'
    have e : accsN g a (Scf.trips k0_t10_loop.lb k0_t10_loop.ub k0_t10_loop.st) = accsOut g a := by
      rw [show Scf.trips k0_t10_loop.lb k0_t10_loop.ub k0_t10_loop.st = 25 by decide +kernel]
      exact accsN_eq g a 25 (Nat.le_refl _)
    rw [e]
    iapply Hk
    iexact Hb

set_option maxHeartbeats 4000000 in
/-- The next pooling loop (25 steps through buffer 3): from accumulators `a` it returns `accsOut g a` and leaves the buffer as it was. -/
theorem inner_t11 (g : Buf (Elt F) ((thr d L).loc cc0_scratch4)) (a : T8 F) (v8 v9 v10 v11 v12 v13 v14 v15 : FVec F S16 .f32)
    (Φ : T8 F → sProp 𝕄) :
    ((b3V).view.loc (thr d L) ↦{fullShare} g : sProp 𝕄)
      ⊢ iprop((((b3V).view.loc (thr d L) ↦{fullShare} g) -∗ Φ (accsOut g a))
          -∗ wp frame (wpE (defs₀ (F := F)) 𝒱₀ (thr d L) none) Set.univ
              (Scf.Loop.for k0_t11_loop k0_t11_ok a (k0_t11_body L tV (Memref.isWhole_whole _) iV (Memref.isWhole_whole _) oV (Memref.isWhole_whole _)
            xV (Memref.isWhole_whole _) b0V (Memref.isWhole_whole _) b1V (Memref.isWhole_whole _) b2V (Memref.isWhole_whole _)
            b3V (Memref.isWhole_whole _) b4V (Memref.isWhole_whole _) b5V (Memref.isWhole_whole _) yV (Memref.isWhole_whole _)
            cc0_scratch8 cc0_scratch9 cc0_scratch10 cc0_scratch11 cc0_scratch12 cc0_scratch13 cc0_scratch14 cc0_scoped0 cc0_scoped1 v8 v9 v10 v11 v12 v13 v14 v15)) Φ) := by
  iintro Hb Hk
  sl_for (invI (F := F) iprop((b3V).view.loc (thr d L) ↦{fullShare} g) g a) $$ [Hb Hk]
  case region =>
    intro k acc
    unfold invI
    iintro ⟨%hacc, Hb⟩
    sl_exec
    sl_step
    isplitr [Hb]
    · ipureintro
      subst hacc
      have hk : k.val < 25 := lt_of_lt_of_le k.isLt k0_t11_abs.2.1
      have hG : ∀ x, (b3V).view.read (Elt F) g x = g x := fun _ => rfl
      unfold accsN
      refine Prod.ext ?_ (Prod.ext ?_ (Prod.ext ?_ (Prod.ext ?_ (Prod.ext ?_ (Prod.ext ?_ (Prod.ext ?_ ?_))))))
      · exact pay_step (b3V).view g g hG 0 0 rfl _ _ k.val hk rfl _ _ _ _ _ _ _ _
          (k0_off91_eq k ⟨0, by decide⟩) (k0_off91_eq k ⟨1, by decide⟩) (k0_off91_eq k ⟨2, by decide⟩) (k0_off91_eq k ⟨3, by decide⟩)
      · exact pay_step (b3V).view g g hG 1 16 rfl _ _ k.val hk rfl _ _ _ _ _ _ _ _
          (k0_off92_eq k ⟨0, by decide⟩) (k0_off92_eq k ⟨1, by decide⟩) (k0_off92_eq k ⟨2, by decide⟩) (k0_off92_eq k ⟨3, by decide⟩)
      · exact pay_step (b3V).view g g hG 2 32 rfl _ _ k.val hk rfl _ _ _ _ _ _ _ _
          (k0_off93_eq k ⟨0, by decide⟩) (k0_off93_eq k ⟨1, by decide⟩) (k0_off93_eq k ⟨2, by decide⟩) (k0_off93_eq k ⟨3, by decide⟩)
      · exact pay_step (b3V).view g g hG 3 48 rfl _ _ k.val hk rfl _ _ _ _ _ _ _ _
          (k0_off94_eq k ⟨0, by decide⟩) (k0_off94_eq k ⟨1, by decide⟩) (k0_off94_eq k ⟨2, by decide⟩) (k0_off94_eq k ⟨3, by decide⟩)
      · exact pay_step (b3V).view g g hG 4 64 rfl _ _ k.val hk rfl _ _ _ _ _ _ _ _
          (k0_off95_eq k ⟨0, by decide⟩) (k0_off95_eq k ⟨1, by decide⟩) (k0_off95_eq k ⟨2, by decide⟩) (k0_off95_eq k ⟨3, by decide⟩)
      · exact pay_step (b3V).view g g hG 5 80 rfl _ _ k.val hk rfl _ _ _ _ _ _ _ _
          (k0_off96_eq k ⟨0, by decide⟩) (k0_off96_eq k ⟨1, by decide⟩) (k0_off96_eq k ⟨2, by decide⟩) (k0_off96_eq k ⟨3, by decide⟩)
      · exact pay_step (b3V).view g g hG 6 96 rfl _ _ k.val hk rfl _ _ _ _ _ _ _ _
          (k0_off97_eq k ⟨0, by decide⟩) (k0_off97_eq k ⟨1, by decide⟩) (k0_off97_eq k ⟨2, by decide⟩) (k0_off97_eq k ⟨3, by decide⟩)
      · exact pay_step (b3V).view g g hG 7 112 rfl _ _ k.val hk rfl _ _ _ _ _ _ _ _
          (k0_off98_eq k ⟨0, by decide⟩) (k0_off98_eq k ⟨1, by decide⟩) (k0_off98_eq k ⟨2, by decide⟩) (k0_off98_eq k ⟨3, by decide⟩)
    · iexact Hb
  unfold invI
  isplitl [Hb]
  · isplitr [Hb]
    · ipureintro; rfl
    · iexact Hb
  · iintro %acc' ⟨%hacc', Hb⟩
    subst hacc'
    have e : accsN g a (Scf.trips k0_t11_loop.lb k0_t11_loop.ub k0_t11_loop.st) = accsOut g a := by
      rw [show Scf.trips k0_t11_loop.lb k0_t11_loop.ub k0_t11_loop.st = 25 by decide +kernel]
      exact accsN_eq g a 25 (Nat.le_refl _)
    rw [e]
    iapply Hk
    iexact Hb

end Tile

end Cert.Proof.KB

end
-- ==== Proof.KBInv.lean ====
import proofs.«206947_g65644280152286_cont_9to1_m_226_28_alg».proof.Proof.KBCell
import proofs.«206947_g65644280152286_cont_9to1_m_226_28_alg».proof.Proof.KBLand
import proofs.«206947_g65644280152286_cont_9to1_m_226_28_alg».proof.Proof.KBRes
import proofs.«206947_g65644280152286_cont_9to1_m_226_28_alg».proof.Proof.KBInner

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S4096x2x100 EltTy.i32)
local notation "oV" => (Memref.whole Cert.Kernel.main_v1_scv : Memref Cert.Kernel.sig Kind.scVector Space.hbm Cert.Kernel.S4096x128 EltTy.f32)
local notation "xV" => (Memref.whole Cert.Kernel.cc0_scratch0 : Memref Cert.Kernel.sig Kind.scVector Space.vmem Cert.Kernel.S128x2x100 EltTy.i32)
local notation "b0V" => (Memref.whole Cert.Kernel.cc0_scratch1 : Memref Cert.Kernel.sig Kind.scVector Space.vmem Cert.Kernel.S100x128 EltTy.f32)
local notation "b1V" => (Memref.whole Cert.Kernel.cc0_scratch2 : Memref Cert.Kernel.sig Kind.scVector Space.vmem Cert.Kernel.S100x128 EltTy.f32)
local notation "b2V" => (Memref.whole Cert.Kernel.cc0_scratch3 : Memref Cert.Kernel.sig Kind.scVector Space.vmem Cert.Kernel.S100x128 EltTy.f32)
local notation "b3V" => (Memref.whole Cert.Kernel.cc0_scratch4 : Memref Cert.Kernel.sig Kind.scVector Space.vmem Cert.Kernel.S100x128 EltTy.f32)
local notation "b4V" => (Memref.whole Cert.Kernel.cc0_scratch5 : Memref Cert.Kernel.sig Kind.scVector Space.vmem Cert.Kernel.S100x128 EltTy.f32)
local notation "b5V" => (Memref.whole Cert.Kernel.cc0_scratch6 : Memref Cert.Kernel.sig Kind.scVector Space.vmem Cert.Kernel.S100x128 EltTy.f32)
local notation "yV" => (Memref.whole Cert.Kernel.cc0_scratch7 : Memref Cert.Kernel.sig Kind.scVector Space.vmem Cert.Kernel.S128x128 EltTy.f32)

variable [FloatOps F]

/-! The main loop's invariant. Trip k handles the tile's local rows 3k, 3k+1, 3k+2: buffer 2j+h holds (or awaits) the rows gathered
    for local row 3k+j, half h. At the head of trip k every buffer's gather for its row of that trip is pending, as long as the row
    exists (< 128); the result scratch holds the finished rows below 3k. -/
section Inv
variable (d : Dev nD) (L : grid0.Coords)

/-- Which trips take the guarded re-issues: the first four always, the last two except in the last trip. -/
theorem cond14 : ∀ k : Fin k0_t1_loop.trips, k0_cond1 k = 1#1 ∧ k0_cond2 k = 1#1 ∧ k0_cond3 k = 1#1 ∧ k0_cond4 k = 1#1 := by decide +kernel
theorem cond56 : ∀ k : Fin k0_t1_loop.trips, (k0_cond5 k = 1#1 ↔ k.val < 41) ∧ (k0_cond6 k = 1#1 ↔ k.val < 41) := by decide +kernel
theorem trips_main : k0_t1_loop.trips = 42 := by decide +kernel

/-- Read shares: buffer `n`'s token of the table (from the tile's share `q`) and of the index scratch. -/
abbrev tokT (q : PosShare TreeShare) (n : ℕ) : PosShare TreeShare := Transfers.shareTokN q n
abbrev tokX (n : ℕ) : PosShare TreeShare := Transfers.shareTokN fullShare n

/-- One buffer's state at a loop head: its gather for local row `row`, half `h` pending (with the rest of its share of the index
    scratch), or — when there is no such row — the buffer, its two read tokens and its semaphore at rest. -/
def CellSt (dst : Memref sig .scVector .vmem S100x128 .f32) (sem : DmaSem sig) (qT qX : PosShare TreeShare)
    (Tb : Buf (Elt F) (tLoc d)) (X : Buf (Elt F) ((thr d L).loc cc0_scratch0))
    (G : Fin 128 → Fin 2 → Buf (Elt F) (dst.view.loc (thr d L))) (row : ℕ) (h : Fin 2) : sProp 𝕄 :=
  if hr : row < 128 then
    iprop(Pend d L dst sem qT qX Tb X (G ⟨row, hr⟩ h) ⟨row, hr⟩ h ∗ ((xV).view.loc (thr d L) ↦[Finset.univ \ lstSet ⟨row, hr⟩ h]{qX} X))
  else
    iprop((∃ f, dst.view.loc (thr d L) ↦{fullShare} f) ∗ ((tV).view.loc (thr d L) ↦{qT} Tb) ∗ ((xV).view.loc (thr d L) ↦{qX} X)
      ∗ semVal (thr d L, SemLoc.dma sem) 0)

omit [FloatOps F] in
theorem CellSt_pos {dst : Memref sig .scVector .vmem S100x128 .f32} {sem : DmaSem sig} {qT qX : PosShare TreeShare}
    {Tb : Buf (Elt F) (tLoc d)} {X : Buf (Elt F) ((thr d L).loc cc0_scratch0)} {G : Fin 128 → Fin 2 → Buf (Elt F) (dst.view.loc (thr d L))}
    {row : ℕ} {h : Fin 2} (hr : row < 128) :
    CellSt d L dst sem qT qX Tb X G row h
      = iprop(Pend d L dst sem qT qX Tb X (G ⟨row, hr⟩ h) ⟨row, hr⟩ h ∗ ((xV).view.loc (thr d L) ↦[Finset.univ \ lstSet ⟨row, hr⟩ h]{qX} X)) := by
  unfold CellSt; rw [dif_pos hr]
omit [FloatOps F] in
theorem CellSt_neg {dst : Memref sig .scVector .vmem S100x128 .f32} {sem : DmaSem sig} {qT qX : PosShare TreeShare}
    {Tb : Buf (Elt F) (tLoc d)} {X : Buf (Elt F) ((thr d L).loc cc0_scratch0)} {G : Fin 128 → Fin 2 → Buf (Elt F) (dst.view.loc (thr d L))}
    {row : ℕ} {h : Fin 2} (hr : ¬ row < 128) :
    CellSt d L dst sem qT qX Tb X G row h
      = iprop((∃ f, dst.view.loc (thr d L) ↦{fullShare} f) ∗ ((tV).view.loc (thr d L) ↦{qT} Tb) ∗ ((xV).view.loc (thr d L) ↦{qX} X)
          ∗ semVal (thr d L, SemLoc.dma sem) 0) := by
  unfold CellSt; rw [dif_neg hr]

/-- The gathered rows as a buffer's contents (the same function for each of the six buffers). -/
abbrev GG (Tb : Buf (Elt F) (tLoc d)) (I : Buf (Elt F) (iLoc d)) : Fin 128 → Fin 2 → S100x128.Idx → F .f32 :=
  fun r h => Gc d L Tb (Xc d L I) r h

/-- The main loop's invariant at trip `k`. -/
def invMain (q : PosShare TreeShare) (I : Buf (Elt F) (iLoc d)) (Tb : Buf (Elt F) (tLoc d)) (O : CellTallies nD τ sig (HIx 1)) (W : Waits sig (HIx 1))
    (k : ℕ) (_ : PUnit) : sProp 𝕄 :=
  iprop(Transfers.MayWaits (thr d L) (default : HIx 1) O
    ∗ CellSt d L (b0V) cc0_scratch8.sem (tokT q 0) (tokX 0) Tb (Xc d L I) (GG d L Tb I) (3 * k) 0
    ∗ CellSt d L (b1V) cc0_scratch9.sem (tokT q 1) (tokX 1) Tb (Xc d L I) (GG d L Tb I) (3 * k) 1
    ∗ CellSt d L (b2V) cc0_scratch10.sem (tokT q 2) (tokX 2) Tb (Xc d L I) (GG d L Tb I) (3 * k + 1) 0
    ∗ CellSt d L (b3V) cc0_scratch11.sem (tokT q 3) (tokX 3) Tb (Xc d L I) (GG d L Tb I) (3 * k + 1) 1
    ∗ CellSt d L (b4V) cc0_scratch12.sem (tokT q 4) (tokX 4) Tb (Xc d L I) (GG d L Tb I) (3 * k + 2) 0
    ∗ CellSt d L (b5V) cc0_scratch13.sem (tokT q 5) (tokX 5) Tb (Xc d L I) (GG d L Tb I) (3 * k + 2) 1
    ∗ (∃ Y : Buf (Elt F) ((thr d L).loc cc0_scratch7), ((yV).view.loc (thr d L) ↦{fullShare} Y)
        ∗ ⌜∀ r : Fin 128, r.val < 3 * k → ∀ c : Fin 128, Y (ValueIdx.ix2 r c) = Yres d L I Tb (ValueIdx.ix2 r c)⌝)
    ∗ ∃ W', ⌜∀ p ∈ W', p ∈ W ∨ p.2 = none⌝ ∗ owes (thr d L) O W')

end Inv

end Cert.Proof.KB

end
-- ==== Proof.KBOut.lean ====
/-
  Value lemmas for a tile's result scratch.

  * One local row's arithmetic. The eight accumulators start at −∞ in every lane and are folded through the row's two
    gathered buffers (half 0, then half 1). Lane t of chunk c is column 16·c + t; the gathered buffer of half h holds,
    at (j, q), the table at the row the tile's j-th index word of that half names, column q, and the tile's index word
    (r, h, j) is the reshaped index at (base + r, h, j). So lane by lane the outcome is the fold KSpec.kresAt of the
    tile's global row and that column: the row's result (rowRes_eq).
  * A 16-lane accumulator stored as one row by 16 lanes puts lane t at (0, t) (store_lane).
  * Eight such stores into one row R of the [128, 128] scratch, chunk c at columns [16·c, 16·c + 16): the chunks are
    disjoint on the column axis, so (R, 16·c + t) reads chunk c's payload at (0, t), and a row other than R reads what
    was there before (row_stores_hit, row_stores_miss).
  * The tile's final copy of the whole scratch onto its 128 rows of the result: row base + r of the result is row r of
    the scratch (landO).
-/
import proofs.«206947_g65644280152286_cont_9to1_m_226_28_alg».proof.Proof.KBCell
import proofs.«206947_g65644280152286_cont_9to1_m_226_28_alg».proof.Proof.KBRes
import Idealize.ShloMosaic.Lib.WritesUnit
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S4096x2x100 EltTy.i32)
local notation "oV" => (Memref.whole Cert.Kernel.main_v1_scv : Memref Cert.Kernel.sig Kind.scVector Space.hbm Cert.Kernel.S4096x128 EltTy.f32)
local notation "xV" => (Memref.whole Cert.Kernel.cc0_scratch0 : Memref Cert.Kernel.sig Kind.scVector Space.vmem Cert.Kernel.S128x2x100 EltTy.i32)
local notation "b0V" => (Memref.whole Cert.Kernel.cc0_scratch1 : Memref Cert.Kernel.sig Kind.scVector Space.vmem Cert.Kernel.S100x128 EltTy.f32)
local notation "b1V" => (Memref.whole Cert.Kernel.cc0_scratch2 : Memref Cert.Kernel.sig Kind.scVector Space.vmem Cert.Kernel.S100x128 EltTy.f32)
local notation "b2V" => (Memref.whole Cert.Kernel.cc0_scratch3 : Memref Cert.Kernel.sig Kind.scVector Space.vmem Cert.Kernel.S100x128 EltTy.f32)
local notation "b3V" => (Memref.whole Cert.Kernel.cc0_scratch4 : Memref Cert.Kernel.sig Kind.scVector Space.vmem Cert.Kernel.S100x128 EltTy.f32)
local notation "b4V" => (Memref.whole Cert.Kernel.cc0_scratch5 : Memref Cert.Kernel.sig Kind.scVector Space.vmem Cert.Kernel.S100x128 EltTy.f32)
local notation "b5V" => (Memref.whole Cert.Kernel.cc0_scratch6 : Memref Cert.Kernel.sig Kind.scVector Space.vmem Cert.Kernel.S100x128 EltTy.f32)
local notation "yV" => (Memref.whole Cert.Kernel.cc0_scratch7 : Memref Cert.Kernel.sig Kind.scVector Space.vmem Cert.Kernel.S128x128 EltTy.f32)

variable [FloatOps F]

/-! ## A stored accumulator, lane by lane -/

/-- A 16-lane vector recast as one row by 16 lanes holds lane t at (0, t). -/
theorem store_lane (v : FVec F S16 .f32) (t : Fin 16) :
    shapeCast S1x16 v shapeCasts_S16_S1x16 (ValueIdx.ix2 (0 : Fin 1) t) = v (ValueIdx.ix1 t) := by
  refine shapeCast_apply v shapeCasts_S16_S1x16 _ _ ?_
  rw [Shape.rowMajor_val_one, Shape.rowMajor_val_two]
  show t.val = 0 * 16 + t.val
  omega

/-! ## One local row's arithmetic -/
section Row
variable (d : Dev nD) (L : grid0.Coords)

/-- Down column q of the gathered buffer of local row r, half h, over the landed index scratch: the table's entries of
    the tile's global row, that half, at column q. -/
theorem Gc_col (I : Buf (Elt F) (iLoc d)) (Tb : Buf (Elt F) (tLoc d)) (r : Fin 128) (h : Fin 2) (q : Fin 128) :
    (fun j : Fin 100 => Gc d L Tb (Xc d L I) r h (ValueIdx.ix2 j q)) = KSpec.entries (F := F) I Tb (rowG L r) h q := rfl

/-- Chunk c of a local row: an accumulator that is −∞ in every lane, folded through the row's two gathered buffers,
    holds lane by lane the fold of the tile's global row at the lane's column. -/
theorem chunk_eq (I : Buf (Elt F) (iLoc d)) (Tb : Buf (Elt F) (tLoc d)) (r : Fin 128) (c : Fin 8) (a : FVec F S16 .f32)
    (ha : ∀ i, a i = KSpec.negInf) :
    colUpTo (Gc d L Tb (Xc d L I) r 1) c (colUpTo (Gc d L Tb (Xc d L I) r 0) c a 25 (Nat.le_refl _)) 25 (Nat.le_refl _)
      = chunkRes d L I Tb r c := by
  funext i
  show KSpec.halfUpTo (fun j : Fin 100 => Gc d L Tb (Xc d L I) r 1 (ValueIdx.ix2 j (colOf c (i 0))))
      (KSpec.halfUpTo (fun j : Fin 100 => Gc d L Tb (Xc d L I) r 0 (ValueIdx.ix2 j (colOf c (i 0)))) (a i) 25 (Nat.le_refl _))
      25 (Nat.le_refl _) = KSpec.kresAt (F := F) I Tb (rowG L r) (colOf c (i 0))
  rw [ha i, Gc_col, Gc_col]
  rfl

/-- THE ROW: the eight initial accumulators folded through the row's two gathered buffers are the row's result. -/
theorem rowRes_eq (I : Buf (Elt F) (iLoc d)) (Tb : Buf (Elt F) (tLoc d)) (r : Fin 128) :
    accsOut (Gc d L Tb (Xc d L I) r 1) (accsOut (Gc d L Tb (Xc d L I) r 0)
        (k0_pay103, k0_pay104, k0_pay105, k0_pay106, k0_pay107, k0_pay108, k0_pay109, k0_pay110))
      = rowRes d L I Tb r :=
  Prod.ext (chunk_eq d L I Tb r 0 _ fun _ => rfl) (Prod.ext (chunk_eq d L I Tb r 1 _ fun _ => rfl)
    (Prod.ext (chunk_eq d L I Tb r 2 _ fun _ => rfl) (Prod.ext (chunk_eq d L I Tb r 3 _ fun _ => rfl)
      (Prod.ext (chunk_eq d L I Tb r 4 _ fun _ => rfl) (Prod.ext (chunk_eq d L I Tb r 5 _ fun _ => rfl)
        (Prod.ext (chunk_eq d L I Tb r 6 _ fun _ => rfl) (chunk_eq d L I Tb r 7 _ fun _ => rfl)))))))

end Row

/-! ## Eight one-row stores into one row of the result scratch -/
section RowStores
variable (Yp : (yV).view.ty.Contents (Elt F)) (R : Fin 128) (o : Fin 8 → Fin 2 → ℕ)
  (inb : ∀ (c : Fin 8) (a : Fin 2), o c a + S1x16.size a ≤ S128x128.size a)
  (W : Fin 8 → (⟨S128x128.rank, S1x16.size⟩ : Shape).Idx → Elt F .f32)

/-- The eight stores of one row, as a list of writes has them: the last store first. -/
abbrev rowStores : List (View.Piece (Elt F) S128x128 .f32) :=
  [⟨Rect.unit (o 7) S1x16.size (inb 7), W 7⟩, ⟨Rect.unit (o 6) S1x16.size (inb 6), W 6⟩,
   ⟨Rect.unit (o 5) S1x16.size (inb 5), W 5⟩, ⟨Rect.unit (o 4) S1x16.size (inb 4), W 4⟩,
   ⟨Rect.unit (o 3) S1x16.size (inb 3), W 3⟩, ⟨Rect.unit (o 2) S1x16.size (inb 2), W 2⟩,
   ⟨Rect.unit (o 1) S1x16.size (inb 1), W 1⟩, ⟨Rect.unit (o 0) S1x16.size (inb 0), W 0⟩]

omit [FloatOps F] in
/-- They are eight equal-sized tile stores, in order. -/
theorem rowStores_eq : rowStores o inb W = View.tilePieces (s := S128x128) S1x16.size o inb W 8 (Nat.le_refl 8) := rfl

omit [FloatOps F] in
/-- An index that misses every one of the first j tile stores on one axis reads what was there before. -/
theorem read_tilePieces_miss {NT : ℕ} (tsz : Fin S128x128.rank → ℕ) (off : Fin NT → Fin S128x128.rank → ℕ)
    (inbT : ∀ i a, off i a + tsz a ≤ S128x128.size a) (P : Fin NT → (⟨S128x128.rank, tsz⟩ : Shape).Idx → Elt F .f32)
    (y : S128x128.Idx) (ax : Fin S128x128.rank)
    (hmiss : ∀ i : Fin NT, (y ax).val < off i ax ∨ off i ax + tsz ax ≤ (y ax).val) :
    ∀ (j : ℕ) (hj : j ≤ NT),
      (yV).view.read (Elt F) ((yV).view.writes (Elt F) Yp (View.tilePieces (s := S128x128) tsz off inbT P j hj)) y = (yV).view.read (Elt F) Yp y
  | 0, _ => rfl
  | j + 1, hj => by
    rw [View.tilePieces_succ,
      View.read_writes_cons_unit_of_not_mem (yV).view Yp (inbT ⟨j, hj⟩) (P ⟨j, hj⟩) _ y rfl ax (hmiss ⟨j, hj⟩)]
    exact read_tilePieces_miss tsz off inbT P y ax hmiss j (Nat.le_of_succ_le hj)

omit [FloatOps F] in
/-- (a) Chunk c's store at row R, columns [16·c, 16·c + 16): entry (R, 16·c + t) reads chunk c's payload at (0, t). -/
theorem row_stores_hit (hoff : ∀ c, o c = ![R.val, 16 * c.val]) (c : Fin 8) (t : Fin 16) :
    (yV).view.writes (Elt F) Yp (rowStores o inb W) (ValueIdx.ix2 R (colOf c t)) = W c (ValueIdx.ix2 (0 : Fin 1) t) := by
  rw [rowStores_eq]
  refine View.read_tilePieces (yV).view Yp S1x16.size o inb W 8 (Nat.le_refl 8) (ValueIdx.ix2 R (colOf c t)) c c.isLt
    (ValueIdx.ix2 (0 : Fin 1) t) (fun a => ?_) (1 : Fin 2) (fun c' hc' => ?_)
  · rw [hoff c]
    match a with
    | ⟨0, _⟩ => show R.val = R.val + 0; omega
    | ⟨1, _⟩ => show 16 * c.val + t.val = 16 * c.val + t.val; rfl
  · rw [hoff c']
    show 16 * c.val + t.val < 16 * c'.val ∨ 16 * c'.val + 16 ≤ 16 * c.val + t.val
    have hne : c'.val ≠ c.val := fun h => hc' (Fin.ext h)
    have := t.isLt
    omega

omit [FloatOps F] in
/-- (b) A row other than R is untouched by the eight stores. -/
theorem row_stores_miss (hoff : ∀ c, o c = ![R.val, 16 * c.val]) (r : Fin 128) (hr : r ≠ R) (q : Fin 128) :
    (yV).view.writes (Elt F) Yp (rowStores o inb W) (ValueIdx.ix2 r q) = Yp (ValueIdx.ix2 r q) := by
  rw [rowStores_eq]
  refine read_tilePieces_miss Yp S1x16.size o inb W (ValueIdx.ix2 r q) (0 : Fin 2) (fun i => ?_) 8 (Nat.le_refl 8)
  rw [hoff i]
  show r.val < R.val ∨ R.val + 1 ≤ r.val
  have hne : r.val ≠ R.val := fun h => hr (Fin.ext h)
  omega

end RowStores

/-! ## The tile's final copy onto its rows of the result -/
section Land
variable (d : Dev nD) (L : grid0.Coords)

/-- What the copy of the whole result scratch lands: on the tile's 128 rows of the result array, entry by entry the
    fold of the index rows and the table. Row base + r of the result (base = 256·s + 128·c) is row r of the scratch. -/
theorem landO (I : Buf (Elt F) (iLoc d)) (Tb : Buf (Elt F) (tLoc d)) (fo : Buf (Elt F) (oLoc d))
    (Y : Buf (Elt F) ((thr d L).loc cc0_scratch7)) (hY : ∀ j, Y j = Yres d L I Tb j) :
    ∀ j ∈ (oK L).view.set,
      (oK L).view.writes (Elt F) fo [⟨Rect.whole S128x128, ReadAs.same.apply ((yV).view.read (Elt F) Y)⟩] j
        = KSpec.kres (F := F) I Tb j := by
  intro j hj
  obtain ⟨x, -, rfl⟩ := Finset.mem_map.mp hj
  have e : (oK L).view.emb x = ((oK L).view.slice (Rect.whole S128x128)).emb x := by
    show _ = (oK L).view.emb ((Rect.whole S128x128).emb x)
    rw [Rect.emb_whole_apply]
  have ho : (oK L).view.emb x = ValueIdx.ix2 (n0 := 4096) (n1 := 128) (rowG L (x 0)) (x 1) := by
    funext a; apply Fin.ext
    show ((Rect.unit (s := S4096x128) (k0_off99 L) S128x128.size (k0_off99_inb L)).emb x a).val = _
    rw [Rect.emb_apply]
    show k0_off99 L a + 1 * (x a).val = _
    rw [k0_off99_eq]
    match a with
    | ⟨0, _⟩ => show 256 * (L 1).val + 128 * (L 0).val + 1 * (x 0).val = 256 * (L 1).val + 128 * (L 0).val + (x 0).val; omega
    | ⟨1, _⟩ => show 0 + 1 * (x 1).val = (x 1).val; omega
  have hr : (yV).view.read (Elt F) Y x = Yres d L I Tb x := hY x
  rw [View.writes_singleton]
  conv_lhs => rw [e]
  rw [View.write_emb_of_mem _ _ (Finset.mem_univ _)]
  show _root_.cast _ ((yV).view.read (Elt F) Y x) = _
  rw [hr, ho]
  rfl

end Land

end Cert.Proof.KB

end
-- ==== Proof.KBYStep.lean ====
/-
  One trip of the main loop, on the result scratch.

  A trip of the loop handles three consecutive local rows 3k, 3k + 1, 3k + 2 and stores each row's eight result
  chunks: 24 stores, each one row by 16 lanes, row 3k's first. Read newest first they are three groups of eight, and
  a group touches one row only. So after the trip
    * row 3k + 2 holds what its group stored: at column 16·c + t, lane t of the row's chunk c, which is the fold
      KSpec.kresAt of the row's global batch row at that column;
    * row 3k + 1 is missed by the newest group and holds what its own group stored, likewise; row 3k is missed by
      the two newest groups;
    * a row below 3k is missed by all three groups and holds what it held before the trip.
  Hence if the rows below 3k held the tile's result before the trip, the rows below 3(k + 1) hold it after.
-/
import proofs.«206947_g65644280152286_cont_9to1_m_226_28_alg».proof.Proof.KBOut
import proofs.«206947_g65644280152286_cont_9to1_m_226_28_alg».proof.Proof.KBRes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S4096x2x100 EltTy.i32)
local notation "oV" => (Memref.whole Cert.Kernel.main_v1_scv : Memref Cert.Kernel.sig Kind.scVector Space.hbm Cert.Kernel.S4096x128 EltTy.f32)
local notation "xV" => (Memref.whole Cert.Kernel.cc0_scratch0 : Memref Cert.Kernel.sig Kind.scVector Space.vmem Cert.Kernel.S128x2x100 EltTy.i32)
local notation "b0V" => (Memref.whole Cert.Kernel.cc0_scratch1 : Memref Cert.Kernel.sig Kind.scVector Space.vmem Cert.Kernel.S100x128 EltTy.f32)
local notation "b1V" => (Memref.whole Cert.Kernel.cc0_scratch2 : Memref Cert.Kernel.sig Kind.scVector Space.vmem Cert.Kernel.S100x128 EltTy.f32)
local notation "b2V" => (Memref.whole Cert.Kernel.cc0_scratch3 : Memref Cert.Kernel.sig Kind.scVector Space.vmem Cert.Kernel.S100x128 EltTy.f32)
local notation "b3V" => (Memref.whole Cert.Kernel.cc0_scratch4 : Memref Cert.Kernel.sig Kind.scVector Space.vmem Cert.Kernel.S100x128 EltTy.f32)
local notation "b4V" => (Memref.whole Cert.Kernel.cc0_scratch5 : Memref Cert.Kernel.sig Kind.scVector Space.vmem Cert.Kernel.S100x128 EltTy.f32)
local notation "b5V" => (Memref.whole Cert.Kernel.cc0_scratch6 : Memref Cert.Kernel.sig Kind.scVector Space.vmem Cert.Kernel.S100x128 EltTy.f32)
local notation "yV" => (Memref.whole Cert.Kernel.cc0_scratch7 : Memref Cert.Kernel.sig Kind.scVector Space.vmem Cert.Kernel.S128x128 EltTy.f32)

variable [FloatOps F]

section Step
variable (d : Dev nD) (L : grid0.Coords)

omit [FloatOps F] in
/-- Every column is a lane of a chunk: column q is lane q mod 16 of chunk q div 16. -/
theorem col_eq (q : Fin 128) : ∃ (c : Fin 8) (t : Fin 16), q = colOf c t :=
  ⟨⟨q.val / 16, by have := q.isLt; omega⟩, ⟨q.val % 16, Nat.mod_lt _ (by decide)⟩,
    Fin.ext (by show q.val = 16 * (q.val / 16) + q.val % 16; omega)⟩

/-- A row's eight stores of its result chunks leave the row's result in that row of the scratch. -/
theorem row_written (I : Buf (Elt F) (iLoc d)) (Tb : Buf (Elt F) (tLoc d)) (Yp : (yV).view.ty.Contents (Elt F))
    (R : Fin 128) (o : Fin 8 → Fin 2 → ℕ) (inb : ∀ (c : Fin 8) (a : Fin 2), o c a + S1x16.size a ≤ S128x128.size a)
    (hoff : ∀ c, o c = ![R.val, 16 * c.val]) (q : Fin 128) :
    (yV).view.writes (Elt F) Yp
        (rowStores o inb (fun c => shapeCast S1x16 (chunkRes d L I Tb R c) shapeCasts_S16_S1x16)) (ValueIdx.ix2 R q)
      = Yres d L I Tb (ValueIdx.ix2 R q) := by
  obtain ⟨c, t, rfl⟩ := col_eq q
  rw [row_stores_hit Yp R o inb _ hoff c t]
  show shapeCast S1x16 (chunkRes d L I Tb R c) shapeCasts_S16_S1x16 (ValueIdx.ix2 (0 : Fin 1) t) = _
  rw [store_lane]
  rfl

/-- THE TRIP: with the rows below 3k at the tile's result, the trip's 24 stores leave the rows below 3(k + 1) at it. -/
theorem Y_step (I : Buf (Elt F) (iLoc d)) (Tb : Buf (Elt F) (tLoc d)) (Y : (yV).view.ty.Contents (Elt F)) (k : ℕ) (hk : k < 42)
    (hY : ∀ r : Fin 128, r.val < 3 * k → ∀ c : Fin 128, Y (ValueIdx.ix2 r c) = Yres d L I Tb (ValueIdx.ix2 r c))
    (o0 o1 o2 : Fin 8 → Fin 2 → ℕ)
    (inb0 : ∀ (c : Fin 8) (a : Fin 2), o0 c a + S1x16.size a ≤ S128x128.size a)
    (inb1 : ∀ (c : Fin 8) (a : Fin 2), o1 c a + S1x16.size a ≤ S128x128.size a)
    (inb2 : ∀ (c : Fin 8) (a : Fin 2), o2 c a + S1x16.size a ≤ S128x128.size a)
    (h0 : ∀ c, o0 c = ![3 * k, 16 * c.val]) (h1 : ∀ c, o1 c = ![3 * k + 1, 16 * c.val])
    (h2 : ∀ c, o2 c = ![3 * k + 2, 16 * c.val]) :
    ∀ r : Fin 128, r.val < 3 * (k + 1) → ∀ c : Fin 128,
      (yV).view.writes (Elt F) Y
        (rowStores o2 inb2 (fun c => shapeCast S1x16 (chunkRes d L I Tb ⟨3 * k + 2, by omega⟩ c) shapeCasts_S16_S1x16)
          ++ rowStores o1 inb1 (fun c => shapeCast S1x16 (chunkRes d L I Tb ⟨3 * k + 1, by omega⟩ c) shapeCasts_S16_S1x16)
          ++ rowStores o0 inb0 (fun c => shapeCast S1x16 (chunkRes d L I Tb ⟨3 * k, by omega⟩ c) shapeCasts_S16_S1x16))
        (ValueIdx.ix2 r c)
        = Yres d L I Tb (ValueIdx.ix2 r c) := by
  have b2 : 3 * k + 2 < 128 := by omega
  have b1 : 3 * k + 1 < 128 := by omega
  have b0 : 3 * k < 128 := by omega
  intro r hr q
  rw [View.writes_append, View.writes_append]
  by_cases e2 : r = (⟨3 * k + 2, b2⟩ : Fin 128)
  · subst e2
    exact row_written d L I Tb _ _ o2 inb2 h2 q
  · rw [row_stores_miss _ (⟨3 * k + 2, b2⟩ : Fin 128) o2 inb2 _ h2 r e2 q]
    by_cases e1 : r = (⟨3 * k + 1, b1⟩ : Fin 128)
    · subst e1
      exact row_written d L I Tb _ _ o1 inb1 h1 q
    · rw [row_stores_miss _ (⟨3 * k + 1, b1⟩ : Fin 128) o1 inb1 _ h1 r e1 q]
      by_cases e0 : r = (⟨3 * k, b0⟩ : Fin 128)
      · subst e0
        exact row_written d L I Tb _ _ o0 inb0 h0 q
      · rw [row_stores_miss _ (⟨3 * k, b0⟩ : Fin 128) o0 inb0 _ h0 r e0 q]
        refine hY r ?_ q
        have n2 : r.val ≠ 3 * k + 2 := fun h => e2 (Fin.ext h)
        have n1 : r.val ≠ 3 * k + 1 := fun h => e1 (Fin.ext h)
        have n0 : r.val ≠ 3 * k := fun h => e0 (Fin.ext h)
        omega

end Step

end Cert.Proof.KB

end
-- ==== Proof.KBGather.lean ====
import proofs.«206947_g65644280152286_cont_9to1_m_226_28_alg».proof.Proof.KBCell
import proofs.«206947_g65644280152286_cont_9to1_m_226_28_alg».proof.Proof.KBLand

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S4096x2x100 EltTy.i32)
local notation "oV" => (Memref.whole Cert.Kernel.main_v1_scv : Memref Cert.Kernel.sig Kind.scVector Space.hbm Cert.Kernel.S4096x128 EltTy.f32)
local notation "xV" => (Memref.whole Cert.Kernel.cc0_scratch0 : Memref Cert.Kernel.sig Kind.scVector Space.vmem Cert.Kernel.S128x2x100 EltTy.i32)
local notation "b0V" => (Memref.whole Cert.Kernel.cc0_scratch1 : Memref Cert.Kernel.sig Kind.scVector Space.vmem Cert.Kernel.S100x128 EltTy.f32)
local notation "b1V" => (Memref.whole Cert.Kernel.cc0_scratch2 : Memref Cert.Kernel.sig Kind.scVector Space.vmem Cert.Kernel.S100x128 EltTy.f32)
local notation "b2V" => (Memref.whole Cert.Kernel.cc0_scratch3 : Memref Cert.Kernel.sig Kind.scVector Space.vmem Cert.Kernel.S100x128 EltTy.f32)
local notation "b3V" => (Memref.whole Cert.Kernel.cc0_scratch4 : Memref Cert.Kernel.sig Kind.scVector Space.vmem Cert.Kernel.S100x128 EltTy.f32)
local notation "b4V" => (Memref.whole Cert.Kernel.cc0_scratch5 : Memref Cert.Kernel.sig Kind.scVector Space.vmem Cert.Kernel.S100x128 EltTy.f32)
local notation "b5V" => (Memref.whole Cert.Kernel.cc0_scratch6 : Memref Cert.Kernel.sig Kind.scVector Space.vmem Cert.Kernel.S100x128 EltTy.f32)
local notation "yV" => (Memref.whole Cert.Kernel.cc0_scratch7 : Memref Cert.Kernel.sig Kind.scVector Space.vmem Cert.Kernel.S128x128 EltTy.f32)

variable [FloatOps F]

/-! The six buffers' gathers: issuing one and waiting for it, in terms of what the tile holds. -/
section Gathers
variable (d : Dev nD) (L : grid0.Coords)

set_option maxHeartbeats 4000000 in
/-- Issue a gather into buffer 0 from the list at (r, h): it takes the table's read token, the buffer and the list's words out of a
    held share of the index scratch; the pending gather and the rest of that share remain. -/
theorem issue_b0 {α : Type} {off : Fin 3 → Nat} {inb : ∀ a, off a + S1x1x100.size a ≤ S128x2x100.size a} (r : Fin 128) (h : Fin 2)
    (h0 : off 0 = r.val) (h1 : off 1 = h.val) (h2 : off 2 = 0) {So : Finset S128x2x100.Idx} (hSo : (lst off inb).view.set ⊆ So)
    (qT qX : PosShare TreeShare) (Tb : Buf (Elt F) (tLoc d)) (I : Buf (Elt F) (iLoc d)) (hI : ∀ j, (I j).toNat < 100000)
    (fd : Buf (Elt F) ((b0V).view.loc (thr d L)))
    {hn : S100.numel = S100x128.size gathers_S100000x128_S100x128.axis'} {hp : (thr d L).2.kind = .scVector} {hsrc : (tAll).view.WordExact}
    {he : EltTy.f32.bits = 32} {hsp : Space.hbm = .hbm ∨ Space.hbm = .shared} {hr : S100000x128.StreamRows 0}
    {k : PUnit → Prog (TpuEff nD τ sig (Elt F) Λ₀ (thr d L).2) α} {Q : α → sProp 𝕄} :
    (iprop(((tV).view.loc (thr d L) ↦{qT} Tb) ∗ ((b0V).view.loc (thr d L) ↦{fullShare} fd) ∗ ((xV).view.loc (thr d L) ↦[So]{qX} Xc d L I)
        ∗ semVal (thr d L, SemLoc.dma cc0_scratch8.sem) 0) : sProp 𝕄)
      ⊢ iprop((Pend d L (b0V) cc0_scratch8.sem qT qX Tb (Xc d L I) (Gc d L Tb (Xc d L I) r h) r h
            ∗ ((xV).view.loc (thr d L) ↦[So \ lstSet r h]{qX} Xc d L I)
          -∗ wp frame (wpE (defs₀ (F := F)) 𝒱₀ (thr d L) none) Set.univ (k ⟨⟩) Q)
        -∗ wp frame (wpE (defs₀ (F := F)) 𝒱₀ (thr d L) none) Set.univ
            (SparseCore.enqueueIndirectGather hp (tAll) (b0V) gathers_S100000x128_S100x128 (lst off inb) hn cc0_scratch8.sem hsrc he hsp hr >>= k) Q) := by
  have hN : ∀ hh : S100000x128.Gathers 0 S100x128, ∑ j, ((b0V).slice (S100x128.rowRect hh.axis' j) (S100x128.stride_rowRect hh.axis' j)).view.dmaCredit
      = (b0V).view.dmaCredit := by decide
  iintro ⟨Ht, Hb, Hx, Hs⟩ Hk
  ihave Hx' := (pointsTo_split_subset (q := qX) (f := Xc d L I) (S := So) hSo).1 $$ Hx
  icases Hx' with ⟨Hl, Hx⟩
  ihave Hts := (Entails.of_eq (show ((tV).view.loc (thr d L) ↦{qT} Tb : sProp 𝕄)
      = ((tAll).view.loc (thr d L) ↦[(tAll).view.set]{qT} Tb) by rw [set_tAll])) $$ Ht
  ihave Hb' := (Entails.of_eq (show ((b0V).view.loc (thr d L) ↦{fullShare} fd : sProp 𝕄)
      = (b0V).view.loc (thr d L) ↦[(b0V).view.set]{fullShare} fd by rw [View.set_whole])) $$ Hb
  have R := SparseCore.wp_indirectGatherLocal (F := F) (defs := defs₀ (F := F)) countersEmb 𝒱₀ (thr d L) none
      (src := tAll) (dst := b0V) (hg := gathers_S100000x128_S100x128) (offs := lst off inb) (hn := hn) (sem := cc0_scratch8.sem)
      (hp := hp) (hsrc := hsrc) (he := he) (hsp := hsp) (hr := hr) (k := k) (Q := Q) (q := qT) (qo := qX) (fs := Tb) (fd := fd) (fo := Xc d L I)
      (default : HIx 1) (b0V).view.dmaCredit (hN _) (by decide) (lst_inb d L r h h0 h1 h2 I hI)
  iapply R $$ [Hts Hb' Hl Hs]
  · isplitl [Hts]; · iexact Hts
    isplitl [Hb']; · iexact Hb'
    isplitl [Hl]; · iexact Hl
    iexact Hs
  iintro Hfl
  iapply Hk
  isplitl [Hfl]
  · iapply (pend_intro_b0 d L r h h0 h1 h2 qT qX Tb (Xc d L I) fd hn (lst_inb d L r h h0 h1 h2 I hI)); iexact Hfl
  · rw [← set_lst_eq (off := off) (inb := inb) r h h0 h1 h2]; iexact Hx

/-- Wait for the gather pending on buffer 0: the buffer comes back holding the gathered rows, with the table's token and the list's
    words, which rejoin the rest of that share of the index scratch. -/
theorem wait_b0 {α : Type} (r : Fin 128) (h : Fin 2) {So : Finset S128x2x100.Idx} (hSo : lstSet r h ⊆ So)
    (qT qX : PosShare TreeShare) (Tb : Buf (Elt F) (tLoc d)) (X : Buf (Elt F) ((thr d L).loc cc0_scratch0)) (g : Buf (Elt F) ((b0V).view.loc (thr d L)))
    (O : CellTallies nD τ sig (HIx 1)) (W : Waits sig (HIx 1))
    {src : Memref sig (thr d L).2.kind .hbm S100000x128 .f32} {hsrc : src.view.WordExact} {hdst : (b0V).view.WordExact}
    {k : PUnit → Prog (TpuEff nD τ sig (Elt F) Λ₀ (thr d L).2) α} {Q : α → sProp 𝕄} :
    (iprop(Pend d L (b0V) cc0_scratch8.sem qT qX Tb X g r h ∗ ((xV).view.loc (thr d L) ↦[So \ lstSet r h]{qX} X)
        ∗ owes (thr d L) O W ∗ Transfers.MayWaits (thr d L) (default : HIx 1) O) : sProp 𝕄)
      ⊢ iprop((((tV).view.loc (thr d L) ↦{qT} Tb) ∗ ((b0V).view.loc (thr d L) ↦{fullShare} g) ∗ ((xV).view.loc (thr d L) ↦[So]{qX} X)
            ∗ semVal (thr d L, SemLoc.dma cc0_scratch8.sem) 0 ∗ owes (thr d L) O (insert (SemLoc.dma cc0_scratch8.sem, (default : HIx 1)) W)
          -∗ wp frame (wpE (defs₀ (F := F)) 𝒱₀ (thr d L) none) Set.univ (k ⟨⟩) Q)
        -∗ wp frame (wpE (defs₀ (F := F)) 𝒱₀ (thr d L) none) Set.univ
            (SparseCore.waitIndirectGather cc0_scratch8.sem src (b0V) hsrc hdst >>= k) Q) := by
  unfold Pend
  rw [SparseCore.waitIndirectGather_bind]
  iintro ⟨Hfl, Hrest, HO, Hmw⟩ Hk
  iapply (Transfers.wp_waitLocalO countersEmb 𝒱₀ (thr d L) none (default : HIx 1) (rfl : (b0V).view.dmaCredit = _)) $$ [Hfl HO Hmw]
  · isplitl [Hfl]; · iexact Hfl
    isplitl [HO]; · iexact HO
    iapply (Transfers.MayWaits.elim (SemLoc.dma cc0_scratch8.sem)) $$ Hmw
  iintro ⟨⟨Hb, Ht, Hl⟩, Hs, HO⟩
  iapply Hk
  isplitl [Ht]; · iexact Ht
  isplitl [Hb]; · iexact Hb
  isplitl [Hl Hrest]
  · iapply (pointsTo_split_subset (q := qX) (f := X) (S := So) hSo).2
    isplitl [Hl] <;> iassumption
  isplitl [Hs]; · iexact Hs
  iexact HO

set_option maxHeartbeats 4000000 in
/-- Issue a gather into buffer 1 from the list at (r, h): it takes the table's read token, the buffer and the list's words out of a
    held share of the index scratch; the pending gather and the rest of that share remain. -/
theorem issue_b1 {α : Type} {off : Fin 3 → Nat} {inb : ∀ a, off a + S1x1x100.size a ≤ S128x2x100.size a} (r : Fin 128) (h : Fin 2)
    (h0 : off 0 = r.val) (h1 : off 1 = h.val) (h2 : off 2 = 0) {So : Finset S128x2x100.Idx} (hSo : (lst off inb).view.set ⊆ So)
    (qT qX : PosShare TreeShare) (Tb : Buf (Elt F) (tLoc d)) (I : Buf (Elt F) (iLoc d)) (hI : ∀ j, (I j).toNat < 100000)
    (fd : Buf (Elt F) ((b1V).view.loc (thr d L)))
    {hn : S100.numel = S100x128.size gathers_S100000x128_S100x128.axis'} {hp : (thr d L).2.kind = .scVector} {hsrc : (tAll).view.WordExact}
    {he : EltTy.f32.bits = 32} {hsp : Space.hbm = .hbm ∨ Space.hbm = .shared} {hr : S100000x128.StreamRows 0}
    {k : PUnit → Prog (TpuEff nD τ sig (Elt F) Λ₀ (thr d L).2) α} {Q : α → sProp 𝕄} :
    (iprop(((tV).view.loc (thr d L) ↦{qT} Tb) ∗ ((b1V).view.loc (thr d L) ↦{fullShare} fd) ∗ ((xV).view.loc (thr d L) ↦[So]{qX} Xc d L I)
        ∗ semVal (thr d L, SemLoc.dma cc0_scratch9.sem) 0) : sProp 𝕄)
      ⊢ iprop((Pend d L (b1V) cc0_scratch9.sem qT qX Tb (Xc d L I) (Gc d L Tb (Xc d L I) r h) r h
            ∗ ((xV).view.loc (thr d L) ↦[So \ lstSet r h]{qX} Xc d L I)
          -∗ wp frame (wpE (defs₀ (F := F)) 𝒱₀ (thr d L) none) Set.univ (k ⟨⟩) Q)
        -∗ wp frame (wpE (defs₀ (F := F)) 𝒱₀ (thr d L) none) Set.univ
            (SparseCore.enqueueIndirectGather hp (tAll) (b1V) gathers_S100000x128_S100x128 (lst off inb) hn cc0_scratch9.sem hsrc he hsp hr >>= k) Q) := by
  have hN : ∀ hh : S100000x128.Gathers 0 S100x128, ∑ j, ((b1V).slice (S100x128.rowRect hh.axis' j) (S100x128.stride_rowRect hh.axis' j)).view.dmaCredit
      = (b1V).view.dmaCredit := by decide
  iintro ⟨Ht, Hb, Hx, Hs⟩ Hk
  ihave Hx' := (pointsTo_split_subset (q := qX) (f := Xc d L I) (S := So) hSo).1 $$ Hx
  icases Hx' with ⟨Hl, Hx⟩
  ihave Hts := (Entails.of_eq (show ((tV).view.loc (thr d L) ↦{qT} Tb : sProp 𝕄)
      = ((tAll).view.loc (thr d L) ↦[(tAll).view.set]{qT} Tb) by rw [set_tAll])) $$ Ht
  ihave Hb' := (Entails.of_eq (show ((b1V).view.loc (thr d L) ↦{fullShare} fd : sProp 𝕄)
      = (b1V).view.loc (thr d L) ↦[(b1V).view.set]{fullShare} fd by rw [View.set_whole])) $$ Hb
  have R := SparseCore.wp_indirectGatherLocal (F := F) (defs := defs₀ (F := F)) countersEmb 𝒱₀ (thr d L) none
      (src := tAll) (dst := b1V) (hg := gathers_S100000x128_S100x128) (offs := lst off inb) (hn := hn) (sem := cc0_scratch9.sem)
      (hp := hp) (hsrc := hsrc) (he := he) (hsp := hsp) (hr := hr) (k := k) (Q := Q) (q := qT) (qo := qX) (fs := Tb) (fd := fd) (fo := Xc d L I)
      (default : HIx 1) (b1V).view.dmaCredit (hN _) (by decide) (lst_inb d L r h h0 h1 h2 I hI)
  iapply R $$ [Hts Hb' Hl Hs]
  · isplitl [Hts]; · iexact Hts
    isplitl [Hb']; · iexact Hb'
    isplitl [Hl]; · iexact Hl
    iexact Hs
  iintro Hfl
  iapply Hk
  isplitl [Hfl]
  · iapply (pend_intro_b1 d L r h h0 h1 h2 qT qX Tb (Xc d L I) fd hn (lst_inb d L r h h0 h1 h2 I hI)); iexact Hfl
  · rw [← set_lst_eq (off := off) (inb := inb) r h h0 h1 h2]; iexact Hx

/-- Wait for the gather pending on buffer 1: the buffer comes back holding the gathered rows, with the table's token and the list's
    words, which rejoin the rest of that share of the index scratch. -/
theorem wait_b1 {α : Type} (r : Fin 128) (h : Fin 2) {So : Finset S128x2x100.Idx} (hSo : lstSet r h ⊆ So)
    (qT qX : PosShare TreeShare) (Tb : Buf (Elt F) (tLoc d)) (X : Buf (Elt F) ((thr d L).loc cc0_scratch0)) (g : Buf (Elt F) ((b1V).view.loc (thr d L)))
    (O : CellTallies nD τ sig (HIx 1)) (W : Waits sig (HIx 1))
    {src : Memref sig (thr d L).2.kind .hbm S100000x128 .f32} {hsrc : src.view.WordExact} {hdst : (b1V).view.WordExact}
    {k : PUnit → Prog (TpuEff nD τ sig (Elt F) Λ₀ (thr d L).2) α} {Q : α → sProp 𝕄} :
    (iprop(Pend d L (b1V) cc0_scratch9.sem qT qX Tb X g r h ∗ ((xV).view.loc (thr d L) ↦[So \ lstSet r h]{qX} X)
        ∗ owes (thr d L) O W ∗ Transfers.MayWaits (thr d L) (default : HIx 1) O) : sProp 𝕄)
      ⊢ iprop((((tV).view.loc (thr d L) ↦{qT} Tb) ∗ ((b1V).view.loc (thr d L) ↦{fullShare} g) ∗ ((xV).view.loc (thr d L) ↦[So]{qX} X)
            ∗ semVal (thr d L, SemLoc.dma cc0_scratch9.sem) 0 ∗ owes (thr d L) O (insert (SemLoc.dma cc0_scratch9.sem, (default : HIx 1)) W)
          -∗ wp frame (wpE (defs₀ (F := F)) 𝒱₀ (thr d L) none) Set.univ (k ⟨⟩) Q)
        -∗ wp frame (wpE (defs₀ (F := F)) 𝒱₀ (thr d L) none) Set.univ
            (SparseCore.waitIndirectGather cc0_scratch9.sem src (b1V) hsrc hdst >>= k) Q) := by
  unfold Pend
  rw [SparseCore.waitIndirectGather_bind]
  iintro ⟨Hfl, Hrest, HO, Hmw⟩ Hk
  iapply (Transfers.wp_waitLocalO countersEmb 𝒱₀ (thr d L) none (default : HIx 1) (rfl : (b1V).view.dmaCredit = _)) $$ [Hfl HO Hmw]
  · isplitl [Hfl]; · iexact Hfl
    isplitl [HO]; · iexact HO
    iapply (Transfers.MayWaits.elim (SemLoc.dma cc0_scratch9.sem)) $$ Hmw
  iintro ⟨⟨Hb, Ht, Hl⟩, Hs, HO⟩
  iapply Hk
  isplitl [Ht]; · iexact Ht
  isplitl [Hb]; · iexact Hb
  isplitl [Hl Hrest]
  · iapply (pointsTo_split_subset (q := qX) (f := X) (S := So) hSo).2
    isplitl [Hl] <;> iassumption
  isplitl [Hs]; · iexact Hs
  iexact HO

set_option maxHeartbeats 4000000 in
/-- Issue a gather into buffer 2 from the list at (r, h): it takes the table's read token, the buffer and the list's words out of a
    held share of the index scratch; the pending gather and the rest of that share remain. -/
theorem issue_b2 {α : Type} {off : Fin 3 → Nat} {inb : ∀ a, off a + S1x1x100.size a ≤ S128x2x100.size a} (r : Fin 128) (h : Fin 2)
    (h0 : off 0 = r.val) (h1 : off 1 = h.val) (h2 : off 2 = 0) {So : Finset S128x2x100.Idx} (hSo : (lst off inb).view.set ⊆ So)
    (qT qX : PosShare TreeShare) (Tb : Buf (Elt F) (tLoc d)) (I : Buf (Elt F) (iLoc d)) (hI : ∀ j, (I j).toNat < 100000)
    (fd : Buf (Elt F) ((b2V).view.loc (thr d L)))
    {hn : S100.numel = S100x128.size gathers_S100000x128_S100x128.axis'} {hp : (thr d L).2.kind = .scVector} {hsrc : (tAll).view.WordExact}
    {he : EltTy.f32.bits = 32} {hsp : Space.hbm = .hbm ∨ Space.hbm = .shared} {hr : S100000x128.StreamRows 0}
    {k : PUnit → Prog (TpuEff nD τ sig (Elt F) Λ₀ (thr d L).2) α} {Q : α → sProp 𝕄} :
    (iprop(((tV).view.loc (thr d L) ↦{qT} Tb) ∗ ((b2V).view.loc (thr d L) ↦{fullShare} fd) ∗ ((xV).view.loc (thr d L) ↦[So]{qX} Xc d L I)
        ∗ semVal (thr d L, SemLoc.dma cc0_scratch10.sem) 0) : sProp 𝕄)
      ⊢ iprop((Pend d L (b2V) cc0_scratch10.sem qT qX Tb (Xc d L I) (Gc d L Tb (Xc d L I) r h) r h
            ∗ ((xV).view.loc (thr d L) ↦[So \ lstSet r h]{qX} Xc d L I)
          -∗ wp frame (wpE (defs₀ (F := F)) 𝒱₀ (thr d L) none) Set.univ (k ⟨⟩) Q)
        -∗ wp frame (wpE (defs₀ (F := F)) 𝒱₀ (thr d L) none) Set.univ
            (SparseCore.enqueueIndirectGather hp (tAll) (b2V) gathers_S100000x128_S100x128 (lst off inb) hn cc0_scratch10.sem hsrc he hsp hr >>= k) Q) := by
  have hN : ∀ hh : S100000x128.Gathers 0 S100x128, ∑ j, ((b2V).slice (S100x128.rowRect hh.axis' j) (S100x128.stride_rowRect hh.axis' j)).view.dmaCredit
      = (b2V).view.dmaCredit := by decide
  iintro ⟨Ht, Hb, Hx, Hs⟩ Hk
  ihave Hx' := (pointsTo_split_subset (q := qX) (f := Xc d L I) (S := So) hSo).1 $$ Hx
  icases Hx' with ⟨Hl, Hx⟩
  ihave Hts := (Entails.of_eq (show ((tV).view.loc (thr d L) ↦{qT} Tb : sProp 𝕄)
      = ((tAll).view.loc (thr d L) ↦[(tAll).view.set]{qT} Tb) by rw [set_tAll])) $$ Ht
  ihave Hb' := (Entails.of_eq (show ((b2V).view.loc (thr d L) ↦{fullShare} fd : sProp 𝕄)
      = (b2V).view.loc (thr d L) ↦[(b2V).view.set]{fullShare} fd by rw [View.set_whole])) $$ Hb
  have R := SparseCore.wp_indirectGatherLocal (F := F) (defs := defs₀ (F := F)) countersEmb 𝒱₀ (thr d L) none
      (src := tAll) (dst := b2V) (hg := gathers_S100000x128_S100x128) (offs := lst off inb) (hn := hn) (sem := cc0_scratch10.sem)
      (hp := hp) (hsrc := hsrc) (he := he) (hsp := hsp) (hr := hr) (k := k) (Q := Q) (q := qT) (qo := qX) (fs := Tb) (fd := fd) (fo := Xc d L I)
      (default : HIx 1) (b2V).view.dmaCredit (hN _) (by decide) (lst_inb d L r h h0 h1 h2 I hI)
  iapply R $$ [Hts Hb' Hl Hs]
  · isplitl [Hts]; · iexact Hts
    isplitl [Hb']; · iexact Hb'
    isplitl [Hl]; · iexact Hl
    iexact Hs
  iintro Hfl
  iapply Hk
  isplitl [Hfl]
  · iapply (pend_intro_b2 d L r h h0 h1 h2 qT qX Tb (Xc d L I) fd hn (lst_inb d L r h h0 h1 h2 I hI)); iexact Hfl
  · rw [← set_lst_eq (off := off) (inb := inb) r h h0 h1 h2]; iexact Hx

/-- Wait for the gather pending on buffer 2: the buffer comes back holding the gathered rows, with the table's token and the list's
    words, which rejoin the rest of that share of the index scratch. -/
theorem wait_b2 {α : Type} (r : Fin 128) (h : Fin 2) {So : Finset S128x2x100.Idx} (hSo : lstSet r h ⊆ So)
    (qT qX : PosShare TreeShare) (Tb : Buf (Elt F) (tLoc d)) (X : Buf (Elt F) ((thr d L).loc cc0_scratch0)) (g : Buf (Elt F) ((b2V).view.loc (thr d L)))
    (O : CellTallies nD τ sig (HIx 1)) (W : Waits sig (HIx 1))
    {src : Memref sig (thr d L).2.kind .hbm S100000x128 .f32} {hsrc : src.view.WordExact} {hdst : (b2V).view.WordExact}
    {k : PUnit → Prog (TpuEff nD τ sig (Elt F) Λ₀ (thr d L).2) α} {Q : α → sProp 𝕄} :
    (iprop(Pend d L (b2V) cc0_scratch10.sem qT qX Tb X g r h ∗ ((xV).view.loc (thr d L) ↦[So \ lstSet r h]{qX} X)
        ∗ owes (thr d L) O W ∗ Transfers.MayWaits (thr d L) (default : HIx 1) O) : sProp 𝕄)
      ⊢ iprop((((tV).view.loc (thr d L) ↦{qT} Tb) ∗ ((b2V).view.loc (thr d L) ↦{fullShare} g) ∗ ((xV).view.loc (thr d L) ↦[So]{qX} X)
            ∗ semVal (thr d L, SemLoc.dma cc0_scratch10.sem) 0 ∗ owes (thr d L) O (insert (SemLoc.dma cc0_scratch10.sem, (default : HIx 1)) W)
          -∗ wp frame (wpE (defs₀ (F := F)) 𝒱₀ (thr d L) none) Set.univ (k ⟨⟩) Q)
        -∗ wp frame (wpE (defs₀ (F := F)) 𝒱₀ (thr d L) none) Set.univ
            (SparseCore.waitIndirectGather cc0_scratch10.sem src (b2V) hsrc hdst >>= k) Q) := by
  unfold Pend
  rw [SparseCore.waitIndirectGather_bind]
  iintro ⟨Hfl, Hrest, HO, Hmw⟩ Hk
  iapply (Transfers.wp_waitLocalO countersEmb 𝒱₀ (thr d L) none (default : HIx 1) (rfl : (b2V).view.dmaCredit = _)) $$ [Hfl HO Hmw]
  · isplitl [Hfl]; · iexact Hfl
    isplitl [HO]; · iexact HO
    iapply (Transfers.MayWaits.elim (SemLoc.dma cc0_scratch10.sem)) $$ Hmw
  iintro ⟨⟨Hb, Ht, Hl⟩, Hs, HO⟩
  iapply Hk
  isplitl [Ht]; · iexact Ht
  isplitl [Hb]; · iexact Hb
  isplitl [Hl Hrest]
  · iapply (pointsTo_split_subset (q := qX) (f := X) (S := So) hSo).2
    isplitl [Hl] <;> iassumption
  isplitl [Hs]; · iexact Hs
  iexact HO

set_option maxHeartbeats 4000000 in
/-- Issue a gather into buffer 3 from the list at (r, h): it takes the table's read token, the buffer and the list's words out of a
    held share of the index scratch; the pending gather and the rest of that share remain. -/
theorem issue_b3 {α : Type} {off : Fin 3 → Nat} {inb : ∀ a, off a + S1x1x100.size a ≤ S128x2x100.size a} (r : Fin 128) (h : Fin 2)
    (h0 : off 0 = r.val) (h1 : off 1 = h.val) (h2 : off 2 = 0) {So : Finset S128x2x100.Idx} (hSo : (lst off inb).view.set ⊆ So)
    (qT qX : PosShare TreeShare) (Tb : Buf (Elt F) (tLoc d)) (I : Buf (Elt F) (iLoc d)) (hI : ∀ j, (I j).toNat < 100000)
    (fd : Buf (Elt F) ((b3V).view.loc (thr d L)))
    {hn : S100.numel = S100x128.size gathers_S100000x128_S100x128.axis'} {hp : (thr d L).2.kind = .scVector} {hsrc : (tAll).view.WordExact}
    {he : EltTy.f32.bits = 32} {hsp : Space.hbm = .hbm ∨ Space.hbm = .shared} {hr : S100000x128.StreamRows 0}
    {k : PUnit → Prog (TpuEff nD τ sig (Elt F) Λ₀ (thr d L).2) α} {Q : α → sProp 𝕄} :
    (iprop(((tV).view.loc (thr d L) ↦{qT} Tb) ∗ ((b3V).view.loc (thr d L) ↦{fullShare} fd) ∗ ((xV).view.loc (thr d L) ↦[So]{qX} Xc d L I)
        ∗ semVal (thr d L, SemLoc.dma cc0_scratch11.sem) 0) : sProp 𝕄)
      ⊢ iprop((Pend d L (b3V) cc0_scratch11.sem qT qX Tb (Xc d L I) (Gc d L Tb (Xc d L I) r h) r h
            ∗ ((xV).view.loc (thr d L) ↦[So \ lstSet r h]{qX} Xc d L I)
          -∗ wp frame (wpE (defs₀ (F := F)) 𝒱₀ (thr d L) none) Set.univ (k ⟨⟩) Q)
        -∗ wp frame (wpE (defs₀ (F := F)) 𝒱₀ (thr d L) none) Set.univ
            (SparseCore.enqueueIndirectGather hp (tAll) (b3V) gathers_S100000x128_S100x128 (lst off inb) hn cc0_scratch11.sem hsrc he hsp hr >>= k) Q) := by
  have hN : ∀ hh : S100000x128.Gathers 0 S100x128, ∑ j, ((b3V).slice (S100x128.rowRect hh.axis' j) (S100x128.stride_rowRect hh.axis' j)).view.dmaCredit
      = (b3V).view.dmaCredit := by decide
  iintro ⟨Ht, Hb, Hx, Hs⟩ Hk
  ihave Hx' := (pointsTo_split_subset (q := qX) (f := Xc d L I) (S := So) hSo).1 $$ Hx
  icases Hx' with ⟨Hl, Hx⟩
  ihave Hts := (Entails.of_eq (show ((tV).view.loc (thr d L) ↦{qT} Tb : sProp 𝕄)
      = ((tAll).view.loc (thr d L) ↦[(tAll).view.set]{qT} Tb) by rw [set_tAll])) $$ Ht
  ihave Hb' := (Entails.of_eq (show ((b3V).view.loc (thr d L) ↦{fullShare} fd : sProp 𝕄)
      = (b3V).view.loc (thr d L) ↦[(b3V).view.set]{fullShare} fd by rw [View.set_whole])) $$ Hb
  have R := SparseCore.wp_indirectGatherLocal (F := F) (defs := defs₀ (F := F)) countersEmb 𝒱₀ (thr d L) none
      (src := tAll) (dst := b3V) (hg := gathers_S100000x128_S100x128) (offs := lst off inb) (hn := hn) (sem := cc0_scratch11.sem)
      (hp := hp) (hsrc := hsrc) (he := he) (hsp := hsp) (hr := hr) (k := k) (Q := Q) (q := qT) (qo := qX) (fs := Tb) (fd := fd) (fo := Xc d L I)
      (default : HIx 1) (b3V).view.dmaCredit (hN _) (by decide) (lst_inb d L r h h0 h1 h2 I hI)
  iapply R $$ [Hts Hb' Hl Hs]
  · isplitl [Hts]; · iexact Hts
    isplitl [Hb']; · iexact Hb'
    isplitl [Hl]; · iexact Hl
    iexact Hs
  iintro Hfl
  iapply Hk
  isplitl [Hfl]
  · iapply (pend_intro_b3 d L r h h0 h1 h2 qT qX Tb (Xc d L I) fd hn (lst_inb d L r h h0 h1 h2 I hI)); iexact Hfl
  · rw [← set_lst_eq (off := off) (inb := inb) r h h0 h1 h2]; iexact Hx

/-- Wait for the gather pending on buffer 3: the buffer comes back holding the gathered rows, with the table's token and the list's
    words, which rejoin the rest of that share of the index scratch. -/
theorem wait_b3 {α : Type} (r : Fin 128) (h : Fin 2) {So : Finset S128x2x100.Idx} (hSo : lstSet r h ⊆ So)
    (qT qX : PosShare TreeShare) (Tb : Buf (Elt F) (tLoc d)) (X : Buf (Elt F) ((thr d L).loc cc0_scratch0)) (g : Buf (Elt F) ((b3V).view.loc (thr d L)))
    (O : CellTallies nD τ sig (HIx 1)) (W : Waits sig (HIx 1))
    {src : Memref sig (thr d L).2.kind .hbm S100000x128 .f32} {hsrc : src.view.WordExact} {hdst : (b3V).view.WordExact}
    {k : PUnit → Prog (TpuEff nD τ sig (Elt F) Λ₀ (thr d L).2) α} {Q : α → sProp 𝕄} :
    (iprop(Pend d L (b3V) cc0_scratch11.sem qT qX Tb X g r h ∗ ((xV).view.loc (thr d L) ↦[So \ lstSet r h]{qX} X)
        ∗ owes (thr d L) O W ∗ Transfers.MayWaits (thr d L) (default : HIx 1) O) : sProp 𝕄)
      ⊢ iprop((((tV).view.loc (thr d L) ↦{qT} Tb) ∗ ((b3V).view.loc (thr d L) ↦{fullShare} g) ∗ ((xV).view.loc (thr d L) ↦[So]{qX} X)
            ∗ semVal (thr d L, SemLoc.dma cc0_scratch11.sem) 0 ∗ owes (thr d L) O (insert (SemLoc.dma cc0_scratch11.sem, (default : HIx 1)) W)
          -∗ wp frame (wpE (defs₀ (F := F)) 𝒱₀ (thr d L) none) Set.univ (k ⟨⟩) Q)
        -∗ wp frame (wpE (defs₀ (F := F)) 𝒱₀ (thr d L) none) Set.univ
            (SparseCore.waitIndirectGather cc0_scratch11.sem src (b3V) hsrc hdst >>= k) Q) := by
  unfold Pend
  rw [SparseCore.waitIndirectGather_bind]
  iintro ⟨Hfl, Hrest, HO, Hmw⟩ Hk
  iapply (Transfers.wp_waitLocalO countersEmb 𝒱₀ (thr d L) none (default : HIx 1) (rfl : (b3V).view.dmaCredit = _)) $$ [Hfl HO Hmw]
  · isplitl [Hfl]; · iexact Hfl
    isplitl [HO]; · iexact HO
    iapply (Transfers.MayWaits.elim (SemLoc.dma cc0_scratch11.sem)) $$ Hmw
  iintro ⟨⟨Hb, Ht, Hl⟩, Hs, HO⟩
  iapply Hk
  isplitl [Ht]; · iexact Ht
  isplitl [Hb]; · iexact Hb
  isplitl [Hl Hrest]
  · iapply (pointsTo_split_subset (q := qX) (f := X) (S := So) hSo).2
    isplitl [Hl] <;> iassumption
  isplitl [Hs]; · iexact Hs
  iexact HO

set_option maxHeartbeats 4000000 in
/-- Issue a gather into buffer 4 from the list at (r, h): it takes the table's read token, the buffer and the list's words out of a
    held share of the index scratch; the pending gather and the rest of that share remain. -/
theorem issue_b4 {α : Type} {off : Fin 3 → Nat} {inb : ∀ a, off a + S1x1x100.size a ≤ S128x2x100.size a} (r : Fin 128) (h : Fin 2)
    (h0 : off 0 = r.val) (h1 : off 1 = h.val) (h2 : off 2 = 0) {So : Finset S128x2x100.Idx} (hSo : (lst off inb).view.set ⊆ So)
    (qT qX : PosShare TreeShare) (Tb : Buf (Elt F) (tLoc d)) (I : Buf (Elt F) (iLoc d)) (hI : ∀ j, (I j).toNat < 100000)
    (fd : Buf (Elt F) ((b4V).view.loc (thr d L)))
    {hn : S100.numel = S100x128.size gathers_S100000x128_S100x128.axis'} {hp : (thr d L).2.kind = .scVector} {hsrc : (tAll).view.WordExact}
    {he : EltTy.f32.bits = 32} {hsp : Space.hbm = .hbm ∨ Space.hbm = .shared} {hr : S100000x128.StreamRows 0}
    {k : PUnit → Prog (TpuEff nD τ sig (Elt F) Λ₀ (thr d L).2) α} {Q : α → sProp 𝕄} :
    (iprop(((tV).view.loc (thr d L) ↦{qT} Tb) ∗ ((b4V).view.loc (thr d L) ↦{fullShare} fd) ∗ ((xV).view.loc (thr d L) ↦[So]{qX} Xc d L I)
        ∗ semVal (thr d L, SemLoc.dma cc0_scratch12.sem) 0) : sProp 𝕄)
      ⊢ iprop((Pend d L (b4V) cc0_scratch12.sem qT qX Tb (Xc d L I) (Gc d L Tb (Xc d L I) r h) r h
            ∗ ((xV).view.loc (thr d L) ↦[So \ lstSet r h]{qX} Xc d L I)
          -∗ wp frame (wpE (defs₀ (F := F)) 𝒱₀ (thr d L) none) Set.univ (k ⟨⟩) Q)
        -∗ wp frame (wpE (defs₀ (F := F)) 𝒱₀ (thr d L) none) Set.univ
            (SparseCore.enqueueIndirectGather hp (tAll) (b4V) gathers_S100000x128_S100x128 (lst off inb) hn cc0_scratch12.sem hsrc he hsp hr >>= k) Q) := by
  have hN : ∀ hh : S100000x128.Gathers 0 S100x128, ∑ j, ((b4V).slice (S100x128.rowRect hh.axis' j) (S100x128.stride_rowRect hh.axis' j)).view.dmaCredit
      = (b4V).view.dmaCredit := by decide
  iintro ⟨Ht, Hb, Hx, Hs⟩ Hk
  ihave Hx' := (pointsTo_split_subset (q := qX) (f := Xc d L I) (S := So) hSo).1 $$ Hx
  icases Hx' with ⟨Hl, Hx⟩
  ihave Hts := (Entails.of_eq (show ((tV).view.loc (thr d L) ↦{qT} Tb : sProp 𝕄)
      = ((tAll).view.loc (thr d L) ↦[(tAll).view.set]{qT} Tb) by rw [set_tAll])) $$ Ht
  ihave Hb' := (Entails.of_eq (show ((b4V).view.loc (thr d L) ↦{fullShare} fd : sProp 𝕄)
      = (b4V).view.loc (thr d L) ↦[(b4V).view.set]{fullShare} fd by rw [View.set_whole])) $$ Hb
  have R := SparseCore.wp_indirectGatherLocal (F := F) (defs := defs₀ (F := F)) countersEmb 𝒱₀ (thr d L) none
      (src := tAll) (dst := b4V) (hg := gathers_S100000x128_S100x128) (offs := lst off inb) (hn := hn) (sem := cc0_scratch12.sem)
      (hp := hp) (hsrc := hsrc) (he := he) (hsp := hsp) (hr := hr) (k := k) (Q := Q) (q := qT) (qo := qX) (fs := Tb) (fd := fd) (fo := Xc d L I)
      (default : HIx 1) (b4V).view.dmaCredit (hN _) (by decide) (lst_inb d L r h h0 h1 h2 I hI)
  iapply R $$ [Hts Hb' Hl Hs]
  · isplitl [Hts]; · iexact Hts
    isplitl [Hb']; · iexact Hb'
    isplitl [Hl]; · iexact Hl
    iexact Hs
  iintro Hfl
  iapply Hk
  isplitl [Hfl]
  · iapply (pend_intro_b4 d L r h h0 h1 h2 qT qX Tb (Xc d L I) fd hn (lst_inb d L r h h0 h1 h2 I hI)); iexact Hfl
  · rw [← set_lst_eq (off := off) (inb := inb) r h h0 h1 h2]; iexact Hx

/-- Wait for the gather pending on buffer 4: the buffer comes back holding the gathered rows, with the table's token and the list's
    words, which rejoin the rest of that share of the index scratch. -/
theorem wait_b4 {α : Type} (r : Fin 128) (h : Fin 2) {So : Finset S128x2x100.Idx} (hSo : lstSet r h ⊆ So)
    (qT qX : PosShare TreeShare) (Tb : Buf (Elt F) (tLoc d)) (X : Buf (Elt F) ((thr d L).loc cc0_scratch0)) (g : Buf (Elt F) ((b4V).view.loc (thr d L)))
    (O : CellTallies nD τ sig (HIx 1)) (W : Waits sig (HIx 1))
    {src : Memref sig (thr d L).2.kind .hbm S100000x128 .f32} {hsrc : src.view.WordExact} {hdst : (b4V).view.WordExact}
    {k : PUnit → Prog (TpuEff nD τ sig (Elt F) Λ₀ (thr d L).2) α} {Q : α → sProp 𝕄} :
    (iprop(Pend d L (b4V) cc0_scratch12.sem qT qX Tb X g r h ∗ ((xV).view.loc (thr d L) ↦[So \ lstSet r h]{qX} X)
        ∗ owes (thr d L) O W ∗ Transfers.MayWaits (thr d L) (default : HIx 1) O) : sProp 𝕄)
      ⊢ iprop((((tV).view.loc (thr d L) ↦{qT} Tb) ∗ ((b4V).view.loc (thr d L) ↦{fullShare} g) ∗ ((xV).view.loc (thr d L) ↦[So]{qX} X)
            ∗ semVal (thr d L, SemLoc.dma cc0_scratch12.sem) 0 ∗ owes (thr d L) O (insert (SemLoc.dma cc0_scratch12.sem, (default : HIx 1)) W)
          -∗ wp frame (wpE (defs₀ (F := F)) 𝒱₀ (thr d L) none) Set.univ (k ⟨⟩) Q)
        -∗ wp frame (wpE (defs₀ (F := F)) 𝒱₀ (thr d L) none) Set.univ
            (SparseCore.waitIndirectGather cc0_scratch12.sem src (b4V) hsrc hdst >>= k) Q) := by
  unfold Pend
  rw [SparseCore.waitIndirectGather_bind]
  iintro ⟨Hfl, Hrest, HO, Hmw⟩ Hk
  iapply (Transfers.wp_waitLocalO countersEmb 𝒱₀ (thr d L) none (default : HIx 1) (rfl : (b4V).view.dmaCredit = _)) $$ [Hfl HO Hmw]
  · isplitl [Hfl]; · iexact Hfl
    isplitl [HO]; · iexact HO
    iapply (Transfers.MayWaits.elim (SemLoc.dma cc0_scratch12.sem)) $$ Hmw
  iintro ⟨⟨Hb, Ht, Hl⟩, Hs, HO⟩
  iapply Hk
  isplitl [Ht]; · iexact Ht
  isplitl [Hb]; · iexact Hb
  isplitl [Hl Hrest]
  · iapply (pointsTo_split_subset (q := qX) (f := X) (S := So) hSo).2
    isplitl [Hl] <;> iassumption
  isplitl [Hs]; · iexact Hs
  iexact HO

set_option maxHeartbeats 4000000 in
/-- Issue a gather into buffer 5 from the list at (r, h): it takes the table's read token, the buffer and the list's words out of a
    held share of the index scratch; the pending gather and the rest of that share remain. -/
theorem issue_b5 {α : Type} {off : Fin 3 → Nat} {inb : ∀ a, off a + S1x1x100.size a ≤ S128x2x100.size a} (r : Fin 128) (h : Fin 2)
    (h0 : off 0 = r.val) (h1 : off 1 = h.val) (h2 : off 2 = 0) {So : Finset S128x2x100.Idx} (hSo : (lst off inb).view.set ⊆ So)
    (qT qX : PosShare TreeShare) (Tb : Buf (Elt F) (tLoc d)) (I : Buf (Elt F) (iLoc d)) (hI : ∀ j, (I j).toNat < 100000)
    (fd : Buf (Elt F) ((b5V).view.loc (thr d L)))
    {hn : S100.numel = S100x128.size gathers_S100000x128_S100x128.axis'} {hp : (thr d L).2.kind = .scVector} {hsrc : (tAll).view.WordExact}
    {he : EltTy.f32.bits = 32} {hsp : Space.hbm = .hbm ∨ Space.hbm = .shared} {hr : S100000x128.StreamRows 0}
    {k : PUnit → Prog (TpuEff nD τ sig (Elt F) Λ₀ (thr d L).2) α} {Q : α → sProp 𝕄} :
    (iprop(((tV).view.loc (thr d L) ↦{qT} Tb) ∗ ((b5V).view.loc (thr d L) ↦{fullShare} fd) ∗ ((xV).view.loc (thr d L) ↦[So]{qX} Xc d L I)
        ∗ semVal (thr d L, SemLoc.dma cc0_scratch13.sem) 0) : sProp 𝕄)
      ⊢ iprop((Pend d L (b5V) cc0_scratch13.sem qT qX Tb (Xc d L I) (Gc d L Tb (Xc d L I) r h) r h
            ∗ ((xV).view.loc (thr d L) ↦[So \ lstSet r h]{qX} Xc d L I)
          -∗ wp frame (wpE (defs₀ (F := F)) 𝒱₀ (thr d L) none) Set.univ (k ⟨⟩) Q)
        -∗ wp frame (wpE (defs₀ (F := F)) 𝒱₀ (thr d L) none) Set.univ
            (SparseCore.enqueueIndirectGather hp (tAll) (b5V) gathers_S100000x128_S100x128 (lst off inb) hn cc0_scratch13.sem hsrc he hsp hr >>= k) Q) := by
  have hN : ∀ hh : S100000x128.Gathers 0 S100x128, ∑ j, ((b5V).slice (S100x128.rowRect hh.axis' j) (S100x128.stride_rowRect hh.axis' j)).view.dmaCredit
      = (b5V).view.dmaCredit := by decide
  iintro ⟨Ht, Hb, Hx, Hs⟩ Hk
  ihave Hx' := (pointsTo_split_subset (q := qX) (f := Xc d L I) (S := So) hSo).1 $$ Hx
  icases Hx' with ⟨Hl, Hx⟩
  ihave Hts := (Entails.of_eq (show ((tV).view.loc (thr d L) ↦{qT} Tb : sProp 𝕄)
      = ((tAll).view.loc (thr d L) ↦[(tAll).view.set]{qT} Tb) by rw [set_tAll])) $$ Ht
  ihave Hb' := (Entails.of_eq (show ((b5V).view.loc (thr d L) ↦{fullShare} fd : sProp 𝕄)
      = (b5V).view.loc (thr d L) ↦[(b5V).view.set]{fullShare} fd by rw [View.set_whole])) $$ Hb
  have R := SparseCore.wp_indirectGatherLocal (F := F) (defs := defs₀ (F := F)) countersEmb 𝒱₀ (thr d L) none
      (src := tAll) (dst := b5V) (hg := gathers_S100000x128_S100x128) (offs := lst off inb) (hn := hn) (sem := cc0_scratch13.sem)
      (hp := hp) (hsrc := hsrc) (he := he) (hsp := hsp) (hr := hr) (k := k) (Q := Q) (q := qT) (qo := qX) (fs := Tb) (fd := fd) (fo := Xc d L I)
      (default : HIx 1) (b5V).view.dmaCredit (hN _) (by decide) (lst_inb d L r h h0 h1 h2 I hI)
  iapply R $$ [Hts Hb' Hl Hs]
  · isplitl [Hts]; · iexact Hts
    isplitl [Hb']; · iexact Hb'
    isplitl [Hl]; · iexact Hl
    iexact Hs
  iintro Hfl
  iapply Hk
  isplitl [Hfl]
  · iapply (pend_intro_b5 d L r h h0 h1 h2 qT qX Tb (Xc d L I) fd hn (lst_inb d L r h h0 h1 h2 I hI)); iexact Hfl
  · rw [← set_lst_eq (off := off) (inb := inb) r h h0 h1 h2]; iexact Hx

/-- Wait for the gather pending on buffer 5: the buffer comes back holding the gathered rows, with the table's token and the list's
    words, which rejoin the rest of that share of the index scratch. -/
theorem wait_b5 {α : Type} (r : Fin 128) (h : Fin 2) {So : Finset S128x2x100.Idx} (hSo : lstSet r h ⊆ So)
    (qT qX : PosShare TreeShare) (Tb : Buf (Elt F) (tLoc d)) (X : Buf (Elt F) ((thr d L).loc cc0_scratch0)) (g : Buf (Elt F) ((b5V).view.loc (thr d L)))
    (O : CellTallies nD τ sig (HIx 1)) (W : Waits sig (HIx 1))
    {src : Memref sig (thr d L).2.kind .hbm S100000x128 .f32} {hsrc : src.view.WordExact} {hdst : (b5V).view.WordExact}
    {k : PUnit → Prog (TpuEff nD τ sig (Elt F) Λ₀ (thr d L).2) α} {Q : α → sProp 𝕄} :
    (iprop(Pend d L (b5V) cc0_scratch13.sem qT qX Tb X g r h ∗ ((xV).view.loc (thr d L) ↦[So \ lstSet r h]{qX} X)
        ∗ owes (thr d L) O W ∗ Transfers.MayWaits (thr d L) (default : HIx 1) O) : sProp 𝕄)
      ⊢ iprop((((tV).view.loc (thr d L) ↦{qT} Tb) ∗ ((b5V).view.loc (thr d L) ↦{fullShare} g) ∗ ((xV).view.loc (thr d L) ↦[So]{qX} X)
            ∗ semVal (thr d L, SemLoc.dma cc0_scratch13.sem) 0 ∗ owes (thr d L) O (insert (SemLoc.dma cc0_scratch13.sem, (default : HIx 1)) W)
          -∗ wp frame (wpE (defs₀ (F := F)) 𝒱₀ (thr d L) none) Set.univ (k ⟨⟩) Q)
        -∗ wp frame (wpE (defs₀ (F := F)) 𝒱₀ (thr d L) none) Set.univ
            (SparseCore.waitIndirectGather cc0_scratch13.sem src (b5V) hsrc hdst >>= k) Q) := by
  unfold Pend
  rw [SparseCore.waitIndirectGather_bind]
  iintro ⟨Hfl, Hrest, HO, Hmw⟩ Hk
  iapply (Transfers.wp_waitLocalO countersEmb 𝒱₀ (thr d L) none (default : HIx 1) (rfl : (b5V).view.dmaCredit = _)) $$ [Hfl HO Hmw]
  · isplitl [Hfl]; · iexact Hfl
    isplitl [HO]; · iexact HO
    iapply (Transfers.MayWaits.elim (SemLoc.dma cc0_scratch13.sem)) $$ Hmw
  iintro ⟨⟨Hb, Ht, Hl⟩, Hs, HO⟩
  iapply Hk
  isplitl [Ht]; · iexact Ht
  isplitl [Hb]; · iexact Hb
  isplitl [Hl Hrest]
  · iapply (pointsTo_split_subset (q := qX) (f := X) (S := So) hSo).2
    isplitl [Hl] <;> iassumption
  isplitl [Hs]; · iexact Hs
  iexact HO

end Gathers

end Cert.Proof.KB

end
-- ==== Proof.KBRegion.lean ====
/-
  One trip of a tile's main loop. Trip k handles the tile's local rows 3k, 3k+1, 3k+2. For buffer b = 0 … 5 (row 3k + b/2,
  half b mod 2) it waits for the buffer's pending gather, which delivers the gathered rows for that row and half, and
  folds the buffer into the running maxima: half 0 from the initial accumulators (every lane −∞), half 1 from half 0's
  result, so that after half 1 the eight accumulators are the row's result (the fold of the row's 200 table entries per
  column); these are stored as the eight 16-lane chunks of row 3k + b/2 of the result scratch. After a buffer is pooled
  its gather for the row three further on (3(k+1) + b/2, same half) is issued when that row exists: always for
  buffers 0 … 3, and for buffers 4, 5 exactly when k < 41 (row 3k + 5 < 128). So the invariant at k + 1 holds again:
  every buffer's gather for its row of trip k + 1 is pending — or, for buffers 4 and 5 after the last trip (k = 41, row
  128 does not exist), the buffer, its two read tokens and its semaphore at rest are held —, the result scratch agrees
  with the tile's result on all rows below 3(k+1) (the 24 stores write rows 3k … 3k+2 and nothing else), and the
  recorded waits are the earlier ones and six of this trip, none on a named handshake.
-/
import proofs.«206947_g65644280152286_cont_9to1_m_226_28_alg».proof.Proof.KBInv
import proofs.«206947_g65644280152286_cont_9to1_m_226_28_alg».proof.Proof.KBInner
import proofs.«206947_g65644280152286_cont_9to1_m_226_28_alg».proof.Proof.KBRes
import proofs.«206947_g65644280152286_cont_9to1_m_226_28_alg».proof.Proof.KBOut
import proofs.«206947_g65644280152286_cont_9to1_m_226_28_alg».proof.Proof.KBYStep
import proofs.«206947_g65644280152286_cont_9to1_m_226_28_alg».proof.Proof.KBGather

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S4096x2x100 EltTy.i32)
local notation "oV" => (Memref.whole Cert.Kernel.main_v1_scv : Memref Cert.Kernel.sig Kind.scVector Space.hbm Cert.Kernel.S4096x128 EltTy.f32)
local notation "xV" => (Memref.whole Cert.Kernel.cc0_scratch0 : Memref Cert.Kernel.sig Kind.scVector Space.vmem Cert.Kernel.S128x2x100 EltTy.i32)
local notation "b0V" => (Memref.whole Cert.Kernel.cc0_scratch1 : Memref Cert.Kernel.sig Kind.scVector Space.vmem Cert.Kernel.S100x128 EltTy.f32)
local notation "b1V" => (Memref.whole Cert.Kernel.cc0_scratch2 : Memref Cert.Kernel.sig Kind.scVector Space.vmem Cert.Kernel.S100x128 EltTy.f32)
local notation "b2V" => (Memref.whole Cert.Kernel.cc0_scratch3 : Memref Cert.Kernel.sig Kind.scVector Space.vmem Cert.Kernel.S100x128 EltTy.f32)
local notation "b3V" => (Memref.whole Cert.Kernel.cc0_scratch4 : Memref Cert.Kernel.sig Kind.scVector Space.vmem Cert.Kernel.S100x128 EltTy.f32)
local notation "b4V" => (Memref.whole Cert.Kernel.cc0_scratch5 : Memref Cert.Kernel.sig Kind.scVector Space.vmem Cert.Kernel.S100x128 EltTy.f32)
local notation "b5V" => (Memref.whole Cert.Kernel.cc0_scratch6 : Memref Cert.Kernel.sig Kind.scVector Space.vmem Cert.Kernel.S100x128 EltTy.f32)
local notation "yV" => (Memref.whole Cert.Kernel.cc0_scratch7 : Memref Cert.Kernel.sig Kind.scVector Space.vmem Cert.Kernel.S128x128 EltTy.f32)

variable [FloatOps F]

section Region
variable (d : Dev nD) (L : grid0.Coords)

omit [FloatOps F] in
/-- A 16-lane chunk at (R, 16·c) lies inside the [128, 128] result scratch. -/
theorem inb_of (o : Fin 8 → Fin 2 → ℕ) (R : ℕ) (hR : R < 128) (ho : ∀ c, o c = ![R, 16 * c.val]) :
    ∀ (c : Fin 8) (a : Fin 2), o c a + S1x16.size a ≤ S128x128.size a := by
  intro c a; rw [ho c]; have := c.isLt
  match a with
  | ⟨0, _⟩ => show R + 1 ≤ 128; omega
  | ⟨1, _⟩ => show 16 * c.val + 16 ≤ 128; omega

set_option maxHeartbeats 4000000 in
/-- The trip when rows 3k + 5 still exist (k < 41): all six buffers are re-issued. -/
theorem region_step_lt (q : PosShare TreeShare) (I : Buf (Elt F) (iLoc d)) (Tb : Buf (Elt F) (tLoc d)) (hI : ∀ j, (I j).toNat < 100000) (O : CellTallies nD τ sig (HIx 1)) (W : Waits sig (HIx 1))
    (k : Fin k0_t1_loop.trips) (hk : k.val < 41) :
    invMain d L q I Tb O W k.val ⟨⟩ ⊢ wp frame (wpE (defs₀ (F := F)) 𝒱₀ (thr d L) none) Set.univ
      (k0_t1_body L tV (Memref.isWhole_whole _) iV (Memref.isWhole_whole _) oV (Memref.isWhole_whole _) xV (Memref.isWhole_whole _) b0V (Memref.isWhole_whole _) b1V (Memref.isWhole_whole _) b2V (Memref.isWhole_whole _) b3V (Memref.isWhole_whole _) b4V (Memref.isWhole_whole _) b5V (Memref.isWhole_whole _) yV (Memref.isWhole_whole _)
        cc0_scratch8 cc0_scratch9 cc0_scratch10 cc0_scratch11 cc0_scratch12 cc0_scratch13 cc0_scratch14 cc0_scoped0 cc0_scoped1
        k0_pay103 k0_pay104 k0_pay105 k0_pay106 k0_pay107 k0_pay108 k0_pay109 k0_pay110 k ⟨⟩)
      (fun x => invMain d L q I Tb O W (k.val + 1) x) := by
  have hk42 : k.val < 42 := lt_of_lt_of_le k.isLt (le_of_eq trips_main)
  unfold invMain
  rw [CellSt_pos d L (show 3 * k.val < 128 by omega), CellSt_pos d L (show 3 * k.val < 128 by omega),
    CellSt_pos d L (show 3 * k.val + 1 < 128 by omega), CellSt_pos d L (show 3 * k.val + 1 < 128 by omega),
    CellSt_pos d L (show 3 * k.val + 2 < 128 by omega), CellSt_pos d L (show 3 * k.val + 2 < 128 by omega)]
  iintro ⟨#Hmw, ⟨Hp0, Hr0⟩, ⟨Hp1, Hr1⟩, ⟨Hp2, Hr2⟩, ⟨Hp3, Hr3⟩, ⟨Hp4, Hr4⟩, ⟨Hp5, Hr5⟩, ⟨%Y, HY, %hY⟩, ⟨%W0, %hW0, HO⟩⟩
  have k0_h1 := (cond14 k).1
  have k0_h2 := (cond14 k).2.1
  have k0_h3 := (cond14 k).2.2.1
  have k0_h4 := (cond14 k).2.2.2
  have k0_h5 : k0_cond5 k = 1#1 := (cond56 k).1.2 hk
  have k0_h6 : k0_cond6 k = 1#1 := (cond56 k).2.2 hk
  sl_exec
  -- wait for buffer 0
  rw [← wp_bind]
  iapply (wait_b0 d L ⟨3 * k.val, by omega⟩ 0 (So := Finset.univ) (Finset.subset_univ _) (tokT q 0) (tokX 0) Tb (Xc d L I) (GG d L Tb I ⟨3 * k.val, by omega⟩ 0) O _) $$ [Hp0 Hr0 HO Hmw]
  · isplitl [Hp0]; · iexact Hp0
    isplitl [Hr0]; · iexact Hr0
    isplitl [HO]; · iexact HO
    iexact Hmw
  iintro ⟨Ht0, Hb0, Hx0, Hs0, HO⟩
  sl_exec
  -- pool buffer 0
  rw [wp_bind]
  iapply (inner_t2 d L (GG d L Tb I ⟨3 * k.val, by omega⟩ 0) (k0_pay103, k0_pay104, k0_pay105, k0_pay106, k0_pay107, k0_pay108, k0_pay109, k0_pay110) _ _ _ _ _ _ _ _ _ _ _ _) $$ [Hb0]
  · iexact Hb0
  iintro Hb0
  sl_exec
  -- re-issue buffer 0
  iapply (issue_b0 d L (off := k0_off12 k) (inb := k0_off12_inb k k0_h1) ⟨3 * (k.val + 1), by omega⟩ 0
    (by rw [k0_off12_eq]; show 3 * k.val + 3 = 3 * (k.val + 1); omega) (by rw [k0_off12_eq]; rfl) (by rw [k0_off12_eq]; rfl)
    (So := Finset.univ) (Finset.subset_univ _) (tokT q 0) (tokX 0) Tb I hI _) $$ [Ht0 Hb0 Hx0 Hs0]
  · isplitl [Ht0]; · iexact Ht0
    isplitl [Hb0]; · iexact Hb0
    isplitl [Hx0]; · iexact Hx0
    iexact Hs0
  iintro ⟨Hp0, Hr0⟩
  sl_exec
  -- wait for buffer 1
  iapply (wait_b1 d L ⟨3 * k.val, by omega⟩ 1 (So := Finset.univ) (Finset.subset_univ _) (tokT q 1) (tokX 1) Tb (Xc d L I) (GG d L Tb I ⟨3 * k.val, by omega⟩ 1) O _) $$ [Hp1 Hr1 HO Hmw]
  · isplitl [Hp1]; · iexact Hp1
    isplitl [Hr1]; · iexact Hr1
    isplitl [HO]; · iexact HO
    iexact Hmw
  iintro ⟨Ht1, Hb1, Hx1, Hs1, HO⟩
  sl_exec
  -- pool buffer 1
  rw [wp_bind]
  iapply (inner_t3 d L (GG d L Tb I ⟨3 * k.val, by omega⟩ 1) (accsOut (GG d L Tb I ⟨3 * k.val, by omega⟩ 0) (k0_pay103, k0_pay104, k0_pay105, k0_pay106, k0_pay107, k0_pay108, k0_pay109, k0_pay110)) _ _ _ _ _ _ _ _ _ _ _ _) $$ [Hb1]
  · iexact Hb1
  iintro Hb1
  rw [rowRes_eq d L I Tb ⟨3 * k.val, by omega⟩]
  sl_exec
  -- re-issue buffer 1
  iapply (issue_b1 d L (off := k0_off30 k) (inb := k0_off30_inb k k0_h2) ⟨3 * (k.val + 1), by omega⟩ 1
    (by rw [k0_off30_eq]; show 3 * k.val + 3 = 3 * (k.val + 1); omega) (by rw [k0_off30_eq]; rfl) (by rw [k0_off30_eq]; rfl)
    (So := Finset.univ) (Finset.subset_univ _) (tokT q 1) (tokX 1) Tb I hI _) $$ [Ht1 Hb1 Hx1 Hs1]
  · isplitl [Ht1]; · iexact Ht1
    isplitl [Hb1]; · iexact Hb1
    isplitl [Hx1]; · iexact Hx1
    iexact Hs1
  iintro ⟨Hp1, Hr1⟩
  sl_exec
  -- wait for buffer 2
  iapply (wait_b2 d L ⟨3 * k.val + 1, by omega⟩ 0 (So := Finset.univ) (Finset.subset_univ _) (tokT q 2) (tokX 2) Tb (Xc d L I) (GG d L Tb I ⟨3 * k.val + 1, by omega⟩ 0) O _) $$ [Hp2 Hr2 HO Hmw]
  · isplitl [Hp2]; · iexact Hp2
    isplitl [Hr2]; · iexact Hr2
    isplitl [HO]; · iexact HO
    iexact Hmw
  iintro ⟨Ht2, Hb2, Hx2, Hs2, HO⟩
  sl_exec
  -- pool buffer 2
  rw [wp_bind]
  iapply (inner_t4 d L (GG d L Tb I ⟨3 * k.val + 1, by omega⟩ 0) (k0_pay103, k0_pay104, k0_pay105, k0_pay106, k0_pay107, k0_pay108, k0_pay109, k0_pay110) _ _ _ _ _ _ _ _ _ _ _ _ _ _ _ _ _ _) $$ [Hb2]
  · iexact Hb2
  iintro Hb2
  sl_exec
  -- re-issue buffer 2
  iapply (issue_b2 d L (off := k0_off39 k) (inb := k0_off39_inb k k0_h3) ⟨3 * (k.val + 1) + 1, by omega⟩ 0
    (by rw [k0_off39_eq]; show 3 * k.val + 4 = 3 * (k.val + 1) + 1; omega) (by rw [k0_off39_eq]; rfl) (by rw [k0_off39_eq]; rfl)
    (So := Finset.univ) (Finset.subset_univ _) (tokT q 2) (tokX 2) Tb I hI _) $$ [Ht2 Hb2 Hx2 Hs2]
  · isplitl [Ht2]; · iexact Ht2
    isplitl [Hb2]; · iexact Hb2
    isplitl [Hx2]; · iexact Hx2
    iexact Hs2
  iintro ⟨Hp2, Hr2⟩
  sl_exec
  -- wait for buffer 3
  iapply (wait_b3 d L ⟨3 * k.val + 1, by omega⟩ 1 (So := Finset.univ) (Finset.subset_univ _) (tokT q 3) (tokX 3) Tb (Xc d L I) (GG d L Tb I ⟨3 * k.val + 1, by omega⟩ 1) O _) $$ [Hp3 Hr3 HO Hmw]
  · isplitl [Hp3]; · iexact Hp3
    isplitl [Hr3]; · iexact Hr3
    isplitl [HO]; · iexact HO
    iexact Hmw
  iintro ⟨Ht3, Hb3, Hx3, Hs3, HO⟩
  sl_exec
  -- pool buffer 3
  rw [wp_bind]
  iapply (inner_t5 d L (GG d L Tb I ⟨3 * k.val + 1, by omega⟩ 1) (accsOut (GG d L Tb I ⟨3 * k.val + 1, by omega⟩ 0) (k0_pay103, k0_pay104, k0_pay105, k0_pay106, k0_pay107, k0_pay108, k0_pay109, k0_pay110)) _ _ _ _ _ _ _ _ _ _ _ _ _) $$ [Hb3]
  · iexact Hb3
  iintro Hb3
  rw [rowRes_eq d L I Tb ⟨3 * k.val + 1, by omega⟩]
  sl_exec
  -- re-issue buffer 3
  iapply (issue_b3 d L (off := k0_off48 k) (inb := k0_off48_inb k k0_h4) ⟨3 * (k.val + 1) + 1, by omega⟩ 1
    (by rw [k0_off48_eq]; show 3 * k.val + 4 = 3 * (k.val + 1) + 1; omega) (by rw [k0_off48_eq]; rfl) (by rw [k0_off48_eq]; rfl)
    (So := Finset.univ) (Finset.subset_univ _) (tokT q 3) (tokX 3) Tb I hI _) $$ [Ht3 Hb3 Hx3 Hs3]
  · isplitl [Ht3]; · iexact Ht3
    isplitl [Hb3]; · iexact Hb3
    isplitl [Hx3]; · iexact Hx3
    iexact Hs3
  iintro ⟨Hp3, Hr3⟩
  sl_exec
  -- wait for buffer 4
  iapply (wait_b4 d L ⟨3 * k.val + 2, by omega⟩ 0 (So := Finset.univ) (Finset.subset_univ _) (tokT q 4) (tokX 4) Tb (Xc d L I) (GG d L Tb I ⟨3 * k.val + 2, by omega⟩ 0) O _) $$ [Hp4 Hr4 HO Hmw]
  · isplitl [Hp4]; · iexact Hp4
    isplitl [Hr4]; · iexact Hr4
    isplitl [HO]; · iexact HO
    iexact Hmw
  iintro ⟨Ht4, Hb4, Hx4, Hs4, HO⟩
  sl_exec
  -- pool buffer 4
  rw [wp_bind]
  iapply (inner_t6 d L (GG d L Tb I ⟨3 * k.val + 2, by omega⟩ 0) (k0_pay103, k0_pay104, k0_pay105, k0_pay106, k0_pay107, k0_pay108, k0_pay109, k0_pay110) _ _ _ _ _ _ _ _ _ _ _ _ _ _) $$ [Hb4]
  · iexact Hb4
  iintro Hb4
  sl_exec
  -- re-issue buffer 4
  iapply (issue_b4 d L (off := k0_off57 k) (inb := k0_off57_inb k k0_h5) ⟨3 * (k.val + 1) + 2, by omega⟩ 0
    (by rw [k0_off57_eq]; show 3 * k.val + 5 = 3 * (k.val + 1) + 2; omega) (by rw [k0_off57_eq]; rfl) (by rw [k0_off57_eq]; rfl)
    (So := Finset.univ) (Finset.subset_univ _) (tokT q 4) (tokX 4) Tb I hI _) $$ [Ht4 Hb4 Hx4 Hs4]
  · isplitl [Ht4]; · iexact Ht4
    isplitl [Hb4]; · iexact Hb4
    isplitl [Hx4]; · iexact Hx4
    iexact Hs4
  iintro ⟨Hp4, Hr4⟩
  sl_exec
  -- wait for buffer 5
  iapply (wait_b5 d L ⟨3 * k.val + 2, by omega⟩ 1 (So := Finset.univ) (Finset.subset_univ _) (tokT q 5) (tokX 5) Tb (Xc d L I) (GG d L Tb I ⟨3 * k.val + 2, by omega⟩ 1) O _) $$ [Hp5 Hr5 HO Hmw]
  · isplitl [Hp5]; · iexact Hp5
    isplitl [Hr5]; · iexact Hr5
    isplitl [HO]; · iexact HO
    iexact Hmw
  iintro ⟨Ht5, Hb5, Hx5, Hs5, HO⟩
  sl_exec
  -- pool buffer 5
  rw [wp_bind]
  iapply (inner_t7 d L (GG d L Tb I ⟨3 * k.val + 2, by omega⟩ 1) (accsOut (GG d L Tb I ⟨3 * k.val + 2, by omega⟩ 0) (k0_pay103, k0_pay104, k0_pay105, k0_pay106, k0_pay107, k0_pay108, k0_pay109, k0_pay110)) _ _ _ _ _ _ _ _ _ _ _ _ _ _) $$ [Hb5]
  · iexact Hb5
  iintro Hb5
  rw [rowRes_eq d L I Tb ⟨3 * k.val + 2, by omega⟩]
  sl_exec
  -- re-issue buffer 5
  iapply (issue_b5 d L (off := k0_off66 k) (inb := k0_off66_inb k k0_h6) ⟨3 * (k.val + 1) + 2, by omega⟩ 1
    (by rw [k0_off66_eq]; show 3 * k.val + 5 = 3 * (k.val + 1) + 2; omega) (by rw [k0_off66_eq]; rfl) (by rw [k0_off66_eq]; rfl)
    (So := Finset.univ) (Finset.subset_univ _) (tokT q 5) (tokX 5) Tb I hI _) $$ [Ht5 Hb5 Hx5 Hs5]
  · isplitl [Ht5]; · iexact Ht5
    isplitl [Hb5]; · iexact Hb5
    isplitl [Hx5]; · iexact Hx5
    iexact Hs5
  iintro ⟨Hp5, Hr5⟩
  sl_exec
  -- the trip has returned: the invariant at k + 1
  sl_step
  rw [CellSt_pos d L (show 3 * (k.val + 1) < 128 by omega),
    CellSt_pos d L (show 3 * (k.val + 1) < 128 by omega),
    CellSt_pos d L (show 3 * (k.val + 1) + 1 < 128 by omega),
    CellSt_pos d L (show 3 * (k.val + 1) + 1 < 128 by omega),
    CellSt_pos d L (show 3 * (k.val + 1) + 2 < 128 by omega),
    CellSt_pos d L (show 3 * (k.val + 1) + 2 < 128 by omega)]
  isplitr [HY HO Hp0 Hr0 Hp1 Hr1 Hp2 Hr2 Hp3 Hr3 Hp4 Hr4 Hp5 Hr5]
  · iexact Hmw
  isplitl [Hp0 Hr0]
  · isplitl [Hp0]; · iexact Hp0
    iexact Hr0
  isplitl [Hp1 Hr1]
  · isplitl [Hp1]; · iexact Hp1
    iexact Hr1
  isplitl [Hp2 Hr2]
  · isplitl [Hp2]; · iexact Hp2
    iexact Hr2
  isplitl [Hp3 Hr3]
  · isplitl [Hp3]; · iexact Hp3
    iexact Hr3
  isplitl [Hp4 Hr4]
  · isplitl [Hp4]; · iexact Hp4
    iexact Hr4
  isplitl [Hp5 Hr5]
  · isplitl [Hp5]; · iexact Hp5
    iexact Hr5
  isplitl [HY]
  · iexists _
    isplitl [HY]; · iexact HY
    ipureintro
    have hoff0 : ∀ c : Fin 8, (![k0_off22 k 0#32, k0_off23 k 0#32, k0_off24 k 0#32, k0_off25 k 0#32, k0_off26 k 0#32, k0_off27 k 0#32, k0_off28 k 0#32, k0_off29 k 0#32] : Fin 8 → Fin 2 → ℕ) c = ![3 * k.val , 16 * c.val] := by
      intro c
      match c with
      | ⟨0, _⟩ => exact k0_off22_eq k ⟨0, by decide⟩
      | ⟨1, _⟩ => exact k0_off23_eq k ⟨0, by decide⟩
      | ⟨2, _⟩ => exact k0_off24_eq k ⟨0, by decide⟩
      | ⟨3, _⟩ => exact k0_off25_eq k ⟨0, by decide⟩
      | ⟨4, _⟩ => exact k0_off26_eq k ⟨0, by decide⟩
      | ⟨5, _⟩ => exact k0_off27_eq k ⟨0, by decide⟩
      | ⟨6, _⟩ => exact k0_off28_eq k ⟨0, by decide⟩
      | ⟨7, _⟩ => exact k0_off29_eq k ⟨0, by decide⟩
    have hoff1 : ∀ c : Fin 8, (![k0_off22 k 1#32, k0_off23 k 1#32, k0_off24 k 1#32, k0_off25 k 1#32, k0_off26 k 1#32, k0_off27 k 1#32, k0_off28 k 1#32, k0_off29 k 1#32] : Fin 8 → Fin 2 → ℕ) c = ![3 * k.val + 1, 16 * c.val] := by
      intro c
      match c with
      | ⟨0, _⟩ => exact k0_off22_eq k ⟨1, by decide⟩
      | ⟨1, _⟩ => exact k0_off23_eq k ⟨1, by decide⟩
      | ⟨2, _⟩ => exact k0_off24_eq k ⟨1, by decide⟩
      | ⟨3, _⟩ => exact k0_off25_eq k ⟨1, by decide⟩
      | ⟨4, _⟩ => exact k0_off26_eq k ⟨1, by decide⟩
      | ⟨5, _⟩ => exact k0_off27_eq k ⟨1, by decide⟩
      | ⟨6, _⟩ => exact k0_off28_eq k ⟨1, by decide⟩
      | ⟨7, _⟩ => exact k0_off29_eq k ⟨1, by decide⟩
    have hoff2 : ∀ c : Fin 8, (![k0_off22 k 2#32, k0_off23 k 2#32, k0_off24 k 2#32, k0_off25 k 2#32, k0_off26 k 2#32, k0_off27 k 2#32, k0_off28 k 2#32, k0_off29 k 2#32] : Fin 8 → Fin 2 → ℕ) c = ![3 * k.val + 2, 16 * c.val] := by
      intro c
      match c with
      | ⟨0, _⟩ => exact k0_off22_eq k ⟨2, by decide⟩
      | ⟨1, _⟩ => exact k0_off23_eq k ⟨2, by decide⟩
      | ⟨2, _⟩ => exact k0_off24_eq k ⟨2, by decide⟩
      | ⟨3, _⟩ => exact k0_off25_eq k ⟨2, by decide⟩
      | ⟨4, _⟩ => exact k0_off26_eq k ⟨2, by decide⟩
      | ⟨5, _⟩ => exact k0_off27_eq k ⟨2, by decide⟩
      | ⟨6, _⟩ => exact k0_off28_eq k ⟨2, by decide⟩
      | ⟨7, _⟩ => exact k0_off29_eq k ⟨2, by decide⟩
    exact Y_step d L I Tb Y k.val hk42 hY _ _ _
      (inb_of _ (3 * k.val) (by omega) hoff0) (inb_of _ (3 * k.val + 1) (by omega) hoff1) (inb_of _ (3 * k.val + 2) (by omega) hoff2) hoff0 hoff1 hoff2
  · iexists _
    isplitr [HO]
    rotate_left
    · iexact HO
    · ipureintro
      intro p hp
      simp only [Finset.mem_insert] at hp
      rcases hp with rfl | rfl | rfl | rfl | rfl | rfl | hp
      · exact Or.inr rfl
      · exact Or.inr rfl
      · exact Or.inr rfl
      · exact Or.inr rfl
      · exact Or.inr rfl
      · exact Or.inr rfl
      · exact hW0 p hp

set_option maxHeartbeats 4000000 in
/-- The last trip (k = 41): buffers 4 and 5 are not re-issued and come to rest. -/
theorem region_step_last (q : PosShare TreeShare) (I : Buf (Elt F) (iLoc d)) (Tb : Buf (Elt F) (tLoc d)) (hI : ∀ j, (I j).toNat < 100000) (O : CellTallies nD τ sig (HIx 1)) (W : Waits sig (HIx 1))
    (k : Fin k0_t1_loop.trips) (hk : ¬ k.val < 41) :
    invMain d L q I Tb O W k.val ⟨⟩ ⊢ wp frame (wpE (defs₀ (F := F)) 𝒱₀ (thr d L) none) Set.univ
      (k0_t1_body L tV (Memref.isWhole_whole _) iV (Memref.isWhole_whole _) oV (Memref.isWhole_whole _) xV (Memref.isWhole_whole _) b0V (Memref.isWhole_whole _) b1V (Memref.isWhole_whole _) b2V (Memref.isWhole_whole _) b3V (Memref.isWhole_whole _) b4V (Memref.isWhole_whole _) b5V (Memref.isWhole_whole _) yV (Memref.isWhole_whole _)
        cc0_scratch8 cc0_scratch9 cc0_scratch10 cc0_scratch11 cc0_scratch12 cc0_scratch13 cc0_scratch14 cc0_scoped0 cc0_scoped1
        k0_pay103 k0_pay104 k0_pay105 k0_pay106 k0_pay107 k0_pay108 k0_pay109 k0_pay110 k ⟨⟩)
      (fun x => invMain d L q I Tb O W (k.val + 1) x) := by
  have hk42 : k.val < 42 := lt_of_lt_of_le k.isLt (le_of_eq trips_main)
  unfold invMain
  rw [CellSt_pos d L (show 3 * k.val < 128 by omega), CellSt_pos d L (show 3 * k.val < 128 by omega),
    CellSt_pos d L (show 3 * k.val + 1 < 128 by omega), CellSt_pos d L (show 3 * k.val + 1 < 128 by omega),
    CellSt_pos d L (show 3 * k.val + 2 < 128 by omega), CellSt_pos d L (show 3 * k.val + 2 < 128 by omega)]
  iintro ⟨#Hmw, ⟨Hp0, Hr0⟩, ⟨Hp1, Hr1⟩, ⟨Hp2, Hr2⟩, ⟨Hp3, Hr3⟩, ⟨Hp4, Hr4⟩, ⟨Hp5, Hr5⟩, ⟨%Y, HY, %hY⟩, ⟨%W0, %hW0, HO⟩⟩
  have k0_h1 := (cond14 k).1
  have k0_h2 := (cond14 k).2.1
  have k0_h3 := (cond14 k).2.2.1
  have k0_h4 := (cond14 k).2.2.2
  have k0_h5 : ¬ k0_cond5 k = 1#1 := fun h => hk ((cond56 k).1.1 h)
  have k0_h6 : ¬ k0_cond6 k = 1#1 := fun h => hk ((cond56 k).2.1 h)
  sl_exec
  -- wait for buffer 0
  rw [← wp_bind]
  iapply (wait_b0 d L ⟨3 * k.val, by omega⟩ 0 (So := Finset.univ) (Finset.subset_univ _) (tokT q 0) (tokX 0) Tb (Xc d L I) (GG d L Tb I ⟨3 * k.val, by omega⟩ 0) O _) $$ [Hp0 Hr0 HO Hmw]
  · isplitl [Hp0]; · iexact Hp0
    isplitl [Hr0]; · iexact Hr0
    isplitl [HO]; · iexact HO
    iexact Hmw
  iintro ⟨Ht0, Hb0, Hx0, Hs0, HO⟩
  sl_exec
  -- pool buffer 0
  rw [wp_bind]
  iapply (inner_t2 d L (GG d L Tb I ⟨3 * k.val, by omega⟩ 0) (k0_pay103, k0_pay104, k0_pay105, k0_pay106, k0_pay107, k0_pay108, k0_pay109, k0_pay110) _ _ _ _ _ _ _ _ _ _ _ _) $$ [Hb0]
  · iexact Hb0
  iintro Hb0
  sl_exec
  -- re-issue buffer 0
  iapply (issue_b0 d L (off := k0_off12 k) (inb := k0_off12_inb k k0_h1) ⟨3 * (k.val + 1), by omega⟩ 0
    (by rw [k0_off12_eq]; show 3 * k.val + 3 = 3 * (k.val + 1); omega) (by rw [k0_off12_eq]; rfl) (by rw [k0_off12_eq]; rfl)
    (So := Finset.univ) (Finset.subset_univ _) (tokT q 0) (tokX 0) Tb I hI _) $$ [Ht0 Hb0 Hx0 Hs0]
  · isplitl [Ht0]; · iexact Ht0
    isplitl [Hb0]; · iexact Hb0
    isplitl [Hx0]; · iexact Hx0
    iexact Hs0
  iintro ⟨Hp0, Hr0⟩
  sl_exec
  -- wait for buffer 1
  iapply (wait_b1 d L ⟨3 * k.val, by omega⟩ 1 (So := Finset.univ) (Finset.subset_univ _) (tokT q 1) (tokX 1) Tb (Xc d L I) (GG d L Tb I ⟨3 * k.val, by omega⟩ 1) O _) $$ [Hp1 Hr1 HO Hmw]
  · isplitl [Hp1]; · iexact Hp1
    isplitl [Hr1]; · iexact Hr1
    isplitl [HO]; · iexact HO
    iexact Hmw
  iintro ⟨Ht1, Hb1, Hx1, Hs1, HO⟩
  sl_exec
  -- pool buffer 1
  rw [wp_bind]
  iapply (inner_t3 d L (GG d L Tb I ⟨3 * k.val, by omega⟩ 1) (accsOut (GG d L Tb I ⟨3 * k.val, by omega⟩ 0) (k0_pay103, k0_pay104, k0_pay105, k0_pay106, k0_pay107, k0_pay108, k0_pay109, k0_pay110)) _ _ _ _ _ _ _ _ _ _ _ _) $$ [Hb1]
  · iexact Hb1
  iintro Hb1
  rw [rowRes_eq d L I Tb ⟨3 * k.val, by omega⟩]
  sl_exec
  -- re-issue buffer 1
  iapply (issue_b1 d L (off := k0_off30 k) (inb := k0_off30_inb k k0_h2) ⟨3 * (k.val + 1), by omega⟩ 1
    (by rw [k0_off30_eq]; show 3 * k.val + 3 = 3 * (k.val + 1); omega) (by rw [k0_off30_eq]; rfl) (by rw [k0_off30_eq]; rfl)
    (So := Finset.univ) (Finset.subset_univ _) (tokT q 1) (tokX 1) Tb I hI _) $$ [Ht1 Hb1 Hx1 Hs1]
  · isplitl [Ht1]; · iexact Ht1
    isplitl [Hb1]; · iexact Hb1
    isplitl [Hx1]; · iexact Hx1
    iexact Hs1
  iintro ⟨Hp1, Hr1⟩
  sl_exec
  -- wait for buffer 2
  iapply (wait_b2 d L ⟨3 * k.val + 1, by omega⟩ 0 (So := Finset.univ) (Finset.subset_univ _) (tokT q 2) (tokX 2) Tb (Xc d L I) (GG d L Tb I ⟨3 * k.val + 1, by omega⟩ 0) O _) $$ [Hp2 Hr2 HO Hmw]
  · isplitl [Hp2]; · iexact Hp2
    isplitl [Hr2]; · iexact Hr2
    isplitl [HO]; · iexact HO
    iexact Hmw
  iintro ⟨Ht2, Hb2, Hx2, Hs2, HO⟩
  sl_exec
  -- pool buffer 2
  rw [wp_bind]
  iapply (inner_t4 d L (GG d L Tb I ⟨3 * k.val + 1, by omega⟩ 0) (k0_pay103, k0_pay104, k0_pay105, k0_pay106, k0_pay107, k0_pay108, k0_pay109, k0_pay110) _ _ _ _ _ _ _ _ _ _ _ _ _ _ _ _ _ _) $$ [Hb2]
  · iexact Hb2
  iintro Hb2
  sl_exec
  -- re-issue buffer 2
  iapply (issue_b2 d L (off := k0_off39 k) (inb := k0_off39_inb k k0_h3) ⟨3 * (k.val + 1) + 1, by omega⟩ 0
    (by rw [k0_off39_eq]; show 3 * k.val + 4 = 3 * (k.val + 1) + 1; omega) (by rw [k0_off39_eq]; rfl) (by rw [k0_off39_eq]; rfl)
    (So := Finset.univ) (Finset.subset_univ _) (tokT q 2) (tokX 2) Tb I hI _) $$ [Ht2 Hb2 Hx2 Hs2]
  · isplitl [Ht2]; · iexact Ht2
    isplitl [Hb2]; · iexact Hb2
    isplitl [Hx2]; · iexact Hx2
    iexact Hs2
  iintro ⟨Hp2, Hr2⟩
  sl_exec
  -- wait for buffer 3
  iapply (wait_b3 d L ⟨3 * k.val + 1, by omega⟩ 1 (So := Finset.univ) (Finset.subset_univ _) (tokT q 3) (tokX 3) Tb (Xc d L I) (GG d L Tb I ⟨3 * k.val + 1, by omega⟩ 1) O _) $$ [Hp3 Hr3 HO Hmw]
  · isplitl [Hp3]; · iexact Hp3
    isplitl [Hr3]; · iexact Hr3
    isplitl [HO]; · iexact HO
    iexact Hmw
  iintro ⟨Ht3, Hb3, Hx3, Hs3, HO⟩
  sl_exec
  -- pool buffer 3
  rw [wp_bind]
  iapply (inner_t5 d L (GG d L Tb I ⟨3 * k.val + 1, by omega⟩ 1) (accsOut (GG d L Tb I ⟨3 * k.val + 1, by omega⟩ 0) (k0_pay103, k0_pay104, k0_pay105, k0_pay106, k0_pay107, k0_pay108, k0_pay109, k0_pay110)) _ _ _ _ _ _ _ _ _ _ _ _ _) $$ [Hb3]
  · iexact Hb3
  iintro Hb3
  rw [rowRes_eq d L I Tb ⟨3 * k.val + 1, by omega⟩]
  sl_exec
  -- re-issue buffer 3
  iapply (issue_b3 d L (off := k0_off48 k) (inb := k0_off48_inb k k0_h4) ⟨3 * (k.val + 1) + 1, by omega⟩ 1
    (by rw [k0_off48_eq]; show 3 * k.val + 4 = 3 * (k.val + 1) + 1; omega) (by rw [k0_off48_eq]; rfl) (by rw [k0_off48_eq]; rfl)
    (So := Finset.univ) (Finset.subset_univ _) (tokT q 3) (tokX 3) Tb I hI _) $$ [Ht3 Hb3 Hx3 Hs3]
  · isplitl [Ht3]; · iexact Ht3
    isplitl [Hb3]; · iexact Hb3
    isplitl [Hx3]; · iexact Hx3
    iexact Hs3
  iintro ⟨Hp3, Hr3⟩
  sl_exec
  -- wait for buffer 4
  iapply (wait_b4 d L ⟨3 * k.val + 2, by omega⟩ 0 (So := Finset.univ) (Finset.subset_univ _) (tokT q 4) (tokX 4) Tb (Xc d L I) (GG d L Tb I ⟨3 * k.val + 2, by omega⟩ 0) O _) $$ [Hp4 Hr4 HO Hmw]
  · isplitl [Hp4]; · iexact Hp4
    isplitl [Hr4]; · iexact Hr4
    isplitl [HO]; · iexact HO
    iexact Hmw
  iintro ⟨Ht4, Hb4, Hx4, Hs4, HO⟩
  sl_exec
  -- pool buffer 4
  rw [wp_bind]
  iapply (inner_t6 d L (GG d L Tb I ⟨3 * k.val + 2, by omega⟩ 0) (k0_pay103, k0_pay104, k0_pay105, k0_pay106, k0_pay107, k0_pay108, k0_pay109, k0_pay110) _ _ _ _ _ _ _ _ _ _ _ _ _ _) $$ [Hb4]
  · iexact Hb4
  iintro Hb4
  sl_exec
  -- wait for buffer 5
  iapply (wait_b5 d L ⟨3 * k.val + 2, by omega⟩ 1 (So := Finset.univ) (Finset.subset_univ _) (tokT q 5) (tokX 5) Tb (Xc d L I) (GG d L Tb I ⟨3 * k.val + 2, by omega⟩ 1) O _) $$ [Hp5 Hr5 HO Hmw]
  · isplitl [Hp5]; · iexact Hp5
    isplitl [Hr5]; · iexact Hr5
    isplitl [HO]; · iexact HO
    iexact Hmw
  iintro ⟨Ht5, Hb5, Hx5, Hs5, HO⟩
  sl_exec
  -- pool buffer 5
  rw [wp_bind]
  iapply (inner_t7 d L (GG d L Tb I ⟨3 * k.val + 2, by omega⟩ 1) (accsOut (GG d L Tb I ⟨3 * k.val + 2, by omega⟩ 0) (k0_pay103, k0_pay104, k0_pay105, k0_pay106, k0_pay107, k0_pay108, k0_pay109, k0_pay110)) _ _ _ _ _ _ _ _ _ _ _ _ _ _) $$ [Hb5]
  · iexact Hb5
  iintro Hb5
  rw [rowRes_eq d L I Tb ⟨3 * k.val + 2, by omega⟩]
  sl_exec
  -- the trip has returned: the invariant at k + 1
  sl_step
  rw [CellSt_pos d L (show 3 * (k.val + 1) < 128 by omega),
    CellSt_pos d L (show 3 * (k.val + 1) < 128 by omega),
    CellSt_pos d L (show 3 * (k.val + 1) + 1 < 128 by omega),
    CellSt_pos d L (show 3 * (k.val + 1) + 1 < 128 by omega),
    CellSt_neg d L (show ¬ 3 * (k.val + 1) + 2 < 128 by omega),
    CellSt_neg d L (show ¬ 3 * (k.val + 1) + 2 < 128 by omega)]
  isplitr [HY HO Hp0 Hr0 Hp1 Hr1 Hp2 Hr2 Hp3 Hr3 Ht4 Hb4 Hx4 Hs4 Ht5 Hb5 Hx5 Hs5]
  · iexact Hmw
  isplitl [Hp0 Hr0]
  · isplitl [Hp0]; · iexact Hp0
    iexact Hr0
  isplitl [Hp1 Hr1]
  · isplitl [Hp1]; · iexact Hp1
    iexact Hr1
  isplitl [Hp2 Hr2]
  · isplitl [Hp2]; · iexact Hp2
    iexact Hr2
  isplitl [Hp3 Hr3]
  · isplitl [Hp3]; · iexact Hp3
    iexact Hr3
  isplitl [Ht4 Hb4 Hx4 Hs4]
  · isplitl [Hb4]; · (iexists _; iexact Hb4)
    isplitl [Ht4]; · iexact Ht4
    isplitl [Hx4]; · iexact Hx4
    iexact Hs4
  isplitl [Ht5 Hb5 Hx5 Hs5]
  · isplitl [Hb5]; · (iexists _; iexact Hb5)
    isplitl [Ht5]; · iexact Ht5
    isplitl [Hx5]; · iexact Hx5
    iexact Hs5
  isplitl [HY]
  · iexists _
    isplitl [HY]; · iexact HY
    ipureintro
    have hoff0 : ∀ c : Fin 8, (![k0_off22 k 0#32, k0_off23 k 0#32, k0_off24 k 0#32, k0_off25 k 0#32, k0_off26 k 0#32, k0_off27 k 0#32, k0_off28 k 0#32, k0_off29 k 0#32] : Fin 8 → Fin 2 → ℕ) c = ![3 * k.val , 16 * c.val] := by
      intro c
      match c with
      | ⟨0, _⟩ => exact k0_off22_eq k ⟨0, by decide⟩
      | ⟨1, _⟩ => exact k0_off23_eq k ⟨0, by decide⟩
      | ⟨2, _⟩ => exact k0_off24_eq k ⟨0, by decide⟩
      | ⟨3, _⟩ => exact k0_off25_eq k ⟨0, by decide⟩
      | ⟨4, _⟩ => exact k0_off26_eq k ⟨0, by decide⟩
      | ⟨5, _⟩ => exact k0_off27_eq k ⟨0, by decide⟩
      | ⟨6, _⟩ => exact k0_off28_eq k ⟨0, by decide⟩
      | ⟨7, _⟩ => exact k0_off29_eq k ⟨0, by decide⟩
    have hoff1 : ∀ c : Fin 8, (![k0_off22 k 1#32, k0_off23 k 1#32, k0_off24 k 1#32, k0_off25 k 1#32, k0_off26 k 1#32, k0_off27 k 1#32, k0_off28 k 1#32, k0_off29 k 1#32] : Fin 8 → Fin 2 → ℕ) c = ![3 * k.val + 1, 16 * c.val] := by
      intro c
      match c with
      | ⟨0, _⟩ => exact k0_off22_eq k ⟨1, by decide⟩
      | ⟨1, _⟩ => exact k0_off23_eq k ⟨1, by decide⟩
      | ⟨2, _⟩ => exact k0_off24_eq k ⟨1, by decide⟩
      | ⟨3, _⟩ => exact k0_off25_eq k ⟨1, by decide⟩
      | ⟨4, _⟩ => exact k0_off26_eq k ⟨1, by decide⟩
      | ⟨5, _⟩ => exact k0_off27_eq k ⟨1, by decide⟩
      | ⟨6, _⟩ => exact k0_off28_eq k ⟨1, by decide⟩
      | ⟨7, _⟩ => exact k0_off29_eq k ⟨1, by decide⟩
    have hoff2 : ∀ c : Fin 8, (![k0_off22 k 2#32, k0_off23 k 2#32, k0_off24 k 2#32, k0_off25 k 2#32, k0_off26 k 2#32, k0_off27 k 2#32, k0_off28 k 2#32, k0_off29 k 2#32] : Fin 8 → Fin 2 → ℕ) c = ![3 * k.val + 2, 16 * c.val] := by
      intro c
      match c with
      | ⟨0, _⟩ => exact k0_off22_eq k ⟨2, by decide⟩
      | ⟨1, _⟩ => exact k0_off23_eq k ⟨2, by decide⟩
      | ⟨2, _⟩ => exact k0_off24_eq k ⟨2, by decide⟩
      | ⟨3, _⟩ => exact k0_off25_eq k ⟨2, by decide⟩
      | ⟨4, _⟩ => exact k0_off26_eq k ⟨2, by decide⟩
      | ⟨5, _⟩ => exact k0_off27_eq k ⟨2, by decide⟩
      | ⟨6, _⟩ => exact k0_off28_eq k ⟨2, by decide⟩
      | ⟨7, _⟩ => exact k0_off29_eq k ⟨2, by decide⟩
    exact Y_step d L I Tb Y k.val hk42 hY _ _ _
      (inb_of _ (3 * k.val) (by omega) hoff0) (inb_of _ (3 * k.val + 1) (by omega) hoff1) (inb_of _ (3 * k.val + 2) (by omega) hoff2) hoff0 hoff1 hoff2
  · iexists _
    isplitr [HO]
    rotate_left
    · iexact HO
    · ipureintro
      intro p hp
      simp only [Finset.mem_insert] at hp
      rcases hp with rfl | rfl | rfl | rfl | rfl | rfl | hp
      · exact Or.inr rfl
      · exact Or.inr rfl
      · exact Or.inr rfl
      · exact Or.inr rfl
      · exact Or.inr rfl
      · exact Or.inr rfl
      · exact hW0 p hp

set_option maxHeartbeats 4000000 in
/-- One trip of the main loop: from the invariant at `k` to the invariant at `k + 1`. -/
theorem region_step (q : PosShare TreeShare) (I : Buf (Elt F) (iLoc d)) (Tb : Buf (Elt F) (tLoc d)) (hI : ∀ j, (I j).toNat < 100000) (O : CellTallies nD τ sig (HIx 1)) (W : Waits sig (HIx 1))
    (k : Fin k0_t1_loop.trips) :
    invMain d L q I Tb O W k.val ⟨⟩ ⊢ wp frame (wpE (defs₀ (F := F)) 𝒱₀ (thr d L) none) Set.univ
      (k0_t1_body L tV (Memref.isWhole_whole _) iV (Memref.isWhole_whole _) oV (Memref.isWhole_whole _) xV (Memref.isWhole_whole _) b0V (Memref.isWhole_whole _) b1V (Memref.isWhole_whole _) b2V (Memref.isWhole_whole _) b3V (Memref.isWhole_whole _) b4V (Memref.isWhole_whole _) b5V (Memref.isWhole_whole _) yV (Memref.isWhole_whole _)
        cc0_scratch8 cc0_scratch9 cc0_scratch10 cc0_scratch11 cc0_scratch12 cc0_scratch13 cc0_scratch14 cc0_scoped0 cc0_scoped1
        k0_pay103 k0_pay104 k0_pay105 k0_pay106 k0_pay107 k0_pay108 k0_pay109 k0_pay110 k ⟨⟩)
      (fun x => invMain d L q I Tb O W (k.val + 1) x) := by
  by_cases hk : k.val < 41
  · exact region_step_lt d L q I Tb hI O W k hk
  · exact region_step_last d L q I Tb hI O W k hk

end Region

end Cert.Proof.KB

end
-- ==== Proof.KBYTail.lean ====
/-
  The tile's last two rows, on the result scratch.

  After the main loop the rows below 126 of the scratch hold the tile's result; rows 126 and 127 are then written, each
  by its eight one-row stores of its result chunks, row 126's first. Read newest first these are two groups of eight,
  each touching one row. So afterwards row 127 holds what its group stored, row 126 is missed by the newer group and
  holds what its own group stored, and a row below 126 is missed by both and holds what it held: every entry of the
  scratch is the tile's result.
  The same with the offsets written out as the literal words (126, 16·c) and (127, 16·c); and the bounds such offsets
  satisfy, for any row.
-/
import proofs.«206947_g65644280152286_cont_9to1_m_226_28_alg».proof.Proof.KBYStep

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S4096x2x100 EltTy.i32)
local notation "oV" => (Memref.whole Cert.Kernel.main_v1_scv : Memref Cert.Kernel.sig Kind.scVector Space.hbm Cert.Kernel.S4096x128 EltTy.f32)
local notation "xV" => (Memref.whole Cert.Kernel.cc0_scratch0 : Memref Cert.Kernel.sig Kind.scVector Space.vmem Cert.Kernel.S128x2x100 EltTy.i32)
local notation "b0V" => (Memref.whole Cert.Kernel.cc0_scratch1 : Memref Cert.Kernel.sig Kind.scVector Space.vmem Cert.Kernel.S100x128 EltTy.f32)
local notation "b1V" => (Memref.whole Cert.Kernel.cc0_scratch2 : Memref Cert.Kernel.sig Kind.scVector Space.vmem Cert.Kernel.S100x128 EltTy.f32)
local notation "b2V" => (Memref.whole Cert.Kernel.cc0_scratch3 : Memref Cert.Kernel.sig Kind.scVector Space.vmem Cert.Kernel.S100x128 EltTy.f32)
local notation "b3V" => (Memref.whole Cert.Kernel.cc0_scratch4 : Memref Cert.Kernel.sig Kind.scVector Space.vmem Cert.Kernel.S100x128 EltTy.f32)
local notation "b4V" => (Memref.whole Cert.Kernel.cc0_scratch5 : Memref Cert.Kernel.sig Kind.scVector Space.vmem Cert.Kernel.S100x128 EltTy.f32)
local notation "b5V" => (Memref.whole Cert.Kernel.cc0_scratch6 : Memref Cert.Kernel.sig Kind.scVector Space.vmem Cert.Kernel.S100x128 EltTy.f32)
local notation "yV" => (Memref.whole Cert.Kernel.cc0_scratch7 : Memref Cert.Kernel.sig Kind.scVector Space.vmem Cert.Kernel.S128x128 EltTy.f32)

variable [FloatOps F]

section Tail
variable (d : Dev nD) (L : grid0.Coords)

/-- THE TAIL: with the rows below 126 at the tile's result, the sixteen stores of rows 126 and 127 leave the whole
    scratch at it. -/
theorem Y_tail (I : Buf (Elt F) (iLoc d)) (Tb : Buf (Elt F) (tLoc d)) (Y : (yV).view.ty.Contents (Elt F))
    (hY : ∀ r : Fin 128, r.val < 126 → ∀ c : Fin 128, Y (ValueIdx.ix2 r c) = Yres d L I Tb (ValueIdx.ix2 r c))
    (o0 o1 : Fin 8 → Fin 2 → ℕ)
    (inb0 : ∀ (c : Fin 8) (a : Fin 2), o0 c a + S1x16.size a ≤ S128x128.size a)
    (inb1 : ∀ (c : Fin 8) (a : Fin 2), o1 c a + S1x16.size a ≤ S128x128.size a)
    (h0 : ∀ c, o0 c = ![126, 16 * c.val]) (h1 : ∀ c, o1 c = ![127, 16 * c.val]) :
    ∀ j : S128x128.Idx,
      (yV).view.writes (Elt F) Y
        (rowStores o1 inb1 (fun c => shapeCast S1x16 (chunkRes d L I Tb ⟨127, by decide⟩ c) shapeCasts_S16_S1x16)
          ++ rowStores o0 inb0 (fun c => shapeCast S1x16 (chunkRes d L I Tb ⟨126, by decide⟩ c) shapeCasts_S16_S1x16)) j
        = Yres d L I Tb j := by
  intro j
  obtain ⟨r, q, rfl⟩ : ∃ (r : Fin 128) (q : Fin 128), j = ValueIdx.ix2 r q := ⟨j 0, j 1, ValueIdx.eq_ix2 j⟩
  rw [View.writes_append]
  by_cases e1 : r = (⟨127, by decide⟩ : Fin 128)
  · subst e1
    exact row_written d L I Tb _ _ o1 inb1 h1 q
  · rw [row_stores_miss _ (⟨127, by decide⟩ : Fin 128) o1 inb1 _ h1 r e1 q]
    by_cases e0 : r = (⟨126, by decide⟩ : Fin 128)
    · subst e0
      exact row_written d L I Tb _ _ o0 inb0 h0 q
    · rw [row_stores_miss _ (⟨126, by decide⟩ : Fin 128) o0 inb0 _ h0 r e0 q]
      refine hY r ?_ q
      have n1 : r.val ≠ 127 := fun h => e1 (Fin.ext h)
      have n0 : r.val ≠ 126 := fun h => e0 (Fin.ext h)
      have := r.isLt
      omega

/-- The same with the offsets as the literal words (126, 16·c) and (127, 16·c), their bounds any proofs. -/
theorem Y_tail_lit (I : Buf (Elt F) (iLoc d)) (Tb : Buf (Elt F) (tLoc d)) (Y : (yV).view.ty.Contents (Elt F))
    (hY : ∀ r : Fin 128, r.val < 126 → ∀ c : Fin 128, Y (ValueIdx.ix2 r c) = Yres d L I Tb (ValueIdx.ix2 r c))
    (inb0 : ∀ (c : Fin 8) (a : Fin 2), (![126, 16 * c.val] : Fin 2 → ℕ) a + S1x16.size a ≤ S128x128.size a)
    (inb1 : ∀ (c : Fin 8) (a : Fin 2), (![127, 16 * c.val] : Fin 2 → ℕ) a + S1x16.size a ≤ S128x128.size a) :
    ∀ j : S128x128.Idx,
      (yV).view.writes (Elt F) Y
        (rowStores (fun c : Fin 8 => (![127, 16 * c.val] : Fin 2 → ℕ)) inb1
            (fun c => shapeCast S1x16 (chunkRes d L I Tb ⟨127, by decide⟩ c) shapeCasts_S16_S1x16)
          ++ rowStores (fun c : Fin 8 => (![126, 16 * c.val] : Fin 2 → ℕ)) inb0
            (fun c => shapeCast S1x16 (chunkRes d L I Tb ⟨126, by decide⟩ c) shapeCasts_S16_S1x16)) j
        = Yres d L I Tb j :=
  Y_tail d L I Tb Y hY _ _ inb0 inb1 (fun _ => rfl) (fun _ => rfl)

end Tail

omit [FloatOps F] in
/-- One row by 16 lanes at row R, columns from 16·c, fits in the [128, 128] scratch: for any row and chunk. -/
theorem inb_row (R : Fin 128) (c : Fin 8) (a : Fin 2) :
    (![R.val, 16 * c.val] : Fin 2 → ℕ) a + S1x16.size a ≤ S128x128.size a := by
  have hR := R.isLt
  have hc := c.isLt
  match a with
  | ⟨0, _⟩ => show R.val + 1 ≤ 128; omega
  | ⟨1, _⟩ => show 16 * c.val + 16 ≤ 128; omega

end Cert.Proof.KB

end
-- ==== Proof.KBBody.lean ====
/-
  A tile's whole body. The index scratch is taken as its two row ranges, rows 0–2 and rows 3–127; the first index copy lands
  the tile's first three index rows on rows 0–2. The table's share and that of rows 0–2 are each cut into six read tokens
  (one per gather buffer) and a rest, and the six gathers for local rows 0, 0, 1, 1, 2, 2 (halves 0, 1) are issued, each
  taking its list's 100 words out of its token of rows 0–2. The second copy lands rows 3–127; cut into six tokens and a rest
  likewise, each token joins what is left of the matching token of rows 0–2, so that every buffer holds its share of the whole
  scratch without its pending list, and the two rests make a share of the whole scratch. That is the main loop's invariant at
  trip 0 (no row of the result scratch finished yet). Each of the 42 trips keeps the invariant. At trip 42 the gathers for
  rows 126 and 127 are pending on buffers 0–3 and buffers 4, 5 are at rest: the two rows are pooled and stored as in a trip
  (no re-issue), after which the result scratch agrees with the tile's result on all 128 rows; the final copy writes it
  onto the tile's rows of the result array, entry by entry the fold of the index rows and the table. Rejoining the six
  tokens and the rest gives back the table's share and the whole index scratch; the buffers, the result scratch and the
  nine semaphore cells (at zero) are handed back, and every wait recorded on the way is on an unnamed handshake.
-/
import proofs.«206947_g65644280152286_cont_9to1_m_226_28_alg».proof.Proof.KBRegion
import proofs.«206947_g65644280152286_cont_9to1_m_226_28_alg».proof.Proof.KBMainStmt
import proofs.«206947_g65644280152286_cont_9to1_m_226_28_alg».proof.Proof.KBGather
import proofs.«206947_g65644280152286_cont_9to1_m_226_28_alg».proof.Proof.KBOut
import proofs.«206947_g65644280152286_cont_9to1_m_226_28_alg».proof.Proof.KBYTail

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S4096x2x100 EltTy.i32)
local notation "oV" => (Memref.whole Cert.Kernel.main_v1_scv : Memref Cert.Kernel.sig Kind.scVector Space.hbm Cert.Kernel.S4096x128 EltTy.f32)
local notation "xV" => (Memref.whole Cert.Kernel.cc0_scratch0 : Memref Cert.Kernel.sig Kind.scVector Space.vmem Cert.Kernel.S128x2x100 EltTy.i32)
local notation "b0V" => (Memref.whole Cert.Kernel.cc0_scratch1 : Memref Cert.Kernel.sig Kind.scVector Space.vmem Cert.Kernel.S100x128 EltTy.f32)
local notation "b1V" => (Memref.whole Cert.Kernel.cc0_scratch2 : Memref Cert.Kernel.sig Kind.scVector Space.vmem Cert.Kernel.S100x128 EltTy.f32)
local notation "b2V" => (Memref.whole Cert.Kernel.cc0_scratch3 : Memref Cert.Kernel.sig Kind.scVector Space.vmem Cert.Kernel.S100x128 EltTy.f32)
local notation "b3V" => (Memref.whole Cert.Kernel.cc0_scratch4 : Memref Cert.Kernel.sig Kind.scVector Space.vmem Cert.Kernel.S100x128 EltTy.f32)
local notation "b4V" => (Memref.whole Cert.Kernel.cc0_scratch5 : Memref Cert.Kernel.sig Kind.scVector Space.vmem Cert.Kernel.S100x128 EltTy.f32)
local notation "b5V" => (Memref.whole Cert.Kernel.cc0_scratch6 : Memref Cert.Kernel.sig Kind.scVector Space.vmem Cert.Kernel.S100x128 EltTy.f32)
local notation "yV" => (Memref.whole Cert.Kernel.cc0_scratch7 : Memref Cert.Kernel.sig Kind.scVector Space.vmem Cert.Kernel.S128x128 EltTy.f32)

variable [FloatOps F]

section Joins2
variable (d : Dev nD) (L : grid0.Coords)
omit [FloatOps F] in
/-- What is left of rows 0–2 after a list of row r < 3 is taken out, with rows 3–127, is the scratch without that list. -/
theorem rest_join' {off : Fin 3 → Nat} {inb : ∀ a, off a + S1x1x100.size a ≤ S128x2x100.size a} (r : Fin 128) (h : Fin 2)
    (h0 : off 0 = r.val) (h1 : off 1 = h.val) (h2 : off 2 = 0) (hr : r.val < 3) (qx : PosShare TreeShare) (X : Buf (Elt F) ((thr d L).loc cc0_scratch0)) :
    (iprop(((xV).view.loc (thr d L) ↦[(xA).view.set \ lstSet r h]{qx} X) ∗ ((xB).view.loc (thr d L) ↦[(xB).view.set]{qx} X)) : sProp 𝕄)
      ⊢ ((xV).view.loc (thr d L) ↦[Finset.univ \ lstSet r h]{qx} X) := by
  have e := set_lst_eq (off := off) (inb := inb) r h h0 h1 h2
  have hj := rest_join d L (off := off) (inb := inb) r h h0 h1 h2 hr qx X
  rw [e] at hj
  exact hj
end Joins2
section Tile

omit [FloatOps F] in
/-- Outside rows 3–127 are rows 0–2. -/
theorem compl_xB : (Finset.univ : Finset S128x2x100.Idx) \ (xB).view.set = (xA).view.set := by
  refine Finset.ext fun j => ⟨fun hj => ?_, fun hj => ?_⟩
  · obtain ⟨_, hj2⟩ := Finset.mem_sdiff.mp hj
    exact (mem_xA (i := j)).mpr (Nat.lt_of_not_le fun h3 => hj2 ((mem_xB (i := j)).mpr h3))
  · have h3 := (mem_xA (i := j)).mp hj
    refine Finset.mem_sdiff.mpr ⟨Finset.mem_univ _, fun hm => ?_⟩
    have h4 := (mem_xB (i := j)).mp hm
    omega

set_option maxHeartbeats 8000000 in
/-- The tile's body hands back what it was handed, the result rows holding the fold. -/
theorem tile_main : TileMain (F := F) := by
  intro d L q O W I Tb fo fx f0 f1 f2 f3 f4 f5 fy hI
  rw [cc0_k_eq_skeleton]
  iintro ⟨#Hmw, HiA, HiB, Ht, Ho, Hx, Hb0, Hb1, Hb2, Hb3, Hb4, Hb5, Hy, Hs0, Hs1, Hs2, Hs3, Hs4, Hs5, Hs6, Hr0, Hr1, HO⟩
  -- the index scratch as its two row ranges
  ihave Hx := (pointsTo_split_subset (q := fullShare) (f := fx) (S := Finset.univ) (Finset.subset_univ (xB).view.set)).1 $$ Hx
  icases Hx with ⟨HxB, HxA⟩
  rw [compl_xB]
  ihave HxA := (Entails.of_eq (show ((xV).view.loc (thr d L) ↦[(xA).view.set]{fullShare} fx : sProp 𝕄) = ((xA).view.loc (thr d L) ↦[(xA).view.set]{fullShare} fx) from rfl)) $$ HxA
  ihave HxB := (Entails.of_eq (show ((xV).view.loc (thr d L) ↦[(xB).view.set]{fullShare} fx : sProp 𝕄) = ((xB).view.loc (thr d L) ↦[(xB).view.set]{fullShare} fx) from rfl)) $$ HxB
  sl_exec
  -- rows 0–2 of the indices have landed: read tokens of the table and of those rows, one per buffer
  ihave HxA := (Entails.of_eq (pointsTo_congr (q := fullShare) (landA d L fx I))) $$ HxA
  ihave Ht := (toks6 (F := F) q).1 $$ Ht
  icases Ht with ⟨Htd, Ht0, Ht1, Ht2, Ht3, Ht4, Ht5⟩
  ihave HxA := (toks6 (F := F) fullShare).1 $$ HxA
  icases HxA with ⟨Hxd, Hx0, Hx1, Hx2, Hx3, Hx4, Hx5⟩

  -- gather 0: row 0, half 0
  iapply (issue_b0 d L (off := ![0, 0, 0]) (inb := inb_S128x2x100_S1x1x100_0_0_0) (0 : Fin 128) (0 : Fin 2) rfl rfl rfl (So := (xA).view.set)
      (lst_sub_xA (off := ![0, 0, 0]) (inb := inb_S128x2x100_S1x1x100_0_0_0) rfl (by decide)) (tokT q 0) (tokX 0) Tb I hI f0) $$ [Ht0 Hb0 Hx0 Hs0]
  · isplitl [Ht0]; · iexact Ht0
    isplitl [Hb0]; · iexact Hb0
    isplitl [Hx0]; · iexact Hx0
    iexact Hs0
  iintro ⟨Hp0, Hx0⟩
  sl_exec

  -- gather 1: row 0, half 1
  iapply (issue_b1 d L (off := ![0, 1, 0]) (inb := inb_S128x2x100_S1x1x100_0_1_0) (0 : Fin 128) (1 : Fin 2) rfl rfl rfl (So := (xA).view.set)
      (lst_sub_xA (off := ![0, 1, 0]) (inb := inb_S128x2x100_S1x1x100_0_1_0) rfl (by decide)) (tokT q 1) (tokX 1) Tb I hI f1) $$ [Ht1 Hb1 Hx1 Hs1]
  · isplitl [Ht1]; · iexact Ht1
    isplitl [Hb1]; · iexact Hb1
    isplitl [Hx1]; · iexact Hx1
    iexact Hs1
  iintro ⟨Hp1, Hx1⟩
  sl_exec

  -- gather 2: row 1, half 0
  iapply (issue_b2 d L (off := ![1, 0, 0]) (inb := inb_S128x2x100_S1x1x100_1_0_0) (1 : Fin 128) (0 : Fin 2) rfl rfl rfl (So := (xA).view.set)
      (lst_sub_xA (off := ![1, 0, 0]) (inb := inb_S128x2x100_S1x1x100_1_0_0) rfl (by decide)) (tokT q 2) (tokX 2) Tb I hI f2) $$ [Ht2 Hb2 Hx2 Hs2]
  · isplitl [Ht2]; · iexact Ht2
    isplitl [Hb2]; · iexact Hb2
    isplitl [Hx2]; · iexact Hx2
    iexact Hs2
  iintro ⟨Hp2, Hx2⟩
  sl_exec

  -- gather 3: row 1, half 1
  iapply (issue_b3 d L (off := ![1, 1, 0]) (inb := inb_S128x2x100_S1x1x100_1_1_0) (1 : Fin 128) (1 : Fin 2) rfl rfl rfl (So := (xA).view.set)
      (lst_sub_xA (off := ![1, 1, 0]) (inb := inb_S128x2x100_S1x1x100_1_1_0) rfl (by decide)) (tokT q 3) (tokX 3) Tb I hI f3) $$ [Ht3 Hb3 Hx3 Hs3]
  · isplitl [Ht3]; · iexact Ht3
    isplitl [Hb3]; · iexact Hb3
    isplitl [Hx3]; · iexact Hx3
    iexact Hs3
  iintro ⟨Hp3, Hx3⟩
  sl_exec

  -- gather 4: row 2, half 0
  iapply (issue_b4 d L (off := ![2, 0, 0]) (inb := inb_S128x2x100_S1x1x100_2_0_0) (2 : Fin 128) (0 : Fin 2) rfl rfl rfl (So := (xA).view.set)
      (lst_sub_xA (off := ![2, 0, 0]) (inb := inb_S128x2x100_S1x1x100_2_0_0) rfl (by decide)) (tokT q 4) (tokX 4) Tb I hI f4) $$ [Ht4 Hb4 Hx4 Hs4]
  · isplitl [Ht4]; · iexact Ht4
    isplitl [Hb4]; · iexact Hb4
    isplitl [Hx4]; · iexact Hx4
    iexact Hs4
  iintro ⟨Hp4, Hx4⟩
  sl_exec

  -- gather 5: row 2, half 1
  iapply (issue_b5 d L (off := ![2, 1, 0]) (inb := inb_S128x2x100_S1x1x100_2_1_0) (2 : Fin 128) (1 : Fin 2) rfl rfl rfl (So := (xA).view.set)
      (lst_sub_xA (off := ![2, 1, 0]) (inb := inb_S128x2x100_S1x1x100_2_1_0) rfl (by decide)) (tokT q 5) (tokX 5) Tb I hI f5) $$ [Ht5 Hb5 Hx5 Hs5]
  · isplitl [Ht5]; · iexact Ht5
    isplitl [Hb5]; · iexact Hb5
    isplitl [Hx5]; · iexact Hx5
    iexact Hs5
  iintro ⟨Hp5, Hx5⟩
  sl_exec
  -- rows 3–127 have landed: their tokens join what is left of rows 0–2
  ihave HxB := (Entails.of_eq (pointsTo_congr (q := fullShare) (landB d L _ I))) $$ HxB
  ihave HxB := (toks6 (F := F) fullShare).1 $$ HxB
  icases HxB with ⟨Hzd, Hz0, Hz1, Hz2, Hz3, Hz4, Hz5⟩

  ihave Hx0 := (rest_join' d L (off := ![0, 0, 0]) (inb := inb_S128x2x100_S1x1x100_0_0_0) (0 : Fin 128) (0 : Fin 2) rfl rfl rfl (by decide) (tokX 0) (Xc d L I)) $$ [Hx0 Hz0]
  · isplitl [Hx0] <;> iassumption

  ihave Hx1 := (rest_join' d L (off := ![0, 1, 0]) (inb := inb_S128x2x100_S1x1x100_0_1_0) (0 : Fin 128) (1 : Fin 2) rfl rfl rfl (by decide) (tokX 1) (Xc d L I)) $$ [Hx1 Hz1]
  · isplitl [Hx1] <;> iassumption

  ihave Hx2 := (rest_join' d L (off := ![1, 0, 0]) (inb := inb_S128x2x100_S1x1x100_1_0_0) (1 : Fin 128) (0 : Fin 2) rfl rfl rfl (by decide) (tokX 2) (Xc d L I)) $$ [Hx2 Hz2]
  · isplitl [Hx2] <;> iassumption

  ihave Hx3 := (rest_join' d L (off := ![1, 1, 0]) (inb := inb_S128x2x100_S1x1x100_1_1_0) (1 : Fin 128) (1 : Fin 2) rfl rfl rfl (by decide) (tokX 3) (Xc d L I)) $$ [Hx3 Hz3]
  · isplitl [Hx3] <;> iassumption

  ihave Hx4 := (rest_join' d L (off := ![2, 0, 0]) (inb := inb_S128x2x100_S1x1x100_2_0_0) (2 : Fin 128) (0 : Fin 2) rfl rfl rfl (by decide) (tokX 4) (Xc d L I)) $$ [Hx4 Hz4]
  · isplitl [Hx4] <;> iassumption

  ihave Hx5 := (rest_join' d L (off := ![2, 1, 0]) (inb := inb_S128x2x100_S1x1x100_2_1_0) (2 : Fin 128) (1 : Fin 2) rfl rfl rfl (by decide) (tokX 5) (Xc d L I)) $$ [Hx5 Hz5]
  · isplitl [Hx5] <;> iassumption
  ihave Hxd := (AB_join d L (Transfers.shareDrop fullShare 6) (Xc d L I)) $$ [Hxd Hzd]
  · isplitl [Hxd] <;> iassumption

  -- the main loop
  sl_for (invMain d L q I Tb O (insert (SemLoc.dma cc0_scratch14.sem, (default : HIx 1)) (insert (SemLoc.dma cc0_scoped0.sem, (default : HIx 1)) W))) $$ [Hp0 Hx0 Hp1 Hx1 Hp2 Hx2 Hp3 Hx3 Hp4 Hx4 Hp5 Hx5 Hy HO]
  case region =>
    intro k acc
    exact region_step d L q I Tb hI O _ k
  · unfold invMain
    rw [CellSt_pos d L (show 3 * 0 < 128 by decide), CellSt_pos d L (show 3 * 0 < 128 by decide),
      CellSt_pos d L (show 3 * 0 + 1 < 128 by decide), CellSt_pos d L (show 3 * 0 + 1 < 128 by decide),
      CellSt_pos d L (show 3 * 0 + 2 < 128 by decide), CellSt_pos d L (show 3 * 0 + 2 < 128 by decide)]
    isplitr [Hp0 Hx0 Hp1 Hx1 Hp2 Hx2 Hp3 Hx3 Hp4 Hx4 Hp5 Hx5 Hy HO]
    · iexact Hmw
    isplitl [Hp0 Hx0]
    · isplitl [Hp0]; · iexact Hp0
      iexact Hx0
    isplitl [Hp1 Hx1]
    · isplitl [Hp1]; · iexact Hp1
      iexact Hx1
    isplitl [Hp2 Hx2]
    · isplitl [Hp2]; · iexact Hp2
      iexact Hx2
    isplitl [Hp3 Hx3]
    · isplitl [Hp3]; · iexact Hp3
      iexact Hx3
    isplitl [Hp4 Hx4]
    · isplitl [Hp4]; · iexact Hp4
      iexact Hx4
    isplitl [Hp5 Hx5]
    · isplitl [Hp5]; · iexact Hp5
      iexact Hx5
    isplitl [Hy]
    · iexists fy
      isplitl [Hy]; · iexact Hy
      ipureintro
      intro r hr
      exact absurd hr (by omega)
    · iexists _
      isplitr [HO]
      rotate_left
      · iexact HO
      · ipureintro
        intro p hp
        exact Or.inl hp
  iintro %acc HI
  rw [show Scf.trips k0_t1_loop.lb k0_t1_loop.ub k0_t1_loop.st = 42 from trips_main]
  unfold invMain
  rw [show (3 * 42 : ℕ) = 126 from rfl, show (126 + 1 : ℕ) = 127 from rfl, show (126 + 2 : ℕ) = 128 from rfl]
  rw [CellSt_pos d L (show 126 < 128 by decide), CellSt_pos d L (show 126 < 128 by decide),
    CellSt_pos d L (show 127 < 128 by decide), CellSt_pos d L (show 127 < 128 by decide),
    CellSt_neg d L (show ¬ 128 < 128 by decide), CellSt_neg d L (show ¬ 128 < 128 by decide)]
  icases HI with ⟨-, ⟨Hp0, Hr0⟩, ⟨Hp1, Hr1⟩, ⟨Hp2, Hr2⟩, ⟨Hp3, Hr3⟩, ⟨⟨%g4, Hb4⟩, Ht4, Hx4, Hs4⟩, ⟨⟨%g5, Hb5⟩, Ht5, Hx5, Hs5⟩, ⟨%Y, HY, %hY⟩, ⟨%W1, %hW1, HO⟩⟩
  sl_exec
  -- wait for buffer 0 (row 126, half 0)
  rw [← wp_bind]
  iapply (wait_b0 d L ⟨126, by decide⟩ 0 (So := Finset.univ) (Finset.subset_univ _) (tokT q 0) (tokX 0) Tb (Xc d L I) (GG d L Tb I ⟨126, by decide⟩ 0) O _) $$ [Hp0 Hr0 HO Hmw]
  · isplitl [Hp0]; · iexact Hp0
    isplitl [Hr0]; · iexact Hr0
    isplitl [HO]; · iexact HO
    iexact Hmw
  iintro ⟨Ht0, Hb0, Hx0, Hs0, HO⟩
  sl_exec
  -- pool buffer 0
  rw [wp_bind]
  iapply (inner_t8 d L (GG d L Tb I ⟨126, by decide⟩ 0) (k0_pay103, k0_pay104, k0_pay105, k0_pay106, k0_pay107, k0_pay108, k0_pay109, k0_pay110) _ _ _ _ _ _ _ _ _) $$ [Hb0]
  · iexact Hb0
  iintro Hb0
  sl_exec
  -- wait for buffer 1 (row 126, half 1)
  iapply (wait_b1 d L ⟨126, by decide⟩ 1 (So := Finset.univ) (Finset.subset_univ _) (tokT q 1) (tokX 1) Tb (Xc d L I) (GG d L Tb I ⟨126, by decide⟩ 1) O _) $$ [Hp1 Hr1 HO Hmw]
  · isplitl [Hp1]; · iexact Hp1
    isplitl [Hr1]; · iexact Hr1
    isplitl [HO]; · iexact HO
    iexact Hmw
  iintro ⟨Ht1, Hb1, Hx1, Hs1, HO⟩
  sl_exec
  -- pool buffer 1
  rw [wp_bind]
  iapply (inner_t9 d L (GG d L Tb I ⟨126, by decide⟩ 1) (accsOut (GG d L Tb I ⟨126, by decide⟩ 0) (k0_pay103, k0_pay104, k0_pay105, k0_pay106, k0_pay107, k0_pay108, k0_pay109, k0_pay110)) _ _ _ _ _ _ _ _ _) $$ [Hb1]
  · iexact Hb1
  iintro Hb1
  rw [rowRes_eq d L I Tb ⟨126, by decide⟩]
  sl_exec
  -- wait for buffer 2 (row 127, half 0)
  iapply (wait_b2 d L ⟨127, by decide⟩ 0 (So := Finset.univ) (Finset.subset_univ _) (tokT q 2) (tokX 2) Tb (Xc d L I) (GG d L Tb I ⟨127, by decide⟩ 0) O _) $$ [Hp2 Hr2 HO Hmw]
  · isplitl [Hp2]; · iexact Hp2
    isplitl [Hr2]; · iexact Hr2
    isplitl [HO]; · iexact HO
    iexact Hmw
  iintro ⟨Ht2, Hb2, Hx2, Hs2, HO⟩
  sl_exec
  -- pool buffer 2
  rw [wp_bind]
  iapply (inner_t10 d L (GG d L Tb I ⟨127, by decide⟩ 0) (k0_pay103, k0_pay104, k0_pay105, k0_pay106, k0_pay107, k0_pay108, k0_pay109, k0_pay110) _ _ _ _ _ _ _ _ _) $$ [Hb2]
  · iexact Hb2
  iintro Hb2
  sl_exec
  -- wait for buffer 3 (row 127, half 1)
  iapply (wait_b3 d L ⟨127, by decide⟩ 1 (So := Finset.univ) (Finset.subset_univ _) (tokT q 3) (tokX 3) Tb (Xc d L I) (GG d L Tb I ⟨127, by decide⟩ 1) O _) $$ [Hp3 Hr3 HO Hmw]
  · isplitl [Hp3]; · iexact Hp3
    isplitl [Hr3]; · iexact Hr3
    isplitl [HO]; · iexact HO
    iexact Hmw
  iintro ⟨Ht3, Hb3, Hx3, Hs3, HO⟩
  sl_exec
  -- pool buffer 3
  rw [wp_bind]
  iapply (inner_t11 d L (GG d L Tb I ⟨127, by decide⟩ 1) (accsOut (GG d L Tb I ⟨127, by decide⟩ 0) (k0_pay103, k0_pay104, k0_pay105, k0_pay106, k0_pay107, k0_pay108, k0_pay109, k0_pay110)) _ _ _ _ _ _ _ _ _) $$ [Hb3]
  · iexact Hb3
  iintro Hb3
  rw [rowRes_eq d L I Tb ⟨127, by decide⟩]
  sl_exec
  -- the program has returned: hand everything back
  sl_step
  ihave Ht := (toks6 (F := F) q).2 $$ [Htd Ht0 Ht1 Ht2 Ht3 Ht4 Ht5]
  · isplitl [Htd]; · iexact Htd
    isplitl [Ht0]; · iexact Ht0
    isplitl [Ht1]; · iexact Ht1
    isplitl [Ht2]; · iexact Ht2
    isplitl [Ht3]; · iexact Ht3
    isplitl [Ht4]; · iexact Ht4
    iexact Ht5
  ihave Hx := (toks6 (F := F) fullShare).2 $$ [Hxd Hx0 Hx1 Hx2 Hx3 Hx4 Hx5]
  · isplitl [Hxd]; · iexact Hxd
    isplitl [Hx0]; · iexact Hx0
    isplitl [Hx1]; · iexact Hx1
    isplitl [Hx2]; · iexact Hx2
    isplitl [Hx3]; · iexact Hx3
    isplitl [Hx4]; · iexact Hx4
    iexact Hx5
  isplitl [HiA]; · iexact HiA
  isplitl [HiB]; · iexact HiB
  isplitl [Ht]; · iexact Ht
  isplitl [Ho]
  · iexists _
    isplitl [Ho]; · iexact Ho
    ipureintro
    exact landO d L I Tb fo _ (Y_tail_lit d L I Tb Y hY (inb_row ⟨126, by decide⟩) (inb_row ⟨127, by decide⟩))
  isplitl [Hx]; · (iexists _; iexact Hx)
  isplitl [Hb0]; · (iexists _; iexact Hb0)
  isplitl [Hb1]; · (iexists _; iexact Hb1)
  isplitl [Hb2]; · (iexists _; iexact Hb2)
  isplitl [Hb3]; · (iexists _; iexact Hb3)
  isplitl [Hb4]; · (iexists _; iexact Hb4)
  isplitl [Hb5]; · (iexists _; iexact Hb5)
  isplitl [HY]; · (iexists _; iexact HY)
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hr0]; · iexact Hr0
  isplitl [Hr1]; · iexact Hr1
  iexists _
  isplitr [HO]
  rotate_left
  · iexact HO
  · ipureintro
    intro p hp
    simp only [Finset.mem_insert] at hp
    rcases hp with rfl | rfl | rfl | rfl | rfl | hp
    · exact Or.inr rfl
    · exact Or.inr rfl
    · exact Or.inr rfl
    · exact Or.inr rfl
    · exact Or.inr rfl
    · rcases hW1 p hp with h | h
      · simp only [Finset.mem_insert] at h
        rcases h with rfl | rfl | h
        · exact Or.inr rfl
        · exact Or.inr rfl
        · exact Or.inl h
      · exact Or.inr h

end Tile

end Cert.Proof.KB

end
-- ==== Proof.lean ====
/-
  The kernel looks up, for each of 4096 batch rows, the 200 table rows its indices name, and keeps for each of the 128
  columns the largest entry; the reference does the same with a gather of whole rows and a maximum along the history axis.

  The kernel runs on 2 × 16 tiles. Tile (c, s) owns the 128 batch rows from 256·s + 128·c. It copies its rows of the indices
  (reshaped to two halves of 100) into a scratch, keeps six gathers of 100 table rows in flight — one per buffer, buffer 2j + h
  serving the tile's local row 3k + j, half h in trip k of its main loop — and folds each gathered buffer, 16 lanes at a time,
  into eight running maxima that start at −∞: 25 steps of max(acc, max(max(x₀, x₁), max(x₂, x₃))) per half. After the second
  half the eight maxima are the row's 128 results; they are stored into a [128, 128] scratch that the tile copies onto its rows
  of the result at the end.

  The proof. KSpec.kres is that fold as a function of the reshaped indices and the table, for any float instance. One tile's
  body (tile_main) is run once, at symbolic tile coordinates and for both instances: the six pending gathers, each holding a
  read share of the table and of its own 100 index words, are the main loop's invariant, with the finished rows of the result
  scratch; the index range 0 ≤ input < 100000 from the precondition is what keeps every gather's row numbers inside the table.
  The launch theorem turns the 32 bodies into the program's run, whose result is kres and whose arguments are unchanged: that
  is the two kernel frames. On the extended reals the maximum is associative, commutative and idempotent and −∞ is neutral, so
  kres is the largest of the 200 entries (KValue.kres_eq_pooled), and the reference's run computes the same supremum
  (RefValue.run_pooled: the wrap of negative indices is not taken, the bounds mask is all ones, the gather reads the row the
  index names): the two results are equal entry by entry. The idealization rewrote nothing, so preserves is trivial.
-/
import proofs.«206947_g65644280152286_cont_9to1_m_226_28_alg».proof.Defs
import proofs.«206947_g65644280152286_cont_9to1_m_226_28_alg».proof.Proof.Assemble
import proofs.«206947_g65644280152286_cont_9to1_m_226_28_alg».proof.Proof.KIWrap
import proofs.«206947_g65644280152286_cont_9to1_m_226_28_alg».proof.Proof.KBWrap
import proofs.«206947_g65644280152286_cont_9to1_m_226_28_alg».proof.Proof.KIBody
import proofs.«206947_g65644280152286_cont_9to1_m_226_28_alg».proof.Proof.KBBody

noncomputable section

namespace Cert.Proof

theorem claim : Cert.Claim :=
  Cert.Proof.Asm.claim_of (Cert.Proof.KB.tileBody_of_main Cert.Proof.KB.tile_main) (Cert.Proof.KI.tileBody_of_main Cert.Proof.KI.tile_main)

end Cert.Proof

end
